-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v226)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v226) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v407) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) (main_arg1 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S8x1024x1024 : Shape := ⟨3, ![8, 1024, 1024]⟩
abbrev S8x3x1x1 : Shape := ⟨4, ![8, 3, 1, 1]⟩
abbrev S8x1x1x1 : Shape := ⟨4, ![8, 1, 1, 1]⟩
abbrev S1x3x256x1024 : Shape := ⟨4, ![1, 3, 256, 1024]⟩
abbrev S1x256x1024 : Shape := ⟨3, ![1, 256, 1024]⟩
abbrev S1x3x1x1 : Shape := ⟨4, ![1, 3, 1, 1]⟩
abbrev S1x1x1x1 : Shape := ⟨4, ![1, 1, 1, 1]⟩
abbrev S1x3x256 : Shape := ⟨3, ![1, 3, 256]⟩
abbrev S1x3x256x1 : Shape := ⟨4, ![1, 3, 256, 1]⟩
abbrev S1x3x1 : Shape := ⟨3, ![1, 3, 1]⟩
abbrev S1x1x1 : Shape := ⟨3, ![1, 1, 1]⟩
abbrev S1x8x1024x1024 : Shape := ⟨4, ![1, 8, 1024, 1024]⟩
abbrev S2x8x1024x1024 : Shape := ⟨4, ![2, 8, 1024, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S1026x1024 : Shape := ⟨2, ![1026, 1024]⟩
abbrev S1026x1 : Shape := ⟨2, ![1026, 1]⟩
abbrev S1026x1026 : Shape := ⟨2, ![1026, 1026]⟩
abbrev S_ : Shape := ⟨0, ![]⟩
abbrev S1025x1024 : Shape := ⟨2, ![1025, 1024]⟩
abbrev S1026x1025 : Shape := ⟨2, ![1026, 1025]⟩
abbrev S8x1x1 : Shape := ⟨3, ![8, 1, 1]⟩
abbrev S1x1024x1024 : Shape := ⟨3, ![1, 1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x1025 : Shape := ⟨2, ![1024, 1025]⟩
abbrev S1024x1026 : Shape := ⟨2, ![1024, 1026]⟩
abbrev S8x3 : Shape := ⟨2, ![8, 3]⟩

abbrev nBuf : Space → Nat
  | .hbm => 377
  | .vmem => 30
  | .smem => 0
  | _ => 0

abbrev hbmTy0_0 (i : Nat) : BufTy := match i % 128 with
  | 0 => ⟨S8x3x1024x1024, .f32⟩
  | 1 => ⟨S8x3x1024x1024, .f32⟩
  | 2 => ⟨S8x1024x1024, .f32⟩
  | 3 => ⟨S8x1024x1024, .f32⟩
  | 4 => ⟨S8x3x1x1, .f32⟩
  | 5 => ⟨S8x3x1x1, .f32⟩
  | 6 => ⟨S8x3x1x1, .f32⟩
  | 7 => ⟨S8x3x1x1, .f32⟩
  | 8 => ⟨S8x1x1x1, .f32⟩
  | 9 => ⟨S1x8x1024x1024, .f32⟩
  | 10 => ⟨S1x8x1024x1024, .f32⟩
  | 11 => ⟨S2x8x1024x1024, .f32⟩
  | 12 => ⟨S2x8x1024x1024, .f32⟩
  | 13 => ⟨S1x8x1024x1024, .f32⟩
  | 14 => ⟨S8x1024x1024, .f32⟩
  | 15 => ⟨S1x8x1024x1024, .f32⟩
  | 16 => ⟨S8x1024x1024, .f32⟩
  | 17 => ⟨S1x1x1024x1024, .f32⟩
  | 18 => ⟨S1024x1024, .f32⟩
  | 19 => ⟨S1x1x1024x1024, .f32⟩
  | 20 => ⟨S1024x1024, .f32⟩
  | 21 => ⟨S_, .i32⟩
  | 22 => ⟨S1x1024, .f32⟩
  | 23 => ⟨S1x1024, .f32⟩
  | 24 => ⟨S1x1024, .f32⟩
  | 25 => ⟨S1025x1024, .f32⟩
  | 26 => ⟨S1x1024, .f32⟩
  | 27 => ⟨S1x1024, .f32⟩
  | 28 => ⟨S1x1024, .f32⟩
  | 29 => ⟨S1026x1024, .f32⟩
  | 30 => ⟨S1026x1, .f32⟩
  | 31 => ⟨S1026x1, .f32⟩
  | 32 => ⟨S1026x1, .f32⟩
  | 33 => ⟨S1026x1025, .f32⟩
  | 34 => ⟨S1026x1, .f32⟩
  | 35 => ⟨S1026x1, .f32⟩
  | 36 => ⟨S1026x1, .f32⟩
  | 37 => ⟨S1026x1026, .f32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S1024x1024, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .i32⟩
  | 86 => ⟨S1x1024, .f32⟩
  | 87 => ⟨S1x1024, .f32⟩
  | 88 => ⟨S1x1024, .f32⟩
  | 89 => ⟨S1025x1024, .f32⟩
  | 90 => ⟨S1x1024, .f32⟩
  | 91 => ⟨S1x1024, .f32⟩
  | 92 => ⟨S1x1024, .f32⟩
  | 93 => ⟨S1026x1024, .f32⟩
  | 94 => ⟨S1026x1, .f32⟩
  | 95 => ⟨S1026x1, .f32⟩
  | 96 => ⟨S1026x1, .f32⟩
  | 97 => ⟨S1026x1025, .f32⟩
  | 98 => ⟨S1026x1, .f32⟩
  | 99 => ⟨S1026x1, .f32⟩
  | 100 => ⟨S1026x1, .f32⟩
  | 101 => ⟨S1026x1026, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S8x3x1024x1024, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .i32⟩
  | 22 => ⟨S1x1024, .f32⟩
  | 23 => ⟨S1x1024, .f32⟩
  | 24 => ⟨S1x1024, .f32⟩
  | 25 => ⟨S1025x1024, .f32⟩
  | 26 => ⟨S1x1024, .f32⟩
  | 27 => ⟨S1x1024, .f32⟩
  | 28 => ⟨S1x1024, .f32⟩
  | 29 => ⟨S1026x1024, .f32⟩
  | 30 => ⟨S1026x1, .f32⟩
  | 31 => ⟨S1026x1, .f32⟩
  | 32 => ⟨S1026x1, .f32⟩
  | 33 => ⟨S1026x1025, .f32⟩
  | 34 => ⟨S1026x1, .f32⟩
  | 35 => ⟨S1026x1, .f32⟩
  | 36 => ⟨S1026x1, .f32⟩
  | 37 => ⟨S1026x1026, .f32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S1024x1024, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .i32⟩
  | 86 => ⟨S1x1024, .f32⟩
  | 87 => ⟨S1x1024, .f32⟩
  | 88 => ⟨S1x1024, .f32⟩
  | 89 => ⟨S1025x1024, .f32⟩
  | 90 => ⟨S1x1024, .f32⟩
  | 91 => ⟨S1x1024, .f32⟩
  | 92 => ⟨S1x1024, .f32⟩
  | 93 => ⟨S1026x1024, .f32⟩
  | 94 => ⟨S1026x1, .f32⟩
  | 95 => ⟨S1026x1, .f32⟩
  | 96 => ⟨S1026x1, .f32⟩
  | 97 => ⟨S1026x1025, .f32⟩
  | 98 => ⟨S1026x1, .f32⟩
  | 99 => ⟨S1026x1, .f32⟩
  | 100 => ⟨S1026x1, .f32⟩
  | 101 => ⟨S1026x1026, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S8x3x1024x1024, .f32⟩

abbrev hbmTy0_2 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S8x1x1, .f32⟩
  | 22 => ⟨S_, .f32⟩
  | 23 => ⟨S_, .f32⟩
  | 24 => ⟨S_, .f32⟩
  | 25 => ⟨S_, .f32⟩
  | 26 => ⟨S_, .i32⟩
  | 27 => ⟨S1024x1, .f32⟩
  | 28 => ⟨S1024x1, .f32⟩
  | 29 => ⟨S1024x1, .f32⟩
  | 30 => ⟨S1024x1025, .f32⟩
  | 31 => ⟨S1024x1, .f32⟩
  | 32 => ⟨S1024x1, .f32⟩
  | 33 => ⟨S1024x1, .f32⟩
  | 34 => ⟨S1024x1026, .f32⟩
  | 35 => ⟨S1024x1024, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S_, .i32⟩
  | 45 => ⟨S1024x1, .f32⟩
  | 46 => ⟨S1024x1, .f32⟩
  | 47 => ⟨S1024x1, .f32⟩
  | 48 => ⟨S1024x1025, .f32⟩
  | 49 => ⟨S1024x1, .f32⟩
  | 50 => ⟨S1024x1, .f32⟩
  | 51 => ⟨S1024x1, .f32⟩
  | 52 => ⟨S1024x1026, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S_, .f32⟩
  | 65 => ⟨S_, .f32⟩
  | 66 => ⟨S_, .f32⟩
  | 67 => ⟨S_, .f32⟩
  | 68 => ⟨S8x3, .f32⟩
  | 69 => ⟨S8x3, .f32⟩
  | 70 => ⟨S8x3, .f32⟩
  | 71 => ⟨S8x3, .f32⟩
  | 72 => ⟨S_, .f32⟩
  | 73 => ⟨S8x3, .f32⟩
  | 74 => ⟨S8x3, .f32⟩
  | 75 => ⟨S8x3, .f32⟩
  | 76 => ⟨S_, .f32⟩
  | 77 => ⟨S8x3, .f32⟩
  | 78 => ⟨S8x3, .f32⟩
  | 79 => ⟨S8x3, .f32⟩
  | 80 => ⟨S_, .f32⟩
  | 81 => ⟨S8x3, .f32⟩
  | 82 => ⟨S8x3, .f32⟩
  | 83 => ⟨S_, .f32⟩
  | 84 => ⟨S8x3, .f32⟩
  | 85 => ⟨S8x3, .f32⟩
  | 86 => ⟨S8x3, .f32⟩
  | 87 => ⟨S8x3, .f32⟩
  | 88 => ⟨S_, .f32⟩
  | 89 => ⟨S8x3, .f32⟩
  | 90 => ⟨S8x3, .f32⟩
  | 91 => ⟨S8x3, .f32⟩
  | 92 => ⟨S_, .f32⟩
  | 93 => ⟨S8x3, .f32⟩
  | 94 => ⟨S8x3, .f32⟩
  | 95 => ⟨S_, .f32⟩
  | 96 => ⟨S8x3, .f32⟩
  | 97 => ⟨S8x3, .f32⟩
  | 98 => ⟨S8x3, .f32⟩
  | 99 => ⟨S_, .f32⟩
  | 100 => ⟨S8x3, .f32⟩
  | 101 => ⟨S8x3, .f32⟩
  | 102 => ⟨S8x3, .f32⟩
  | 103 => ⟨S_, .f32⟩
  | 104 => ⟨S_, .f32⟩
  | 105 => ⟨S_, .f32⟩
  | 106 => ⟨S_, .f32⟩
  | 107 => ⟨S8x3, .f32⟩
  | 108 => ⟨S8x3, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | _ => ⟨S8x3x1024x1024, .f32⟩

abbrev hbmTy (i : Nat) : BufTy := match i / 128 with
  | 0 => hbmTy0_0 i
  | 1 => hbmTy0_1 i
  | 2 => hbmTy0_2 i
  | _ => ⟨S8x3x1024x1024, .f32⟩

abbrev bufTy : (tb : Table) → Fin (tcTables nBuf tb) → BufTy
  | .hbm, ⟨i, _⟩ => hbmTy i
  | .local _ .vmem, ⟨0, _⟩ => ⟨S1x3x256x1024, .f32⟩
  | .local _ .vmem, ⟨1, _⟩ => ⟨S1x3x256x1024, .f32⟩
  | .local _ .vmem, ⟨2, _⟩ => ⟨S1x3x256x1024, .f32⟩
  | .local _ .vmem, ⟨3, _⟩ => ⟨S1x3x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x3x1x1, .f32⟩
  | .local _ .vmem, ⟨9, _⟩ => ⟨S1x3x1x1, .f32⟩
  | .local _ .vmem, ⟨10, _⟩ => ⟨S1x3x1x1, .f32⟩
  | .local _ .vmem, ⟨11, _⟩ => ⟨S1x3x1x1, .f32⟩
  | .local _ .vmem, ⟨12, _⟩ => ⟨S1x3x1x1, .f32⟩
  | .local _ .vmem, ⟨13, _⟩ => ⟨S1x3x1x1, .f32⟩
  | .local _ .vmem, ⟨14, _⟩ => ⟨S1x3x1x1, .f32⟩
  | .local _ .vmem, ⟨15, _⟩ => ⟨S1x3x1x1, .f32⟩
  | .local _ .vmem, ⟨16, _⟩ => ⟨S1x1x1x1, .f32⟩
  | .local _ .vmem, ⟨17, _⟩ => ⟨S1x1x1x1, .f32⟩
  | .local _ .vmem, ⟨18, _⟩ => ⟨S1x1x1024x1024, .f32⟩
  | .local _ .vmem, ⟨19, _⟩ => ⟨S1x1x1024x1024, .f32⟩
  | .local _ .vmem, ⟨20, _⟩ => ⟨S1x1x1024x1024, .f32⟩
  | .local _ .vmem, ⟨21, _⟩ => ⟨S1x1x1024x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | .local _ .vmem, ⟨27, _⟩ => ⟨S1024x1024, .f32⟩
  | .local _ .vmem, ⟨28, _⟩ => ⟨S1x1x1, .f32⟩
  | .local _ .vmem, ⟨29, _⟩ => ⟨S1x1x1, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v51 : Ref sig .tc := ⟨.hbm, 101, rfl⟩
abbrev main_cst_10 : Ref sig .tc := ⟨.hbm, 102, rfl⟩
abbrev main_v52 : Ref sig .tc := ⟨.hbm, 103, rfl⟩
abbrev main_v53 : Ref sig .tc := ⟨.hbm, 104, rfl⟩
abbrev main_cst_11 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_12 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_13 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_14 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_15 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_16 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_17 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_18 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_19 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_20 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_v12 : Ref sig .tc := ⟨.hbm, 162, rfl⟩
abbrev main_call2_v13 : Ref sig .tc := ⟨.hbm, 163, rfl⟩
abbrev main_call2_v14 : Ref sig .tc := ⟨.hbm, 164, rfl⟩
abbrev main_v89 : Ref sig .tc := ⟨.hbm, 165, rfl⟩
abbrev main_cst_21 : Ref sig .tc := ⟨.hbm, 166, rfl⟩
abbrev main_v90 : Ref sig .tc := ⟨.hbm, 167, rfl⟩
abbrev main_v91 : Ref sig .tc := ⟨.hbm, 168, rfl⟩
abbrev main_cst_22 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_23 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_cst_24 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_25 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_26 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_27 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_cst_28 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_29 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_cst_30 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_31 : Ref sig .tc := ⟨.hbm, 213, rfl⟩
abbrev main_call3_v0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_v5 : Ref sig .tc := ⟨.hbm, 219, rfl⟩
abbrev main_call3_v6 : Ref sig .tc := ⟨.hbm, 220, rfl⟩
abbrev main_call3_v7 : Ref sig .tc := ⟨.hbm, 221, rfl⟩
abbrev main_call3_v8 : Ref sig .tc := ⟨.hbm, 222, rfl⟩
abbrev main_call3_v9 : Ref sig .tc := ⟨.hbm, 223, rfl⟩
abbrev main_call3_v10 : Ref sig .tc := ⟨.hbm, 224, rfl⟩
abbrev main_call3_v11 : Ref sig .tc := ⟨.hbm, 225, rfl⟩
abbrev main_call3_v12 : Ref sig .tc := ⟨.hbm, 226, rfl⟩
abbrev main_call3_v13 : Ref sig .tc := ⟨.hbm, 227, rfl⟩
abbrev main_call3_v14 : Ref sig .tc := ⟨.hbm, 228, rfl⟩
abbrev main_v127 : Ref sig .tc := ⟨.hbm, 229, rfl⟩
abbrev main_cst_32 : Ref sig .tc := ⟨.hbm, 230, rfl⟩
abbrev main_v128 : Ref sig .tc := ⟨.hbm, 231, rfl⟩
abbrev main_v129 : Ref sig .tc := ⟨.hbm, 232, rfl⟩
abbrev main_cst_33 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_cst_34 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_cst_35 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_cst_36 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_cst_37 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_cst_38 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_cst_39 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_cst_40 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_cst_41 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_cst_42 : Ref sig .tc := ⟨.hbm, 278, rfl⟩
abbrev main_v166 : Ref sig .tc := ⟨.hbm, 279, rfl⟩
abbrev main_cst_43 : Ref sig .tc := ⟨.hbm, 280, rfl⟩
abbrev main_v167 : Ref sig .tc := ⟨.hbm, 281, rfl⟩
abbrev main_c_44 : Ref sig .tc := ⟨.hbm, 282, rfl⟩
abbrev main_call4_v0 : Ref sig .tc := ⟨.hbm, 283, rfl⟩
abbrev main_call4_v1 : Ref sig .tc := ⟨.hbm, 284, rfl⟩
abbrev main_call4_v2 : Ref sig .tc := ⟨.hbm, 285, rfl⟩
abbrev main_call4_v3 : Ref sig .tc := ⟨.hbm, 286, rfl⟩
abbrev main_call4_v4 : Ref sig .tc := ⟨.hbm, 287, rfl⟩
abbrev main_call4_v5 : Ref sig .tc := ⟨.hbm, 288, rfl⟩
abbrev main_call4_v6 : Ref sig .tc := ⟨.hbm, 289, rfl⟩
abbrev main_v168 : Ref sig .tc := ⟨.hbm, 290, rfl⟩
abbrev main_v169 : Ref sig .tc := ⟨.hbm, 291, rfl⟩
abbrev main_cst_45 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_cst_46 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_c_47 : Ref sig .tc := ⟨.hbm, 300, rfl⟩
abbrev main_call5_v0 : Ref sig .tc := ⟨.hbm, 301, rfl⟩
abbrev main_call5_v1 : Ref sig .tc := ⟨.hbm, 302, rfl⟩
abbrev main_call5_v2 : Ref sig .tc := ⟨.hbm, 303, rfl⟩
abbrev main_call5_v3 : Ref sig .tc := ⟨.hbm, 304, rfl⟩
abbrev main_call5_v4 : Ref sig .tc := ⟨.hbm, 305, rfl⟩
abbrev main_call5_v5 : Ref sig .tc := ⟨.hbm, 306, rfl⟩
abbrev main_call5_v6 : Ref sig .tc := ⟨.hbm, 307, rfl⟩
abbrev main_v176 : Ref sig .tc := ⟨.hbm, 308, rfl⟩
abbrev main_v177 : Ref sig .tc := ⟨.hbm, 309, rfl⟩
abbrev main_cst_48 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_cst_49 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_cst_50 : Ref sig .tc := ⟨.hbm, 320, rfl⟩
abbrev main_v186 : Ref sig .tc := ⟨.hbm, 321, rfl⟩
abbrev main_cst_51 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_cst_52 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_cst_53 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_cst_54 : Ref sig .tc := ⟨.hbm, 336, rfl⟩
abbrev main_v198 : Ref sig .tc := ⟨.hbm, 337, rfl⟩
abbrev main_v199 : Ref sig .tc := ⟨.hbm, 338, rfl⟩
abbrev main_cst_55 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_cst_56 : Ref sig .tc := ⟨.hbm, 344, rfl⟩
abbrev main_v204 : Ref sig .tc := ⟨.hbm, 345, rfl⟩
abbrev main_v205 : Ref sig .tc := ⟨.hbm, 346, rfl⟩
abbrev main_v206 : Ref sig .tc := ⟨.hbm, 347, rfl⟩
abbrev main_cst_57 : Ref sig .tc := ⟨.hbm, 348, rfl⟩
abbrev main_v207 : Ref sig .tc := ⟨.hbm, 349, rfl⟩
abbrev main_v208 : Ref sig .tc := ⟨.hbm, 350, rfl⟩
abbrev main_cst_58 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_cst_59 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_cst_60 : Ref sig .tc := ⟨.hbm, 359, rfl⟩
abbrev main_v215 : Ref sig .tc := ⟨.hbm, 360, rfl⟩
abbrev main_cst_61 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_cst_62 : Ref sig .tc := ⟨.hbm, 365, rfl⟩
abbrev main_v219 : Ref sig .tc := ⟨.hbm, 366, rfl⟩
abbrev main_cst_63 : Ref sig .tc := ⟨.hbm, 367, rfl⟩
abbrev main_v220 : Ref sig .tc := ⟨.hbm, 368, rfl⟩
abbrev main_cst_64 : Ref sig .tc := ⟨.hbm, 369, rfl⟩
abbrev main_v221 : Ref sig .tc := ⟨.hbm, 370, rfl⟩
abbrev main_cst_65 : Ref sig .tc := ⟨.hbm, 371, rfl⟩
abbrev main_v222 : Ref sig .tc := ⟨.hbm, 372, rfl⟩
abbrev main_v223 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1x3x1x1_S1x3x1x1_0_0_0_0 : ∀ a, (![0, 0, 0, 0] : Fin 4 → Nat) a + S1x3x1x1.size a ≤ S1x3x1x1.size a
  h_S1x3x1x1 : 0 < S1x3x1x1.numel
  inb_S1x1x1x1_S1x1x1x1_0_0_0_0 : ∀ a, (![0, 0, 0, 0] : Fin 4 → Nat) a + S1x1x1x1.size a ≤ S1x1x1x1.size a
  h_S1x1x1x1 : 0 < S1x1x1x1.numel
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  shapeCasts_S1x3x1x1_S1x3x1x1 : S1x3x1x1.ShapeCasts S1x3x1x1
  reduces_S1x3x256x1024_S1x3x256 : S1x3x256x1024.Reduces [3] S1x3x256
  shapeCasts_S1x3x256_S1x3x256x1 : S1x3x256.ShapeCasts S1x3x256x1
  reduces_S1x3x256x1_S1x3x1 : S1x3x256x1.Reduces [2] S1x3x1
  shapeCasts_S1x3x1_S1x3x1x1 : S1x3x1.ShapeCasts S1x3x1x1
  shapeCasts_S1x1x1x1_S1x1x1x1 : S1x1x1x1.ShapeCasts S1x1x1x1
  reduces_S1x3x1x1_S1x1x1 : S1x3x1x1.Reduces [1] S1x1x1
  shapeCasts_S1x1x1_S1x1x1x1 : S1x1x1.ShapeCasts S1x1x1x1
  reduces_S1x3x256x1024_S1x256x1024 : S1x3x256x1024.Reduces [1] S1x256x1024
  inb_S1x256x1024_S1x256x1024_0_0_0 : ∀ a, (![0, 0, 0] : Fin 3 → Nat) a + S1x256x1024.size a ≤ S1x256x1024.size a
  h_S1x256x1024 : 0 < S1x256x1024.numel
  bcast_S8x1024x1024_S1x8x1024x1024_1_2_3 : S8x1024x1024.BroadcastsInDim S1x8x1024x1024 (![1, 2, 3] : Fin 3 → Fin S1x8x1024x1024.rank)
  concatenates_S1x8x1024x1024_S1x8x1024x1024_S2x8x1024x1024_d0 : Shape.Concatenates [S1x8x1024x1024, S1x8x1024x1024] S2x8x1024x1024 0
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o1_0_S1x1024 : S1024x1024.Slices ![1, 0] S1x1024
  slices_S1024x1024_o1022_0_S1x1024 : S1024x1024.Slices ![1022, 0] S1x1024
  concatenates_S1x1024_S1024x1024_S1x1024_S1026x1024_d0 : Shape.Concatenates [S1x1024, S1024x1024, S1x1024] S1026x1024 0
  slices_S1026x1024_o0_1_S1026x1 : S1026x1024.Slices ![0, 1] S1026x1
  slices_S1026x1024_o0_1022_S1026x1 : S1026x1024.Slices ![0, 1022] S1026x1
  concatenates_S1026x1_S1026x1024_S1026x1_S1026x1026_d1 : Shape.Concatenates [S1026x1, S1026x1024, S1026x1] S1026x1026 1
  slices_S1026x1026_o0_0_S1024x1024 : S1026x1026.Slices ![0, 0] S1024x1024
  slices_S1026x1026_o0_1_S1024x1024 : S1026x1026.Slices ![0, 1] S1024x1024
  slices_S1026x1026_o0_2_S1024x1024 : S1026x1026.Slices ![0, 2] S1024x1024
  slices_S1026x1026_o1_0_S1024x1024 : S1026x1026.Slices ![1, 0] S1024x1024
  slices_S1026x1026_o1_1_S1024x1024 : S1026x1026.Slices ![1, 1] S1024x1024
  slices_S1026x1026_o1_2_S1024x1024 : S1026x1026.Slices ![1, 2] S1024x1024
  slices_S1026x1026_o2_0_S1024x1024 : S1026x1026.Slices ![2, 0] S1024x1024
  slices_S1026x1026_o2_1_S1024x1024 : S1026x1026.Slices ![2, 1] S1024x1024
  slices_S1026x1026_o2_2_S1024x1024 : S1026x1026.Slices ![2, 2] S1024x1024
  shapeCasts_S1024x1024_S1x1x1024x1024 : S1024x1024.ShapeCasts S1x1x1024x1024
  slices_S2x8x1024x1024_S1x8x1024x1024_0_0_0_0 : S2x8x1024x1024.Slices ![0, 0, 0, 0] S1x8x1024x1024
  shapeCasts_S1x8x1024x1024_S8x1024x1024 : S1x8x1024x1024.ShapeCasts S8x1024x1024
  slices_S2x8x1024x1024_S1x8x1024x1024_1_0_0_0 : S2x8x1024x1024.Slices ![1, 0, 0, 0] S1x8x1024x1024
  slices_S8x3x1024x1024_S1x1x1024x1024_0_0_0_0 : S8x3x1024x1024.Slices ![0, 0, 0, 0] S1x1x1024x1024
  slices_S1024x1024_S1x1024_0_0 : S1024x1024.Slices ![0, 0] S1x1024
  slices_S1024x1024_S1x1024_1_0 : S1024x1024.Slices ![1, 0] S1x1024
  concatenates_S1x1024_S1024x1024_S1025x1024_d0 : Shape.Concatenates [S1x1024, S1024x1024] S1025x1024 0
  slices_S1025x1024_S1x1024_1024_0 : S1025x1024.Slices ![1024, 0] S1x1024
  slices_S1025x1024_S1x1024_1023_0 : S1025x1024.Slices ![1023, 0] S1x1024
  concatenates_S1025x1024_S1x1024_S1026x1024_d0 : Shape.Concatenates [S1025x1024, S1x1024] S1026x1024 0
  slices_S1026x1024_S1026x1_0_0 : S1026x1024.Slices ![0, 0] S1026x1
  slices_S1026x1024_S1026x1_0_1 : S1026x1024.Slices ![0, 1] S1026x1
  concatenates_S1026x1_S1026x1024_S1026x1025_d1 : Shape.Concatenates [S1026x1, S1026x1024] S1026x1025 1
  slices_S1026x1025_S1026x1_0_1024 : S1026x1025.Slices ![0, 1024] S1026x1
  slices_S1026x1025_S1026x1_0_1023 : S1026x1025.Slices ![0, 1023] S1026x1
  concatenates_S1026x1025_S1026x1_S1026x1026_d1 : Shape.Concatenates [S1026x1025, S1026x1] S1026x1026 1
  bcast_S_S1024x1024 : S_.BroadcastsInDim S1024x1024 (![] : Fin 0 → Fin S1024x1024.rank)
  slices_S1026x1026_S1024x1024_0_0 : S1026x1026.Slices ![0, 0] S1024x1024
  slices_S1026x1026_S1024x1024_0_1 : S1026x1026.Slices ![0, 1] S1024x1024
  slices_S1026x1026_S1024x1024_0_2 : S1026x1026.Slices ![0, 2] S1024x1024
  slices_S1026x1026_S1024x1024_1_0 : S1026x1026.Slices ![1, 0] S1024x1024
  slices_S1026x1026_S1024x1024_1_1 : S1026x1026.Slices ![1, 1] S1024x1024
  slices_S1026x1026_S1024x1024_1_2 : S1026x1026.Slices ![1, 2] S1024x1024
  slices_S1026x1026_S1024x1024_2_0 : S1026x1026.Slices ![2, 0] S1024x1024
  slices_S1026x1026_S1024x1024_2_1 : S1026x1026.Slices ![2, 1] S1024x1024
  slices_S1026x1026_S1024x1024_2_2 : S1026x1026.Slices ![2, 2] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  h_S_ : 0 < S_.numel
  slices_S1024x1024_S1024x1_0_0 : S1024x1024.Slices ![0, 0] S1024x1
  slices_S1024x1024_S1024x1_0_1 : S1024x1024.Slices ![0, 1] S1024x1
  concatenates_S1024x1_S1024x1024_S1024x1025_d1 : Shape.Concatenates [S1024x1, S1024x1024] S1024x1025 1
  slices_S1024x1025_S1024x1_0_1024 : S1024x1025.Slices ![0, 1024] S1024x1
  slices_S1024x1025_S1024x1_0_1023 : S1024x1025.Slices ![0, 1023] S1024x1
  concatenates_S1024x1025_S1024x1_S1024x1026_d1 : Shape.Concatenates [S1024x1025, S1024x1] S1024x1026 1
  slices_S1024x1026_S1024x1024_0_0 : S1024x1026.Slices ![0, 0] S1024x1024
  slices_S1024x1026_S1024x1024_0_2 : S1024x1026.Slices ![0, 2] S1024x1024
  reducesTo_S1024x1024_S_d0_1 : S1024x1024.ReducesTo [0, 1] S_
  shapeCasts_S8x3x1x1_S8x3 : S8x3x1x1.ShapeCasts S8x3
  bcast_S_S8x3 : S_.BroadcastsInDim S8x3 (![] : Fin 0 → Fin S8x3.rank)
  reducesTo_S8x3_S_d0_1 : S8x3.ReducesTo [0, 1] S_
  reducesTo_S8x1x1x1_S_d0_1_2_3 : S8x1x1x1.ReducesTo [0, 1, 2, 3] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S8x3x1024x1024.size a
  hwx0_0 : ∀ i : grid0.Coords, EltTy.bits .f32 = 32 ∨ (Rect.block (s := S8x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256x1024.size a ≤ S8x3x1024x1024.size a
  hwx0_1 : ∀ i : grid0.Coords, EltTy.bits .f32 = 32 ∨ (Rect.block (s := S8x3x1024x1024) S1x3x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x1024x1024.size a
  hwx0_2 : ∀ i : grid0.Coords, EltTy.bits .f32 = 32 ∨ (Rect.block (s := S8x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x1024.size a
  hwx0_3 : ∀ i : grid0.Coords, EltTy.bits .f32 = 32 ∨ (Rect.block (s := S8x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1x1.size a ≤ S8x3x1x1.size a
  hwx0_4 : ∀ i : grid0.Coords, EltTy.bits .f32 = 32 ∨ (Rect.block (s := S8x3x1x1) S1x3x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x1x1.size a ≤ S8x3x1x1.size a
  hwx0_5 : ∀ i : grid0.Coords, EltTy.bits .f32 = 32 ∨ (Rect.block (s := S8x3x1x1) S1x3x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x1x1.size a ≤ S8x3x1x1.size a
  hwx0_6 : ∀ i : grid0.Coords, EltTy.bits .f32 = 32 ∨ (Rect.block (s := S8x3x1x1) S1x3x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x1x1.size a ≤ S8x3x1x1.size a
  hwx0_7 : ∀ i : grid0.Coords, EltTy.bits .f32 = 32 ∨ (Rect.block (s := S8x3x1x1) S1x3x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1x1.size a ≤ S8x1x1x1.size a
  hwx0_8 : ∀ i : grid0.Coords, EltTy.bits .f32 = 32 ∨ (Rect.block (s := S8x1x1x1) S1x1x1x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x1024.size a ≤ S2x8x1024x1024.size a
  hwx1_0 : ∀ i : grid1.Coords, EltTy.bits .f32 = 32 ∨ (Rect.block (s := S2x8x1024x1024) S1x1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x1024.size a ≤ S2x8x1024x1024.size a
  hwx1_1 : ∀ i : grid1.Coords, EltTy.bits .f32 = 32 ∨ (Rect.block (s := S2x8x1024x1024) S1x1x1024x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x1024x1024.size a
  hwx2_0 : ∀ i : grid2.Coords, EltTy.bits .f32 = 32 ∨ (Rect.block (s := S8x1024x1024) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .f32 = 32 ∨ (Rect.block (s := S8x1024x1024) S1x1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .f32 = 32 ∨ (Rect.block (s := S1024x1024) S1024x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S8x1x1.size a
  hwx2_4 : ∀ i : grid2.Coords, EltTy.bits .f32 = 32 ∨ (Rect.block (s := S8x1x1) S1x1x1.size (cc2_transform_4 i) (hinb2_4 i)).WholeWords (EltTy.packing .f32)

variable [Facts₀]

abbrev win0_0 : Pipeline.Window sig grid0 :=
  Pipeline.Window.ofSpec (Memref.whole main_arg1) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x3x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x3x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x3x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x3x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_5) S1x3x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_6) S1x1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3) S1x1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v6) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v164) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v165) S1x1x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x3x1024x1024 : Shape := ⟨4, ![8, 3, 1024, 1024]⟩
abbrev S3x3 : Shape := ⟨2, ![3, 3]⟩
abbrev S_ : Shape := ⟨0, ![]⟩
abbrev S8x3 : Shape := ⟨2, ![8, 3]⟩
abbrev S8x3x1x1 : Shape := ⟨4, ![8, 3, 1, 1]⟩
abbrev S1x1x1024x1024 : Shape := ⟨4, ![1, 1, 1024, 1024]⟩
abbrev S1024x1024 : Shape := ⟨2, ![1024, 1024]⟩
abbrev S1024x1 : Shape := ⟨2, ![1024, 1]⟩
abbrev S1024x1025 : Shape := ⟨2, ![1024, 1025]⟩
abbrev S1024x1026 : Shape := ⟨2, ![1024, 1026]⟩
abbrev S8x1024x1024 : Shape := ⟨3, ![8, 1024, 1024]⟩
abbrev S8x1x1024 : Shape := ⟨3, ![8, 1, 1024]⟩
abbrev S8x1025x1024 : Shape := ⟨3, ![8, 1025, 1024]⟩
abbrev S8x1026x1024 : Shape := ⟨3, ![8, 1026, 1024]⟩
abbrev S8x1026x1 : Shape := ⟨3, ![8, 1026, 1]⟩
abbrev S8x1026x1025 : Shape := ⟨3, ![8, 1026, 1025]⟩
abbrev S8x1026x1026 : Shape := ⟨3, ![8, 1026, 1026]⟩
abbrev S1x1 : Shape := ⟨2, ![1, 1]⟩
abbrev S1x1024 : Shape := ⟨2, ![1, 1024]⟩
abbrev S1025x1024 : Shape := ⟨2, ![1025, 1024]⟩
abbrev S1026x1024 : Shape := ⟨2, ![1026, 1024]⟩
abbrev S1026x1 : Shape := ⟨2, ![1026, 1]⟩
abbrev S1026x1025 : Shape := ⟨2, ![1026, 1025]⟩
abbrev S1026x1026 : Shape := ⟨2, ![1026, 1026]⟩
abbrev S1x1024x1024 : Shape := ⟨3, ![1, 1024, 1024]⟩

abbrev nBuf : Space → Nat
  | .hbm => 602
  | .vmem => 0
  | .smem => 0
  | _ => 0

abbrev hbmTy0_0 (i : Nat) : BufTy := match i % 128 with
  | 0 => ⟨S8x3x1024x1024, .f32⟩
  | 1 => ⟨S8x3x1024x1024, .f32⟩
  | 2 => ⟨S3x3, .f32⟩
  | 3 => ⟨S3x3, .f32⟩
  | 4 => ⟨S8x3x1024x1024, .f32⟩
  | 5 => ⟨S_, .f32⟩
  | 6 => ⟨S8x3x1024x1024, .f32⟩
  | 7 => ⟨S8x3x1024x1024, .f32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S8x3x1024x1024, .f32⟩
  | 15 => ⟨S8x3x1024x1024, .f32⟩
  | 16 => ⟨S_, .f32⟩
  | 17 => ⟨S_, .f32⟩
  | 18 => ⟨S_, .f32⟩
  | 19 => ⟨S_, .f32⟩
  | 20 => ⟨S_, .i32⟩
  | 21 => ⟨S_, .f32⟩
  | 22 => ⟨S8x3, .f32⟩
  | 23 => ⟨S8x3x1x1, .f32⟩
  | 24 => ⟨S_, .f32⟩
  | 25 => ⟨S8x3x1x1, .f32⟩
  | 26 => ⟨S8x3x1x1, .f32⟩
  | 27 => ⟨S8x3x1024x1024, .f32⟩
  | 28 => ⟨S8x3x1024x1024, .f32⟩
  | 29 => ⟨S8x3x1024x1024, .f32⟩
  | 30 => ⟨S_, .f32⟩
  | 31 => ⟨S_, .f32⟩
  | 32 => ⟨S_, .f32⟩
  | 33 => ⟨S_, .f32⟩
  | 34 => ⟨S8x3, .f32⟩
  | 35 => ⟨S8x3, .f32⟩
  | 36 => ⟨S8x3, .f32⟩
  | 37 => ⟨S_, .f32⟩
  | 38 => ⟨S_, .i1⟩
  | 39 => ⟨S_, .f32⟩
  | 40 => ⟨S_, .f32⟩
  | 41 => ⟨S8x3, .f32⟩
  | 42 => ⟨S8x3, .f32⟩
  | 43 => ⟨S8x3, .f32⟩
  | 44 => ⟨S_, .f32⟩
  | 45 => ⟨S8x3, .f32⟩
  | 46 => ⟨S8x3x1x1, .f32⟩
  | 47 => ⟨S_, .f32⟩
  | 48 => ⟨S8x3x1x1, .f32⟩
  | 49 => ⟨S8x3x1x1, .f32⟩
  | 50 => ⟨S_, .i32⟩
  | 51 => ⟨S_, .f32⟩
  | 52 => ⟨S8x3, .f32⟩
  | 53 => ⟨S8x3x1x1, .f32⟩
  | 54 => ⟨S_, .f32⟩
  | 55 => ⟨S8x3x1x1, .f32⟩
  | 56 => ⟨S8x3x1x1, .f32⟩
  | 57 => ⟨S8x3x1024x1024, .f32⟩
  | 58 => ⟨S8x3x1024x1024, .f32⟩
  | 59 => ⟨S8x3x1024x1024, .f32⟩
  | 60 => ⟨S_, .f32⟩
  | 61 => ⟨S_, .f32⟩
  | 62 => ⟨S_, .f32⟩
  | 63 => ⟨S_, .f32⟩
  | 64 => ⟨S8x3, .f32⟩
  | 65 => ⟨S8x3, .f32⟩
  | 66 => ⟨S8x3, .f32⟩
  | 67 => ⟨S_, .f32⟩
  | 68 => ⟨S_, .i1⟩
  | 69 => ⟨S_, .f32⟩
  | 70 => ⟨S_, .f32⟩
  | 71 => ⟨S8x3, .f32⟩
  | 72 => ⟨S8x3, .f32⟩
  | 73 => ⟨S8x3, .f32⟩
  | 74 => ⟨S_, .f32⟩
  | 75 => ⟨S8x3x1x1, .f32⟩
  | 76 => ⟨S8x3x1x1, .f32⟩
  | 77 => ⟨S8x3x1x1, .f32⟩
  | 78 => ⟨S_, .f32⟩
  | 79 => ⟨S_, .f32⟩
  | 80 => ⟨S_, .f32⟩
  | 81 => ⟨S_, .f32⟩
  | 82 => ⟨S8x3, .f32⟩
  | 83 => ⟨S8x3, .f32⟩
  | 84 => ⟨S_, .f32⟩
  | 85 => ⟨S_, .f32⟩
  | 86 => ⟨S_, .f32⟩
  | 87 => ⟨S_, .f32⟩
  | 88 => ⟨S1x1x1024x1024, .f32⟩
  | 89 => ⟨S1024x1024, .f32⟩
  | 90 => ⟨S1x1x1024x1024, .f32⟩
  | 91 => ⟨S1024x1024, .f32⟩
  | 92 => ⟨S_, .i32⟩
  | 93 => ⟨S1024x1, .f32⟩
  | 94 => ⟨S1024x1, .f32⟩
  | 95 => ⟨S1024x1, .f32⟩
  | 96 => ⟨S1024x1025, .f32⟩
  | 97 => ⟨S1024x1, .f32⟩
  | 98 => ⟨S1024x1, .f32⟩
  | 99 => ⟨S1024x1, .f32⟩
  | 100 => ⟨S1024x1026, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S1024x1024, .f32⟩
  | 108 => ⟨S1024x1024, .f32⟩
  | 109 => ⟨S1024x1024, .f32⟩
  | 110 => ⟨S_, .i32⟩
  | 111 => ⟨S1024x1, .f32⟩
  | 112 => ⟨S1024x1, .f32⟩
  | 113 => ⟨S1024x1, .f32⟩
  | 114 => ⟨S1024x1025, .f32⟩
  | 115 => ⟨S1024x1, .f32⟩
  | 116 => ⟨S1024x1, .f32⟩
  | 117 => ⟨S1024x1, .f32⟩
  | 118 => ⟨S1024x1026, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S1024x1024, .f32⟩
  | _ => ⟨S8x3x1024x1024, .f32⟩

abbrev hbmTy0_1 (i : Nat) : BufTy := match i % 128 with
  | 0 => ⟨S1024x1024, .f32⟩
  | 1 => ⟨S1024x1024, .f32⟩
  | 2 => ⟨S_, .f32⟩
  | 3 => ⟨S_, .f32⟩
  | 4 => ⟨S_, .f32⟩
  | 5 => ⟨S_, .f32⟩
  | 6 => ⟨S_, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S_, .f32⟩
  | 14 => ⟨S8x1024x1024, .f32⟩
  | 15 => ⟨S8x1024x1024, .f32⟩
  | 16 => ⟨S_, .i32⟩
  | 17 => ⟨S8x1x1024, .f32⟩
  | 18 => ⟨S8x1x1024, .f32⟩
  | 19 => ⟨S8x1x1024, .f32⟩
  | 20 => ⟨S8x1025x1024, .f32⟩
  | 21 => ⟨S8x1x1024, .f32⟩
  | 22 => ⟨S8x1x1024, .f32⟩
  | 23 => ⟨S8x1x1024, .f32⟩
  | 24 => ⟨S8x1026x1024, .f32⟩
  | 25 => ⟨S8x1026x1, .f32⟩
  | 26 => ⟨S8x1026x1, .f32⟩
  | 27 => ⟨S8x1026x1, .f32⟩
  | 28 => ⟨S8x1026x1025, .f32⟩
  | 29 => ⟨S8x1026x1, .f32⟩
  | 30 => ⟨S8x1026x1, .f32⟩
  | 31 => ⟨S8x1026x1, .f32⟩
  | 32 => ⟨S8x1026x1026, .f32⟩
  | 33 => ⟨S_, .f32⟩
  | 34 => ⟨S8x1024x1024, .f32⟩
  | 35 => ⟨S1x1, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S1x1, .f32⟩
  | 42 => ⟨S_, .f32⟩
  | 43 => ⟨S8x1024x1024, .f32⟩
  | 44 => ⟨S8x1024x1024, .f32⟩
  | 45 => ⟨S8x1024x1024, .f32⟩
  | 46 => ⟨S8x1024x1024, .f32⟩
  | 47 => ⟨S1x1, .f32⟩
  | 48 => ⟨S_, .f32⟩
  | 49 => ⟨S8x1024x1024, .f32⟩
  | 50 => ⟨S8x1024x1024, .f32⟩
  | 51 => ⟨S8x1024x1024, .f32⟩
  | 52 => ⟨S8x1024x1024, .f32⟩
  | 53 => ⟨S1x1, .f32⟩
  | 54 => ⟨S_, .f32⟩
  | 55 => ⟨S8x1024x1024, .f32⟩
  | 56 => ⟨S8x1024x1024, .f32⟩
  | 57 => ⟨S8x1024x1024, .f32⟩
  | 58 => ⟨S8x1024x1024, .f32⟩
  | 59 => ⟨S1x1, .f32⟩
  | 60 => ⟨S_, .f32⟩
  | 61 => ⟨S8x1024x1024, .f32⟩
  | 62 => ⟨S8x1024x1024, .f32⟩
  | 63 => ⟨S8x1024x1024, .f32⟩
  | 64 => ⟨S8x1024x1024, .f32⟩
  | 65 => ⟨S1x1, .f32⟩
  | 66 => ⟨S_, .f32⟩
  | 67 => ⟨S8x1024x1024, .f32⟩
  | 68 => ⟨S8x1024x1024, .f32⟩
  | 69 => ⟨S8x1024x1024, .f32⟩
  | 70 => ⟨S8x1024x1024, .f32⟩
  | 71 => ⟨S1x1, .f32⟩
  | 72 => ⟨S_, .f32⟩
  | 73 => ⟨S8x1024x1024, .f32⟩
  | 74 => ⟨S8x1024x1024, .f32⟩
  | 75 => ⟨S8x1024x1024, .f32⟩
  | 76 => ⟨S8x1024x1024, .f32⟩
  | 77 => ⟨S1x1, .f32⟩
  | 78 => ⟨S_, .f32⟩
  | 79 => ⟨S8x1024x1024, .f32⟩
  | 80 => ⟨S8x1024x1024, .f32⟩
  | 81 => ⟨S8x1024x1024, .f32⟩
  | 82 => ⟨S8x1024x1024, .f32⟩
  | 83 => ⟨S1x1, .f32⟩
  | 84 => ⟨S_, .f32⟩
  | 85 => ⟨S8x1024x1024, .f32⟩
  | 86 => ⟨S8x1024x1024, .f32⟩
  | 87 => ⟨S8x1024x1024, .f32⟩
  | 88 => ⟨S8x1024x1024, .f32⟩
  | 89 => ⟨S_, .i32⟩
  | 90 => ⟨S8x1x1024, .f32⟩
  | 91 => ⟨S8x1x1024, .f32⟩
  | 92 => ⟨S8x1x1024, .f32⟩
  | 93 => ⟨S8x1025x1024, .f32⟩
  | 94 => ⟨S8x1x1024, .f32⟩
  | 95 => ⟨S8x1x1024, .f32⟩
  | 96 => ⟨S8x1x1024, .f32⟩
  | 97 => ⟨S8x1026x1024, .f32⟩
  | 98 => ⟨S8x1026x1, .f32⟩
  | 99 => ⟨S8x1026x1, .f32⟩
  | 100 => ⟨S8x1026x1, .f32⟩
  | 101 => ⟨S8x1026x1025, .f32⟩
  | 102 => ⟨S8x1026x1, .f32⟩
  | 103 => ⟨S8x1026x1, .f32⟩
  | 104 => ⟨S8x1026x1, .f32⟩
  | 105 => ⟨S8x1026x1026, .f32⟩
  | 106 => ⟨S_, .f32⟩
  | 107 => ⟨S8x1024x1024, .f32⟩
  | 108 => ⟨S1x1, .f32⟩
  | 109 => ⟨S_, .f32⟩
  | 110 => ⟨S8x1024x1024, .f32⟩
  | 111 => ⟨S8x1024x1024, .f32⟩
  | 112 => ⟨S8x1024x1024, .f32⟩
  | 113 => ⟨S8x1024x1024, .f32⟩
  | 114 => ⟨S1x1, .f32⟩
  | 115 => ⟨S_, .f32⟩
  | 116 => ⟨S8x1024x1024, .f32⟩
  | 117 => ⟨S8x1024x1024, .f32⟩
  | 118 => ⟨S8x1024x1024, .f32⟩
  | 119 => ⟨S8x1024x1024, .f32⟩
  | 120 => ⟨S1x1, .f32⟩
  | 121 => ⟨S_, .f32⟩
  | 122 => ⟨S8x1024x1024, .f32⟩
  | 123 => ⟨S8x1024x1024, .f32⟩
  | 124 => ⟨S8x1024x1024, .f32⟩
  | 125 => ⟨S8x1024x1024, .f32⟩
  | 126 => ⟨S1x1, .f32⟩
  | 127 => ⟨S_, .f32⟩
  | _ => ⟨S8x3x1024x1024, .f32⟩

abbrev hbmTy0_2 (i : Nat) : BufTy := match i % 128 with
  | 0 => ⟨S8x1024x1024, .f32⟩
  | 1 => ⟨S8x1024x1024, .f32⟩
  | 2 => ⟨S8x1024x1024, .f32⟩
  | 3 => ⟨S8x1024x1024, .f32⟩
  | 4 => ⟨S1x1, .f32⟩
  | 5 => ⟨S_, .f32⟩
  | 6 => ⟨S8x1024x1024, .f32⟩
  | 7 => ⟨S8x1024x1024, .f32⟩
  | 8 => ⟨S8x1024x1024, .f32⟩
  | 9 => ⟨S8x1024x1024, .f32⟩
  | 10 => ⟨S1x1, .f32⟩
  | 11 => ⟨S_, .f32⟩
  | 12 => ⟨S8x1024x1024, .f32⟩
  | 13 => ⟨S8x1024x1024, .f32⟩
  | 14 => ⟨S8x1024x1024, .f32⟩
  | 15 => ⟨S8x1024x1024, .f32⟩
  | 16 => ⟨S1x1, .f32⟩
  | 17 => ⟨S_, .f32⟩
  | 18 => ⟨S8x1024x1024, .f32⟩
  | 19 => ⟨S8x1024x1024, .f32⟩
  | 20 => ⟨S8x1024x1024, .f32⟩
  | 21 => ⟨S8x1024x1024, .f32⟩
  | 22 => ⟨S1x1, .f32⟩
  | 23 => ⟨S_, .f32⟩
  | 24 => ⟨S8x1024x1024, .f32⟩
  | 25 => ⟨S8x1024x1024, .f32⟩
  | 26 => ⟨S8x1024x1024, .f32⟩
  | 27 => ⟨S8x1024x1024, .f32⟩
  | 28 => ⟨S1x1, .f32⟩
  | 29 => ⟨S_, .f32⟩
  | 30 => ⟨S8x1024x1024, .f32⟩
  | 31 => ⟨S8x1024x1024, .f32⟩
  | 32 => ⟨S8x1024x1024, .f32⟩
  | 33 => ⟨S8x1024x1024, .f32⟩
  | 34 => ⟨S1x1x1024x1024, .f32⟩
  | 35 => ⟨S1024x1024, .f32⟩
  | 36 => ⟨S_, .i32⟩
  | 37 => ⟨S1x1024, .f32⟩
  | 38 => ⟨S1x1024, .f32⟩
  | 39 => ⟨S1x1024, .f32⟩
  | 40 => ⟨S1025x1024, .f32⟩
  | 41 => ⟨S1x1024, .f32⟩
  | 42 => ⟨S1x1024, .f32⟩
  | 43 => ⟨S1x1024, .f32⟩
  | 44 => ⟨S1026x1024, .f32⟩
  | 45 => ⟨S1026x1, .f32⟩
  | 46 => ⟨S1026x1, .f32⟩
  | 47 => ⟨S1026x1, .f32⟩
  | 48 => ⟨S1026x1025, .f32⟩
  | 49 => ⟨S1026x1, .f32⟩
  | 50 => ⟨S1026x1, .f32⟩
  | 51 => ⟨S1026x1, .f32⟩
  | 52 => ⟨S1026x1026, .f32⟩
  | 53 => ⟨S_, .f32⟩
  | 54 => ⟨S1024x1024, .f32⟩
  | 55 => ⟨S1x1, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S1x1, .f32⟩
  | 62 => ⟨S_, .f32⟩
  | 63 => ⟨S1024x1024, .f32⟩
  | 64 => ⟨S1024x1024, .f32⟩
  | 65 => ⟨S1024x1024, .f32⟩
  | 66 => ⟨S1024x1024, .f32⟩
  | 67 => ⟨S1x1, .f32⟩
  | 68 => ⟨S_, .f32⟩
  | 69 => ⟨S1024x1024, .f32⟩
  | 70 => ⟨S1024x1024, .f32⟩
  | 71 => ⟨S1024x1024, .f32⟩
  | 72 => ⟨S1024x1024, .f32⟩
  | 73 => ⟨S1x1, .f32⟩
  | 74 => ⟨S_, .f32⟩
  | 75 => ⟨S1024x1024, .f32⟩
  | 76 => ⟨S1024x1024, .f32⟩
  | 77 => ⟨S1024x1024, .f32⟩
  | 78 => ⟨S1024x1024, .f32⟩
  | 79 => ⟨S1x1, .f32⟩
  | 80 => ⟨S_, .f32⟩
  | 81 => ⟨S1024x1024, .f32⟩
  | 82 => ⟨S1024x1024, .f32⟩
  | 83 => ⟨S1024x1024, .f32⟩
  | 84 => ⟨S1024x1024, .f32⟩
  | 85 => ⟨S1x1, .f32⟩
  | 86 => ⟨S_, .f32⟩
  | 87 => ⟨S1024x1024, .f32⟩
  | 88 => ⟨S1024x1024, .f32⟩
  | 89 => ⟨S1024x1024, .f32⟩
  | 90 => ⟨S1024x1024, .f32⟩
  | 91 => ⟨S1x1, .f32⟩
  | 92 => ⟨S_, .f32⟩
  | 93 => ⟨S1024x1024, .f32⟩
  | 94 => ⟨S1024x1024, .f32⟩
  | 95 => ⟨S1024x1024, .f32⟩
  | 96 => ⟨S1024x1024, .f32⟩
  | 97 => ⟨S1x1, .f32⟩
  | 98 => ⟨S_, .f32⟩
  | 99 => ⟨S1024x1024, .f32⟩
  | 100 => ⟨S1024x1024, .f32⟩
  | 101 => ⟨S1024x1024, .f32⟩
  | 102 => ⟨S1024x1024, .f32⟩
  | 103 => ⟨S1x1, .f32⟩
  | 104 => ⟨S_, .f32⟩
  | 105 => ⟨S1024x1024, .f32⟩
  | 106 => ⟨S1024x1024, .f32⟩
  | 107 => ⟨S1024x1024, .f32⟩
  | 108 => ⟨S1024x1024, .f32⟩
  | 109 => ⟨S_, .i32⟩
  | 110 => ⟨S1x1024, .f32⟩
  | 111 => ⟨S1x1024, .f32⟩
  | 112 => ⟨S1x1024, .f32⟩
  | 113 => ⟨S1025x1024, .f32⟩
  | 114 => ⟨S1x1024, .f32⟩
  | 115 => ⟨S1x1024, .f32⟩
  | 116 => ⟨S1x1024, .f32⟩
  | 117 => ⟨S1026x1024, .f32⟩
  | 118 => ⟨S1026x1, .f32⟩
  | 119 => ⟨S1026x1, .f32⟩
  | 120 => ⟨S1026x1, .f32⟩
  | 121 => ⟨S1026x1025, .f32⟩
  | 122 => ⟨S1026x1, .f32⟩
  | 123 => ⟨S1026x1, .f32⟩
  | 124 => ⟨S1026x1, .f32⟩
  | 125 => ⟨S1026x1026, .f32⟩
  | 126 => ⟨S_, .f32⟩
  | 127 => ⟨S1024x1024, .f32⟩
  | _ => ⟨S8x3x1024x1024, .f32⟩

abbrev hbmTy0_3 (i : Nat) : BufTy := match i % 128 with
  | 0 => ⟨S1x1, .f32⟩
  | 1 => ⟨S_, .f32⟩
  | 2 => ⟨S1024x1024, .f32⟩
  | 3 => ⟨S1024x1024, .f32⟩
  | 4 => ⟨S1024x1024, .f32⟩
  | 5 => ⟨S1024x1024, .f32⟩
  | 6 => ⟨S1x1, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S1x1, .f32⟩
  | 13 => ⟨S_, .f32⟩
  | 14 => ⟨S1024x1024, .f32⟩
  | 15 => ⟨S1024x1024, .f32⟩
  | 16 => ⟨S1024x1024, .f32⟩
  | 17 => ⟨S1024x1024, .f32⟩
  | 18 => ⟨S1x1, .f32⟩
  | 19 => ⟨S_, .f32⟩
  | 20 => ⟨S1024x1024, .f32⟩
  | 21 => ⟨S1024x1024, .f32⟩
  | 22 => ⟨S1024x1024, .f32⟩
  | 23 => ⟨S1024x1024, .f32⟩
  | 24 => ⟨S1x1, .f32⟩
  | 25 => ⟨S_, .f32⟩
  | 26 => ⟨S1024x1024, .f32⟩
  | 27 => ⟨S1024x1024, .f32⟩
  | 28 => ⟨S1024x1024, .f32⟩
  | 29 => ⟨S1024x1024, .f32⟩
  | 30 => ⟨S1x1, .f32⟩
  | 31 => ⟨S_, .f32⟩
  | 32 => ⟨S1024x1024, .f32⟩
  | 33 => ⟨S1024x1024, .f32⟩
  | 34 => ⟨S1024x1024, .f32⟩
  | 35 => ⟨S1024x1024, .f32⟩
  | 36 => ⟨S1x1, .f32⟩
  | 37 => ⟨S_, .f32⟩
  | 38 => ⟨S1024x1024, .f32⟩
  | 39 => ⟨S1024x1024, .f32⟩
  | 40 => ⟨S1024x1024, .f32⟩
  | 41 => ⟨S1024x1024, .f32⟩
  | 42 => ⟨S1x1, .f32⟩
  | 43 => ⟨S_, .f32⟩
  | 44 => ⟨S1024x1024, .f32⟩
  | 45 => ⟨S1024x1024, .f32⟩
  | 46 => ⟨S1024x1024, .f32⟩
  | 47 => ⟨S1024x1024, .f32⟩
  | 48 => ⟨S1x1, .f32⟩
  | 49 => ⟨S_, .f32⟩
  | 50 => ⟨S1024x1024, .f32⟩
  | 51 => ⟨S1024x1024, .f32⟩
  | 52 => ⟨S1024x1024, .f32⟩
  | 53 => ⟨S1024x1024, .f32⟩
  | 54 => ⟨S1x1x1024x1024, .f32⟩
  | 55 => ⟨S1024x1024, .f32⟩
  | 56 => ⟨S_, .i32⟩
  | 57 => ⟨S1x1024, .f32⟩
  | 58 => ⟨S1x1024, .f32⟩
  | 59 => ⟨S1x1024, .f32⟩
  | 60 => ⟨S1025x1024, .f32⟩
  | 61 => ⟨S1x1024, .f32⟩
  | 62 => ⟨S1x1024, .f32⟩
  | 63 => ⟨S1x1024, .f32⟩
  | 64 => ⟨S1026x1024, .f32⟩
  | 65 => ⟨S1026x1, .f32⟩
  | 66 => ⟨S1026x1, .f32⟩
  | 67 => ⟨S1026x1, .f32⟩
  | 68 => ⟨S1026x1025, .f32⟩
  | 69 => ⟨S1026x1, .f32⟩
  | 70 => ⟨S1026x1, .f32⟩
  | 71 => ⟨S1026x1, .f32⟩
  | 72 => ⟨S1026x1026, .f32⟩
  | 73 => ⟨S_, .f32⟩
  | 74 => ⟨S1024x1024, .f32⟩
  | 75 => ⟨S1x1, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S1x1, .f32⟩
  | 82 => ⟨S_, .f32⟩
  | 83 => ⟨S1024x1024, .f32⟩
  | 84 => ⟨S1024x1024, .f32⟩
  | 85 => ⟨S1024x1024, .f32⟩
  | 86 => ⟨S1024x1024, .f32⟩
  | 87 => ⟨S1x1, .f32⟩
  | 88 => ⟨S_, .f32⟩
  | 89 => ⟨S1024x1024, .f32⟩
  | 90 => ⟨S1024x1024, .f32⟩
  | 91 => ⟨S1024x1024, .f32⟩
  | 92 => ⟨S1024x1024, .f32⟩
  | 93 => ⟨S1x1, .f32⟩
  | 94 => ⟨S_, .f32⟩
  | 95 => ⟨S1024x1024, .f32⟩
  | 96 => ⟨S1024x1024, .f32⟩
  | 97 => ⟨S1024x1024, .f32⟩
  | 98 => ⟨S1024x1024, .f32⟩
  | 99 => ⟨S1x1, .f32⟩
  | 100 => ⟨S_, .f32⟩
  | 101 => ⟨S1024x1024, .f32⟩
  | 102 => ⟨S1024x1024, .f32⟩
  | 103 => ⟨S1024x1024, .f32⟩
  | 104 => ⟨S1024x1024, .f32⟩
  | 105 => ⟨S1x1, .f32⟩
  | 106 => ⟨S_, .f32⟩
  | 107 => ⟨S1024x1024, .f32⟩
  | 108 => ⟨S1024x1024, .f32⟩
  | 109 => ⟨S1024x1024, .f32⟩
  | 110 => ⟨S1024x1024, .f32⟩
  | 111 => ⟨S1x1, .f32⟩
  | 112 => ⟨S_, .f32⟩
  | 113 => ⟨S1024x1024, .f32⟩
  | 114 => ⟨S1024x1024, .f32⟩
  | 115 => ⟨S1024x1024, .f32⟩
  | 116 => ⟨S1024x1024, .f32⟩
  | 117 => ⟨S1x1, .f32⟩
  | 118 => ⟨S_, .f32⟩
  | 119 => ⟨S1024x1024, .f32⟩
  | 120 => ⟨S1024x1024, .f32⟩
  | 121 => ⟨S1024x1024, .f32⟩
  | 122 => ⟨S1024x1024, .f32⟩
  | 123 => ⟨S1x1, .f32⟩
  | 124 => ⟨S_, .f32⟩
  | 125 => ⟨S1024x1024, .f32⟩
  | 126 => ⟨S1024x1024, .f32⟩
  | 127 => ⟨S1024x1024, .f32⟩
  | _ => ⟨S8x3x1024x1024, .f32⟩

abbrev hbmTy0_4 (i : Nat) : BufTy := match i % 128 with
  | 0 => ⟨S1024x1024, .f32⟩
  | 1 => ⟨S_, .i32⟩
  | 2 => ⟨S1x1024, .f32⟩
  | 3 => ⟨S1x1024, .f32⟩
  | 4 => ⟨S1x1024, .f32⟩
  | 5 => ⟨S1025x1024, .f32⟩
  | 6 => ⟨S1x1024, .f32⟩
  | 7 => ⟨S1x1024, .f32⟩
  | 8 => ⟨S1x1024, .f32⟩
  | 9 => ⟨S1026x1024, .f32⟩
  | 10 => ⟨S1026x1, .f32⟩
  | 11 => ⟨S1026x1, .f32⟩
  | 12 => ⟨S1026x1, .f32⟩
  | 13 => ⟨S1026x1025, .f32⟩
  | 14 => ⟨S1026x1, .f32⟩
  | 15 => ⟨S1026x1, .f32⟩
  | 16 => ⟨S1026x1, .f32⟩
  | 17 => ⟨S1026x1026, .f32⟩
  | 18 => ⟨S_, .f32⟩
  | 19 => ⟨S1024x1024, .f32⟩
  | 20 => ⟨S1x1, .f32⟩
  | 21 => ⟨S_, .f32⟩
  | 22 => ⟨S1024x1024, .f32⟩
  | 23 => ⟨S1024x1024, .f32⟩
  | 24 => ⟨S1024x1024, .f32⟩
  | 25 => ⟨S1024x1024, .f32⟩
  | 26 => ⟨S1x1, .f32⟩
  | 27 => ⟨S_, .f32⟩
  | 28 => ⟨S1024x1024, .f32⟩
  | 29 => ⟨S1024x1024, .f32⟩
  | 30 => ⟨S1024x1024, .f32⟩
  | 31 => ⟨S1024x1024, .f32⟩
  | 32 => ⟨S1x1, .f32⟩
  | 33 => ⟨S_, .f32⟩
  | 34 => ⟨S1024x1024, .f32⟩
  | 35 => ⟨S1024x1024, .f32⟩
  | 36 => ⟨S1024x1024, .f32⟩
  | 37 => ⟨S1024x1024, .f32⟩
  | 38 => ⟨S1x1, .f32⟩
  | 39 => ⟨S_, .f32⟩
  | 40 => ⟨S1024x1024, .f32⟩
  | 41 => ⟨S1024x1024, .f32⟩
  | 42 => ⟨S1024x1024, .f32⟩
  | 43 => ⟨S1024x1024, .f32⟩
  | 44 => ⟨S1x1, .f32⟩
  | 45 => ⟨S_, .f32⟩
  | 46 => ⟨S1024x1024, .f32⟩
  | 47 => ⟨S1024x1024, .f32⟩
  | 48 => ⟨S1024x1024, .f32⟩
  | 49 => ⟨S1024x1024, .f32⟩
  | 50 => ⟨S1x1, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S1x1, .f32⟩
  | 57 => ⟨S_, .f32⟩
  | 58 => ⟨S1024x1024, .f32⟩
  | 59 => ⟨S1024x1024, .f32⟩
  | 60 => ⟨S1024x1024, .f32⟩
  | 61 => ⟨S1024x1024, .f32⟩
  | 62 => ⟨S1x1, .f32⟩
  | 63 => ⟨S_, .f32⟩
  | 64 => ⟨S1024x1024, .f32⟩
  | 65 => ⟨S1024x1024, .f32⟩
  | 66 => ⟨S1024x1024, .f32⟩
  | 67 => ⟨S1024x1024, .f32⟩
  | 68 => ⟨S1x1, .f32⟩
  | 69 => ⟨S_, .f32⟩
  | 70 => ⟨S1024x1024, .f32⟩
  | 71 => ⟨S1024x1024, .f32⟩
  | 72 => ⟨S1024x1024, .f32⟩
  | 73 => ⟨S1024x1024, .f32⟩
  | 74 => ⟨S1x1024x1024, .f32⟩
  | 75 => ⟨S8x1024x1024, .f32⟩
  | 76 => ⟨S8x1024x1024, .f32⟩
  | 77 => ⟨S1x1024x1024, .f32⟩
  | 78 => ⟨S8x1024x1024, .f32⟩
  | 79 => ⟨S8x1024x1024, .f32⟩
  | 80 => ⟨S8x1024x1024, .f32⟩
  | 81 => ⟨S8x1024x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_call1_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_call2_call0_cst : Ref sig .tc := ⟨.hbm, 21, rfl⟩
abbrev main_call2_call0_v0 : Ref sig .tc := ⟨.hbm, 22, rfl⟩
abbrev main_call2_call0_v1 : Ref sig .tc := ⟨.hbm, 23, rfl⟩
abbrev main_call2_call0_cst_0 : Ref sig .tc := ⟨.hbm, 24, rfl⟩
abbrev main_call2_call0_v2 : Ref sig .tc := ⟨.hbm, 25, rfl⟩
abbrev main_call2_call0_v3 : Ref sig .tc := ⟨.hbm, 26, rfl⟩
abbrev main_call2_call0_v4 : Ref sig .tc := ⟨.hbm, 27, rfl⟩
abbrev main_call2_call0_v5 : Ref sig .tc := ⟨.hbm, 28, rfl⟩
abbrev main_call2_call0_v6 : Ref sig .tc := ⟨.hbm, 29, rfl⟩
abbrev main_call2_call0_v7 : Ref sig .tc := ⟨.hbm, 30, rfl⟩
abbrev main_call2_call0_cst_1 : Ref sig .tc := ⟨.hbm, 31, rfl⟩
abbrev main_call2_call0_v8 : Ref sig .tc := ⟨.hbm, 32, rfl⟩
abbrev main_call2_call0_cst_2 : Ref sig .tc := ⟨.hbm, 33, rfl⟩
abbrev main_call2_call0_v9 : Ref sig .tc := ⟨.hbm, 34, rfl⟩
abbrev main_call2_call0_v10 : Ref sig .tc := ⟨.hbm, 35, rfl⟩
abbrev main_call2_call0_v11 : Ref sig .tc := ⟨.hbm, 36, rfl⟩
abbrev main_call2_call0_cst_3 : Ref sig .tc := ⟨.hbm, 37, rfl⟩
abbrev main_call2_call0_v12 : Ref sig .tc := ⟨.hbm, 38, rfl⟩
abbrev main_call2_call0_cst_4 : Ref sig .tc := ⟨.hbm, 39, rfl⟩
abbrev main_call2_call0_call0_v0 : Ref sig .tc := ⟨.hbm, 40, rfl⟩
abbrev main_call2_call0_call0_v1 : Ref sig .tc := ⟨.hbm, 41, rfl⟩
abbrev main_call2_v0 : Ref sig .tc := ⟨.hbm, 42, rfl⟩
abbrev main_v9 : Ref sig .tc := ⟨.hbm, 43, rfl⟩
abbrev main_cst_4 : Ref sig .tc := ⟨.hbm, 44, rfl⟩
abbrev main_v10 : Ref sig .tc := ⟨.hbm, 45, rfl⟩
abbrev main_v11 : Ref sig .tc := ⟨.hbm, 46, rfl⟩
abbrev main_cst_5 : Ref sig .tc := ⟨.hbm, 47, rfl⟩
abbrev main_v12 : Ref sig .tc := ⟨.hbm, 48, rfl⟩
abbrev main_v13 : Ref sig .tc := ⟨.hbm, 49, rfl⟩
abbrev main_c_6 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_cst_0 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_cst_1 : Ref sig .tc := ⟨.hbm, 61, rfl⟩
abbrev main_call3_call0_v8 : Ref sig .tc := ⟨.hbm, 62, rfl⟩
abbrev main_call3_call0_cst_2 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_call0_cst_3 : Ref sig .tc := ⟨.hbm, 67, rfl⟩
abbrev main_call3_call0_v12 : Ref sig .tc := ⟨.hbm, 68, rfl⟩
abbrev main_call3_call0_cst_4 : Ref sig .tc := ⟨.hbm, 69, rfl⟩
abbrev main_call3_call0_call0_v0 : Ref sig .tc := ⟨.hbm, 70, rfl⟩
abbrev main_call3_call0_call0_v1 : Ref sig .tc := ⟨.hbm, 71, rfl⟩
abbrev main_call3_v0 : Ref sig .tc := ⟨.hbm, 72, rfl⟩
abbrev main_v14 : Ref sig .tc := ⟨.hbm, 73, rfl⟩
abbrev main_cst_7 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_8 : Ref sig .tc := ⟨.hbm, 78, rfl⟩
abbrev main_v18 : Ref sig .tc := ⟨.hbm, 79, rfl⟩
abbrev main_cst_9 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_10 : Ref sig .tc := ⟨.hbm, 84, rfl⟩
abbrev main_v22 : Ref sig .tc := ⟨.hbm, 85, rfl⟩
abbrev main_cst_11 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_c_12 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_v28 : Ref sig .tc := ⟨.hbm, 100, rfl⟩
abbrev main_v29 : Ref sig .tc := ⟨.hbm, 101, rfl⟩
abbrev main_cst_13 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_14 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_c_15 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_v36 : Ref sig .tc := ⟨.hbm, 118, rfl⟩
abbrev main_v37 : Ref sig .tc := ⟨.hbm, 119, rfl⟩
abbrev main_cst_16 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_cst_17 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_cst_18 : Ref sig .tc := ⟨.hbm, 130, rfl⟩
abbrev main_v46 : Ref sig .tc := ⟨.hbm, 131, rfl⟩
abbrev main_cst_19 : Ref sig .tc := ⟨.hbm, 132, rfl⟩
abbrev main_v47 : Ref sig .tc := ⟨.hbm, 133, rfl⟩
abbrev main_cst_20 : Ref sig .tc := ⟨.hbm, 134, rfl⟩
abbrev main_v48 : Ref sig .tc := ⟨.hbm, 135, rfl⟩
abbrev main_cst_21 : Ref sig .tc := ⟨.hbm, 136, rfl⟩
abbrev main_v49 : Ref sig .tc := ⟨.hbm, 137, rfl⟩
abbrev main_v50 : Ref sig .tc := ⟨.hbm, 138, rfl⟩
abbrev main_cst_22 : Ref sig .tc := ⟨.hbm, 139, rfl⟩
abbrev main_v51 : Ref sig .tc := ⟨.hbm, 140, rfl⟩
abbrev main_cst_23 : Ref sig .tc := ⟨.hbm, 141, rfl⟩
abbrev main_v52 : Ref sig .tc := ⟨.hbm, 142, rfl⟩
abbrev main_v53 : Ref sig .tc := ⟨.hbm, 143, rfl⟩
abbrev main_c_24 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_v12 : Ref sig .tc := ⟨.hbm, 157, rfl⟩
abbrev main_call6_v13 : Ref sig .tc := ⟨.hbm, 158, rfl⟩
abbrev main_call6_v14 : Ref sig .tc := ⟨.hbm, 159, rfl⟩
abbrev main_v54 : Ref sig .tc := ⟨.hbm, 160, rfl⟩
abbrev main_cst_25 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_c_26 : Ref sig .tc := ⟨.hbm, 217, rfl⟩
abbrev main_call7_v0 : Ref sig .tc := ⟨.hbm, 218, rfl⟩
abbrev main_call7_v1 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_v5 : Ref sig .tc := ⟨.hbm, 223, rfl⟩
abbrev main_call7_v6 : Ref sig .tc := ⟨.hbm, 224, rfl⟩
abbrev main_call7_v7 : Ref sig .tc := ⟨.hbm, 225, rfl⟩
abbrev main_call7_v8 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_v12 : Ref sig .tc := ⟨.hbm, 230, rfl⟩
abbrev main_call7_v13 : Ref sig .tc := ⟨.hbm, 231, rfl⟩
abbrev main_call7_v14 : Ref sig .tc := ⟨.hbm, 232, rfl⟩
abbrev main_v110 : Ref sig .tc := ⟨.hbm, 233, rfl⟩
abbrev main_cst_27 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_c_28 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_call8_v5 : Ref sig .tc := ⟨.hbm, 298, rfl⟩
abbrev main_call8_v6 : Ref sig .tc := ⟨.hbm, 299, rfl⟩
abbrev main_call8_v7 : Ref sig .tc := ⟨.hbm, 300, rfl⟩
abbrev main_call8_v8 : Ref sig .tc := ⟨.hbm, 301, rfl⟩
abbrev main_call8_v9 : Ref sig .tc := ⟨.hbm, 302, rfl⟩
abbrev main_call8_v10 : Ref sig .tc := ⟨.hbm, 303, rfl⟩
abbrev main_call8_v11 : Ref sig .tc := ⟨.hbm, 304, rfl⟩
abbrev main_call8_v12 : Ref sig .tc := ⟨.hbm, 305, rfl⟩
abbrev main_call8_v13 : Ref sig .tc := ⟨.hbm, 306, rfl⟩
abbrev main_call8_v14 : Ref sig .tc := ⟨.hbm, 307, rfl⟩
abbrev main_v168 : Ref sig .tc := ⟨.hbm, 308, rfl⟩
abbrev main_cst_29 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_v204 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_v208 : Ref sig .tc := ⟨.hbm, 349, rfl⟩
abbrev main_v209 : Ref sig .tc := ⟨.hbm, 350, rfl⟩
abbrev main_v210 : Ref sig .tc := ⟨.hbm, 351, rfl⟩
abbrev main_v211 : Ref sig .tc := ⟨.hbm, 352, rfl⟩
abbrev main_v212 : Ref sig .tc := ⟨.hbm, 353, rfl⟩
abbrev main_v213 : Ref sig .tc := ⟨.hbm, 354, rfl⟩
abbrev main_v214 : Ref sig .tc := ⟨.hbm, 355, rfl⟩
abbrev main_v215 : Ref sig .tc := ⟨.hbm, 356, rfl⟩
abbrev main_v216 : Ref sig .tc := ⟨.hbm, 357, rfl⟩
abbrev main_v217 : Ref sig .tc := ⟨.hbm, 358, rfl⟩
abbrev main_v218 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_c_30 : Ref sig .tc := ⟨.hbm, 365, rfl⟩
abbrev main_call9_v0 : Ref sig .tc := ⟨.hbm, 366, rfl⟩
abbrev main_call9_v1 : Ref sig .tc := ⟨.hbm, 367, rfl⟩
abbrev main_call9_v2 : Ref sig .tc := ⟨.hbm, 368, rfl⟩
abbrev main_call9_v3 : Ref sig .tc := ⟨.hbm, 369, rfl⟩
abbrev main_call9_v4 : Ref sig .tc := ⟨.hbm, 370, rfl⟩
abbrev main_call9_v5 : Ref sig .tc := ⟨.hbm, 371, rfl⟩
abbrev main_call9_v6 : Ref sig .tc := ⟨.hbm, 372, rfl⟩
abbrev main_call9_v7 : Ref sig .tc := ⟨.hbm, 373, rfl⟩
abbrev main_call9_v8 : Ref sig .tc := ⟨.hbm, 374, rfl⟩
abbrev main_call9_v9 : Ref sig .tc := ⟨.hbm, 375, rfl⟩
abbrev main_call9_v10 : Ref sig .tc := ⟨.hbm, 376, rfl⟩
abbrev main_call9_v11 : Ref sig .tc := ⟨.hbm, 377, rfl⟩
abbrev main_call9_v12 : Ref sig .tc := ⟨.hbm, 378, rfl⟩
abbrev main_call9_v13 : Ref sig .tc := ⟨.hbm, 379, rfl⟩
abbrev main_call9_v14 : Ref sig .tc := ⟨.hbm, 380, rfl⟩
abbrev main_v224 : Ref sig .tc := ⟨.hbm, 381, rfl⟩
abbrev main_cst_31 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_v233 : Ref sig .tc := ⟨.hbm, 391, rfl⟩
abbrev main_v234 : Ref sig .tc := ⟨.hbm, 392, rfl⟩
abbrev main_v235 : Ref sig .tc := ⟨.hbm, 393, rfl⟩
abbrev main_v236 : Ref sig .tc := ⟨.hbm, 394, rfl⟩
abbrev main_v237 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_v275 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_c_32 : Ref sig .tc := ⟨.hbm, 440, rfl⟩
abbrev main_call10_v0 : Ref sig .tc := ⟨.hbm, 441, rfl⟩
abbrev main_call10_v1 : Ref sig .tc := ⟨.hbm, 442, rfl⟩
abbrev main_call10_v2 : Ref sig .tc := ⟨.hbm, 443, rfl⟩
abbrev main_call10_v3 : Ref sig .tc := ⟨.hbm, 444, rfl⟩
abbrev main_call10_v4 : Ref sig .tc := ⟨.hbm, 445, rfl⟩
abbrev main_call10_v5 : Ref sig .tc := ⟨.hbm, 446, rfl⟩
abbrev main_call10_v6 : Ref sig .tc := ⟨.hbm, 447, rfl⟩
abbrev main_call10_v7 : Ref sig .tc := ⟨.hbm, 448, rfl⟩
abbrev main_call10_v8 : Ref sig .tc := ⟨.hbm, 449, rfl⟩
abbrev main_call10_v9 : Ref sig .tc := ⟨.hbm, 450, rfl⟩
abbrev main_call10_v10 : Ref sig .tc := ⟨.hbm, 451, rfl⟩
abbrev main_call10_v11 : Ref sig .tc := ⟨.hbm, 452, rfl⟩
abbrev main_call10_v12 : Ref sig .tc := ⟨.hbm, 453, rfl⟩
abbrev main_call10_v13 : Ref sig .tc := ⟨.hbm, 454, rfl⟩
abbrev main_call10_v14 : Ref sig .tc := ⟨.hbm, 455, rfl⟩
abbrev main_v282 : Ref sig .tc := ⟨.hbm, 456, rfl⟩
abbrev main_cst_33 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_v286 : Ref sig .tc := ⟨.hbm, 461, rfl⟩
abbrev main_v287 : Ref sig .tc := ⟨.hbm, 462, rfl⟩
abbrev main_v288 : Ref sig .tc := ⟨.hbm, 463, rfl⟩
abbrev main_v289 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_v298 : Ref sig .tc := ⟨.hbm, 473, rfl⟩
abbrev main_v299 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_v303 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_v307 : Ref sig .tc := ⟨.hbm, 482, rfl⟩
abbrev main_v308 : Ref sig .tc := ⟨.hbm, 483, rfl⟩
abbrev main_v309 : Ref sig .tc := ⟨.hbm, 484, rfl⟩
abbrev main_v310 : Ref sig .tc := ⟨.hbm, 485, rfl⟩
abbrev main_v311 : Ref sig .tc := ⟨.hbm, 486, rfl⟩
abbrev main_v312 : Ref sig .tc := ⟨.hbm, 487, rfl⟩
abbrev main_v313 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_v322 : Ref sig .tc := ⟨.hbm, 497, rfl⟩
abbrev main_v323 : Ref sig .tc := ⟨.hbm, 498, rfl⟩
abbrev main_v324 : Ref sig .tc := ⟨.hbm, 499, rfl⟩
abbrev main_v325 : Ref sig .tc := ⟨.hbm, 500, rfl⟩
abbrev main_v326 : Ref sig .tc := ⟨.hbm, 501, rfl⟩
abbrev main_v327 : Ref sig .tc := ⟨.hbm, 502, rfl⟩
abbrev main_v328 : Ref sig .tc := ⟨.hbm, 503, rfl⟩
abbrev main_v329 : Ref sig .tc := ⟨.hbm, 504, rfl⟩
abbrev main_v330 : Ref sig .tc := ⟨.hbm, 505, rfl⟩
abbrev main_v331 : Ref sig .tc := ⟨.hbm, 506, rfl⟩
abbrev main_v332 : Ref sig .tc := ⟨.hbm, 507, rfl⟩
abbrev main_v333 : Ref sig .tc := ⟨.hbm, 508, rfl⟩
abbrev main_v334 : Ref sig .tc := ⟨.hbm, 509, rfl⟩
abbrev main_v335 : Ref sig .tc := ⟨.hbm, 510, rfl⟩
abbrev main_v336 : Ref sig .tc := ⟨.hbm, 511, rfl⟩
abbrev main_v337 : Ref sig .tc := ⟨.hbm, 512, rfl⟩
abbrev main_c_34 : Ref sig .tc := ⟨.hbm, 513, rfl⟩
abbrev main_call11_v0 : Ref sig .tc := ⟨.hbm, 514, rfl⟩
abbrev main_call11_v1 : Ref sig .tc := ⟨.hbm, 515, rfl⟩
abbrev main_call11_v2 : Ref sig .tc := ⟨.hbm, 516, rfl⟩
abbrev main_call11_v3 : Ref sig .tc := ⟨.hbm, 517, rfl⟩
abbrev main_call11_v4 : Ref sig .tc := ⟨.hbm, 518, rfl⟩
abbrev main_call11_v5 : Ref sig .tc := ⟨.hbm, 519, rfl⟩
abbrev main_call11_v6 : Ref sig .tc := ⟨.hbm, 520, rfl⟩
abbrev main_call11_v7 : Ref sig .tc := ⟨.hbm, 521, rfl⟩
abbrev main_call11_v8 : Ref sig .tc := ⟨.hbm, 522, rfl⟩
abbrev main_call11_v9 : Ref sig .tc := ⟨.hbm, 523, rfl⟩
abbrev main_call11_v10 : Ref sig .tc := ⟨.hbm, 524, rfl⟩
abbrev main_call11_v11 : Ref sig .tc := ⟨.hbm, 525, rfl⟩
abbrev main_call11_v12 : Ref sig .tc := ⟨.hbm, 526, rfl⟩
abbrev main_call11_v13 : Ref sig .tc := ⟨.hbm, 527, rfl⟩
abbrev main_call11_v14 : Ref sig .tc := ⟨.hbm, 528, rfl⟩
abbrev main_v338 : Ref sig .tc := ⟨.hbm, 529, rfl⟩
abbrev main_cst_35 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_v342 : Ref sig .tc := ⟨.hbm, 534, rfl⟩
abbrev main_v343 : Ref sig .tc := ⟨.hbm, 535, rfl⟩
abbrev main_v344 : Ref sig .tc := ⟨.hbm, 536, rfl⟩
abbrev main_v345 : Ref sig .tc := ⟨.hbm, 537, rfl⟩
abbrev main_v346 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_v363 : Ref sig .tc := ⟨.hbm, 555, rfl⟩
abbrev main_v364 : Ref sig .tc := ⟨.hbm, 556, rfl⟩
abbrev main_v365 : Ref sig .tc := ⟨.hbm, 557, rfl⟩
abbrev main_v366 : Ref sig .tc := ⟨.hbm, 558, rfl⟩
abbrev main_v367 : Ref sig .tc := ⟨.hbm, 559, rfl⟩
abbrev main_v368 : Ref sig .tc := ⟨.hbm, 560, rfl⟩
abbrev main_v369 : Ref sig .tc := ⟨.hbm, 561, rfl⟩
abbrev main_v370 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_v386 : Ref sig .tc := ⟨.hbm, 578, rfl⟩
abbrev main_v387 : Ref sig .tc := ⟨.hbm, 579, rfl⟩
abbrev main_v388 : Ref sig .tc := ⟨.hbm, 580, rfl⟩
abbrev main_v389 : Ref sig .tc := ⟨.hbm, 581, rfl⟩
abbrev main_v390 : Ref sig .tc := ⟨.hbm, 582, rfl⟩
abbrev main_v391 : Ref sig .tc := ⟨.hbm, 583, rfl⟩
abbrev main_v392 : Ref sig .tc := ⟨.hbm, 584, rfl⟩
abbrev main_v393 : Ref sig .tc := ⟨.hbm, 585, rfl⟩
abbrev main_v394 : Ref sig .tc := ⟨.hbm, 586, rfl⟩
abbrev main_v395 : Ref sig .tc := ⟨.hbm, 587, rfl⟩
abbrev main_v396 : Ref sig .tc := ⟨.hbm, 588, rfl⟩
abbrev main_v397 : Ref sig .tc := ⟨.hbm, 589, rfl⟩
abbrev main_v398 : Ref sig .tc := ⟨.hbm, 590, rfl⟩
abbrev main_v399 : Ref sig .tc := ⟨.hbm, 591, rfl⟩
abbrev main_v400 : Ref sig .tc := ⟨.hbm, 592, rfl⟩
abbrev main_v401 : Ref sig .tc := ⟨.hbm, 593, rfl⟩
abbrev main_cst_36 : Ref sig .tc := ⟨.hbm, 594, rfl⟩
abbrev main_v402 : Ref sig .tc := ⟨.hbm, 595, rfl⟩
abbrev main_cst_37 : Ref sig .tc := ⟨.hbm, 596, rfl⟩
abbrev main_v403 : Ref sig .tc := ⟨.hbm, 597, rfl⟩
abbrev main_v404 : Ref sig .tc := ⟨.hbm, 598, rfl⟩
abbrev main_v405 : Ref sig .tc := ⟨.hbm, 599, rfl⟩
abbrev main_v406 : Ref sig .tc := ⟨.hbm, 600, rfl⟩
abbrev main_v407 : Ref sig .tc := ⟨.hbm, 601, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  reducesTo_S8x3x1024x1024_S8x3_d2_3 : S8x3x1024x1024.ReducesTo [2, 3] S8x3
  bcast_S8x3_S8x3x1x1_0_1 : S8x3.BroadcastsInDim S8x3x1x1 (![0, 1] : Fin 2 → Fin S8x3x1x1.rank)
  bcast_S_S8x3x1x1 : S_.BroadcastsInDim S8x3x1x1 (![] : Fin 0 → Fin S8x3x1x1.rank)
  bcast_S8x3x1x1_S8x3x1024x1024_0_1_2_3 : S8x3x1x1.BroadcastsInDim S8x3x1024x1024 (![0, 1, 2, 3] : Fin 4 → Fin S8x3x1024x1024.rank)
  bcast_S_S8x3 : S_.BroadcastsInDim S8x3 (![] : Fin 0 → Fin S8x3.rank)
  reducesTo_S8x3x1x1_S_d0_1_2_3 : S8x3x1x1.ReducesTo [0, 1, 2, 3] S_
  reducesTo_S8x3_S_d0_1 : S8x3.ReducesTo [0, 1] S_
  slices_S8x3x1024x1024_S1x1x1024x1024_0_0_0_0 : S8x3x1024x1024.Slices ![0, 0, 0, 0] S1x1x1024x1024
  shapeCasts_S1x1x1024x1024_S1024x1024 : S1x1x1024x1024.ShapeCasts S1024x1024
  slices_S1024x1024_S1024x1_0_0 : S1024x1024.Slices ![0, 0] S1024x1
  slices_S1024x1024_S1024x1_0_1 : S1024x1024.Slices ![0, 1] S1024x1
  concatenates_S1024x1_S1024x1024_S1024x1025_d1 : Shape.Concatenates [S1024x1, S1024x1024] S1024x1025 1
  slices_S1024x1025_S1024x1_0_1024 : S1024x1025.Slices ![0, 1024] S1024x1
  slices_S1024x1025_S1024x1_0_1023 : S1024x1025.Slices ![0, 1023] S1024x1
  concatenates_S1024x1025_S1024x1_S1024x1026_d1 : Shape.Concatenates [S1024x1025, S1024x1] S1024x1026 1
  slices_S1024x1026_S1024x1024_0_0 : S1024x1026.Slices ![0, 0] S1024x1024
  bcast_S_S1024x1024 : S_.BroadcastsInDim S1024x1024 (![] : Fin 0 → Fin S1024x1024.rank)
  slices_S1024x1026_S1024x1024_0_2 : S1024x1026.Slices ![0, 2] S1024x1024
  reducesTo_S1024x1024_S_d0_1 : S1024x1024.ReducesTo [0, 1] S_
  reducesTo_S8x3x1024x1024_S8x1024x1024_d1 : S8x3x1024x1024.ReducesTo [1] S8x1024x1024
  bcast_S_S8x1024x1024 : S_.BroadcastsInDim S8x1024x1024 (![] : Fin 0 → Fin S8x1024x1024.rank)
  slices_S8x1024x1024_S8x1x1024_0_0_0 : S8x1024x1024.Slices ![0, 0, 0] S8x1x1024
  slices_S8x1024x1024_S8x1x1024_0_1_0 : S8x1024x1024.Slices ![0, 1, 0] S8x1x1024
  concatenates_S8x1x1024_S8x1024x1024_S8x1025x1024_d1 : Shape.Concatenates [S8x1x1024, S8x1024x1024] S8x1025x1024 1
  slices_S8x1025x1024_S8x1x1024_0_1024_0 : S8x1025x1024.Slices ![0, 1024, 0] S8x1x1024
  slices_S8x1025x1024_S8x1x1024_0_1023_0 : S8x1025x1024.Slices ![0, 1023, 0] S8x1x1024
  concatenates_S8x1025x1024_S8x1x1024_S8x1026x1024_d1 : Shape.Concatenates [S8x1025x1024, S8x1x1024] S8x1026x1024 1
  slices_S8x1026x1024_S8x1026x1_0_0_0 : S8x1026x1024.Slices ![0, 0, 0] S8x1026x1
  slices_S8x1026x1024_S8x1026x1_0_0_1 : S8x1026x1024.Slices ![0, 0, 1] S8x1026x1
  concatenates_S8x1026x1_S8x1026x1024_S8x1026x1025_d2 : Shape.Concatenates [S8x1026x1, S8x1026x1024] S8x1026x1025 2
  slices_S8x1026x1025_S8x1026x1_0_0_1024 : S8x1026x1025.Slices ![0, 0, 1024] S8x1026x1
  slices_S8x1026x1025_S8x1026x1_0_0_1023 : S8x1026x1025.Slices ![0, 0, 1023] S8x1026x1
  concatenates_S8x1026x1025_S8x1026x1_S8x1026x1026_d2 : Shape.Concatenates [S8x1026x1025, S8x1026x1] S8x1026x1026 2
  slices_S3x3_S1x1_0_0 : S3x3.Slices ![0, 0] S1x1
  shapeCasts_S1x1_S_ : S1x1.ShapeCasts S_
  slices_S8x1026x1026_S8x1024x1024_0_0_0 : S8x1026x1026.Slices ![0, 0, 0] S8x1024x1024
  slices_S3x3_S1x1_0_1 : S3x3.Slices ![0, 1] S1x1
  slices_S8x1026x1026_S8x1024x1024_0_0_1 : S8x1026x1026.Slices ![0, 0, 1] S8x1024x1024
  slices_S3x3_S1x1_0_2 : S3x3.Slices ![0, 2] S1x1
  slices_S8x1026x1026_S8x1024x1024_0_0_2 : S8x1026x1026.Slices ![0, 0, 2] S8x1024x1024
  slices_S3x3_S1x1_1_0 : S3x3.Slices ![1, 0] S1x1
  slices_S8x1026x1026_S8x1024x1024_0_1_0 : S8x1026x1026.Slices ![0, 1, 0] S8x1024x1024
  slices_S3x3_S1x1_1_1 : S3x3.Slices ![1, 1] S1x1
  slices_S8x1026x1026_S8x1024x1024_0_1_1 : S8x1026x1026.Slices ![0, 1, 1] S8x1024x1024
  slices_S3x3_S1x1_1_2 : S3x3.Slices ![1, 2] S1x1
  slices_S8x1026x1026_S8x1024x1024_0_1_2 : S8x1026x1026.Slices ![0, 1, 2] S8x1024x1024
  slices_S3x3_S1x1_2_0 : S3x3.Slices ![2, 0] S1x1
  slices_S8x1026x1026_S8x1024x1024_0_2_0 : S8x1026x1026.Slices ![0, 2, 0] S8x1024x1024
  slices_S3x3_S1x1_2_1 : S3x3.Slices ![2, 1] S1x1
  slices_S8x1026x1026_S8x1024x1024_0_2_1 : S8x1026x1026.Slices ![0, 2, 1] S8x1024x1024
  slices_S3x3_S1x1_2_2 : S3x3.Slices ![2, 2] S1x1
  slices_S8x1026x1026_S8x1024x1024_0_2_2 : S8x1026x1026.Slices ![0, 2, 2] S8x1024x1024
  slices_S1024x1024_S1x1024_0_0 : S1024x1024.Slices ![0, 0] S1x1024
  slices_S1024x1024_S1x1024_1_0 : S1024x1024.Slices ![1, 0] S1x1024
  concatenates_S1x1024_S1024x1024_S1025x1024_d0 : Shape.Concatenates [S1x1024, S1024x1024] S1025x1024 0
  slices_S1025x1024_S1x1024_1024_0 : S1025x1024.Slices ![1024, 0] S1x1024
  slices_S1025x1024_S1x1024_1023_0 : S1025x1024.Slices ![1023, 0] S1x1024
  concatenates_S1025x1024_S1x1024_S1026x1024_d0 : Shape.Concatenates [S1025x1024, S1x1024] S1026x1024 0
  slices_S1026x1024_S1026x1_0_0 : S1026x1024.Slices ![0, 0] S1026x1
  slices_S1026x1024_S1026x1_0_1 : S1026x1024.Slices ![0, 1] S1026x1
  concatenates_S1026x1_S1026x1024_S1026x1025_d1 : Shape.Concatenates [S1026x1, S1026x1024] S1026x1025 1
  slices_S1026x1025_S1026x1_0_1024 : S1026x1025.Slices ![0, 1024] S1026x1
  slices_S1026x1025_S1026x1_0_1023 : S1026x1025.Slices ![0, 1023] S1026x1
  concatenates_S1026x1025_S1026x1_S1026x1026_d1 : Shape.Concatenates [S1026x1025, S1026x1] S1026x1026 1
  slices_S1026x1026_S1024x1024_0_0 : S1026x1026.Slices ![0, 0] S1024x1024
  slices_S1026x1026_S1024x1024_0_1 : S1026x1026.Slices ![0, 1] S1024x1024
  slices_S1026x1026_S1024x1024_0_2 : S1026x1026.Slices ![0, 2] S1024x1024
  slices_S1026x1026_S1024x1024_1_0 : S1026x1026.Slices ![1, 0] S1024x1024
  slices_S1026x1026_S1024x1024_1_1 : S1026x1026.Slices ![1, 1] S1024x1024
  slices_S1026x1026_S1024x1024_1_2 : S1026x1026.Slices ![1, 2] S1024x1024
  slices_S1026x1026_S1024x1024_2_0 : S1026x1026.Slices ![2, 0] S1024x1024
  slices_S1026x1026_S1024x1024_2_1 : S1026x1026.Slices ![2, 1] S1024x1024
  slices_S1026x1026_S1024x1024_2_2 : S1026x1026.Slices ![2, 2] S1024x1024
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S_d0_1_2 : S8x1024x1024.ReducesTo [0, 1, 2] S_

variable [Facts₀]

class Facts : Prop extends Facts₀ where

variable [Facts]
-- ==== Proof.KernelRun.lean ====
/-
  The idealized kernel's run with its result kept.  The program is three kernel regions among stretches of host
  operations; its run ends in a state where every buffer that outlives a region holds the contents of the last
  fold `W18` (the launch memory pushed through each stretch's operations and each region's write-backs).  The frame
  statement keeps only the two argument arrays out of that final state; here the scalar result `main_v226` is kept
  too, read at the same fold, so that the result can then be computed region by region.
-/
import proofs.«123598_j69123203661888_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last fold's
    contents and the two argument arrays as launched. -/
theorem run_value : θ_run defs (onTc (τ := τ) (main (F := F))) ⟨m, fun _ => 0, ρ⟩ (fun r => ∀ c : Dev nD,
      r.2.mem ((c.tc : Thread nD τ).loc main_v226) = W18 m ρ c (Proc.devRef .tc main_v226)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v226 (by decide)),
       (h c _ (mem_uc main_arg0 (by decide))).trans (W18_main_arg0 m ρ c),
       (h c _ (mem_uc main_arg1 (by decide))).trans (W18_main_arg1 m ρ c)⟩)

end Cert.KernelIdeal.ValueRun

end
-- ==== Proof.RefOps.lean ====
/- The reference program's operations as one table per window of its @main, in program order: each line is the
   operation the program's own text performs there, and a called function's lines stand at the call, written over
   the buffers that call was given. -/
import proofs.«123598_j69123203661888_2_alg».proof.ReferenceIdeal
import Idealize.ShloMosaic.Lib.StableHlo.Run

noncomputable section

namespace Cert.ReferenceIdeal.Table

open Idealize.ShloMosaic Idealize.SL.Sem Idealize.ShloMosaic.StableHlo Cert.ReferenceIdeal

variable {F : FTy → Type} [FloatOps F] [Facts]
open Facts₀ Facts

/-- The operations of window 0 of @main (122 of them). -/
abbrev ops0 : List (HloOp τ sig (Elt F)) :=
  [ StableHlo.nullary main_cst (fun i => FloatOps.ofBits .f32 (lit0 (S3x3.rowMajor i))),
    StableHlo.nullary main_cst_0 (fun i => FloatOps.ofBits .f32 (lit1 (S3x3.rowMajor i))),
    StableHlo.unary main_arg1 main_v0 (Host.negf : (⟨S8x3x1024x1024, .f32⟩ : BufTy).Contents (Elt F) → (⟨S8x3x1024x1024, .f32⟩ : BufTy).Contents (Elt F)),
    StableHlo.TRef.nullary main_call0.cst (constant S_ .f32 0x00000000#32),
    StableHlo.TRef.unary main_call0.cst main_call0.v0 (broadcastInDim S8x3x1024x1024 ![] bcast_S_S8x3x1024x1024),
    StableHlo.TRef.binary ((.of main_v0) : StableHlo.TRef sig ⟨S8x3x1024x1024, .f32⟩) main_call0.v0 main_call0.v1 maximumf,
    StableHlo.nullary main_cst_1 (constant S_ .f32 0x3F800000#32),
    StableHlo.unary main_cst_1 main_v2 (broadcastInDim S8x3x1024x1024 ![] bcast_S_S8x3x1024x1024 : (⟨S_, .f32⟩ : BufTy).Contents (Elt F) → (⟨S8x3x1024x1024, .f32⟩ : BufTy).Contents (Elt F)),
    StableHlo.binary main_arg1 main_v2 main_v3 (subf : (⟨S8x3x1024x1024, .f32⟩ : BufTy).Contents (Elt F) → (⟨S8x3x1024x1024, .f32⟩ : BufTy).Contents (Elt F) → (⟨S8x3x1024x1024, .f32⟩ : BufTy).Contents (Elt F)),
    StableHlo.TRef.nullary main_call1.cst (constant S_ .f32 0x00000000#32),
    StableHlo.TRef.unary main_call1.cst main_call1.v0 (broadcastInDim S8x3x1024x1024 ![] bcast_S_S8x3x1024x1024),
    StableHlo.TRef.binary ((.of main_v3) : StableHlo.TRef sig ⟨S8x3x1024x1024, .f32⟩) main_call1.v0 main_call1.v1 maximumf,
    StableHlo.binary main_v1 main_v4 main_v5 (addf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_v5 main_v5 main_v6 (mulf : (⟨S8x3x1024x1024, .f32⟩ : BufTy).Contents (Elt F) → (⟨S8x3x1024x1024, .f32⟩ : BufTy).Contents (Elt F) → (⟨S8x3x1024x1024, .f32⟩ : BufTy).Contents (Elt F)),
    StableHlo.nullary main_cst_2 (constant S_ .f32 0x00000000#32),
    StableHlo.binary main_v6 main_cst_2 main_v7 ((fun x v => Host.reduceAdd x v reducesTo_S8x3x1024x1024_S_d0_1_2_3 h_S_) : (⟨S8x3x1024x1024, .f32⟩ : BufTy).Contents (Elt F) → (⟨S_, .f32⟩ : BufTy).Contents (Elt F) → (⟨S_, .f32⟩ : BufTy).Contents (Elt F)),
    StableHlo.nullary main_cst_3 (constant S_ .f32 0x4BC00000#32),
    StableHlo.binary main_v7 main_cst_3 main_v8 (Host.divf : (⟨S_, .f32⟩ : BufTy).Contents (Elt F) → (⟨S_, .f32⟩ : BufTy).Contents (Elt F) → (⟨S_, .f32⟩ : BufTy).Contents (Elt F)),
    StableHlo.nullary main_c (constantI S_ 32 1#32),
    StableHlo.TRef.nullary main_call2.call0.cst (constant S_ .f32 0x00000000#32),
    StableHlo.TRef.binary ((.of main_arg0) : StableHlo.TRef sig ⟨S8x3x1024x1024, .f32⟩) main_call2.call0.cst main_call2.call0.v0 (fun x v => Host.reduceAdd x v reducesTo_S8x3x1024x1024_S8x3_d2_3 h_S_),
    StableHlo.TRef.unary main_call2.call0.v0 main_call2.call0.v1 (broadcastInDim S8x3x1x1 ![0, 1] bcast_S8x3_S8x3x1x1_0_1),
    StableHlo.TRef.nullary main_call2.call0.cst_0 (constant S_ .f32 0x49800000#32),
    StableHlo.TRef.unary main_call2.call0.cst_0 main_call2.call0.v2 (broadcastInDim S8x3x1x1 ![] bcast_S_S8x3x1x1),
    StableHlo.TRef.binary main_call2.call0.v1 main_call2.call0.v2 main_call2.call0.v3 Host.divf,
    StableHlo.TRef.unary main_call2.call0.v3 main_call2.call0.v4 (broadcastInDim S8x3x1024x1024 ![0, 1, 2, 3] bcast_S8x3x1x1_S8x3x1024x1024_0_1_2_3),
    StableHlo.TRef.binary ((.of main_arg0) : StableHlo.TRef sig ⟨S8x3x1024x1024, .f32⟩) main_call2.call0.v4 main_call2.call0.v5 subf,
    StableHlo.TRef.binary main_call2.call0.v5 main_call2.call0.v5 main_call2.call0.v6 mulf,
    StableHlo.TRef.unary ((.of main_c) : StableHlo.TRef sig ⟨S_, .i32⟩) main_call2.call0.v7 (sitofp .f32),
    StableHlo.TRef.nullary main_call2.call0.cst_1 (constant S_ .f32 0x49800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S8x3x1024x1024_S8x3_d2_3 h_S_),
    StableHlo.TRef.unary main_call2.call0.v8 main_call2.call0.v10 (broadcastInDim S8x3 ![] bcast_S_S8x3),
    StableHlo.TRef.binary main_call2.call0.v9 main_call2.call0.v10 main_call2.call0.v11 Host.divf,
    StableHlo.TRef.nullary main_call2.call0.cst_3 (constant S_ .f32 0x00000000#32),
    StableHlo.TRef.binary main_call2.call0.v8 main_call2.call0.cst_3 main_call2.call0.v12 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S8x3 ![] bcast_S_S8x3),
    StableHlo.TRef.ternary main_call2.call0.v12 main_call2.call0.v11 main_call2.call0.call0.v1 main_call2.call0.call0.v2 (fun p a b => select (broadcastInDim S8x3 ![] bcast_S_S8x3 p) a b),
    StableHlo.TRef.unary main_call2.call0.call0.v2 main_call2.v1 Host.sqrt,
    StableHlo.nullary main_cst_4 (constant S_ .f32 0x00000000#32),
    StableHlo.binary main_arg1 main_cst_4 main_v10 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_v10 main_v11 (broadcastInDim S8x3x1x1 ![0, 1] bcast_S8x3_S8x3x1x1_0_1 : (⟨S8x3, .f32⟩ : BufTy).Contents (Elt F) → (⟨S8x3x1x1, .f32⟩ : BufTy).Contents (Elt F)),
    StableHlo.nullary main_cst_5 (constant S_ .f32 0x49800000#32),
    StableHlo.unary main_cst_5 main_v12 (broadcastInDim S8x3x1x1 ![] bcast_S_S8x3x1x1 : (⟨S_, .f32⟩ : BufTy).Contents (Elt F) → (⟨S8x3x1x1, .f32⟩ : BufTy).Contents (Elt F)),
    StableHlo.binary main_v11 main_v12 main_v13 (Host.divf : (⟨S8x3x1x1, .f32⟩ : BufTy).Contents (Elt F) → (⟨S8x3x1x1, .f32⟩ : BufTy).Contents (Elt F) → (⟨S8x3x1x1, .f32⟩ : BufTy).Contents (Elt F)),
    StableHlo.nullary main_c_6 (constantI S_ 32 1#32),
    StableHlo.TRef.nullary main_call3.call0.cst (constant S_ .f32 0x00000000#32),
    StableHlo.TRef.binary ((.of main_arg1) : StableHlo.TRef sig ⟨S8x3x1024x1024, .f32⟩) main_call3.call0.cst main_call3.call0.v0 (fun x v => Host.reduceAdd x v reducesTo_S8x3x1024x1024_S8x3_d2_3 h_S_),
    StableHlo.TRef.unary main_call3.call0.v0 main_call3.call0.v1 (broadcastInDim S8x3x1x1 ![0, 1] bcast_S8x3_S8x3x1x1_0_1),
    StableHlo.TRef.nullary main_call3.call0.cst_0 (constant S_ .f32 0x49800000#32),
    StableHlo.TRef.unary main_call3.call0.cst_0 main_call3.call0.v2 (broadcastInDim S8x3x1x1 ![] bcast_S_S8x3x1x1),
    StableHlo.TRef.binary main_call3.call0.v1 main_call3.call0.v2 main_call3.call0.v3 Host.divf,
    StableHlo.TRef.unary main_call3.call0.v3 main_call3.call0.v4 (broadcastInDim S8x3x1024x1024 ![0, 1, 2, 3] bcast_S8x3x1x1_S8x3x1024x1024_0_1_2_3),
    StableHlo.TRef.binary ((.of main_arg1) : StableHlo.TRef sig ⟨S8x3x1024x1024, .f32⟩) main_call3.call0.v4 main_call3.call0.v5 subf,
    StableHlo.TRef.binary main_call3.call0.v5 main_call3.call0.v5 main_call3.call0.v6 mulf,
    StableHlo.TRef.unary ((.of main_c_6) : StableHlo.TRef sig ⟨S_, .i32⟩) main_call3.call0.v7 (sitofp .f32),
    StableHlo.TRef.nullary main_call3.call0.cst_1 (constant S_ .f32 0x49800000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S8x3x1024x1024_S8x3_d2_3 h_S_),
    StableHlo.TRef.unary main_call3.call0.v8 main_call3.call0.v10 (broadcastInDim S8x3 ![] bcast_S_S8x3),
    StableHlo.TRef.binary main_call3.call0.v9 main_call3.call0.v10 main_call3.call0.v11 Host.divf,
    StableHlo.TRef.nullary main_call3.call0.cst_3 (constant S_ .f32 0x00000000#32),
    StableHlo.TRef.binary main_call3.call0.v8 main_call3.call0.cst_3 main_call3.call0.v12 (cmpf .ogt),
    StableHlo.TRef.nullary main_call3.call0.cst_4 (constant S_ .f32 0x7FC00000#32),
    StableHlo.TRef.unary main_call3.call0.cst_4 main_call3.call0.call0.v0 id,
    StableHlo.TRef.unary main_call3.call0.call0.v0 main_call3.call0.call0.v1 (broadcastInDim S8x3 ![] bcast_S_S8x3),
    StableHlo.TRef.ternary main_call3.call0.v12 main_call3.call0.v11 main_call3.call0.call0.v1 main_call3.call0.call0.v2 (fun p a b => select (broadcastInDim S8x3 ![] bcast_S_S8x3 p) a b),
    StableHlo.TRef.unary main_call3.call0.call0.v2 main_call3.v1 Host.sqrt,
    StableHlo.nullary main_cst_7 (constant S_ .f32 0x3F000000#32),
    StableHlo.unary main_cst_7 main_v15 (broadcastInDim S8x3x1x1 ![] bcast_S_S8x3x1x1 : (⟨S_, .f32⟩ : BufTy).Contents (Elt F) → (⟨S8x3x1x1, .f32⟩ : BufTy).Contents (Elt F)),
    StableHlo.binary main_v13 main_v15 main_v16 (subf : (⟨S8x3x1x1, .f32⟩ : BufTy).Contents (Elt F) → (⟨S8x3x1x1, .f32⟩ : BufTy).Contents (Elt F) → (⟨S8x3x1x1, .f32⟩ : BufTy).Contents (Elt F)),
    StableHlo.binary main_v16 main_v16 main_v17 (mulf : (⟨S8x3x1x1, .f32⟩ : BufTy).Contents (Elt F) → (⟨S8x3x1x1, .f32⟩ : BufTy).Contents (Elt F) → (⟨S8x3x1x1, .f32⟩ : BufTy).Contents (Elt F)),
    StableHlo.nullary main_cst_8 (constant S_ .f32 0x00000000#32),
    StableHlo.binary main_v17 main_cst_8 main_v18 ((fun x v => Host.reduceAdd x v reducesTo_S8x3x1x1_S_d0_1_2_3 h_S_) : (⟨S8x3x1x1, .f32⟩ : BufTy).Contents (Elt F) → (⟨S_, .f32⟩ : BufTy).Contents (Elt F) → (⟨S_, .f32⟩ : BufTy).Contents (Elt F)),
    StableHlo.nullary main_cst_9 (constant S_ .f32 0x41C00000#32),
    StableHlo.binary main_v18 main_cst_9 main_v19 (Host.divf : (⟨S_, .f32⟩ : BufTy).Contents (Elt F) → (⟨S_, .f32⟩ : BufTy).Contents (Elt F) → (⟨S_, .f32⟩ : BufTy).Contents (Elt F)),
    StableHlo.binary main_v14 main_v9 main_v20 (subf : (⟨S8x3, .f32⟩ : BufTy).Contents (Elt F) → (⟨S8x3, .f32⟩ : BufTy).Contents (Elt F) → (⟨S8x3, .f32⟩ : BufTy).Contents (Elt F)),
    StableHlo.binary main_v20 main_v20 main_v21 (mulf : (⟨S8x3, .f32⟩ : BufTy).Contents (Elt F) → (⟨S8x3, .f32⟩ : BufTy).Contents (Elt F) → (⟨S8x3, .f32⟩ : BufTy).Contents (Elt F)),
    StableHlo.nullary main_cst_10 (constant S_ .f32 0x00000000#32),
    StableHlo.binary main_v21 main_cst_10 main_v22 ((fun x v => Host.reduceAdd x v reducesTo_S8x3_S_d0_1 h_S_) : (⟨S8x3, .f32⟩ : BufTy).Contents (Elt F) → (⟨S_, .f32⟩ : BufTy).Contents (Elt F) → (⟨S_, .f32⟩ : BufTy).Contents (Elt F)),
    StableHlo.nullary main_cst_11 (constant S_ .f32 0x41C00000#32),
    StableHlo.binary main_v22 main_cst_11 main_v23 (Host.divf : (⟨S_, .f32⟩ : BufTy).Contents (Elt F) → (⟨S_, .f32⟩ : BufTy).Contents (Elt F) → (⟨S_, .f32⟩ : BufTy).Contents (Elt F)),
    StableHlo.unary main_arg1 main_v24 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v24 main_v25 rfl shapeCasts_S1x1x1024x1024_S1024x1024,
    StableHlo.unary main_arg0 main_v26 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v26 main_v27 rfl shapeCasts_S1x1x1024x1024_S1024x1024,
    StableHlo.nullary main_c_12 (constantI S_ 32 0#32),
    StableHlo.TRef.unary ((.of main_v25) : StableHlo.TRef sig ⟨S1024x1024, .f32⟩) main_call4.v0 (extractStridedSlice S1024x1 ![0, 0] · slices_S1024x1024_S1024x1_0_0),
    StableHlo.TRef.unary ((.of main_v25) : StableHlo.TRef sig ⟨S1024x1024, .f32⟩) main_call4.v1 (extractStridedSlice S1024x1 ![0, 1] · slices_S1024x1024_S1024x1_0_1),
    StableHlo.TRef.unary main_call4.v1 main_call4.call0.v0 (Host.reverse [1]),
    StableHlo.TRef.binary main_call4.call0.v0 ((.of main_v25) : StableHlo.TRef sig ⟨S1024x1024, .f32⟩) main_call4.v3 (fun a b => concatenate S1024x1025 1 [⟨S1024x1, a⟩, ⟨S1024x1024, b⟩] concatenates_S1024x1_S1024x1024_S1024x1025_d1),
    StableHlo.TRef.unary main_call4.v3 main_call4.v4 (extractStridedSlice S1024x1 ![0, 1024] · slices_S1024x1025_S1024x1_0_1024),
    StableHlo.TRef.unary main_call4.v3 main_call4.v5 (extractStridedSlice S1024x1 ![0, 1023] · slices_S1024x1025_S1024x1_0_1023),
    StableHlo.TRef.unary main_call4.v5 main_call4.call1.v0 (Host.reverse [1]),
    StableHlo.TRef.binary main_call4.v3 main_call4.call1.v0 main_call4.v7 (fun a b => concatenate S1024x1026 1 [⟨S1024x1025, a⟩, ⟨S1024x1, b⟩] concatenates_S1024x1025_S1024x1_S1024x1026_d1),
    StableHlo.unary main_v28 main_v29 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_13 (constant S_ .f32 0x40800000#32),
    StableHlo.unary main_cst_13 main_v30 (broadcastInDim S1024x1024 ![] bcast_S_S1024x1024 : (⟨S_, .f32⟩ : BufTy).Contents (Elt F) → (⟨S1024x1024, .f32⟩ : BufTy).Contents (Elt F)),
    StableHlo.binary main_v30 main_v29 main_v31 (mulf : (⟨S1024x1024, .f32⟩ : BufTy).Contents (Elt F) → (⟨S1024x1024, .f32⟩ : BufTy).Contents (Elt F) → (⟨S1024x1024, .f32⟩ : BufTy).Contents (Elt F)),
    StableHlo.unary main_v28 main_v32 ((extractStridedSlice S1024x1024 ![0, 2] · slices_S1024x1026_S1024x1024_0_2) : (⟨S1024x1026, .f32⟩ : BufTy).Contents (Elt F) → (⟨S1024x1024, .f32⟩ : BufTy).Contents (Elt F)),
    StableHlo.nullary main_cst_14 (constant S_ .f32 0x40800000#32),
    StableHlo.unary main_cst_14 main_v33 (broadcastInDim S1024x1024 ![] bcast_S_S1024x1024 : (⟨S_, .f32⟩ : BufTy).Contents (Elt F) → (⟨S1024x1024, .f32⟩ : BufTy).Contents (Elt F)),
    StableHlo.binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    StableHlo.binary main_v31 main_v34 main_v35 (subf : (⟨S1024x1024, .f32⟩ : BufTy).Contents (Elt F) → (⟨S1024x1024, .f32⟩ : BufTy).Contents (Elt F) → (⟨S1024x1024, .f32⟩ : BufTy).Contents (Elt F)),
    StableHlo.nullary main_c_15 (constantI S_ 32 0#32),
    StableHlo.TRef.unary ((.of main_v27) : StableHlo.TRef sig ⟨S1024x1024, .f32⟩) main_call5.v0 (extractStridedSlice S1024x1 ![0, 0] · slices_S1024x1024_S1024x1_0_0),
    StableHlo.TRef.unary ((.of main_v27) : StableHlo.TRef sig ⟨S1024x1024, .f32⟩) main_call5.v1 (extractStridedSlice S1024x1 ![0, 1] · slices_S1024x1024_S1024x1_0_1),
    StableHlo.TRef.unary main_call5.v1 main_call5.call0.v0 (Host.reverse [1]),
    StableHlo.TRef.binary main_call5.call0.v0 ((.of main_v27) : StableHlo.TRef sig ⟨S1024x1024, .f32⟩) main_call5.v3 (fun a b => concatenate S1024x1025 1 [⟨S1024x1, a⟩, ⟨S1024x1024, b⟩] concatenates_S1024x1_S1024x1024_S1024x1025_d1),
    StableHlo.TRef.unary main_call5.v3 main_call5.v4 (extractStridedSlice S1024x1 ![0, 1024] · slices_S1024x1025_S1024x1_0_1024),
    StableHlo.TRef.unary main_call5.v3 main_call5.v5 (extractStridedSlice S1024x1 ![0, 1023] · slices_S1024x1025_S1024x1_0_1023),
    StableHlo.TRef.unary main_call5.v5 main_call5.call1.v0 (Host.reverse [1]),
    StableHlo.TRef.binary main_call5.v3 main_call5.call1.v0 main_call5.v7 (fun a b => concatenate S1024x1026 1 [⟨S1024x1025, a⟩, ⟨S1024x1, b⟩] concatenates_S1024x1025_S1024x1_S1024x1026_d1),
    StableHlo.unary main_v36 main_v37 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_16 (constant S_ .f32 0x40800000#32),
    StableHlo.unary main_cst_16 main_v38 (broadcastInDim S1024x1024 ![] bcast_S_S1024x1024 : (⟨S_, .f32⟩ : BufTy).Contents (Elt F) → (⟨S1024x1024, .f32⟩ : BufTy).Contents (Elt F)),
    StableHlo.binary main_v38 main_v37 main_v39 (mulf : (⟨S1024x1024, .f32⟩ : BufTy).Contents (Elt F) → (⟨S1024x1024, .f32⟩ : BufTy).Contents (Elt F) → (⟨S1024x1024, .f32⟩ : BufTy).Contents (Elt F)),
    StableHlo.unary main_v36 main_v40 ((extractStridedSlice S1024x1024 ![0, 2] · slices_S1024x1026_S1024x1024_0_2) : (⟨S1024x1026, .f32⟩ : BufTy).Contents (Elt F) → (⟨S1024x1024, .f32⟩ : BufTy).Contents (Elt F)) ]

theorem ops0_sub : (ops0 : List (HloOp τ sig (Elt F))).Forall fun op => op.bufs ⊆ tcRefs τ sig :=
  ⟨nullary_bufs_sub .., nullary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., unary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., unary_bufs_sub .., reshape_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., nullary_bufs_sub .., unary_bufs_sub .., binary_bufs_sub .., unary_bufs_sub ..⟩

/-- The operations of window 1 of @main (75 of them). -/
abbrev ops1 : List (HloOp τ sig (Elt F)) :=
  [ StableHlo.nullary main_cst_17 (constant S_ .f32 0x40800000#32),
    StableHlo.unary main_cst_17 main_v41 (broadcastInDim S1024x1024 ![] bcast_S_S1024x1024 : (⟨S_, .f32⟩ : BufTy).Contents (Elt F) → (⟨S1024x1024, .f32⟩ : BufTy).Contents (Elt F)),
    StableHlo.binary main_v41 main_v40 main_v42 (mulf : (⟨S1024x1024, .f32⟩ : BufTy).Contents (Elt F) → (⟨S1024x1024, .f32⟩ : BufTy).Contents (Elt F) → (⟨S1024x1024, .f32⟩ : BufTy).Contents (Elt F)),
    StableHlo.binary main_v39 main_v42 main_v43 (subf : (⟨S1024x1024, .f32⟩ : BufTy).Contents (Elt F) → (⟨S1024x1024, .f32⟩ : BufTy).Contents (Elt F) → (⟨S1024x1024, .f32⟩ : BufTy).Contents (Elt F)),
    StableHlo.binary main_v35 main_v43 main_v44 (subf : (⟨S1024x1024, .f32⟩ : BufTy).Contents (Elt F) → (⟨S1024x1024, .f32⟩ : BufTy).Contents (Elt F) → (⟨S1024x1024, .f32⟩ : BufTy).Contents (Elt F)),
    StableHlo.unary main_v44 main_v45 (Host.absf : (⟨S1024x1024, .f32⟩ : BufTy).Contents (Elt F) → (⟨S1024x1024, .f32⟩ : BufTy).Contents (Elt F)),
    StableHlo.nullary main_cst_18 (constant S_ .f32 0x00000000#32),
    StableHlo.binary main_v45 main_cst_18 main_v46 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_19 (constant S_ .f32 0x49800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x00000000#32),
    StableHlo.binary main_arg1 main_cst_20 main_v48 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_21 (constant S_ .f32 0x40400000#32),
    StableHlo.unary main_cst_21 main_v49 (broadcastInDim S8x1024x1024 ![] bcast_S_S8x1024x1024 : (⟨S_, .f32⟩ : BufTy).Contents (Elt F) → (⟨S8x1024x1024, .f32⟩ : BufTy).Contents (Elt F)),
    StableHlo.binary main_v48 main_v49 main_v50 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_22 (constant S_ .f32 0x00000000#32),
    StableHlo.binary main_arg0 main_cst_22 main_v51 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_23 (constant S_ .f32 0x40400000#32),
    StableHlo.unary main_cst_23 main_v52 (broadcastInDim S8x1024x1024 ![] bcast_S_S8x1024x1024 : (⟨S_, .f32⟩ : BufTy).Contents (Elt F) → (⟨S8x1024x1024, .f32⟩ : BufTy).Contents (Elt F)),
    StableHlo.binary main_v51 main_v52 main_v53 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_24 (constantI S_ 32 0#32),
    StableHlo.TRef.unary ((.of main_v50) : StableHlo.TRef sig ⟨S8x1024x1024, .f32⟩) main_call6.v0 (extractStridedSlice S8x1x1024 ![0, 0, 0] · slices_S8x1024x1024_S8x1x1024_0_0_0),
    StableHlo.TRef.unary ((.of main_v50) : StableHlo.TRef sig ⟨S8x1024x1024, .f32⟩) main_call6.v1 (extractStridedSlice S8x1x1024 ![0, 1, 0] · slices_S8x1024x1024_S8x1x1024_0_1_0),
    StableHlo.TRef.unary main_call6.v1 main_call6.call0.v0 (Host.reverse [1]),
    StableHlo.TRef.binary main_call6.call0.v0 ((.of main_v50) : StableHlo.TRef sig ⟨S8x1024x1024, .f32⟩) main_call6.v3 (fun a b => concatenate S8x1025x1024 1 [⟨S8x1x1024, a⟩, ⟨S8x1024x1024, b⟩] concatenates_S8x1x1024_S8x1024x1024_S8x1025x1024_d1),
    StableHlo.TRef.unary main_call6.v3 main_call6.v4 (extractStridedSlice S8x1x1024 ![0, 1024, 0] · slices_S8x1025x1024_S8x1x1024_0_1024_0),
    StableHlo.TRef.unary main_call6.v3 main_call6.v5 (extractStridedSlice S8x1x1024 ![0, 1023, 0] · slices_S8x1025x1024_S8x1x1024_0_1023_0),
    StableHlo.TRef.unary main_call6.v5 main_call6.call1.v0 (Host.reverse [1]),
    StableHlo.TRef.binary main_call6.v3 main_call6.call1.v0 main_call6.v7 (fun a b => concatenate S8x1026x1024 1 [⟨S8x1025x1024, a⟩, ⟨S8x1x1024, b⟩] concatenates_S8x1025x1024_S8x1x1024_S8x1026x1024_d1),
    StableHlo.TRef.unary main_call6.v7 main_call6.v8 (extractStridedSlice S8x1026x1 ![0, 0, 0] · slices_S8x1026x1024_S8x1026x1_0_0_0),
    StableHlo.TRef.unary main_call6.v7 main_call6.v9 (extractStridedSlice S8x1026x1 ![0, 0, 1] · slices_S8x1026x1024_S8x1026x1_0_0_1),
    StableHlo.TRef.unary main_call6.v9 main_call6.call2.v0 (Host.reverse [2]),
    StableHlo.TRef.binary main_call6.call2.v0 main_call6.v7 main_call6.v11 (fun a b => concatenate S8x1026x1025 2 [⟨S8x1026x1, a⟩, ⟨S8x1026x1024, b⟩] concatenates_S8x1026x1_S8x1026x1024_S8x1026x1025_d2),
    StableHlo.TRef.unary main_call6.v11 main_call6.v12 (extractStridedSlice S8x1026x1 ![0, 0, 1024] · slices_S8x1026x1025_S8x1026x1_0_0_1024),
    StableHlo.TRef.unary main_call6.v11 main_call6.v13 (extractStridedSlice S8x1026x1 ![0, 0, 1023] · slices_S8x1026x1025_S8x1026x1_0_0_1023),
    StableHlo.TRef.unary main_call6.v13 main_call6.call3.v0 (Host.reverse [2]),
    StableHlo.TRef.binary main_call6.v11 main_call6.call3.v0 main_call6.v15 (fun a b => concatenate S8x1026x1026 2 [⟨S8x1026x1025, a⟩, ⟨S8x1026x1, b⟩] concatenates_S8x1026x1025_S8x1026x1_S8x1026x1026_d2),
    StableHlo.nullary main_cst_25 (constant S_ .f32 0x00000000#32),
    StableHlo.unary main_cst_25 main_v55 (broadcastInDim S8x1024x1024 ![] bcast_S_S8x1024x1024 : (⟨S_, .f32⟩ : BufTy).Contents (Elt F) → (⟨S8x1024x1024, .f32⟩ : BufTy).Contents (Elt F)),
    StableHlo.unary main_cst main_v56 ((extractStridedSlice S1x1 ![0, 0] · slices_S3x3_S1x1_0_0) : (⟨S3x3, .f32⟩ : BufTy).Contents (Elt F) → (⟨S1x1, .f32⟩ : BufTy).Contents (Elt F)),
    StableHlo.reshape main_v56 main_v57 rfl shapeCasts_S1x1_S_,
    StableHlo.unary main_v54 main_v58 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v57 main_v59 (broadcastInDim S8x1024x1024 ![] bcast_S_S8x1024x1024 : (⟨S_, .f32⟩ : BufTy).Contents (Elt F) → (⟨S8x1024x1024, .f32⟩ : BufTy).Contents (Elt F)),
    StableHlo.binary main_v59 main_v58 main_v60 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v55 main_v60 main_v61 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v62 ((extractStridedSlice S1x1 ![0, 1] · slices_S3x3_S1x1_0_1) : (⟨S3x3, .f32⟩ : BufTy).Contents (Elt F) → (⟨S1x1, .f32⟩ : BufTy).Contents (Elt F)),
    StableHlo.reshape main_v62 main_v63 rfl shapeCasts_S1x1_S_,
    StableHlo.unary main_v54 main_v64 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v63 main_v65 (broadcastInDim S8x1024x1024 ![] bcast_S_S8x1024x1024 : (⟨S_, .f32⟩ : BufTy).Contents (Elt F) → (⟨S8x1024x1024, .f32⟩ : BufTy).Contents (Elt F)),
    StableHlo.binary main_v65 main_v64 main_v66 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v61 main_v66 main_v67 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v68 ((extractStridedSlice S1x1 ![0, 2] · slices_S3x3_S1x1_0_2) : (⟨S3x3, .f32⟩ : BufTy).Contents (Elt F) → (⟨S1x1, .f32⟩ : BufTy).Contents (Elt F)),
    StableHlo.reshape main_v68 main_v69 rfl shapeCasts_S1x1_S_,
    StableHlo.unary main_v54 main_v70 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v69 main_v71 (broadcastInDim S8x1024x1024 ![] bcast_S_S8x1024x1024 : (⟨S_, .f32⟩ : BufTy).Contents (Elt F) → (⟨S8x1024x1024, .f32⟩ : BufTy).Contents (Elt F)),
    StableHlo.binary main_v71 main_v70 main_v72 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v67 main_v72 main_v73 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v74 ((extractStridedSlice S1x1 ![1, 0] · slices_S3x3_S1x1_1_0) : (⟨S3x3, .f32⟩ : BufTy).Contents (Elt F) → (⟨S1x1, .f32⟩ : BufTy).Contents (Elt F)),
    StableHlo.reshape main_v74 main_v75 rfl shapeCasts_S1x1_S_,
    StableHlo.unary main_v54 main_v76 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v75 main_v77 (broadcastInDim S8x1024x1024 ![] bcast_S_S8x1024x1024 : (⟨S_, .f32⟩ : BufTy).Contents (Elt F) → (⟨S8x1024x1024, .f32⟩ : BufTy).Contents (Elt F)),
    StableHlo.binary main_v77 main_v76 main_v78 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v73 main_v78 main_v79 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v80 ((extractStridedSlice S1x1 ![1, 1] · slices_S3x3_S1x1_1_1) : (⟨S3x3, .f32⟩ : BufTy).Contents (Elt F) → (⟨S1x1, .f32⟩ : BufTy).Contents (Elt F)),
    StableHlo.reshape main_v80 main_v81 rfl shapeCasts_S1x1_S_,
    StableHlo.unary main_v54 main_v82 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v81 main_v83 (broadcastInDim S8x1024x1024 ![] bcast_S_S8x1024x1024 : (⟨S_, .f32⟩ : BufTy).Contents (Elt F) → (⟨S8x1024x1024, .f32⟩ : BufTy).Contents (Elt F)),
    StableHlo.binary main_v83 main_v82 main_v84 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v79 main_v84 main_v85 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v86 ((extractStridedSlice S1x1 ![1, 2] · slices_S3x3_S1x1_1_2) : (⟨S3x3, .f32⟩ : BufTy).Contents (Elt F) → (⟨S1x1, .f32⟩ : BufTy).Contents (Elt F)),
    StableHlo.reshape main_v86 main_v87 rfl shapeCasts_S1x1_S_,
    StableHlo.unary main_v54 main_v88 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v87 main_v89 (broadcastInDim S8x1024x1024 ![] bcast_S_S8x1024x1024 : (⟨S_, .f32⟩ : BufTy).Contents (Elt F) → (⟨S8x1024x1024, .f32⟩ : BufTy).Contents (Elt F)),
    StableHlo.binary main_v89 main_v88 main_v90 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v85 main_v90 main_v91 (addf : (⟨S8x1024x1024, .f32⟩ : BufTy).Contents (Elt F) → (⟨S8x1024x1024, .f32⟩ : BufTy).Contents (Elt F) → (⟨S8x1024x1024, .f32⟩ : BufTy).Contents (Elt F)) ]

theorem ops1_sub : (ops1 : List (HloOp τ sig (Elt F))).Forall fun op => op.bufs ⊆ tcRefs τ sig :=
  ⟨nullary_bufs_sub .., unary_bufs_sub .., binary_bufs_sub .., binary_bufs_sub .., binary_bufs_sub .., unary_bufs_sub .., nullary_bufs_sub .., binary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩

/-- The operations of window 2 of @main (75 of them). -/
abbrev ops2 : List (HloOp τ sig (Elt F)) :=
  [ StableHlo.unary main_cst main_v92 ((extractStridedSlice S1x1 ![2, 0] · slices_S3x3_S1x1_2_0) : (⟨S3x3, .f32⟩ : BufTy).Contents (Elt F) → (⟨S1x1, .f32⟩ : BufTy).Contents (Elt F)),
    StableHlo.reshape main_v92 main_v93 rfl shapeCasts_S1x1_S_,
    StableHlo.unary main_v54 main_v94 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v93 main_v95 (broadcastInDim S8x1024x1024 ![] bcast_S_S8x1024x1024 : (⟨S_, .f32⟩ : BufTy).Contents (Elt F) → (⟨S8x1024x1024, .f32⟩ : BufTy).Contents (Elt F)),
    StableHlo.binary main_v95 main_v94 main_v96 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v91 main_v96 main_v97 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v98 ((extractStridedSlice S1x1 ![2, 1] · slices_S3x3_S1x1_2_1) : (⟨S3x3, .f32⟩ : BufTy).Contents (Elt F) → (⟨S1x1, .f32⟩ : BufTy).Contents (Elt F)),
    StableHlo.reshape main_v98 main_v99 rfl shapeCasts_S1x1_S_,
    StableHlo.unary main_v54 main_v100 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v99 main_v101 (broadcastInDim S8x1024x1024 ![] bcast_S_S8x1024x1024 : (⟨S_, .f32⟩ : BufTy).Contents (Elt F) → (⟨S8x1024x1024, .f32⟩ : BufTy).Contents (Elt F)),
    StableHlo.binary main_v101 main_v100 main_v102 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v97 main_v102 main_v103 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v104 ((extractStridedSlice S1x1 ![2, 2] · slices_S3x3_S1x1_2_2) : (⟨S3x3, .f32⟩ : BufTy).Contents (Elt F) → (⟨S1x1, .f32⟩ : BufTy).Contents (Elt F)),
    StableHlo.reshape main_v104 main_v105 rfl shapeCasts_S1x1_S_,
    StableHlo.unary main_v54 main_v106 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v105 main_v107 (broadcastInDim S8x1024x1024 ![] bcast_S_S8x1024x1024 : (⟨S_, .f32⟩ : BufTy).Contents (Elt F) → (⟨S8x1024x1024, .f32⟩ : BufTy).Contents (Elt F)),
    StableHlo.binary main_v107 main_v106 main_v108 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v103 main_v108 main_v109 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_26 (constantI S_ 32 0#32),
    StableHlo.TRef.unary ((.of main_v53) : StableHlo.TRef sig ⟨S8x1024x1024, .f32⟩) main_call7.v0 (extractStridedSlice S8x1x1024 ![0, 0, 0] · slices_S8x1024x1024_S8x1x1024_0_0_0),
    StableHlo.TRef.unary ((.of main_v53) : StableHlo.TRef sig ⟨S8x1024x1024, .f32⟩) main_call7.v1 (extractStridedSlice S8x1x1024 ![0, 1, 0] · slices_S8x1024x1024_S8x1x1024_0_1_0),
    StableHlo.TRef.unary main_call7.v1 main_call7.call0.v0 (Host.reverse [1]),
    StableHlo.TRef.binary main_call7.call0.v0 ((.of main_v53) : StableHlo.TRef sig ⟨S8x1024x1024, .f32⟩) main_call7.v3 (fun a b => concatenate S8x1025x1024 1 [⟨S8x1x1024, a⟩, ⟨S8x1024x1024, b⟩] concatenates_S8x1x1024_S8x1024x1024_S8x1025x1024_d1),
    StableHlo.TRef.unary main_call7.v3 main_call7.v4 (extractStridedSlice S8x1x1024 ![0, 1024, 0] · slices_S8x1025x1024_S8x1x1024_0_1024_0),
    StableHlo.TRef.unary main_call7.v3 main_call7.v5 (extractStridedSlice S8x1x1024 ![0, 1023, 0] · slices_S8x1025x1024_S8x1x1024_0_1023_0),
    StableHlo.TRef.unary main_call7.v5 main_call7.call1.v0 (Host.reverse [1]),
    StableHlo.TRef.binary main_call7.v3 main_call7.call1.v0 main_call7.v7 (fun a b => concatenate S8x1026x1024 1 [⟨S8x1025x1024, a⟩, ⟨S8x1x1024, b⟩] concatenates_S8x1025x1024_S8x1x1024_S8x1026x1024_d1),
    StableHlo.TRef.unary main_call7.v7 main_call7.v8 (extractStridedSlice S8x1026x1 ![0, 0, 0] · slices_S8x1026x1024_S8x1026x1_0_0_0),
    StableHlo.TRef.unary main_call7.v7 main_call7.v9 (extractStridedSlice S8x1026x1 ![0, 0, 1] · slices_S8x1026x1024_S8x1026x1_0_0_1),
    StableHlo.TRef.unary main_call7.v9 main_call7.call2.v0 (Host.reverse [2]),
    StableHlo.TRef.binary main_call7.call2.v0 main_call7.v7 main_call7.v11 (fun a b => concatenate S8x1026x1025 2 [⟨S8x1026x1, a⟩, ⟨S8x1026x1024, b⟩] concatenates_S8x1026x1_S8x1026x1024_S8x1026x1025_d2),
    StableHlo.TRef.unary main_call7.v11 main_call7.v12 (extractStridedSlice S8x1026x1 ![0, 0, 1024] · slices_S8x1026x1025_S8x1026x1_0_0_1024),
    StableHlo.TRef.unary main_call7.v11 main_call7.v13 (extractStridedSlice S8x1026x1 ![0, 0, 1023] · slices_S8x1026x1025_S8x1026x1_0_0_1023),
    StableHlo.TRef.unary main_call7.v13 main_call7.call3.v0 (Host.reverse [2]),
    StableHlo.TRef.binary main_call7.v11 main_call7.call3.v0 main_call7.v15 (fun a b => concatenate S8x1026x1026 2 [⟨S8x1026x1025, a⟩, ⟨S8x1026x1, b⟩] concatenates_S8x1026x1025_S8x1026x1_S8x1026x1026_d2),
    StableHlo.nullary main_cst_27 (constant S_ .f32 0x00000000#32),
    StableHlo.unary main_cst_27 main_v111 (broadcastInDim S8x1024x1024 ![] bcast_S_S8x1024x1024 : (⟨S_, .f32⟩ : BufTy).Contents (Elt F) → (⟨S8x1024x1024, .f32⟩ : BufTy).Contents (Elt F)),
    StableHlo.unary main_cst main_v112 ((extractStridedSlice S1x1 ![0, 0] · slices_S3x3_S1x1_0_0) : (⟨S3x3, .f32⟩ : BufTy).Contents (Elt F) → (⟨S1x1, .f32⟩ : BufTy).Contents (Elt F)),
    StableHlo.reshape main_v112 main_v113 rfl shapeCasts_S1x1_S_,
    StableHlo.unary main_v110 main_v114 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v113 main_v115 (broadcastInDim S8x1024x1024 ![] bcast_S_S8x1024x1024 : (⟨S_, .f32⟩ : BufTy).Contents (Elt F) → (⟨S8x1024x1024, .f32⟩ : BufTy).Contents (Elt F)),
    StableHlo.binary main_v115 main_v114 main_v116 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v111 main_v116 main_v117 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v118 ((extractStridedSlice S1x1 ![0, 1] · slices_S3x3_S1x1_0_1) : (⟨S3x3, .f32⟩ : BufTy).Contents (Elt F) → (⟨S1x1, .f32⟩ : BufTy).Contents (Elt F)),
    StableHlo.reshape main_v118 main_v119 rfl shapeCasts_S1x1_S_,
    StableHlo.unary main_v110 main_v120 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v119 main_v121 (broadcastInDim S8x1024x1024 ![] bcast_S_S8x1024x1024 : (⟨S_, .f32⟩ : BufTy).Contents (Elt F) → (⟨S8x1024x1024, .f32⟩ : BufTy).Contents (Elt F)),
    StableHlo.binary main_v121 main_v120 main_v122 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v117 main_v122 main_v123 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v124 ((extractStridedSlice S1x1 ![0, 2] · slices_S3x3_S1x1_0_2) : (⟨S3x3, .f32⟩ : BufTy).Contents (Elt F) → (⟨S1x1, .f32⟩ : BufTy).Contents (Elt F)),
    StableHlo.reshape main_v124 main_v125 rfl shapeCasts_S1x1_S_,
    StableHlo.unary main_v110 main_v126 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v125 main_v127 (broadcastInDim S8x1024x1024 ![] bcast_S_S8x1024x1024 : (⟨S_, .f32⟩ : BufTy).Contents (Elt F) → (⟨S8x1024x1024, .f32⟩ : BufTy).Contents (Elt F)),
    StableHlo.binary main_v127 main_v126 main_v128 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v123 main_v128 main_v129 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v130 ((extractStridedSlice S1x1 ![1, 0] · slices_S3x3_S1x1_1_0) : (⟨S3x3, .f32⟩ : BufTy).Contents (Elt F) → (⟨S1x1, .f32⟩ : BufTy).Contents (Elt F)),
    StableHlo.reshape main_v130 main_v131 rfl shapeCasts_S1x1_S_,
    StableHlo.unary main_v110 main_v132 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v131 main_v133 (broadcastInDim S8x1024x1024 ![] bcast_S_S8x1024x1024 : (⟨S_, .f32⟩ : BufTy).Contents (Elt F) → (⟨S8x1024x1024, .f32⟩ : BufTy).Contents (Elt F)),
    StableHlo.binary main_v133 main_v132 main_v134 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v129 main_v134 main_v135 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v136 ((extractStridedSlice S1x1 ![1, 1] · slices_S3x3_S1x1_1_1) : (⟨S3x3, .f32⟩ : BufTy).Contents (Elt F) → (⟨S1x1, .f32⟩ : BufTy).Contents (Elt F)),
    StableHlo.reshape main_v136 main_v137 rfl shapeCasts_S1x1_S_,
    StableHlo.unary main_v110 main_v138 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v137 main_v139 (broadcastInDim S8x1024x1024 ![] bcast_S_S8x1024x1024 : (⟨S_, .f32⟩ : BufTy).Contents (Elt F) → (⟨S8x1024x1024, .f32⟩ : BufTy).Contents (Elt F)),
    StableHlo.binary main_v139 main_v138 main_v140 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v135 main_v140 main_v141 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v142 ((extractStridedSlice S1x1 ![1, 2] · slices_S3x3_S1x1_1_2) : (⟨S3x3, .f32⟩ : BufTy).Contents (Elt F) → (⟨S1x1, .f32⟩ : BufTy).Contents (Elt F)),
    StableHlo.reshape main_v142 main_v143 rfl shapeCasts_S1x1_S_,
    StableHlo.unary main_v110 main_v144 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v143 main_v145 (broadcastInDim S8x1024x1024 ![] bcast_S_S8x1024x1024 : (⟨S_, .f32⟩ : BufTy).Contents (Elt F) → (⟨S8x1024x1024, .f32⟩ : BufTy).Contents (Elt F)),
    StableHlo.binary main_v145 main_v144 main_v146 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v141 main_v146 main_v147 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v148 ((extractStridedSlice S1x1 ![2, 0] · slices_S3x3_S1x1_2_0) : (⟨S3x3, .f32⟩ : BufTy).Contents (Elt F) → (⟨S1x1, .f32⟩ : BufTy).Contents (Elt F)),
    StableHlo.reshape main_v148 main_v149 rfl shapeCasts_S1x1_S_ ]

theorem ops2_sub : (ops2 : List (HloOp τ sig (Elt F))).Forall fun op => op.bufs ⊆ tcRefs τ sig :=
  ⟨unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub ..⟩

/-- The operations of window 3 of @main (75 of them). -/
abbrev ops3 : List (HloOp τ sig (Elt F)) :=
  [ StableHlo.unary main_v110 main_v150 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v149 main_v151 (broadcastInDim S8x1024x1024 ![] bcast_S_S8x1024x1024 : (⟨S_, .f32⟩ : BufTy).Contents (Elt F) → (⟨S8x1024x1024, .f32⟩ : BufTy).Contents (Elt F)),
    StableHlo.binary main_v151 main_v150 main_v152 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v147 main_v152 main_v153 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v154 ((extractStridedSlice S1x1 ![2, 1] · slices_S3x3_S1x1_2_1) : (⟨S3x3, .f32⟩ : BufTy).Contents (Elt F) → (⟨S1x1, .f32⟩ : BufTy).Contents (Elt F)),
    StableHlo.reshape main_v154 main_v155 rfl shapeCasts_S1x1_S_,
    StableHlo.unary main_v110 main_v156 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v155 main_v157 (broadcastInDim S8x1024x1024 ![] bcast_S_S8x1024x1024 : (⟨S_, .f32⟩ : BufTy).Contents (Elt F) → (⟨S8x1024x1024, .f32⟩ : BufTy).Contents (Elt F)),
    StableHlo.binary main_v157 main_v156 main_v158 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v153 main_v158 main_v159 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v160 ((extractStridedSlice S1x1 ![2, 2] · slices_S3x3_S1x1_2_2) : (⟨S3x3, .f32⟩ : BufTy).Contents (Elt F) → (⟨S1x1, .f32⟩ : BufTy).Contents (Elt F)),
    StableHlo.reshape main_v160 main_v161 rfl shapeCasts_S1x1_S_,
    StableHlo.unary main_v110 main_v162 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v161 main_v163 (broadcastInDim S8x1024x1024 ![] bcast_S_S8x1024x1024 : (⟨S_, .f32⟩ : BufTy).Contents (Elt F) → (⟨S8x1024x1024, .f32⟩ : BufTy).Contents (Elt F)),
    StableHlo.binary main_v163 main_v162 main_v164 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v159 main_v164 main_v165 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_arg1 main_v166 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v166 main_v167 rfl shapeCasts_S1x1x1024x1024_S1024x1024,
    StableHlo.nullary main_c_28 (constantI S_ 32 0#32),
    StableHlo.TRef.unary ((.of main_v167) : StableHlo.TRef sig ⟨S1024x1024, .f32⟩) main_call8.v0 (extractStridedSlice S1x1024 ![0, 0] · slices_S1024x1024_S1x1024_0_0),
    StableHlo.TRef.unary ((.of main_v167) : StableHlo.TRef sig ⟨S1024x1024, .f32⟩) main_call8.v1 (extractStridedSlice S1x1024 ![1, 0] · slices_S1024x1024_S1x1024_1_0),
    StableHlo.TRef.unary main_call8.v1 main_call8.call0.v0 (Host.reverse [0]),
    StableHlo.TRef.binary main_call8.call0.v0 ((.of main_v167) : StableHlo.TRef sig ⟨S1024x1024, .f32⟩) main_call8.v3 (fun a b => concatenate S1025x1024 0 [⟨S1x1024, a⟩, ⟨S1024x1024, b⟩] concatenates_S1x1024_S1024x1024_S1025x1024_d0),
    StableHlo.TRef.unary main_call8.v3 main_call8.v4 (extractStridedSlice S1x1024 ![1024, 0] · slices_S1025x1024_S1x1024_1024_0),
    StableHlo.TRef.unary main_call8.v3 main_call8.v5 (extractStridedSlice S1x1024 ![1023, 0] · slices_S1025x1024_S1x1024_1023_0),
    StableHlo.TRef.unary main_call8.v5 main_call8.call1.v0 (Host.reverse [0]),
    StableHlo.TRef.binary main_call8.v3 main_call8.call1.v0 main_call8.v7 (fun a b => concatenate S1026x1024 0 [⟨S1025x1024, a⟩, ⟨S1x1024, b⟩] concatenates_S1025x1024_S1x1024_S1026x1024_d0),
    StableHlo.TRef.unary main_call8.v7 main_call8.v8 (extractStridedSlice S1026x1 ![0, 0] · slices_S1026x1024_S1026x1_0_0),
    StableHlo.TRef.unary main_call8.v7 main_call8.v9 (extractStridedSlice S1026x1 ![0, 1] · slices_S1026x1024_S1026x1_0_1),
    StableHlo.TRef.unary main_call8.v9 main_call8.call2.v0 (Host.reverse [1]),
    StableHlo.TRef.binary main_call8.call2.v0 main_call8.v7 main_call8.v11 (fun a b => concatenate S1026x1025 1 [⟨S1026x1, a⟩, ⟨S1026x1024, b⟩] concatenates_S1026x1_S1026x1024_S1026x1025_d1),
    StableHlo.TRef.unary main_call8.v11 main_call8.v12 (extractStridedSlice S1026x1 ![0, 1024] · slices_S1026x1025_S1026x1_0_1024),
    StableHlo.TRef.unary main_call8.v11 main_call8.v13 (extractStridedSlice S1026x1 ![0, 1023] · slices_S1026x1025_S1026x1_0_1023),
    StableHlo.TRef.unary main_call8.v13 main_call8.call3.v0 (Host.reverse [1]),
    StableHlo.TRef.binary main_call8.v11 main_call8.call3.v0 main_call8.v15 (fun a b => concatenate S1026x1026 1 [⟨S1026x1025, a⟩, ⟨S1026x1, b⟩] concatenates_S1026x1025_S1026x1_S1026x1026_d1),
    StableHlo.nullary main_cst_29 (constant S_ .f32 0x00000000#32),
    StableHlo.unary main_cst_29 main_v169 (broadcastInDim S1024x1024 ![] bcast_S_S1024x1024 : (⟨S_, .f32⟩ : BufTy).Contents (Elt F) → (⟨S1024x1024, .f32⟩ : BufTy).Contents (Elt F)),
    StableHlo.unary main_cst main_v170 ((extractStridedSlice S1x1 ![0, 0] · slices_S3x3_S1x1_0_0) : (⟨S3x3, .f32⟩ : BufTy).Contents (Elt F) → (⟨S1x1, .f32⟩ : BufTy).Contents (Elt F)),
    StableHlo.reshape main_v170 main_v171 rfl shapeCasts_S1x1_S_,
    StableHlo.unary main_v168 main_v172 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v171 main_v173 (broadcastInDim S1024x1024 ![] bcast_S_S1024x1024 : (⟨S_, .f32⟩ : BufTy).Contents (Elt F) → (⟨S1024x1024, .f32⟩ : BufTy).Contents (Elt F)),
    StableHlo.binary main_v173 main_v172 main_v174 (mulf : (⟨S1024x1024, .f32⟩ : BufTy).Contents (Elt F) → (⟨S1024x1024, .f32⟩ : BufTy).Contents (Elt F) → (⟨S1024x1024, .f32⟩ : BufTy).Contents (Elt F)),
    StableHlo.binary main_v169 main_v174 main_v175 (addf : (⟨S1024x1024, .f32⟩ : BufTy).Contents (Elt F) → (⟨S1024x1024, .f32⟩ : BufTy).Contents (Elt F) → (⟨S1024x1024, .f32⟩ : BufTy).Contents (Elt F)),
    StableHlo.unary main_cst main_v176 ((extractStridedSlice S1x1 ![0, 1] · slices_S3x3_S1x1_0_1) : (⟨S3x3, .f32⟩ : BufTy).Contents (Elt F) → (⟨S1x1, .f32⟩ : BufTy).Contents (Elt F)),
    StableHlo.reshape main_v176 main_v177 rfl shapeCasts_S1x1_S_,
    StableHlo.unary main_v168 main_v178 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v177 main_v179 (broadcastInDim S1024x1024 ![] bcast_S_S1024x1024 : (⟨S_, .f32⟩ : BufTy).Contents (Elt F) → (⟨S1024x1024, .f32⟩ : BufTy).Contents (Elt F)),
    StableHlo.binary main_v179 main_v178 main_v180 (mulf : (⟨S1024x1024, .f32⟩ : BufTy).Contents (Elt F) → (⟨S1024x1024, .f32⟩ : BufTy).Contents (Elt F) → (⟨S1024x1024, .f32⟩ : BufTy).Contents (Elt F)),
    StableHlo.binary main_v175 main_v180 main_v181 (addf : (⟨S1024x1024, .f32⟩ : BufTy).Contents (Elt F) → (⟨S1024x1024, .f32⟩ : BufTy).Contents (Elt F) → (⟨S1024x1024, .f32⟩ : BufTy).Contents (Elt F)),
    StableHlo.unary main_cst main_v182 ((extractStridedSlice S1x1 ![0, 2] · slices_S3x3_S1x1_0_2) : (⟨S3x3, .f32⟩ : BufTy).Contents (Elt F) → (⟨S1x1, .f32⟩ : BufTy).Contents (Elt F)),
    StableHlo.reshape main_v182 main_v183 rfl shapeCasts_S1x1_S_,
    StableHlo.unary main_v168 main_v184 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v183 main_v185 (broadcastInDim S1024x1024 ![] bcast_S_S1024x1024 : (⟨S_, .f32⟩ : BufTy).Contents (Elt F) → (⟨S1024x1024, .f32⟩ : BufTy).Contents (Elt F)),
    StableHlo.binary main_v185 main_v184 main_v186 (mulf : (⟨S1024x1024, .f32⟩ : BufTy).Contents (Elt F) → (⟨S1024x1024, .f32⟩ : BufTy).Contents (Elt F) → (⟨S1024x1024, .f32⟩ : BufTy).Contents (Elt F)),
    StableHlo.binary main_v181 main_v186 main_v187 (addf : (⟨S1024x1024, .f32⟩ : BufTy).Contents (Elt F) → (⟨S1024x1024, .f32⟩ : BufTy).Contents (Elt F) → (⟨S1024x1024, .f32⟩ : BufTy).Contents (Elt F)),
    StableHlo.unary main_cst main_v188 ((extractStridedSlice S1x1 ![1, 0] · slices_S3x3_S1x1_1_0) : (⟨S3x3, .f32⟩ : BufTy).Contents (Elt F) → (⟨S1x1, .f32⟩ : BufTy).Contents (Elt F)),
    StableHlo.reshape main_v188 main_v189 rfl shapeCasts_S1x1_S_,
    StableHlo.unary main_v168 main_v190 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v189 main_v191 (broadcastInDim S1024x1024 ![] bcast_S_S1024x1024 : (⟨S_, .f32⟩ : BufTy).Contents (Elt F) → (⟨S1024x1024, .f32⟩ : BufTy).Contents (Elt F)),
    StableHlo.binary main_v191 main_v190 main_v192 (mulf : (⟨S1024x1024, .f32⟩ : BufTy).Contents (Elt F) → (⟨S1024x1024, .f32⟩ : BufTy).Contents (Elt F) → (⟨S1024x1024, .f32⟩ : BufTy).Contents (Elt F)),
    StableHlo.binary main_v187 main_v192 main_v193 (addf : (⟨S1024x1024, .f32⟩ : BufTy).Contents (Elt F) → (⟨S1024x1024, .f32⟩ : BufTy).Contents (Elt F) → (⟨S1024x1024, .f32⟩ : BufTy).Contents (Elt F)),
    StableHlo.unary main_cst main_v194 ((extractStridedSlice S1x1 ![1, 1] · slices_S3x3_S1x1_1_1) : (⟨S3x3, .f32⟩ : BufTy).Contents (Elt F) → (⟨S1x1, .f32⟩ : BufTy).Contents (Elt F)),
    StableHlo.reshape main_v194 main_v195 rfl shapeCasts_S1x1_S_,
    StableHlo.unary main_v168 main_v196 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v195 main_v197 (broadcastInDim S1024x1024 ![] bcast_S_S1024x1024 : (⟨S_, .f32⟩ : BufTy).Contents (Elt F) → (⟨S1024x1024, .f32⟩ : BufTy).Contents (Elt F)),
    StableHlo.binary main_v197 main_v196 main_v198 (mulf : (⟨S1024x1024, .f32⟩ : BufTy).Contents (Elt F) → (⟨S1024x1024, .f32⟩ : BufTy).Contents (Elt F) → (⟨S1024x1024, .f32⟩ : BufTy).Contents (Elt F)),
    StableHlo.binary main_v193 main_v198 main_v199 (addf : (⟨S1024x1024, .f32⟩ : BufTy).Contents (Elt F) → (⟨S1024x1024, .f32⟩ : BufTy).Contents (Elt F) → (⟨S1024x1024, .f32⟩ : BufTy).Contents (Elt F)),
    StableHlo.unary main_cst main_v200 ((extractStridedSlice S1x1 ![1, 2] · slices_S3x3_S1x1_1_2) : (⟨S3x3, .f32⟩ : BufTy).Contents (Elt F) → (⟨S1x1, .f32⟩ : BufTy).Contents (Elt F)),
    StableHlo.reshape main_v200 main_v201 rfl shapeCasts_S1x1_S_,
    StableHlo.unary main_v168 main_v202 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v201 main_v203 (broadcastInDim S1024x1024 ![] bcast_S_S1024x1024 : (⟨S_, .f32⟩ : BufTy).Contents (Elt F) → (⟨S1024x1024, .f32⟩ : BufTy).Contents (Elt F)),
    StableHlo.binary main_v203 main_v202 main_v204 (mulf : (⟨S1024x1024, .f32⟩ : BufTy).Contents (Elt F) → (⟨S1024x1024, .f32⟩ : BufTy).Contents (Elt F) → (⟨S1024x1024, .f32⟩ : BufTy).Contents (Elt F)),
    StableHlo.binary main_v199 main_v204 main_v205 (addf : (⟨S1024x1024, .f32⟩ : BufTy).Contents (Elt F) → (⟨S1024x1024, .f32⟩ : BufTy).Contents (Elt F) → (⟨S1024x1024, .f32⟩ : BufTy).Contents (Elt F)),
    StableHlo.unary main_cst main_v206 ((extractStridedSlice S1x1 ![2, 0] · slices_S3x3_S1x1_2_0) : (⟨S3x3, .f32⟩ : BufTy).Contents (Elt F) → (⟨S1x1, .f32⟩ : BufTy).Contents (Elt F)),
    StableHlo.reshape main_v206 main_v207 rfl shapeCasts_S1x1_S_ ]

theorem ops3_sub : (ops3 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub ..⟩

/-- The operations of window 4 of @main (75 of them). -/
abbrev ops4 : List (HloOp τ sig (Elt F)) :=
  [ StableHlo.unary main_v168 main_v208 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v207 main_v209 (broadcastInDim S1024x1024 ![] bcast_S_S1024x1024 : (⟨S_, .f32⟩ : BufTy).Contents (Elt F) → (⟨S1024x1024, .f32⟩ : BufTy).Contents (Elt F)),
    StableHlo.binary main_v209 main_v208 main_v210 (mulf : (⟨S1024x1024, .f32⟩ : BufTy).Contents (Elt F) → (⟨S1024x1024, .f32⟩ : BufTy).Contents (Elt F) → (⟨S1024x1024, .f32⟩ : BufTy).Contents (Elt F)),
    StableHlo.binary main_v205 main_v210 main_v211 (addf : (⟨S1024x1024, .f32⟩ : BufTy).Contents (Elt F) → (⟨S1024x1024, .f32⟩ : BufTy).Contents (Elt F) → (⟨S1024x1024, .f32⟩ : BufTy).Contents (Elt F)),
    StableHlo.unary main_cst main_v212 ((extractStridedSlice S1x1 ![2, 1] · slices_S3x3_S1x1_2_1) : (⟨S3x3, .f32⟩ : BufTy).Contents (Elt F) → (⟨S1x1, .f32⟩ : BufTy).Contents (Elt F)),
    StableHlo.reshape main_v212 main_v213 rfl shapeCasts_S1x1_S_,
    StableHlo.unary main_v168 main_v214 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v213 main_v215 (broadcastInDim S1024x1024 ![] bcast_S_S1024x1024 : (⟨S_, .f32⟩ : BufTy).Contents (Elt F) → (⟨S1024x1024, .f32⟩ : BufTy).Contents (Elt F)),
    StableHlo.binary main_v215 main_v214 main_v216 (mulf : (⟨S1024x1024, .f32⟩ : BufTy).Contents (Elt F) → (⟨S1024x1024, .f32⟩ : BufTy).Contents (Elt F) → (⟨S1024x1024, .f32⟩ : BufTy).Contents (Elt F)),
    StableHlo.binary main_v211 main_v216 main_v217 (addf : (⟨S1024x1024, .f32⟩ : BufTy).Contents (Elt F) → (⟨S1024x1024, .f32⟩ : BufTy).Contents (Elt F) → (⟨S1024x1024, .f32⟩ : BufTy).Contents (Elt F)),
    StableHlo.unary main_cst main_v218 ((extractStridedSlice S1x1 ![2, 2] · slices_S3x3_S1x1_2_2) : (⟨S3x3, .f32⟩ : BufTy).Contents (Elt F) → (⟨S1x1, .f32⟩ : BufTy).Contents (Elt F)),
    StableHlo.reshape main_v218 main_v219 rfl shapeCasts_S1x1_S_,
    StableHlo.unary main_v168 main_v220 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v219 main_v221 (broadcastInDim S1024x1024 ![] bcast_S_S1024x1024 : (⟨S_, .f32⟩ : BufTy).Contents (Elt F) → (⟨S1024x1024, .f32⟩ : BufTy).Contents (Elt F)),
    StableHlo.binary main_v221 main_v220 main_v222 (mulf : (⟨S1024x1024, .f32⟩ : BufTy).Contents (Elt F) → (⟨S1024x1024, .f32⟩ : BufTy).Contents (Elt F) → (⟨S1024x1024, .f32⟩ : BufTy).Contents (Elt F)),
    StableHlo.binary main_v217 main_v222 main_v223 (addf : (⟨S1024x1024, .f32⟩ : BufTy).Contents (Elt F) → (⟨S1024x1024, .f32⟩ : BufTy).Contents (Elt F) → (⟨S1024x1024, .f32⟩ : BufTy).Contents (Elt F)),
    StableHlo.nullary main_c_30 (constantI S_ 32 0#32),
    StableHlo.TRef.unary ((.of main_v223) : StableHlo.TRef sig ⟨S1024x1024, .f32⟩) main_call9.v0 (extractStridedSlice S1x1024 ![0, 0] · slices_S1024x1024_S1x1024_0_0),
    StableHlo.TRef.unary ((.of main_v223) : StableHlo.TRef sig ⟨S1024x1024, .f32⟩) main_call9.v1 (extractStridedSlice S1x1024 ![1, 0] · slices_S1024x1024_S1x1024_1_0),
    StableHlo.TRef.unary main_call9.v1 main_call9.call0.v0 (Host.reverse [0]),
    StableHlo.TRef.binary main_call9.call0.v0 ((.of main_v223) : StableHlo.TRef sig ⟨S1024x1024, .f32⟩) main_call9.v3 (fun a b => concatenate S1025x1024 0 [⟨S1x1024, a⟩, ⟨S1024x1024, b⟩] concatenates_S1x1024_S1024x1024_S1025x1024_d0),
    StableHlo.TRef.unary main_call9.v3 main_call9.v4 (extractStridedSlice S1x1024 ![1024, 0] · slices_S1025x1024_S1x1024_1024_0),
    StableHlo.TRef.unary main_call9.v3 main_call9.v5 (extractStridedSlice S1x1024 ![1023, 0] · slices_S1025x1024_S1x1024_1023_0),
    StableHlo.TRef.unary main_call9.v5 main_call9.call1.v0 (Host.reverse [0]),
    StableHlo.TRef.binary main_call9.v3 main_call9.call1.v0 main_call9.v7 (fun a b => concatenate S1026x1024 0 [⟨S1025x1024, a⟩, ⟨S1x1024, b⟩] concatenates_S1025x1024_S1x1024_S1026x1024_d0),
    StableHlo.TRef.unary main_call9.v7 main_call9.v8 (extractStridedSlice S1026x1 ![0, 0] · slices_S1026x1024_S1026x1_0_0),
    StableHlo.TRef.unary main_call9.v7 main_call9.v9 (extractStridedSlice S1026x1 ![0, 1] · slices_S1026x1024_S1026x1_0_1),
    StableHlo.TRef.unary main_call9.v9 main_call9.call2.v0 (Host.reverse [1]),
    StableHlo.TRef.binary main_call9.call2.v0 main_call9.v7 main_call9.v11 (fun a b => concatenate S1026x1025 1 [⟨S1026x1, a⟩, ⟨S1026x1024, b⟩] concatenates_S1026x1_S1026x1024_S1026x1025_d1),
    StableHlo.TRef.unary main_call9.v11 main_call9.v12 (extractStridedSlice S1026x1 ![0, 1024] · slices_S1026x1025_S1026x1_0_1024),
    StableHlo.TRef.unary main_call9.v11 main_call9.v13 (extractStridedSlice S1026x1 ![0, 1023] · slices_S1026x1025_S1026x1_0_1023),
    StableHlo.TRef.unary main_call9.v13 main_call9.call3.v0 (Host.reverse [1]),
    StableHlo.TRef.binary main_call9.v11 main_call9.call3.v0 main_call9.v15 (fun a b => concatenate S1026x1026 1 [⟨S1026x1025, a⟩, ⟨S1026x1, b⟩] concatenates_S1026x1025_S1026x1_S1026x1026_d1),
    StableHlo.nullary main_cst_31 (constant S_ .f32 0x00000000#32),
    StableHlo.unary main_cst_31 main_v225 (broadcastInDim S1024x1024 ![] bcast_S_S1024x1024 : (⟨S_, .f32⟩ : BufTy).Contents (Elt F) → (⟨S1024x1024, .f32⟩ : BufTy).Contents (Elt F)),
    StableHlo.unary main_cst_0 main_v226 ((extractStridedSlice S1x1 ![0, 0] · slices_S3x3_S1x1_0_0) : (⟨S3x3, .f32⟩ : BufTy).Contents (Elt F) → (⟨S1x1, .f32⟩ : BufTy).Contents (Elt F)),
    StableHlo.reshape main_v226 main_v227 rfl shapeCasts_S1x1_S_,
    StableHlo.unary main_v224 main_v228 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v227 main_v229 (broadcastInDim S1024x1024 ![] bcast_S_S1024x1024 : (⟨S_, .f32⟩ : BufTy).Contents (Elt F) → (⟨S1024x1024, .f32⟩ : BufTy).Contents (Elt F)),
    StableHlo.binary main_v229 main_v228 main_v230 (mulf : (⟨S1024x1024, .f32⟩ : BufTy).Contents (Elt F) → (⟨S1024x1024, .f32⟩ : BufTy).Contents (Elt F) → (⟨S1024x1024, .f32⟩ : BufTy).Contents (Elt F)),
    StableHlo.binary main_v225 main_v230 main_v231 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v232 ((extractStridedSlice S1x1 ![0, 1] · slices_S3x3_S1x1_0_1) : (⟨S3x3, .f32⟩ : BufTy).Contents (Elt F) → (⟨S1x1, .f32⟩ : BufTy).Contents (Elt F)),
    StableHlo.reshape main_v232 main_v233 rfl shapeCasts_S1x1_S_,
    StableHlo.unary main_v224 main_v234 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v233 main_v235 (broadcastInDim S1024x1024 ![] bcast_S_S1024x1024 : (⟨S_, .f32⟩ : BufTy).Contents (Elt F) → (⟨S1024x1024, .f32⟩ : BufTy).Contents (Elt F)),
    StableHlo.binary main_v235 main_v234 main_v236 (mulf : (⟨S1024x1024, .f32⟩ : BufTy).Contents (Elt F) → (⟨S1024x1024, .f32⟩ : BufTy).Contents (Elt F) → (⟨S1024x1024, .f32⟩ : BufTy).Contents (Elt F)),
    StableHlo.binary main_v231 main_v236 main_v237 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v238 ((extractStridedSlice S1x1 ![0, 2] · slices_S3x3_S1x1_0_2) : (⟨S3x3, .f32⟩ : BufTy).Contents (Elt F) → (⟨S1x1, .f32⟩ : BufTy).Contents (Elt F)),
    StableHlo.reshape main_v238 main_v239 rfl shapeCasts_S1x1_S_,
    StableHlo.unary main_v224 main_v240 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v239 main_v241 (broadcastInDim S1024x1024 ![] bcast_S_S1024x1024 : (⟨S_, .f32⟩ : BufTy).Contents (Elt F) → (⟨S1024x1024, .f32⟩ : BufTy).Contents (Elt F)),
    StableHlo.binary main_v241 main_v240 main_v242 (mulf : (⟨S1024x1024, .f32⟩ : BufTy).Contents (Elt F) → (⟨S1024x1024, .f32⟩ : BufTy).Contents (Elt F) → (⟨S1024x1024, .f32⟩ : BufTy).Contents (Elt F)),
    StableHlo.binary main_v237 main_v242 main_v243 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v244 ((extractStridedSlice S1x1 ![1, 0] · slices_S3x3_S1x1_1_0) : (⟨S3x3, .f32⟩ : BufTy).Contents (Elt F) → (⟨S1x1, .f32⟩ : BufTy).Contents (Elt F)),
    StableHlo.reshape main_v244 main_v245 rfl shapeCasts_S1x1_S_,
    StableHlo.unary main_v224 main_v246 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v245 main_v247 (broadcastInDim S1024x1024 ![] bcast_S_S1024x1024 : (⟨S_, .f32⟩ : BufTy).Contents (Elt F) → (⟨S1024x1024, .f32⟩ : BufTy).Contents (Elt F)),
    StableHlo.binary main_v247 main_v246 main_v248 (mulf : (⟨S1024x1024, .f32⟩ : BufTy).Contents (Elt F) → (⟨S1024x1024, .f32⟩ : BufTy).Contents (Elt F) → (⟨S1024x1024, .f32⟩ : BufTy).Contents (Elt F)),
    StableHlo.binary main_v243 main_v248 main_v249 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v250 ((extractStridedSlice S1x1 ![1, 1] · slices_S3x3_S1x1_1_1) : (⟨S3x3, .f32⟩ : BufTy).Contents (Elt F) → (⟨S1x1, .f32⟩ : BufTy).Contents (Elt F)),
    StableHlo.reshape main_v250 main_v251 rfl shapeCasts_S1x1_S_,
    StableHlo.unary main_v224 main_v252 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v251 main_v253 (broadcastInDim S1024x1024 ![] bcast_S_S1024x1024 : (⟨S_, .f32⟩ : BufTy).Contents (Elt F) → (⟨S1024x1024, .f32⟩ : BufTy).Contents (Elt F)),
    StableHlo.binary main_v253 main_v252 main_v254 (mulf : (⟨S1024x1024, .f32⟩ : BufTy).Contents (Elt F) → (⟨S1024x1024, .f32⟩ : BufTy).Contents (Elt F) → (⟨S1024x1024, .f32⟩ : BufTy).Contents (Elt F)),
    StableHlo.binary main_v249 main_v254 main_v255 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v256 ((extractStridedSlice S1x1 ![1, 2] · slices_S3x3_S1x1_1_2) : (⟨S3x3, .f32⟩ : BufTy).Contents (Elt F) → (⟨S1x1, .f32⟩ : BufTy).Contents (Elt F)),
    StableHlo.reshape main_v256 main_v257 rfl shapeCasts_S1x1_S_,
    StableHlo.unary main_v224 main_v258 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v257 main_v259 (broadcastInDim S1024x1024 ![] bcast_S_S1024x1024 : (⟨S_, .f32⟩ : BufTy).Contents (Elt F) → (⟨S1024x1024, .f32⟩ : BufTy).Contents (Elt F)),
    StableHlo.binary main_v259 main_v258 main_v260 (mulf : (⟨S1024x1024, .f32⟩ : BufTy).Contents (Elt F) → (⟨S1024x1024, .f32⟩ : BufTy).Contents (Elt F) → (⟨S1024x1024, .f32⟩ : BufTy).Contents (Elt F)),
    StableHlo.binary main_v255 main_v260 main_v261 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v262 ((extractStridedSlice S1x1 ![2, 0] · slices_S3x3_S1x1_2_0) : (⟨S3x3, .f32⟩ : BufTy).Contents (Elt F) → (⟨S1x1, .f32⟩ : BufTy).Contents (Elt F)),
    StableHlo.reshape main_v262 main_v263 rfl shapeCasts_S1x1_S_,
    StableHlo.unary main_v224 main_v264 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v263 main_v265 (broadcastInDim S1024x1024 ![] bcast_S_S1024x1024 : (⟨S_, .f32⟩ : BufTy).Contents (Elt F) → (⟨S1024x1024, .f32⟩ : BufTy).Contents (Elt F)) ]

theorem ops4_sub : (ops4 : List (HloOp τ sig (Elt F))).Forall fun op => op.bufs ⊆ tcRefs τ sig :=
  ⟨unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub ..⟩

/-- The operations of window 5 of @main (75 of them). -/
abbrev ops5 : List (HloOp τ sig (Elt F)) :=
  [ StableHlo.binary main_v265 main_v264 main_v266 (mulf : (⟨S1024x1024, .f32⟩ : BufTy).Contents (Elt F) → (⟨S1024x1024, .f32⟩ : BufTy).Contents (Elt F) → (⟨S1024x1024, .f32⟩ : BufTy).Contents (Elt F)),
    StableHlo.binary main_v261 main_v266 main_v267 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v268 ((extractStridedSlice S1x1 ![2, 1] · slices_S3x3_S1x1_2_1) : (⟨S3x3, .f32⟩ : BufTy).Contents (Elt F) → (⟨S1x1, .f32⟩ : BufTy).Contents (Elt F)),
    StableHlo.reshape main_v268 main_v269 rfl shapeCasts_S1x1_S_,
    StableHlo.unary main_v224 main_v270 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v269 main_v271 (broadcastInDim S1024x1024 ![] bcast_S_S1024x1024 : (⟨S_, .f32⟩ : BufTy).Contents (Elt F) → (⟨S1024x1024, .f32⟩ : BufTy).Contents (Elt F)),
    StableHlo.binary main_v271 main_v270 main_v272 (mulf : (⟨S1024x1024, .f32⟩ : BufTy).Contents (Elt F) → (⟨S1024x1024, .f32⟩ : BufTy).Contents (Elt F) → (⟨S1024x1024, .f32⟩ : BufTy).Contents (Elt F)),
    StableHlo.binary main_v267 main_v272 main_v273 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v274 ((extractStridedSlice S1x1 ![2, 2] · slices_S3x3_S1x1_2_2) : (⟨S3x3, .f32⟩ : BufTy).Contents (Elt F) → (⟨S1x1, .f32⟩ : BufTy).Contents (Elt F)),
    StableHlo.reshape main_v274 main_v275 rfl shapeCasts_S1x1_S_,
    StableHlo.unary main_v224 main_v276 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v275 main_v277 (broadcastInDim S1024x1024 ![] bcast_S_S1024x1024 : (⟨S_, .f32⟩ : BufTy).Contents (Elt F) → (⟨S1024x1024, .f32⟩ : BufTy).Contents (Elt F)),
    StableHlo.binary main_v277 main_v276 main_v278 (mulf : (⟨S1024x1024, .f32⟩ : BufTy).Contents (Elt F) → (⟨S1024x1024, .f32⟩ : BufTy).Contents (Elt F) → (⟨S1024x1024, .f32⟩ : BufTy).Contents (Elt F)),
    StableHlo.binary main_v273 main_v278 main_v279 (addf : (⟨S1024x1024, .f32⟩ : BufTy).Contents (Elt F) → (⟨S1024x1024, .f32⟩ : BufTy).Contents (Elt F) → (⟨S1024x1024, .f32⟩ : BufTy).Contents (Elt F)),
    StableHlo.unary main_arg0 main_v280 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v280 main_v281 rfl shapeCasts_S1x1x1024x1024_S1024x1024,
    StableHlo.nullary main_c_32 (constantI S_ 32 0#32),
    StableHlo.TRef.unary ((.of main_v281) : StableHlo.TRef sig ⟨S1024x1024, .f32⟩) main_call10.v0 (extractStridedSlice S1x1024 ![0, 0] · slices_S1024x1024_S1x1024_0_0),
    StableHlo.TRef.unary ((.of main_v281) : StableHlo.TRef sig ⟨S1024x1024, .f32⟩) main_call10.v1 (extractStridedSlice S1x1024 ![1, 0] · slices_S1024x1024_S1x1024_1_0),
    StableHlo.TRef.unary main_call10.v1 main_call10.call0.v0 (Host.reverse [0]),
    StableHlo.TRef.binary main_call10.call0.v0 ((.of main_v281) : StableHlo.TRef sig ⟨S1024x1024, .f32⟩) main_call10.v3 (fun a b => concatenate S1025x1024 0 [⟨S1x1024, a⟩, ⟨S1024x1024, b⟩] concatenates_S1x1024_S1024x1024_S1025x1024_d0),
    StableHlo.TRef.unary main_call10.v3 main_call10.v4 (extractStridedSlice S1x1024 ![1024, 0] · slices_S1025x1024_S1x1024_1024_0),
    StableHlo.TRef.unary main_call10.v3 main_call10.v5 (extractStridedSlice S1x1024 ![1023, 0] · slices_S1025x1024_S1x1024_1023_0),
    StableHlo.TRef.unary main_call10.v5 main_call10.call1.v0 (Host.reverse [0]),
    StableHlo.TRef.binary main_call10.v3 main_call10.call1.v0 main_call10.v7 (fun a b => concatenate S1026x1024 0 [⟨S1025x1024, a⟩, ⟨S1x1024, b⟩] concatenates_S1025x1024_S1x1024_S1026x1024_d0),
    StableHlo.TRef.unary main_call10.v7 main_call10.v8 (extractStridedSlice S1026x1 ![0, 0] · slices_S1026x1024_S1026x1_0_0),
    StableHlo.TRef.unary main_call10.v7 main_call10.v9 (extractStridedSlice S1026x1 ![0, 1] · slices_S1026x1024_S1026x1_0_1),
    StableHlo.TRef.unary main_call10.v9 main_call10.call2.v0 (Host.reverse [1]),
    StableHlo.TRef.binary main_call10.call2.v0 main_call10.v7 main_call10.v11 (fun a b => concatenate S1026x1025 1 [⟨S1026x1, a⟩, ⟨S1026x1024, b⟩] concatenates_S1026x1_S1026x1024_S1026x1025_d1),
    StableHlo.TRef.unary main_call10.v11 main_call10.v12 (extractStridedSlice S1026x1 ![0, 1024] · slices_S1026x1025_S1026x1_0_1024),
    StableHlo.TRef.unary main_call10.v11 main_call10.v13 (extractStridedSlice S1026x1 ![0, 1023] · slices_S1026x1025_S1026x1_0_1023),
    StableHlo.TRef.unary main_call10.v13 main_call10.call3.v0 (Host.reverse [1]),
    StableHlo.TRef.binary main_call10.v11 main_call10.call3.v0 main_call10.v15 (fun a b => concatenate S1026x1026 1 [⟨S1026x1025, a⟩, ⟨S1026x1, b⟩] concatenates_S1026x1025_S1026x1_S1026x1026_d1),
    StableHlo.nullary main_cst_33 (constant S_ .f32 0x00000000#32),
    StableHlo.unary main_cst_33 main_v283 (broadcastInDim S1024x1024 ![] bcast_S_S1024x1024 : (⟨S_, .f32⟩ : BufTy).Contents (Elt F) → (⟨S1024x1024, .f32⟩ : BufTy).Contents (Elt F)),
    StableHlo.unary main_cst main_v284 ((extractStridedSlice S1x1 ![0, 0] · slices_S3x3_S1x1_0_0) : (⟨S3x3, .f32⟩ : BufTy).Contents (Elt F) → (⟨S1x1, .f32⟩ : BufTy).Contents (Elt F)),
    StableHlo.reshape main_v284 main_v285 rfl shapeCasts_S1x1_S_,
    StableHlo.unary main_v282 main_v286 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v285 main_v287 (broadcastInDim S1024x1024 ![] bcast_S_S1024x1024 : (⟨S_, .f32⟩ : BufTy).Contents (Elt F) → (⟨S1024x1024, .f32⟩ : BufTy).Contents (Elt F)),
    StableHlo.binary main_v287 main_v286 main_v288 (mulf : (⟨S1024x1024, .f32⟩ : BufTy).Contents (Elt F) → (⟨S1024x1024, .f32⟩ : BufTy).Contents (Elt F) → (⟨S1024x1024, .f32⟩ : BufTy).Contents (Elt F)),
    StableHlo.binary main_v283 main_v288 main_v289 (addf : (⟨S1024x1024, .f32⟩ : BufTy).Contents (Elt F) → (⟨S1024x1024, .f32⟩ : BufTy).Contents (Elt F) → (⟨S1024x1024, .f32⟩ : BufTy).Contents (Elt F)),
    StableHlo.unary main_cst main_v290 ((extractStridedSlice S1x1 ![0, 1] · slices_S3x3_S1x1_0_1) : (⟨S3x3, .f32⟩ : BufTy).Contents (Elt F) → (⟨S1x1, .f32⟩ : BufTy).Contents (Elt F)),
    StableHlo.reshape main_v290 main_v291 rfl shapeCasts_S1x1_S_,
    StableHlo.unary main_v282 main_v292 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v291 main_v293 (broadcastInDim S1024x1024 ![] bcast_S_S1024x1024 : (⟨S_, .f32⟩ : BufTy).Contents (Elt F) → (⟨S1024x1024, .f32⟩ : BufTy).Contents (Elt F)),
    StableHlo.binary main_v293 main_v292 main_v294 (mulf : (⟨S1024x1024, .f32⟩ : BufTy).Contents (Elt F) → (⟨S1024x1024, .f32⟩ : BufTy).Contents (Elt F) → (⟨S1024x1024, .f32⟩ : BufTy).Contents (Elt F)),
    StableHlo.binary main_v289 main_v294 main_v295 (addf : (⟨S1024x1024, .f32⟩ : BufTy).Contents (Elt F) → (⟨S1024x1024, .f32⟩ : BufTy).Contents (Elt F) → (⟨S1024x1024, .f32⟩ : BufTy).Contents (Elt F)),
    StableHlo.unary main_cst main_v296 ((extractStridedSlice S1x1 ![0, 2] · slices_S3x3_S1x1_0_2) : (⟨S3x3, .f32⟩ : BufTy).Contents (Elt F) → (⟨S1x1, .f32⟩ : BufTy).Contents (Elt F)),
    StableHlo.reshape main_v296 main_v297 rfl shapeCasts_S1x1_S_,
    StableHlo.unary main_v282 main_v298 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v297 main_v299 (broadcastInDim S1024x1024 ![] bcast_S_S1024x1024 : (⟨S_, .f32⟩ : BufTy).Contents (Elt F) → (⟨S1024x1024, .f32⟩ : BufTy).Contents (Elt F)),
    StableHlo.binary main_v299 main_v298 main_v300 (mulf : (⟨S1024x1024, .f32⟩ : BufTy).Contents (Elt F) → (⟨S1024x1024, .f32⟩ : BufTy).Contents (Elt F) → (⟨S1024x1024, .f32⟩ : BufTy).Contents (Elt F)),
    StableHlo.binary main_v295 main_v300 main_v301 (addf : (⟨S1024x1024, .f32⟩ : BufTy).Contents (Elt F) → (⟨S1024x1024, .f32⟩ : BufTy).Contents (Elt F) → (⟨S1024x1024, .f32⟩ : BufTy).Contents (Elt F)),
    StableHlo.unary main_cst main_v302 ((extractStridedSlice S1x1 ![1, 0] · slices_S3x3_S1x1_1_0) : (⟨S3x3, .f32⟩ : BufTy).Contents (Elt F) → (⟨S1x1, .f32⟩ : BufTy).Contents (Elt F)),
    StableHlo.reshape main_v302 main_v303 rfl shapeCasts_S1x1_S_,
    StableHlo.unary main_v282 main_v304 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v303 main_v305 (broadcastInDim S1024x1024 ![] bcast_S_S1024x1024 : (⟨S_, .f32⟩ : BufTy).Contents (Elt F) → (⟨S1024x1024, .f32⟩ : BufTy).Contents (Elt F)),
    StableHlo.binary main_v305 main_v304 main_v306 (mulf : (⟨S1024x1024, .f32⟩ : BufTy).Contents (Elt F) → (⟨S1024x1024, .f32⟩ : BufTy).Contents (Elt F) → (⟨S1024x1024, .f32⟩ : BufTy).Contents (Elt F)),
    StableHlo.binary main_v301 main_v306 main_v307 (addf : (⟨S1024x1024, .f32⟩ : BufTy).Contents (Elt F) → (⟨S1024x1024, .f32⟩ : BufTy).Contents (Elt F) → (⟨S1024x1024, .f32⟩ : BufTy).Contents (Elt F)),
    StableHlo.unary main_cst main_v308 ((extractStridedSlice S1x1 ![1, 1] · slices_S3x3_S1x1_1_1) : (⟨S3x3, .f32⟩ : BufTy).Contents (Elt F) → (⟨S1x1, .f32⟩ : BufTy).Contents (Elt F)),
    StableHlo.reshape main_v308 main_v309 rfl shapeCasts_S1x1_S_,
    StableHlo.unary main_v282 main_v310 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v309 main_v311 (broadcastInDim S1024x1024 ![] bcast_S_S1024x1024 : (⟨S_, .f32⟩ : BufTy).Contents (Elt F) → (⟨S1024x1024, .f32⟩ : BufTy).Contents (Elt F)),
    StableHlo.binary main_v311 main_v310 main_v312 (mulf : (⟨S1024x1024, .f32⟩ : BufTy).Contents (Elt F) → (⟨S1024x1024, .f32⟩ : BufTy).Contents (Elt F) → (⟨S1024x1024, .f32⟩ : BufTy).Contents (Elt F)),
    StableHlo.binary main_v307 main_v312 main_v313 (addf : (⟨S1024x1024, .f32⟩ : BufTy).Contents (Elt F) → (⟨S1024x1024, .f32⟩ : BufTy).Contents (Elt F) → (⟨S1024x1024, .f32⟩ : BufTy).Contents (Elt F)),
    StableHlo.unary main_cst main_v314 ((extractStridedSlice S1x1 ![1, 2] · slices_S3x3_S1x1_1_2) : (⟨S3x3, .f32⟩ : BufTy).Contents (Elt F) → (⟨S1x1, .f32⟩ : BufTy).Contents (Elt F)),
    StableHlo.reshape main_v314 main_v315 rfl shapeCasts_S1x1_S_,
    StableHlo.unary main_v282 main_v316 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v315 main_v317 (broadcastInDim S1024x1024 ![] bcast_S_S1024x1024 : (⟨S_, .f32⟩ : BufTy).Contents (Elt F) → (⟨S1024x1024, .f32⟩ : BufTy).Contents (Elt F)),
    StableHlo.binary main_v317 main_v316 main_v318 (mulf : (⟨S1024x1024, .f32⟩ : BufTy).Contents (Elt F) → (⟨S1024x1024, .f32⟩ : BufTy).Contents (Elt F) → (⟨S1024x1024, .f32⟩ : BufTy).Contents (Elt F)),
    StableHlo.binary main_v313 main_v318 main_v319 (addf : (⟨S1024x1024, .f32⟩ : BufTy).Contents (Elt F) → (⟨S1024x1024, .f32⟩ : BufTy).Contents (Elt F) → (⟨S1024x1024, .f32⟩ : BufTy).Contents (Elt F)),
    StableHlo.unary main_cst main_v320 ((extractStridedSlice S1x1 ![2, 0] · slices_S3x3_S1x1_2_0) : (⟨S3x3, .f32⟩ : BufTy).Contents (Elt F) → (⟨S1x1, .f32⟩ : BufTy).Contents (Elt F)),
    StableHlo.reshape main_v320 main_v321 rfl shapeCasts_S1x1_S_,
    StableHlo.unary main_v282 main_v322 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v321 main_v323 (broadcastInDim S1024x1024 ![] bcast_S_S1024x1024 : (⟨S_, .f32⟩ : BufTy).Contents (Elt F) → (⟨S1024x1024, .f32⟩ : BufTy).Contents (Elt F)) ]

theorem ops5_sub : (ops5 : List (HloOp τ sig (Elt F))).Forall fun op => op.bufs ⊆ tcRefs τ sig :=
  ⟨binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub ..⟩

/-- The operations of window 6 of @main (75 of them). -/
abbrev ops6 : List (HloOp τ sig (Elt F)) :=
  [ StableHlo.binary main_v323 main_v322 main_v324 (mulf : (⟨S1024x1024, .f32⟩ : BufTy).Contents (Elt F) → (⟨S1024x1024, .f32⟩ : BufTy).Contents (Elt F) → (⟨S1024x1024, .f32⟩ : BufTy).Contents (Elt F)),
    StableHlo.binary main_v319 main_v324 main_v325 (addf : (⟨S1024x1024, .f32⟩ : BufTy).Contents (Elt F) → (⟨S1024x1024, .f32⟩ : BufTy).Contents (Elt F) → (⟨S1024x1024, .f32⟩ : BufTy).Contents (Elt F)),
    StableHlo.unary main_cst main_v326 ((extractStridedSlice S1x1 ![2, 1] · slices_S3x3_S1x1_2_1) : (⟨S3x3, .f32⟩ : BufTy).Contents (Elt F) → (⟨S1x1, .f32⟩ : BufTy).Contents (Elt F)),
    StableHlo.reshape main_v326 main_v327 rfl shapeCasts_S1x1_S_,
    StableHlo.unary main_v282 main_v328 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v327 main_v329 (broadcastInDim S1024x1024 ![] bcast_S_S1024x1024 : (⟨S_, .f32⟩ : BufTy).Contents (Elt F) → (⟨S1024x1024, .f32⟩ : BufTy).Contents (Elt F)),
    StableHlo.binary main_v329 main_v328 main_v330 (mulf : (⟨S1024x1024, .f32⟩ : BufTy).Contents (Elt F) → (⟨S1024x1024, .f32⟩ : BufTy).Contents (Elt F) → (⟨S1024x1024, .f32⟩ : BufTy).Contents (Elt F)),
    StableHlo.binary main_v325 main_v330 main_v331 (addf : (⟨S1024x1024, .f32⟩ : BufTy).Contents (Elt F) → (⟨S1024x1024, .f32⟩ : BufTy).Contents (Elt F) → (⟨S1024x1024, .f32⟩ : BufTy).Contents (Elt F)),
    StableHlo.unary main_cst main_v332 ((extractStridedSlice S1x1 ![2, 2] · slices_S3x3_S1x1_2_2) : (⟨S3x3, .f32⟩ : BufTy).Contents (Elt F) → (⟨S1x1, .f32⟩ : BufTy).Contents (Elt F)),
    StableHlo.reshape main_v332 main_v333 rfl shapeCasts_S1x1_S_,
    StableHlo.unary main_v282 main_v334 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v333 main_v335 (broadcastInDim S1024x1024 ![] bcast_S_S1024x1024 : (⟨S_, .f32⟩ : BufTy).Contents (Elt F) → (⟨S1024x1024, .f32⟩ : BufTy).Contents (Elt F)),
    StableHlo.binary main_v335 main_v334 main_v336 (mulf : (⟨S1024x1024, .f32⟩ : BufTy).Contents (Elt F) → (⟨S1024x1024, .f32⟩ : BufTy).Contents (Elt F) → (⟨S1024x1024, .f32⟩ : BufTy).Contents (Elt F)),
    StableHlo.binary main_v331 main_v336 main_v337 (addf : (⟨S1024x1024, .f32⟩ : BufTy).Contents (Elt F) → (⟨S1024x1024, .f32⟩ : BufTy).Contents (Elt F) → (⟨S1024x1024, .f32⟩ : BufTy).Contents (Elt F)),
    StableHlo.nullary main_c_34 (constantI S_ 32 0#32),
    StableHlo.TRef.unary ((.of main_v337) : StableHlo.TRef sig ⟨S1024x1024, .f32⟩) main_call11.v0 (extractStridedSlice S1x1024 ![0, 0] · slices_S1024x1024_S1x1024_0_0),
    StableHlo.TRef.unary ((.of main_v337) : StableHlo.TRef sig ⟨S1024x1024, .f32⟩) main_call11.v1 (extractStridedSlice S1x1024 ![1, 0] · slices_S1024x1024_S1x1024_1_0),
    StableHlo.TRef.unary main_call11.v1 main_call11.call0.v0 (Host.reverse [0]),
    StableHlo.TRef.binary main_call11.call0.v0 ((.of main_v337) : StableHlo.TRef sig ⟨S1024x1024, .f32⟩) main_call11.v3 (fun a b => concatenate S1025x1024 0 [⟨S1x1024, a⟩, ⟨S1024x1024, b⟩] concatenates_S1x1024_S1024x1024_S1025x1024_d0),
    StableHlo.TRef.unary main_call11.v3 main_call11.v4 (extractStridedSlice S1x1024 ![1024, 0] · slices_S1025x1024_S1x1024_1024_0),
    StableHlo.TRef.unary main_call11.v3 main_call11.v5 (extractStridedSlice S1x1024 ![1023, 0] · slices_S1025x1024_S1x1024_1023_0),
    StableHlo.TRef.unary main_call11.v5 main_call11.call1.v0 (Host.reverse [0]),
    StableHlo.TRef.binary main_call11.v3 main_call11.call1.v0 main_call11.v7 (fun a b => concatenate S1026x1024 0 [⟨S1025x1024, a⟩, ⟨S1x1024, b⟩] concatenates_S1025x1024_S1x1024_S1026x1024_d0),
    StableHlo.TRef.unary main_call11.v7 main_call11.v8 (extractStridedSlice S1026x1 ![0, 0] · slices_S1026x1024_S1026x1_0_0),
    StableHlo.TRef.unary main_call11.v7 main_call11.v9 (extractStridedSlice S1026x1 ![0, 1] · slices_S1026x1024_S1026x1_0_1),
    StableHlo.TRef.unary main_call11.v9 main_call11.call2.v0 (Host.reverse [1]),
    StableHlo.TRef.binary main_call11.call2.v0 main_call11.v7 main_call11.v11 (fun a b => concatenate S1026x1025 1 [⟨S1026x1, a⟩, ⟨S1026x1024, b⟩] concatenates_S1026x1_S1026x1024_S1026x1025_d1),
    StableHlo.TRef.unary main_call11.v11 main_call11.v12 (extractStridedSlice S1026x1 ![0, 1024] · slices_S1026x1025_S1026x1_0_1024),
    StableHlo.TRef.unary main_call11.v11 main_call11.v13 (extractStridedSlice S1026x1 ![0, 1023] · slices_S1026x1025_S1026x1_0_1023),
    StableHlo.TRef.unary main_call11.v13 main_call11.call3.v0 (Host.reverse [1]),
    StableHlo.TRef.binary main_call11.v11 main_call11.call3.v0 main_call11.v15 (fun a b => concatenate S1026x1026 1 [⟨S1026x1025, a⟩, ⟨S1026x1, b⟩] concatenates_S1026x1025_S1026x1_S1026x1026_d1),
    StableHlo.nullary main_cst_35 (constant S_ .f32 0x00000000#32),
    StableHlo.unary main_cst_35 main_v339 (broadcastInDim S1024x1024 ![] bcast_S_S1024x1024 : (⟨S_, .f32⟩ : BufTy).Contents (Elt F) → (⟨S1024x1024, .f32⟩ : BufTy).Contents (Elt F)),
    StableHlo.unary main_cst_0 main_v340 ((extractStridedSlice S1x1 ![0, 0] · slices_S3x3_S1x1_0_0) : (⟨S3x3, .f32⟩ : BufTy).Contents (Elt F) → (⟨S1x1, .f32⟩ : BufTy).Contents (Elt F)),
    StableHlo.reshape main_v340 main_v341 rfl shapeCasts_S1x1_S_,
    StableHlo.unary main_v338 main_v342 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v341 main_v343 (broadcastInDim S1024x1024 ![] bcast_S_S1024x1024 : (⟨S_, .f32⟩ : BufTy).Contents (Elt F) → (⟨S1024x1024, .f32⟩ : BufTy).Contents (Elt F)),
    StableHlo.binary main_v343 main_v342 main_v344 (mulf : (⟨S1024x1024, .f32⟩ : BufTy).Contents (Elt F) → (⟨S1024x1024, .f32⟩ : BufTy).Contents (Elt F) → (⟨S1024x1024, .f32⟩ : BufTy).Contents (Elt F)),
    StableHlo.binary main_v339 main_v344 main_v345 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v346 ((extractStridedSlice S1x1 ![0, 1] · slices_S3x3_S1x1_0_1) : (⟨S3x3, .f32⟩ : BufTy).Contents (Elt F) → (⟨S1x1, .f32⟩ : BufTy).Contents (Elt F)),
    StableHlo.reshape main_v346 main_v347 rfl shapeCasts_S1x1_S_,
    StableHlo.unary main_v338 main_v348 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v347 main_v349 (broadcastInDim S1024x1024 ![] bcast_S_S1024x1024 : (⟨S_, .f32⟩ : BufTy).Contents (Elt F) → (⟨S1024x1024, .f32⟩ : BufTy).Contents (Elt F)),
    StableHlo.binary main_v349 main_v348 main_v350 (mulf : (⟨S1024x1024, .f32⟩ : BufTy).Contents (Elt F) → (⟨S1024x1024, .f32⟩ : BufTy).Contents (Elt F) → (⟨S1024x1024, .f32⟩ : BufTy).Contents (Elt F)),
    StableHlo.binary main_v345 main_v350 main_v351 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v352 ((extractStridedSlice S1x1 ![0, 2] · slices_S3x3_S1x1_0_2) : (⟨S3x3, .f32⟩ : BufTy).Contents (Elt F) → (⟨S1x1, .f32⟩ : BufTy).Contents (Elt F)),
    StableHlo.reshape main_v352 main_v353 rfl shapeCasts_S1x1_S_,
    StableHlo.unary main_v338 main_v354 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v353 main_v355 (broadcastInDim S1024x1024 ![] bcast_S_S1024x1024 : (⟨S_, .f32⟩ : BufTy).Contents (Elt F) → (⟨S1024x1024, .f32⟩ : BufTy).Contents (Elt F)),
    StableHlo.binary main_v355 main_v354 main_v356 (mulf : (⟨S1024x1024, .f32⟩ : BufTy).Contents (Elt F) → (⟨S1024x1024, .f32⟩ : BufTy).Contents (Elt F) → (⟨S1024x1024, .f32⟩ : BufTy).Contents (Elt F)),
    StableHlo.binary main_v351 main_v356 main_v357 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v358 ((extractStridedSlice S1x1 ![1, 0] · slices_S3x3_S1x1_1_0) : (⟨S3x3, .f32⟩ : BufTy).Contents (Elt F) → (⟨S1x1, .f32⟩ : BufTy).Contents (Elt F)),
    StableHlo.reshape main_v358 main_v359 rfl shapeCasts_S1x1_S_,
    StableHlo.unary main_v338 main_v360 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v359 main_v361 (broadcastInDim S1024x1024 ![] bcast_S_S1024x1024 : (⟨S_, .f32⟩ : BufTy).Contents (Elt F) → (⟨S1024x1024, .f32⟩ : BufTy).Contents (Elt F)),
    StableHlo.binary main_v361 main_v360 main_v362 (mulf : (⟨S1024x1024, .f32⟩ : BufTy).Contents (Elt F) → (⟨S1024x1024, .f32⟩ : BufTy).Contents (Elt F) → (⟨S1024x1024, .f32⟩ : BufTy).Contents (Elt F)),
    StableHlo.binary main_v357 main_v362 main_v363 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v364 ((extractStridedSlice S1x1 ![1, 1] · slices_S3x3_S1x1_1_1) : (⟨S3x3, .f32⟩ : BufTy).Contents (Elt F) → (⟨S1x1, .f32⟩ : BufTy).Contents (Elt F)),
    StableHlo.reshape main_v364 main_v365 rfl shapeCasts_S1x1_S_,
    StableHlo.unary main_v338 main_v366 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v365 main_v367 (broadcastInDim S1024x1024 ![] bcast_S_S1024x1024 : (⟨S_, .f32⟩ : BufTy).Contents (Elt F) → (⟨S1024x1024, .f32⟩ : BufTy).Contents (Elt F)),
    StableHlo.binary main_v367 main_v366 main_v368 (mulf : (⟨S1024x1024, .f32⟩ : BufTy).Contents (Elt F) → (⟨S1024x1024, .f32⟩ : BufTy).Contents (Elt F) → (⟨S1024x1024, .f32⟩ : BufTy).Contents (Elt F)),
    StableHlo.binary main_v363 main_v368 main_v369 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v370 ((extractStridedSlice S1x1 ![1, 2] · slices_S3x3_S1x1_1_2) : (⟨S3x3, .f32⟩ : BufTy).Contents (Elt F) → (⟨S1x1, .f32⟩ : BufTy).Contents (Elt F)),
    StableHlo.reshape main_v370 main_v371 rfl shapeCasts_S1x1_S_,
    StableHlo.unary main_v338 main_v372 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v371 main_v373 (broadcastInDim S1024x1024 ![] bcast_S_S1024x1024 : (⟨S_, .f32⟩ : BufTy).Contents (Elt F) → (⟨S1024x1024, .f32⟩ : BufTy).Contents (Elt F)),
    StableHlo.binary main_v373 main_v372 main_v374 (mulf : (⟨S1024x1024, .f32⟩ : BufTy).Contents (Elt F) → (⟨S1024x1024, .f32⟩ : BufTy).Contents (Elt F) → (⟨S1024x1024, .f32⟩ : BufTy).Contents (Elt F)),
    StableHlo.binary main_v369 main_v374 main_v375 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v376 ((extractStridedSlice S1x1 ![2, 0] · slices_S3x3_S1x1_2_0) : (⟨S3x3, .f32⟩ : BufTy).Contents (Elt F) → (⟨S1x1, .f32⟩ : BufTy).Contents (Elt F)),
    StableHlo.reshape main_v376 main_v377 rfl shapeCasts_S1x1_S_,
    StableHlo.unary main_v338 main_v378 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v377 main_v379 (broadcastInDim S1024x1024 ![] bcast_S_S1024x1024 : (⟨S_, .f32⟩ : BufTy).Contents (Elt F) → (⟨S1024x1024, .f32⟩ : BufTy).Contents (Elt F)),
    StableHlo.binary main_v379 main_v378 main_v380 (mulf : (⟨S1024x1024, .f32⟩ : BufTy).Contents (Elt F) → (⟨S1024x1024, .f32⟩ : BufTy).Contents (Elt F) → (⟨S1024x1024, .f32⟩ : BufTy).Contents (Elt F)),
    StableHlo.binary main_v375 main_v380 main_v381 (addf : (⟨S1024x1024, .f32⟩ : BufTy).Contents (Elt F) → (⟨S1024x1024, .f32⟩ : BufTy).Contents (Elt F) → (⟨S1024x1024, .f32⟩ : BufTy).Contents (Elt F)) ]

theorem ops6_sub : (ops6 : List (HloOp τ sig (Elt F))).Forall fun op => op.bufs ⊆ tcRefs τ sig :=
  ⟨binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub ..⟩

/-- The operations of window 7 of @main (28 of them). -/
abbrev ops7 : List (HloOp τ sig (Elt F)) :=
  [ StableHlo.unary main_cst_0 main_v382 ((extractStridedSlice S1x1 ![2, 1] · slices_S3x3_S1x1_2_1) : (⟨S3x3, .f32⟩ : BufTy).Contents (Elt F) → (⟨S1x1, .f32⟩ : BufTy).Contents (Elt F)),
    StableHlo.reshape main_v382 main_v383 rfl shapeCasts_S1x1_S_,
    StableHlo.unary main_v338 main_v384 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v383 main_v385 (broadcastInDim S1024x1024 ![] bcast_S_S1024x1024 : (⟨S_, .f32⟩ : BufTy).Contents (Elt F) → (⟨S1024x1024, .f32⟩ : BufTy).Contents (Elt F)),
    StableHlo.binary main_v385 main_v384 main_v386 (mulf : (⟨S1024x1024, .f32⟩ : BufTy).Contents (Elt F) → (⟨S1024x1024, .f32⟩ : BufTy).Contents (Elt F) → (⟨S1024x1024, .f32⟩ : BufTy).Contents (Elt F)),
    StableHlo.binary main_v381 main_v386 main_v387 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v388 ((extractStridedSlice S1x1 ![2, 2] · slices_S3x3_S1x1_2_2) : (⟨S3x3, .f32⟩ : BufTy).Contents (Elt F) → (⟨S1x1, .f32⟩ : BufTy).Contents (Elt F)),
    StableHlo.reshape main_v388 main_v389 rfl shapeCasts_S1x1_S_,
    StableHlo.unary main_v338 main_v390 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v389 main_v391 (broadcastInDim S1024x1024 ![] bcast_S_S1024x1024 : (⟨S_, .f32⟩ : BufTy).Contents (Elt F) → (⟨S1024x1024, .f32⟩ : BufTy).Contents (Elt F)),
    StableHlo.binary main_v391 main_v390 main_v392 (mulf : (⟨S1024x1024, .f32⟩ : BufTy).Contents (Elt F) → (⟨S1024x1024, .f32⟩ : BufTy).Contents (Elt F) → (⟨S1024x1024, .f32⟩ : BufTy).Contents (Elt F)),
    StableHlo.binary main_v387 main_v392 main_v393 (addf : (⟨S1024x1024, .f32⟩ : BufTy).Contents (Elt F) → (⟨S1024x1024, .f32⟩ : BufTy).Contents (Elt F) → (⟨S1024x1024, .f32⟩ : BufTy).Contents (Elt F)),
    StableHlo.unary main_v279 main_v394 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v394 main_v395 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v109 main_v395 main_v396 (mulf : (⟨S8x1024x1024, .f32⟩ : BufTy).Contents (Elt F) → (⟨S8x1024x1024, .f32⟩ : BufTy).Contents (Elt F) → (⟨S8x1024x1024, .f32⟩ : BufTy).Contents (Elt F)),
    StableHlo.unary main_v393 main_v397 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v397 main_v398 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v165 main_v398 main_v399 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v396 main_v399 main_v400 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v400 main_v401 (Host.absf : (⟨S8x1024x1024, .f32⟩ : BufTy).Contents (Elt F) → (⟨S8x1024x1024, .f32⟩ : BufTy).Contents (Elt F)),
    StableHlo.nullary main_cst_36 (constant S_ .f32 0x00000000#32),
    StableHlo.binary main_v401 main_cst_36 main_v402 ((fun x v => Host.reduceAdd x v reducesTo_S8x1024x1024_S_d0_1_2 h_S_) : (⟨S8x1024x1024, .f32⟩ : BufTy).Contents (Elt F) → (⟨S_, .f32⟩ : BufTy).Contents (Elt F) → (⟨S_, .f32⟩ : BufTy).Contents (Elt F)),
    StableHlo.nullary main_cst_37 (constant S_ .f32 0x4B000000#32),
    StableHlo.binary main_v402 main_cst_37 main_v403 (Host.divf : (⟨S_, .f32⟩ : BufTy).Contents (Elt F) → (⟨S_, .f32⟩ : BufTy).Contents (Elt F) → (⟨S_, .f32⟩ : BufTy).Contents (Elt F)),
    StableHlo.binary main_v8 main_v23 main_v404 (addf : (⟨S_, .f32⟩ : BufTy).Contents (Elt F) → (⟨S_, .f32⟩ : BufTy).Contents (Elt F) → (⟨S_, .f32⟩ : BufTy).Contents (Elt F)),
    StableHlo.binary main_v404 main_v47 main_v405 (addf : (⟨S_, .f32⟩ : BufTy).Contents (Elt F) → (⟨S_, .f32⟩ : BufTy).Contents (Elt F) → (⟨S_, .f32⟩ : BufTy).Contents (Elt F)),
    StableHlo.binary main_v405 main_v19 main_v406 (addf : (⟨S_, .f32⟩ : BufTy).Contents (Elt F) → (⟨S_, .f32⟩ : BufTy).Contents (Elt F) → (⟨S_, .f32⟩ : BufTy).Contents (Elt F)),
    StableHlo.binary main_v406 main_v403 main_v407 (addf : (⟨S_, .f32⟩ : BufTy).Contents (Elt F) → (⟨S_, .f32⟩ : BufTy).Contents (Elt F) → (⟨S_, .f32⟩ : BufTy).Contents (Elt F)) ]

theorem ops7_sub : (ops7 : List (HloOp τ sig (Elt F))).Forall fun op => op.bufs ⊆ tcRefs τ sig :=
  ⟨unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., nullary_bufs_sub .., binary_bufs_sub .., nullary_bufs_sub .., binary_bufs_sub .., binary_bufs_sub .., binary_bufs_sub .., binary_bufs_sub .., binary_bufs_sub ..⟩

end Cert.ReferenceIdeal.Table

end
-- ==== Proof.RefRun.lean ====
/-
  The reference program's run.  The reference has no kernel: its @main is a straight line of 600 host operations
  (eight windows; the functions it calls — the rectifier, the standard deviation with its variance and its guarded
  quotient, the reflecting pads with their flips — inlined at their calls).  A straight line of host operations
  runs to the end from any memory, nothing faulting, and leaves in every buffer the value of the fold of the
  operations over the launch contents; the argument arrays are written by no operation.
-/
import proofs.«123598_j69123203661888_2_alg».proof.Proof.RefOps

noncomputable section

namespace Cert.ReferenceIdeal.HandRun

open Idealize.ShloMosaic Idealize.SL.Sem Idealize.ShloMosaic.StableHlo Cert.ReferenceIdeal Cert.ReferenceIdeal.Table

variable {F : FTy → Type} [FloatOps F] [Facts]
open Facts₀ Facts

/-- All of @main's operations, window after window. -/
abbrev ops : List (HloOp τ sig (Elt F)) :=
  ops0 ++ (ops1 ++ (ops2 ++ (ops3 ++ (ops4 ++ (ops5 ++ (ops6 ++ ops7))))))

set_option maxRecDepth 8192 in
set_option maxHeartbeats 4000000 in
/-- Window 0 of @main is the straight line of its table: the called functions unfolded at their calls, sequencing
    reassociated. -/
theorem part0_eq (d : Dev nD) : main_part0 (F := F) d = seq ops0 := by
  simp only [main_part0, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 1 of @main is the straight line of its table: the called functions unfolded at their calls, sequencing
    reassociated. -/
theorem part1_eq (d : Dev nD) : main_part1 (F := F) d = seq ops1 := by
  simp only [main_part1, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 2 of @main is the straight line of its table: the called functions unfolded at their calls, sequencing
    reassociated. -/
theorem part2_eq (d : Dev nD) : main_part2 (F := F) d = seq ops2 := by
  simp only [main_part2, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 3 of @main is the straight line of its table: the called functions unfolded at their calls, sequencing
    reassociated. -/
theorem part3_eq (d : Dev nD) : main_part3 (F := F) d = seq ops3 := by
  simp only [main_part3, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 4 of @main is the straight line of its table: the called functions unfolded at their calls, sequencing
    reassociated. -/
theorem part4_eq (d : Dev nD) : main_part4 (F := F) d = seq ops4 := by
  simp only [main_part4, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 5 of @main is the straight line of its table: the called functions unfolded at their calls, sequencing
    reassociated. -/
theorem part5_eq (d : Dev nD) : main_part5 (F := F) d = seq ops5 := by
  simp only [main_part5, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 6 of @main is the straight line of its table: the called functions unfolded at their calls, sequencing
    reassociated. -/
theorem part6_eq (d : Dev nD) : main_part6 (F := F) d = seq ops6 := by
  simp only [main_part6, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

set_option maxRecDepth 8192 in
set_option maxHeartbeats 4000000 in
/-- Window 7 of @main is the straight line of its table: the called functions unfolded at their calls, sequencing
    reassociated. -/
theorem part7_eq (d : Dev nD) : main_part7 (F := F) d = seq ops7 := by
  simp only [main_part7, fn_relu.body, fn_where.body, fn_var.body, fn_std.body, fn_flip.body, fn_pad.body, fn_flip_1.body, fn_flip_2.body, fn_pad_0.body, fn_flip_4.body, fn_flip_5.body, fn_pad_3.body, seq, bind_assoc, pure_bind]
  all_goals rfl

/-- @main is the straight line of all its operations. -/
theorem main_eq (d : Dev nD) : main (F := F) d = seq ops := by
  simp only [main, part0_eq, part1_eq, part2_eq, part3_eq, part4_eq, part5_eq, part6_eq, part7_eq, ops, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  rw [List.forall_iff_forall_mem]
  intro op h
  simp only [ops, List.mem_append] at h
  rcases h with h | h | h | h | h | h | h | h
  · exact List.forall_iff_forall_mem.mp ops0_sub op h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h

/-- From any memory with zero counters every weakly fair execution of @main terminates, and every final state has
    each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.RefStages.lean ====
/- The reference program's operations, in program order, cut into stages: each stage ends with the operation that
   completes one intermediate result (a loss term, a padded image, a filtered image). -/
import proofs.«123598_j69123203661888_2_alg».proof.ReferenceIdeal
import Idealize.ShloMosaic.Lib.StableHlo.Run

noncomputable section

namespace Cert.ReferenceIdeal.Stages

open Idealize.ShloMosaic Idealize.SL.Sem Idealize.ShloMosaic.StableHlo Cert.ReferenceIdeal

variable {F : FTy → Type} [FloatOps F] [Facts]
open Facts₀ Facts

/-- Stage 0 (18 operations): up to the operation that writes main_v8. -/
abbrev stage0 : List (HloOp τ sig (Elt F)) :=
  [ StableHlo.nullary main_cst (fun i => FloatOps.ofBits .f32 (lit0 (S3x3.rowMajor i))),
    StableHlo.nullary main_cst_0 (fun i => FloatOps.ofBits .f32 (lit1 (S3x3.rowMajor i))),
    StableHlo.unary main_arg1 main_v0 (Host.negf : (⟨S8x3x1024x1024, .f32⟩ : BufTy).Contents (Elt F) → (⟨S8x3x1024x1024, .f32⟩ : BufTy).Contents (Elt F)),
    StableHlo.TRef.nullary main_call0.cst (constant S_ .f32 0x00000000#32),
    StableHlo.TRef.unary main_call0.cst main_call0.v0 (broadcastInDim S8x3x1024x1024 ![] bcast_S_S8x3x1024x1024),
    StableHlo.TRef.binary ((.of main_v0) : StableHlo.TRef sig ⟨S8x3x1024x1024, .f32⟩) main_call0.v0 main_call0.v1 maximumf,
    StableHlo.nullary main_cst_1 (constant S_ .f32 0x3F800000#32),
    StableHlo.unary main_cst_1 main_v2 (broadcastInDim S8x3x1024x1024 ![] bcast_S_S8x3x1024x1024 : (⟨S_, .f32⟩ : BufTy).Contents (Elt F) → (⟨S8x3x1024x1024, .f32⟩ : BufTy).Contents (Elt F)),
    StableHlo.binary main_arg1 main_v2 main_v3 (subf : (⟨S8x3x1024x1024, .f32⟩ : BufTy).Contents (Elt F) → (⟨S8x3x1024x1024, .f32⟩ : BufTy).Contents (Elt F) → (⟨S8x3x1024x1024, .f32⟩ : BufTy).Contents (Elt F)),
    StableHlo.TRef.nullary main_call1.cst (constant S_ .f32 0x00000000#32),
    StableHlo.TRef.unary main_call1.cst main_call1.v0 (broadcastInDim S8x3x1024x1024 ![] bcast_S_S8x3x1024x1024),
    StableHlo.TRef.binary ((.of main_v3) : StableHlo.TRef sig ⟨S8x3x1024x1024, .f32⟩) main_call1.v0 main_call1.v1 maximumf,
    StableHlo.binary main_v1 main_v4 main_v5 (addf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_v5 main_v5 main_v6 (mulf : (⟨S8x3x1024x1024, .f32⟩ : BufTy).Contents (Elt F) → (⟨S8x3x1024x1024, .f32⟩ : BufTy).Contents (Elt F) → (⟨S8x3x1024x1024, .f32⟩ : BufTy).Contents (Elt F)),
    StableHlo.nullary main_cst_2 (constant S_ .f32 0x00000000#32),
    StableHlo.binary main_v6 main_cst_2 main_v7 ((fun x v => Host.reduceAdd x v reducesTo_S8x3x1024x1024_S_d0_1_2_3 h_S_) : (⟨S8x3x1024x1024, .f32⟩ : BufTy).Contents (Elt F) → (⟨S_, .f32⟩ : BufTy).Contents (Elt F) → (⟨S_, .f32⟩ : BufTy).Contents (Elt F)),
    StableHlo.nullary main_cst_3 (constant S_ .f32 0x4BC00000#32),
    StableHlo.binary main_v7 main_cst_3 main_v8 (Host.divf : (⟨S_, .f32⟩ : BufTy).Contents (Elt F) → (⟨S_, .f32⟩ : BufTy).Contents (Elt F) → (⟨S_, .f32⟩ : BufTy).Contents (Elt F)) ]

/-- Stage 1 (24 operations): up to the operation that writes main_call2.v1. -/
abbrev stage1 : List (HloOp τ sig (Elt F)) :=
  [ StableHlo.nullary main_c (constantI S_ 32 1#32),
    StableHlo.TRef.nullary main_call2.call0.cst (constant S_ .f32 0x00000000#32),
    StableHlo.TRef.binary ((.of main_arg0) : StableHlo.TRef sig ⟨S8x3x1024x1024, .f32⟩) main_call2.call0.cst main_call2.call0.v0 (fun x v => Host.reduceAdd x v reducesTo_S8x3x1024x1024_S8x3_d2_3 h_S_),
    StableHlo.TRef.unary main_call2.call0.v0 main_call2.call0.v1 (broadcastInDim S8x3x1x1 ![0, 1] bcast_S8x3_S8x3x1x1_0_1),
    StableHlo.TRef.nullary main_call2.call0.cst_0 (constant S_ .f32 0x49800000#32),
    StableHlo.TRef.unary main_call2.call0.cst_0 main_call2.call0.v2 (broadcastInDim S8x3x1x1 ![] bcast_S_S8x3x1x1),
    StableHlo.TRef.binary main_call2.call0.v1 main_call2.call0.v2 main_call2.call0.v3 Host.divf,
    StableHlo.TRef.unary main_call2.call0.v3 main_call2.call0.v4 (broadcastInDim S8x3x1024x1024 ![0, 1, 2, 3] bcast_S8x3x1x1_S8x3x1024x1024_0_1_2_3),
    StableHlo.TRef.binary ((.of main_arg0) : StableHlo.TRef sig ⟨S8x3x1024x1024, .f32⟩) main_call2.call0.v4 main_call2.call0.v5 subf,
    StableHlo.TRef.binary main_call2.call0.v5 main_call2.call0.v5 main_call2.call0.v6 mulf,
    StableHlo.TRef.unary ((.of main_c) : StableHlo.TRef sig ⟨S_, .i32⟩) main_call2.call0.v7 (sitofp .f32),
    StableHlo.TRef.nullary main_call2.call0.cst_1 (constant S_ .f32 0x49800000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S8x3x1024x1024_S8x3_d2_3 h_S_),
    StableHlo.TRef.unary main_call2.call0.v8 main_call2.call0.v10 (broadcastInDim S8x3 ![] bcast_S_S8x3),
    StableHlo.TRef.binary main_call2.call0.v9 main_call2.call0.v10 main_call2.call0.v11 Host.divf,
    StableHlo.TRef.nullary main_call2.call0.cst_3 (constant S_ .f32 0x00000000#32),
    StableHlo.TRef.binary main_call2.call0.v8 main_call2.call0.cst_3 main_call2.call0.v12 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S8x3 ![] bcast_S_S8x3),
    StableHlo.TRef.ternary main_call2.call0.v12 main_call2.call0.v11 main_call2.call0.call0.v1 main_call2.call0.call0.v2 (fun p a b => select (broadcastInDim S8x3 ![] bcast_S_S8x3 p) a b),
    StableHlo.TRef.unary main_call2.call0.call0.v2 main_call2.v1 Host.sqrt ]

/-- Stage 2 (6 operations): up to the operation that writes main_v13. -/
abbrev stage2 : List (HloOp τ sig (Elt F)) :=
  [ StableHlo.nullary main_cst_4 (constant S_ .f32 0x00000000#32),
    StableHlo.binary main_arg1 main_cst_4 main_v10 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_v10 main_v11 (broadcastInDim S8x3x1x1 ![0, 1] bcast_S8x3_S8x3x1x1_0_1 : (⟨S8x3, .f32⟩ : BufTy).Contents (Elt F) → (⟨S8x3x1x1, .f32⟩ : BufTy).Contents (Elt F)),
    StableHlo.nullary main_cst_5 (constant S_ .f32 0x49800000#32),
    StableHlo.unary main_cst_5 main_v12 (broadcastInDim S8x3x1x1 ![] bcast_S_S8x3x1x1 : (⟨S_, .f32⟩ : BufTy).Contents (Elt F) → (⟨S8x3x1x1, .f32⟩ : BufTy).Contents (Elt F)),
    StableHlo.binary main_v11 main_v12 main_v13 (Host.divf : (⟨S8x3x1x1, .f32⟩ : BufTy).Contents (Elt F) → (⟨S8x3x1x1, .f32⟩ : BufTy).Contents (Elt F) → (⟨S8x3x1x1, .f32⟩ : BufTy).Contents (Elt F)) ]

/-- Stage 3 (24 operations): up to the operation that writes main_call3.v1. -/
abbrev stage3 : List (HloOp τ sig (Elt F)) :=
  [ StableHlo.nullary main_c_6 (constantI S_ 32 1#32),
    StableHlo.TRef.nullary main_call3.call0.cst (constant S_ .f32 0x00000000#32),
    StableHlo.TRef.binary ((.of main_arg1) : StableHlo.TRef sig ⟨S8x3x1024x1024, .f32⟩) main_call3.call0.cst main_call3.call0.v0 (fun x v => Host.reduceAdd x v reducesTo_S8x3x1024x1024_S8x3_d2_3 h_S_),
    StableHlo.TRef.unary main_call3.call0.v0 main_call3.call0.v1 (broadcastInDim S8x3x1x1 ![0, 1] bcast_S8x3_S8x3x1x1_0_1),
    StableHlo.TRef.nullary main_call3.call0.cst_0 (constant S_ .f32 0x49800000#32),
    StableHlo.TRef.unary main_call3.call0.cst_0 main_call3.call0.v2 (broadcastInDim S8x3x1x1 ![] bcast_S_S8x3x1x1),
    StableHlo.TRef.binary main_call3.call0.v1 main_call3.call0.v2 main_call3.call0.v3 Host.divf,
    StableHlo.TRef.unary main_call3.call0.v3 main_call3.call0.v4 (broadcastInDim S8x3x1024x1024 ![0, 1, 2, 3] bcast_S8x3x1x1_S8x3x1024x1024_0_1_2_3),
    StableHlo.TRef.binary ((.of main_arg1) : StableHlo.TRef sig ⟨S8x3x1024x1024, .f32⟩) main_call3.call0.v4 main_call3.call0.v5 subf,
    StableHlo.TRef.binary main_call3.call0.v5 main_call3.call0.v5 main_call3.call0.v6 mulf,
    StableHlo.TRef.unary ((.of main_c_6) : StableHlo.TRef sig ⟨S_, .i32⟩) main_call3.call0.v7 (sitofp .f32),
    StableHlo.TRef.nullary main_call3.call0.cst_1 (constant S_ .f32 0x49800000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S8x3x1024x1024_S8x3_d2_3 h_S_),
    StableHlo.TRef.unary main_call3.call0.v8 main_call3.call0.v10 (broadcastInDim S8x3 ![] bcast_S_S8x3),
    StableHlo.TRef.binary main_call3.call0.v9 main_call3.call0.v10 main_call3.call0.v11 Host.divf,
    StableHlo.TRef.nullary main_call3.call0.cst_3 (constant S_ .f32 0x00000000#32),
    StableHlo.TRef.binary main_call3.call0.v8 main_call3.call0.cst_3 main_call3.call0.v12 (cmpf .ogt),
    StableHlo.TRef.nullary main_call3.call0.cst_4 (constant S_ .f32 0x7FC00000#32),
    StableHlo.TRef.unary main_call3.call0.cst_4 main_call3.call0.call0.v0 id,
    StableHlo.TRef.unary main_call3.call0.call0.v0 main_call3.call0.call0.v1 (broadcastInDim S8x3 ![] bcast_S_S8x3),
    StableHlo.TRef.ternary main_call3.call0.v12 main_call3.call0.v11 main_call3.call0.call0.v1 main_call3.call0.call0.v2 (fun p a b => select (broadcastInDim S8x3 ![] bcast_S_S8x3 p) a b),
    StableHlo.TRef.unary main_call3.call0.call0.v2 main_call3.v1 Host.sqrt ]

/-- Stage 4 (14 operations): up to the operation that writes main_v23. -/
abbrev stage4 : List (HloOp τ sig (Elt F)) :=
  [ StableHlo.nullary main_cst_7 (constant S_ .f32 0x3F000000#32),
    StableHlo.unary main_cst_7 main_v15 (broadcastInDim S8x3x1x1 ![] bcast_S_S8x3x1x1 : (⟨S_, .f32⟩ : BufTy).Contents (Elt F) → (⟨S8x3x1x1, .f32⟩ : BufTy).Contents (Elt F)),
    StableHlo.binary main_v13 main_v15 main_v16 (subf : (⟨S8x3x1x1, .f32⟩ : BufTy).Contents (Elt F) → (⟨S8x3x1x1, .f32⟩ : BufTy).Contents (Elt F) → (⟨S8x3x1x1, .f32⟩ : BufTy).Contents (Elt F)),
    StableHlo.binary main_v16 main_v16 main_v17 (mulf : (⟨S8x3x1x1, .f32⟩ : BufTy).Contents (Elt F) → (⟨S8x3x1x1, .f32⟩ : BufTy).Contents (Elt F) → (⟨S8x3x1x1, .f32⟩ : BufTy).Contents (Elt F)),
    StableHlo.nullary main_cst_8 (constant S_ .f32 0x00000000#32),
    StableHlo.binary main_v17 main_cst_8 main_v18 ((fun x v => Host.reduceAdd x v reducesTo_S8x3x1x1_S_d0_1_2_3 h_S_) : (⟨S8x3x1x1, .f32⟩ : BufTy).Contents (Elt F) → (⟨S_, .f32⟩ : BufTy).Contents (Elt F) → (⟨S_, .f32⟩ : BufTy).Contents (Elt F)),
    StableHlo.nullary main_cst_9 (constant S_ .f32 0x41C00000#32),
    StableHlo.binary main_v18 main_cst_9 main_v19 (Host.divf : (⟨S_, .f32⟩ : BufTy).Contents (Elt F) → (⟨S_, .f32⟩ : BufTy).Contents (Elt F) → (⟨S_, .f32⟩ : BufTy).Contents (Elt F)),
    StableHlo.binary main_v14 main_v9 main_v20 (subf : (⟨S8x3, .f32⟩ : BufTy).Contents (Elt F) → (⟨S8x3, .f32⟩ : BufTy).Contents (Elt F) → (⟨S8x3, .f32⟩ : BufTy).Contents (Elt F)),
    StableHlo.binary main_v20 main_v20 main_v21 (mulf : (⟨S8x3, .f32⟩ : BufTy).Contents (Elt F) → (⟨S8x3, .f32⟩ : BufTy).Contents (Elt F) → (⟨S8x3, .f32⟩ : BufTy).Contents (Elt F)),
    StableHlo.nullary main_cst_10 (constant S_ .f32 0x00000000#32),
    StableHlo.binary main_v21 main_cst_10 main_v22 ((fun x v => Host.reduceAdd x v reducesTo_S8x3_S_d0_1 h_S_) : (⟨S8x3, .f32⟩ : BufTy).Contents (Elt F) → (⟨S_, .f32⟩ : BufTy).Contents (Elt F) → (⟨S_, .f32⟩ : BufTy).Contents (Elt F)),
    StableHlo.nullary main_cst_11 (constant S_ .f32 0x41C00000#32),
    StableHlo.binary main_v22 main_cst_11 main_v23 (Host.divf : (⟨S_, .f32⟩ : BufTy).Contents (Elt F) → (⟨S_, .f32⟩ : BufTy).Contents (Elt F) → (⟨S_, .f32⟩ : BufTy).Contents (Elt F)) ]

/-- Stage 5 (5 operations): up to the operation that writes main_c_12. -/
abbrev stage5 : List (HloOp τ sig (Elt F)) :=
  [ StableHlo.unary main_arg1 main_v24 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v24 main_v25 rfl shapeCasts_S1x1x1024x1024_S1024x1024,
    StableHlo.unary main_arg0 main_v26 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v26 main_v27 rfl shapeCasts_S1x1x1024x1024_S1024x1024,
    StableHlo.nullary main_c_12 (constantI S_ 32 0#32) ]

/-- Stage 6 (8 operations): up to the operation that writes main_call4.v7. -/
abbrev stage6 : List (HloOp τ sig (Elt F)) :=
  [ StableHlo.TRef.unary ((.of main_v25) : StableHlo.TRef sig ⟨S1024x1024, .f32⟩) main_call4.v0 (extractStridedSlice S1024x1 ![0, 0] · slices_S1024x1024_S1024x1_0_0),
    StableHlo.TRef.unary ((.of main_v25) : StableHlo.TRef sig ⟨S1024x1024, .f32⟩) main_call4.v1 (extractStridedSlice S1024x1 ![0, 1] · slices_S1024x1024_S1024x1_0_1),
    StableHlo.TRef.unary main_call4.v1 main_call4.call0.v0 (Host.reverse [1]),
    StableHlo.TRef.binary main_call4.call0.v0 ((.of main_v25) : StableHlo.TRef sig ⟨S1024x1024, .f32⟩) main_call4.v3 (fun a b => concatenate S1024x1025 1 [⟨S1024x1, a⟩, ⟨S1024x1024, b⟩] concatenates_S1024x1_S1024x1024_S1024x1025_d1),
    StableHlo.TRef.unary main_call4.v3 main_call4.v4 (extractStridedSlice S1024x1 ![0, 1024] · slices_S1024x1025_S1024x1_0_1024),
    StableHlo.TRef.unary main_call4.v3 main_call4.v5 (extractStridedSlice S1024x1 ![0, 1023] · slices_S1024x1025_S1024x1_0_1023),
    StableHlo.TRef.unary main_call4.v5 main_call4.call1.v0 (Host.reverse [1]),
    StableHlo.TRef.binary main_call4.v3 main_call4.call1.v0 main_call4.v7 (fun a b => concatenate S1024x1026 1 [⟨S1024x1025, a⟩, ⟨S1024x1, b⟩] concatenates_S1024x1025_S1024x1_S1024x1026_d1) ]

/-- Stage 7 (10 operations): up to the operation that writes main_c_15. -/
abbrev stage7 : List (HloOp τ sig (Elt F)) :=
  [ StableHlo.unary main_v28 main_v29 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_13 (constant S_ .f32 0x40800000#32),
    StableHlo.unary main_cst_13 main_v30 (broadcastInDim S1024x1024 ![] bcast_S_S1024x1024 : (⟨S_, .f32⟩ : BufTy).Contents (Elt F) → (⟨S1024x1024, .f32⟩ : BufTy).Contents (Elt F)),
    StableHlo.binary main_v30 main_v29 main_v31 (mulf : (⟨S1024x1024, .f32⟩ : BufTy).Contents (Elt F) → (⟨S1024x1024, .f32⟩ : BufTy).Contents (Elt F) → (⟨S1024x1024, .f32⟩ : BufTy).Contents (Elt F)),
    StableHlo.unary main_v28 main_v32 ((extractStridedSlice S1024x1024 ![0, 2] · slices_S1024x1026_S1024x1024_0_2) : (⟨S1024x1026, .f32⟩ : BufTy).Contents (Elt F) → (⟨S1024x1024, .f32⟩ : BufTy).Contents (Elt F)),
    StableHlo.nullary main_cst_14 (constant S_ .f32 0x40800000#32),
    StableHlo.unary main_cst_14 main_v33 (broadcastInDim S1024x1024 ![] bcast_S_S1024x1024 : (⟨S_, .f32⟩ : BufTy).Contents (Elt F) → (⟨S1024x1024, .f32⟩ : BufTy).Contents (Elt F)),
    StableHlo.binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    StableHlo.binary main_v31 main_v34 main_v35 (subf : (⟨S1024x1024, .f32⟩ : BufTy).Contents (Elt F) → (⟨S1024x1024, .f32⟩ : BufTy).Contents (Elt F) → (⟨S1024x1024, .f32⟩ : BufTy).Contents (Elt F)),
    StableHlo.nullary main_c_15 (constantI S_ 32 0#32) ]

/-- Stage 8 (8 operations): up to the operation that writes main_call5.v7. -/
abbrev stage8 : List (HloOp τ sig (Elt F)) :=
  [ StableHlo.TRef.unary ((.of main_v27) : StableHlo.TRef sig ⟨S1024x1024, .f32⟩) main_call5.v0 (extractStridedSlice S1024x1 ![0, 0] · slices_S1024x1024_S1024x1_0_0),
    StableHlo.TRef.unary ((.of main_v27) : StableHlo.TRef sig ⟨S1024x1024, .f32⟩) main_call5.v1 (extractStridedSlice S1024x1 ![0, 1] · slices_S1024x1024_S1024x1_0_1),
    StableHlo.TRef.unary main_call5.v1 main_call5.call0.v0 (Host.reverse [1]),
    StableHlo.TRef.binary main_call5.call0.v0 ((.of main_v27) : StableHlo.TRef sig ⟨S1024x1024, .f32⟩) main_call5.v3 (fun a b => concatenate S1024x1025 1 [⟨S1024x1, a⟩, ⟨S1024x1024, b⟩] concatenates_S1024x1_S1024x1024_S1024x1025_d1),
    StableHlo.TRef.unary main_call5.v3 main_call5.v4 (extractStridedSlice S1024x1 ![0, 1024] · slices_S1024x1025_S1024x1_0_1024),
    StableHlo.TRef.unary main_call5.v3 main_call5.v5 (extractStridedSlice S1024x1 ![0, 1023] · slices_S1024x1025_S1024x1_0_1023),
    StableHlo.TRef.unary main_call5.v5 main_call5.call1.v0 (Host.reverse [1]),
    StableHlo.TRef.binary main_call5.v3 main_call5.call1.v0 main_call5.v7 (fun a b => concatenate S1024x1026 1 [⟨S1024x1025, a⟩, ⟨S1024x1, b⟩] concatenates_S1024x1025_S1024x1_S1024x1026_d1) ]

/-- Stage 9 (15 operations): up to the operation that writes main_v47. -/
abbrev stage9 : List (HloOp τ sig (Elt F)) :=
  [ StableHlo.unary main_v36 main_v37 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_16 (constant S_ .f32 0x40800000#32),
    StableHlo.unary main_cst_16 main_v38 (broadcastInDim S1024x1024 ![] bcast_S_S1024x1024 : (⟨S_, .f32⟩ : BufTy).Contents (Elt F) → (⟨S1024x1024, .f32⟩ : BufTy).Contents (Elt F)),
    StableHlo.binary main_v38 main_v37 main_v39 (mulf : (⟨S1024x1024, .f32⟩ : BufTy).Contents (Elt F) → (⟨S1024x1024, .f32⟩ : BufTy).Contents (Elt F) → (⟨S1024x1024, .f32⟩ : BufTy).Contents (Elt F)),
    StableHlo.unary main_v36 main_v40 ((extractStridedSlice S1024x1024 ![0, 2] · slices_S1024x1026_S1024x1024_0_2) : (⟨S1024x1026, .f32⟩ : BufTy).Contents (Elt F) → (⟨S1024x1024, .f32⟩ : BufTy).Contents (Elt F)),
    StableHlo.nullary main_cst_17 (constant S_ .f32 0x40800000#32),
    StableHlo.unary main_cst_17 main_v41 (broadcastInDim S1024x1024 ![] bcast_S_S1024x1024 : (⟨S_, .f32⟩ : BufTy).Contents (Elt F) → (⟨S1024x1024, .f32⟩ : BufTy).Contents (Elt F)),
    StableHlo.binary main_v41 main_v40 main_v42 (mulf : (⟨S1024x1024, .f32⟩ : BufTy).Contents (Elt F) → (⟨S1024x1024, .f32⟩ : BufTy).Contents (Elt F) → (⟨S1024x1024, .f32⟩ : BufTy).Contents (Elt F)),
    StableHlo.binary main_v39 main_v42 main_v43 (subf : (⟨S1024x1024, .f32⟩ : BufTy).Contents (Elt F) → (⟨S1024x1024, .f32⟩ : BufTy).Contents (Elt F) → (⟨S1024x1024, .f32⟩ : BufTy).Contents (Elt F)),
    StableHlo.binary main_v35 main_v43 main_v44 (subf : (⟨S1024x1024, .f32⟩ : BufTy).Contents (Elt F) → (⟨S1024x1024, .f32⟩ : BufTy).Contents (Elt F) → (⟨S1024x1024, .f32⟩ : BufTy).Contents (Elt F)),
    StableHlo.unary main_v44 main_v45 (Host.absf : (⟨S1024x1024, .f32⟩ : BufTy).Contents (Elt F) → (⟨S1024x1024, .f32⟩ : BufTy).Contents (Elt F)),
    StableHlo.nullary main_cst_18 (constant S_ .f32 0x00000000#32),
    StableHlo.binary main_v45 main_cst_18 main_v46 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_19 (constant S_ .f32 0x49800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)) ]

/-- Stage 10 (11 operations): up to the operation that writes main_c_24. -/
abbrev stage10 : List (HloOp τ sig (Elt F)) :=
  [ StableHlo.nullary main_cst_20 (constant S_ .f32 0x00000000#32),
    StableHlo.binary main_arg1 main_cst_20 main_v48 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_21 (constant S_ .f32 0x40400000#32),
    StableHlo.unary main_cst_21 main_v49 (broadcastInDim S8x1024x1024 ![] bcast_S_S8x1024x1024 : (⟨S_, .f32⟩ : BufTy).Contents (Elt F) → (⟨S8x1024x1024, .f32⟩ : BufTy).Contents (Elt F)),
    StableHlo.binary main_v48 main_v49 main_v50 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_22 (constant S_ .f32 0x00000000#32),
    StableHlo.binary main_arg0 main_cst_22 main_v51 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_23 (constant S_ .f32 0x40400000#32),
    StableHlo.unary main_cst_23 main_v52 (broadcastInDim S8x1024x1024 ![] bcast_S_S8x1024x1024 : (⟨S_, .f32⟩ : BufTy).Contents (Elt F) → (⟨S8x1024x1024, .f32⟩ : BufTy).Contents (Elt F)),
    StableHlo.binary main_v51 main_v52 main_v53 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_24 (constantI S_ 32 0#32) ]

/-- Stage 11 (16 operations): up to the operation that writes main_call6.v15. -/
abbrev stage11 : List (HloOp τ sig (Elt F)) :=
  [ StableHlo.TRef.unary ((.of main_v50) : StableHlo.TRef sig ⟨S8x1024x1024, .f32⟩) main_call6.v0 (extractStridedSlice S8x1x1024 ![0, 0, 0] · slices_S8x1024x1024_S8x1x1024_0_0_0),
    StableHlo.TRef.unary ((.of main_v50) : StableHlo.TRef sig ⟨S8x1024x1024, .f32⟩) main_call6.v1 (extractStridedSlice S8x1x1024 ![0, 1, 0] · slices_S8x1024x1024_S8x1x1024_0_1_0),
    StableHlo.TRef.unary main_call6.v1 main_call6.call0.v0 (Host.reverse [1]),
    StableHlo.TRef.binary main_call6.call0.v0 ((.of main_v50) : StableHlo.TRef sig ⟨S8x1024x1024, .f32⟩) main_call6.v3 (fun a b => concatenate S8x1025x1024 1 [⟨S8x1x1024, a⟩, ⟨S8x1024x1024, b⟩] concatenates_S8x1x1024_S8x1024x1024_S8x1025x1024_d1),
    StableHlo.TRef.unary main_call6.v3 main_call6.v4 (extractStridedSlice S8x1x1024 ![0, 1024, 0] · slices_S8x1025x1024_S8x1x1024_0_1024_0),
    StableHlo.TRef.unary main_call6.v3 main_call6.v5 (extractStridedSlice S8x1x1024 ![0, 1023, 0] · slices_S8x1025x1024_S8x1x1024_0_1023_0),
    StableHlo.TRef.unary main_call6.v5 main_call6.call1.v0 (Host.reverse [1]),
    StableHlo.TRef.binary main_call6.v3 main_call6.call1.v0 main_call6.v7 (fun a b => concatenate S8x1026x1024 1 [⟨S8x1025x1024, a⟩, ⟨S8x1x1024, b⟩] concatenates_S8x1025x1024_S8x1x1024_S8x1026x1024_d1),
    StableHlo.TRef.unary main_call6.v7 main_call6.v8 (extractStridedSlice S8x1026x1 ![0, 0, 0] · slices_S8x1026x1024_S8x1026x1_0_0_0),
    StableHlo.TRef.unary main_call6.v7 main_call6.v9 (extractStridedSlice S8x1026x1 ![0, 0, 1] · slices_S8x1026x1024_S8x1026x1_0_0_1),
    StableHlo.TRef.unary main_call6.v9 main_call6.call2.v0 (Host.reverse [2]),
    StableHlo.TRef.binary main_call6.call2.v0 main_call6.v7 main_call6.v11 (fun a b => concatenate S8x1026x1025 2 [⟨S8x1026x1, a⟩, ⟨S8x1026x1024, b⟩] concatenates_S8x1026x1_S8x1026x1024_S8x1026x1025_d2),
    StableHlo.TRef.unary main_call6.v11 main_call6.v12 (extractStridedSlice S8x1026x1 ![0, 0, 1024] · slices_S8x1026x1025_S8x1026x1_0_0_1024),
    StableHlo.TRef.unary main_call6.v11 main_call6.v13 (extractStridedSlice S8x1026x1 ![0, 0, 1023] · slices_S8x1026x1025_S8x1026x1_0_0_1023),
    StableHlo.TRef.unary main_call6.v13 main_call6.call3.v0 (Host.reverse [2]),
    StableHlo.TRef.binary main_call6.v11 main_call6.call3.v0 main_call6.v15 (fun a b => concatenate S8x1026x1026 2 [⟨S8x1026x1025, a⟩, ⟨S8x1026x1, b⟩] concatenates_S8x1026x1025_S8x1026x1_S8x1026x1026_d2) ]

/-- Stage 12 (56 operations): up to the operation that writes main_v109. -/
abbrev stage12 : List (HloOp τ sig (Elt F)) :=
  [ StableHlo.nullary main_cst_25 (constant S_ .f32 0x00000000#32),
    StableHlo.unary main_cst_25 main_v55 (broadcastInDim S8x1024x1024 ![] bcast_S_S8x1024x1024 : (⟨S_, .f32⟩ : BufTy).Contents (Elt F) → (⟨S8x1024x1024, .f32⟩ : BufTy).Contents (Elt F)),
    StableHlo.unary main_cst main_v56 ((extractStridedSlice S1x1 ![0, 0] · slices_S3x3_S1x1_0_0) : (⟨S3x3, .f32⟩ : BufTy).Contents (Elt F) → (⟨S1x1, .f32⟩ : BufTy).Contents (Elt F)),
    StableHlo.reshape main_v56 main_v57 rfl shapeCasts_S1x1_S_,
    StableHlo.unary main_v54 main_v58 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v57 main_v59 (broadcastInDim S8x1024x1024 ![] bcast_S_S8x1024x1024 : (⟨S_, .f32⟩ : BufTy).Contents (Elt F) → (⟨S8x1024x1024, .f32⟩ : BufTy).Contents (Elt F)),
    StableHlo.binary main_v59 main_v58 main_v60 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v55 main_v60 main_v61 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v62 ((extractStridedSlice S1x1 ![0, 1] · slices_S3x3_S1x1_0_1) : (⟨S3x3, .f32⟩ : BufTy).Contents (Elt F) → (⟨S1x1, .f32⟩ : BufTy).Contents (Elt F)),
    StableHlo.reshape main_v62 main_v63 rfl shapeCasts_S1x1_S_,
    StableHlo.unary main_v54 main_v64 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v63 main_v65 (broadcastInDim S8x1024x1024 ![] bcast_S_S8x1024x1024 : (⟨S_, .f32⟩ : BufTy).Contents (Elt F) → (⟨S8x1024x1024, .f32⟩ : BufTy).Contents (Elt F)),
    StableHlo.binary main_v65 main_v64 main_v66 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v61 main_v66 main_v67 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v68 ((extractStridedSlice S1x1 ![0, 2] · slices_S3x3_S1x1_0_2) : (⟨S3x3, .f32⟩ : BufTy).Contents (Elt F) → (⟨S1x1, .f32⟩ : BufTy).Contents (Elt F)),
    StableHlo.reshape main_v68 main_v69 rfl shapeCasts_S1x1_S_,
    StableHlo.unary main_v54 main_v70 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v69 main_v71 (broadcastInDim S8x1024x1024 ![] bcast_S_S8x1024x1024 : (⟨S_, .f32⟩ : BufTy).Contents (Elt F) → (⟨S8x1024x1024, .f32⟩ : BufTy).Contents (Elt F)),
    StableHlo.binary main_v71 main_v70 main_v72 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v67 main_v72 main_v73 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v74 ((extractStridedSlice S1x1 ![1, 0] · slices_S3x3_S1x1_1_0) : (⟨S3x3, .f32⟩ : BufTy).Contents (Elt F) → (⟨S1x1, .f32⟩ : BufTy).Contents (Elt F)),
    StableHlo.reshape main_v74 main_v75 rfl shapeCasts_S1x1_S_,
    StableHlo.unary main_v54 main_v76 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v75 main_v77 (broadcastInDim S8x1024x1024 ![] bcast_S_S8x1024x1024 : (⟨S_, .f32⟩ : BufTy).Contents (Elt F) → (⟨S8x1024x1024, .f32⟩ : BufTy).Contents (Elt F)),
    StableHlo.binary main_v77 main_v76 main_v78 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v73 main_v78 main_v79 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v80 ((extractStridedSlice S1x1 ![1, 1] · slices_S3x3_S1x1_1_1) : (⟨S3x3, .f32⟩ : BufTy).Contents (Elt F) → (⟨S1x1, .f32⟩ : BufTy).Contents (Elt F)),
    StableHlo.reshape main_v80 main_v81 rfl shapeCasts_S1x1_S_,
    StableHlo.unary main_v54 main_v82 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v81 main_v83 (broadcastInDim S8x1024x1024 ![] bcast_S_S8x1024x1024 : (⟨S_, .f32⟩ : BufTy).Contents (Elt F) → (⟨S8x1024x1024, .f32⟩ : BufTy).Contents (Elt F)),
    StableHlo.binary main_v83 main_v82 main_v84 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v79 main_v84 main_v85 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v86 ((extractStridedSlice S1x1 ![1, 2] · slices_S3x3_S1x1_1_2) : (⟨S3x3, .f32⟩ : BufTy).Contents (Elt F) → (⟨S1x1, .f32⟩ : BufTy).Contents (Elt F)),
    StableHlo.reshape main_v86 main_v87 rfl shapeCasts_S1x1_S_,
    StableHlo.unary main_v54 main_v88 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v87 main_v89 (broadcastInDim S8x1024x1024 ![] bcast_S_S8x1024x1024 : (⟨S_, .f32⟩ : BufTy).Contents (Elt F) → (⟨S8x1024x1024, .f32⟩ : BufTy).Contents (Elt F)),
    StableHlo.binary main_v89 main_v88 main_v90 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v85 main_v90 main_v91 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v92 ((extractStridedSlice S1x1 ![2, 0] · slices_S3x3_S1x1_2_0) : (⟨S3x3, .f32⟩ : BufTy).Contents (Elt F) → (⟨S1x1, .f32⟩ : BufTy).Contents (Elt F)),
    StableHlo.reshape main_v92 main_v93 rfl shapeCasts_S1x1_S_,
    StableHlo.unary main_v54 main_v94 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v93 main_v95 (broadcastInDim S8x1024x1024 ![] bcast_S_S8x1024x1024 : (⟨S_, .f32⟩ : BufTy).Contents (Elt F) → (⟨S8x1024x1024, .f32⟩ : BufTy).Contents (Elt F)),
    StableHlo.binary main_v95 main_v94 main_v96 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v91 main_v96 main_v97 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v98 ((extractStridedSlice S1x1 ![2, 1] · slices_S3x3_S1x1_2_1) : (⟨S3x3, .f32⟩ : BufTy).Contents (Elt F) → (⟨S1x1, .f32⟩ : BufTy).Contents (Elt F)),
    StableHlo.reshape main_v98 main_v99 rfl shapeCasts_S1x1_S_,
    StableHlo.unary main_v54 main_v100 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v99 main_v101 (broadcastInDim S8x1024x1024 ![] bcast_S_S8x1024x1024 : (⟨S_, .f32⟩ : BufTy).Contents (Elt F) → (⟨S8x1024x1024, .f32⟩ : BufTy).Contents (Elt F)),
    StableHlo.binary main_v101 main_v100 main_v102 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v97 main_v102 main_v103 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v104 ((extractStridedSlice S1x1 ![2, 2] · slices_S3x3_S1x1_2_2) : (⟨S3x3, .f32⟩ : BufTy).Contents (Elt F) → (⟨S1x1, .f32⟩ : BufTy).Contents (Elt F)),
    StableHlo.reshape main_v104 main_v105 rfl shapeCasts_S1x1_S_,
    StableHlo.unary main_v54 main_v106 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v105 main_v107 (broadcastInDim S8x1024x1024 ![] bcast_S_S8x1024x1024 : (⟨S_, .f32⟩ : BufTy).Contents (Elt F) → (⟨S8x1024x1024, .f32⟩ : BufTy).Contents (Elt F)),
    StableHlo.binary main_v107 main_v106 main_v108 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v103 main_v108 main_v109 (addf : (⟨S8x1024x1024, .f32⟩ : BufTy).Contents (Elt F) → (⟨S8x1024x1024, .f32⟩ : BufTy).Contents (Elt F) → (⟨S8x1024x1024, .f32⟩ : BufTy).Contents (Elt F)) ]

/-- Stage 13 (1 operations): up to the operation that writes main_c_26. -/
abbrev stage13 : List (HloOp τ sig (Elt F)) :=
  [ StableHlo.nullary main_c_26 (constantI S_ 32 0#32) ]

/-- Stage 14 (16 operations): up to the operation that writes main_call7.v15. -/
abbrev stage14 : List (HloOp τ sig (Elt F)) :=
  [ StableHlo.TRef.unary ((.of main_v53) : StableHlo.TRef sig ⟨S8x1024x1024, .f32⟩) main_call7.v0 (extractStridedSlice S8x1x1024 ![0, 0, 0] · slices_S8x1024x1024_S8x1x1024_0_0_0),
    StableHlo.TRef.unary ((.of main_v53) : StableHlo.TRef sig ⟨S8x1024x1024, .f32⟩) main_call7.v1 (extractStridedSlice S8x1x1024 ![0, 1, 0] · slices_S8x1024x1024_S8x1x1024_0_1_0),
    StableHlo.TRef.unary main_call7.v1 main_call7.call0.v0 (Host.reverse [1]),
    StableHlo.TRef.binary main_call7.call0.v0 ((.of main_v53) : StableHlo.TRef sig ⟨S8x1024x1024, .f32⟩) main_call7.v3 (fun a b => concatenate S8x1025x1024 1 [⟨S8x1x1024, a⟩, ⟨S8x1024x1024, b⟩] concatenates_S8x1x1024_S8x1024x1024_S8x1025x1024_d1),
    StableHlo.TRef.unary main_call7.v3 main_call7.v4 (extractStridedSlice S8x1x1024 ![0, 1024, 0] · slices_S8x1025x1024_S8x1x1024_0_1024_0),
    StableHlo.TRef.unary main_call7.v3 main_call7.v5 (extractStridedSlice S8x1x1024 ![0, 1023, 0] · slices_S8x1025x1024_S8x1x1024_0_1023_0),
    StableHlo.TRef.unary main_call7.v5 main_call7.call1.v0 (Host.reverse [1]),
    StableHlo.TRef.binary main_call7.v3 main_call7.call1.v0 main_call7.v7 (fun a b => concatenate S8x1026x1024 1 [⟨S8x1025x1024, a⟩, ⟨S8x1x1024, b⟩] concatenates_S8x1025x1024_S8x1x1024_S8x1026x1024_d1),
    StableHlo.TRef.unary main_call7.v7 main_call7.v8 (extractStridedSlice S8x1026x1 ![0, 0, 0] · slices_S8x1026x1024_S8x1026x1_0_0_0),
    StableHlo.TRef.unary main_call7.v7 main_call7.v9 (extractStridedSlice S8x1026x1 ![0, 0, 1] · slices_S8x1026x1024_S8x1026x1_0_0_1),
    StableHlo.TRef.unary main_call7.v9 main_call7.call2.v0 (Host.reverse [2]),
    StableHlo.TRef.binary main_call7.call2.v0 main_call7.v7 main_call7.v11 (fun a b => concatenate S8x1026x1025 2 [⟨S8x1026x1, a⟩, ⟨S8x1026x1024, b⟩] concatenates_S8x1026x1_S8x1026x1024_S8x1026x1025_d2),
    StableHlo.TRef.unary main_call7.v11 main_call7.v12 (extractStridedSlice S8x1026x1 ![0, 0, 1024] · slices_S8x1026x1025_S8x1026x1_0_0_1024),
    StableHlo.TRef.unary main_call7.v11 main_call7.v13 (extractStridedSlice S8x1026x1 ![0, 0, 1023] · slices_S8x1026x1025_S8x1026x1_0_0_1023),
    StableHlo.TRef.unary main_call7.v13 main_call7.call3.v0 (Host.reverse [2]),
    StableHlo.TRef.binary main_call7.v11 main_call7.call3.v0 main_call7.v15 (fun a b => concatenate S8x1026x1026 2 [⟨S8x1026x1025, a⟩, ⟨S8x1026x1, b⟩] concatenates_S8x1026x1025_S8x1026x1_S8x1026x1026_d2) ]

/-- Stage 15 (56 operations): up to the operation that writes main_v165. -/
abbrev stage15 : List (HloOp τ sig (Elt F)) :=
  [ StableHlo.nullary main_cst_27 (constant S_ .f32 0x00000000#32),
    StableHlo.unary main_cst_27 main_v111 (broadcastInDim S8x1024x1024 ![] bcast_S_S8x1024x1024 : (⟨S_, .f32⟩ : BufTy).Contents (Elt F) → (⟨S8x1024x1024, .f32⟩ : BufTy).Contents (Elt F)),
    StableHlo.unary main_cst main_v112 ((extractStridedSlice S1x1 ![0, 0] · slices_S3x3_S1x1_0_0) : (⟨S3x3, .f32⟩ : BufTy).Contents (Elt F) → (⟨S1x1, .f32⟩ : BufTy).Contents (Elt F)),
    StableHlo.reshape main_v112 main_v113 rfl shapeCasts_S1x1_S_,
    StableHlo.unary main_v110 main_v114 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v113 main_v115 (broadcastInDim S8x1024x1024 ![] bcast_S_S8x1024x1024 : (⟨S_, .f32⟩ : BufTy).Contents (Elt F) → (⟨S8x1024x1024, .f32⟩ : BufTy).Contents (Elt F)),
    StableHlo.binary main_v115 main_v114 main_v116 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v111 main_v116 main_v117 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v118 ((extractStridedSlice S1x1 ![0, 1] · slices_S3x3_S1x1_0_1) : (⟨S3x3, .f32⟩ : BufTy).Contents (Elt F) → (⟨S1x1, .f32⟩ : BufTy).Contents (Elt F)),
    StableHlo.reshape main_v118 main_v119 rfl shapeCasts_S1x1_S_,
    StableHlo.unary main_v110 main_v120 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v119 main_v121 (broadcastInDim S8x1024x1024 ![] bcast_S_S8x1024x1024 : (⟨S_, .f32⟩ : BufTy).Contents (Elt F) → (⟨S8x1024x1024, .f32⟩ : BufTy).Contents (Elt F)),
    StableHlo.binary main_v121 main_v120 main_v122 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v117 main_v122 main_v123 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v124 ((extractStridedSlice S1x1 ![0, 2] · slices_S3x3_S1x1_0_2) : (⟨S3x3, .f32⟩ : BufTy).Contents (Elt F) → (⟨S1x1, .f32⟩ : BufTy).Contents (Elt F)),
    StableHlo.reshape main_v124 main_v125 rfl shapeCasts_S1x1_S_,
    StableHlo.unary main_v110 main_v126 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v125 main_v127 (broadcastInDim S8x1024x1024 ![] bcast_S_S8x1024x1024 : (⟨S_, .f32⟩ : BufTy).Contents (Elt F) → (⟨S8x1024x1024, .f32⟩ : BufTy).Contents (Elt F)),
    StableHlo.binary main_v127 main_v126 main_v128 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v123 main_v128 main_v129 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v130 ((extractStridedSlice S1x1 ![1, 0] · slices_S3x3_S1x1_1_0) : (⟨S3x3, .f32⟩ : BufTy).Contents (Elt F) → (⟨S1x1, .f32⟩ : BufTy).Contents (Elt F)),
    StableHlo.reshape main_v130 main_v131 rfl shapeCasts_S1x1_S_,
    StableHlo.unary main_v110 main_v132 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v131 main_v133 (broadcastInDim S8x1024x1024 ![] bcast_S_S8x1024x1024 : (⟨S_, .f32⟩ : BufTy).Contents (Elt F) → (⟨S8x1024x1024, .f32⟩ : BufTy).Contents (Elt F)),
    StableHlo.binary main_v133 main_v132 main_v134 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v129 main_v134 main_v135 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v136 ((extractStridedSlice S1x1 ![1, 1] · slices_S3x3_S1x1_1_1) : (⟨S3x3, .f32⟩ : BufTy).Contents (Elt F) → (⟨S1x1, .f32⟩ : BufTy).Contents (Elt F)),
    StableHlo.reshape main_v136 main_v137 rfl shapeCasts_S1x1_S_,
    StableHlo.unary main_v110 main_v138 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v137 main_v139 (broadcastInDim S8x1024x1024 ![] bcast_S_S8x1024x1024 : (⟨S_, .f32⟩ : BufTy).Contents (Elt F) → (⟨S8x1024x1024, .f32⟩ : BufTy).Contents (Elt F)),
    StableHlo.binary main_v139 main_v138 main_v140 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v135 main_v140 main_v141 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v142 ((extractStridedSlice S1x1 ![1, 2] · slices_S3x3_S1x1_1_2) : (⟨S3x3, .f32⟩ : BufTy).Contents (Elt F) → (⟨S1x1, .f32⟩ : BufTy).Contents (Elt F)),
    StableHlo.reshape main_v142 main_v143 rfl shapeCasts_S1x1_S_,
    StableHlo.unary main_v110 main_v144 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v143 main_v145 (broadcastInDim S8x1024x1024 ![] bcast_S_S8x1024x1024 : (⟨S_, .f32⟩ : BufTy).Contents (Elt F) → (⟨S8x1024x1024, .f32⟩ : BufTy).Contents (Elt F)),
    StableHlo.binary main_v145 main_v144 main_v146 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v141 main_v146 main_v147 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v148 ((extractStridedSlice S1x1 ![2, 0] · slices_S3x3_S1x1_2_0) : (⟨S3x3, .f32⟩ : BufTy).Contents (Elt F) → (⟨S1x1, .f32⟩ : BufTy).Contents (Elt F)),
    StableHlo.reshape main_v148 main_v149 rfl shapeCasts_S1x1_S_,
    StableHlo.unary main_v110 main_v150 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v149 main_v151 (broadcastInDim S8x1024x1024 ![] bcast_S_S8x1024x1024 : (⟨S_, .f32⟩ : BufTy).Contents (Elt F) → (⟨S8x1024x1024, .f32⟩ : BufTy).Contents (Elt F)),
    StableHlo.binary main_v151 main_v150 main_v152 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v147 main_v152 main_v153 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v154 ((extractStridedSlice S1x1 ![2, 1] · slices_S3x3_S1x1_2_1) : (⟨S3x3, .f32⟩ : BufTy).Contents (Elt F) → (⟨S1x1, .f32⟩ : BufTy).Contents (Elt F)),
    StableHlo.reshape main_v154 main_v155 rfl shapeCasts_S1x1_S_,
    StableHlo.unary main_v110 main_v156 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v155 main_v157 (broadcastInDim S8x1024x1024 ![] bcast_S_S8x1024x1024 : (⟨S_, .f32⟩ : BufTy).Contents (Elt F) → (⟨S8x1024x1024, .f32⟩ : BufTy).Contents (Elt F)),
    StableHlo.binary main_v157 main_v156 main_v158 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v153 main_v158 main_v159 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v160 ((extractStridedSlice S1x1 ![2, 2] · slices_S3x3_S1x1_2_2) : (⟨S3x3, .f32⟩ : BufTy).Contents (Elt F) → (⟨S1x1, .f32⟩ : BufTy).Contents (Elt F)),
    StableHlo.reshape main_v160 main_v161 rfl shapeCasts_S1x1_S_,
    StableHlo.unary main_v110 main_v162 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v161 main_v163 (broadcastInDim S8x1024x1024 ![] bcast_S_S8x1024x1024 : (⟨S_, .f32⟩ : BufTy).Contents (Elt F) → (⟨S8x1024x1024, .f32⟩ : BufTy).Contents (Elt F)),
    StableHlo.binary main_v163 main_v162 main_v164 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v159 main_v164 main_v165 (addf : (⟨S8x1024x1024, .f32⟩ : BufTy).Contents (Elt F) → (⟨S8x1024x1024, .f32⟩ : BufTy).Contents (Elt F) → (⟨S8x1024x1024, .f32⟩ : BufTy).Contents (Elt F)) ]

/-- Stage 16 (3 operations): up to the operation that writes main_c_28. -/
abbrev stage16 : List (HloOp τ sig (Elt F)) :=
  [ StableHlo.unary main_arg1 main_v166 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v166 main_v167 rfl shapeCasts_S1x1x1024x1024_S1024x1024,
    StableHlo.nullary main_c_28 (constantI S_ 32 0#32) ]

/-- Stage 17 (16 operations): up to the operation that writes main_call8.v15. -/
abbrev stage17 : List (HloOp τ sig (Elt F)) :=
  [ StableHlo.TRef.unary ((.of main_v167) : StableHlo.TRef sig ⟨S1024x1024, .f32⟩) main_call8.v0 (extractStridedSlice S1x1024 ![0, 0] · slices_S1024x1024_S1x1024_0_0),
    StableHlo.TRef.unary ((.of main_v167) : StableHlo.TRef sig ⟨S1024x1024, .f32⟩) main_call8.v1 (extractStridedSlice S1x1024 ![1, 0] · slices_S1024x1024_S1x1024_1_0),
    StableHlo.TRef.unary main_call8.v1 main_call8.call0.v0 (Host.reverse [0]),
    StableHlo.TRef.binary main_call8.call0.v0 ((.of main_v167) : StableHlo.TRef sig ⟨S1024x1024, .f32⟩) main_call8.v3 (fun a b => concatenate S1025x1024 0 [⟨S1x1024, a⟩, ⟨S1024x1024, b⟩] concatenates_S1x1024_S1024x1024_S1025x1024_d0),
    StableHlo.TRef.unary main_call8.v3 main_call8.v4 (extractStridedSlice S1x1024 ![1024, 0] · slices_S1025x1024_S1x1024_1024_0),
    StableHlo.TRef.unary main_call8.v3 main_call8.v5 (extractStridedSlice S1x1024 ![1023, 0] · slices_S1025x1024_S1x1024_1023_0),
    StableHlo.TRef.unary main_call8.v5 main_call8.call1.v0 (Host.reverse [0]),
    StableHlo.TRef.binary main_call8.v3 main_call8.call1.v0 main_call8.v7 (fun a b => concatenate S1026x1024 0 [⟨S1025x1024, a⟩, ⟨S1x1024, b⟩] concatenates_S1025x1024_S1x1024_S1026x1024_d0),
    StableHlo.TRef.unary main_call8.v7 main_call8.v8 (extractStridedSlice S1026x1 ![0, 0] · slices_S1026x1024_S1026x1_0_0),
    StableHlo.TRef.unary main_call8.v7 main_call8.v9 (extractStridedSlice S1026x1 ![0, 1] · slices_S1026x1024_S1026x1_0_1),
    StableHlo.TRef.unary main_call8.v9 main_call8.call2.v0 (Host.reverse [1]),
    StableHlo.TRef.binary main_call8.call2.v0 main_call8.v7 main_call8.v11 (fun a b => concatenate S1026x1025 1 [⟨S1026x1, a⟩, ⟨S1026x1024, b⟩] concatenates_S1026x1_S1026x1024_S1026x1025_d1),
    StableHlo.TRef.unary main_call8.v11 main_call8.v12 (extractStridedSlice S1026x1 ![0, 1024] · slices_S1026x1025_S1026x1_0_1024),
    StableHlo.TRef.unary main_call8.v11 main_call8.v13 (extractStridedSlice S1026x1 ![0, 1023] · slices_S1026x1025_S1026x1_0_1023),
    StableHlo.TRef.unary main_call8.v13 main_call8.call3.v0 (Host.reverse [1]),
    StableHlo.TRef.binary main_call8.v11 main_call8.call3.v0 main_call8.v15 (fun a b => concatenate S1026x1026 1 [⟨S1026x1025, a⟩, ⟨S1026x1, b⟩] concatenates_S1026x1025_S1026x1_S1026x1026_d1) ]

/-- Stage 18 (56 operations): up to the operation that writes main_v223. -/
abbrev stage18 : List (HloOp τ sig (Elt F)) :=
  [ StableHlo.nullary main_cst_29 (constant S_ .f32 0x00000000#32),
    StableHlo.unary main_cst_29 main_v169 (broadcastInDim S1024x1024 ![] bcast_S_S1024x1024 : (⟨S_, .f32⟩ : BufTy).Contents (Elt F) → (⟨S1024x1024, .f32⟩ : BufTy).Contents (Elt F)),
    StableHlo.unary main_cst main_v170 ((extractStridedSlice S1x1 ![0, 0] · slices_S3x3_S1x1_0_0) : (⟨S3x3, .f32⟩ : BufTy).Contents (Elt F) → (⟨S1x1, .f32⟩ : BufTy).Contents (Elt F)),
    StableHlo.reshape main_v170 main_v171 rfl shapeCasts_S1x1_S_,
    StableHlo.unary main_v168 main_v172 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v171 main_v173 (broadcastInDim S1024x1024 ![] bcast_S_S1024x1024 : (⟨S_, .f32⟩ : BufTy).Contents (Elt F) → (⟨S1024x1024, .f32⟩ : BufTy).Contents (Elt F)),
    StableHlo.binary main_v173 main_v172 main_v174 (mulf : (⟨S1024x1024, .f32⟩ : BufTy).Contents (Elt F) → (⟨S1024x1024, .f32⟩ : BufTy).Contents (Elt F) → (⟨S1024x1024, .f32⟩ : BufTy).Contents (Elt F)),
    StableHlo.binary main_v169 main_v174 main_v175 (addf : (⟨S1024x1024, .f32⟩ : BufTy).Contents (Elt F) → (⟨S1024x1024, .f32⟩ : BufTy).Contents (Elt F) → (⟨S1024x1024, .f32⟩ : BufTy).Contents (Elt F)),
    StableHlo.unary main_cst main_v176 ((extractStridedSlice S1x1 ![0, 1] · slices_S3x3_S1x1_0_1) : (⟨S3x3, .f32⟩ : BufTy).Contents (Elt F) → (⟨S1x1, .f32⟩ : BufTy).Contents (Elt F)),
    StableHlo.reshape main_v176 main_v177 rfl shapeCasts_S1x1_S_,
    StableHlo.unary main_v168 main_v178 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v177 main_v179 (broadcastInDim S1024x1024 ![] bcast_S_S1024x1024 : (⟨S_, .f32⟩ : BufTy).Contents (Elt F) → (⟨S1024x1024, .f32⟩ : BufTy).Contents (Elt F)),
    StableHlo.binary main_v179 main_v178 main_v180 (mulf : (⟨S1024x1024, .f32⟩ : BufTy).Contents (Elt F) → (⟨S1024x1024, .f32⟩ : BufTy).Contents (Elt F) → (⟨S1024x1024, .f32⟩ : BufTy).Contents (Elt F)),
    StableHlo.binary main_v175 main_v180 main_v181 (addf : (⟨S1024x1024, .f32⟩ : BufTy).Contents (Elt F) → (⟨S1024x1024, .f32⟩ : BufTy).Contents (Elt F) → (⟨S1024x1024, .f32⟩ : BufTy).Contents (Elt F)),
    StableHlo.unary main_cst main_v182 ((extractStridedSlice S1x1 ![0, 2] · slices_S3x3_S1x1_0_2) : (⟨S3x3, .f32⟩ : BufTy).Contents (Elt F) → (⟨S1x1, .f32⟩ : BufTy).Contents (Elt F)),
    StableHlo.reshape main_v182 main_v183 rfl shapeCasts_S1x1_S_,
    StableHlo.unary main_v168 main_v184 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v183 main_v185 (broadcastInDim S1024x1024 ![] bcast_S_S1024x1024 : (⟨S_, .f32⟩ : BufTy).Contents (Elt F) → (⟨S1024x1024, .f32⟩ : BufTy).Contents (Elt F)),
    StableHlo.binary main_v185 main_v184 main_v186 (mulf : (⟨S1024x1024, .f32⟩ : BufTy).Contents (Elt F) → (⟨S1024x1024, .f32⟩ : BufTy).Contents (Elt F) → (⟨S1024x1024, .f32⟩ : BufTy).Contents (Elt F)),
    StableHlo.binary main_v181 main_v186 main_v187 (addf : (⟨S1024x1024, .f32⟩ : BufTy).Contents (Elt F) → (⟨S1024x1024, .f32⟩ : BufTy).Contents (Elt F) → (⟨S1024x1024, .f32⟩ : BufTy).Contents (Elt F)),
    StableHlo.unary main_cst main_v188 ((extractStridedSlice S1x1 ![1, 0] · slices_S3x3_S1x1_1_0) : (⟨S3x3, .f32⟩ : BufTy).Contents (Elt F) → (⟨S1x1, .f32⟩ : BufTy).Contents (Elt F)),
    StableHlo.reshape main_v188 main_v189 rfl shapeCasts_S1x1_S_,
    StableHlo.unary main_v168 main_v190 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v189 main_v191 (broadcastInDim S1024x1024 ![] bcast_S_S1024x1024 : (⟨S_, .f32⟩ : BufTy).Contents (Elt F) → (⟨S1024x1024, .f32⟩ : BufTy).Contents (Elt F)),
    StableHlo.binary main_v191 main_v190 main_v192 (mulf : (⟨S1024x1024, .f32⟩ : BufTy).Contents (Elt F) → (⟨S1024x1024, .f32⟩ : BufTy).Contents (Elt F) → (⟨S1024x1024, .f32⟩ : BufTy).Contents (Elt F)),
    StableHlo.binary main_v187 main_v192 main_v193 (addf : (⟨S1024x1024, .f32⟩ : BufTy).Contents (Elt F) → (⟨S1024x1024, .f32⟩ : BufTy).Contents (Elt F) → (⟨S1024x1024, .f32⟩ : BufTy).Contents (Elt F)),
    StableHlo.unary main_cst main_v194 ((extractStridedSlice S1x1 ![1, 1] · slices_S3x3_S1x1_1_1) : (⟨S3x3, .f32⟩ : BufTy).Contents (Elt F) → (⟨S1x1, .f32⟩ : BufTy).Contents (Elt F)),
    StableHlo.reshape main_v194 main_v195 rfl shapeCasts_S1x1_S_,
    StableHlo.unary main_v168 main_v196 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v195 main_v197 (broadcastInDim S1024x1024 ![] bcast_S_S1024x1024 : (⟨S_, .f32⟩ : BufTy).Contents (Elt F) → (⟨S1024x1024, .f32⟩ : BufTy).Contents (Elt F)),
    StableHlo.binary main_v197 main_v196 main_v198 (mulf : (⟨S1024x1024, .f32⟩ : BufTy).Contents (Elt F) → (⟨S1024x1024, .f32⟩ : BufTy).Contents (Elt F) → (⟨S1024x1024, .f32⟩ : BufTy).Contents (Elt F)),
    StableHlo.binary main_v193 main_v198 main_v199 (addf : (⟨S1024x1024, .f32⟩ : BufTy).Contents (Elt F) → (⟨S1024x1024, .f32⟩ : BufTy).Contents (Elt F) → (⟨S1024x1024, .f32⟩ : BufTy).Contents (Elt F)),
    StableHlo.unary main_cst main_v200 ((extractStridedSlice S1x1 ![1, 2] · slices_S3x3_S1x1_1_2) : (⟨S3x3, .f32⟩ : BufTy).Contents (Elt F) → (⟨S1x1, .f32⟩ : BufTy).Contents (Elt F)),
    StableHlo.reshape main_v200 main_v201 rfl shapeCasts_S1x1_S_,
    StableHlo.unary main_v168 main_v202 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v201 main_v203 (broadcastInDim S1024x1024 ![] bcast_S_S1024x1024 : (⟨S_, .f32⟩ : BufTy).Contents (Elt F) → (⟨S1024x1024, .f32⟩ : BufTy).Contents (Elt F)),
    StableHlo.binary main_v203 main_v202 main_v204 (mulf : (⟨S1024x1024, .f32⟩ : BufTy).Contents (Elt F) → (⟨S1024x1024, .f32⟩ : BufTy).Contents (Elt F) → (⟨S1024x1024, .f32⟩ : BufTy).Contents (Elt F)),
    StableHlo.binary main_v199 main_v204 main_v205 (addf : (⟨S1024x1024, .f32⟩ : BufTy).Contents (Elt F) → (⟨S1024x1024, .f32⟩ : BufTy).Contents (Elt F) → (⟨S1024x1024, .f32⟩ : BufTy).Contents (Elt F)),
    StableHlo.unary main_cst main_v206 ((extractStridedSlice S1x1 ![2, 0] · slices_S3x3_S1x1_2_0) : (⟨S3x3, .f32⟩ : BufTy).Contents (Elt F) → (⟨S1x1, .f32⟩ : BufTy).Contents (Elt F)),
    StableHlo.reshape main_v206 main_v207 rfl shapeCasts_S1x1_S_,
    StableHlo.unary main_v168 main_v208 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v207 main_v209 (broadcastInDim S1024x1024 ![] bcast_S_S1024x1024 : (⟨S_, .f32⟩ : BufTy).Contents (Elt F) → (⟨S1024x1024, .f32⟩ : BufTy).Contents (Elt F)),
    StableHlo.binary main_v209 main_v208 main_v210 (mulf : (⟨S1024x1024, .f32⟩ : BufTy).Contents (Elt F) → (⟨S1024x1024, .f32⟩ : BufTy).Contents (Elt F) → (⟨S1024x1024, .f32⟩ : BufTy).Contents (Elt F)),
    StableHlo.binary main_v205 main_v210 main_v211 (addf : (⟨S1024x1024, .f32⟩ : BufTy).Contents (Elt F) → (⟨S1024x1024, .f32⟩ : BufTy).Contents (Elt F) → (⟨S1024x1024, .f32⟩ : BufTy).Contents (Elt F)),
    StableHlo.unary main_cst main_v212 ((extractStridedSlice S1x1 ![2, 1] · slices_S3x3_S1x1_2_1) : (⟨S3x3, .f32⟩ : BufTy).Contents (Elt F) → (⟨S1x1, .f32⟩ : BufTy).Contents (Elt F)),
    StableHlo.reshape main_v212 main_v213 rfl shapeCasts_S1x1_S_,
    StableHlo.unary main_v168 main_v214 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v213 main_v215 (broadcastInDim S1024x1024 ![] bcast_S_S1024x1024 : (⟨S_, .f32⟩ : BufTy).Contents (Elt F) → (⟨S1024x1024, .f32⟩ : BufTy).Contents (Elt F)),
    StableHlo.binary main_v215 main_v214 main_v216 (mulf : (⟨S1024x1024, .f32⟩ : BufTy).Contents (Elt F) → (⟨S1024x1024, .f32⟩ : BufTy).Contents (Elt F) → (⟨S1024x1024, .f32⟩ : BufTy).Contents (Elt F)),
    StableHlo.binary main_v211 main_v216 main_v217 (addf : (⟨S1024x1024, .f32⟩ : BufTy).Contents (Elt F) → (⟨S1024x1024, .f32⟩ : BufTy).Contents (Elt F) → (⟨S1024x1024, .f32⟩ : BufTy).Contents (Elt F)),
    StableHlo.unary main_cst main_v218 ((extractStridedSlice S1x1 ![2, 2] · slices_S3x3_S1x1_2_2) : (⟨S3x3, .f32⟩ : BufTy).Contents (Elt F) → (⟨S1x1, .f32⟩ : BufTy).Contents (Elt F)),
    StableHlo.reshape main_v218 main_v219 rfl shapeCasts_S1x1_S_,
    StableHlo.unary main_v168 main_v220 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v219 main_v221 (broadcastInDim S1024x1024 ![] bcast_S_S1024x1024 : (⟨S_, .f32⟩ : BufTy).Contents (Elt F) → (⟨S1024x1024, .f32⟩ : BufTy).Contents (Elt F)),
    StableHlo.binary main_v221 main_v220 main_v222 (mulf : (⟨S1024x1024, .f32⟩ : BufTy).Contents (Elt F) → (⟨S1024x1024, .f32⟩ : BufTy).Contents (Elt F) → (⟨S1024x1024, .f32⟩ : BufTy).Contents (Elt F)),
    StableHlo.binary main_v217 main_v222 main_v223 (addf : (⟨S1024x1024, .f32⟩ : BufTy).Contents (Elt F) → (⟨S1024x1024, .f32⟩ : BufTy).Contents (Elt F) → (⟨S1024x1024, .f32⟩ : BufTy).Contents (Elt F)) ]

/-- Stage 19 (1 operations): up to the operation that writes main_c_30. -/
abbrev stage19 : List (HloOp τ sig (Elt F)) :=
  [ StableHlo.nullary main_c_30 (constantI S_ 32 0#32) ]

/-- Stage 20 (16 operations): up to the operation that writes main_call9.v15. -/
abbrev stage20 : List (HloOp τ sig (Elt F)) :=
  [ StableHlo.TRef.unary ((.of main_v223) : StableHlo.TRef sig ⟨S1024x1024, .f32⟩) main_call9.v0 (extractStridedSlice S1x1024 ![0, 0] · slices_S1024x1024_S1x1024_0_0),
    StableHlo.TRef.unary ((.of main_v223) : StableHlo.TRef sig ⟨S1024x1024, .f32⟩) main_call9.v1 (extractStridedSlice S1x1024 ![1, 0] · slices_S1024x1024_S1x1024_1_0),
    StableHlo.TRef.unary main_call9.v1 main_call9.call0.v0 (Host.reverse [0]),
    StableHlo.TRef.binary main_call9.call0.v0 ((.of main_v223) : StableHlo.TRef sig ⟨S1024x1024, .f32⟩) main_call9.v3 (fun a b => concatenate S1025x1024 0 [⟨S1x1024, a⟩, ⟨S1024x1024, b⟩] concatenates_S1x1024_S1024x1024_S1025x1024_d0),
    StableHlo.TRef.unary main_call9.v3 main_call9.v4 (extractStridedSlice S1x1024 ![1024, 0] · slices_S1025x1024_S1x1024_1024_0),
    StableHlo.TRef.unary main_call9.v3 main_call9.v5 (extractStridedSlice S1x1024 ![1023, 0] · slices_S1025x1024_S1x1024_1023_0),
    StableHlo.TRef.unary main_call9.v5 main_call9.call1.v0 (Host.reverse [0]),
    StableHlo.TRef.binary main_call9.v3 main_call9.call1.v0 main_call9.v7 (fun a b => concatenate S1026x1024 0 [⟨S1025x1024, a⟩, ⟨S1x1024, b⟩] concatenates_S1025x1024_S1x1024_S1026x1024_d0),
    StableHlo.TRef.unary main_call9.v7 main_call9.v8 (extractStridedSlice S1026x1 ![0, 0] · slices_S1026x1024_S1026x1_0_0),
    StableHlo.TRef.unary main_call9.v7 main_call9.v9 (extractStridedSlice S1026x1 ![0, 1] · slices_S1026x1024_S1026x1_0_1),
    StableHlo.TRef.unary main_call9.v9 main_call9.call2.v0 (Host.reverse [1]),
    StableHlo.TRef.binary main_call9.call2.v0 main_call9.v7 main_call9.v11 (fun a b => concatenate S1026x1025 1 [⟨S1026x1, a⟩, ⟨S1026x1024, b⟩] concatenates_S1026x1_S1026x1024_S1026x1025_d1),
    StableHlo.TRef.unary main_call9.v11 main_call9.v12 (extractStridedSlice S1026x1 ![0, 1024] · slices_S1026x1025_S1026x1_0_1024),
    StableHlo.TRef.unary main_call9.v11 main_call9.v13 (extractStridedSlice S1026x1 ![0, 1023] · slices_S1026x1025_S1026x1_0_1023),
    StableHlo.TRef.unary main_call9.v13 main_call9.call3.v0 (Host.reverse [1]),
    StableHlo.TRef.binary main_call9.v11 main_call9.call3.v0 main_call9.v15 (fun a b => concatenate S1026x1026 1 [⟨S1026x1025, a⟩, ⟨S1026x1, b⟩] concatenates_S1026x1025_S1026x1_S1026x1026_d1) ]

/-- Stage 21 (56 operations): up to the operation that writes main_v279. -/
abbrev stage21 : List (HloOp τ sig (Elt F)) :=
  [ StableHlo.nullary main_cst_31 (constant S_ .f32 0x00000000#32),
    StableHlo.unary main_cst_31 main_v225 (broadcastInDim S1024x1024 ![] bcast_S_S1024x1024 : (⟨S_, .f32⟩ : BufTy).Contents (Elt F) → (⟨S1024x1024, .f32⟩ : BufTy).Contents (Elt F)),
    StableHlo.unary main_cst_0 main_v226 ((extractStridedSlice S1x1 ![0, 0] · slices_S3x3_S1x1_0_0) : (⟨S3x3, .f32⟩ : BufTy).Contents (Elt F) → (⟨S1x1, .f32⟩ : BufTy).Contents (Elt F)),
    StableHlo.reshape main_v226 main_v227 rfl shapeCasts_S1x1_S_,
    StableHlo.unary main_v224 main_v228 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v227 main_v229 (broadcastInDim S1024x1024 ![] bcast_S_S1024x1024 : (⟨S_, .f32⟩ : BufTy).Contents (Elt F) → (⟨S1024x1024, .f32⟩ : BufTy).Contents (Elt F)),
    StableHlo.binary main_v229 main_v228 main_v230 (mulf : (⟨S1024x1024, .f32⟩ : BufTy).Contents (Elt F) → (⟨S1024x1024, .f32⟩ : BufTy).Contents (Elt F) → (⟨S1024x1024, .f32⟩ : BufTy).Contents (Elt F)),
    StableHlo.binary main_v225 main_v230 main_v231 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v232 ((extractStridedSlice S1x1 ![0, 1] · slices_S3x3_S1x1_0_1) : (⟨S3x3, .f32⟩ : BufTy).Contents (Elt F) → (⟨S1x1, .f32⟩ : BufTy).Contents (Elt F)),
    StableHlo.reshape main_v232 main_v233 rfl shapeCasts_S1x1_S_,
    StableHlo.unary main_v224 main_v234 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v233 main_v235 (broadcastInDim S1024x1024 ![] bcast_S_S1024x1024 : (⟨S_, .f32⟩ : BufTy).Contents (Elt F) → (⟨S1024x1024, .f32⟩ : BufTy).Contents (Elt F)),
    StableHlo.binary main_v235 main_v234 main_v236 (mulf : (⟨S1024x1024, .f32⟩ : BufTy).Contents (Elt F) → (⟨S1024x1024, .f32⟩ : BufTy).Contents (Elt F) → (⟨S1024x1024, .f32⟩ : BufTy).Contents (Elt F)),
    StableHlo.binary main_v231 main_v236 main_v237 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v238 ((extractStridedSlice S1x1 ![0, 2] · slices_S3x3_S1x1_0_2) : (⟨S3x3, .f32⟩ : BufTy).Contents (Elt F) → (⟨S1x1, .f32⟩ : BufTy).Contents (Elt F)),
    StableHlo.reshape main_v238 main_v239 rfl shapeCasts_S1x1_S_,
    StableHlo.unary main_v224 main_v240 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v239 main_v241 (broadcastInDim S1024x1024 ![] bcast_S_S1024x1024 : (⟨S_, .f32⟩ : BufTy).Contents (Elt F) → (⟨S1024x1024, .f32⟩ : BufTy).Contents (Elt F)),
    StableHlo.binary main_v241 main_v240 main_v242 (mulf : (⟨S1024x1024, .f32⟩ : BufTy).Contents (Elt F) → (⟨S1024x1024, .f32⟩ : BufTy).Contents (Elt F) → (⟨S1024x1024, .f32⟩ : BufTy).Contents (Elt F)),
    StableHlo.binary main_v237 main_v242 main_v243 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v244 ((extractStridedSlice S1x1 ![1, 0] · slices_S3x3_S1x1_1_0) : (⟨S3x3, .f32⟩ : BufTy).Contents (Elt F) → (⟨S1x1, .f32⟩ : BufTy).Contents (Elt F)),
    StableHlo.reshape main_v244 main_v245 rfl shapeCasts_S1x1_S_,
    StableHlo.unary main_v224 main_v246 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v245 main_v247 (broadcastInDim S1024x1024 ![] bcast_S_S1024x1024 : (⟨S_, .f32⟩ : BufTy).Contents (Elt F) → (⟨S1024x1024, .f32⟩ : BufTy).Contents (Elt F)),
    StableHlo.binary main_v247 main_v246 main_v248 (mulf : (⟨S1024x1024, .f32⟩ : BufTy).Contents (Elt F) → (⟨S1024x1024, .f32⟩ : BufTy).Contents (Elt F) → (⟨S1024x1024, .f32⟩ : BufTy).Contents (Elt F)),
    StableHlo.binary main_v243 main_v248 main_v249 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v250 ((extractStridedSlice S1x1 ![1, 1] · slices_S3x3_S1x1_1_1) : (⟨S3x3, .f32⟩ : BufTy).Contents (Elt F) → (⟨S1x1, .f32⟩ : BufTy).Contents (Elt F)),
    StableHlo.reshape main_v250 main_v251 rfl shapeCasts_S1x1_S_,
    StableHlo.unary main_v224 main_v252 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v251 main_v253 (broadcastInDim S1024x1024 ![] bcast_S_S1024x1024 : (⟨S_, .f32⟩ : BufTy).Contents (Elt F) → (⟨S1024x1024, .f32⟩ : BufTy).Contents (Elt F)),
    StableHlo.binary main_v253 main_v252 main_v254 (mulf : (⟨S1024x1024, .f32⟩ : BufTy).Contents (Elt F) → (⟨S1024x1024, .f32⟩ : BufTy).Contents (Elt F) → (⟨S1024x1024, .f32⟩ : BufTy).Contents (Elt F)),
    StableHlo.binary main_v249 main_v254 main_v255 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v256 ((extractStridedSlice S1x1 ![1, 2] · slices_S3x3_S1x1_1_2) : (⟨S3x3, .f32⟩ : BufTy).Contents (Elt F) → (⟨S1x1, .f32⟩ : BufTy).Contents (Elt F)),
    StableHlo.reshape main_v256 main_v257 rfl shapeCasts_S1x1_S_,
    StableHlo.unary main_v224 main_v258 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v257 main_v259 (broadcastInDim S1024x1024 ![] bcast_S_S1024x1024 : (⟨S_, .f32⟩ : BufTy).Contents (Elt F) → (⟨S1024x1024, .f32⟩ : BufTy).Contents (Elt F)),
    StableHlo.binary main_v259 main_v258 main_v260 (mulf : (⟨S1024x1024, .f32⟩ : BufTy).Contents (Elt F) → (⟨S1024x1024, .f32⟩ : BufTy).Contents (Elt F) → (⟨S1024x1024, .f32⟩ : BufTy).Contents (Elt F)),
    StableHlo.binary main_v255 main_v260 main_v261 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v262 ((extractStridedSlice S1x1 ![2, 0] · slices_S3x3_S1x1_2_0) : (⟨S3x3, .f32⟩ : BufTy).Contents (Elt F) → (⟨S1x1, .f32⟩ : BufTy).Contents (Elt F)),
    StableHlo.reshape main_v262 main_v263 rfl shapeCasts_S1x1_S_,
    StableHlo.unary main_v224 main_v264 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v263 main_v265 (broadcastInDim S1024x1024 ![] bcast_S_S1024x1024 : (⟨S_, .f32⟩ : BufTy).Contents (Elt F) → (⟨S1024x1024, .f32⟩ : BufTy).Contents (Elt F)),
    StableHlo.binary main_v265 main_v264 main_v266 (mulf : (⟨S1024x1024, .f32⟩ : BufTy).Contents (Elt F) → (⟨S1024x1024, .f32⟩ : BufTy).Contents (Elt F) → (⟨S1024x1024, .f32⟩ : BufTy).Contents (Elt F)),
    StableHlo.binary main_v261 main_v266 main_v267 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v268 ((extractStridedSlice S1x1 ![2, 1] · slices_S3x3_S1x1_2_1) : (⟨S3x3, .f32⟩ : BufTy).Contents (Elt F) → (⟨S1x1, .f32⟩ : BufTy).Contents (Elt F)),
    StableHlo.reshape main_v268 main_v269 rfl shapeCasts_S1x1_S_,
    StableHlo.unary main_v224 main_v270 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v269 main_v271 (broadcastInDim S1024x1024 ![] bcast_S_S1024x1024 : (⟨S_, .f32⟩ : BufTy).Contents (Elt F) → (⟨S1024x1024, .f32⟩ : BufTy).Contents (Elt F)),
    StableHlo.binary main_v271 main_v270 main_v272 (mulf : (⟨S1024x1024, .f32⟩ : BufTy).Contents (Elt F) → (⟨S1024x1024, .f32⟩ : BufTy).Contents (Elt F) → (⟨S1024x1024, .f32⟩ : BufTy).Contents (Elt F)),
    StableHlo.binary main_v267 main_v272 main_v273 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v274 ((extractStridedSlice S1x1 ![2, 2] · slices_S3x3_S1x1_2_2) : (⟨S3x3, .f32⟩ : BufTy).Contents (Elt F) → (⟨S1x1, .f32⟩ : BufTy).Contents (Elt F)),
    StableHlo.reshape main_v274 main_v275 rfl shapeCasts_S1x1_S_,
    StableHlo.unary main_v224 main_v276 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v275 main_v277 (broadcastInDim S1024x1024 ![] bcast_S_S1024x1024 : (⟨S_, .f32⟩ : BufTy).Contents (Elt F) → (⟨S1024x1024, .f32⟩ : BufTy).Contents (Elt F)),
    StableHlo.binary main_v277 main_v276 main_v278 (mulf : (⟨S1024x1024, .f32⟩ : BufTy).Contents (Elt F) → (⟨S1024x1024, .f32⟩ : BufTy).Contents (Elt F) → (⟨S1024x1024, .f32⟩ : BufTy).Contents (Elt F)),
    StableHlo.binary main_v273 main_v278 main_v279 (addf : (⟨S1024x1024, .f32⟩ : BufTy).Contents (Elt F) → (⟨S1024x1024, .f32⟩ : BufTy).Contents (Elt F) → (⟨S1024x1024, .f32⟩ : BufTy).Contents (Elt F)) ]

/-- Stage 22 (3 operations): up to the operation that writes main_c_32. -/
abbrev stage22 : List (HloOp τ sig (Elt F)) :=
  [ StableHlo.unary main_arg0 main_v280 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v280 main_v281 rfl shapeCasts_S1x1x1024x1024_S1024x1024,
    StableHlo.nullary main_c_32 (constantI S_ 32 0#32) ]

/-- Stage 23 (16 operations): up to the operation that writes main_call10.v15. -/
abbrev stage23 : List (HloOp τ sig (Elt F)) :=
  [ StableHlo.TRef.unary ((.of main_v281) : StableHlo.TRef sig ⟨S1024x1024, .f32⟩) main_call10.v0 (extractStridedSlice S1x1024 ![0, 0] · slices_S1024x1024_S1x1024_0_0),
    StableHlo.TRef.unary ((.of main_v281) : StableHlo.TRef sig ⟨S1024x1024, .f32⟩) main_call10.v1 (extractStridedSlice S1x1024 ![1, 0] · slices_S1024x1024_S1x1024_1_0),
    StableHlo.TRef.unary main_call10.v1 main_call10.call0.v0 (Host.reverse [0]),
    StableHlo.TRef.binary main_call10.call0.v0 ((.of main_v281) : StableHlo.TRef sig ⟨S1024x1024, .f32⟩) main_call10.v3 (fun a b => concatenate S1025x1024 0 [⟨S1x1024, a⟩, ⟨S1024x1024, b⟩] concatenates_S1x1024_S1024x1024_S1025x1024_d0),
    StableHlo.TRef.unary main_call10.v3 main_call10.v4 (extractStridedSlice S1x1024 ![1024, 0] · slices_S1025x1024_S1x1024_1024_0),
    StableHlo.TRef.unary main_call10.v3 main_call10.v5 (extractStridedSlice S1x1024 ![1023, 0] · slices_S1025x1024_S1x1024_1023_0),
    StableHlo.TRef.unary main_call10.v5 main_call10.call1.v0 (Host.reverse [0]),
    StableHlo.TRef.binary main_call10.v3 main_call10.call1.v0 main_call10.v7 (fun a b => concatenate S1026x1024 0 [⟨S1025x1024, a⟩, ⟨S1x1024, b⟩] concatenates_S1025x1024_S1x1024_S1026x1024_d0),
    StableHlo.TRef.unary main_call10.v7 main_call10.v8 (extractStridedSlice S1026x1 ![0, 0] · slices_S1026x1024_S1026x1_0_0),
    StableHlo.TRef.unary main_call10.v7 main_call10.v9 (extractStridedSlice S1026x1 ![0, 1] · slices_S1026x1024_S1026x1_0_1),
    StableHlo.TRef.unary main_call10.v9 main_call10.call2.v0 (Host.reverse [1]),
    StableHlo.TRef.binary main_call10.call2.v0 main_call10.v7 main_call10.v11 (fun a b => concatenate S1026x1025 1 [⟨S1026x1, a⟩, ⟨S1026x1024, b⟩] concatenates_S1026x1_S1026x1024_S1026x1025_d1),
    StableHlo.TRef.unary main_call10.v11 main_call10.v12 (extractStridedSlice S1026x1 ![0, 1024] · slices_S1026x1025_S1026x1_0_1024),
    StableHlo.TRef.unary main_call10.v11 main_call10.v13 (extractStridedSlice S1026x1 ![0, 1023] · slices_S1026x1025_S1026x1_0_1023),
    StableHlo.TRef.unary main_call10.v13 main_call10.call3.v0 (Host.reverse [1]),
    StableHlo.TRef.binary main_call10.v11 main_call10.call3.v0 main_call10.v15 (fun a b => concatenate S1026x1026 1 [⟨S1026x1025, a⟩, ⟨S1026x1, b⟩] concatenates_S1026x1025_S1026x1_S1026x1026_d1) ]

/-- Stage 24 (56 operations): up to the operation that writes main_v337. -/
abbrev stage24 : List (HloOp τ sig (Elt F)) :=
  [ StableHlo.nullary main_cst_33 (constant S_ .f32 0x00000000#32),
    StableHlo.unary main_cst_33 main_v283 (broadcastInDim S1024x1024 ![] bcast_S_S1024x1024 : (⟨S_, .f32⟩ : BufTy).Contents (Elt F) → (⟨S1024x1024, .f32⟩ : BufTy).Contents (Elt F)),
    StableHlo.unary main_cst main_v284 ((extractStridedSlice S1x1 ![0, 0] · slices_S3x3_S1x1_0_0) : (⟨S3x3, .f32⟩ : BufTy).Contents (Elt F) → (⟨S1x1, .f32⟩ : BufTy).Contents (Elt F)),
    StableHlo.reshape main_v284 main_v285 rfl shapeCasts_S1x1_S_,
    StableHlo.unary main_v282 main_v286 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v285 main_v287 (broadcastInDim S1024x1024 ![] bcast_S_S1024x1024 : (⟨S_, .f32⟩ : BufTy).Contents (Elt F) → (⟨S1024x1024, .f32⟩ : BufTy).Contents (Elt F)),
    StableHlo.binary main_v287 main_v286 main_v288 (mulf : (⟨S1024x1024, .f32⟩ : BufTy).Contents (Elt F) → (⟨S1024x1024, .f32⟩ : BufTy).Contents (Elt F) → (⟨S1024x1024, .f32⟩ : BufTy).Contents (Elt F)),
    StableHlo.binary main_v283 main_v288 main_v289 (addf : (⟨S1024x1024, .f32⟩ : BufTy).Contents (Elt F) → (⟨S1024x1024, .f32⟩ : BufTy).Contents (Elt F) → (⟨S1024x1024, .f32⟩ : BufTy).Contents (Elt F)),
    StableHlo.unary main_cst main_v290 ((extractStridedSlice S1x1 ![0, 1] · slices_S3x3_S1x1_0_1) : (⟨S3x3, .f32⟩ : BufTy).Contents (Elt F) → (⟨S1x1, .f32⟩ : BufTy).Contents (Elt F)),
    StableHlo.reshape main_v290 main_v291 rfl shapeCasts_S1x1_S_,
    StableHlo.unary main_v282 main_v292 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v291 main_v293 (broadcastInDim S1024x1024 ![] bcast_S_S1024x1024 : (⟨S_, .f32⟩ : BufTy).Contents (Elt F) → (⟨S1024x1024, .f32⟩ : BufTy).Contents (Elt F)),
    StableHlo.binary main_v293 main_v292 main_v294 (mulf : (⟨S1024x1024, .f32⟩ : BufTy).Contents (Elt F) → (⟨S1024x1024, .f32⟩ : BufTy).Contents (Elt F) → (⟨S1024x1024, .f32⟩ : BufTy).Contents (Elt F)),
    StableHlo.binary main_v289 main_v294 main_v295 (addf : (⟨S1024x1024, .f32⟩ : BufTy).Contents (Elt F) → (⟨S1024x1024, .f32⟩ : BufTy).Contents (Elt F) → (⟨S1024x1024, .f32⟩ : BufTy).Contents (Elt F)),
    StableHlo.unary main_cst main_v296 ((extractStridedSlice S1x1 ![0, 2] · slices_S3x3_S1x1_0_2) : (⟨S3x3, .f32⟩ : BufTy).Contents (Elt F) → (⟨S1x1, .f32⟩ : BufTy).Contents (Elt F)),
    StableHlo.reshape main_v296 main_v297 rfl shapeCasts_S1x1_S_,
    StableHlo.unary main_v282 main_v298 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v297 main_v299 (broadcastInDim S1024x1024 ![] bcast_S_S1024x1024 : (⟨S_, .f32⟩ : BufTy).Contents (Elt F) → (⟨S1024x1024, .f32⟩ : BufTy).Contents (Elt F)),
    StableHlo.binary main_v299 main_v298 main_v300 (mulf : (⟨S1024x1024, .f32⟩ : BufTy).Contents (Elt F) → (⟨S1024x1024, .f32⟩ : BufTy).Contents (Elt F) → (⟨S1024x1024, .f32⟩ : BufTy).Contents (Elt F)),
    StableHlo.binary main_v295 main_v300 main_v301 (addf : (⟨S1024x1024, .f32⟩ : BufTy).Contents (Elt F) → (⟨S1024x1024, .f32⟩ : BufTy).Contents (Elt F) → (⟨S1024x1024, .f32⟩ : BufTy).Contents (Elt F)),
    StableHlo.unary main_cst main_v302 ((extractStridedSlice S1x1 ![1, 0] · slices_S3x3_S1x1_1_0) : (⟨S3x3, .f32⟩ : BufTy).Contents (Elt F) → (⟨S1x1, .f32⟩ : BufTy).Contents (Elt F)),
    StableHlo.reshape main_v302 main_v303 rfl shapeCasts_S1x1_S_,
    StableHlo.unary main_v282 main_v304 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v303 main_v305 (broadcastInDim S1024x1024 ![] bcast_S_S1024x1024 : (⟨S_, .f32⟩ : BufTy).Contents (Elt F) → (⟨S1024x1024, .f32⟩ : BufTy).Contents (Elt F)),
    StableHlo.binary main_v305 main_v304 main_v306 (mulf : (⟨S1024x1024, .f32⟩ : BufTy).Contents (Elt F) → (⟨S1024x1024, .f32⟩ : BufTy).Contents (Elt F) → (⟨S1024x1024, .f32⟩ : BufTy).Contents (Elt F)),
    StableHlo.binary main_v301 main_v306 main_v307 (addf : (⟨S1024x1024, .f32⟩ : BufTy).Contents (Elt F) → (⟨S1024x1024, .f32⟩ : BufTy).Contents (Elt F) → (⟨S1024x1024, .f32⟩ : BufTy).Contents (Elt F)),
    StableHlo.unary main_cst main_v308 ((extractStridedSlice S1x1 ![1, 1] · slices_S3x3_S1x1_1_1) : (⟨S3x3, .f32⟩ : BufTy).Contents (Elt F) → (⟨S1x1, .f32⟩ : BufTy).Contents (Elt F)),
    StableHlo.reshape main_v308 main_v309 rfl shapeCasts_S1x1_S_,
    StableHlo.unary main_v282 main_v310 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v309 main_v311 (broadcastInDim S1024x1024 ![] bcast_S_S1024x1024 : (⟨S_, .f32⟩ : BufTy).Contents (Elt F) → (⟨S1024x1024, .f32⟩ : BufTy).Contents (Elt F)),
    StableHlo.binary main_v311 main_v310 main_v312 (mulf : (⟨S1024x1024, .f32⟩ : BufTy).Contents (Elt F) → (⟨S1024x1024, .f32⟩ : BufTy).Contents (Elt F) → (⟨S1024x1024, .f32⟩ : BufTy).Contents (Elt F)),
    StableHlo.binary main_v307 main_v312 main_v313 (addf : (⟨S1024x1024, .f32⟩ : BufTy).Contents (Elt F) → (⟨S1024x1024, .f32⟩ : BufTy).Contents (Elt F) → (⟨S1024x1024, .f32⟩ : BufTy).Contents (Elt F)),
    StableHlo.unary main_cst main_v314 ((extractStridedSlice S1x1 ![1, 2] · slices_S3x3_S1x1_1_2) : (⟨S3x3, .f32⟩ : BufTy).Contents (Elt F) → (⟨S1x1, .f32⟩ : BufTy).Contents (Elt F)),
    StableHlo.reshape main_v314 main_v315 rfl shapeCasts_S1x1_S_,
    StableHlo.unary main_v282 main_v316 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v315 main_v317 (broadcastInDim S1024x1024 ![] bcast_S_S1024x1024 : (⟨S_, .f32⟩ : BufTy).Contents (Elt F) → (⟨S1024x1024, .f32⟩ : BufTy).Contents (Elt F)),
    StableHlo.binary main_v317 main_v316 main_v318 (mulf : (⟨S1024x1024, .f32⟩ : BufTy).Contents (Elt F) → (⟨S1024x1024, .f32⟩ : BufTy).Contents (Elt F) → (⟨S1024x1024, .f32⟩ : BufTy).Contents (Elt F)),
    StableHlo.binary main_v313 main_v318 main_v319 (addf : (⟨S1024x1024, .f32⟩ : BufTy).Contents (Elt F) → (⟨S1024x1024, .f32⟩ : BufTy).Contents (Elt F) → (⟨S1024x1024, .f32⟩ : BufTy).Contents (Elt F)),
    StableHlo.unary main_cst main_v320 ((extractStridedSlice S1x1 ![2, 0] · slices_S3x3_S1x1_2_0) : (⟨S3x3, .f32⟩ : BufTy).Contents (Elt F) → (⟨S1x1, .f32⟩ : BufTy).Contents (Elt F)),
    StableHlo.reshape main_v320 main_v321 rfl shapeCasts_S1x1_S_,
    StableHlo.unary main_v282 main_v322 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v321 main_v323 (broadcastInDim S1024x1024 ![] bcast_S_S1024x1024 : (⟨S_, .f32⟩ : BufTy).Contents (Elt F) → (⟨S1024x1024, .f32⟩ : BufTy).Contents (Elt F)),
    StableHlo.binary main_v323 main_v322 main_v324 (mulf : (⟨S1024x1024, .f32⟩ : BufTy).Contents (Elt F) → (⟨S1024x1024, .f32⟩ : BufTy).Contents (Elt F) → (⟨S1024x1024, .f32⟩ : BufTy).Contents (Elt F)),
    StableHlo.binary main_v319 main_v324 main_v325 (addf : (⟨S1024x1024, .f32⟩ : BufTy).Contents (Elt F) → (⟨S1024x1024, .f32⟩ : BufTy).Contents (Elt F) → (⟨S1024x1024, .f32⟩ : BufTy).Contents (Elt F)),
    StableHlo.unary main_cst main_v326 ((extractStridedSlice S1x1 ![2, 1] · slices_S3x3_S1x1_2_1) : (⟨S3x3, .f32⟩ : BufTy).Contents (Elt F) → (⟨S1x1, .f32⟩ : BufTy).Contents (Elt F)),
    StableHlo.reshape main_v326 main_v327 rfl shapeCasts_S1x1_S_,
    StableHlo.unary main_v282 main_v328 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v327 main_v329 (broadcastInDim S1024x1024 ![] bcast_S_S1024x1024 : (⟨S_, .f32⟩ : BufTy).Contents (Elt F) → (⟨S1024x1024, .f32⟩ : BufTy).Contents (Elt F)),
    StableHlo.binary main_v329 main_v328 main_v330 (mulf : (⟨S1024x1024, .f32⟩ : BufTy).Contents (Elt F) → (⟨S1024x1024, .f32⟩ : BufTy).Contents (Elt F) → (⟨S1024x1024, .f32⟩ : BufTy).Contents (Elt F)),
    StableHlo.binary main_v325 main_v330 main_v331 (addf : (⟨S1024x1024, .f32⟩ : BufTy).Contents (Elt F) → (⟨S1024x1024, .f32⟩ : BufTy).Contents (Elt F) → (⟨S1024x1024, .f32⟩ : BufTy).Contents (Elt F)),
    StableHlo.unary main_cst main_v332 ((extractStridedSlice S1x1 ![2, 2] · slices_S3x3_S1x1_2_2) : (⟨S3x3, .f32⟩ : BufTy).Contents (Elt F) → (⟨S1x1, .f32⟩ : BufTy).Contents (Elt F)),
    StableHlo.reshape main_v332 main_v333 rfl shapeCasts_S1x1_S_,
    StableHlo.unary main_v282 main_v334 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v333 main_v335 (broadcastInDim S1024x1024 ![] bcast_S_S1024x1024 : (⟨S_, .f32⟩ : BufTy).Contents (Elt F) → (⟨S1024x1024, .f32⟩ : BufTy).Contents (Elt F)),
    StableHlo.binary main_v335 main_v334 main_v336 (mulf : (⟨S1024x1024, .f32⟩ : BufTy).Contents (Elt F) → (⟨S1024x1024, .f32⟩ : BufTy).Contents (Elt F) → (⟨S1024x1024, .f32⟩ : BufTy).Contents (Elt F)),
    StableHlo.binary main_v331 main_v336 main_v337 (addf : (⟨S1024x1024, .f32⟩ : BufTy).Contents (Elt F) → (⟨S1024x1024, .f32⟩ : BufTy).Contents (Elt F) → (⟨S1024x1024, .f32⟩ : BufTy).Contents (Elt F)) ]

/-- Stage 25 (1 operations): up to the operation that writes main_c_34. -/
abbrev stage25 : List (HloOp τ sig (Elt F)) :=
  [ StableHlo.nullary main_c_34 (constantI S_ 32 0#32) ]

/-- Stage 26 (16 operations): up to the operation that writes main_call11.v15. -/
abbrev stage26 : List (HloOp τ sig (Elt F)) :=
  [ StableHlo.TRef.unary ((.of main_v337) : StableHlo.TRef sig ⟨S1024x1024, .f32⟩) main_call11.v0 (extractStridedSlice S1x1024 ![0, 0] · slices_S1024x1024_S1x1024_0_0),
    StableHlo.TRef.unary ((.of main_v337) : StableHlo.TRef sig ⟨S1024x1024, .f32⟩) main_call11.v1 (extractStridedSlice S1x1024 ![1, 0] · slices_S1024x1024_S1x1024_1_0),
    StableHlo.TRef.unary main_call11.v1 main_call11.call0.v0 (Host.reverse [0]),
    StableHlo.TRef.binary main_call11.call0.v0 ((.of main_v337) : StableHlo.TRef sig ⟨S1024x1024, .f32⟩) main_call11.v3 (fun a b => concatenate S1025x1024 0 [⟨S1x1024, a⟩, ⟨S1024x1024, b⟩] concatenates_S1x1024_S1024x1024_S1025x1024_d0),
    StableHlo.TRef.unary main_call11.v3 main_call11.v4 (extractStridedSlice S1x1024 ![1024, 0] · slices_S1025x1024_S1x1024_1024_0),
    StableHlo.TRef.unary main_call11.v3 main_call11.v5 (extractStridedSlice S1x1024 ![1023, 0] · slices_S1025x1024_S1x1024_1023_0),
    StableHlo.TRef.unary main_call11.v5 main_call11.call1.v0 (Host.reverse [0]),
    StableHlo.TRef.binary main_call11.v3 main_call11.call1.v0 main_call11.v7 (fun a b => concatenate S1026x1024 0 [⟨S1025x1024, a⟩, ⟨S1x1024, b⟩] concatenates_S1025x1024_S1x1024_S1026x1024_d0),
    StableHlo.TRef.unary main_call11.v7 main_call11.v8 (extractStridedSlice S1026x1 ![0, 0] · slices_S1026x1024_S1026x1_0_0),
    StableHlo.TRef.unary main_call11.v7 main_call11.v9 (extractStridedSlice S1026x1 ![0, 1] · slices_S1026x1024_S1026x1_0_1),
    StableHlo.TRef.unary main_call11.v9 main_call11.call2.v0 (Host.reverse [1]),
    StableHlo.TRef.binary main_call11.call2.v0 main_call11.v7 main_call11.v11 (fun a b => concatenate S1026x1025 1 [⟨S1026x1, a⟩, ⟨S1026x1024, b⟩] concatenates_S1026x1_S1026x1024_S1026x1025_d1),
    StableHlo.TRef.unary main_call11.v11 main_call11.v12 (extractStridedSlice S1026x1 ![0, 1024] · slices_S1026x1025_S1026x1_0_1024),
    StableHlo.TRef.unary main_call11.v11 main_call11.v13 (extractStridedSlice S1026x1 ![0, 1023] · slices_S1026x1025_S1026x1_0_1023),
    StableHlo.TRef.unary main_call11.v13 main_call11.call3.v0 (Host.reverse [1]),
    StableHlo.TRef.binary main_call11.v11 main_call11.call3.v0 main_call11.v15 (fun a b => concatenate S1026x1026 1 [⟨S1026x1025, a⟩, ⟨S1026x1, b⟩] concatenates_S1026x1025_S1026x1_S1026x1026_d1) ]

/-- Stage 27 (56 operations): up to the operation that writes main_v393. -/
abbrev stage27 : List (HloOp τ sig (Elt F)) :=
  [ StableHlo.nullary main_cst_35 (constant S_ .f32 0x00000000#32),
    StableHlo.unary main_cst_35 main_v339 (broadcastInDim S1024x1024 ![] bcast_S_S1024x1024 : (⟨S_, .f32⟩ : BufTy).Contents (Elt F) → (⟨S1024x1024, .f32⟩ : BufTy).Contents (Elt F)),
    StableHlo.unary main_cst_0 main_v340 ((extractStridedSlice S1x1 ![0, 0] · slices_S3x3_S1x1_0_0) : (⟨S3x3, .f32⟩ : BufTy).Contents (Elt F) → (⟨S1x1, .f32⟩ : BufTy).Contents (Elt F)),
    StableHlo.reshape main_v340 main_v341 rfl shapeCasts_S1x1_S_,
    StableHlo.unary main_v338 main_v342 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v341 main_v343 (broadcastInDim S1024x1024 ![] bcast_S_S1024x1024 : (⟨S_, .f32⟩ : BufTy).Contents (Elt F) → (⟨S1024x1024, .f32⟩ : BufTy).Contents (Elt F)),
    StableHlo.binary main_v343 main_v342 main_v344 (mulf : (⟨S1024x1024, .f32⟩ : BufTy).Contents (Elt F) → (⟨S1024x1024, .f32⟩ : BufTy).Contents (Elt F) → (⟨S1024x1024, .f32⟩ : BufTy).Contents (Elt F)),
    StableHlo.binary main_v339 main_v344 main_v345 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v346 ((extractStridedSlice S1x1 ![0, 1] · slices_S3x3_S1x1_0_1) : (⟨S3x3, .f32⟩ : BufTy).Contents (Elt F) → (⟨S1x1, .f32⟩ : BufTy).Contents (Elt F)),
    StableHlo.reshape main_v346 main_v347 rfl shapeCasts_S1x1_S_,
    StableHlo.unary main_v338 main_v348 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v347 main_v349 (broadcastInDim S1024x1024 ![] bcast_S_S1024x1024 : (⟨S_, .f32⟩ : BufTy).Contents (Elt F) → (⟨S1024x1024, .f32⟩ : BufTy).Contents (Elt F)),
    StableHlo.binary main_v349 main_v348 main_v350 (mulf : (⟨S1024x1024, .f32⟩ : BufTy).Contents (Elt F) → (⟨S1024x1024, .f32⟩ : BufTy).Contents (Elt F) → (⟨S1024x1024, .f32⟩ : BufTy).Contents (Elt F)),
    StableHlo.binary main_v345 main_v350 main_v351 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v352 ((extractStridedSlice S1x1 ![0, 2] · slices_S3x3_S1x1_0_2) : (⟨S3x3, .f32⟩ : BufTy).Contents (Elt F) → (⟨S1x1, .f32⟩ : BufTy).Contents (Elt F)),
    StableHlo.reshape main_v352 main_v353 rfl shapeCasts_S1x1_S_,
    StableHlo.unary main_v338 main_v354 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v353 main_v355 (broadcastInDim S1024x1024 ![] bcast_S_S1024x1024 : (⟨S_, .f32⟩ : BufTy).Contents (Elt F) → (⟨S1024x1024, .f32⟩ : BufTy).Contents (Elt F)),
    StableHlo.binary main_v355 main_v354 main_v356 (mulf : (⟨S1024x1024, .f32⟩ : BufTy).Contents (Elt F) → (⟨S1024x1024, .f32⟩ : BufTy).Contents (Elt F) → (⟨S1024x1024, .f32⟩ : BufTy).Contents (Elt F)),
    StableHlo.binary main_v351 main_v356 main_v357 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v358 ((extractStridedSlice S1x1 ![1, 0] · slices_S3x3_S1x1_1_0) : (⟨S3x3, .f32⟩ : BufTy).Contents (Elt F) → (⟨S1x1, .f32⟩ : BufTy).Contents (Elt F)),
    StableHlo.reshape main_v358 main_v359 rfl shapeCasts_S1x1_S_,
    StableHlo.unary main_v338 main_v360 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v359 main_v361 (broadcastInDim S1024x1024 ![] bcast_S_S1024x1024 : (⟨S_, .f32⟩ : BufTy).Contents (Elt F) → (⟨S1024x1024, .f32⟩ : BufTy).Contents (Elt F)),
    StableHlo.binary main_v361 main_v360 main_v362 (mulf : (⟨S1024x1024, .f32⟩ : BufTy).Contents (Elt F) → (⟨S1024x1024, .f32⟩ : BufTy).Contents (Elt F) → (⟨S1024x1024, .f32⟩ : BufTy).Contents (Elt F)),
    StableHlo.binary main_v357 main_v362 main_v363 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v364 ((extractStridedSlice S1x1 ![1, 1] · slices_S3x3_S1x1_1_1) : (⟨S3x3, .f32⟩ : BufTy).Contents (Elt F) → (⟨S1x1, .f32⟩ : BufTy).Contents (Elt F)),
    StableHlo.reshape main_v364 main_v365 rfl shapeCasts_S1x1_S_,
    StableHlo.unary main_v338 main_v366 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v365 main_v367 (broadcastInDim S1024x1024 ![] bcast_S_S1024x1024 : (⟨S_, .f32⟩ : BufTy).Contents (Elt F) → (⟨S1024x1024, .f32⟩ : BufTy).Contents (Elt F)),
    StableHlo.binary main_v367 main_v366 main_v368 (mulf : (⟨S1024x1024, .f32⟩ : BufTy).Contents (Elt F) → (⟨S1024x1024, .f32⟩ : BufTy).Contents (Elt F) → (⟨S1024x1024, .f32⟩ : BufTy).Contents (Elt F)),
    StableHlo.binary main_v363 main_v368 main_v369 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v370 ((extractStridedSlice S1x1 ![1, 2] · slices_S3x3_S1x1_1_2) : (⟨S3x3, .f32⟩ : BufTy).Contents (Elt F) → (⟨S1x1, .f32⟩ : BufTy).Contents (Elt F)),
    StableHlo.reshape main_v370 main_v371 rfl shapeCasts_S1x1_S_,
    StableHlo.unary main_v338 main_v372 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v371 main_v373 (broadcastInDim S1024x1024 ![] bcast_S_S1024x1024 : (⟨S_, .f32⟩ : BufTy).Contents (Elt F) → (⟨S1024x1024, .f32⟩ : BufTy).Contents (Elt F)),
    StableHlo.binary main_v373 main_v372 main_v374 (mulf : (⟨S1024x1024, .f32⟩ : BufTy).Contents (Elt F) → (⟨S1024x1024, .f32⟩ : BufTy).Contents (Elt F) → (⟨S1024x1024, .f32⟩ : BufTy).Contents (Elt F)),
    StableHlo.binary main_v369 main_v374 main_v375 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v376 ((extractStridedSlice S1x1 ![2, 0] · slices_S3x3_S1x1_2_0) : (⟨S3x3, .f32⟩ : BufTy).Contents (Elt F) → (⟨S1x1, .f32⟩ : BufTy).Contents (Elt F)),
    StableHlo.reshape main_v376 main_v377 rfl shapeCasts_S1x1_S_,
    StableHlo.unary main_v338 main_v378 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v377 main_v379 (broadcastInDim S1024x1024 ![] bcast_S_S1024x1024 : (⟨S_, .f32⟩ : BufTy).Contents (Elt F) → (⟨S1024x1024, .f32⟩ : BufTy).Contents (Elt F)),
    StableHlo.binary main_v379 main_v378 main_v380 (mulf : (⟨S1024x1024, .f32⟩ : BufTy).Contents (Elt F) → (⟨S1024x1024, .f32⟩ : BufTy).Contents (Elt F) → (⟨S1024x1024, .f32⟩ : BufTy).Contents (Elt F)),
    StableHlo.binary main_v375 main_v380 main_v381 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v382 ((extractStridedSlice S1x1 ![2, 1] · slices_S3x3_S1x1_2_1) : (⟨S3x3, .f32⟩ : BufTy).Contents (Elt F) → (⟨S1x1, .f32⟩ : BufTy).Contents (Elt F)),
    StableHlo.reshape main_v382 main_v383 rfl shapeCasts_S1x1_S_,
    StableHlo.unary main_v338 main_v384 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v383 main_v385 (broadcastInDim S1024x1024 ![] bcast_S_S1024x1024 : (⟨S_, .f32⟩ : BufTy).Contents (Elt F) → (⟨S1024x1024, .f32⟩ : BufTy).Contents (Elt F)),
    StableHlo.binary main_v385 main_v384 main_v386 (mulf : (⟨S1024x1024, .f32⟩ : BufTy).Contents (Elt F) → (⟨S1024x1024, .f32⟩ : BufTy).Contents (Elt F) → (⟨S1024x1024, .f32⟩ : BufTy).Contents (Elt F)),
    StableHlo.binary main_v381 main_v386 main_v387 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v388 ((extractStridedSlice S1x1 ![2, 2] · slices_S3x3_S1x1_2_2) : (⟨S3x3, .f32⟩ : BufTy).Contents (Elt F) → (⟨S1x1, .f32⟩ : BufTy).Contents (Elt F)),
    StableHlo.reshape main_v388 main_v389 rfl shapeCasts_S1x1_S_,
    StableHlo.unary main_v338 main_v390 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v389 main_v391 (broadcastInDim S1024x1024 ![] bcast_S_S1024x1024 : (⟨S_, .f32⟩ : BufTy).Contents (Elt F) → (⟨S1024x1024, .f32⟩ : BufTy).Contents (Elt F)),
    StableHlo.binary main_v391 main_v390 main_v392 (mulf : (⟨S1024x1024, .f32⟩ : BufTy).Contents (Elt F) → (⟨S1024x1024, .f32⟩ : BufTy).Contents (Elt F) → (⟨S1024x1024, .f32⟩ : BufTy).Contents (Elt F)),
    StableHlo.binary main_v387 main_v392 main_v393 (addf : (⟨S1024x1024, .f32⟩ : BufTy).Contents (Elt F) → (⟨S1024x1024, .f32⟩ : BufTy).Contents (Elt F) → (⟨S1024x1024, .f32⟩ : BufTy).Contents (Elt F)) ]

/-- Stage 28 (16 operations): up to the operation that writes main_v407. -/
abbrev stage28 : List (HloOp τ sig (Elt F)) :=
  [ StableHlo.unary main_v279 main_v394 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v394 main_v395 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v109 main_v395 main_v396 (mulf : (⟨S8x1024x1024, .f32⟩ : BufTy).Contents (Elt F) → (⟨S8x1024x1024, .f32⟩ : BufTy).Contents (Elt F) → (⟨S8x1024x1024, .f32⟩ : BufTy).Contents (Elt F)),
    StableHlo.unary main_v393 main_v397 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v397 main_v398 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v165 main_v398 main_v399 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v396 main_v399 main_v400 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v400 main_v401 (Host.absf : (⟨S8x1024x1024, .f32⟩ : BufTy).Contents (Elt F) → (⟨S8x1024x1024, .f32⟩ : BufTy).Contents (Elt F)),
    StableHlo.nullary main_cst_36 (constant S_ .f32 0x00000000#32),
    StableHlo.binary main_v401 main_cst_36 main_v402 ((fun x v => Host.reduceAdd x v reducesTo_S8x1024x1024_S_d0_1_2 h_S_) : (⟨S8x1024x1024, .f32⟩ : BufTy).Contents (Elt F) → (⟨S_, .f32⟩ : BufTy).Contents (Elt F) → (⟨S_, .f32⟩ : BufTy).Contents (Elt F)),
    StableHlo.nullary main_cst_37 (constant S_ .f32 0x4B000000#32),
    StableHlo.binary main_v402 main_cst_37 main_v403 (Host.divf : (⟨S_, .f32⟩ : BufTy).Contents (Elt F) → (⟨S_, .f32⟩ : BufTy).Contents (Elt F) → (⟨S_, .f32⟩ : BufTy).Contents (Elt F)),
    StableHlo.binary main_v8 main_v23 main_v404 (addf : (⟨S_, .f32⟩ : BufTy).Contents (Elt F) → (⟨S_, .f32⟩ : BufTy).Contents (Elt F) → (⟨S_, .f32⟩ : BufTy).Contents (Elt F)),
    StableHlo.binary main_v404 main_v47 main_v405 (addf : (⟨S_, .f32⟩ : BufTy).Contents (Elt F) → (⟨S_, .f32⟩ : BufTy).Contents (Elt F) → (⟨S_, .f32⟩ : BufTy).Contents (Elt F)),
    StableHlo.binary main_v405 main_v19 main_v406 (addf : (⟨S_, .f32⟩ : BufTy).Contents (Elt F) → (⟨S_, .f32⟩ : BufTy).Contents (Elt F) → (⟨S_, .f32⟩ : BufTy).Contents (Elt F)),
    StableHlo.binary main_v406 main_v403 main_v407 (addf : (⟨S_, .f32⟩ : BufTy).Contents (Elt F) → (⟨S_, .f32⟩ : BufTy).Contents (Elt F) → (⟨S_, .f32⟩ : BufTy).Contents (Elt F)) ]

end Cert.ReferenceIdeal.Stages

end
-- ==== Proof.RefChain.lean ====
/-
  The reference's fold, stage by stage.  Running two lines of host operations one after the other is running
  their concatenation; the reference's 600 operations are the concatenation of 29 stages (each ends where one
  intermediate result is complete), so the buffers' contents at the end are reached through 29 intermediate
  contents `U1 … U29`, each the fold of one stage over the previous.
-/
import proofs.«123598_j69123203661888_2_alg».proof.Proof.RefRun
import proofs.«123598_j69123203661888_2_alg».proof.Proof.RefStages

noncomputable section

namespace Cert.ReferenceIdeal.Chain

open Idealize.ShloMosaic Idealize.SL.Sem Idealize.ShloMosaic.StableHlo Cert.ReferenceIdeal
open Cert.ReferenceIdeal.Table Cert.ReferenceIdeal.Stages Cert.ReferenceIdeal.HandRun

variable {F : FTy → Type} [FloatOps F] [Facts]
open Facts₀ Facts

/-- Two lines run one after the other leave what their concatenation leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations, window after window, are the stages, one after the other: the same 600 lines cut elsewhere. -/
theorem ops_eq_stages : (ops : List (HloOp τ sig (Elt F))) = stage0 ++ (stage1 ++ (stage2 ++ (stage3 ++ (stage4 ++ (stage5 ++ (stage6 ++ (stage7 ++ (stage8 ++ (stage9 ++ (stage10 ++ (stage11 ++ (stage12 ++ (stage13 ++ (stage14 ++ (stage15 ++ (stage16 ++ (stage17 ++ (stage18 ++ (stage19 ++ (stage20 ++ (stage21 ++ (stage22 ++ (stage23 ++ (stage24 ++ (stage25 ++ (stage26 ++ (stage27 ++ (stage28)))))))))))))))))))))))))))) := rfl

/-- The buffers' contents after stages 0 … 0. -/
abbrev U1 (V : Valuation τ sig (Elt F)) : Valuation τ sig (Elt F) := after stage0 (V)
/-- The buffers' contents after stages 0 … 1. -/
abbrev U2 (V : Valuation τ sig (Elt F)) : Valuation τ sig (Elt F) := after stage1 (U1 V)
/-- The buffers' contents after stages 0 … 2. -/
abbrev U3 (V : Valuation τ sig (Elt F)) : Valuation τ sig (Elt F) := after stage2 (U2 V)
/-- The buffers' contents after stages 0 … 3. -/
abbrev U4 (V : Valuation τ sig (Elt F)) : Valuation τ sig (Elt F) := after stage3 (U3 V)
/-- The buffers' contents after stages 0 … 4. -/
abbrev U5 (V : Valuation τ sig (Elt F)) : Valuation τ sig (Elt F) := after stage4 (U4 V)
/-- The buffers' contents after stages 0 … 5. -/
abbrev U6 (V : Valuation τ sig (Elt F)) : Valuation τ sig (Elt F) := after stage5 (U5 V)
/-- The buffers' contents after stages 0 … 6. -/
abbrev U7 (V : Valuation τ sig (Elt F)) : Valuation τ sig (Elt F) := after stage6 (U6 V)
/-- The buffers' contents after stages 0 … 7. -/
abbrev U8 (V : Valuation τ sig (Elt F)) : Valuation τ sig (Elt F) := after stage7 (U7 V)
/-- The buffers' contents after stages 0 … 8. -/
abbrev U9 (V : Valuation τ sig (Elt F)) : Valuation τ sig (Elt F) := after stage8 (U8 V)
/-- The buffers' contents after stages 0 … 9. -/
abbrev U10 (V : Valuation τ sig (Elt F)) : Valuation τ sig (Elt F) := after stage9 (U9 V)
/-- The buffers' contents after stages 0 … 10. -/
abbrev U11 (V : Valuation τ sig (Elt F)) : Valuation τ sig (Elt F) := after stage10 (U10 V)
/-- The buffers' contents after stages 0 … 11. -/
abbrev U12 (V : Valuation τ sig (Elt F)) : Valuation τ sig (Elt F) := after stage11 (U11 V)
/-- The buffers' contents after stages 0 … 12. -/
abbrev U13 (V : Valuation τ sig (Elt F)) : Valuation τ sig (Elt F) := after stage12 (U12 V)
/-- The buffers' contents after stages 0 … 13. -/
abbrev U14 (V : Valuation τ sig (Elt F)) : Valuation τ sig (Elt F) := after stage13 (U13 V)
/-- The buffers' contents after stages 0 … 14. -/
abbrev U15 (V : Valuation τ sig (Elt F)) : Valuation τ sig (Elt F) := after stage14 (U14 V)
/-- The buffers' contents after stages 0 … 15. -/
abbrev U16 (V : Valuation τ sig (Elt F)) : Valuation τ sig (Elt F) := after stage15 (U15 V)
/-- The buffers' contents after stages 0 … 16. -/
abbrev U17 (V : Valuation τ sig (Elt F)) : Valuation τ sig (Elt F) := after stage16 (U16 V)
/-- The buffers' contents after stages 0 … 17. -/
abbrev U18 (V : Valuation τ sig (Elt F)) : Valuation τ sig (Elt F) := after stage17 (U17 V)
/-- The buffers' contents after stages 0 … 18. -/
abbrev U19 (V : Valuation τ sig (Elt F)) : Valuation τ sig (Elt F) := after stage18 (U18 V)
/-- The buffers' contents after stages 0 … 19. -/
abbrev U20 (V : Valuation τ sig (Elt F)) : Valuation τ sig (Elt F) := after stage19 (U19 V)
/-- The buffers' contents after stages 0 … 20. -/
abbrev U21 (V : Valuation τ sig (Elt F)) : Valuation τ sig (Elt F) := after stage20 (U20 V)
/-- The buffers' contents after stages 0 … 21. -/
abbrev U22 (V : Valuation τ sig (Elt F)) : Valuation τ sig (Elt F) := after stage21 (U21 V)
/-- The buffers' contents after stages 0 … 22. -/
abbrev U23 (V : Valuation τ sig (Elt F)) : Valuation τ sig (Elt F) := after stage22 (U22 V)
/-- The buffers' contents after stages 0 … 23. -/
abbrev U24 (V : Valuation τ sig (Elt F)) : Valuation τ sig (Elt F) := after stage23 (U23 V)
/-- The buffers' contents after stages 0 … 24. -/
abbrev U25 (V : Valuation τ sig (Elt F)) : Valuation τ sig (Elt F) := after stage24 (U24 V)
/-- The buffers' contents after stages 0 … 25. -/
abbrev U26 (V : Valuation τ sig (Elt F)) : Valuation τ sig (Elt F) := after stage25 (U25 V)
/-- The buffers' contents after stages 0 … 26. -/
abbrev U27 (V : Valuation τ sig (Elt F)) : Valuation τ sig (Elt F) := after stage26 (U26 V)
/-- The buffers' contents after stages 0 … 27. -/
abbrev U28 (V : Valuation τ sig (Elt F)) : Valuation τ sig (Elt F) := after stage27 (U27 V)
/-- The buffers' contents after stages 0 … 28. -/
abbrev U29 (V : Valuation τ sig (Elt F)) : Valuation τ sig (Elt F) := after stage28 (U28 V)

/-- The whole fold is the last of the chain. -/
theorem after_ops (V : Valuation τ sig (Elt F)) : after ops V = U29 V := by
  rw [ops_eq_stages]
  simp only [after_append]

end Cert.ReferenceIdeal.Chain

end
-- ==== Proof.RefArgs.lean ====
/-
  The reference writes neither argument array: through each window of its operations, and so through all of them,
  an argument buffer keeps the contents it was launched with.
-/
import proofs.«123598_j69123203661888_2_alg».proof.Proof.RefChain

noncomputable section

namespace Cert.ReferenceIdeal.Args

open Idealize.ShloMosaic Idealize.SL.Sem Idealize.ShloMosaic.StableHlo Cert.ReferenceIdeal
open Cert.ReferenceIdeal.Table Cert.ReferenceIdeal.HandRun Cert.ReferenceIdeal.Chain

variable {F : FTy → Type} [FloatOps F] [Facts]
open Facts₀ Facts

set_option maxHeartbeats 2000000 in
theorem win0_arg0 (V : Valuation τ sig (Elt F)) :
    after ops0 V (Proc.devRef .tc main_arg0) = V (Proc.devRef .tc main_arg0) := by
  simp only [ops0]
  after_results_simp

set_option maxHeartbeats 2000000 in
theorem win1_arg0 (V : Valuation τ sig (Elt F)) :
    after ops1 V (Proc.devRef .tc main_arg0) = V (Proc.devRef .tc main_arg0) := by
  simp only [ops1]
  after_results_simp

set_option maxHeartbeats 2000000 in
theorem win2_arg0 (V : Valuation τ sig (Elt F)) :
    after ops2 V (Proc.devRef .tc main_arg0) = V (Proc.devRef .tc main_arg0) := by
  simp only [ops2]
  after_results_simp

set_option maxHeartbeats 2000000 in
theorem win3_arg0 (V : Valuation τ sig (Elt F)) :
    after ops3 V (Proc.devRef .tc main_arg0) = V (Proc.devRef .tc main_arg0) := by
  simp only [ops3]
  after_results_simp

set_option maxHeartbeats 2000000 in
theorem win4_arg0 (V : Valuation τ sig (Elt F)) :
    after ops4 V (Proc.devRef .tc main_arg0) = V (Proc.devRef .tc main_arg0) := by
  simp only [ops4]
  after_results_simp

set_option maxHeartbeats 2000000 in
theorem win5_arg0 (V : Valuation τ sig (Elt F)) :
    after ops5 V (Proc.devRef .tc main_arg0) = V (Proc.devRef .tc main_arg0) := by
  simp only [ops5]
  after_results_simp

set_option maxHeartbeats 2000000 in
theorem win6_arg0 (V : Valuation τ sig (Elt F)) :
    after ops6 V (Proc.devRef .tc main_arg0) = V (Proc.devRef .tc main_arg0) := by
  simp only [ops6]
  after_results_simp

set_option maxHeartbeats 2000000 in
theorem win7_arg0 (V : Valuation τ sig (Elt F)) :
    after ops7 V (Proc.devRef .tc main_arg0) = V (Proc.devRef .tc main_arg0) := by
  simp only [ops7]
  after_results_simp

set_option maxHeartbeats 2000000 in
theorem win0_arg1 (V : Valuation τ sig (Elt F)) :
    after ops0 V (Proc.devRef .tc main_arg1) = V (Proc.devRef .tc main_arg1) := by
  simp only [ops0]
  after_results_simp

set_option maxHeartbeats 2000000 in
theorem win1_arg1 (V : Valuation τ sig (Elt F)) :
    after ops1 V (Proc.devRef .tc main_arg1) = V (Proc.devRef .tc main_arg1) := by
  simp only [ops1]
  after_results_simp

set_option maxHeartbeats 2000000 in
theorem win2_arg1 (V : Valuation τ sig (Elt F)) :
    after ops2 V (Proc.devRef .tc main_arg1) = V (Proc.devRef .tc main_arg1) := by
  simp only [ops2]
  after_results_simp

set_option maxHeartbeats 2000000 in
theorem win3_arg1 (V : Valuation τ sig (Elt F)) :
    after ops3 V (Proc.devRef .tc main_arg1) = V (Proc.devRef .tc main_arg1) := by
  simp only [ops3]
  after_results_simp

set_option maxHeartbeats 2000000 in
theorem win4_arg1 (V : Valuation τ sig (Elt F)) :
    after ops4 V (Proc.devRef .tc main_arg1) = V (Proc.devRef .tc main_arg1) := by
  simp only [ops4]
  after_results_simp

set_option maxHeartbeats 2000000 in
theorem win5_arg1 (V : Valuation τ sig (Elt F)) :
    after ops5 V (Proc.devRef .tc main_arg1) = V (Proc.devRef .tc main_arg1) := by
  simp only [ops5]
  after_results_simp

set_option maxHeartbeats 2000000 in
theorem win6_arg1 (V : Valuation τ sig (Elt F)) :
    after ops6 V (Proc.devRef .tc main_arg1) = V (Proc.devRef .tc main_arg1) := by
  simp only [ops6]
  after_results_simp

set_option maxHeartbeats 2000000 in
theorem win7_arg1 (V : Valuation τ sig (Elt F)) :
    after ops7 V (Proc.devRef .tc main_arg1) = V (Proc.devRef .tc main_arg1) := by
  simp only [ops7]
  after_results_simp

/-- Argument 0 after all the operations is argument 0 as launched. -/
theorem kept_arg0 (V : Valuation τ sig (Elt F)) :
    after ops V (Proc.devRef .tc main_arg0) = V (Proc.devRef .tc main_arg0) := by
  simp only [ops, after_append]
  rw [win7_arg0, win6_arg0, win5_arg0, win4_arg0, win3_arg0, win2_arg0, win1_arg0, win0_arg0]

/-- Argument 1 after all the operations is argument 1 as launched. -/
theorem kept_arg1 (V : Valuation τ sig (Elt F)) :
    after ops V (Proc.devRef .tc main_arg1) = V (Proc.devRef .tc main_arg1) := by
  simp only [ops, after_append]
  rw [win7_arg1, win6_arg1, win5_arg1, win4_arg1, win3_arg1, win2_arg1, win1_arg1, win0_arg1]

end Cert.ReferenceIdeal.Args

end
-- ==== Proof.RefStagesP.lean ====
/- The reference program's operations, in program order, cut into stages: each stage ends with the operation that
   completes one intermediate result (a loss term, a padded image, a filtered image).  An operation inside a called
   function is written over the buffers the call was given, with its function at those buffers' types. -/
import proofs.«123598_j69123203661888_2_alg».proof.ReferenceIdeal
import Idealize.ShloMosaic.Lib.StableHlo.Run

noncomputable section

namespace Cert.ReferenceIdeal.StagesP

open Idealize.ShloMosaic Idealize.SL.Sem Idealize.ShloMosaic.StableHlo Cert.ReferenceIdeal

variable {F : FTy → Type} [FloatOps F] [Facts]
open Facts₀ Facts

/-- Stage 0 (18 operations): up to the operation that writes main_v8. -/
abbrev stage0 : List (HloOp τ sig (Elt F)) :=
  [ StableHlo.nullary main_cst (fun i => FloatOps.ofBits .f32 (lit0 (S3x3.rowMajor i))),
    StableHlo.nullary main_cst_0 (fun i => FloatOps.ofBits .f32 (lit1 (S3x3.rowMajor i))),
    StableHlo.unary main_arg1 main_v0 (Host.negf : (⟨S8x3x1024x1024, .f32⟩ : BufTy).Contents (Elt F) → (⟨S8x3x1024x1024, .f32⟩ : BufTy).Contents (Elt F)),
    StableHlo.nullary main_call0_cst ((constant S_ .f32 0x00000000#32) : (⟨S_, .f32⟩ : BufTy).Contents (Elt F)),
    StableHlo.unary main_call0_cst main_call0_v0 ((broadcastInDim S8x3x1024x1024 ![] bcast_S_S8x3x1024x1024) : (⟨S_, .f32⟩ : BufTy).Contents (Elt F) → (⟨S8x3x1024x1024, .f32⟩ : BufTy).Contents (Elt F)),
    StableHlo.binary main_v0 main_call0_v0 main_v1 (maximumf : (⟨S8x3x1024x1024, .f32⟩ : BufTy).Contents (Elt F) → (⟨S8x3x1024x1024, .f32⟩ : BufTy).Contents (Elt F) → (⟨S8x3x1024x1024, .f32⟩ : BufTy).Contents (Elt F)),
    StableHlo.nullary main_cst_1 (constant S_ .f32 0x3F800000#32),
    StableHlo.unary main_cst_1 main_v2 (broadcastInDim S8x3x1024x1024 ![] bcast_S_S8x3x1024x1024 : (⟨S_, .f32⟩ : BufTy).Contents (Elt F) → (⟨S8x3x1024x1024, .f32⟩ : BufTy).Contents (Elt F)),
    StableHlo.binary main_arg1 main_v2 main_v3 (subf : (⟨S8x3x1024x1024, .f32⟩ : BufTy).Contents (Elt F) → (⟨S8x3x1024x1024, .f32⟩ : BufTy).Contents (Elt F) → (⟨S8x3x1024x1024, .f32⟩ : BufTy).Contents (Elt F)),
    StableHlo.nullary main_call1_cst ((constant S_ .f32 0x00000000#32) : (⟨S_, .f32⟩ : BufTy).Contents (Elt F)),
    StableHlo.unary main_call1_cst main_call1_v0 ((broadcastInDim S8x3x1024x1024 ![] bcast_S_S8x3x1024x1024) : (⟨S_, .f32⟩ : BufTy).Contents (Elt F) → (⟨S8x3x1024x1024, .f32⟩ : BufTy).Contents (Elt F)),
    StableHlo.binary main_v3 main_call1_v0 main_v4 (maximumf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_v1 main_v4 main_v5 (addf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_v5 main_v5 main_v6 (mulf : (⟨S8x3x1024x1024, .f32⟩ : BufTy).Contents (Elt F) → (⟨S8x3x1024x1024, .f32⟩ : BufTy).Contents (Elt F) → (⟨S8x3x1024x1024, .f32⟩ : BufTy).Contents (Elt F)),
    StableHlo.nullary main_cst_2 (constant S_ .f32 0x00000000#32),
    StableHlo.binary main_v6 main_cst_2 main_v7 ((fun x v => Host.reduceAdd x v reducesTo_S8x3x1024x1024_S_d0_1_2_3 h_S_) : (⟨S8x3x1024x1024, .f32⟩ : BufTy).Contents (Elt F) → (⟨S_, .f32⟩ : BufTy).Contents (Elt F) → (⟨S_, .f32⟩ : BufTy).Contents (Elt F)),
    StableHlo.nullary main_cst_3 (constant S_ .f32 0x4BC00000#32),
    StableHlo.binary main_v7 main_cst_3 main_v8 (Host.divf : (⟨S_, .f32⟩ : BufTy).Contents (Elt F) → (⟨S_, .f32⟩ : BufTy).Contents (Elt F) → (⟨S_, .f32⟩ : BufTy).Contents (Elt F)) ]

/-- Stage 1 (24 operations): up to the operation that writes main_call2.v1. -/
abbrev stage1 : List (HloOp τ sig (Elt F)) :=
  [ StableHlo.nullary main_c (constantI S_ 32 1#32),
    StableHlo.nullary main_call2_call0_cst ((constant S_ .f32 0x00000000#32) : (⟨S_, .f32⟩ : BufTy).Contents (Elt F)),
    StableHlo.binary main_arg0 main_call2_call0_cst main_call2_call0_v0 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_call2_call0_v0 main_call2_call0_v1 ((broadcastInDim S8x3x1x1 ![0, 1] bcast_S8x3_S8x3x1x1_0_1) : (⟨S8x3, .f32⟩ : BufTy).Contents (Elt F) → (⟨S8x3x1x1, .f32⟩ : BufTy).Contents (Elt F)),
    StableHlo.nullary main_call2_call0_cst_0 ((constant S_ .f32 0x49800000#32) : (⟨S_, .f32⟩ : BufTy).Contents (Elt F)),
    StableHlo.unary main_call2_call0_cst_0 main_call2_call0_v2 ((broadcastInDim S8x3x1x1 ![] bcast_S_S8x3x1x1) : (⟨S_, .f32⟩ : BufTy).Contents (Elt F) → (⟨S8x3x1x1, .f32⟩ : BufTy).Contents (Elt F)),
    StableHlo.binary main_call2_call0_v1 main_call2_call0_v2 main_call2_call0_v3 (Host.divf : (⟨S8x3x1x1, .f32⟩ : BufTy).Contents (Elt F) → (⟨S8x3x1x1, .f32⟩ : BufTy).Contents (Elt F) → (⟨S8x3x1x1, .f32⟩ : BufTy).Contents (Elt F)),
    StableHlo.unary main_call2_call0_v3 main_call2_call0_v4 ((broadcastInDim S8x3x1024x1024 ![0, 1, 2, 3] bcast_S8x3x1x1_S8x3x1024x1024_0_1_2_3) : (⟨S8x3x1x1, .f32⟩ : BufTy).Contents (Elt F) → (⟨S8x3x1024x1024, .f32⟩ : BufTy).Contents (Elt F)),
    StableHlo.binary main_arg0 main_call2_call0_v4 main_call2_call0_v5 (subf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_call2_call0_v5 main_call2_call0_v5 main_call2_call0_v6 (mulf : (⟨S8x3x1024x1024, .f32⟩ : BufTy).Contents (Elt F) → (⟨S8x3x1024x1024, .f32⟩ : BufTy).Contents (Elt F) → (⟨S8x3x1024x1024, .f32⟩ : BufTy).Contents (Elt F)),
    StableHlo.unary main_c main_call2_call0_v7 ((sitofp .f32) : (⟨S_, .i32⟩ : BufTy).Contents (Elt F) → (⟨S_, .f32⟩ : BufTy).Contents (Elt F)),
    StableHlo.nullary main_call2_call0_cst_1 ((constant S_ .f32 0x49800000#32) : (⟨S_, .f32⟩ : BufTy).Contents (Elt F)),
    StableHlo.binary main_call2_call0_cst_1 main_call2_call0_v7 main_call2_call0_v8 (subf : (⟨S_, .f32⟩ : BufTy).Contents (Elt F) → (⟨S_, .f32⟩ : BufTy).Contents (Elt F) → (⟨S_, .f32⟩ : BufTy).Contents (Elt F)),
    StableHlo.nullary main_call2_call0_cst_2 ((constant S_ .f32 0x00000000#32) : (⟨S_, .f32⟩ : BufTy).Contents (Elt F)),
    StableHlo.binary main_call2_call0_v6 main_call2_call0_cst_2 main_call2_call0_v9 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_call2_call0_v8 main_call2_call0_v10 ((broadcastInDim S8x3 ![] bcast_S_S8x3) : (⟨S_, .f32⟩ : BufTy).Contents (Elt F) → (⟨S8x3, .f32⟩ : BufTy).Contents (Elt F)),
    StableHlo.binary main_call2_call0_v9 main_call2_call0_v10 main_call2_call0_v11 (Host.divf : (⟨S8x3, .f32⟩ : BufTy).Contents (Elt F) → (⟨S8x3, .f32⟩ : BufTy).Contents (Elt F) → (⟨S8x3, .f32⟩ : BufTy).Contents (Elt F)),
    StableHlo.nullary main_call2_call0_cst_3 ((constant S_ .f32 0x00000000#32) : (⟨S_, .f32⟩ : BufTy).Contents (Elt F)),
    StableHlo.binary main_call2_call0_v8 main_call2_call0_cst_3 main_call2_call0_v12 ((cmpf .ogt) : (⟨S_, .f32⟩ : BufTy).Contents (Elt F) → (⟨S_, .f32⟩ : BufTy).Contents (Elt F) → (⟨S_, .i1⟩ : BufTy).Contents (Elt F)),
    StableHlo.nullary main_call2_call0_cst_4 ((constant S_ .f32 0x7FC00000#32) : (⟨S_, .f32⟩ : BufTy).Contents (Elt F)),
    StableHlo.unary main_call2_call0_cst_4 main_call2_call0_call0_v0 (id : (⟨S_, .f32⟩ : BufTy).Contents (Elt F) → (⟨S_, .f32⟩ : BufTy).Contents (Elt F)),
    StableHlo.unary main_call2_call0_call0_v0 main_call2_call0_call0_v1 ((broadcastInDim S8x3 ![] bcast_S_S8x3) : (⟨S_, .f32⟩ : BufTy).Contents (Elt F) → (⟨S8x3, .f32⟩ : BufTy).Contents (Elt F)),
    StableHlo.ternary main_call2_call0_v12 main_call2_call0_v11 main_call2_call0_call0_v1 main_call2_v0 ((fun p a b => select (broadcastInDim S8x3 ![] bcast_S_S8x3 p) a b) : (⟨S_, .i1⟩ : BufTy).Contents (Elt F) → (⟨S8x3, .f32⟩ : BufTy).Contents (Elt F) → (⟨S8x3, .f32⟩ : BufTy).Contents (Elt F) → (⟨S8x3, .f32⟩ : BufTy).Contents (Elt F)),
    StableHlo.unary main_call2_v0 main_v9 (Host.sqrt : (⟨S8x3, .f32⟩ : BufTy).Contents (Elt F) → (⟨S8x3, .f32⟩ : BufTy).Contents (Elt F)) ]

/-- Stage 2 (6 operations): up to the operation that writes main_v13. -/
abbrev stage2 : List (HloOp τ sig (Elt F)) :=
  [ StableHlo.nullary main_cst_4 (constant S_ .f32 0x00000000#32),
    StableHlo.binary main_arg1 main_cst_4 main_v10 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_v10 main_v11 (broadcastInDim S8x3x1x1 ![0, 1] bcast_S8x3_S8x3x1x1_0_1 : (⟨S8x3, .f32⟩ : BufTy).Contents (Elt F) → (⟨S8x3x1x1, .f32⟩ : BufTy).Contents (Elt F)),
    StableHlo.nullary main_cst_5 (constant S_ .f32 0x49800000#32),
    StableHlo.unary main_cst_5 main_v12 (broadcastInDim S8x3x1x1 ![] bcast_S_S8x3x1x1 : (⟨S_, .f32⟩ : BufTy).Contents (Elt F) → (⟨S8x3x1x1, .f32⟩ : BufTy).Contents (Elt F)),
    StableHlo.binary main_v11 main_v12 main_v13 (Host.divf : (⟨S8x3x1x1, .f32⟩ : BufTy).Contents (Elt F) → (⟨S8x3x1x1, .f32⟩ : BufTy).Contents (Elt F) → (⟨S8x3x1x1, .f32⟩ : BufTy).Contents (Elt F)) ]

/-- Stage 3 (24 operations): up to the operation that writes main_call3.v1. -/
abbrev stage3 : List (HloOp τ sig (Elt F)) :=
  [ StableHlo.nullary main_c_6 (constantI S_ 32 1#32),
    StableHlo.nullary main_call3_call0_cst ((constant S_ .f32 0x00000000#32) : (⟨S_, .f32⟩ : BufTy).Contents (Elt F)),
    StableHlo.binary main_arg1 main_call3_call0_cst main_call3_call0_v0 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_call3_call0_v0 main_call3_call0_v1 ((broadcastInDim S8x3x1x1 ![0, 1] bcast_S8x3_S8x3x1x1_0_1) : (⟨S8x3, .f32⟩ : BufTy).Contents (Elt F) → (⟨S8x3x1x1, .f32⟩ : BufTy).Contents (Elt F)),
    StableHlo.nullary main_call3_call0_cst_0 ((constant S_ .f32 0x49800000#32) : (⟨S_, .f32⟩ : BufTy).Contents (Elt F)),
    StableHlo.unary main_call3_call0_cst_0 main_call3_call0_v2 ((broadcastInDim S8x3x1x1 ![] bcast_S_S8x3x1x1) : (⟨S_, .f32⟩ : BufTy).Contents (Elt F) → (⟨S8x3x1x1, .f32⟩ : BufTy).Contents (Elt F)),
    StableHlo.binary main_call3_call0_v1 main_call3_call0_v2 main_call3_call0_v3 (Host.divf : (⟨S8x3x1x1, .f32⟩ : BufTy).Contents (Elt F) → (⟨S8x3x1x1, .f32⟩ : BufTy).Contents (Elt F) → (⟨S8x3x1x1, .f32⟩ : BufTy).Contents (Elt F)),
    StableHlo.unary main_call3_call0_v3 main_call3_call0_v4 ((broadcastInDim S8x3x1024x1024 ![0, 1, 2, 3] bcast_S8x3x1x1_S8x3x1024x1024_0_1_2_3) : (⟨S8x3x1x1, .f32⟩ : BufTy).Contents (Elt F) → (⟨S8x3x1024x1024, .f32⟩ : BufTy).Contents (Elt F)),
    StableHlo.binary main_arg1 main_call3_call0_v4 main_call3_call0_v5 (subf : (⟨S8x3x1024x1024, .f32⟩ : BufTy).Contents (Elt F) → (⟨S8x3x1024x1024, .f32⟩ : BufTy).Contents (Elt F) → (⟨S8x3x1024x1024, .f32⟩ : BufTy).Contents (Elt F)),
    StableHlo.binary main_call3_call0_v5 main_call3_call0_v5 main_call3_call0_v6 (mulf : (⟨S8x3x1024x1024, .f32⟩ : BufTy).Contents (Elt F) → (⟨S8x3x1024x1024, .f32⟩ : BufTy).Contents (Elt F) → (⟨S8x3x1024x1024, .f32⟩ : BufTy).Contents (Elt F)),
    StableHlo.unary main_c_6 main_call3_call0_v7 ((sitofp .f32) : (⟨S_, .i32⟩ : BufTy).Contents (Elt F) → (⟨S_, .f32⟩ : BufTy).Contents (Elt F)),
    StableHlo.nullary main_call3_call0_cst_1 ((constant S_ .f32 0x49800000#32) : (⟨S_, .f32⟩ : BufTy).Contents (Elt F)),
    StableHlo.binary main_call3_call0_cst_1 main_call3_call0_v7 main_call3_call0_v8 (subf : (⟨S_, .f32⟩ : BufTy).Contents (Elt F) → (⟨S_, .f32⟩ : BufTy).Contents (Elt F) → (⟨S_, .f32⟩ : BufTy).Contents (Elt F)),
    StableHlo.nullary main_call3_call0_cst_2 ((constant S_ .f32 0x00000000#32) : (⟨S_, .f32⟩ : BufTy).Contents (Elt F)),
    StableHlo.binary main_call3_call0_v6 main_call3_call0_cst_2 main_call3_call0_v9 ((fun x v => Host.reduceAdd x v reducesTo_S8x3x1024x1024_S8x3_d2_3 h_S_) : (⟨S8x3x1024x1024, .f32⟩ : BufTy).Contents (Elt F) → (⟨S_, .f32⟩ : BufTy).Contents (Elt F) → (⟨S8x3, .f32⟩ : BufTy).Contents (Elt F)),
    StableHlo.unary main_call3_call0_v8 main_call3_call0_v10 ((broadcastInDim S8x3 ![] bcast_S_S8x3) : (⟨S_, .f32⟩ : BufTy).Contents (Elt F) → (⟨S8x3, .f32⟩ : BufTy).Contents (Elt F)),
    StableHlo.binary main_call3_call0_v9 main_call3_call0_v10 main_call3_call0_v11 (Host.divf : (⟨S8x3, .f32⟩ : BufTy).Contents (Elt F) → (⟨S8x3, .f32⟩ : BufTy).Contents (Elt F) → (⟨S8x3, .f32⟩ : BufTy).Contents (Elt F)),
    StableHlo.nullary main_call3_call0_cst_3 ((constant S_ .f32 0x00000000#32) : (⟨S_, .f32⟩ : BufTy).Contents (Elt F)),
    StableHlo.binary main_call3_call0_v8 main_call3_call0_cst_3 main_call3_call0_v12 ((cmpf .ogt) : (⟨S_, .f32⟩ : BufTy).Contents (Elt F) → (⟨S_, .f32⟩ : BufTy).Contents (Elt F) → (⟨S_, .i1⟩ : BufTy).Contents (Elt F)),
    StableHlo.nullary main_call3_call0_cst_4 ((constant S_ .f32 0x7FC00000#32) : (⟨S_, .f32⟩ : BufTy).Contents (Elt F)),
    StableHlo.unary main_call3_call0_cst_4 main_call3_call0_call0_v0 (id : (⟨S_, .f32⟩ : BufTy).Contents (Elt F) → (⟨S_, .f32⟩ : BufTy).Contents (Elt F)),
    StableHlo.unary main_call3_call0_call0_v0 main_call3_call0_call0_v1 ((broadcastInDim S8x3 ![] bcast_S_S8x3) : (⟨S_, .f32⟩ : BufTy).Contents (Elt F) → (⟨S8x3, .f32⟩ : BufTy).Contents (Elt F)),
    StableHlo.ternary main_call3_call0_v12 main_call3_call0_v11 main_call3_call0_call0_v1 main_call3_v0 ((fun p a b => select (broadcastInDim S8x3 ![] bcast_S_S8x3 p) a b) : (⟨S_, .i1⟩ : BufTy).Contents (Elt F) → (⟨S8x3, .f32⟩ : BufTy).Contents (Elt F) → (⟨S8x3, .f32⟩ : BufTy).Contents (Elt F) → (⟨S8x3, .f32⟩ : BufTy).Contents (Elt F)),
    StableHlo.unary main_call3_v0 main_v14 (Host.sqrt : (⟨S8x3, .f32⟩ : BufTy).Contents (Elt F) → (⟨S8x3, .f32⟩ : BufTy).Contents (Elt F)) ]

/-- Stage 4 (14 operations): up to the operation that writes main_v23. -/
abbrev stage4 : List (HloOp τ sig (Elt F)) :=
  [ StableHlo.nullary main_cst_7 (constant S_ .f32 0x3F000000#32),
    StableHlo.unary main_cst_7 main_v15 (broadcastInDim S8x3x1x1 ![] bcast_S_S8x3x1x1 : (⟨S_, .f32⟩ : BufTy).Contents (Elt F) → (⟨S8x3x1x1, .f32⟩ : BufTy).Contents (Elt F)),
    StableHlo.binary main_v13 main_v15 main_v16 (subf : (⟨S8x3x1x1, .f32⟩ : BufTy).Contents (Elt F) → (⟨S8x3x1x1, .f32⟩ : BufTy).Contents (Elt F) → (⟨S8x3x1x1, .f32⟩ : BufTy).Contents (Elt F)),
    StableHlo.binary main_v16 main_v16 main_v17 (mulf : (⟨S8x3x1x1, .f32⟩ : BufTy).Contents (Elt F) → (⟨S8x3x1x1, .f32⟩ : BufTy).Contents (Elt F) → (⟨S8x3x1x1, .f32⟩ : BufTy).Contents (Elt F)),
    StableHlo.nullary main_cst_8 (constant S_ .f32 0x00000000#32),
    StableHlo.binary main_v17 main_cst_8 main_v18 ((fun x v => Host.reduceAdd x v reducesTo_S8x3x1x1_S_d0_1_2_3 h_S_) : (⟨S8x3x1x1, .f32⟩ : BufTy).Contents (Elt F) → (⟨S_, .f32⟩ : BufTy).Contents (Elt F) → (⟨S_, .f32⟩ : BufTy).Contents (Elt F)),
    StableHlo.nullary main_cst_9 (constant S_ .f32 0x41C00000#32),
    StableHlo.binary main_v18 main_cst_9 main_v19 (Host.divf : (⟨S_, .f32⟩ : BufTy).Contents (Elt F) → (⟨S_, .f32⟩ : BufTy).Contents (Elt F) → (⟨S_, .f32⟩ : BufTy).Contents (Elt F)),
    StableHlo.binary main_v14 main_v9 main_v20 (subf : (⟨S8x3, .f32⟩ : BufTy).Contents (Elt F) → (⟨S8x3, .f32⟩ : BufTy).Contents (Elt F) → (⟨S8x3, .f32⟩ : BufTy).Contents (Elt F)),
    StableHlo.binary main_v20 main_v20 main_v21 (mulf : (⟨S8x3, .f32⟩ : BufTy).Contents (Elt F) → (⟨S8x3, .f32⟩ : BufTy).Contents (Elt F) → (⟨S8x3, .f32⟩ : BufTy).Contents (Elt F)),
    StableHlo.nullary main_cst_10 (constant S_ .f32 0x00000000#32),
    StableHlo.binary main_v21 main_cst_10 main_v22 ((fun x v => Host.reduceAdd x v reducesTo_S8x3_S_d0_1 h_S_) : (⟨S8x3, .f32⟩ : BufTy).Contents (Elt F) → (⟨S_, .f32⟩ : BufTy).Contents (Elt F) → (⟨S_, .f32⟩ : BufTy).Contents (Elt F)),
    StableHlo.nullary main_cst_11 (constant S_ .f32 0x41C00000#32),
    StableHlo.binary main_v22 main_cst_11 main_v23 (Host.divf : (⟨S_, .f32⟩ : BufTy).Contents (Elt F) → (⟨S_, .f32⟩ : BufTy).Contents (Elt F) → (⟨S_, .f32⟩ : BufTy).Contents (Elt F)) ]

/-- Stage 5 (5 operations): up to the operation that writes main_c_12. -/
abbrev stage5 : List (HloOp τ sig (Elt F)) :=
  [ StableHlo.unary main_arg1 main_v24 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v24 main_v25 rfl shapeCasts_S1x1x1024x1024_S1024x1024,
    StableHlo.unary main_arg0 main_v26 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v26 main_v27 rfl shapeCasts_S1x1x1024x1024_S1024x1024,
    StableHlo.nullary main_c_12 (constantI S_ 32 0#32) ]

/-- Stage 6 (8 operations): up to the operation that writes main_call4.v7. -/
abbrev stage6 : List (HloOp τ sig (Elt F)) :=
  [ StableHlo.unary main_v25 main_call4_v0 ((extractStridedSlice S1024x1 ![0, 0] · slices_S1024x1024_S1024x1_0_0) : (⟨S1024x1024, .f32⟩ : BufTy).Contents (Elt F) → (⟨S1024x1, .f32⟩ : BufTy).Contents (Elt F)),
    StableHlo.unary main_v25 main_call4_v1 ((extractStridedSlice S1024x1 ![0, 1] · slices_S1024x1024_S1024x1_0_1) : (⟨S1024x1024, .f32⟩ : BufTy).Contents (Elt F) → (⟨S1024x1, .f32⟩ : BufTy).Contents (Elt F)),
    StableHlo.unary main_call4_v1 main_call4_v2 ((Host.reverse [1]) : (⟨S1024x1, .f32⟩ : BufTy).Contents (Elt F) → (⟨S1024x1, .f32⟩ : BufTy).Contents (Elt F)),
    StableHlo.binary main_call4_v2 main_v25 main_call4_v3 ((fun a b => concatenate S1024x1025 1 [⟨S1024x1, a⟩, ⟨S1024x1024, b⟩] concatenates_S1024x1_S1024x1024_S1024x1025_d1) : (⟨S1024x1, .f32⟩ : BufTy).Contents (Elt F) → (⟨S1024x1024, .f32⟩ : BufTy).Contents (Elt F) → (⟨S1024x1025, .f32⟩ : BufTy).Contents (Elt F)),
    StableHlo.unary main_call4_v3 main_call4_v4 ((extractStridedSlice S1024x1 ![0, 1024] · slices_S1024x1025_S1024x1_0_1024) : (⟨S1024x1025, .f32⟩ : BufTy).Contents (Elt F) → (⟨S1024x1, .f32⟩ : BufTy).Contents (Elt F)),
    StableHlo.unary main_call4_v3 main_call4_v5 ((extractStridedSlice S1024x1 ![0, 1023] · slices_S1024x1025_S1024x1_0_1023) : (⟨S1024x1025, .f32⟩ : BufTy).Contents (Elt F) → (⟨S1024x1, .f32⟩ : BufTy).Contents (Elt F)),
    StableHlo.unary main_call4_v5 main_call4_v6 ((Host.reverse [1]) : (⟨S1024x1, .f32⟩ : BufTy).Contents (Elt F) → (⟨S1024x1, .f32⟩ : BufTy).Contents (Elt F)),
    StableHlo.binary main_call4_v3 main_call4_v6 main_v28 ((fun a b => concatenate S1024x1026 1 [⟨S1024x1025, a⟩, ⟨S1024x1, b⟩] concatenates_S1024x1025_S1024x1_S1024x1026_d1) : (⟨S1024x1025, .f32⟩ : BufTy).Contents (Elt F) → (⟨S1024x1, .f32⟩ : BufTy).Contents (Elt F) → (⟨S1024x1026, .f32⟩ : BufTy).Contents (Elt F)) ]

/-- Stage 7 (10 operations): up to the operation that writes main_c_15. -/
abbrev stage7 : List (HloOp τ sig (Elt F)) :=
  [ StableHlo.unary main_v28 main_v29 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_13 (constant S_ .f32 0x40800000#32),
    StableHlo.unary main_cst_13 main_v30 (broadcastInDim S1024x1024 ![] bcast_S_S1024x1024 : (⟨S_, .f32⟩ : BufTy).Contents (Elt F) → (⟨S1024x1024, .f32⟩ : BufTy).Contents (Elt F)),
    StableHlo.binary main_v30 main_v29 main_v31 (mulf : (⟨S1024x1024, .f32⟩ : BufTy).Contents (Elt F) → (⟨S1024x1024, .f32⟩ : BufTy).Contents (Elt F) → (⟨S1024x1024, .f32⟩ : BufTy).Contents (Elt F)),
    StableHlo.unary main_v28 main_v32 ((extractStridedSlice S1024x1024 ![0, 2] · slices_S1024x1026_S1024x1024_0_2) : (⟨S1024x1026, .f32⟩ : BufTy).Contents (Elt F) → (⟨S1024x1024, .f32⟩ : BufTy).Contents (Elt F)),
    StableHlo.nullary main_cst_14 (constant S_ .f32 0x40800000#32),
    StableHlo.unary main_cst_14 main_v33 (broadcastInDim S1024x1024 ![] bcast_S_S1024x1024 : (⟨S_, .f32⟩ : BufTy).Contents (Elt F) → (⟨S1024x1024, .f32⟩ : BufTy).Contents (Elt F)),
    StableHlo.binary main_v33 main_v32 main_v34 (mulf : (⟨S1024x1024, .f32⟩ : BufTy).Contents (Elt F) → (⟨S1024x1024, .f32⟩ : BufTy).Contents (Elt F) → (⟨S1024x1024, .f32⟩ : BufTy).Contents (Elt F)),
    StableHlo.binary main_v31 main_v34 main_v35 (subf : (⟨S1024x1024, .f32⟩ : BufTy).Contents (Elt F) → (⟨S1024x1024, .f32⟩ : BufTy).Contents (Elt F) → (⟨S1024x1024, .f32⟩ : BufTy).Contents (Elt F)),
    StableHlo.nullary main_c_15 (constantI S_ 32 0#32) ]

/-- Stage 8 (8 operations): up to the operation that writes main_call5.v7. -/
abbrev stage8 : List (HloOp τ sig (Elt F)) :=
  [ StableHlo.unary main_v27 main_call5_v0 ((extractStridedSlice S1024x1 ![0, 0] · slices_S1024x1024_S1024x1_0_0) : (⟨S1024x1024, .f32⟩ : BufTy).Contents (Elt F) → (⟨S1024x1, .f32⟩ : BufTy).Contents (Elt F)),
    StableHlo.unary main_v27 main_call5_v1 ((extractStridedSlice S1024x1 ![0, 1] · slices_S1024x1024_S1024x1_0_1) : (⟨S1024x1024, .f32⟩ : BufTy).Contents (Elt F) → (⟨S1024x1, .f32⟩ : BufTy).Contents (Elt F)),
    StableHlo.unary main_call5_v1 main_call5_v2 ((Host.reverse [1]) : (⟨S1024x1, .f32⟩ : BufTy).Contents (Elt F) → (⟨S1024x1, .f32⟩ : BufTy).Contents (Elt F)),
    StableHlo.binary main_call5_v2 main_v27 main_call5_v3 ((fun a b => concatenate S1024x1025 1 [⟨S1024x1, a⟩, ⟨S1024x1024, b⟩] concatenates_S1024x1_S1024x1024_S1024x1025_d1) : (⟨S1024x1, .f32⟩ : BufTy).Contents (Elt F) → (⟨S1024x1024, .f32⟩ : BufTy).Contents (Elt F) → (⟨S1024x1025, .f32⟩ : BufTy).Contents (Elt F)),
    StableHlo.unary main_call5_v3 main_call5_v4 ((extractStridedSlice S1024x1 ![0, 1024] · slices_S1024x1025_S1024x1_0_1024) : (⟨S1024x1025, .f32⟩ : BufTy).Contents (Elt F) → (⟨S1024x1, .f32⟩ : BufTy).Contents (Elt F)),
    StableHlo.unary main_call5_v3 main_call5_v5 ((extractStridedSlice S1024x1 ![0, 1023] · slices_S1024x1025_S1024x1_0_1023) : (⟨S1024x1025, .f32⟩ : BufTy).Contents (Elt F) → (⟨S1024x1, .f32⟩ : BufTy).Contents (Elt F)),
    StableHlo.unary main_call5_v5 main_call5_v6 ((Host.reverse [1]) : (⟨S1024x1, .f32⟩ : BufTy).Contents (Elt F) → (⟨S1024x1, .f32⟩ : BufTy).Contents (Elt F)),
    StableHlo.binary main_call5_v3 main_call5_v6 main_v36 ((fun a b => concatenate S1024x1026 1 [⟨S1024x1025, a⟩, ⟨S1024x1, b⟩] concatenates_S1024x1025_S1024x1_S1024x1026_d1) : (⟨S1024x1025, .f32⟩ : BufTy).Contents (Elt F) → (⟨S1024x1, .f32⟩ : BufTy).Contents (Elt F) → (⟨S1024x1026, .f32⟩ : BufTy).Contents (Elt F)) ]

/-- Stage 9 (15 operations): up to the operation that writes main_v47. -/
abbrev stage9 : List (HloOp τ sig (Elt F)) :=
  [ StableHlo.unary main_v36 main_v37 ((extractStridedSlice S1024x1024 ![0, 0] · slices_S1024x1026_S1024x1024_0_0) : (⟨S1024x1026, .f32⟩ : BufTy).Contents (Elt F) → (⟨S1024x1024, .f32⟩ : BufTy).Contents (Elt F)),
    StableHlo.nullary main_cst_16 (constant S_ .f32 0x40800000#32),
    StableHlo.unary main_cst_16 main_v38 (broadcastInDim S1024x1024 ![] bcast_S_S1024x1024 : (⟨S_, .f32⟩ : BufTy).Contents (Elt F) → (⟨S1024x1024, .f32⟩ : BufTy).Contents (Elt F)),
    StableHlo.binary main_v38 main_v37 main_v39 (mulf : (⟨S1024x1024, .f32⟩ : BufTy).Contents (Elt F) → (⟨S1024x1024, .f32⟩ : BufTy).Contents (Elt F) → (⟨S1024x1024, .f32⟩ : BufTy).Contents (Elt F)),
    StableHlo.unary main_v36 main_v40 ((extractStridedSlice S1024x1024 ![0, 2] · slices_S1024x1026_S1024x1024_0_2) : (⟨S1024x1026, .f32⟩ : BufTy).Contents (Elt F) → (⟨S1024x1024, .f32⟩ : BufTy).Contents (Elt F)),
    StableHlo.nullary main_cst_17 (constant S_ .f32 0x40800000#32),
    StableHlo.unary main_cst_17 main_v41 (broadcastInDim S1024x1024 ![] bcast_S_S1024x1024 : (⟨S_, .f32⟩ : BufTy).Contents (Elt F) → (⟨S1024x1024, .f32⟩ : BufTy).Contents (Elt F)),
    StableHlo.binary main_v41 main_v40 main_v42 (mulf : (⟨S1024x1024, .f32⟩ : BufTy).Contents (Elt F) → (⟨S1024x1024, .f32⟩ : BufTy).Contents (Elt F) → (⟨S1024x1024, .f32⟩ : BufTy).Contents (Elt F)),
    StableHlo.binary main_v39 main_v42 main_v43 (subf : (⟨S1024x1024, .f32⟩ : BufTy).Contents (Elt F) → (⟨S1024x1024, .f32⟩ : BufTy).Contents (Elt F) → (⟨S1024x1024, .f32⟩ : BufTy).Contents (Elt F)),
    StableHlo.binary main_v35 main_v43 main_v44 (subf : (⟨S1024x1024, .f32⟩ : BufTy).Contents (Elt F) → (⟨S1024x1024, .f32⟩ : BufTy).Contents (Elt F) → (⟨S1024x1024, .f32⟩ : BufTy).Contents (Elt F)),
    StableHlo.unary main_v44 main_v45 (Host.absf : (⟨S1024x1024, .f32⟩ : BufTy).Contents (Elt F) → (⟨S1024x1024, .f32⟩ : BufTy).Contents (Elt F)),
    StableHlo.nullary main_cst_18 (constant S_ .f32 0x00000000#32),
    StableHlo.binary main_v45 main_cst_18 main_v46 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    StableHlo.nullary main_cst_19 (constant S_ .f32 0x49800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)) ]

/-- Stage 10 (11 operations): up to the operation that writes main_c_24. -/
abbrev stage10 : List (HloOp τ sig (Elt F)) :=
  [ StableHlo.nullary main_cst_20 (constant S_ .f32 0x00000000#32),
    StableHlo.binary main_arg1 main_cst_20 main_v48 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_21 (constant S_ .f32 0x40400000#32),
    StableHlo.unary main_cst_21 main_v49 (broadcastInDim S8x1024x1024 ![] bcast_S_S8x1024x1024 : (⟨S_, .f32⟩ : BufTy).Contents (Elt F) → (⟨S8x1024x1024, .f32⟩ : BufTy).Contents (Elt F)),
    StableHlo.binary main_v48 main_v49 main_v50 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_22 (constant S_ .f32 0x00000000#32),
    StableHlo.binary main_arg0 main_cst_22 main_v51 ((fun x v => Host.reduceAdd x v reducesTo_S8x3x1024x1024_S8x1024x1024_d1 h_S_) : (⟨S8x3x1024x1024, .f32⟩ : BufTy).Contents (Elt F) → (⟨S_, .f32⟩ : BufTy).Contents (Elt F) → (⟨S8x1024x1024, .f32⟩ : BufTy).Contents (Elt F)),
    StableHlo.nullary main_cst_23 (constant S_ .f32 0x40400000#32),
    StableHlo.unary main_cst_23 main_v52 (broadcastInDim S8x1024x1024 ![] bcast_S_S8x1024x1024 : (⟨S_, .f32⟩ : BufTy).Contents (Elt F) → (⟨S8x1024x1024, .f32⟩ : BufTy).Contents (Elt F)),
    StableHlo.binary main_v51 main_v52 main_v53 (Host.divf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_24 (constantI S_ 32 0#32) ]

/-- Stage 11 (16 operations): up to the operation that writes main_call6.v15. -/
abbrev stage11 : List (HloOp τ sig (Elt F)) :=
  [ StableHlo.unary main_v50 main_call6_v0 ((extractStridedSlice S8x1x1024 ![0, 0, 0] · slices_S8x1024x1024_S8x1x1024_0_0_0) : (⟨S8x1024x1024, .f32⟩ : BufTy).Contents (Elt F) → (⟨S8x1x1024, .f32⟩ : BufTy).Contents (Elt F)),
    StableHlo.unary main_v50 main_call6_v1 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    StableHlo.unary main_call6_v1 main_call6_v2 ((Host.reverse [1]) : (⟨S8x1x1024, .f32⟩ : BufTy).Contents (Elt F) → (⟨S8x1x1024, .f32⟩ : BufTy).Contents (Elt F)),
    StableHlo.binary main_call6_v2 main_v50 main_call6_v3 ((fun a b => concatenate S8x1025x1024 1 [⟨S8x1x1024, a⟩, ⟨S8x1024x1024, b⟩] concatenates_S8x1x1024_S8x1024x1024_S8x1025x1024_d1) : (⟨S8x1x1024, .f32⟩ : BufTy).Contents (Elt F) → (⟨S8x1024x1024, .f32⟩ : BufTy).Contents (Elt F) → (⟨S8x1025x1024, .f32⟩ : BufTy).Contents (Elt F)),
    StableHlo.unary main_call6_v3 main_call6_v4 ((extractStridedSlice S8x1x1024 ![0, 1024, 0] · slices_S8x1025x1024_S8x1x1024_0_1024_0) : (⟨S8x1025x1024, .f32⟩ : BufTy).Contents (Elt F) → (⟨S8x1x1024, .f32⟩ : BufTy).Contents (Elt F)),
    StableHlo.unary main_call6_v3 main_call6_v5 ((extractStridedSlice S8x1x1024 ![0, 1023, 0] · slices_S8x1025x1024_S8x1x1024_0_1023_0) : (⟨S8x1025x1024, .f32⟩ : BufTy).Contents (Elt F) → (⟨S8x1x1024, .f32⟩ : BufTy).Contents (Elt F)),
    StableHlo.unary main_call6_v5 main_call6_v6 ((Host.reverse [1]) : (⟨S8x1x1024, .f32⟩ : BufTy).Contents (Elt F) → (⟨S8x1x1024, .f32⟩ : BufTy).Contents (Elt F)),
    StableHlo.binary main_call6_v3 main_call6_v6 main_call6_v7 ((fun a b => concatenate S8x1026x1024 1 [⟨S8x1025x1024, a⟩, ⟨S8x1x1024, b⟩] concatenates_S8x1025x1024_S8x1x1024_S8x1026x1024_d1) : (⟨S8x1025x1024, .f32⟩ : BufTy).Contents (Elt F) → (⟨S8x1x1024, .f32⟩ : BufTy).Contents (Elt F) → (⟨S8x1026x1024, .f32⟩ : BufTy).Contents (Elt F)),
    StableHlo.unary main_call6_v7 main_call6_v8 ((extractStridedSlice S8x1026x1 ![0, 0, 0] · slices_S8x1026x1024_S8x1026x1_0_0_0) : (⟨S8x1026x1024, .f32⟩ : BufTy).Contents (Elt F) → (⟨S8x1026x1, .f32⟩ : BufTy).Contents (Elt F)),
    StableHlo.unary main_call6_v7 main_call6_v9 ((extractStridedSlice S8x1026x1 ![0, 0, 1] · slices_S8x1026x1024_S8x1026x1_0_0_1) : (⟨S8x1026x1024, .f32⟩ : BufTy).Contents (Elt F) → (⟨S8x1026x1, .f32⟩ : BufTy).Contents (Elt F)),
    StableHlo.unary main_call6_v9 main_call6_v10 ((Host.reverse [2]) : (⟨S8x1026x1, .f32⟩ : BufTy).Contents (Elt F) → (⟨S8x1026x1, .f32⟩ : BufTy).Contents (Elt F)),
    StableHlo.binary main_call6_v10 main_call6_v7 main_call6_v11 ((fun a b => concatenate S8x1026x1025 2 [⟨S8x1026x1, a⟩, ⟨S8x1026x1024, b⟩] concatenates_S8x1026x1_S8x1026x1024_S8x1026x1025_d2) : (⟨S8x1026x1, .f32⟩ : BufTy).Contents (Elt F) → (⟨S8x1026x1024, .f32⟩ : BufTy).Contents (Elt F) → (⟨S8x1026x1025, .f32⟩ : BufTy).Contents (Elt F)),
    StableHlo.unary main_call6_v11 main_call6_v12 ((extractStridedSlice S8x1026x1 ![0, 0, 1024] · slices_S8x1026x1025_S8x1026x1_0_0_1024) : (⟨S8x1026x1025, .f32⟩ : BufTy).Contents (Elt F) → (⟨S8x1026x1, .f32⟩ : BufTy).Contents (Elt F)),
    StableHlo.unary main_call6_v11 main_call6_v13 ((extractStridedSlice S8x1026x1 ![0, 0, 1023] · slices_S8x1026x1025_S8x1026x1_0_0_1023) : (⟨S8x1026x1025, .f32⟩ : BufTy).Contents (Elt F) → (⟨S8x1026x1, .f32⟩ : BufTy).Contents (Elt F)),
    StableHlo.unary main_call6_v13 main_call6_v14 ((Host.reverse [2]) : (⟨S8x1026x1, .f32⟩ : BufTy).Contents (Elt F) → (⟨S8x1026x1, .f32⟩ : BufTy).Contents (Elt F)),
    StableHlo.binary main_call6_v11 main_call6_v14 main_v54 ((fun a b => concatenate S8x1026x1026 2 [⟨S8x1026x1025, a⟩, ⟨S8x1026x1, b⟩] concatenates_S8x1026x1025_S8x1026x1_S8x1026x1026_d2) : (⟨S8x1026x1025, .f32⟩ : BufTy).Contents (Elt F) → (⟨S8x1026x1, .f32⟩ : BufTy).Contents (Elt F) → (⟨S8x1026x1026, .f32⟩ : BufTy).Contents (Elt F)) ]

/-- Stage 12 (56 operations): up to the operation that writes main_v109. -/
abbrev stage12 : List (HloOp τ sig (Elt F)) :=
  [ StableHlo.nullary main_cst_25 (constant S_ .f32 0x00000000#32),
    StableHlo.unary main_cst_25 main_v55 (broadcastInDim S8x1024x1024 ![] bcast_S_S8x1024x1024 : (⟨S_, .f32⟩ : BufTy).Contents (Elt F) → (⟨S8x1024x1024, .f32⟩ : BufTy).Contents (Elt F)),
    StableHlo.unary main_cst main_v56 ((extractStridedSlice S1x1 ![0, 0] · slices_S3x3_S1x1_0_0) : (⟨S3x3, .f32⟩ : BufTy).Contents (Elt F) → (⟨S1x1, .f32⟩ : BufTy).Contents (Elt F)),
    StableHlo.reshape main_v56 main_v57 rfl shapeCasts_S1x1_S_,
    StableHlo.unary main_v54 main_v58 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v57 main_v59 (broadcastInDim S8x1024x1024 ![] bcast_S_S8x1024x1024 : (⟨S_, .f32⟩ : BufTy).Contents (Elt F) → (⟨S8x1024x1024, .f32⟩ : BufTy).Contents (Elt F)),
    StableHlo.binary main_v59 main_v58 main_v60 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v55 main_v60 main_v61 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v62 ((extractStridedSlice S1x1 ![0, 1] · slices_S3x3_S1x1_0_1) : (⟨S3x3, .f32⟩ : BufTy).Contents (Elt F) → (⟨S1x1, .f32⟩ : BufTy).Contents (Elt F)),
    StableHlo.reshape main_v62 main_v63 rfl shapeCasts_S1x1_S_,
    StableHlo.unary main_v54 main_v64 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v63 main_v65 (broadcastInDim S8x1024x1024 ![] bcast_S_S8x1024x1024 : (⟨S_, .f32⟩ : BufTy).Contents (Elt F) → (⟨S8x1024x1024, .f32⟩ : BufTy).Contents (Elt F)),
    StableHlo.binary main_v65 main_v64 main_v66 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v61 main_v66 main_v67 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v68 ((extractStridedSlice S1x1 ![0, 2] · slices_S3x3_S1x1_0_2) : (⟨S3x3, .f32⟩ : BufTy).Contents (Elt F) → (⟨S1x1, .f32⟩ : BufTy).Contents (Elt F)),
    StableHlo.reshape main_v68 main_v69 rfl shapeCasts_S1x1_S_,
    StableHlo.unary main_v54 main_v70 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v69 main_v71 (broadcastInDim S8x1024x1024 ![] bcast_S_S8x1024x1024 : (⟨S_, .f32⟩ : BufTy).Contents (Elt F) → (⟨S8x1024x1024, .f32⟩ : BufTy).Contents (Elt F)),
    StableHlo.binary main_v71 main_v70 main_v72 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v67 main_v72 main_v73 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v74 ((extractStridedSlice S1x1 ![1, 0] · slices_S3x3_S1x1_1_0) : (⟨S3x3, .f32⟩ : BufTy).Contents (Elt F) → (⟨S1x1, .f32⟩ : BufTy).Contents (Elt F)),
    StableHlo.reshape main_v74 main_v75 rfl shapeCasts_S1x1_S_,
    StableHlo.unary main_v54 main_v76 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v75 main_v77 (broadcastInDim S8x1024x1024 ![] bcast_S_S8x1024x1024 : (⟨S_, .f32⟩ : BufTy).Contents (Elt F) → (⟨S8x1024x1024, .f32⟩ : BufTy).Contents (Elt F)),
    StableHlo.binary main_v77 main_v76 main_v78 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v73 main_v78 main_v79 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v80 ((extractStridedSlice S1x1 ![1, 1] · slices_S3x3_S1x1_1_1) : (⟨S3x3, .f32⟩ : BufTy).Contents (Elt F) → (⟨S1x1, .f32⟩ : BufTy).Contents (Elt F)),
    StableHlo.reshape main_v80 main_v81 rfl shapeCasts_S1x1_S_,
    StableHlo.unary main_v54 main_v82 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v81 main_v83 (broadcastInDim S8x1024x1024 ![] bcast_S_S8x1024x1024 : (⟨S_, .f32⟩ : BufTy).Contents (Elt F) → (⟨S8x1024x1024, .f32⟩ : BufTy).Contents (Elt F)),
    StableHlo.binary main_v83 main_v82 main_v84 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v79 main_v84 main_v85 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v86 ((extractStridedSlice S1x1 ![1, 2] · slices_S3x3_S1x1_1_2) : (⟨S3x3, .f32⟩ : BufTy).Contents (Elt F) → (⟨S1x1, .f32⟩ : BufTy).Contents (Elt F)),
    StableHlo.reshape main_v86 main_v87 rfl shapeCasts_S1x1_S_,
    StableHlo.unary main_v54 main_v88 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v87 main_v89 (broadcastInDim S8x1024x1024 ![] bcast_S_S8x1024x1024 : (⟨S_, .f32⟩ : BufTy).Contents (Elt F) → (⟨S8x1024x1024, .f32⟩ : BufTy).Contents (Elt F)),
    StableHlo.binary main_v89 main_v88 main_v90 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v85 main_v90 main_v91 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v92 ((extractStridedSlice S1x1 ![2, 0] · slices_S3x3_S1x1_2_0) : (⟨S3x3, .f32⟩ : BufTy).Contents (Elt F) → (⟨S1x1, .f32⟩ : BufTy).Contents (Elt F)),
    StableHlo.reshape main_v92 main_v93 rfl shapeCasts_S1x1_S_,
    StableHlo.unary main_v54 main_v94 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v93 main_v95 (broadcastInDim S8x1024x1024 ![] bcast_S_S8x1024x1024 : (⟨S_, .f32⟩ : BufTy).Contents (Elt F) → (⟨S8x1024x1024, .f32⟩ : BufTy).Contents (Elt F)),
    StableHlo.binary main_v95 main_v94 main_v96 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v91 main_v96 main_v97 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v98 ((extractStridedSlice S1x1 ![2, 1] · slices_S3x3_S1x1_2_1) : (⟨S3x3, .f32⟩ : BufTy).Contents (Elt F) → (⟨S1x1, .f32⟩ : BufTy).Contents (Elt F)),
    StableHlo.reshape main_v98 main_v99 rfl shapeCasts_S1x1_S_,
    StableHlo.unary main_v54 main_v100 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v99 main_v101 (broadcastInDim S8x1024x1024 ![] bcast_S_S8x1024x1024 : (⟨S_, .f32⟩ : BufTy).Contents (Elt F) → (⟨S8x1024x1024, .f32⟩ : BufTy).Contents (Elt F)),
    StableHlo.binary main_v101 main_v100 main_v102 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v97 main_v102 main_v103 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v104 ((extractStridedSlice S1x1 ![2, 2] · slices_S3x3_S1x1_2_2) : (⟨S3x3, .f32⟩ : BufTy).Contents (Elt F) → (⟨S1x1, .f32⟩ : BufTy).Contents (Elt F)),
    StableHlo.reshape main_v104 main_v105 rfl shapeCasts_S1x1_S_,
    StableHlo.unary main_v54 main_v106 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v105 main_v107 (broadcastInDim S8x1024x1024 ![] bcast_S_S8x1024x1024 : (⟨S_, .f32⟩ : BufTy).Contents (Elt F) → (⟨S8x1024x1024, .f32⟩ : BufTy).Contents (Elt F)),
    StableHlo.binary main_v107 main_v106 main_v108 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v103 main_v108 main_v109 (addf : (⟨S8x1024x1024, .f32⟩ : BufTy).Contents (Elt F) → (⟨S8x1024x1024, .f32⟩ : BufTy).Contents (Elt F) → (⟨S8x1024x1024, .f32⟩ : BufTy).Contents (Elt F)) ]

/-- Stage 13 (1 operations): up to the operation that writes main_c_26. -/
abbrev stage13 : List (HloOp τ sig (Elt F)) :=
  [ StableHlo.nullary main_c_26 (constantI S_ 32 0#32) ]

/-- Stage 14 (16 operations): up to the operation that writes main_call7.v15. -/
abbrev stage14 : List (HloOp τ sig (Elt F)) :=
  [ StableHlo.unary main_v53 main_call7_v0 ((extractStridedSlice S8x1x1024 ![0, 0, 0] · slices_S8x1024x1024_S8x1x1024_0_0_0) : (⟨S8x1024x1024, .f32⟩ : BufTy).Contents (Elt F) → (⟨S8x1x1024, .f32⟩ : BufTy).Contents (Elt F)),
    StableHlo.unary main_v53 main_call7_v1 ((extractStridedSlice S8x1x1024 ![0, 1, 0] · slices_S8x1024x1024_S8x1x1024_0_1_0) : (⟨S8x1024x1024, .f32⟩ : BufTy).Contents (Elt F) → (⟨S8x1x1024, .f32⟩ : BufTy).Contents (Elt F)),
    StableHlo.unary main_call7_v1 main_call7_v2 ((Host.reverse [1]) : (⟨S8x1x1024, .f32⟩ : BufTy).Contents (Elt F) → (⟨S8x1x1024, .f32⟩ : BufTy).Contents (Elt F)),
    StableHlo.binary main_call7_v2 main_v53 main_call7_v3 ((fun a b => concatenate S8x1025x1024 1 [⟨S8x1x1024, a⟩, ⟨S8x1024x1024, b⟩] concatenates_S8x1x1024_S8x1024x1024_S8x1025x1024_d1) : (⟨S8x1x1024, .f32⟩ : BufTy).Contents (Elt F) → (⟨S8x1024x1024, .f32⟩ : BufTy).Contents (Elt F) → (⟨S8x1025x1024, .f32⟩ : BufTy).Contents (Elt F)),
    StableHlo.unary main_call7_v3 main_call7_v4 ((extractStridedSlice S8x1x1024 ![0, 1024, 0] · slices_S8x1025x1024_S8x1x1024_0_1024_0) : (⟨S8x1025x1024, .f32⟩ : BufTy).Contents (Elt F) → (⟨S8x1x1024, .f32⟩ : BufTy).Contents (Elt F)),
    StableHlo.unary main_call7_v3 main_call7_v5 ((extractStridedSlice S8x1x1024 ![0, 1023, 0] · slices_S8x1025x1024_S8x1x1024_0_1023_0) : (⟨S8x1025x1024, .f32⟩ : BufTy).Contents (Elt F) → (⟨S8x1x1024, .f32⟩ : BufTy).Contents (Elt F)),
    StableHlo.unary main_call7_v5 main_call7_v6 ((Host.reverse [1]) : (⟨S8x1x1024, .f32⟩ : BufTy).Contents (Elt F) → (⟨S8x1x1024, .f32⟩ : BufTy).Contents (Elt F)),
    StableHlo.binary main_call7_v3 main_call7_v6 main_call7_v7 ((fun a b => concatenate S8x1026x1024 1 [⟨S8x1025x1024, a⟩, ⟨S8x1x1024, b⟩] concatenates_S8x1025x1024_S8x1x1024_S8x1026x1024_d1) : (⟨S8x1025x1024, .f32⟩ : BufTy).Contents (Elt F) → (⟨S8x1x1024, .f32⟩ : BufTy).Contents (Elt F) → (⟨S8x1026x1024, .f32⟩ : BufTy).Contents (Elt F)),
    StableHlo.unary main_call7_v7 main_call7_v8 ((extractStridedSlice S8x1026x1 ![0, 0, 0] · slices_S8x1026x1024_S8x1026x1_0_0_0) : (⟨S8x1026x1024, .f32⟩ : BufTy).Contents (Elt F) → (⟨S8x1026x1, .f32⟩ : BufTy).Contents (Elt F)),
    StableHlo.unary main_call7_v7 main_call7_v9 ((extractStridedSlice S8x1026x1 ![0, 0, 1] · slices_S8x1026x1024_S8x1026x1_0_0_1) : (⟨S8x1026x1024, .f32⟩ : BufTy).Contents (Elt F) → (⟨S8x1026x1, .f32⟩ : BufTy).Contents (Elt F)),
    StableHlo.unary main_call7_v9 main_call7_v10 ((Host.reverse [2]) : (⟨S8x1026x1, .f32⟩ : BufTy).Contents (Elt F) → (⟨S8x1026x1, .f32⟩ : BufTy).Contents (Elt F)),
    StableHlo.binary main_call7_v10 main_call7_v7 main_call7_v11 ((fun a b => concatenate S8x1026x1025 2 [⟨S8x1026x1, a⟩, ⟨S8x1026x1024, b⟩] concatenates_S8x1026x1_S8x1026x1024_S8x1026x1025_d2) : (⟨S8x1026x1, .f32⟩ : BufTy).Contents (Elt F) → (⟨S8x1026x1024, .f32⟩ : BufTy).Contents (Elt F) → (⟨S8x1026x1025, .f32⟩ : BufTy).Contents (Elt F)),
    StableHlo.unary main_call7_v11 main_call7_v12 ((extractStridedSlice S8x1026x1 ![0, 0, 1024] · slices_S8x1026x1025_S8x1026x1_0_0_1024) : (⟨S8x1026x1025, .f32⟩ : BufTy).Contents (Elt F) → (⟨S8x1026x1, .f32⟩ : BufTy).Contents (Elt F)),
    StableHlo.unary main_call7_v11 main_call7_v13 ((extractStridedSlice S8x1026x1 ![0, 0, 1023] · slices_S8x1026x1025_S8x1026x1_0_0_1023) : (⟨S8x1026x1025, .f32⟩ : BufTy).Contents (Elt F) → (⟨S8x1026x1, .f32⟩ : BufTy).Contents (Elt F)),
    StableHlo.unary main_call7_v13 main_call7_v14 ((Host.reverse [2]) : (⟨S8x1026x1, .f32⟩ : BufTy).Contents (Elt F) → (⟨S8x1026x1, .f32⟩ : BufTy).Contents (Elt F)),
    StableHlo.binary main_call7_v11 main_call7_v14 main_v110 ((fun a b => concatenate S8x1026x1026 2 [⟨S8x1026x1025, a⟩, ⟨S8x1026x1, b⟩] concatenates_S8x1026x1025_S8x1026x1_S8x1026x1026_d2) : (⟨S8x1026x1025, .f32⟩ : BufTy).Contents (Elt F) → (⟨S8x1026x1, .f32⟩ : BufTy).Contents (Elt F) → (⟨S8x1026x1026, .f32⟩ : BufTy).Contents (Elt F)) ]

/-- Stage 15 (56 operations): up to the operation that writes main_v165. -/
abbrev stage15 : List (HloOp τ sig (Elt F)) :=
  [ StableHlo.nullary main_cst_27 (constant S_ .f32 0x00000000#32),
    StableHlo.unary main_cst_27 main_v111 (broadcastInDim S8x1024x1024 ![] bcast_S_S8x1024x1024 : (⟨S_, .f32⟩ : BufTy).Contents (Elt F) → (⟨S8x1024x1024, .f32⟩ : BufTy).Contents (Elt F)),
    StableHlo.unary main_cst main_v112 ((extractStridedSlice S1x1 ![0, 0] · slices_S3x3_S1x1_0_0) : (⟨S3x3, .f32⟩ : BufTy).Contents (Elt F) → (⟨S1x1, .f32⟩ : BufTy).Contents (Elt F)),
    StableHlo.reshape main_v112 main_v113 rfl shapeCasts_S1x1_S_,
    StableHlo.unary main_v110 main_v114 ((extractStridedSlice S8x1024x1024 ![0, 0, 0] · slices_S8x1026x1026_S8x1024x1024_0_0_0) : (⟨S8x1026x1026, .f32⟩ : BufTy).Contents (Elt F) → (⟨S8x1024x1024, .f32⟩ : BufTy).Contents (Elt F)),
    StableHlo.unary main_v113 main_v115 (broadcastInDim S8x1024x1024 ![] bcast_S_S8x1024x1024 : (⟨S_, .f32⟩ : BufTy).Contents (Elt F) → (⟨S8x1024x1024, .f32⟩ : BufTy).Contents (Elt F)),
    StableHlo.binary main_v115 main_v114 main_v116 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v111 main_v116 main_v117 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v118 ((extractStridedSlice S1x1 ![0, 1] · slices_S3x3_S1x1_0_1) : (⟨S3x3, .f32⟩ : BufTy).Contents (Elt F) → (⟨S1x1, .f32⟩ : BufTy).Contents (Elt F)),
    StableHlo.reshape main_v118 main_v119 rfl shapeCasts_S1x1_S_,
    StableHlo.unary main_v110 main_v120 ((extractStridedSlice S8x1024x1024 ![0, 0, 1] · slices_S8x1026x1026_S8x1024x1024_0_0_1) : (⟨S8x1026x1026, .f32⟩ : BufTy).Contents (Elt F) → (⟨S8x1024x1024, .f32⟩ : BufTy).Contents (Elt F)),
    StableHlo.unary main_v119 main_v121 (broadcastInDim S8x1024x1024 ![] bcast_S_S8x1024x1024 : (⟨S_, .f32⟩ : BufTy).Contents (Elt F) → (⟨S8x1024x1024, .f32⟩ : BufTy).Contents (Elt F)),
    StableHlo.binary main_v121 main_v120 main_v122 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v117 main_v122 main_v123 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v124 ((extractStridedSlice S1x1 ![0, 2] · slices_S3x3_S1x1_0_2) : (⟨S3x3, .f32⟩ : BufTy).Contents (Elt F) → (⟨S1x1, .f32⟩ : BufTy).Contents (Elt F)),
    StableHlo.reshape main_v124 main_v125 rfl shapeCasts_S1x1_S_,
    StableHlo.unary main_v110 main_v126 ((extractStridedSlice S8x1024x1024 ![0, 0, 2] · slices_S8x1026x1026_S8x1024x1024_0_0_2) : (⟨S8x1026x1026, .f32⟩ : BufTy).Contents (Elt F) → (⟨S8x1024x1024, .f32⟩ : BufTy).Contents (Elt F)),
    StableHlo.unary main_v125 main_v127 (broadcastInDim S8x1024x1024 ![] bcast_S_S8x1024x1024 : (⟨S_, .f32⟩ : BufTy).Contents (Elt F) → (⟨S8x1024x1024, .f32⟩ : BufTy).Contents (Elt F)),
    StableHlo.binary main_v127 main_v126 main_v128 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v123 main_v128 main_v129 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v130 ((extractStridedSlice S1x1 ![1, 0] · slices_S3x3_S1x1_1_0) : (⟨S3x3, .f32⟩ : BufTy).Contents (Elt F) → (⟨S1x1, .f32⟩ : BufTy).Contents (Elt F)),
    StableHlo.reshape main_v130 main_v131 rfl shapeCasts_S1x1_S_,
    StableHlo.unary main_v110 main_v132 ((extractStridedSlice S8x1024x1024 ![0, 1, 0] · slices_S8x1026x1026_S8x1024x1024_0_1_0) : (⟨S8x1026x1026, .f32⟩ : BufTy).Contents (Elt F) → (⟨S8x1024x1024, .f32⟩ : BufTy).Contents (Elt F)),
    StableHlo.unary main_v131 main_v133 (broadcastInDim S8x1024x1024 ![] bcast_S_S8x1024x1024 : (⟨S_, .f32⟩ : BufTy).Contents (Elt F) → (⟨S8x1024x1024, .f32⟩ : BufTy).Contents (Elt F)),
    StableHlo.binary main_v133 main_v132 main_v134 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v129 main_v134 main_v135 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v136 ((extractStridedSlice S1x1 ![1, 1] · slices_S3x3_S1x1_1_1) : (⟨S3x3, .f32⟩ : BufTy).Contents (Elt F) → (⟨S1x1, .f32⟩ : BufTy).Contents (Elt F)),
    StableHlo.reshape main_v136 main_v137 rfl shapeCasts_S1x1_S_,
    StableHlo.unary main_v110 main_v138 ((extractStridedSlice S8x1024x1024 ![0, 1, 1] · slices_S8x1026x1026_S8x1024x1024_0_1_1) : (⟨S8x1026x1026, .f32⟩ : BufTy).Contents (Elt F) → (⟨S8x1024x1024, .f32⟩ : BufTy).Contents (Elt F)),
    StableHlo.unary main_v137 main_v139 (broadcastInDim S8x1024x1024 ![] bcast_S_S8x1024x1024 : (⟨S_, .f32⟩ : BufTy).Contents (Elt F) → (⟨S8x1024x1024, .f32⟩ : BufTy).Contents (Elt F)),
    StableHlo.binary main_v139 main_v138 main_v140 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v135 main_v140 main_v141 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v142 ((extractStridedSlice S1x1 ![1, 2] · slices_S3x3_S1x1_1_2) : (⟨S3x3, .f32⟩ : BufTy).Contents (Elt F) → (⟨S1x1, .f32⟩ : BufTy).Contents (Elt F)),
    StableHlo.reshape main_v142 main_v143 rfl shapeCasts_S1x1_S_,
    StableHlo.unary main_v110 main_v144 ((extractStridedSlice S8x1024x1024 ![0, 1, 2] · slices_S8x1026x1026_S8x1024x1024_0_1_2) : (⟨S8x1026x1026, .f32⟩ : BufTy).Contents (Elt F) → (⟨S8x1024x1024, .f32⟩ : BufTy).Contents (Elt F)),
    StableHlo.unary main_v143 main_v145 (broadcastInDim S8x1024x1024 ![] bcast_S_S8x1024x1024 : (⟨S_, .f32⟩ : BufTy).Contents (Elt F) → (⟨S8x1024x1024, .f32⟩ : BufTy).Contents (Elt F)),
    StableHlo.binary main_v145 main_v144 main_v146 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v141 main_v146 main_v147 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v148 ((extractStridedSlice S1x1 ![2, 0] · slices_S3x3_S1x1_2_0) : (⟨S3x3, .f32⟩ : BufTy).Contents (Elt F) → (⟨S1x1, .f32⟩ : BufTy).Contents (Elt F)),
    StableHlo.reshape main_v148 main_v149 rfl shapeCasts_S1x1_S_,
    StableHlo.unary main_v110 main_v150 ((extractStridedSlice S8x1024x1024 ![0, 2, 0] · slices_S8x1026x1026_S8x1024x1024_0_2_0) : (⟨S8x1026x1026, .f32⟩ : BufTy).Contents (Elt F) → (⟨S8x1024x1024, .f32⟩ : BufTy).Contents (Elt F)),
    StableHlo.unary main_v149 main_v151 (broadcastInDim S8x1024x1024 ![] bcast_S_S8x1024x1024 : (⟨S_, .f32⟩ : BufTy).Contents (Elt F) → (⟨S8x1024x1024, .f32⟩ : BufTy).Contents (Elt F)),
    StableHlo.binary main_v151 main_v150 main_v152 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v147 main_v152 main_v153 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v154 ((extractStridedSlice S1x1 ![2, 1] · slices_S3x3_S1x1_2_1) : (⟨S3x3, .f32⟩ : BufTy).Contents (Elt F) → (⟨S1x1, .f32⟩ : BufTy).Contents (Elt F)),
    StableHlo.reshape main_v154 main_v155 rfl shapeCasts_S1x1_S_,
    StableHlo.unary main_v110 main_v156 ((extractStridedSlice S8x1024x1024 ![0, 2, 1] · slices_S8x1026x1026_S8x1024x1024_0_2_1) : (⟨S8x1026x1026, .f32⟩ : BufTy).Contents (Elt F) → (⟨S8x1024x1024, .f32⟩ : BufTy).Contents (Elt F)),
    StableHlo.unary main_v155 main_v157 (broadcastInDim S8x1024x1024 ![] bcast_S_S8x1024x1024 : (⟨S_, .f32⟩ : BufTy).Contents (Elt F) → (⟨S8x1024x1024, .f32⟩ : BufTy).Contents (Elt F)),
    StableHlo.binary main_v157 main_v156 main_v158 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v153 main_v158 main_v159 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_cst main_v160 ((extractStridedSlice S1x1 ![2, 2] · slices_S3x3_S1x1_2_2) : (⟨S3x3, .f32⟩ : BufTy).Contents (Elt F) → (⟨S1x1, .f32⟩ : BufTy).Contents (Elt F)),
    StableHlo.reshape main_v160 main_v161 rfl shapeCasts_S1x1_S_,
    StableHlo.unary main_v110 main_v162 ((extractStridedSlice S8x1024x1024 ![0, 2, 2] · slices_S8x1026x1026_S8x1024x1024_0_2_2) : (⟨S8x1026x1026, .f32⟩ : BufTy).Contents (Elt F) → (⟨S8x1024x1024, .f32⟩ : BufTy).Contents (Elt F)),
    StableHlo.unary main_v161 main_v163 (broadcastInDim S8x1024x1024 ![] bcast_S_S8x1024x1024 : (⟨S_, .f32⟩ : BufTy).Contents (Elt F) → (⟨S8x1024x1024, .f32⟩ : BufTy).Contents (Elt F)),
    StableHlo.binary main_v163 main_v162 main_v164 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v159 main_v164 main_v165 (addf : (⟨S8x1024x1024, .f32⟩ : BufTy).Contents (Elt F) → (⟨S8x1024x1024, .f32⟩ : BufTy).Contents (Elt F) → (⟨S8x1024x1024, .f32⟩ : BufTy).Contents (Elt F)) ]

/-- Stage 16 (3 operations): up to the operation that writes main_c_28. -/
abbrev stage16 : List (HloOp τ sig (Elt F)) :=
  [ StableHlo.unary main_arg1 main_v166 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v166 main_v167 rfl shapeCasts_S1x1x1024x1024_S1024x1024,
    StableHlo.nullary main_c_28 (constantI S_ 32 0#32) ]

/-- Stage 17 (16 operations): up to the operation that writes main_call8.v15. -/
abbrev stage17 : List (HloOp τ sig (Elt F)) :=
  [ StableHlo.unary main_v167 main_call8_v0 ((extractStridedSlice S1x1024 ![0, 0] · slices_S1024x1024_S1x1024_0_0) : (⟨S1024x1024, .f32⟩ : BufTy).Contents (Elt F) → (⟨S1x1024, .f32⟩ : BufTy).Contents (Elt F)),
    StableHlo.unary main_v167 main_call8_v1 ((extractStridedSlice S1x1024 ![1, 0] · slices_S1024x1024_S1x1024_1_0) : (⟨S1024x1024, .f32⟩ : BufTy).Contents (Elt F) → (⟨S1x1024, .f32⟩ : BufTy).Contents (Elt F)),
    StableHlo.unary main_call8_v1 main_call8_v2 ((Host.reverse [0]) : (⟨S1x1024, .f32⟩ : BufTy).Contents (Elt F) → (⟨S1x1024, .f32⟩ : BufTy).Contents (Elt F)),
    StableHlo.binary main_call8_v2 main_v167 main_call8_v3 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    StableHlo.unary main_call8_v3 main_call8_v4 ((extractStridedSlice S1x1024 ![1024, 0] · slices_S1025x1024_S1x1024_1024_0) : (⟨S1025x1024, .f32⟩ : BufTy).Contents (Elt F) → (⟨S1x1024, .f32⟩ : BufTy).Contents (Elt F)),
    StableHlo.unary main_call8_v3 main_call8_v5 ((extractStridedSlice S1x1024 ![1023, 0] · slices_S1025x1024_S1x1024_1023_0) : (⟨S1025x1024, .f32⟩ : BufTy).Contents (Elt F) → (⟨S1x1024, .f32⟩ : BufTy).Contents (Elt F)),
    StableHlo.unary main_call8_v5 main_call8_v6 ((Host.reverse [0]) : (⟨S1x1024, .f32⟩ : BufTy).Contents (Elt F) → (⟨S1x1024, .f32⟩ : BufTy).Contents (Elt F)),
    StableHlo.binary main_call8_v3 main_call8_v6 main_call8_v7 ((fun a b => concatenate S1026x1024 0 [⟨S1025x1024, a⟩, ⟨S1x1024, b⟩] concatenates_S1025x1024_S1x1024_S1026x1024_d0) : (⟨S1025x1024, .f32⟩ : BufTy).Contents (Elt F) → (⟨S1x1024, .f32⟩ : BufTy).Contents (Elt F) → (⟨S1026x1024, .f32⟩ : BufTy).Contents (Elt F)),
    StableHlo.unary main_call8_v7 main_call8_v8 ((extractStridedSlice S1026x1 ![0, 0] · slices_S1026x1024_S1026x1_0_0) : (⟨S1026x1024, .f32⟩ : BufTy).Contents (Elt F) → (⟨S1026x1, .f32⟩ : BufTy).Contents (Elt F)),
    StableHlo.unary main_call8_v7 main_call8_v9 ((extractStridedSlice S1026x1 ![0, 1] · slices_S1026x1024_S1026x1_0_1) : (⟨S1026x1024, .f32⟩ : BufTy).Contents (Elt F) → (⟨S1026x1, .f32⟩ : BufTy).Contents (Elt F)),
    StableHlo.unary main_call8_v9 main_call8_v10 ((Host.reverse [1]) : (⟨S1026x1, .f32⟩ : BufTy).Contents (Elt F) → (⟨S1026x1, .f32⟩ : BufTy).Contents (Elt F)),
    StableHlo.binary main_call8_v10 main_call8_v7 main_call8_v11 ((fun a b => concatenate S1026x1025 1 [⟨S1026x1, a⟩, ⟨S1026x1024, b⟩] concatenates_S1026x1_S1026x1024_S1026x1025_d1) : (⟨S1026x1, .f32⟩ : BufTy).Contents (Elt F) → (⟨S1026x1024, .f32⟩ : BufTy).Contents (Elt F) → (⟨S1026x1025, .f32⟩ : BufTy).Contents (Elt F)),
    StableHlo.unary main_call8_v11 main_call8_v12 ((extractStridedSlice S1026x1 ![0, 1024] · slices_S1026x1025_S1026x1_0_1024) : (⟨S1026x1025, .f32⟩ : BufTy).Contents (Elt F) → (⟨S1026x1, .f32⟩ : BufTy).Contents (Elt F)),
    StableHlo.unary main_call8_v11 main_call8_v13 ((extractStridedSlice S1026x1 ![0, 1023] · slices_S1026x1025_S1026x1_0_1023) : (⟨S1026x1025, .f32⟩ : BufTy).Contents (Elt F) → (⟨S1026x1, .f32⟩ : BufTy).Contents (Elt F)),
    StableHlo.unary main_call8_v13 main_call8_v14 ((Host.reverse [1]) : (⟨S1026x1, .f32⟩ : BufTy).Contents (Elt F) → (⟨S1026x1, .f32⟩ : BufTy).Contents (Elt F)),
    StableHlo.binary main_call8_v11 main_call8_v14 main_v168 ((fun a b => concatenate S1026x1026 1 [⟨S1026x1025, a⟩, ⟨S1026x1, b⟩] concatenates_S1026x1025_S1026x1_S1026x1026_d1) : (⟨S1026x1025, .f32⟩ : BufTy).Contents (Elt F) → (⟨S1026x1, .f32⟩ : BufTy).Contents (Elt F) → (⟨S1026x1026, .f32⟩ : BufTy).Contents (Elt F)) ]

/-- Stage 18 (56 operations): up to the operation that writes main_v223. -/
abbrev stage18 : List (HloOp τ sig (Elt F)) :=
  [ StableHlo.nullary main_cst_29 (constant S_ .f32 0x00000000#32),
    StableHlo.unary main_cst_29 main_v169 (broadcastInDim S1024x1024 ![] bcast_S_S1024x1024 : (⟨S_, .f32⟩ : BufTy).Contents (Elt F) → (⟨S1024x1024, .f32⟩ : BufTy).Contents (Elt F)),
    StableHlo.unary main_cst main_v170 ((extractStridedSlice S1x1 ![0, 0] · slices_S3x3_S1x1_0_0) : (⟨S3x3, .f32⟩ : BufTy).Contents (Elt F) → (⟨S1x1, .f32⟩ : BufTy).Contents (Elt F)),
    StableHlo.reshape main_v170 main_v171 rfl shapeCasts_S1x1_S_,
    StableHlo.unary main_v168 main_v172 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v171 main_v173 (broadcastInDim S1024x1024 ![] bcast_S_S1024x1024 : (⟨S_, .f32⟩ : BufTy).Contents (Elt F) → (⟨S1024x1024, .f32⟩ : BufTy).Contents (Elt F)),
    StableHlo.binary main_v173 main_v172 main_v174 (mulf : (⟨S1024x1024, .f32⟩ : BufTy).Contents (Elt F) → (⟨S1024x1024, .f32⟩ : BufTy).Contents (Elt F) → (⟨S1024x1024, .f32⟩ : BufTy).Contents (Elt F)),
    StableHlo.binary main_v169 main_v174 main_v175 (addf : (⟨S1024x1024, .f32⟩ : BufTy).Contents (Elt F) → (⟨S1024x1024, .f32⟩ : BufTy).Contents (Elt F) → (⟨S1024x1024, .f32⟩ : BufTy).Contents (Elt F)),
    StableHlo.unary main_cst main_v176 ((extractStridedSlice S1x1 ![0, 1] · slices_S3x3_S1x1_0_1) : (⟨S3x3, .f32⟩ : BufTy).Contents (Elt F) → (⟨S1x1, .f32⟩ : BufTy).Contents (Elt F)),
    StableHlo.reshape main_v176 main_v177 rfl shapeCasts_S1x1_S_,
    StableHlo.unary main_v168 main_v178 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v177 main_v179 (broadcastInDim S1024x1024 ![] bcast_S_S1024x1024 : (⟨S_, .f32⟩ : BufTy).Contents (Elt F) → (⟨S1024x1024, .f32⟩ : BufTy).Contents (Elt F)),
    StableHlo.binary main_v179 main_v178 main_v180 (mulf : (⟨S1024x1024, .f32⟩ : BufTy).Contents (Elt F) → (⟨S1024x1024, .f32⟩ : BufTy).Contents (Elt F) → (⟨S1024x1024, .f32⟩ : BufTy).Contents (Elt F)),
    StableHlo.binary main_v175 main_v180 main_v181 (addf : (⟨S1024x1024, .f32⟩ : BufTy).Contents (Elt F) → (⟨S1024x1024, .f32⟩ : BufTy).Contents (Elt F) → (⟨S1024x1024, .f32⟩ : BufTy).Contents (Elt F)),
    StableHlo.unary main_cst main_v182 ((extractStridedSlice S1x1 ![0, 2] · slices_S3x3_S1x1_0_2) : (⟨S3x3, .f32⟩ : BufTy).Contents (Elt F) → (⟨S1x1, .f32⟩ : BufTy).Contents (Elt F)),
    StableHlo.reshape main_v182 main_v183 rfl shapeCasts_S1x1_S_,
    StableHlo.unary main_v168 main_v184 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v183 main_v185 (broadcastInDim S1024x1024 ![] bcast_S_S1024x1024 : (⟨S_, .f32⟩ : BufTy).Contents (Elt F) → (⟨S1024x1024, .f32⟩ : BufTy).Contents (Elt F)),
    StableHlo.binary main_v185 main_v184 main_v186 (mulf : (⟨S1024x1024, .f32⟩ : BufTy).Contents (Elt F) → (⟨S1024x1024, .f32⟩ : BufTy).Contents (Elt F) → (⟨S1024x1024, .f32⟩ : BufTy).Contents (Elt F)),
    StableHlo.binary main_v181 main_v186 main_v187 (addf : (⟨S1024x1024, .f32⟩ : BufTy).Contents (Elt F) → (⟨S1024x1024, .f32⟩ : BufTy).Contents (Elt F) → (⟨S1024x1024, .f32⟩ : BufTy).Contents (Elt F)),
    StableHlo.unary main_cst main_v188 ((extractStridedSlice S1x1 ![1, 0] · slices_S3x3_S1x1_1_0) : (⟨S3x3, .f32⟩ : BufTy).Contents (Elt F) → (⟨S1x1, .f32⟩ : BufTy).Contents (Elt F)),
    StableHlo.reshape main_v188 main_v189 rfl shapeCasts_S1x1_S_,
    StableHlo.unary main_v168 main_v190 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v189 main_v191 (broadcastInDim S1024x1024 ![] bcast_S_S1024x1024 : (⟨S_, .f32⟩ : BufTy).Contents (Elt F) → (⟨S1024x1024, .f32⟩ : BufTy).Contents (Elt F)),
    StableHlo.binary main_v191 main_v190 main_v192 (mulf : (⟨S1024x1024, .f32⟩ : BufTy).Contents (Elt F) → (⟨S1024x1024, .f32⟩ : BufTy).Contents (Elt F) → (⟨S1024x1024, .f32⟩ : BufTy).Contents (Elt F)),
    StableHlo.binary main_v187 main_v192 main_v193 (addf : (⟨S1024x1024, .f32⟩ : BufTy).Contents (Elt F) → (⟨S1024x1024, .f32⟩ : BufTy).Contents (Elt F) → (⟨S1024x1024, .f32⟩ : BufTy).Contents (Elt F)),
    StableHlo.unary main_cst main_v194 ((extractStridedSlice S1x1 ![1, 1] · slices_S3x3_S1x1_1_1) : (⟨S3x3, .f32⟩ : BufTy).Contents (Elt F) → (⟨S1x1, .f32⟩ : BufTy).Contents (Elt F)),
    StableHlo.reshape main_v194 main_v195 rfl shapeCasts_S1x1_S_,
    StableHlo.unary main_v168 main_v196 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v195 main_v197 (broadcastInDim S1024x1024 ![] bcast_S_S1024x1024 : (⟨S_, .f32⟩ : BufTy).Contents (Elt F) → (⟨S1024x1024, .f32⟩ : BufTy).Contents (Elt F)),
    StableHlo.binary main_v197 main_v196 main_v198 (mulf : (⟨S1024x1024, .f32⟩ : BufTy).Contents (Elt F) → (⟨S1024x1024, .f32⟩ : BufTy).Contents (Elt F) → (⟨S1024x1024, .f32⟩ : BufTy).Contents (Elt F)),
    StableHlo.binary main_v193 main_v198 main_v199 (addf : (⟨S1024x1024, .f32⟩ : BufTy).Contents (Elt F) → (⟨S1024x1024, .f32⟩ : BufTy).Contents (Elt F) → (⟨S1024x1024, .f32⟩ : BufTy).Contents (Elt F)),
    StableHlo.unary main_cst main_v200 ((extractStridedSlice S1x1 ![1, 2] · slices_S3x3_S1x1_1_2) : (⟨S3x3, .f32⟩ : BufTy).Contents (Elt F) → (⟨S1x1, .f32⟩ : BufTy).Contents (Elt F)),
    StableHlo.reshape main_v200 main_v201 rfl shapeCasts_S1x1_S_,
    StableHlo.unary main_v168 main_v202 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v201 main_v203 (broadcastInDim S1024x1024 ![] bcast_S_S1024x1024 : (⟨S_, .f32⟩ : BufTy).Contents (Elt F) → (⟨S1024x1024, .f32⟩ : BufTy).Contents (Elt F)),
    StableHlo.binary main_v203 main_v202 main_v204 (mulf : (⟨S1024x1024, .f32⟩ : BufTy).Contents (Elt F) → (⟨S1024x1024, .f32⟩ : BufTy).Contents (Elt F) → (⟨S1024x1024, .f32⟩ : BufTy).Contents (Elt F)),
    StableHlo.binary main_v199 main_v204 main_v205 (addf : (⟨S1024x1024, .f32⟩ : BufTy).Contents (Elt F) → (⟨S1024x1024, .f32⟩ : BufTy).Contents (Elt F) → (⟨S1024x1024, .f32⟩ : BufTy).Contents (Elt F)),
    StableHlo.unary main_cst main_v206 ((extractStridedSlice S1x1 ![2, 0] · slices_S3x3_S1x1_2_0) : (⟨S3x3, .f32⟩ : BufTy).Contents (Elt F) → (⟨S1x1, .f32⟩ : BufTy).Contents (Elt F)),
    StableHlo.reshape main_v206 main_v207 rfl shapeCasts_S1x1_S_,
    StableHlo.unary main_v168 main_v208 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v207 main_v209 (broadcastInDim S1024x1024 ![] bcast_S_S1024x1024 : (⟨S_, .f32⟩ : BufTy).Contents (Elt F) → (⟨S1024x1024, .f32⟩ : BufTy).Contents (Elt F)),
    StableHlo.binary main_v209 main_v208 main_v210 (mulf : (⟨S1024x1024, .f32⟩ : BufTy).Contents (Elt F) → (⟨S1024x1024, .f32⟩ : BufTy).Contents (Elt F) → (⟨S1024x1024, .f32⟩ : BufTy).Contents (Elt F)),
    StableHlo.binary main_v205 main_v210 main_v211 (addf : (⟨S1024x1024, .f32⟩ : BufTy).Contents (Elt F) → (⟨S1024x1024, .f32⟩ : BufTy).Contents (Elt F) → (⟨S1024x1024, .f32⟩ : BufTy).Contents (Elt F)),
    StableHlo.unary main_cst main_v212 ((extractStridedSlice S1x1 ![2, 1] · slices_S3x3_S1x1_2_1) : (⟨S3x3, .f32⟩ : BufTy).Contents (Elt F) → (⟨S1x1, .f32⟩ : BufTy).Contents (Elt F)),
    StableHlo.reshape main_v212 main_v213 rfl shapeCasts_S1x1_S_,
    StableHlo.unary main_v168 main_v214 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v213 main_v215 (broadcastInDim S1024x1024 ![] bcast_S_S1024x1024 : (⟨S_, .f32⟩ : BufTy).Contents (Elt F) → (⟨S1024x1024, .f32⟩ : BufTy).Contents (Elt F)),
    StableHlo.binary main_v215 main_v214 main_v216 (mulf : (⟨S1024x1024, .f32⟩ : BufTy).Contents (Elt F) → (⟨S1024x1024, .f32⟩ : BufTy).Contents (Elt F) → (⟨S1024x1024, .f32⟩ : BufTy).Contents (Elt F)),
    StableHlo.binary main_v211 main_v216 main_v217 (addf : (⟨S1024x1024, .f32⟩ : BufTy).Contents (Elt F) → (⟨S1024x1024, .f32⟩ : BufTy).Contents (Elt F) → (⟨S1024x1024, .f32⟩ : BufTy).Contents (Elt F)),
    StableHlo.unary main_cst main_v218 ((extractStridedSlice S1x1 ![2, 2] · slices_S3x3_S1x1_2_2) : (⟨S3x3, .f32⟩ : BufTy).Contents (Elt F) → (⟨S1x1, .f32⟩ : BufTy).Contents (Elt F)),
    StableHlo.reshape main_v218 main_v219 rfl shapeCasts_S1x1_S_,
    StableHlo.unary main_v168 main_v220 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v219 main_v221 (broadcastInDim S1024x1024 ![] bcast_S_S1024x1024 : (⟨S_, .f32⟩ : BufTy).Contents (Elt F) → (⟨S1024x1024, .f32⟩ : BufTy).Contents (Elt F)),
    StableHlo.binary main_v221 main_v220 main_v222 (mulf : (⟨S1024x1024, .f32⟩ : BufTy).Contents (Elt F) → (⟨S1024x1024, .f32⟩ : BufTy).Contents (Elt F) → (⟨S1024x1024, .f32⟩ : BufTy).Contents (Elt F)),
    StableHlo.binary main_v217 main_v222 main_v223 (addf : (⟨S1024x1024, .f32⟩ : BufTy).Contents (Elt F) → (⟨S1024x1024, .f32⟩ : BufTy).Contents (Elt F) → (⟨S1024x1024, .f32⟩ : BufTy).Contents (Elt F)) ]

/-- Stage 19 (1 operations): up to the operation that writes main_c_30. -/
abbrev stage19 : List (HloOp τ sig (Elt F)) :=
  [ StableHlo.nullary main_c_30 (constantI S_ 32 0#32) ]

/-- Stage 20 (16 operations): up to the operation that writes main_call9.v15. -/
abbrev stage20 : List (HloOp τ sig (Elt F)) :=
  [ StableHlo.unary main_v223 main_call9_v0 ((extractStridedSlice S1x1024 ![0, 0] · slices_S1024x1024_S1x1024_0_0) : (⟨S1024x1024, .f32⟩ : BufTy).Contents (Elt F) → (⟨S1x1024, .f32⟩ : BufTy).Contents (Elt F)),
    StableHlo.unary main_v223 main_call9_v1 ((extractStridedSlice S1x1024 ![1, 0] · slices_S1024x1024_S1x1024_1_0) : (⟨S1024x1024, .f32⟩ : BufTy).Contents (Elt F) → (⟨S1x1024, .f32⟩ : BufTy).Contents (Elt F)),
    StableHlo.unary main_call9_v1 main_call9_v2 ((Host.reverse [0]) : (⟨S1x1024, .f32⟩ : BufTy).Contents (Elt F) → (⟨S1x1024, .f32⟩ : BufTy).Contents (Elt F)),
    StableHlo.binary main_call9_v2 main_v223 main_call9_v3 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    StableHlo.unary main_call9_v3 main_call9_v4 ((extractStridedSlice S1x1024 ![1024, 0] · slices_S1025x1024_S1x1024_1024_0) : (⟨S1025x1024, .f32⟩ : BufTy).Contents (Elt F) → (⟨S1x1024, .f32⟩ : BufTy).Contents (Elt F)),
    StableHlo.unary main_call9_v3 main_call9_v5 ((extractStridedSlice S1x1024 ![1023, 0] · slices_S1025x1024_S1x1024_1023_0) : (⟨S1025x1024, .f32⟩ : BufTy).Contents (Elt F) → (⟨S1x1024, .f32⟩ : BufTy).Contents (Elt F)),
    StableHlo.unary main_call9_v5 main_call9_v6 ((Host.reverse [0]) : (⟨S1x1024, .f32⟩ : BufTy).Contents (Elt F) → (⟨S1x1024, .f32⟩ : BufTy).Contents (Elt F)),
    StableHlo.binary main_call9_v3 main_call9_v6 main_call9_v7 ((fun a b => concatenate S1026x1024 0 [⟨S1025x1024, a⟩, ⟨S1x1024, b⟩] concatenates_S1025x1024_S1x1024_S1026x1024_d0) : (⟨S1025x1024, .f32⟩ : BufTy).Contents (Elt F) → (⟨S1x1024, .f32⟩ : BufTy).Contents (Elt F) → (⟨S1026x1024, .f32⟩ : BufTy).Contents (Elt F)),
    StableHlo.unary main_call9_v7 main_call9_v8 ((extractStridedSlice S1026x1 ![0, 0] · slices_S1026x1024_S1026x1_0_0) : (⟨S1026x1024, .f32⟩ : BufTy).Contents (Elt F) → (⟨S1026x1, .f32⟩ : BufTy).Contents (Elt F)),
    StableHlo.unary main_call9_v7 main_call9_v9 ((extractStridedSlice S1026x1 ![0, 1] · slices_S1026x1024_S1026x1_0_1) : (⟨S1026x1024, .f32⟩ : BufTy).Contents (Elt F) → (⟨S1026x1, .f32⟩ : BufTy).Contents (Elt F)),
    StableHlo.unary main_call9_v9 main_call9_v10 ((Host.reverse [1]) : (⟨S1026x1, .f32⟩ : BufTy).Contents (Elt F) → (⟨S1026x1, .f32⟩ : BufTy).Contents (Elt F)),
    StableHlo.binary main_call9_v10 main_call9_v7 main_call9_v11 ((fun a b => concatenate S1026x1025 1 [⟨S1026x1, a⟩, ⟨S1026x1024, b⟩] concatenates_S1026x1_S1026x1024_S1026x1025_d1) : (⟨S1026x1, .f32⟩ : BufTy).Contents (Elt F) → (⟨S1026x1024, .f32⟩ : BufTy).Contents (Elt F) → (⟨S1026x1025, .f32⟩ : BufTy).Contents (Elt F)),
    StableHlo.unary main_call9_v11 main_call9_v12 ((extractStridedSlice S1026x1 ![0, 1024] · slices_S1026x1025_S1026x1_0_1024) : (⟨S1026x1025, .f32⟩ : BufTy).Contents (Elt F) → (⟨S1026x1, .f32⟩ : BufTy).Contents (Elt F)),
    StableHlo.unary main_call9_v11 main_call9_v13 ((extractStridedSlice S1026x1 ![0, 1023] · slices_S1026x1025_S1026x1_0_1023) : (⟨S1026x1025, .f32⟩ : BufTy).Contents (Elt F) → (⟨S1026x1, .f32⟩ : BufTy).Contents (Elt F)),
    StableHlo.unary main_call9_v13 main_call9_v14 ((Host.reverse [1]) : (⟨S1026x1, .f32⟩ : BufTy).Contents (Elt F) → (⟨S1026x1, .f32⟩ : BufTy).Contents (Elt F)),
    StableHlo.binary main_call9_v11 main_call9_v14 main_v224 ((fun a b => concatenate S1026x1026 1 [⟨S1026x1025, a⟩, ⟨S1026x1, b⟩] concatenates_S1026x1025_S1026x1_S1026x1026_d1) : (⟨S1026x1025, .f32⟩ : BufTy).Contents (Elt F) → (⟨S1026x1, .f32⟩ : BufTy).Contents (Elt F) → (⟨S1026x1026, .f32⟩ : BufTy).Contents (Elt F)) ]

/-- Stage 21 (56 operations): up to the operation that writes main_v279. -/
abbrev stage21 : List (HloOp τ sig (Elt F)) :=
  [ StableHlo.nullary main_cst_31 (constant S_ .f32 0x00000000#32),
    StableHlo.unary main_cst_31 main_v225 (broadcastInDim S1024x1024 ![] bcast_S_S1024x1024 : (⟨S_, .f32⟩ : BufTy).Contents (Elt F) → (⟨S1024x1024, .f32⟩ : BufTy).Contents (Elt F)),
    StableHlo.unary main_cst_0 main_v226 ((extractStridedSlice S1x1 ![0, 0] · slices_S3x3_S1x1_0_0) : (⟨S3x3, .f32⟩ : BufTy).Contents (Elt F) → (⟨S1x1, .f32⟩ : BufTy).Contents (Elt F)),
    StableHlo.reshape main_v226 main_v227 rfl shapeCasts_S1x1_S_,
    StableHlo.unary main_v224 main_v228 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v227 main_v229 (broadcastInDim S1024x1024 ![] bcast_S_S1024x1024 : (⟨S_, .f32⟩ : BufTy).Contents (Elt F) → (⟨S1024x1024, .f32⟩ : BufTy).Contents (Elt F)),
    StableHlo.binary main_v229 main_v228 main_v230 (mulf : (⟨S1024x1024, .f32⟩ : BufTy).Contents (Elt F) → (⟨S1024x1024, .f32⟩ : BufTy).Contents (Elt F) → (⟨S1024x1024, .f32⟩ : BufTy).Contents (Elt F)),
    StableHlo.binary main_v225 main_v230 main_v231 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v232 ((extractStridedSlice S1x1 ![0, 1] · slices_S3x3_S1x1_0_1) : (⟨S3x3, .f32⟩ : BufTy).Contents (Elt F) → (⟨S1x1, .f32⟩ : BufTy).Contents (Elt F)),
    StableHlo.reshape main_v232 main_v233 rfl shapeCasts_S1x1_S_,
    StableHlo.unary main_v224 main_v234 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v233 main_v235 (broadcastInDim S1024x1024 ![] bcast_S_S1024x1024 : (⟨S_, .f32⟩ : BufTy).Contents (Elt F) → (⟨S1024x1024, .f32⟩ : BufTy).Contents (Elt F)),
    StableHlo.binary main_v235 main_v234 main_v236 (mulf : (⟨S1024x1024, .f32⟩ : BufTy).Contents (Elt F) → (⟨S1024x1024, .f32⟩ : BufTy).Contents (Elt F) → (⟨S1024x1024, .f32⟩ : BufTy).Contents (Elt F)),
    StableHlo.binary main_v231 main_v236 main_v237 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v238 ((extractStridedSlice S1x1 ![0, 2] · slices_S3x3_S1x1_0_2) : (⟨S3x3, .f32⟩ : BufTy).Contents (Elt F) → (⟨S1x1, .f32⟩ : BufTy).Contents (Elt F)),
    StableHlo.reshape main_v238 main_v239 rfl shapeCasts_S1x1_S_,
    StableHlo.unary main_v224 main_v240 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v239 main_v241 (broadcastInDim S1024x1024 ![] bcast_S_S1024x1024 : (⟨S_, .f32⟩ : BufTy).Contents (Elt F) → (⟨S1024x1024, .f32⟩ : BufTy).Contents (Elt F)),
    StableHlo.binary main_v241 main_v240 main_v242 (mulf : (⟨S1024x1024, .f32⟩ : BufTy).Contents (Elt F) → (⟨S1024x1024, .f32⟩ : BufTy).Contents (Elt F) → (⟨S1024x1024, .f32⟩ : BufTy).Contents (Elt F)),
    StableHlo.binary main_v237 main_v242 main_v243 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v244 ((extractStridedSlice S1x1 ![1, 0] · slices_S3x3_S1x1_1_0) : (⟨S3x3, .f32⟩ : BufTy).Contents (Elt F) → (⟨S1x1, .f32⟩ : BufTy).Contents (Elt F)),
    StableHlo.reshape main_v244 main_v245 rfl shapeCasts_S1x1_S_,
    StableHlo.unary main_v224 main_v246 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v245 main_v247 (broadcastInDim S1024x1024 ![] bcast_S_S1024x1024 : (⟨S_, .f32⟩ : BufTy).Contents (Elt F) → (⟨S1024x1024, .f32⟩ : BufTy).Contents (Elt F)),
    StableHlo.binary main_v247 main_v246 main_v248 (mulf : (⟨S1024x1024, .f32⟩ : BufTy).Contents (Elt F) → (⟨S1024x1024, .f32⟩ : BufTy).Contents (Elt F) → (⟨S1024x1024, .f32⟩ : BufTy).Contents (Elt F)),
    StableHlo.binary main_v243 main_v248 main_v249 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v250 ((extractStridedSlice S1x1 ![1, 1] · slices_S3x3_S1x1_1_1) : (⟨S3x3, .f32⟩ : BufTy).Contents (Elt F) → (⟨S1x1, .f32⟩ : BufTy).Contents (Elt F)),
    StableHlo.reshape main_v250 main_v251 rfl shapeCasts_S1x1_S_,
    StableHlo.unary main_v224 main_v252 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v251 main_v253 (broadcastInDim S1024x1024 ![] bcast_S_S1024x1024 : (⟨S_, .f32⟩ : BufTy).Contents (Elt F) → (⟨S1024x1024, .f32⟩ : BufTy).Contents (Elt F)),
    StableHlo.binary main_v253 main_v252 main_v254 (mulf : (⟨S1024x1024, .f32⟩ : BufTy).Contents (Elt F) → (⟨S1024x1024, .f32⟩ : BufTy).Contents (Elt F) → (⟨S1024x1024, .f32⟩ : BufTy).Contents (Elt F)),
    StableHlo.binary main_v249 main_v254 main_v255 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v256 ((extractStridedSlice S1x1 ![1, 2] · slices_S3x3_S1x1_1_2) : (⟨S3x3, .f32⟩ : BufTy).Contents (Elt F) → (⟨S1x1, .f32⟩ : BufTy).Contents (Elt F)),
    StableHlo.reshape main_v256 main_v257 rfl shapeCasts_S1x1_S_,
    StableHlo.unary main_v224 main_v258 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v257 main_v259 (broadcastInDim S1024x1024 ![] bcast_S_S1024x1024 : (⟨S_, .f32⟩ : BufTy).Contents (Elt F) → (⟨S1024x1024, .f32⟩ : BufTy).Contents (Elt F)),
    StableHlo.binary main_v259 main_v258 main_v260 (mulf : (⟨S1024x1024, .f32⟩ : BufTy).Contents (Elt F) → (⟨S1024x1024, .f32⟩ : BufTy).Contents (Elt F) → (⟨S1024x1024, .f32⟩ : BufTy).Contents (Elt F)),
    StableHlo.binary main_v255 main_v260 main_v261 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v262 ((extractStridedSlice S1x1 ![2, 0] · slices_S3x3_S1x1_2_0) : (⟨S3x3, .f32⟩ : BufTy).Contents (Elt F) → (⟨S1x1, .f32⟩ : BufTy).Contents (Elt F)),
    StableHlo.reshape main_v262 main_v263 rfl shapeCasts_S1x1_S_,
    StableHlo.unary main_v224 main_v264 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v263 main_v265 (broadcastInDim S1024x1024 ![] bcast_S_S1024x1024 : (⟨S_, .f32⟩ : BufTy).Contents (Elt F) → (⟨S1024x1024, .f32⟩ : BufTy).Contents (Elt F)),
    StableHlo.binary main_v265 main_v264 main_v266 (mulf : (⟨S1024x1024, .f32⟩ : BufTy).Contents (Elt F) → (⟨S1024x1024, .f32⟩ : BufTy).Contents (Elt F) → (⟨S1024x1024, .f32⟩ : BufTy).Contents (Elt F)),
    StableHlo.binary main_v261 main_v266 main_v267 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v268 ((extractStridedSlice S1x1 ![2, 1] · slices_S3x3_S1x1_2_1) : (⟨S3x3, .f32⟩ : BufTy).Contents (Elt F) → (⟨S1x1, .f32⟩ : BufTy).Contents (Elt F)),
    StableHlo.reshape main_v268 main_v269 rfl shapeCasts_S1x1_S_,
    StableHlo.unary main_v224 main_v270 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v269 main_v271 (broadcastInDim S1024x1024 ![] bcast_S_S1024x1024 : (⟨S_, .f32⟩ : BufTy).Contents (Elt F) → (⟨S1024x1024, .f32⟩ : BufTy).Contents (Elt F)),
    StableHlo.binary main_v271 main_v270 main_v272 (mulf : (⟨S1024x1024, .f32⟩ : BufTy).Contents (Elt F) → (⟨S1024x1024, .f32⟩ : BufTy).Contents (Elt F) → (⟨S1024x1024, .f32⟩ : BufTy).Contents (Elt F)),
    StableHlo.binary main_v267 main_v272 main_v273 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v274 ((extractStridedSlice S1x1 ![2, 2] · slices_S3x3_S1x1_2_2) : (⟨S3x3, .f32⟩ : BufTy).Contents (Elt F) → (⟨S1x1, .f32⟩ : BufTy).Contents (Elt F)),
    StableHlo.reshape main_v274 main_v275 rfl shapeCasts_S1x1_S_,
    StableHlo.unary main_v224 main_v276 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v275 main_v277 (broadcastInDim S1024x1024 ![] bcast_S_S1024x1024 : (⟨S_, .f32⟩ : BufTy).Contents (Elt F) → (⟨S1024x1024, .f32⟩ : BufTy).Contents (Elt F)),
    StableHlo.binary main_v277 main_v276 main_v278 (mulf : (⟨S1024x1024, .f32⟩ : BufTy).Contents (Elt F) → (⟨S1024x1024, .f32⟩ : BufTy).Contents (Elt F) → (⟨S1024x1024, .f32⟩ : BufTy).Contents (Elt F)),
    StableHlo.binary main_v273 main_v278 main_v279 (addf : (⟨S1024x1024, .f32⟩ : BufTy).Contents (Elt F) → (⟨S1024x1024, .f32⟩ : BufTy).Contents (Elt F) → (⟨S1024x1024, .f32⟩ : BufTy).Contents (Elt F)) ]

/-- Stage 22 (3 operations): up to the operation that writes main_c_32. -/
abbrev stage22 : List (HloOp τ sig (Elt F)) :=
  [ StableHlo.unary main_arg0 main_v280 ((extractStridedSlice S1x1x1024x1024 ![0, 0, 0, 0] · slices_S8x3x1024x1024_S1x1x1024x1024_0_0_0_0) : (⟨S8x3x1024x1024, .f32⟩ : BufTy).Contents (Elt F) → (⟨S1x1x1024x1024, .f32⟩ : BufTy).Contents (Elt F)),
    StableHlo.reshape main_v280 main_v281 rfl shapeCasts_S1x1x1024x1024_S1024x1024,
    StableHlo.nullary main_c_32 (constantI S_ 32 0#32) ]

/-- Stage 23 (16 operations): up to the operation that writes main_call10.v15. -/
abbrev stage23 : List (HloOp τ sig (Elt F)) :=
  [ StableHlo.unary main_v281 main_call10_v0 ((extractStridedSlice S1x1024 ![0, 0] · slices_S1024x1024_S1x1024_0_0) : (⟨S1024x1024, .f32⟩ : BufTy).Contents (Elt F) → (⟨S1x1024, .f32⟩ : BufTy).Contents (Elt F)),
    StableHlo.unary main_v281 main_call10_v1 ((extractStridedSlice S1x1024 ![1, 0] · slices_S1024x1024_S1x1024_1_0) : (⟨S1024x1024, .f32⟩ : BufTy).Contents (Elt F) → (⟨S1x1024, .f32⟩ : BufTy).Contents (Elt F)),
    StableHlo.unary main_call10_v1 main_call10_v2 ((Host.reverse [0]) : (⟨S1x1024, .f32⟩ : BufTy).Contents (Elt F) → (⟨S1x1024, .f32⟩ : BufTy).Contents (Elt F)),
    StableHlo.binary main_call10_v2 main_v281 main_call10_v3 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    StableHlo.unary main_call10_v3 main_call10_v4 ((extractStridedSlice S1x1024 ![1024, 0] · slices_S1025x1024_S1x1024_1024_0) : (⟨S1025x1024, .f32⟩ : BufTy).Contents (Elt F) → (⟨S1x1024, .f32⟩ : BufTy).Contents (Elt F)),
    StableHlo.unary main_call10_v3 main_call10_v5 ((extractStridedSlice S1x1024 ![1023, 0] · slices_S1025x1024_S1x1024_1023_0) : (⟨S1025x1024, .f32⟩ : BufTy).Contents (Elt F) → (⟨S1x1024, .f32⟩ : BufTy).Contents (Elt F)),
    StableHlo.unary main_call10_v5 main_call10_v6 ((Host.reverse [0]) : (⟨S1x1024, .f32⟩ : BufTy).Contents (Elt F) → (⟨S1x1024, .f32⟩ : BufTy).Contents (Elt F)),
    StableHlo.binary main_call10_v3 main_call10_v6 main_call10_v7 ((fun a b => concatenate S1026x1024 0 [⟨S1025x1024, a⟩, ⟨S1x1024, b⟩] concatenates_S1025x1024_S1x1024_S1026x1024_d0) : (⟨S1025x1024, .f32⟩ : BufTy).Contents (Elt F) → (⟨S1x1024, .f32⟩ : BufTy).Contents (Elt F) → (⟨S1026x1024, .f32⟩ : BufTy).Contents (Elt F)),
    StableHlo.unary main_call10_v7 main_call10_v8 ((extractStridedSlice S1026x1 ![0, 0] · slices_S1026x1024_S1026x1_0_0) : (⟨S1026x1024, .f32⟩ : BufTy).Contents (Elt F) → (⟨S1026x1, .f32⟩ : BufTy).Contents (Elt F)),
    StableHlo.unary main_call10_v7 main_call10_v9 ((extractStridedSlice S1026x1 ![0, 1] · slices_S1026x1024_S1026x1_0_1) : (⟨S1026x1024, .f32⟩ : BufTy).Contents (Elt F) → (⟨S1026x1, .f32⟩ : BufTy).Contents (Elt F)),
    StableHlo.unary main_call10_v9 main_call10_v10 ((Host.reverse [1]) : (⟨S1026x1, .f32⟩ : BufTy).Contents (Elt F) → (⟨S1026x1, .f32⟩ : BufTy).Contents (Elt F)),
    StableHlo.binary main_call10_v10 main_call10_v7 main_call10_v11 ((fun a b => concatenate S1026x1025 1 [⟨S1026x1, a⟩, ⟨S1026x1024, b⟩] concatenates_S1026x1_S1026x1024_S1026x1025_d1) : (⟨S1026x1, .f32⟩ : BufTy).Contents (Elt F) → (⟨S1026x1024, .f32⟩ : BufTy).Contents (Elt F) → (⟨S1026x1025, .f32⟩ : BufTy).Contents (Elt F)),
    StableHlo.unary main_call10_v11 main_call10_v12 ((extractStridedSlice S1026x1 ![0, 1024] · slices_S1026x1025_S1026x1_0_1024) : (⟨S1026x1025, .f32⟩ : BufTy).Contents (Elt F) → (⟨S1026x1, .f32⟩ : BufTy).Contents (Elt F)),
    StableHlo.unary main_call10_v11 main_call10_v13 ((extractStridedSlice S1026x1 ![0, 1023] · slices_S1026x1025_S1026x1_0_1023) : (⟨S1026x1025, .f32⟩ : BufTy).Contents (Elt F) → (⟨S1026x1, .f32⟩ : BufTy).Contents (Elt F)),
    StableHlo.unary main_call10_v13 main_call10_v14 ((Host.reverse [1]) : (⟨S1026x1, .f32⟩ : BufTy).Contents (Elt F) → (⟨S1026x1, .f32⟩ : BufTy).Contents (Elt F)),
    StableHlo.binary main_call10_v11 main_call10_v14 main_v282 ((fun a b => concatenate S1026x1026 1 [⟨S1026x1025, a⟩, ⟨S1026x1, b⟩] concatenates_S1026x1025_S1026x1_S1026x1026_d1) : (⟨S1026x1025, .f32⟩ : BufTy).Contents (Elt F) → (⟨S1026x1, .f32⟩ : BufTy).Contents (Elt F) → (⟨S1026x1026, .f32⟩ : BufTy).Contents (Elt F)) ]

/-- Stage 24 (56 operations): up to the operation that writes main_v337. -/
abbrev stage24 : List (HloOp τ sig (Elt F)) :=
  [ StableHlo.nullary main_cst_33 (constant S_ .f32 0x00000000#32),
    StableHlo.unary main_cst_33 main_v283 (broadcastInDim S1024x1024 ![] bcast_S_S1024x1024 : (⟨S_, .f32⟩ : BufTy).Contents (Elt F) → (⟨S1024x1024, .f32⟩ : BufTy).Contents (Elt F)),
    StableHlo.unary main_cst main_v284 ((extractStridedSlice S1x1 ![0, 0] · slices_S3x3_S1x1_0_0) : (⟨S3x3, .f32⟩ : BufTy).Contents (Elt F) → (⟨S1x1, .f32⟩ : BufTy).Contents (Elt F)),
    StableHlo.reshape main_v284 main_v285 rfl shapeCasts_S1x1_S_,
    StableHlo.unary main_v282 main_v286 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v285 main_v287 (broadcastInDim S1024x1024 ![] bcast_S_S1024x1024 : (⟨S_, .f32⟩ : BufTy).Contents (Elt F) → (⟨S1024x1024, .f32⟩ : BufTy).Contents (Elt F)),
    StableHlo.binary main_v287 main_v286 main_v288 (mulf : (⟨S1024x1024, .f32⟩ : BufTy).Contents (Elt F) → (⟨S1024x1024, .f32⟩ : BufTy).Contents (Elt F) → (⟨S1024x1024, .f32⟩ : BufTy).Contents (Elt F)),
    StableHlo.binary main_v283 main_v288 main_v289 (addf : (⟨S1024x1024, .f32⟩ : BufTy).Contents (Elt F) → (⟨S1024x1024, .f32⟩ : BufTy).Contents (Elt F) → (⟨S1024x1024, .f32⟩ : BufTy).Contents (Elt F)),
    StableHlo.unary main_cst main_v290 ((extractStridedSlice S1x1 ![0, 1] · slices_S3x3_S1x1_0_1) : (⟨S3x3, .f32⟩ : BufTy).Contents (Elt F) → (⟨S1x1, .f32⟩ : BufTy).Contents (Elt F)),
    StableHlo.reshape main_v290 main_v291 rfl shapeCasts_S1x1_S_,
    StableHlo.unary main_v282 main_v292 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v291 main_v293 (broadcastInDim S1024x1024 ![] bcast_S_S1024x1024 : (⟨S_, .f32⟩ : BufTy).Contents (Elt F) → (⟨S1024x1024, .f32⟩ : BufTy).Contents (Elt F)),
    StableHlo.binary main_v293 main_v292 main_v294 (mulf : (⟨S1024x1024, .f32⟩ : BufTy).Contents (Elt F) → (⟨S1024x1024, .f32⟩ : BufTy).Contents (Elt F) → (⟨S1024x1024, .f32⟩ : BufTy).Contents (Elt F)),
    StableHlo.binary main_v289 main_v294 main_v295 (addf : (⟨S1024x1024, .f32⟩ : BufTy).Contents (Elt F) → (⟨S1024x1024, .f32⟩ : BufTy).Contents (Elt F) → (⟨S1024x1024, .f32⟩ : BufTy).Contents (Elt F)),
    StableHlo.unary main_cst main_v296 ((extractStridedSlice S1x1 ![0, 2] · slices_S3x3_S1x1_0_2) : (⟨S3x3, .f32⟩ : BufTy).Contents (Elt F) → (⟨S1x1, .f32⟩ : BufTy).Contents (Elt F)),
    StableHlo.reshape main_v296 main_v297 rfl shapeCasts_S1x1_S_,
    StableHlo.unary main_v282 main_v298 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v297 main_v299 (broadcastInDim S1024x1024 ![] bcast_S_S1024x1024 : (⟨S_, .f32⟩ : BufTy).Contents (Elt F) → (⟨S1024x1024, .f32⟩ : BufTy).Contents (Elt F)),
    StableHlo.binary main_v299 main_v298 main_v300 (mulf : (⟨S1024x1024, .f32⟩ : BufTy).Contents (Elt F) → (⟨S1024x1024, .f32⟩ : BufTy).Contents (Elt F) → (⟨S1024x1024, .f32⟩ : BufTy).Contents (Elt F)),
    StableHlo.binary main_v295 main_v300 main_v301 (addf : (⟨S1024x1024, .f32⟩ : BufTy).Contents (Elt F) → (⟨S1024x1024, .f32⟩ : BufTy).Contents (Elt F) → (⟨S1024x1024, .f32⟩ : BufTy).Contents (Elt F)),
    StableHlo.unary main_cst main_v302 ((extractStridedSlice S1x1 ![1, 0] · slices_S3x3_S1x1_1_0) : (⟨S3x3, .f32⟩ : BufTy).Contents (Elt F) → (⟨S1x1, .f32⟩ : BufTy).Contents (Elt F)),
    StableHlo.reshape main_v302 main_v303 rfl shapeCasts_S1x1_S_,
    StableHlo.unary main_v282 main_v304 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v303 main_v305 (broadcastInDim S1024x1024 ![] bcast_S_S1024x1024 : (⟨S_, .f32⟩ : BufTy).Contents (Elt F) → (⟨S1024x1024, .f32⟩ : BufTy).Contents (Elt F)),
    StableHlo.binary main_v305 main_v304 main_v306 (mulf : (⟨S1024x1024, .f32⟩ : BufTy).Contents (Elt F) → (⟨S1024x1024, .f32⟩ : BufTy).Contents (Elt F) → (⟨S1024x1024, .f32⟩ : BufTy).Contents (Elt F)),
    StableHlo.binary main_v301 main_v306 main_v307 (addf : (⟨S1024x1024, .f32⟩ : BufTy).Contents (Elt F) → (⟨S1024x1024, .f32⟩ : BufTy).Contents (Elt F) → (⟨S1024x1024, .f32⟩ : BufTy).Contents (Elt F)),
    StableHlo.unary main_cst main_v308 ((extractStridedSlice S1x1 ![1, 1] · slices_S3x3_S1x1_1_1) : (⟨S3x3, .f32⟩ : BufTy).Contents (Elt F) → (⟨S1x1, .f32⟩ : BufTy).Contents (Elt F)),
    StableHlo.reshape main_v308 main_v309 rfl shapeCasts_S1x1_S_,
    StableHlo.unary main_v282 main_v310 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v309 main_v311 (broadcastInDim S1024x1024 ![] bcast_S_S1024x1024 : (⟨S_, .f32⟩ : BufTy).Contents (Elt F) → (⟨S1024x1024, .f32⟩ : BufTy).Contents (Elt F)),
    StableHlo.binary main_v311 main_v310 main_v312 (mulf : (⟨S1024x1024, .f32⟩ : BufTy).Contents (Elt F) → (⟨S1024x1024, .f32⟩ : BufTy).Contents (Elt F) → (⟨S1024x1024, .f32⟩ : BufTy).Contents (Elt F)),
    StableHlo.binary main_v307 main_v312 main_v313 (addf : (⟨S1024x1024, .f32⟩ : BufTy).Contents (Elt F) → (⟨S1024x1024, .f32⟩ : BufTy).Contents (Elt F) → (⟨S1024x1024, .f32⟩ : BufTy).Contents (Elt F)),
    StableHlo.unary main_cst main_v314 ((extractStridedSlice S1x1 ![1, 2] · slices_S3x3_S1x1_1_2) : (⟨S3x3, .f32⟩ : BufTy).Contents (Elt F) → (⟨S1x1, .f32⟩ : BufTy).Contents (Elt F)),
    StableHlo.reshape main_v314 main_v315 rfl shapeCasts_S1x1_S_,
    StableHlo.unary main_v282 main_v316 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v315 main_v317 (broadcastInDim S1024x1024 ![] bcast_S_S1024x1024 : (⟨S_, .f32⟩ : BufTy).Contents (Elt F) → (⟨S1024x1024, .f32⟩ : BufTy).Contents (Elt F)),
    StableHlo.binary main_v317 main_v316 main_v318 (mulf : (⟨S1024x1024, .f32⟩ : BufTy).Contents (Elt F) → (⟨S1024x1024, .f32⟩ : BufTy).Contents (Elt F) → (⟨S1024x1024, .f32⟩ : BufTy).Contents (Elt F)),
    StableHlo.binary main_v313 main_v318 main_v319 (addf : (⟨S1024x1024, .f32⟩ : BufTy).Contents (Elt F) → (⟨S1024x1024, .f32⟩ : BufTy).Contents (Elt F) → (⟨S1024x1024, .f32⟩ : BufTy).Contents (Elt F)),
    StableHlo.unary main_cst main_v320 ((extractStridedSlice S1x1 ![2, 0] · slices_S3x3_S1x1_2_0) : (⟨S3x3, .f32⟩ : BufTy).Contents (Elt F) → (⟨S1x1, .f32⟩ : BufTy).Contents (Elt F)),
    StableHlo.reshape main_v320 main_v321 rfl shapeCasts_S1x1_S_,
    StableHlo.unary main_v282 main_v322 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v321 main_v323 (broadcastInDim S1024x1024 ![] bcast_S_S1024x1024 : (⟨S_, .f32⟩ : BufTy).Contents (Elt F) → (⟨S1024x1024, .f32⟩ : BufTy).Contents (Elt F)),
    StableHlo.binary main_v323 main_v322 main_v324 (mulf : (⟨S1024x1024, .f32⟩ : BufTy).Contents (Elt F) → (⟨S1024x1024, .f32⟩ : BufTy).Contents (Elt F) → (⟨S1024x1024, .f32⟩ : BufTy).Contents (Elt F)),
    StableHlo.binary main_v319 main_v324 main_v325 (addf : (⟨S1024x1024, .f32⟩ : BufTy).Contents (Elt F) → (⟨S1024x1024, .f32⟩ : BufTy).Contents (Elt F) → (⟨S1024x1024, .f32⟩ : BufTy).Contents (Elt F)),
    StableHlo.unary main_cst main_v326 ((extractStridedSlice S1x1 ![2, 1] · slices_S3x3_S1x1_2_1) : (⟨S3x3, .f32⟩ : BufTy).Contents (Elt F) → (⟨S1x1, .f32⟩ : BufTy).Contents (Elt F)),
    StableHlo.reshape main_v326 main_v327 rfl shapeCasts_S1x1_S_,
    StableHlo.unary main_v282 main_v328 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v327 main_v329 (broadcastInDim S1024x1024 ![] bcast_S_S1024x1024 : (⟨S_, .f32⟩ : BufTy).Contents (Elt F) → (⟨S1024x1024, .f32⟩ : BufTy).Contents (Elt F)),
    StableHlo.binary main_v329 main_v328 main_v330 (mulf : (⟨S1024x1024, .f32⟩ : BufTy).Contents (Elt F) → (⟨S1024x1024, .f32⟩ : BufTy).Contents (Elt F) → (⟨S1024x1024, .f32⟩ : BufTy).Contents (Elt F)),
    StableHlo.binary main_v325 main_v330 main_v331 (addf : (⟨S1024x1024, .f32⟩ : BufTy).Contents (Elt F) → (⟨S1024x1024, .f32⟩ : BufTy).Contents (Elt F) → (⟨S1024x1024, .f32⟩ : BufTy).Contents (Elt F)),
    StableHlo.unary main_cst main_v332 ((extractStridedSlice S1x1 ![2, 2] · slices_S3x3_S1x1_2_2) : (⟨S3x3, .f32⟩ : BufTy).Contents (Elt F) → (⟨S1x1, .f32⟩ : BufTy).Contents (Elt F)),
    StableHlo.reshape main_v332 main_v333 rfl shapeCasts_S1x1_S_,
    StableHlo.unary main_v282 main_v334 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v333 main_v335 (broadcastInDim S1024x1024 ![] bcast_S_S1024x1024 : (⟨S_, .f32⟩ : BufTy).Contents (Elt F) → (⟨S1024x1024, .f32⟩ : BufTy).Contents (Elt F)),
    StableHlo.binary main_v335 main_v334 main_v336 (mulf : (⟨S1024x1024, .f32⟩ : BufTy).Contents (Elt F) → (⟨S1024x1024, .f32⟩ : BufTy).Contents (Elt F) → (⟨S1024x1024, .f32⟩ : BufTy).Contents (Elt F)),
    StableHlo.binary main_v331 main_v336 main_v337 (addf : (⟨S1024x1024, .f32⟩ : BufTy).Contents (Elt F) → (⟨S1024x1024, .f32⟩ : BufTy).Contents (Elt F) → (⟨S1024x1024, .f32⟩ : BufTy).Contents (Elt F)) ]

/-- Stage 25 (1 operations): up to the operation that writes main_c_34. -/
abbrev stage25 : List (HloOp τ sig (Elt F)) :=
  [ StableHlo.nullary main_c_34 (constantI S_ 32 0#32) ]

/-- Stage 26 (16 operations): up to the operation that writes main_call11.v15. -/
abbrev stage26 : List (HloOp τ sig (Elt F)) :=
  [ StableHlo.unary main_v337 main_call11_v0 ((extractStridedSlice S1x1024 ![0, 0] · slices_S1024x1024_S1x1024_0_0) : (⟨S1024x1024, .f32⟩ : BufTy).Contents (Elt F) → (⟨S1x1024, .f32⟩ : BufTy).Contents (Elt F)),
    StableHlo.unary main_v337 main_call11_v1 ((extractStridedSlice S1x1024 ![1, 0] · slices_S1024x1024_S1x1024_1_0) : (⟨S1024x1024, .f32⟩ : BufTy).Contents (Elt F) → (⟨S1x1024, .f32⟩ : BufTy).Contents (Elt F)),
    StableHlo.unary main_call11_v1 main_call11_v2 ((Host.reverse [0]) : (⟨S1x1024, .f32⟩ : BufTy).Contents (Elt F) → (⟨S1x1024, .f32⟩ : BufTy).Contents (Elt F)),
    StableHlo.binary main_call11_v2 main_v337 main_call11_v3 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    StableHlo.unary main_call11_v3 main_call11_v4 ((extractStridedSlice S1x1024 ![1024, 0] · slices_S1025x1024_S1x1024_1024_0) : (⟨S1025x1024, .f32⟩ : BufTy).Contents (Elt F) → (⟨S1x1024, .f32⟩ : BufTy).Contents (Elt F)),
    StableHlo.unary main_call11_v3 main_call11_v5 ((extractStridedSlice S1x1024 ![1023, 0] · slices_S1025x1024_S1x1024_1023_0) : (⟨S1025x1024, .f32⟩ : BufTy).Contents (Elt F) → (⟨S1x1024, .f32⟩ : BufTy).Contents (Elt F)),
    StableHlo.unary main_call11_v5 main_call11_v6 ((Host.reverse [0]) : (⟨S1x1024, .f32⟩ : BufTy).Contents (Elt F) → (⟨S1x1024, .f32⟩ : BufTy).Contents (Elt F)),
    StableHlo.binary main_call11_v3 main_call11_v6 main_call11_v7 ((fun a b => concatenate S1026x1024 0 [⟨S1025x1024, a⟩, ⟨S1x1024, b⟩] concatenates_S1025x1024_S1x1024_S1026x1024_d0) : (⟨S1025x1024, .f32⟩ : BufTy).Contents (Elt F) → (⟨S1x1024, .f32⟩ : BufTy).Contents (Elt F) → (⟨S1026x1024, .f32⟩ : BufTy).Contents (Elt F)),
    StableHlo.unary main_call11_v7 main_call11_v8 ((extractStridedSlice S1026x1 ![0, 0] · slices_S1026x1024_S1026x1_0_0) : (⟨S1026x1024, .f32⟩ : BufTy).Contents (Elt F) → (⟨S1026x1, .f32⟩ : BufTy).Contents (Elt F)),
    StableHlo.unary main_call11_v7 main_call11_v9 ((extractStridedSlice S1026x1 ![0, 1] · slices_S1026x1024_S1026x1_0_1) : (⟨S1026x1024, .f32⟩ : BufTy).Contents (Elt F) → (⟨S1026x1, .f32⟩ : BufTy).Contents (Elt F)),
    StableHlo.unary main_call11_v9 main_call11_v10 ((Host.reverse [1]) : (⟨S1026x1, .f32⟩ : BufTy).Contents (Elt F) → (⟨S1026x1, .f32⟩ : BufTy).Contents (Elt F)),
    StableHlo.binary main_call11_v10 main_call11_v7 main_call11_v11 ((fun a b => concatenate S1026x1025 1 [⟨S1026x1, a⟩, ⟨S1026x1024, b⟩] concatenates_S1026x1_S1026x1024_S1026x1025_d1) : (⟨S1026x1, .f32⟩ : BufTy).Contents (Elt F) → (⟨S1026x1024, .f32⟩ : BufTy).Contents (Elt F) → (⟨S1026x1025, .f32⟩ : BufTy).Contents (Elt F)),
    StableHlo.unary main_call11_v11 main_call11_v12 ((extractStridedSlice S1026x1 ![0, 1024] · slices_S1026x1025_S1026x1_0_1024) : (⟨S1026x1025, .f32⟩ : BufTy).Contents (Elt F) → (⟨S1026x1, .f32⟩ : BufTy).Contents (Elt F)),
    StableHlo.unary main_call11_v11 main_call11_v13 ((extractStridedSlice S1026x1 ![0, 1023] · slices_S1026x1025_S1026x1_0_1023) : (⟨S1026x1025, .f32⟩ : BufTy).Contents (Elt F) → (⟨S1026x1, .f32⟩ : BufTy).Contents (Elt F)),
    StableHlo.unary main_call11_v13 main_call11_v14 ((Host.reverse [1]) : (⟨S1026x1, .f32⟩ : BufTy).Contents (Elt F) → (⟨S1026x1, .f32⟩ : BufTy).Contents (Elt F)),
    StableHlo.binary main_call11_v11 main_call11_v14 main_v338 ((fun a b => concatenate S1026x1026 1 [⟨S1026x1025, a⟩, ⟨S1026x1, b⟩] concatenates_S1026x1025_S1026x1_S1026x1026_d1) : (⟨S1026x1025, .f32⟩ : BufTy).Contents (Elt F) → (⟨S1026x1, .f32⟩ : BufTy).Contents (Elt F) → (⟨S1026x1026, .f32⟩ : BufTy).Contents (Elt F)) ]

/-- Stage 27 (56 operations): up to the operation that writes main_v393. -/
abbrev stage27 : List (HloOp τ sig (Elt F)) :=
  [ StableHlo.nullary main_cst_35 (constant S_ .f32 0x00000000#32),
    StableHlo.unary main_cst_35 main_v339 (broadcastInDim S1024x1024 ![] bcast_S_S1024x1024 : (⟨S_, .f32⟩ : BufTy).Contents (Elt F) → (⟨S1024x1024, .f32⟩ : BufTy).Contents (Elt F)),
    StableHlo.unary main_cst_0 main_v340 ((extractStridedSlice S1x1 ![0, 0] · slices_S3x3_S1x1_0_0) : (⟨S3x3, .f32⟩ : BufTy).Contents (Elt F) → (⟨S1x1, .f32⟩ : BufTy).Contents (Elt F)),
    StableHlo.reshape main_v340 main_v341 rfl shapeCasts_S1x1_S_,
    StableHlo.unary main_v338 main_v342 ((extractStridedSlice S1024x1024 ![0, 0] · slices_S1026x1026_S1024x1024_0_0) : (⟨S1026x1026, .f32⟩ : BufTy).Contents (Elt F) → (⟨S1024x1024, .f32⟩ : BufTy).Contents (Elt F)),
    StableHlo.unary main_v341 main_v343 (broadcastInDim S1024x1024 ![] bcast_S_S1024x1024 : (⟨S_, .f32⟩ : BufTy).Contents (Elt F) → (⟨S1024x1024, .f32⟩ : BufTy).Contents (Elt F)),
    StableHlo.binary main_v343 main_v342 main_v344 (mulf : (⟨S1024x1024, .f32⟩ : BufTy).Contents (Elt F) → (⟨S1024x1024, .f32⟩ : BufTy).Contents (Elt F) → (⟨S1024x1024, .f32⟩ : BufTy).Contents (Elt F)),
    StableHlo.binary main_v339 main_v344 main_v345 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v346 ((extractStridedSlice S1x1 ![0, 1] · slices_S3x3_S1x1_0_1) : (⟨S3x3, .f32⟩ : BufTy).Contents (Elt F) → (⟨S1x1, .f32⟩ : BufTy).Contents (Elt F)),
    StableHlo.reshape main_v346 main_v347 rfl shapeCasts_S1x1_S_,
    StableHlo.unary main_v338 main_v348 ((extractStridedSlice S1024x1024 ![0, 1] · slices_S1026x1026_S1024x1024_0_1) : (⟨S1026x1026, .f32⟩ : BufTy).Contents (Elt F) → (⟨S1024x1024, .f32⟩ : BufTy).Contents (Elt F)),
    StableHlo.unary main_v347 main_v349 (broadcastInDim S1024x1024 ![] bcast_S_S1024x1024 : (⟨S_, .f32⟩ : BufTy).Contents (Elt F) → (⟨S1024x1024, .f32⟩ : BufTy).Contents (Elt F)),
    StableHlo.binary main_v349 main_v348 main_v350 (mulf : (⟨S1024x1024, .f32⟩ : BufTy).Contents (Elt F) → (⟨S1024x1024, .f32⟩ : BufTy).Contents (Elt F) → (⟨S1024x1024, .f32⟩ : BufTy).Contents (Elt F)),
    StableHlo.binary main_v345 main_v350 main_v351 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v352 ((extractStridedSlice S1x1 ![0, 2] · slices_S3x3_S1x1_0_2) : (⟨S3x3, .f32⟩ : BufTy).Contents (Elt F) → (⟨S1x1, .f32⟩ : BufTy).Contents (Elt F)),
    StableHlo.reshape main_v352 main_v353 rfl shapeCasts_S1x1_S_,
    StableHlo.unary main_v338 main_v354 ((extractStridedSlice S1024x1024 ![0, 2] · slices_S1026x1026_S1024x1024_0_2) : (⟨S1026x1026, .f32⟩ : BufTy).Contents (Elt F) → (⟨S1024x1024, .f32⟩ : BufTy).Contents (Elt F)),
    StableHlo.unary main_v353 main_v355 (broadcastInDim S1024x1024 ![] bcast_S_S1024x1024 : (⟨S_, .f32⟩ : BufTy).Contents (Elt F) → (⟨S1024x1024, .f32⟩ : BufTy).Contents (Elt F)),
    StableHlo.binary main_v355 main_v354 main_v356 (mulf : (⟨S1024x1024, .f32⟩ : BufTy).Contents (Elt F) → (⟨S1024x1024, .f32⟩ : BufTy).Contents (Elt F) → (⟨S1024x1024, .f32⟩ : BufTy).Contents (Elt F)),
    StableHlo.binary main_v351 main_v356 main_v357 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v358 ((extractStridedSlice S1x1 ![1, 0] · slices_S3x3_S1x1_1_0) : (⟨S3x3, .f32⟩ : BufTy).Contents (Elt F) → (⟨S1x1, .f32⟩ : BufTy).Contents (Elt F)),
    StableHlo.reshape main_v358 main_v359 rfl shapeCasts_S1x1_S_,
    StableHlo.unary main_v338 main_v360 ((extractStridedSlice S1024x1024 ![1, 0] · slices_S1026x1026_S1024x1024_1_0) : (⟨S1026x1026, .f32⟩ : BufTy).Contents (Elt F) → (⟨S1024x1024, .f32⟩ : BufTy).Contents (Elt F)),
    StableHlo.unary main_v359 main_v361 (broadcastInDim S1024x1024 ![] bcast_S_S1024x1024 : (⟨S_, .f32⟩ : BufTy).Contents (Elt F) → (⟨S1024x1024, .f32⟩ : BufTy).Contents (Elt F)),
    StableHlo.binary main_v361 main_v360 main_v362 (mulf : (⟨S1024x1024, .f32⟩ : BufTy).Contents (Elt F) → (⟨S1024x1024, .f32⟩ : BufTy).Contents (Elt F) → (⟨S1024x1024, .f32⟩ : BufTy).Contents (Elt F)),
    StableHlo.binary main_v357 main_v362 main_v363 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v364 ((extractStridedSlice S1x1 ![1, 1] · slices_S3x3_S1x1_1_1) : (⟨S3x3, .f32⟩ : BufTy).Contents (Elt F) → (⟨S1x1, .f32⟩ : BufTy).Contents (Elt F)),
    StableHlo.reshape main_v364 main_v365 rfl shapeCasts_S1x1_S_,
    StableHlo.unary main_v338 main_v366 ((extractStridedSlice S1024x1024 ![1, 1] · slices_S1026x1026_S1024x1024_1_1) : (⟨S1026x1026, .f32⟩ : BufTy).Contents (Elt F) → (⟨S1024x1024, .f32⟩ : BufTy).Contents (Elt F)),
    StableHlo.unary main_v365 main_v367 (broadcastInDim S1024x1024 ![] bcast_S_S1024x1024 : (⟨S_, .f32⟩ : BufTy).Contents (Elt F) → (⟨S1024x1024, .f32⟩ : BufTy).Contents (Elt F)),
    StableHlo.binary main_v367 main_v366 main_v368 (mulf : (⟨S1024x1024, .f32⟩ : BufTy).Contents (Elt F) → (⟨S1024x1024, .f32⟩ : BufTy).Contents (Elt F) → (⟨S1024x1024, .f32⟩ : BufTy).Contents (Elt F)),
    StableHlo.binary main_v363 main_v368 main_v369 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v370 ((extractStridedSlice S1x1 ![1, 2] · slices_S3x3_S1x1_1_2) : (⟨S3x3, .f32⟩ : BufTy).Contents (Elt F) → (⟨S1x1, .f32⟩ : BufTy).Contents (Elt F)),
    StableHlo.reshape main_v370 main_v371 rfl shapeCasts_S1x1_S_,
    StableHlo.unary main_v338 main_v372 ((extractStridedSlice S1024x1024 ![1, 2] · slices_S1026x1026_S1024x1024_1_2) : (⟨S1026x1026, .f32⟩ : BufTy).Contents (Elt F) → (⟨S1024x1024, .f32⟩ : BufTy).Contents (Elt F)),
    StableHlo.unary main_v371 main_v373 (broadcastInDim S1024x1024 ![] bcast_S_S1024x1024 : (⟨S_, .f32⟩ : BufTy).Contents (Elt F) → (⟨S1024x1024, .f32⟩ : BufTy).Contents (Elt F)),
    StableHlo.binary main_v373 main_v372 main_v374 (mulf : (⟨S1024x1024, .f32⟩ : BufTy).Contents (Elt F) → (⟨S1024x1024, .f32⟩ : BufTy).Contents (Elt F) → (⟨S1024x1024, .f32⟩ : BufTy).Contents (Elt F)),
    StableHlo.binary main_v369 main_v374 main_v375 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v376 ((extractStridedSlice S1x1 ![2, 0] · slices_S3x3_S1x1_2_0) : (⟨S3x3, .f32⟩ : BufTy).Contents (Elt F) → (⟨S1x1, .f32⟩ : BufTy).Contents (Elt F)),
    StableHlo.reshape main_v376 main_v377 rfl shapeCasts_S1x1_S_,
    StableHlo.unary main_v338 main_v378 ((extractStridedSlice S1024x1024 ![2, 0] · slices_S1026x1026_S1024x1024_2_0) : (⟨S1026x1026, .f32⟩ : BufTy).Contents (Elt F) → (⟨S1024x1024, .f32⟩ : BufTy).Contents (Elt F)),
    StableHlo.unary main_v377 main_v379 (broadcastInDim S1024x1024 ![] bcast_S_S1024x1024 : (⟨S_, .f32⟩ : BufTy).Contents (Elt F) → (⟨S1024x1024, .f32⟩ : BufTy).Contents (Elt F)),
    StableHlo.binary main_v379 main_v378 main_v380 (mulf : (⟨S1024x1024, .f32⟩ : BufTy).Contents (Elt F) → (⟨S1024x1024, .f32⟩ : BufTy).Contents (Elt F) → (⟨S1024x1024, .f32⟩ : BufTy).Contents (Elt F)),
    StableHlo.binary main_v375 main_v380 main_v381 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v382 ((extractStridedSlice S1x1 ![2, 1] · slices_S3x3_S1x1_2_1) : (⟨S3x3, .f32⟩ : BufTy).Contents (Elt F) → (⟨S1x1, .f32⟩ : BufTy).Contents (Elt F)),
    StableHlo.reshape main_v382 main_v383 rfl shapeCasts_S1x1_S_,
    StableHlo.unary main_v338 main_v384 ((extractStridedSlice S1024x1024 ![2, 1] · slices_S1026x1026_S1024x1024_2_1) : (⟨S1026x1026, .f32⟩ : BufTy).Contents (Elt F) → (⟨S1024x1024, .f32⟩ : BufTy).Contents (Elt F)),
    StableHlo.unary main_v383 main_v385 (broadcastInDim S1024x1024 ![] bcast_S_S1024x1024 : (⟨S_, .f32⟩ : BufTy).Contents (Elt F) → (⟨S1024x1024, .f32⟩ : BufTy).Contents (Elt F)),
    StableHlo.binary main_v385 main_v384 main_v386 (mulf : (⟨S1024x1024, .f32⟩ : BufTy).Contents (Elt F) → (⟨S1024x1024, .f32⟩ : BufTy).Contents (Elt F) → (⟨S1024x1024, .f32⟩ : BufTy).Contents (Elt F)),
    StableHlo.binary main_v381 main_v386 main_v387 (addf : (⟨S1024x1024, .f32⟩ : BufTy).Contents (Elt F) → (⟨S1024x1024, .f32⟩ : BufTy).Contents (Elt F) → (⟨S1024x1024, .f32⟩ : BufTy).Contents (Elt F)),
    StableHlo.unary main_cst_0 main_v388 ((extractStridedSlice S1x1 ![2, 2] · slices_S3x3_S1x1_2_2) : (⟨S3x3, .f32⟩ : BufTy).Contents (Elt F) → (⟨S1x1, .f32⟩ : BufTy).Contents (Elt F)),
    StableHlo.reshape main_v388 main_v389 rfl shapeCasts_S1x1_S_,
    StableHlo.unary main_v338 main_v390 ((extractStridedSlice S1024x1024 ![2, 2] · slices_S1026x1026_S1024x1024_2_2) : (⟨S1026x1026, .f32⟩ : BufTy).Contents (Elt F) → (⟨S1024x1024, .f32⟩ : BufTy).Contents (Elt F)),
    StableHlo.unary main_v389 main_v391 (broadcastInDim S1024x1024 ![] bcast_S_S1024x1024 : (⟨S_, .f32⟩ : BufTy).Contents (Elt F) → (⟨S1024x1024, .f32⟩ : BufTy).Contents (Elt F)),
    StableHlo.binary main_v391 main_v390 main_v392 (mulf : (⟨S1024x1024, .f32⟩ : BufTy).Contents (Elt F) → (⟨S1024x1024, .f32⟩ : BufTy).Contents (Elt F) → (⟨S1024x1024, .f32⟩ : BufTy).Contents (Elt F)),
    StableHlo.binary main_v387 main_v392 main_v393 (addf : (⟨S1024x1024, .f32⟩ : BufTy).Contents (Elt F) → (⟨S1024x1024, .f32⟩ : BufTy).Contents (Elt F) → (⟨S1024x1024, .f32⟩ : BufTy).Contents (Elt F)) ]

/-- Stage 28 (16 operations): up to the operation that writes main_v407. -/
abbrev stage28 : List (HloOp τ sig (Elt F)) :=
  [ StableHlo.unary main_v279 main_v394 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v394 main_v395 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v109 main_v395 main_v396 (mulf : (⟨S8x1024x1024, .f32⟩ : BufTy).Contents (Elt F) → (⟨S8x1024x1024, .f32⟩ : BufTy).Contents (Elt F) → (⟨S8x1024x1024, .f32⟩ : BufTy).Contents (Elt F)),
    StableHlo.unary main_v393 main_v397 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v397 main_v398 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F)),
    StableHlo.binary main_v165 main_v398 main_v399 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v396 main_v399 main_v400 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v400 main_v401 (Host.absf : (⟨S8x1024x1024, .f32⟩ : BufTy).Contents (Elt F) → (⟨S8x1024x1024, .f32⟩ : BufTy).Contents (Elt F)),
    StableHlo.nullary main_cst_36 (constant S_ .f32 0x00000000#32),
    StableHlo.binary main_v401 main_cst_36 main_v402 ((fun x v => Host.reduceAdd x v reducesTo_S8x1024x1024_S_d0_1_2 h_S_) : (⟨S8x1024x1024, .f32⟩ : BufTy).Contents (Elt F) → (⟨S_, .f32⟩ : BufTy).Contents (Elt F) → (⟨S_, .f32⟩ : BufTy).Contents (Elt F)),
    StableHlo.nullary main_cst_37 (constant S_ .f32 0x4B000000#32),
    StableHlo.binary main_v402 main_cst_37 main_v403 (Host.divf : (⟨S_, .f32⟩ : BufTy).Contents (Elt F) → (⟨S_, .f32⟩ : BufTy).Contents (Elt F) → (⟨S_, .f32⟩ : BufTy).Contents (Elt F)),
    StableHlo.binary main_v8 main_v23 main_v404 (addf : (⟨S_, .f32⟩ : BufTy).Contents (Elt F) → (⟨S_, .f32⟩ : BufTy).Contents (Elt F) → (⟨S_, .f32⟩ : BufTy).Contents (Elt F)),
    StableHlo.binary main_v404 main_v47 main_v405 (addf : (⟨S_, .f32⟩ : BufTy).Contents (Elt F) → (⟨S_, .f32⟩ : BufTy).Contents (Elt F) → (⟨S_, .f32⟩ : BufTy).Contents (Elt F)),
    StableHlo.binary main_v405 main_v19 main_v406 (addf : (⟨S_, .f32⟩ : BufTy).Contents (Elt F) → (⟨S_, .f32⟩ : BufTy).Contents (Elt F) → (⟨S_, .f32⟩ : BufTy).Contents (Elt F)),
    StableHlo.binary main_v406 main_v403 main_v407 (addf : (⟨S_, .f32⟩ : BufTy).Contents (Elt F) → (⟨S_, .f32⟩ : BufTy).Contents (Elt F) → (⟨S_, .f32⟩ : BufTy).Contents (Elt F)) ]

end Cert.ReferenceIdeal.StagesP

end
-- ==== Proof.RefChainP.lean ====
/-
  The reference's stages once more, each operation of a called function written directly over the buffers the call
  was given.  A typed reference to a literal buffer carries a transport along an equation between equal types, which
  is the identity, so each stage is the same list of operations as before; the fold is then read off the plain forms.
-/
import proofs.«123598_j69123203661888_2_alg».proof.Proof.RefChain
import proofs.«123598_j69123203661888_2_alg».proof.Proof.RefStagesP

noncomputable section

namespace Cert.ReferenceIdeal.ChainP

open Idealize.ShloMosaic Idealize.SL.Sem Idealize.ShloMosaic.StableHlo Cert.ReferenceIdeal
open Cert.ReferenceIdeal.HandRun Cert.ReferenceIdeal.Chain

variable {F : FTy → Type} [FloatOps F] [Facts]
open Facts₀ Facts

theorem stage0_eq : (Stages.stage0 : List (HloOp τ sig (Elt F))) = StagesP.stage0 := rfl
theorem stage1_eq : (Stages.stage1 : List (HloOp τ sig (Elt F))) = StagesP.stage1 := rfl
theorem stage2_eq : (Stages.stage2 : List (HloOp τ sig (Elt F))) = StagesP.stage2 := rfl
theorem stage3_eq : (Stages.stage3 : List (HloOp τ sig (Elt F))) = StagesP.stage3 := rfl
theorem stage4_eq : (Stages.stage4 : List (HloOp τ sig (Elt F))) = StagesP.stage4 := rfl
theorem stage5_eq : (Stages.stage5 : List (HloOp τ sig (Elt F))) = StagesP.stage5 := rfl
theorem stage6_eq : (Stages.stage6 : List (HloOp τ sig (Elt F))) = StagesP.stage6 := rfl
theorem stage7_eq : (Stages.stage7 : List (HloOp τ sig (Elt F))) = StagesP.stage7 := rfl
theorem stage8_eq : (Stages.stage8 : List (HloOp τ sig (Elt F))) = StagesP.stage8 := rfl
theorem stage9_eq : (Stages.stage9 : List (HloOp τ sig (Elt F))) = StagesP.stage9 := rfl
theorem stage10_eq : (Stages.stage10 : List (HloOp τ sig (Elt F))) = StagesP.stage10 := rfl
theorem stage11_eq : (Stages.stage11 : List (HloOp τ sig (Elt F))) = StagesP.stage11 := rfl
theorem stage12_eq : (Stages.stage12 : List (HloOp τ sig (Elt F))) = StagesP.stage12 := rfl
theorem stage13_eq : (Stages.stage13 : List (HloOp τ sig (Elt F))) = StagesP.stage13 := rfl
theorem stage14_eq : (Stages.stage14 : List (HloOp τ sig (Elt F))) = StagesP.stage14 := rfl
theorem stage15_eq : (Stages.stage15 : List (HloOp τ sig (Elt F))) = StagesP.stage15 := rfl
theorem stage16_eq : (Stages.stage16 : List (HloOp τ sig (Elt F))) = StagesP.stage16 := rfl
theorem stage17_eq : (Stages.stage17 : List (HloOp τ sig (Elt F))) = StagesP.stage17 := rfl
theorem stage18_eq : (Stages.stage18 : List (HloOp τ sig (Elt F))) = StagesP.stage18 := rfl
theorem stage19_eq : (Stages.stage19 : List (HloOp τ sig (Elt F))) = StagesP.stage19 := rfl
theorem stage20_eq : (Stages.stage20 : List (HloOp τ sig (Elt F))) = StagesP.stage20 := rfl
theorem stage21_eq : (Stages.stage21 : List (HloOp τ sig (Elt F))) = StagesP.stage21 := rfl
theorem stage22_eq : (Stages.stage22 : List (HloOp τ sig (Elt F))) = StagesP.stage22 := rfl
theorem stage23_eq : (Stages.stage23 : List (HloOp τ sig (Elt F))) = StagesP.stage23 := rfl
theorem stage24_eq : (Stages.stage24 : List (HloOp τ sig (Elt F))) = StagesP.stage24 := rfl
theorem stage25_eq : (Stages.stage25 : List (HloOp τ sig (Elt F))) = StagesP.stage25 := rfl
theorem stage26_eq : (Stages.stage26 : List (HloOp τ sig (Elt F))) = StagesP.stage26 := rfl
theorem stage27_eq : (Stages.stage27 : List (HloOp τ sig (Elt F))) = StagesP.stage27 := rfl
theorem stage28_eq : (Stages.stage28 : List (HloOp τ sig (Elt F))) = StagesP.stage28 := rfl

abbrev P1 (V : Valuation τ sig (Elt F)) : Valuation τ sig (Elt F) := after StagesP.stage0 (V)
abbrev P2 (V : Valuation τ sig (Elt F)) : Valuation τ sig (Elt F) := after StagesP.stage1 (P1 V)
abbrev P3 (V : Valuation τ sig (Elt F)) : Valuation τ sig (Elt F) := after StagesP.stage2 (P2 V)
abbrev P4 (V : Valuation τ sig (Elt F)) : Valuation τ sig (Elt F) := after StagesP.stage3 (P3 V)
abbrev P5 (V : Valuation τ sig (Elt F)) : Valuation τ sig (Elt F) := after StagesP.stage4 (P4 V)
abbrev P6 (V : Valuation τ sig (Elt F)) : Valuation τ sig (Elt F) := after StagesP.stage5 (P5 V)
abbrev P7 (V : Valuation τ sig (Elt F)) : Valuation τ sig (Elt F) := after StagesP.stage6 (P6 V)
abbrev P8 (V : Valuation τ sig (Elt F)) : Valuation τ sig (Elt F) := after StagesP.stage7 (P7 V)
abbrev P9 (V : Valuation τ sig (Elt F)) : Valuation τ sig (Elt F) := after StagesP.stage8 (P8 V)
abbrev P10 (V : Valuation τ sig (Elt F)) : Valuation τ sig (Elt F) := after StagesP.stage9 (P9 V)
abbrev P11 (V : Valuation τ sig (Elt F)) : Valuation τ sig (Elt F) := after StagesP.stage10 (P10 V)
abbrev P12 (V : Valuation τ sig (Elt F)) : Valuation τ sig (Elt F) := after StagesP.stage11 (P11 V)
abbrev P13 (V : Valuation τ sig (Elt F)) : Valuation τ sig (Elt F) := after StagesP.stage12 (P12 V)
abbrev P14 (V : Valuation τ sig (Elt F)) : Valuation τ sig (Elt F) := after StagesP.stage13 (P13 V)
abbrev P15 (V : Valuation τ sig (Elt F)) : Valuation τ sig (Elt F) := after StagesP.stage14 (P14 V)
abbrev P16 (V : Valuation τ sig (Elt F)) : Valuation τ sig (Elt F) := after StagesP.stage15 (P15 V)
abbrev P17 (V : Valuation τ sig (Elt F)) : Valuation τ sig (Elt F) := after StagesP.stage16 (P16 V)
abbrev P18 (V : Valuation τ sig (Elt F)) : Valuation τ sig (Elt F) := after StagesP.stage17 (P17 V)
abbrev P19 (V : Valuation τ sig (Elt F)) : Valuation τ sig (Elt F) := after StagesP.stage18 (P18 V)
abbrev P20 (V : Valuation τ sig (Elt F)) : Valuation τ sig (Elt F) := after StagesP.stage19 (P19 V)
abbrev P21 (V : Valuation τ sig (Elt F)) : Valuation τ sig (Elt F) := after StagesP.stage20 (P20 V)
abbrev P22 (V : Valuation τ sig (Elt F)) : Valuation τ sig (Elt F) := after StagesP.stage21 (P21 V)
abbrev P23 (V : Valuation τ sig (Elt F)) : Valuation τ sig (Elt F) := after StagesP.stage22 (P22 V)
abbrev P24 (V : Valuation τ sig (Elt F)) : Valuation τ sig (Elt F) := after StagesP.stage23 (P23 V)
abbrev P25 (V : Valuation τ sig (Elt F)) : Valuation τ sig (Elt F) := after StagesP.stage24 (P24 V)
abbrev P26 (V : Valuation τ sig (Elt F)) : Valuation τ sig (Elt F) := after StagesP.stage25 (P25 V)
abbrev P27 (V : Valuation τ sig (Elt F)) : Valuation τ sig (Elt F) := after StagesP.stage26 (P26 V)
abbrev P28 (V : Valuation τ sig (Elt F)) : Valuation τ sig (Elt F) := after StagesP.stage27 (P27 V)
abbrev P29 (V : Valuation τ sig (Elt F)) : Valuation τ sig (Elt F) := after StagesP.stage28 (P28 V)

/-- The whole fold is the last of the chain over the plain stages. -/
theorem after_ops (V : Valuation τ sig (Elt F)) : after ops V = P29 V :=
  Chain.after_ops V

end Cert.ReferenceIdeal.ChainP

end
-- ==== Proof.Tops.lean ====
/-
  The last step of each program is the sum of five loss terms, in the same order: the saturation term, the
  spatial-variation term, the horizontal-difference term, the intensity term, the blur-times-Laplacian term.
  Read off the last stage of the reference and the last host stretch of the kernel program, over any contents below.
-/
import proofs.«123598_j69123203661888_2_alg».proof.Proof.Gen.KernelIdeal.Frame
import proofs.«123598_j69123203661888_2_alg».proof.Proof.RefChainP
import proofs.«123598_j69123203661888_2_alg».proof.Proof.Gen.ReferenceIdeal

set_option maxRecDepth 16384

noncomputable section

namespace Cert.Bridge.Tops

open Idealize.ShloMosaic Idealize.ShloMosaic.TcCoe Idealize.SL.Sem Idealize.ShloMosaic.StableHlo

variable {F : FTy → Type} [FloatOps F]

open Cert.ReferenceIdeal Cert.ReferenceIdeal.StagesP in
set_option maxHeartbeats 1000000 in
/-- The reference's result is the sum of its five terms; four were finished in earlier stages, the fifth is finished
    in this one. -/
theorem top_ref (U : Valuation Cert.ReferenceIdeal.τ Cert.ReferenceIdeal.sig (Elt F)) :
    after (stage28 (F := F)) U (Proc.devRef .tc main_v407)
      = addf (addf (addf (addf (U (Proc.devRef .tc main_v8)) (U (Proc.devRef .tc main_v23))) (U (Proc.devRef .tc main_v47)))
          (U (Proc.devRef .tc main_v19))) (after (stage28 (F := F)) U (Proc.devRef .tc main_v403)) := by
  simp only [stage28]
  after_results_simp

open Cert.KernelIdeal Cert.KernelIdeal.Gen in
set_option maxHeartbeats 1000000 in
/-- The kernel program's result is the sum of its five terms; the fifth was finished in an earlier stretch, the other
    four are finished in this one. -/
theorem top_ker (V : Valuation Cert.KernelIdeal.τ Cert.KernelIdeal.sig (Elt F)) :
    after (hostOps3_4 (F := F)) V (Proc.devRef .tc main_v226)
      = addf (addf (addf (addf (after (hostOps3_4 (F := F)) V (Proc.devRef .tc main_v222)) (after (hostOps3_4 (F := F)) V (Proc.devRef .tc main_v220)))
          (after (hostOps3_4 (F := F)) V (Proc.devRef .tc main_v187))) (after (hostOps3_4 (F := F)) V (Proc.devRef .tc main_v216)))
          (V (Proc.devRef .tc main_v167)) := by
  simp only [hostOps3_4]
  after_results_simp

end Cert.Bridge.Tops

end
-- ==== Proof.Tops0.lean ====
/-
  The two programs' last steps at the result's one index: each result is the sum of its five terms' entries.
-/
import proofs.«123598_j69123203661888_2_alg».proof.Proof.Gen.KernelIdeal.Frame
import proofs.«123598_j69123203661888_2_alg».proof.Proof.RefChainP
import proofs.«123598_j69123203661888_2_alg».proof.Proof.Gen.ReferenceIdeal
import proofs.«123598_j69123203661888_2_alg».proof.Proof.Tops
import Idealize.ShloMosaic.PureOps.Ideal
import Idealize.ShloMosaic.PureOps.Ideal.Laws
import Idealize.ShloMosaic.Lib.ValueIdx
set_option maxRecDepth 16384

noncomputable section

namespace Cert.Bridge.Tops0

open Idealize.ShloMosaic Idealize.ShloMosaic.TcCoe Idealize.SL.Sem Idealize.ShloMosaic.StableHlo

/-- A scalar array's one entry, as an extended real. -/
def at0 (f : FVec Ideal ⟨0, ![]⟩ .f32) : EReal := f ValueIdx.ix0

open Cert.ReferenceIdeal Cert.ReferenceIdeal.StagesP in
theorem top_ref0 (U : Valuation Cert.ReferenceIdeal.τ Cert.ReferenceIdeal.sig (Elt Ideal)) :
    at0 (after (stage28 (F := Ideal)) U (Proc.devRef .tc main_v407))
      = at0 (U (Proc.devRef .tc main_v8)) + at0 (U (Proc.devRef .tc main_v23)) + at0 (U (Proc.devRef .tc main_v47))
        + at0 (U (Proc.devRef .tc main_v19)) + at0 (after (stage28 (F := Ideal)) U (Proc.devRef .tc main_v403)) := by
  rw [Cert.Bridge.Tops.top_ref]
  rfl

open Cert.KernelIdeal Cert.KernelIdeal.Gen in
theorem top_ker0 (V : Valuation Cert.KernelIdeal.τ Cert.KernelIdeal.sig (Elt Ideal)) :
    at0 (after (hostOps3_4 (F := Ideal)) V (Proc.devRef .tc main_v226))
      = at0 (after (hostOps3_4 (F := Ideal)) V (Proc.devRef .tc main_v222)) + at0 (after (hostOps3_4 (F := Ideal)) V (Proc.devRef .tc main_v220))
        + at0 (after (hostOps3_4 (F := Ideal)) V (Proc.devRef .tc main_v187)) + at0 (after (hostOps3_4 (F := Ideal)) V (Proc.devRef .tc main_v216))
        + at0 (V (Proc.devRef .tc main_v167)) := by
  rw [Cert.Bridge.Tops.top_ker]
  rfl

end Cert.Bridge.Tops0

end
-- ==== Proof.FiniteInputs.lean ====
/- From the certificate's precondition to "every entry of both argument arrays is a real number".

   The precondition says that, on every device, `finite_inputs` of the two argument arrays is the all-ones
   bit: for each array, the elementwise comparison |x| < +∞ reduced by `and` over all four axes, and the two
   results anded. A reduction by `and` that comes out 1 met only 1s, so every entry x of either array has
   |x| < +∞ on the extended reals, where |x| is max x (-x). That rules out x = ⊤ and x = ⊥ (both have
   |x| = ⊤), so x is the image of a real. -/
import proofs.«123598_j69123203661888_2_alg».proof.Defs
import proofs.«123598_j69123203661888_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Idealize.SL.Sem

/-- The rank-0 shape has one index. -/
instance subsingleton_scalar_idx : Subsingleton (⟨0, ![]⟩ : Shape).Idx :=
  ⟨fun a b => funext fun d => d.elim0⟩

/-- The word `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` is below `+∞` is a real: at `⊤` and at `⊥` the
    absolute value is `⊤`. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- `finite_inputs` of two arrays all ones: every entry of both is a real. -/
theorem finite_of_fn (a b : FVec Ideal Cert.Pre_finite_inputs.S8x3x1024x1024 .f32)
    (h : Cert.Pre_finite_inputs.fn (F := Ideal) a b = fun _ => 1#1) :
    (∀ i, ∃ r : ℝ, a i = (r : EReal)) ∧ (∀ i, ∃ r : ℝ, b i = (r : EReal)) := by
  have e := congrFun h ValueIdx.ix0
  dsimp only [Cert.Pre_finite_inputs.fn] at e
  obtain ⟨e0, e1⟩ := IntOp.andi_eq_one.1 e
  refine ⟨fun i => ?_, fun i => ?_⟩
  · exact real_of_abs_lt_inf _ (Host.reduce_andi_all _ _ _ _ _ e0 i)
  · exact real_of_abs_lt_inf _ (Host.reduce_andi_all _ _ _ _ _ e1 i)

/-- The precondition, decoded: on every device every entry of both argument arrays is a real number. -/
theorem finite_args
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  finite_of_fn _ _ (hpre c)

end Cert.FiniteInputs

end
-- ==== Proof.StencilSpec.lean ====
/-
  The 3×3 stencil with a mirrored border, on a 1024×1024 image of extended reals.

  The image is thought of as padded by one row and one column on every side, the padding mirroring the image
  about its edge row or column without repeating it (row -1 is row 1, row 1024 is row 1022).  Output entry (y, x) is
  the weighted sum of the nine padded entries (y + i, x + j), i, j ∈ {0, 1, 2}, padded coordinates counted from the
  padding's first row and column.  Both programs compute this, one by joining slices inside a kernel, the other by
  reversed slices joined on the host; this module states it once, as a function of the image.
-/
import Idealize.ShloMosaic.PureOps.Ideal
import Idealize.ShloMosaic.PureOps.Ideal.Laws
import Idealize.ShloMosaic.Lib.ValueIdx

noncomputable section

namespace Cert.StencilSpec

open Idealize.ShloMosaic

/-- A padded coordinate (0 … 1025) mirrored back into the image (0 … 1023). -/
def mirror (p : ℕ) : ℕ := if p = 0 then 1 else if p = 1025 then 1022 else p - 1

theorem mirror_lt {p : ℕ} (h : p < 1026) : mirror p < 1024 := by
  unfold mirror; split_ifs <;> omega

/-- The image coordinate that tap `d` reads at output coordinate `y`. -/
def src (y : Fin 1024) (d : Fin 3) : Fin 1024 :=
  ⟨mirror (y.val + d.val), mirror_lt (by have := y.isLt; have := d.isLt; omega)⟩

/-- The stencil with weights `k` of the image `g`, at (y, x). -/
def stencil (k : Fin 3 → Fin 3 → EReal) (g : Fin 1024 → Fin 1024 → EReal) (y x : Fin 1024) : EReal :=
  ∑ i : Fin 3, ∑ j : Fin 3, k i j * g (src y i) (src x j)

/-- The blur's weights as float words: 1/16, 1/8, 1/4 in the pattern 1 2 1 / 2 4 2 / 1 2 1. -/
def gaussW : Fin 3 → Fin 3 → BitVec 32 :=
  ![![0x3D800000#32, 0x3E000000#32, 0x3D800000#32],
    ![0x3E000000#32, 0x3E800000#32, 0x3E000000#32],
    ![0x3D800000#32, 0x3E000000#32, 0x3D800000#32]]

/-- The blur's weights as extended reals. -/
def gaussK (i j : Fin 3) : EReal := Ideal.ofBits .f32 (gaussW i j)

/-- The blur of an image. -/
def blur (g : Fin 1024 → Fin 1024 → EReal) (y x : Fin 1024) : EReal := stencil gaussK g y x

/-- The stencil written out in the order both programs accumulate it: row by row, left to right. -/
theorem stencil_unfold (k : Fin 3 → Fin 3 → EReal) (g : Fin 1024 → Fin 1024 → EReal) (y x : Fin 1024) :
    stencil k g y x =
      k 0 0 * g (src y 0) (src x 0) + k 0 1 * g (src y 0) (src x 1) + k 0 2 * g (src y 0) (src x 2)
      + k 1 0 * g (src y 1) (src x 0) + k 1 1 * g (src y 1) (src x 1) + k 1 2 * g (src y 1) (src x 2)
      + k 2 0 * g (src y 2) (src x 0) + k 2 1 * g (src y 2) (src x 1) + k 2 2 * g (src y 2) (src x 2) := by
  unfold stencil
  simp only [Fin.sum_univ_three]
  simp only [add_assoc]

end Cert.StencilSpec

end
-- ==== Proof.TermSpec.lean ====
/-
  The five terms of the loss, as extended reals, as functions of the two image batches.

  An image batch is eight batches of three channels of 1024 × 1024 pixels.  `n` is the pixel count 2^20 of one
  channel.  The terms: the mean over all pixels of the squared excursion outside [0, 1]; the mean over (batch, channel)
  of the squared distance of the channel mean from 1/2; the mean over (batch, channel) of the squared difference of the
  two batches' unbiased standard deviations; and the mean over (batch, pixel) of the absolute difference of
  (blurred channel-mean image) × (a fixed second image) between the two batches.  (The fifth term of the loss, a
  horizontal difference filter, is the same host operations in both programs and needs no formula.)
  Float literals stay the words the programs print; the same word on both sides is never evaluated.
-/
import proofs.«123598_j69123203661888_2_alg».proof.Proof.StencilSpec

noncomputable section

namespace Cert.TermSpec

open Idealize.ShloMosaic Idealize.ShloMosaic.ValueIdx

/-- An image batch at the ideal instance. -/
abbrev Img : Type := (⟨4, ![8, 3, 1024, 1024]⟩ : Shape).Idx → EReal

/-- 2^20, the pixels of one channel. -/
def cN : EReal := Ideal.ofBits .f32 0x49800000#32
/-- 2^20 − 1. -/
def cN1 : EReal := Ideal.ofBits .f32 0x497FFFF0#32
/-- 24, the (batch, channel) pairs. -/
def c24 : EReal := Ideal.ofBits .f32 0x41C00000#32
/-- 1/2. -/
def cHalf : EReal := Ideal.ofBits .f32 0x3F000000#32
/-- 3 · 2^23, all the pixels of a batch of images. -/
def cAll : EReal := Ideal.ofBits .f32 0x4BC00000#32
/-- 3, the channels. -/
def c3 : EReal := Ideal.ofBits .f32 0x40400000#32
/-- 2^23, the pixels of eight one-channel images. -/
def cPix : EReal := Ideal.ofBits .f32 0x4B000000#32

/-- The squared excursion of a pixel outside [0, 1]. -/
def satf (x : EReal) : EReal :=
  (max (Ideal.ofBits .f32 0x00000000#32 - x) (Ideal.ofBits .f32 0x00000000#32)
      + max (x - Ideal.ofBits .f32 0x3F800000#32) (Ideal.ofBits .f32 0x00000000#32))
    * (max (Ideal.ofBits .f32 0x00000000#32 - x) (Ideal.ofBits .f32 0x00000000#32)
      + max (x - Ideal.ofBits .f32 0x3F800000#32) (Ideal.ofBits .f32 0x00000000#32))

/-- The absolute value on the extended reals. -/
def absE (a : EReal) : EReal := max a (-a)

/-- The sum of a channel's pixels. -/
def total (A : Img) (b : Fin 8) (ch : Fin 3) : EReal := ∑ y : Fin 1024, ∑ x : Fin 1024, A (ix4 b ch y x)

/-- The sum of the squares of a channel's pixels. -/
def totalSq (A : Img) (b : Fin 8) (ch : Fin 3) : EReal :=
  ∑ y : Fin 1024, ∑ x : Fin 1024, A (ix4 b ch y x) * A (ix4 b ch y x)

/-- A channel's mean. -/
def meanOf (A : Img) (b : Fin 8) (ch : Fin 3) : EReal := Ideal.div (total A b ch) cN

/-- A channel's unbiased standard deviation, centred first. -/
def stdOf (A : Img) (b : Fin 8) (ch : Fin 3) : EReal :=
  Ideal.sqrt (Ideal.div (∑ y : Fin 1024, ∑ x : Fin 1024,
    (A (ix4 b ch y x) - meanOf A b ch) * (A (ix4 b ch y x) - meanOf A b ch)) cN1)

/-- The same from the two accumulated sums, floored at zero. -/
def stdOfSums (A : Img) (b : Fin 8) (ch : Fin 3) : EReal :=
  Ideal.sqrt (max (Ideal.div (totalSq A b ch - Ideal.div (total A b ch * total A b ch) cN) cN1) (Ideal.ofBits .f32 0x00000000#32))

/-- The saturation term. -/
def satTerm (X : Img) : EReal :=
  Ideal.div (∑ b : Fin 8, ∑ ch : Fin 3, ∑ y : Fin 1024, ∑ x : Fin 1024, satf (X (ix4 b ch y x))) cAll

/-- The intensity term. -/
def intTerm (X : Img) : EReal :=
  Ideal.div (∑ b : Fin 8, ∑ ch : Fin 3, (meanOf X b ch - cHalf) * (meanOf X b ch - cHalf)) c24

/-- The spatial-variation term, over any notion of a channel's deviation. -/
def spatTermOf (sd : Img → Fin 8 → Fin 3 → EReal) (D X : Img) : EReal :=
  Ideal.div (∑ b : Fin 8, ∑ ch : Fin 3, (sd X b ch - sd D b ch) * (sd X b ch - sd D b ch)) c24

/-- The spatial-variation term. -/
def spatTerm (D X : Img) : EReal := spatTermOf stdOf D X

/-- A batch's channel-mean image. -/
def gray (A : Img) (b : Fin 8) (y x : Fin 1024) : EReal := Ideal.div (∑ ch : Fin 3, A (ix4 b ch y x)) c3

/-- The blur-times-second-image term, the two second images given. -/
def logTerm (D X : Img) (lapP lapT : Fin 1024 → Fin 1024 → EReal) : EReal :=
  Ideal.div (∑ b : Fin 8, ∑ y : Fin 1024, ∑ x : Fin 1024,
    absE (Cert.StencilSpec.blur (gray X b) y x * lapP y x - Cert.StencilSpec.blur (gray D b) y x * lapT y x)) cPix

end Cert.TermSpec

end
-- ==== Proof.Consts.lean ====
/- The float words this certificate's programs spell, as the extended reals their patterns denote at the
   ideal instance, and the reference's variance guard: the divisor of the unbiased variance is
   2^20 - 1 = 1048575, which is positive, so the guarded quotient is the quotient itself. -/
import Idealize.ShloMosaic.PureOps.Ideal
import Idealize.ShloMosaic.PureOps.Ideal.Laws

noncomputable section

namespace Cert.Consts

open Idealize.ShloMosaic

/-- `2^20 = 1048576`, the number of pixels of one 1024 × 1024 image. -/
theorem ofBits_n : Ideal.ofBits .f32 0x49800000#32 = ((1048576 : ℝ) : EReal) := by
  simp [Ideal.ofBits, Ideal.ieee, -EReal.coe_mul]; norm_num

/-- `2^20 - 1 = 1048575`, the divisor of the unbiased variance. -/
theorem ofBits_n1 : Ideal.ofBits .f32 0x497FFFF0#32 = ((1048575 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_half : Ideal.ofBits .f32 0x3F000000#32 = ((1/2 : ℝ) : EReal) := by
  simp [Ideal.ofBits, Ideal.ieee, -EReal.coe_mul]; norm_num

theorem ofBits_24 : Ideal.ofBits .f32 0x41C00000#32 = ((24 : ℝ) : EReal) := by
  simp [Ideal.ofBits, Ideal.ieee, -EReal.coe_mul]; norm_num

/-- The divisor of the unbiased variance as the reference computes it: the pixel count `2^20` minus the
    correction, the integer `1` read as a float. It is `1048575`. -/
theorem nm1_eq :
    subf (constant (F := Ideal) ⟨0, ![]⟩ .f32 0x49800000#32) (sitofp .f32 (constantI ⟨0, ![]⟩ 32 1#32))
      = fun _ => ((1048575 : ℝ) : EReal) := by
  funext i
  have h1 : (1#32 : BitVec 32).toInt = 1 := by decide
  show Ideal.ofBits .f32 0x49800000#32 - ((((1#32 : BitVec 32).toInt : ℝ)) : EReal) = _
  rw [ofBits_n, h1, ← EReal.coe_sub]
  norm_num

/-- The reference guards its variance quotient by "divisor > 0, else NaN". The divisor is `1048575 > 0`, so
    the guard always takes the quotient. -/
theorem guard_true (hb : (⟨0, ![]⟩ : Shape).BroadcastsInDim ⟨2, ![8, 3]⟩ (![] : Fin 0 → Fin 2))
    (a b : FVec Ideal ⟨2, ![8, 3]⟩ .f32) :
    select (broadcastInDim ⟨2, ![8, 3]⟩ ![] hb
        (cmpf .ogt (subf (constant (F := Ideal) ⟨0, ![]⟩ .f32 0x49800000#32) (sitofp .f32 (constantI ⟨0, ![]⟩ 32 1#32)))
          (constant (F := Ideal) ⟨0, ![]⟩ .f32 0x00000000#32))) a b = a := by
  funext j
  rw [nm1_eq]
  show Scalar.select (Ideal.cmp .ogt ((1048575 : ℝ) : EReal) (Ideal.ofBits .f32 0x00000000#32)) (a j) (b j) = a j
  rw [Ideal.ofBits_zero_f32]
  have hpos : (0 : EReal) < ((1048575 : ℝ) : EReal) := by
    rw [← EReal.coe_zero, EReal.coe_lt_coe_iff]; norm_num
  simp [Scalar.select, Ideal.cmp, hpos]

end Cert.Consts

end
-- ==== Proof.LibReduceTrailing.lean ====
/-
  The host's float sum over the two trailing axes of a rank-4 array, read at the ideal values.

  At the ideal values the host's reduce-add at a result index is the initial value plus the sum of the operand over the
  source indices that drop to that result index. When the reduced axes are the two trailing ones of a rank-4 array, the
  source indices that drop to the result index with coordinates (i, j) are exactly the indices (i, j, y, z): dropping
  the trailing axes of (p, q, y, z) leaves (p, q). So the sum is the double sum over the two trailing coordinates y and z.
  Stated for the ideal instance's operation and for the printed host operation from a rank-0 initial array.
  The file stands alone: the splitting of a rank-4 sum into its four coordinate sums is proved here privately.
-/
import Idealize.ShloMosaic.Lib.ValueIdx
import Idealize.ShloMosaic.PureOps.Ideal.Laws

open scoped BigOperators

namespace Idealize.ShloMosaic.ValueIdx

open Idealize.ShloMosaic

/-- A rank-4 index is determined by its four coordinates, so a sum over the index set is the fourfold sum over them. -/
private theorem sum_coords4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3), invFun := fun p => ix4 p.1 p.2.1 p.2.2.1 p.2.2.2,
      left_inv := fun i => (eq_ix4 i).symm, right_inv := fun _ => rfl }
  rw [← Equiv.sum_comp e.symm f, Fintype.sum_prod_type]
  refine Finset.sum_congr rfl fun a _ => ?_
  rw [Fintype.sum_prod_type]
  refine Finset.sum_congr rfl fun b _ => ?_
  rw [Fintype.sum_prod_type]
  rfl

/-- Dropping the two trailing axes of a rank-4 index leaves its two leading coordinates. -/
theorem drop_trailing2_ix4 {a b c d : Nat} (h' : (⟨4, ![a, b, c, d]⟩ : Shape).ReducesTo [2, 3] ⟨2, ![a, b]⟩)
    (p : Fin a) (q : Fin b) (y : Fin c) (z : Fin d) : h'.drop (ix4 p q y z) = ix2 p q := by
  funext e
  match e with
  | ⟨0, _⟩ => rfl
  | ⟨1, _⟩ => rfl

/-- The host's float sum over the TWO TRAILING axes of a rank-4 array, read at the ideal values at the index with
    leading coordinates `i`, `j`: the initial value plus the double sum over the two trailing coordinates. -/
theorem hostReduceAdd_trailing2 {a b c d : Nat} (h' : (⟨4, ![a, b, c, d]⟩ : Shape).ReducesTo [2, 3] ⟨2, ![a, b]⟩)
    (x : (⟨4, ![a, b, c, d]⟩ : Shape).Idx → EReal) (init : EReal) (i : Fin a) (j : Fin b) :
    Ideal.hostReduceAdd h' x init (ix2 i j) = init + ∑ y : Fin c, ∑ z : Fin d, x (ix4 i j y z) := by
  unfold Ideal.hostReduceAdd
  congr 1
  rw [Finset.sum_filter, sum_coords4]
  simp only [drop_trailing2_ix4 h']
  rw [Finset.sum_eq_single i, Finset.sum_eq_single j]
  · simp only [if_true]
  · intro q _ hq
    have hne : ix2 i q ≠ ix2 i j := fun h => hq (congrFun h 1)
    simp only [if_neg hne, Finset.sum_const_zero]
  · intro hj; exact absurd (Finset.mem_univ j) hj
  · intro p _ hp
    have hne : ∀ q, ix2 p q ≠ ix2 i j := fun q h => hp (congrFun h 0)
    simp only [if_neg (hne _), Finset.sum_const_zero]
  · intro hi; exact absurd (Finset.mem_univ i) hi

/-- The same reading of the printed host operation: `Host.reduceAdd` of a rank-4 f32 array over its two trailing axes,
    from a rank-0 initial array, at the ideal values, is the initial array's one element plus the double sum over the two
    trailing coordinates. -/
theorem Host_reduceAdd_trailing2 {a b c d : Nat} (x : FVec Ideal ⟨4, ![a, b, c, d]⟩ .f32) (v : FVec Ideal ⟨0, ![]⟩ .f32)
    (h : (⟨4, ![a, b, c, d]⟩ : Shape).ReducesTo [2, 3] ⟨2, ![a, b]⟩) (hu : 0 < (⟨0, ![]⟩ : Shape).numel)
    (i : Fin a) (j : Fin b) :
    Host.reduceAdd (F := Ideal) x v h hu (ix2 i j) = v ix0 + ∑ y : Fin c, ∑ z : Fin d, x (ix4 i j y z) := by
  have hv : v (Shape.Idx.first hu) = v ix0 := congrArg v (eq_ix0 _)
  show Ideal.hostReduceAdd h x (v (Shape.Idx.first hu)) (ix2 i j) = _
  rw [hostReduceAdd_trailing2 h x _ i j, hv]

end Idealize.ShloMosaic.ValueIdx
-- ==== Proof.LibSumIdx.lean ====
/-
  Sums over rank-3 and rank-4 index sets as iterated sums over the coordinates.

  An index of a shape with extents n0, n1, n2 (and n3) is a function from the axes to the coordinates, and it is
  determined by those coordinates: the index set is in bijection with the product of the coordinate ranges. A sum over
  the index set in any commutative monoid is therefore the iterated sum over the coordinates, outermost axis first.
  These are the companions of the library's rank-2 statement `sum_idx2`, proved the same way.
-/
import Idealize.ShloMosaic.Lib.ValueIdx

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Idealize.ShloMosaic.ValueIdx
-- ==== Proof.RefStatTerms.lean ====
/-
  The reference's three statistics terms, read off its fold at the ideal values.

  The reference computes, by plain host operations over whole arrays: the saturation term (the mean over all pixels
  of the squared excursion outside [0, 1]); each channel's mean and unbiased standard deviation (centre on the mean,
  square, sum over the channel's pixels, divide by the pixel count less one, take the root); the intensity term (the
  mean over (batch, channel) of the squared distance of the channel mean from 1/2); and the spatial-variation term
  (the mean over (batch, channel) of the squared difference of the two batches' standard deviations).  At the ideal
  values every operation is the exact one, a host sum from a zero initial value is the sum itself, and a host sum over
  the two trailing axes is the double sum over a channel's pixels; so each buffer, read at an index, is the
  specification's formula.  The divisor of the variance is the count less one, which is positive, so the reference's
  guard on it always takes the quotient.  No finiteness is used: only that addition is commutative and associative
  and that zero is its unit.  A buffer, once complete, is written by no later operation, so it still holds its term
  after the first twenty-eight stages.
-/
import proofs.«123598_j69123203661888_2_alg».proof.Proof.RefChainP
import proofs.«123598_j69123203661888_2_alg».proof.Proof.TermSpec
import proofs.«123598_j69123203661888_2_alg».proof.Proof.Consts
import proofs.«123598_j69123203661888_2_alg».proof.Proof.LibReduceTrailing
import proofs.«123598_j69123203661888_2_alg».proof.Proof.LibSumIdx
import Idealize.ShloMosaic.Lib.StableHlo.Run
import Idealize.ShloMosaic.Lib.IdealHost
import Idealize.ShloMosaic.Lib.Pipeline.Value
import Idealize.ShloMosaic.PureOps.Ideal.Laws

noncomputable section

namespace Cert.ReferenceIdeal.StatTerms

open Idealize.ShloMosaic Idealize.SL.Sem Idealize.ShloMosaic.StableHlo Cert.ReferenceIdeal
open Cert.ReferenceIdeal.StagesP Cert.ReferenceIdeal.ChainP Idealize.ShloMosaic.ValueIdx

variable [Facts]
open Facts₀ Facts

/-! ## Host operations and broadcasts read at an index -/

/-- The host's negation at an index is the negation of the element. -/
theorem hostNegf_apply {s : Shape} {φ : FTy} (a : FVec Ideal s φ) (i : s.Idx) : Host.negf a i = -(a i) := rfl

/-- The host's square root at an index is the square root of the element. -/
theorem hostSqrt_apply {s : Shape} {φ : FTy} (a : FVec Ideal s φ) (i : s.Idx) : Host.sqrt a i = Ideal.sqrt (a i) := rfl

/-- A matrix broadcast to a rank-4 array with two trailing unit axes reads the matrix at the two leading coordinates. -/
theorem broadcastInDim_ab_ab11_apply {α : Type} {a b : Nat}
    (h : (⟨2, ![a, b]⟩ : Shape).BroadcastsInDim ⟨4, ![a, b, 1, 1]⟩ ![0, 1])
    (x : (⟨2, ![a, b]⟩ : Shape).Idx → α) (i : Fin a) (j : Fin b) (y z : Fin 1) :
    broadcastInDim ⟨4, ![a, b, 1, 1]⟩ ![0, 1] h x (ix4 i j y z) = x (ix2 i j) := by
  refine broadcastInDim_apply _ h x _ (ix2 i j) fun e => ?_
  match e with
  | ⟨0, _⟩ =>
    show i.val = if a = 1 then 0 else i.val
    split_ifs with h1
    · subst h1; omega
    · rfl
  | ⟨1, _⟩ =>
    show j.val = if b = 1 then 0 else j.val
    split_ifs with h1
    · subst h1; omega
    · rfl

/-- A rank-4 array with two trailing unit axes broadcast along them reads the array at the two leading coordinates. -/
theorem broadcastInDim_ab11_abcd_apply {α : Type} {a b c d : Nat}
    (h : (⟨4, ![a, b, 1, 1]⟩ : Shape).BroadcastsInDim ⟨4, ![a, b, c, d]⟩ ![0, 1, 2, 3])
    (x : (⟨4, ![a, b, 1, 1]⟩ : Shape).Idx → α) (i : Fin a) (j : Fin b) (y : Fin c) (z : Fin d) :
    broadcastInDim ⟨4, ![a, b, c, d]⟩ ![0, 1, 2, 3] h x (ix4 i j y z) = x (ix4 i j 0 0) := by
  refine broadcastInDim_apply _ h x _ (ix4 i j 0 0) fun e => ?_
  match e with
  | ⟨0, _⟩ =>
    show i.val = if a = 1 then 0 else i.val
    split_ifs with h1
    · subst h1; omega
    · rfl
  | ⟨1, _⟩ =>
    show j.val = if b = 1 then 0 else j.val
    split_ifs with h1
    · subst h1; omega
    · rfl
  | ⟨2, _⟩ => rfl
  | ⟨3, _⟩ => rfl

/-- A float word broadcast from a scalar reads, at every index, the extended real the word denotes. -/
theorem bcastWord_apply (T : Shape) (h : S_.BroadcastsInDim T (![] : Fin 0 → Fin T.rank)) (w : BitVec 32) (j : T.Idx) :
    broadcastInDim T ![] h (constant (F := Ideal) S_ .f32 w) j = Ideal.ofBits .f32 w := rfl

/-- On the extended reals, zero (as the float word) minus `x` is the negation of `x`. -/
theorem zeroWord_sub (x : EReal) : Ideal.ofBits .f32 0x00000000#32 - x = -x := by
  rw [Ideal.ofBits_zero_f32, zero_sub]

/-! ## The saturation term -/

/-- One pixel of the reference's squared excursion is the specification's. -/
theorem sat_point (X : FVec Ideal S8x3x1024x1024 .f32) (i : S8x3x1024x1024.Idx) :
    (mulf (addf (maximumf (Host.negf X) (broadcastInDim S8x3x1024x1024 ![] bcast_S_S8x3x1024x1024 (constant (F := Ideal) S_ .f32 0x00000000#32))) (maximumf (subf X (broadcastInDim S8x3x1024x1024 ![] bcast_S_S8x3x1024x1024 (constant (F := Ideal) S_ .f32 0x3F800000#32))) (broadcastInDim S8x3x1024x1024 ![] bcast_S_S8x3x1024x1024 (constant (F := Ideal) S_ .f32 0x00000000#32)))) (addf (maximumf (Host.negf X) (broadcastInDim S8x3x1024x1024 ![] bcast_S_S8x3x1024x1024 (constant (F := Ideal) S_ .f32 0x00000000#32))) (maximumf (subf X (broadcastInDim S8x3x1024x1024 ![] bcast_S_S8x3x1024x1024 (constant (F := Ideal) S_ .f32 0x3F800000#32))) (broadcastInDim S8x3x1024x1024 ![] bcast_S_S8x3x1024x1024 (constant (F := Ideal) S_ .f32 0x00000000#32))))) i = Cert.TermSpec.satf (X i) := by
  simp only [mulf_apply, addf_apply, maximumf_apply, subf_apply, hostNegf_apply]
  unfold Cert.TermSpec.satf
  rw [zeroWord_sub]
  rfl

/-- The reference's saturation term, as host operations on the image batch, is the specification's. -/
theorem sat_pure (X : FVec Ideal S8x3x1024x1024 .f32) :
    (Host.divf (F := Ideal) (Host.reduceAdd (F := Ideal) (mulf (addf (maximumf (Host.negf X) (broadcastInDim S8x3x1024x1024 ![] bcast_S_S8x3x1024x1024 (constant (F := Ideal) S_ .f32 0x00000000#32))) (maximumf (subf X (broadcastInDim S8x3x1024x1024 ![] bcast_S_S8x3x1024x1024 (constant (F := Ideal) S_ .f32 0x3F800000#32))) (broadcastInDim S8x3x1024x1024 ![] bcast_S_S8x3x1024x1024 (constant (F := Ideal) S_ .f32 0x00000000#32)))) (addf (maximumf (Host.negf X) (broadcastInDim S8x3x1024x1024 ![] bcast_S_S8x3x1024x1024 (constant (F := Ideal) S_ .f32 0x00000000#32))) (maximumf (subf X (broadcastInDim S8x3x1024x1024 ![] bcast_S_S8x3x1024x1024 (constant (F := Ideal) S_ .f32 0x3F800000#32))) (broadcastInDim S8x3x1024x1024 ![] bcast_S_S8x3x1024x1024 (constant (F := Ideal) S_ .f32 0x00000000#32))))) (constant (F := Ideal) S_ .f32 0x00000000#32) reducesTo_S8x3x1024x1024_S_d0_1_2_3 h_S_) (constant (F := Ideal) S_ .f32 0x4BC00000#32)) ix0 = Cert.TermSpec.satTerm X := by
  rw [hostDivf_apply, hostReduceAdd_apply,
    Ideal.hostReduceAdd_total reducesTo_S8x3x1024x1024_S_d0_1_2_3 (fun b => b.elim0)]
  rw [constant_apply, constant_apply, Ideal.ofBits_zero_f32, zero_add, sum_idx4]
  unfold Cert.TermSpec.satTerm Cert.TermSpec.cAll
  refine congrArg (fun s => Ideal.div s _) ?_
  refine Finset.sum_congr rfl fun b _ => Finset.sum_congr rfl fun ch _ => Finset.sum_congr rfl fun y _ =>
    Finset.sum_congr rfl fun x _ => ?_
  exact sat_point X _

/-! ## A channel's mean -/

/-- The reference's channel mean, kept with two unit axes, is the specification's mean at each of its entries. -/
theorem mean_pure (A : FVec Ideal S8x3x1024x1024 .f32) (b : Fin 8) (ch : Fin 3) (y z : Fin 1) :
    (Host.divf (F := Ideal) (broadcastInDim S8x3x1x1 ![0, 1] bcast_S8x3_S8x3x1x1_0_1 (Host.reduceAdd (F := Ideal) A (constant (F := Ideal) S_ .f32 0x00000000#32) reducesTo_S8x3x1024x1024_S8x3_d2_3 h_S_)) (broadcastInDim S8x3x1x1 ![] bcast_S_S8x3x1x1 (constant (F := Ideal) S_ .f32 0x49800000#32))) (ix4 b ch y z) = Cert.TermSpec.meanOf A b ch := by
  rw [hostDivf_apply, broadcastInDim_ab_ab11_apply, Host_reduceAdd_trailing2, bcastWord_apply]
  rw [constant_apply, Ideal.ofBits_zero_f32, zero_add]
  rfl

/-! ## A channel's unbiased standard deviation -/

/-- The reference's standard deviation of a channel — centre on the mean, square, sum, divide by the count less one
    (the reference's guard "the divisor is positive" always holds), take the root — is the specification's. -/
theorem std_pure (A : FVec Ideal S8x3x1024x1024 .f32) (b : Fin 8) (ch : Fin 3) :
    (Host.sqrt (F := Ideal) (select (broadcastInDim S8x3 ![] bcast_S_S8x3 (cmpf .ogt (subf (constant (F := Ideal) S_ .f32 0x49800000#32) (sitofp .f32 (constantI S_ 32 1#32))) (constant (F := Ideal) S_ .f32 0x00000000#32))) (Host.divf (F := Ideal) (Host.reduceAdd (F := Ideal) (mulf (subf A (broadcastInDim S8x3x1024x1024 ![0, 1, 2, 3] bcast_S8x3x1x1_S8x3x1024x1024_0_1_2_3 (Host.divf (F := Ideal) (broadcastInDim S8x3x1x1 ![0, 1] bcast_S8x3_S8x3x1x1_0_1 (Host.reduceAdd (F := Ideal) A (constant (F := Ideal) S_ .f32 0x00000000#32) reducesTo_S8x3x1024x1024_S8x3_d2_3 h_S_)) (broadcastInDim S8x3x1x1 ![] bcast_S_S8x3x1x1 (constant (F := Ideal) S_ .f32 0x49800000#32))))) (subf A (broadcastInDim S8x3x1024x1024 ![0, 1, 2, 3] bcast_S8x3x1x1_S8x3x1024x1024_0_1_2_3 (Host.divf (F := Ideal) (broadcastInDim S8x3x1x1 ![0, 1] bcast_S8x3_S8x3x1x1_0_1 (Host.reduceAdd (F := Ideal) A (constant (F := Ideal) S_ .f32 0x00000000#32) reducesTo_S8x3x1024x1024_S8x3_d2_3 h_S_)) (broadcastInDim S8x3x1x1 ![] bcast_S_S8x3x1x1 (constant (F := Ideal) S_ .f32 0x49800000#32)))))) (constant (F := Ideal) S_ .f32 0x00000000#32) reducesTo_S8x3x1024x1024_S8x3_d2_3 h_S_) (broadcastInDim S8x3 ![] bcast_S_S8x3 (subf (constant (F := Ideal) S_ .f32 0x49800000#32) (sitofp .f32 (constantI S_ 32 1#32))))) (broadcastInDim S8x3 ![] bcast_S_S8x3 (id (constant (F := Ideal) S_ .f32 0x7FC00000#32))))) (ix2 b ch) = Cert.TermSpec.stdOf A b ch := by
  rw [hostSqrt_apply, Cert.Consts.guard_true, hostDivf_apply, Host_reduceAdd_trailing2,
    constant_apply, Ideal.ofBits_zero_f32, zero_add, Cert.Consts.nm1_eq]
  unfold Cert.TermSpec.stdOf Cert.TermSpec.cN1
  rw [Cert.Consts.ofBits_n1]
  refine congrArg Ideal.sqrt ?_
  show Ideal.div _ ((1048575 : ℝ) : EReal) = Ideal.div _ ((1048575 : ℝ) : EReal)
  refine congrArg (fun s => Ideal.div s _) ?_
  refine Finset.sum_congr rfl fun y _ => Finset.sum_congr rfl fun x _ => ?_
  rw [mulf_apply, subf_apply, broadcastInDim_ab11_abcd_apply, mean_pure]

/-! ## The intensity term and the spatial-variation term -/

/-- The reference's intensity term, from a buffer holding the channel means, is the specification's. -/
theorem int_pure (M : FVec Ideal S8x3x1x1 .f32) (X : Cert.TermSpec.Img)
    (hM : ∀ (b : Fin 8) (ch : Fin 3) (y z : Fin 1), M (ix4 b ch y z) = Cert.TermSpec.meanOf X b ch) :
    (Host.divf (F := Ideal) (Host.reduceAdd (F := Ideal) (mulf (subf M (broadcastInDim S8x3x1x1 ![] bcast_S_S8x3x1x1 (constant (F := Ideal) S_ .f32 0x3F000000#32))) (subf M (broadcastInDim S8x3x1x1 ![] bcast_S_S8x3x1x1 (constant (F := Ideal) S_ .f32 0x3F000000#32)))) (constant (F := Ideal) S_ .f32 0x00000000#32) reducesTo_S8x3x1x1_S_d0_1_2_3 h_S_) (constant (F := Ideal) S_ .f32 0x41C00000#32)) ix0 = Cert.TermSpec.intTerm X := by
  rw [hostDivf_apply, hostReduceAdd_apply,
    Ideal.hostReduceAdd_total reducesTo_S8x3x1x1_S_d0_1_2_3 (fun b => b.elim0)]
  rw [constant_apply, constant_apply, Ideal.ofBits_zero_f32, zero_add, sum_idx4]
  unfold Cert.TermSpec.intTerm Cert.TermSpec.c24 Cert.TermSpec.cHalf
  refine congrArg (fun s => Ideal.div s _) ?_
  refine Finset.sum_congr rfl fun b _ => Finset.sum_congr rfl fun ch _ => ?_
  rw [Fin.sum_univ_one, Fin.sum_univ_one, mulf_apply, subf_apply, bcastWord_apply, hM]

/-- The reference's spatial-variation term, from buffers holding the two batches' standard deviations, is the
    specification's. -/
theorem spat_pure (SX SD : FVec Ideal S8x3 .f32) (D X : Cert.TermSpec.Img)
    (hX : ∀ (b : Fin 8) (ch : Fin 3), SX (ix2 b ch) = Cert.TermSpec.stdOf X b ch)
    (hD : ∀ (b : Fin 8) (ch : Fin 3), SD (ix2 b ch) = Cert.TermSpec.stdOf D b ch) :
    (Host.divf (F := Ideal) (Host.reduceAdd (F := Ideal) (mulf (subf SX SD) (subf SX SD)) (constant (F := Ideal) S_ .f32 0x00000000#32) reducesTo_S8x3_S_d0_1 h_S_) (constant (F := Ideal) S_ .f32 0x41C00000#32)) ix0 = Cert.TermSpec.spatTerm D X := by
  rw [hostDivf_apply, hostReduceAdd_apply, Ideal.hostReduceAdd_total reducesTo_S8x3_S_d0_1 (fun b => b.elim0)]
  rw [constant_apply, constant_apply, Ideal.ofBits_zero_f32, zero_add, sum_idx2]
  unfold Cert.TermSpec.spatTerm Cert.TermSpec.spatTermOf Cert.TermSpec.c24
  refine congrArg (fun s => Ideal.div s _) ?_
  refine Finset.sum_congr rfl fun b _ => Finset.sum_congr rfl fun ch _ => ?_
  rw [mulf_apply, subf_apply, hX, hD]

/-! ## The stages read at their result buffers -/

/-- After stage 0 the saturation buffer holds the saturation term of the second argument. -/
theorem stage0_v8 (U : Valuation τ sig (Elt Ideal)) :
    after (StagesP.stage0 (F := Ideal)) U (Proc.devRef .tc main_v8) ix0
      = Cert.TermSpec.satTerm (U (Proc.devRef .tc main_arg1)) := by
  simp only [StagesP.stage0]
  after_results_simp
  exact sat_pure _

/-- After stage 2 the mean buffer holds the channel means of the second argument. -/
theorem stage2_v13 (U : Valuation τ sig (Elt Ideal)) (b : Fin 8) (ch : Fin 3) (y z : Fin 1) :
    after (StagesP.stage2 (F := Ideal)) U (Proc.devRef .tc main_v13) (ix4 b ch y z)
      = Cert.TermSpec.meanOf (U (Proc.devRef .tc main_arg1)) b ch := by
  simp only [StagesP.stage2]
  after_results_simp
  exact mean_pure _ b ch y z

/-- After stage 1 the first deviation buffer holds the standard deviations of the first argument. -/
theorem stage1_v9 (U : Valuation τ sig (Elt Ideal)) (b : Fin 8) (ch : Fin 3) :
    after (StagesP.stage1 (F := Ideal)) U (Proc.devRef .tc main_v9) (ix2 b ch)
      = Cert.TermSpec.stdOf (U (Proc.devRef .tc main_arg0)) b ch := by
  simp only [StagesP.stage1]
  after_results_simp
  exact std_pure _ b ch

/-- After stage 3 the second deviation buffer holds the standard deviations of the second argument. -/
theorem stage3_v14 (U : Valuation τ sig (Elt Ideal)) (b : Fin 8) (ch : Fin 3) :
    after (StagesP.stage3 (F := Ideal)) U (Proc.devRef .tc main_v14) (ix2 b ch)
      = Cert.TermSpec.stdOf (U (Proc.devRef .tc main_arg1)) b ch := by
  simp only [StagesP.stage3]
  after_results_simp
  exact std_pure _ b ch

/-- After stage 4 the intensity buffer holds the intensity term, given the channel means in their buffer. -/
theorem stage4_v19 (U : Valuation τ sig (Elt Ideal)) (X : Cert.TermSpec.Img)
    (hM : ∀ (b : Fin 8) (ch : Fin 3) (y z : Fin 1),
      U (Proc.devRef .tc main_v13) (ix4 b ch y z) = Cert.TermSpec.meanOf X b ch) :
    after (StagesP.stage4 (F := Ideal)) U (Proc.devRef .tc main_v19) ix0 = Cert.TermSpec.intTerm X := by
  simp only [StagesP.stage4]
  after_results_simp
  exact int_pure _ X hM

/-- After stage 4 the spatial-variation buffer holds that term, given the two deviations in their buffers. -/
theorem stage4_v23 (U : Valuation τ sig (Elt Ideal)) (D X : Cert.TermSpec.Img)
    (hX : ∀ (b : Fin 8) (ch : Fin 3), U (Proc.devRef .tc main_v14) (ix2 b ch) = Cert.TermSpec.stdOf X b ch)
    (hD : ∀ (b : Fin 8) (ch : Fin 3), U (Proc.devRef .tc main_v9) (ix2 b ch) = Cert.TermSpec.stdOf D b ch) :
    after (StagesP.stage4 (F := Ideal)) U (Proc.devRef .tc main_v23) ix0 = Cert.TermSpec.spatTerm D X := by
  simp only [StagesP.stage4]
  after_results_simp
  exact spat_pure _ _ D X hX hD

/-! ## A finished buffer is not written again -/

set_option maxHeartbeats 8000000 in
/-- No stage after the first writes the saturation buffer. -/
theorem carry_v8 (V : Valuation τ sig (Elt Ideal)) :
    P28 V (Proc.devRef .tc main_v8) = P1 V (Proc.devRef .tc main_v8) := by
  simp only [P28, P27, P26, P25, P24, P23, P22, P21, P20, P19, P18, P17, P16, P15, P14, P13, P12, P11, P10, P9, P8, P7, P6, P5, P4, P3, P2, StagesP.stage1, StagesP.stage2, StagesP.stage3, StagesP.stage4, StagesP.stage5, StagesP.stage6, StagesP.stage7, StagesP.stage8, StagesP.stage9, StagesP.stage10, StagesP.stage11, StagesP.stage12, StagesP.stage13, StagesP.stage14, StagesP.stage15, StagesP.stage16, StagesP.stage17, StagesP.stage18, StagesP.stage19, StagesP.stage20, StagesP.stage21, StagesP.stage22, StagesP.stage23, StagesP.stage24, StagesP.stage25, StagesP.stage26, StagesP.stage27]
  after_results_simp

set_option maxHeartbeats 8000000 in
/-- No stage after the fifth writes the intensity buffer. -/
theorem carry_v19 (V : Valuation τ sig (Elt Ideal)) :
    P28 V (Proc.devRef .tc main_v19) = P5 V (Proc.devRef .tc main_v19) := by
  simp only [P28, P27, P26, P25, P24, P23, P22, P21, P20, P19, P18, P17, P16, P15, P14, P13, P12, P11, P10, P9, P8, P7, P6, StagesP.stage5, StagesP.stage6, StagesP.stage7, StagesP.stage8, StagesP.stage9, StagesP.stage10, StagesP.stage11, StagesP.stage12, StagesP.stage13, StagesP.stage14, StagesP.stage15, StagesP.stage16, StagesP.stage17, StagesP.stage18, StagesP.stage19, StagesP.stage20, StagesP.stage21, StagesP.stage22, StagesP.stage23, StagesP.stage24, StagesP.stage25, StagesP.stage26, StagesP.stage27]
  after_results_simp

set_option maxHeartbeats 8000000 in
/-- No stage after the fifth writes the spatial-variation buffer. -/
theorem carry_v23 (V : Valuation τ sig (Elt Ideal)) :
    P28 V (Proc.devRef .tc main_v23) = P5 V (Proc.devRef .tc main_v23) := by
  simp only [P28, P27, P26, P25, P24, P23, P22, P21, P20, P19, P18, P17, P16, P15, P14, P13, P12, P11, P10, P9, P8, P7, P6, StagesP.stage5, StagesP.stage6, StagesP.stage7, StagesP.stage8, StagesP.stage9, StagesP.stage10, StagesP.stage11, StagesP.stage12, StagesP.stage13, StagesP.stage14, StagesP.stage15, StagesP.stage16, StagesP.stage17, StagesP.stage18, StagesP.stage19, StagesP.stage20, StagesP.stage21, StagesP.stage22, StagesP.stage23, StagesP.stage24, StagesP.stage25, StagesP.stage26, StagesP.stage27]
  after_results_simp

/-- Stage 3 does not write the mean buffer. -/
theorem keep_v13 (V : Valuation τ sig (Elt Ideal)) :
    P4 V (Proc.devRef .tc main_v13) = P3 V (Proc.devRef .tc main_v13) := by
  simp only [P4, StagesP.stage3]
  after_results_simp

/-- Stages 2 and 3 do not write the first deviation buffer. -/
theorem keep_v9 (V : Valuation τ sig (Elt Ideal)) :
    P4 V (Proc.devRef .tc main_v9) = P2 V (Proc.devRef .tc main_v9) := by
  simp only [P4, P3, StagesP.stage2, StagesP.stage3]
  after_results_simp

/-- Stage 0 does not write the first argument. -/
theorem keep_arg0_P1 (V : Valuation τ sig (Elt Ideal)) :
    P1 V (Proc.devRef .tc main_arg0) = V (Proc.devRef .tc main_arg0) := by
  simp only [P1, StagesP.stage0]
  after_results_simp

/-- Stages 0 and 1 do not write the second argument. -/
theorem keep_arg1_P2 (V : Valuation τ sig (Elt Ideal)) :
    P2 V (Proc.devRef .tc main_arg1) = V (Proc.devRef .tc main_arg1) := by
  simp only [P2, P1, StagesP.stage0, StagesP.stage1]
  after_results_simp

/-- Stages 0 to 2 do not write the second argument. -/
theorem keep_arg1_P3 (V : Valuation τ sig (Elt Ideal)) :
    P3 V (Proc.devRef .tc main_arg1) = V (Proc.devRef .tc main_arg1) := by
  simp only [P3, P2, P1, StagesP.stage0, StagesP.stage1, StagesP.stage2]
  after_results_simp

/-! ## The three terms after the first twenty-eight stages -/

/-- The saturation buffer holds the saturation term of the second argument. -/
theorem sat_chain (V' : Valuation τ sig (Elt Ideal)) :
    P28 V' (Proc.devRef .tc main_v8) ValueIdx.ix0 = Cert.TermSpec.satTerm (V' (Proc.devRef .tc main_arg1)) :=
  (congrFun (carry_v8 V') ix0).trans (stage0_v8 V')

/-- The intensity buffer holds the intensity term of the second argument. -/
theorem int_chain (V' : Valuation τ sig (Elt Ideal)) :
    P28 V' (Proc.devRef .tc main_v19) ValueIdx.ix0 = Cert.TermSpec.intTerm (V' (Proc.devRef .tc main_arg1)) := by
  refine (congrFun (carry_v19 V') ix0).trans ?_
  refine stage4_v19 (P4 V') _ fun b ch y z => ?_
  refine (congrFun (keep_v13 V') (ix4 b ch y z)).trans ?_
  refine (stage2_v13 (P2 V') b ch y z).trans ?_
  exact congrArg (fun A : Cert.TermSpec.Img => Cert.TermSpec.meanOf A b ch) (keep_arg1_P2 V')

/-- The spatial-variation buffer holds the spatial-variation term of the two arguments. -/
theorem spat_chain (V' : Valuation τ sig (Elt Ideal)) :
    P28 V' (Proc.devRef .tc main_v23) ValueIdx.ix0
      = Cert.TermSpec.spatTerm (V' (Proc.devRef .tc main_arg0)) (V' (Proc.devRef .tc main_arg1)) := by
  refine (congrFun (carry_v23 V') ix0).trans ?_
  refine stage4_v23 (P4 V') _ _ (fun b ch => ?_) (fun b ch => ?_)
  · refine (stage3_v14 (P3 V') b ch).trans ?_
    exact congrArg (fun A : Cert.TermSpec.Img => Cert.TermSpec.stdOf A b ch) (keep_arg1_P3 V')
  · refine (congrFun (keep_v9 V') (ix2 b ch)).trans ?_
    refine (stage1_v9 (P1 V') b ch).trans ?_
    exact congrArg (fun A : Cert.TermSpec.Img => Cert.TermSpec.stdOf A b ch) (keep_arg0_P1 V')

end Cert.ReferenceIdeal.StatTerms

end
-- ==== Proof.VarMath.lean ====
/-
  The two forms of the unbiased sample variance agree on real data.

  For real numbers r over a grid of N = a·b ≥ 2 points, with S1 = Σ r and S2 = Σ r², the centred sum of squares
  Σ (r − S1/N)² expands to S2 − 2·(S1/N)·S1 + N·(S1/N)² = S2 − S1²/N. It is a sum of squares, hence nonnegative, and
  N − 1 > 0, so flooring (S2 − S1²/N)/(N − 1) at zero changes nothing. On the extended reals this needs every entry
  to be a real: distributivity and cancellation fail at the infinities. Division by a nonzero real is read as the
  product with its reciprocal.
-/
import Mathlib
import Idealize.ShloMosaic.PureOps.Ideal

open scoped BigOperators

namespace Cert.VarMath

open Idealize.ShloMosaic

/-- The coercion of a finite real sum into the extended reals is the sum of the coercions. -/
theorem coe_sum {ι : Type*} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The same for a double sum over a grid. -/
theorem coe_sum2 {a b : ℕ} (g : Fin a → Fin b → ℝ) :
    ((∑ y, ∑ x, g y x : ℝ) : EReal) = ∑ y, ∑ x, (g y x : EReal) := by
  rw [coe_sum]; exact Finset.sum_congr rfl fun y _ => coe_sum _ _

/-- Over the reals: the centred sum of squares is the sum of squares minus the squared sum over the count. -/
theorem sum_sq_centered {a b : ℕ} (r : Fin a → Fin b → ℝ) (N s1 : ℝ) (hs1 : ∑ y, ∑ x, r y x = s1)
    (hN : N = ((a * b : ℕ) : ℝ)) (hN0 : N ≠ 0) :
    ∑ y, ∑ x, (r y x - s1 * (1 / N)) * (r y x - s1 * (1 / N))
      = (∑ y, ∑ x, r y x * r y x) - s1 * s1 * (1 / N) := by
  have hterm : ∀ y x, (r y x - s1 * (1 / N)) * (r y x - s1 * (1 / N))
      = r y x * r y x - (2 * (s1 * (1 / N))) * r y x + (s1 * (1 / N)) * (s1 * (1 / N)) := fun y x => by ring
  have hconst : ∑ _y : Fin a, ∑ _x : Fin b, (s1 * (1 / N)) * (s1 * (1 / N)) = N * ((s1 * (1 / N)) * (s1 * (1 / N))) := by
    simp only [Finset.sum_const, Finset.card_univ, Fintype.card_fin, nsmul_eq_mul]
    rw [hN, Nat.cast_mul]
    ring
  have hlin : ∑ y : Fin a, ∑ x : Fin b, (2 * (s1 * (1 / N))) * r y x = (2 * (s1 * (1 / N))) * s1 := by
    rw [← hs1, Finset.mul_sum]
    exact Finset.sum_congr rfl fun y _ => (Finset.mul_sum _ _ _).symm
  simp only [hterm, Finset.sum_add_distrib, Finset.sum_sub_distrib]
  rw [hconst, hlin]
  field_simp
  ring

/-- The accumulated form of the unbiased variance, floored at zero, is the centred form, when every entry is a real
    and there are at least two entries. -/
theorem var_forms {a b : ℕ} (f : Fin a → Fin b → EReal) (hf : ∀ y x, ∃ r : ℝ, f y x = (r : EReal))
    (N : ℝ) (hN : N = ((a * b : ℕ) : ℝ)) (h2 : 2 ≤ a * b) :
    max (Ideal.div ((∑ y, ∑ x, f y x * f y x) - Ideal.div ((∑ y, ∑ x, f y x) * (∑ y, ∑ x, f y x)) (N : EReal))
        ((N - 1 : ℝ) : EReal)) 0
      = Ideal.div (∑ y, ∑ x, (f y x - Ideal.div (∑ y, ∑ x, f y x) (N : EReal))
          * (f y x - Ideal.div (∑ y, ∑ x, f y x) (N : EReal))) ((N - 1 : ℝ) : EReal) := by
  choose r hr using hf
  have hN2 : (2 : ℝ) ≤ N := by rw [hN]; exact_mod_cast h2
  have hN0 : N ≠ 0 := by linarith
  have hN1 : N - 1 ≠ 0 := by intro h; linarith
  have hpos : 0 < 1 / (N - 1) := one_div_pos.mpr (by linarith)
  obtain ⟨s1, hs1⟩ : ∃ s : ℝ, ∑ y, ∑ x, r y x = s := ⟨_, rfl⟩
  obtain ⟨s2, hs2⟩ : ∃ s : ℝ, ∑ y, ∑ x, r y x * r y x = s := ⟨_, rfl⟩
  have e1 : (∑ y, ∑ x, f y x) = (s1 : EReal) := by
    rw [← hs1, coe_sum2]
    exact Finset.sum_congr rfl fun y _ => Finset.sum_congr rfl fun x _ => hr y x
  have e2 : (∑ y, ∑ x, f y x * f y x) = (s2 : EReal) := by
    rw [← hs2, coe_sum2]
    refine Finset.sum_congr rfl fun y _ => Finset.sum_congr rfl fun x _ => ?_
    rw [hr, EReal.coe_mul]
  have e3 : Ideal.div (s1 : EReal) (N : EReal) = ((s1 * (1 / N) : ℝ) : EReal) := by
    rw [Ideal.div_coe hN0, ← EReal.coe_mul]
  have e4 : (∑ y, ∑ x, (f y x - ((s1 * (1 / N) : ℝ) : EReal)) * (f y x - ((s1 * (1 / N) : ℝ) : EReal)))
      = ((∑ y, ∑ x, (r y x - s1 * (1 / N)) * (r y x - s1 * (1 / N)) : ℝ) : EReal) := by
    rw [coe_sum2]
    refine Finset.sum_congr rfl fun y _ => Finset.sum_congr rfl fun x _ => ?_
    rw [hr, ← EReal.coe_sub, ← EReal.coe_mul]
  have hQ := sum_sq_centered r N s1 hs1 hN hN0
  rw [hs2] at hQ
  rw [e1, e2, e3, e4]
  simp only [← EReal.coe_mul, ← EReal.coe_sub, Ideal.div_coe hN0, Ideal.div_coe hN1]
  rw [← hQ]
  exact max_eq_left (EReal.coe_nonneg.mpr (mul_nonneg
    (Finset.sum_nonneg fun y _ => Finset.sum_nonneg fun x _ => mul_self_nonneg _) hpos.le))

/-- The same under the square root: the two forms of the standard deviation agree. -/
theorem std_forms {a b : ℕ} (f : Fin a → Fin b → EReal) (hf : ∀ y x, ∃ r : ℝ, f y x = (r : EReal))
    (N : ℝ) (hN : N = ((a * b : ℕ) : ℝ)) (h2 : 2 ≤ a * b) :
    Ideal.sqrt (max (Ideal.div ((∑ y, ∑ x, f y x * f y x)
        - Ideal.div ((∑ y, ∑ x, f y x) * (∑ y, ∑ x, f y x)) (N : EReal)) ((N - 1 : ℝ) : EReal)) 0)
      = Ideal.sqrt (Ideal.div (∑ y, ∑ x, (f y x - Ideal.div (∑ y, ∑ x, f y x) (N : EReal))
          * (f y x - Ideal.div (∑ y, ∑ x, f y x) (N : EReal))) ((N - 1 : ℝ) : EReal)) :=
  congrArg Ideal.sqrt (var_forms f hf N hN h2)

end Cert.VarMath
-- ==== Proof.KernelCarry.lean ====
import proofs.«123598_j69123203661888_2_alg».proof.Proof.Gen.KernelIdeal.Frame

set_option maxRecDepth 16384

noncomputable section

namespace Cert.Bridge.KernelCarry

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ) (ρ : Dev Cert.KernelIdeal.nD → PrngReg)

open Cert.KernelIdeal Cert.KernelIdeal.Gen

/-- The kernel program's first argument array reaches the second kernel region unchanged: the first region only reads
    it, and the host operations between the regions do not write it. -/
theorem W3_arg0 (c : Dev nD) : W3 m ρ c (Proc.devRef .tc main_arg0) = m ((c : Thread nD τ).loc main_arg0) := by
  rw [W3_of_ne m ρ c main_arg0 (by decide)]
  dsimp only [W2]
  simp only [hostOps1]
  after_results
  exact (W1_arr m ρ c 1).trans (((dat0 (V0 m ρ) c).arrAt_in 1 rfl _).trans (A_eq0 (V0 m ρ) c 1))

/-- Likewise the second argument array. -/
theorem W3_arg1 (c : Dev nD) : W3 m ρ c (Proc.devRef .tc main_arg1) = m ((c : Thread nD τ).loc main_arg1) := by
  rw [W3_of_ne m ρ c main_arg1 (by decide)]
  dsimp only [W2]
  simp only [hostOps1]
  after_results
  exact (W1_arr m ρ c 0).trans (((dat0 (V0 m ρ) c).arrAt_in 0 rfl _).trans (A_eq0 (V0 m ρ) c 0))

end Cert.Bridge.KernelCarry

end
-- ==== Proof.KernelCarry2.lean ====
import proofs.«123598_j69123203661888_2_alg».proof.Proof.Gen.KernelIdeal.Frame
import proofs.«123598_j69123203661888_2_alg».proof.Proof.KernelCarry

set_option maxRecDepth 16384

noncomputable section

namespace Cert.Bridge.KernelCarry

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ) (ρ : Dev Cert.KernelIdeal.nD → PrngReg)

open Cert.KernelIdeal Cert.KernelIdeal.Gen

/-! The first kernel region's accumulated sums are consumed only by the last host stretch: they cross the host
    operations in between (which do not write them) and the two later kernel regions (whose arrays they are not). -/

set_option maxHeartbeats 4000000 in
theorem W17_v0_2 (c : Dev nD) :
    W17 m ρ c (Proc.devRef .tc main_v0_2) = (dat0 (V0 m ρ) c).arrAt 4 cfg0.N := by
  dsimp only [W17, W16, W15, W14]
  simp only [hostOps3_3, hostOps3_2, hostOps3_1, hostOps3]
  after_results_simp
  rw [W13_of_ne m ρ c main_v0_2 (by decide)]
  dsimp only [W12, W11, W10, W9, W8, W7, W6, W5, W4]
  simp only [hostOps2_8, hostOps2_7, hostOps2_6, hostOps2_5, hostOps2_4, hostOps2_3, hostOps2_2, hostOps2_1, hostOps2]
  after_results_simp
  rw [W3_of_ne m ρ c main_v0_2 (by decide)]
  dsimp only [W2]
  simp only [hostOps1]
  after_results_simp
  exact W1_arr m ρ c 4

set_option maxHeartbeats 4000000 in
theorem W17_v0_3 (c : Dev nD) :
    W17 m ρ c (Proc.devRef .tc main_v0_3) = (dat0 (V0 m ρ) c).arrAt 5 cfg0.N := by
  dsimp only [W17, W16, W15, W14]
  simp only [hostOps3_3, hostOps3_2, hostOps3_1, hostOps3]
  after_results_simp
  rw [W13_of_ne m ρ c main_v0_3 (by decide)]
  dsimp only [W12, W11, W10, W9, W8, W7, W6, W5, W4]
  simp only [hostOps2_8, hostOps2_7, hostOps2_6, hostOps2_5, hostOps2_4, hostOps2_3, hostOps2_2, hostOps2_1, hostOps2]
  after_results_simp
  rw [W3_of_ne m ρ c main_v0_3 (by decide)]
  dsimp only [W2]
  simp only [hostOps1]
  after_results_simp
  exact W1_arr m ρ c 5

set_option maxHeartbeats 4000000 in
theorem W17_v0_4 (c : Dev nD) :
    W17 m ρ c (Proc.devRef .tc main_v0_4) = (dat0 (V0 m ρ) c).arrAt 6 cfg0.N := by
  dsimp only [W17, W16, W15, W14]
  simp only [hostOps3_3, hostOps3_2, hostOps3_1, hostOps3]
  after_results_simp
  rw [W13_of_ne m ρ c main_v0_4 (by decide)]
  dsimp only [W12, W11, W10, W9, W8, W7, W6, W5, W4]
  simp only [hostOps2_8, hostOps2_7, hostOps2_6, hostOps2_5, hostOps2_4, hostOps2_3, hostOps2_2, hostOps2_1, hostOps2]
  after_results_simp
  rw [W3_of_ne m ρ c main_v0_4 (by decide)]
  dsimp only [W2]
  simp only [hostOps1]
  after_results_simp
  exact W1_arr m ρ c 6

set_option maxHeartbeats 4000000 in
theorem W17_v0_5 (c : Dev nD) :
    W17 m ρ c (Proc.devRef .tc main_v0_5) = (dat0 (V0 m ρ) c).arrAt 7 cfg0.N := by
  dsimp only [W17, W16, W15, W14]
  simp only [hostOps3_3, hostOps3_2, hostOps3_1, hostOps3]
  after_results_simp
  rw [W13_of_ne m ρ c main_v0_5 (by decide)]
  dsimp only [W12, W11, W10, W9, W8, W7, W6, W5, W4]
  simp only [hostOps2_8, hostOps2_7, hostOps2_6, hostOps2_5, hostOps2_4, hostOps2_3, hostOps2_2, hostOps2_1, hostOps2]
  after_results_simp
  rw [W3_of_ne m ρ c main_v0_5 (by decide)]
  dsimp only [W2]
  simp only [hostOps1]
  after_results_simp
  exact W1_arr m ρ c 7

set_option maxHeartbeats 4000000 in
theorem W17_v0_6 (c : Dev nD) :
    W17 m ρ c (Proc.devRef .tc main_v0_6) = (dat0 (V0 m ρ) c).arrAt 8 cfg0.N := by
  dsimp only [W17, W16, W15, W14]
  simp only [hostOps3_3, hostOps3_2, hostOps3_1, hostOps3]
  after_results_simp
  rw [W13_of_ne m ρ c main_v0_6 (by decide)]
  dsimp only [W12, W11, W10, W9, W8, W7, W6, W5, W4]
  simp only [hostOps2_8, hostOps2_7, hostOps2_6, hostOps2_5, hostOps2_4, hostOps2_3, hostOps2_2, hostOps2_1, hostOps2]
  after_results_simp
  rw [W3_of_ne m ρ c main_v0_6 (by decide)]
  dsimp only [W2]
  simp only [hostOps1]
  after_results_simp
  exact W1_arr m ρ c 8

set_option maxHeartbeats 4000000 in
/-- The third kernel region's per-batch sums reach the first tail stretch, which reduces them. -/
theorem W13_v165 (c : Dev nD) :
    W13 m ρ c (Proc.devRef .tc main_v165) = (dat2 (V12 m ρ) c).arrAt 4 cfg2.N :=
  W13_arr m ρ c 4

end Cert.Bridge.KernelCarry

end
-- ==== Proof.StatsCases.lean ====
import proofs.«123598_j69123203661888_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Stats

open Cert.KernelIdeal Cert.KernelIdeal.Gen

variable {F : FTy → Type} [FloatOps F]

/-! ## What one grid point of the statistics kernel leaves in each output block

The grid is (batch, row tile): eight batches of four tiles of 256 rows.  At a batch's first tile the five running
sums are reset to zero and then accumulated like at any other tile; the two grey images are written tile by tile.
Below, per output block and per case, the block's contents after the body as the body's own arithmetic applied to
the two input tiles and (for a running sum) to what the block held before. -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- Output 2 after a tile that is not a batch's first: one store covering the block. -/
theorem caseB_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_2 c i arg2 harg2 arg3 harg3 arg4 harg4 arg5 harg5 arg6 harg6 arg7 harg7 arg8 harg8 arg9 harg9 arg10 harg10 hc0 x0 x1 xo4 xo5 xo6 xo7 xo8 = k0_pay2 x0 := by
  unfold out0_B_2
  rw [View.read_writes_eq_canon _ _ _ (cover0_B_2 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz3]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 2 after a batch's first tile. -/
theorem caseA_2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_2 c i arg2 harg2 arg3 harg3 arg4 harg4 arg5 harg5 arg6 harg6 arg7 harg7 arg8 harg8 arg9 harg9 arg10 harg10 hc0 x0 x1 = k0_pay2 x0 := by
  unfold out0_A_2
  rw [View.read_writes_eq_canon _ _ _ (cover0_A_2 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_unit_zero hz3]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 3 after a tile that is not a batch's first: one store covering the block. -/
theorem caseB_3 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_3 c i arg2 harg2 arg3 harg3 arg4 harg4 arg5 harg5 arg6 harg6 arg7 harg7 arg8 harg8 arg9 harg9 arg10 harg10 hc0 x0 x1 xo4 xo5 xo6 xo7 xo8 = k0_pay3 x1 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz3]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 3 after a batch's first tile. -/
theorem caseA_3 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_3 c i arg2 harg2 arg3 harg3 arg4 harg4 arg5 harg5 arg6 harg6 arg7 harg7 arg8 harg8 arg9 harg9 arg10 harg10 hc0 x0 x1 = k0_pay3 x1 := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_unit_zero hz3]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 4 after a tile that is not a batch's first: one store covering the block, the old contents plus this tile's sum. -/
theorem caseB_4 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_4 c i arg2 harg2 arg3 harg3 arg4 harg4 arg5 harg5 arg6 harg6 arg7 harg7 arg8 harg8 arg9 harg9 arg10 harg10 hc0 x0 x1 xo4 xo5 xo6 xo7 xo8 = k0_pay9 x0 xo4 := by
  unfold out0_B_4
  rw [View.read_writes_eq_canon _ _ _ (cover0_B_4 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 4 after a batch's first tile: the block is zeroed, read back, and this tile's sum added. -/
theorem caseA_4 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_4 c i arg2 harg2 arg3 harg3 arg4 harg4 arg5 harg5 arg6 harg6 arg7 harg7 arg8 harg8 arg9 harg9 arg10 harg10 hc0 x0 x1 = k0_pay9 x0 k0_pay4 := by
  unfold out0_A_4
  rw [View.read_writes_eq_canon _ _ _ (cover0_A_4 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_cons_unit_zero (S := S1x3x1x1) hz4, View.readCov_unit_zero (S := S1x3x1x1) _ hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 5 after a tile that is not a batch's first: one store covering the block, the old contents plus this tile's sum. -/
theorem caseB_5 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_5 c i arg2 harg2 arg3 harg3 arg4 harg4 arg5 harg5 arg6 harg6 arg7 harg7 arg8 harg8 arg9 harg9 arg10 harg10 hc0 x0 x1 xo4 xo5 xo6 xo7 xo8 = k0_pay10 x0 xo5 := by
  unfold out0_B_5
  rw [View.read_writes_eq_canon _ _ _ (cover0_B_5 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 5 after a batch's first tile: the block is zeroed, read back, and this tile's sum added. -/
theorem caseA_5 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_5 c i arg2 harg2 arg3 harg3 arg4 harg4 arg5 harg5 arg6 harg6 arg7 harg7 arg8 harg8 arg9 harg9 arg10 harg10 hc0 x0 x1 = k0_pay10 x0 k0_pay5 := by
  unfold out0_A_5
  rw [View.read_writes_eq_canon _ _ _ (cover0_A_5 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_cons_unit_zero (S := S1x3x1x1) hz4, View.readCov_unit_zero (S := S1x3x1x1) _ hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 6 after a tile that is not a batch's first: one store covering the block, the old contents plus this tile's sum. -/
theorem caseB_6 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_6 c i arg2 harg2 arg3 harg3 arg4 harg4 arg5 harg5 arg6 harg6 arg7 harg7 arg8 harg8 arg9 harg9 arg10 harg10 hc0 x0 x1 xo4 xo5 xo6 xo7 xo8 = k0_pay11 x1 xo6 := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 6 after a batch's first tile: the block is zeroed, read back, and this tile's sum added. -/
theorem caseA_6 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_6 c i arg2 harg2 arg3 harg3 arg4 harg4 arg5 harg5 arg6 harg6 arg7 harg7 arg8 harg8 arg9 harg9 arg10 harg10 hc0 x0 x1 = k0_pay11 x1 k0_pay6 := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_cons_unit_zero (S := S1x3x1x1) hz4, View.readCov_unit_zero (S := S1x3x1x1) _ hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 7 after a tile that is not a batch's first: one store covering the block, the old contents plus this tile's sum. -/
theorem caseB_7 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_7 c i arg2 harg2 arg3 harg3 arg4 harg4 arg5 harg5 arg6 harg6 arg7 harg7 arg8 harg8 arg9 harg9 arg10 harg10 hc0 x0 x1 xo4 xo5 xo6 xo7 xo8 = k0_pay12 x1 xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 7 after a batch's first tile: the block is zeroed, read back, and this tile's sum added. -/
theorem caseA_7 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_7 c i arg2 harg2 arg3 harg3 arg4 harg4 arg5 harg5 arg6 harg6 arg7 harg7 arg8 harg8 arg9 harg9 arg10 harg10 hc0 x0 x1 = k0_pay12 x1 k0_pay7 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_cons_unit_zero (S := S1x3x1x1) hz4, View.readCov_unit_zero (S := S1x3x1x1) _ hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 8 after a tile that is not a batch's first: one store covering the block, the old contents plus this tile's sum. -/
theorem caseB_8 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 : Vec F S1x3x256x1024 .f32) (x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_8 c i arg2 harg2 arg3 harg3 arg4 harg4 arg5 harg5 arg6 harg6 arg7 harg7 arg8 harg8 arg9 harg9 arg10 harg10 hc0 x0 x1 xo4 xo5 xo6 xo7 xo8 = k0_pay1 (k0_pay13 x0) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  try sl_unfold_words
  rw [View.canon_unit_zero hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

/-- Output 8 after a batch's first tile: the block is zeroed, read back, and this tile's sum added. -/
theorem caseA_8 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 : Vec F S1x3x256x1024 .f32) (x1 : Vec F S1x3x256x1024 .f32) :
    out0_A_8 c i arg2 harg2 arg3 harg3 arg4 harg4 arg5 harg5 arg6 harg6 arg7 harg7 arg8 harg8 arg9 harg9 arg10 harg10 hc0 x0 x1 = k0_pay1 (k0_pay13 x0) k0_pay8 := by
  unfold out0_A_8
  rw [View.read_writes_eq_canon _ _ _ (cover0_A_8 c i arg2 harg2 arg3 harg3 arg4 harg4 arg5 harg5 arg6 harg6 arg7 harg7 arg8 harg8 arg9 harg9 arg10 harg10 hc0 x0 x1)]
  unfold kernelRun0_A
  dsimp only
  try sl_unfold_words
  rw [View.canon_cons_unit_zero (S := S1x1x1x1) hz4, View.readCov_unit_zero (S := S1x1x1x1) _ hz4]
  simp only [View.readAt_eq_ld, harg2.read_unread, harg3.read_unread, harg6.read_unread, harg7.read_unread, harg8.read_unread, harg9.read_unread, harg10.read_unread, View.ld_unit_zero (S := S1x3x256x1024) hz4, View.ld_unit_zero (S := S1x3x1x1) hz4, View.ld_unit_zero (S := S1x1x1x1) hz4]

end Cert.KernelIdeal.Stats

end
-- ==== Proof.StatsArrays.lean ====
import proofs.«123598_j69123203661888_2_alg».proof.Proof.Gen.KernelIdeal.Frame
import proofs.«123598_j69123203661888_2_alg».proof.Proof.StatsCases
import Idealize.ShloMosaic.Lib.Pipeline.Value
import Idealize.ShloMosaic.Lib.ValueIdx
import Idealize.ShloMosaic.Lib.ValueLayout
import Idealize.ShloMosaic.PureOps.Ideal.Laws

set_option maxRecDepth 16384

/-! # The statistics kernel's seven output arrays after the whole grid, read at an index

The grid is (batch, row tile): eight batches of four tiles of 256 rows of 1024 lanes, three channels. Each point writes
its tile of the two channel-mean images; the four per-channel running sums (of each input and of its square) and the
per-batch saturation sum are reset at a batch's first tile, add each tile's sum, and are written back at the batch's
last tile. So each image ends as the channel mean of its input, pixel by pixel, and each running sum as the sum over
the whole 1024 × 1024 image: the four tiles' sums of 256 rows regroup into the sum over the 1024 rows. On the extended
reals only commutativity and associativity of the sum are used. -/

noncomputable section

open Idealize.ShloMosaic Idealize.ShloMosaic.TcCoe Idealize.SL.Sem
open Idealize.ShloMosaic.Pipeline (Dat)
open Idealize.ShloMosaic.ValueIdx
open scoped BigOperators

namespace Cert.KernelIdeal.StatsArrays

open Cert.KernelIdeal Cert.KernelIdeal.Gen

/-! ## The components of a tuple that equals an explicit tuple

If a tuple equals the tuple of a, b, c, … then its k-th component is the k-th of these. -/

section Tuple
variable {α1 α2 α3 α4 α5 α6 α7 : Type*}

theorem comp1 {p : α1 × α2} {a : α1} {r : α2} (h : p = (a, r)) : p.1 = a := by subst h; rfl
theorem comp2 {p : α1 × α2 × α3} {a : α1} {b : α2} {r : α3} (h : p = (a, b, r)) : p.2.1 = b := by subst h; rfl
theorem comp3 {p : α1 × α2 × α3 × α4} {a : α1} {b : α2} {c : α3} {r : α4} (h : p = (a, b, c, r)) : p.2.2.1 = c := by
  subst h; rfl
theorem comp4 {p : α1 × α2 × α3 × α4 × α5} {a : α1} {b : α2} {c : α3} {d : α4} {r : α5} (h : p = (a, b, c, d, r)) :
    p.2.2.2.1 = d := by subst h; rfl
theorem comp5 {p : α1 × α2 × α3 × α4 × α5 × α6} {a : α1} {b : α2} {c : α3} {d : α4} {e : α5} {r : α6}
    (h : p = (a, b, c, d, e, r)) : p.2.2.2.2.1 = e := by subst h; rfl
theorem comp6 {p : α1 × α2 × α3 × α4 × α5 × α6 × α7} {a : α1} {b : α2} {c : α3} {d : α4} {e : α5} {f : α6} {r : α7}
    (h : p = (a, b, c, d, e, f, r)) : p.2.2.2.2.2.1 = f := by subst h; rfl
theorem comp7 {p : α1 × α2 × α3 × α4 × α5 × α6 × α7} {a : α1} {b : α2} {c : α3} {d : α4} {e : α5} {f : α6} {r : α7}
    (h : p = (a, b, c, d, e, f, r)) : p.2.2.2.2.2.2 = r := by subst h; rfl

end Tuple
/-! ## The body's arithmetic read at an index

Each running sum of the statistics kernel adds, to what its block held, the sum of one channel of a tile
of 256 rows by 1024 lanes: first along the lanes, then along the rows. -/

/-- The source index above (0, ch, r) of the lane reduction with lane l inserted. -/
theorem lift_lane (ch : Fin 3) (r : Fin 256) (l : Fin 1024) :
    reduces_S1x3x256x1024_S1x3x256.lift (ix3 (0 : Fin 1) ch r) l = ix4 (0 : Fin 1) ch r l := by
  funext a
  apply Fin.ext
  match a with
  | ⟨0, _⟩ => rfl
  | ⟨1, _⟩ => rfl
  | ⟨2, _⟩ => rfl
  | ⟨3, _⟩ => rfl

/-- The source index above (0, ch, 0) of the row reduction with row r inserted. -/
theorem lift_row (ch : Fin 3) (r : Fin 256) :
    reduces_S1x3x256x1_S1x3x1.lift (ix3 (0 : Fin 1) ch (0 : Fin 1)) r = ix4 (0 : Fin 1) ch r (0 : Fin 1) := by
  funext a
  apply Fin.ext
  match a with
  | ⟨0, _⟩ => rfl
  | ⟨1, _⟩ => rfl
  | ⟨2, _⟩ => rfl
  | ⟨3, _⟩ => rfl

/-- The source index above (0, r, l) of the channel reduction with channel ch inserted. -/
theorem lift_chan (ch : Fin 3) (r : Fin 256) (l : Fin 1024) :
    reduces_S1x3x256x1024_S1x256x1024.lift (ix3 (0 : Fin 1) r l) ch = ix4 (0 : Fin 1) ch r l := by
  funext a
  apply Fin.ext
  match a with
  | ⟨0, _⟩ => rfl
  | ⟨1, _⟩ => rfl
  | ⟨2, _⟩ => rfl
  | ⟨3, _⟩ => rfl

/-- The source index above (0, 0, 0) of the channel reduction of a per-channel block. -/
theorem lift_chan1 (ch : Fin 3) :
    reduces_S1x3x1x1_S1x1x1.lift (ix3 (0 : Fin 1) (0 : Fin 1) (0 : Fin 1)) ch = ix4 (0 : Fin 1) ch (0 : Fin 1) (0 : Fin 1) := by
  funext a
  apply Fin.ext
  match a with
  | ⟨0, _⟩ => rfl
  | ⟨1, _⟩ => rfl
  | ⟨2, _⟩ => rfl
  | ⟨3, _⟩ => rfl

/-- A tile summed along its lanes, then along its rows, read at channel ch: the double sum. -/
theorem tileSum_apply (x : FVec Ideal S1x3x256x1024 .f32) (ch : Fin 3) :
    shapeCast S1x3x1x1 (multiReduction .add [2] S1x3x1
        (shapeCast S1x3x256x1 (multiReduction .add [3] S1x3x256 x 0x00000000#32 reduces_S1x3x256x1024_S1x3x256 (.inl rfl) rfl) shapeCasts_S1x3x256_S1x3x256x1)
        0x00000000#32 reduces_S1x3x256x1_S1x3x1 (.inl rfl) rfl) shapeCasts_S1x3x1_S1x3x1x1 (ix4 (0 : Fin 1) ch (0 : Fin 1) (0 : Fin 1))
      = ∑ r : Fin 256, ∑ l : Fin 1024, x (ix4 (0 : Fin 1) ch r l) := by
  refine (shapeCast_apply _ shapeCasts_S1x3x1_S1x3x1x1 _ (ix3 (0 : Fin 1) ch (0 : Fin 1)) (by
    rw [Shape.rowMajor_val_three, Shape.rowMajor_val_four]
    show ((0 : Nat) * 3 + ch.val) * 1 + 0 = (((0 : Nat) * 3 + ch.val) * 1 + 0) * 1 + 0
    omega)).trans ?_
  refine (Ideal.multiReduction_add_single _ 0x00000000#32 reduces_S1x3x256x1_S1x3x1 (.inl rfl) rfl (ix3 (0 : Fin 1) ch (0 : Fin 1))).trans ?_
  show ∑ r : Fin 256, _ = _
  refine Finset.sum_congr rfl fun r _ => ?_
  rw [lift_row]
  refine (shapeCast_apply _ shapeCasts_S1x3x256_S1x3x256x1 _ (ix3 (0 : Fin 1) ch r) (by
    rw [Shape.rowMajor_val_three, Shape.rowMajor_val_four]
    show ((0 : Nat) * 3 + ch.val) * 256 + r.val = (((0 : Nat) * 3 + ch.val) * 256 + r.val) * 1 + 0
    omega)).trans ?_
  refine (Ideal.multiReduction_add_single x 0x00000000#32 reduces_S1x3x256x1024_S1x3x256 (.inl rfl) rfl (ix3 (0 : Fin 1) ch r)).trans ?_
  show ∑ l : Fin 1024, _ = _
  refine Finset.sum_congr rfl fun l _ => ?_
  rw [lift_lane]

/-- The zero block a batch's first tile stores is zero everywhere. -/
theorem zero3_apply (j : S1x3x1x1.Idx) : (k0_pay4 (F := Ideal) : FVec Ideal S1x3x1x1 .f32) j = 0 :=
  Ideal.ofBits_zero_f32

/-- A running channel sum after a tile: what the block held plus the tile's channel sum. -/
theorem pay9_apply (x : Vec Ideal S1x3x256x1024 .f32) (acc : Vec Ideal S1x3x1x1 .f32) (ch : Fin 3) :
    k0_pay9 x acc (ix4 (0 : Fin 1) ch (0 : Fin 1) (0 : Fin 1))
      = acc (ix4 (0 : Fin 1) ch (0 : Fin 1) (0 : Fin 1)) + ∑ r : Fin 256, ∑ l : Fin 1024, x (ix4 (0 : Fin 1) ch r l) := by
  unfold k0_pay9
  show shapeCast S1x3x1x1 acc shapeCasts_S1x3x1x1_S1x3x1x1 _ + _ = _
  rw [shapeCast_self, tileSum_apply]

/-- A running channel sum of squares after a tile. -/
theorem pay10_apply (x : Vec Ideal S1x3x256x1024 .f32) (acc : Vec Ideal S1x3x1x1 .f32) (ch : Fin 3) :
    k0_pay10 x acc (ix4 (0 : Fin 1) ch (0 : Fin 1) (0 : Fin 1))
      = acc (ix4 (0 : Fin 1) ch (0 : Fin 1) (0 : Fin 1))
        + ∑ r : Fin 256, ∑ l : Fin 1024, x (ix4 (0 : Fin 1) ch r l) * x (ix4 (0 : Fin 1) ch r l) := by
  unfold k0_pay10
  show shapeCast S1x3x1x1 acc shapeCasts_S1x3x1x1_S1x3x1x1 _ + _ = _
  rw [shapeCast_self, tileSum_apply]
  rfl

theorem pay11_apply (x : Vec Ideal S1x3x256x1024 .f32) (acc : Vec Ideal S1x3x1x1 .f32) (ch : Fin 3) :
    k0_pay11 x acc (ix4 (0 : Fin 1) ch (0 : Fin 1) (0 : Fin 1))
      = acc (ix4 (0 : Fin 1) ch (0 : Fin 1) (0 : Fin 1)) + ∑ r : Fin 256, ∑ l : Fin 1024, x (ix4 (0 : Fin 1) ch r l) := by
  unfold k0_pay11
  show shapeCast S1x3x1x1 acc shapeCasts_S1x3x1x1_S1x3x1x1 _ + _ = _
  rw [shapeCast_self, tileSum_apply]

theorem pay12_apply (x : Vec Ideal S1x3x256x1024 .f32) (acc : Vec Ideal S1x3x1x1 .f32) (ch : Fin 3) :
    k0_pay12 x acc (ix4 (0 : Fin 1) ch (0 : Fin 1) (0 : Fin 1))
      = acc (ix4 (0 : Fin 1) ch (0 : Fin 1) (0 : Fin 1))
        + ∑ r : Fin 256, ∑ l : Fin 1024, x (ix4 (0 : Fin 1) ch r l) * x (ix4 (0 : Fin 1) ch r l) := by
  unfold k0_pay12
  show shapeCast S1x3x1x1 acc shapeCasts_S1x3x1x1_S1x3x1x1 _ + _ = _
  rw [shapeCast_self, tileSum_apply]
  rfl

/-- The saturation penalty of one pixel value: the square of its distance below 0 plus its distance above 1. -/
def satf (x : EReal) : EReal :=
  (max (Ideal.ofBits .f32 0x00000000#32 - x) (Ideal.ofBits .f32 0x00000000#32)
      + max (x - Ideal.ofBits .f32 0x3F800000#32) (Ideal.ofBits .f32 0x00000000#32))
    * (max (Ideal.ofBits .f32 0x00000000#32 - x) (Ideal.ofBits .f32 0x00000000#32)
      + max (x - Ideal.ofBits .f32 0x3F800000#32) (Ideal.ofBits .f32 0x00000000#32))

/-- The per-channel saturation sums of a tile. -/
theorem pay13_apply (x : Vec Ideal S1x3x256x1024 .f32) (ch : Fin 3) :
    k0_pay13 x (ix4 (0 : Fin 1) ch (0 : Fin 1) (0 : Fin 1))
      = ∑ r : Fin 256, ∑ l : Fin 1024, satf (x (ix4 (0 : Fin 1) ch r l)) := by
  unfold k0_pay13
  refine (tileSum_apply _ ch).trans ?_
  rfl

/-- The running saturation sum after a tile: what the block held plus the three channels' sums. -/
theorem pay1_apply (v : FVec Ideal S1x3x1x1 .f32) (acc : Vec Ideal S1x1x1x1 .f32) :
    k0_pay1 v acc (ix4 (0 : Fin 1) (0 : Fin 1) (0 : Fin 1) (0 : Fin 1))
      = acc (ix4 (0 : Fin 1) (0 : Fin 1) (0 : Fin 1) (0 : Fin 1)) + ∑ ch : Fin 3, v (ix4 (0 : Fin 1) ch (0 : Fin 1) (0 : Fin 1)) := by
  unfold k0_pay1
  show shapeCast S1x1x1x1 acc shapeCasts_S1x1x1x1_S1x1x1x1 _ + _ = _
  rw [shapeCast_self]
  congr 1
  refine (shapeCast_apply _ shapeCasts_S1x1x1_S1x1x1x1 _ (ix3 (0 : Fin 1) (0 : Fin 1) (0 : Fin 1)) (by
    rw [Shape.rowMajor_val_three, Shape.rowMajor_val_four]
    show ((0 : Nat) * 1 + 0) * 1 + 0 = (((0 : Nat) * 1 + 0) * 1 + 0) * 1 + 0
    omega)).trans ?_
  refine (Ideal.multiReduction_add_single v 0x00000000#32 reduces_S1x3x1x1_S1x1x1 (.inl rfl) rfl (ix3 (0 : Fin 1) (0 : Fin 1) (0 : Fin 1))).trans ?_
  show ∑ ch : Fin 3, _ = _
  refine Finset.sum_congr rfl fun ch _ => ?_
  rw [lift_chan1]

theorem zero1_apply (j : S1x1x1x1.Idx) : (k0_pay8 (F := Ideal) : FVec Ideal S1x1x1x1 .f32) j = 0 :=
  Ideal.ofBits_zero_f32

/-- The channel mean of a tile at a pixel. -/
theorem pay2_apply (x : Vec Ideal S1x3x256x1024 .f32) (r : Fin 256) (l : Fin 1024) :
    k0_pay2 x (ix3 (0 : Fin 1) r l)
      = Ideal.div (∑ ch : Fin 3, x (ix4 (0 : Fin 1) ch r l)) (Ideal.ofBits .f32 0x40400000#32) := by
  unfold k0_pay2
  show Ideal.div _ (Ideal.ofBits .f32 0x40400000#32) = _
  congr 1
  refine (Ideal.multiReduction_add_single x 0x00000000#32 reduces_S1x3x256x1024_S1x256x1024 (.inl rfl) rfl (ix3 (0 : Fin 1) r l)).trans ?_
  show ∑ ch : Fin 3, _ = _
  refine Finset.sum_congr rfl fun ch _ => ?_
  rw [lift_chan]

theorem pay3_apply (x : Vec Ideal S1x3x256x1024 .f32) (r : Fin 256) (l : Fin 1024) :
    k0_pay3 x (ix3 (0 : Fin 1) r l)
      = Ideal.div (∑ ch : Fin 3, x (ix4 (0 : Fin 1) ch r l)) (Ideal.ofBits .f32 0x40400000#32) := by
  unfold k0_pay3
  show Ideal.div _ (Ideal.ofBits .f32 0x40400000#32) = _
  congr 1
  refine (Ideal.multiReduction_add_single x 0x00000000#32 reduces_S1x3x256x1024_S1x256x1024 (.inl rfl) rfl (ix3 (0 : Fin 1) r l)).trans ?_
  show ∑ ch : Fin 3, _ = _
  refine Finset.sum_congr rfl fun ch _ => ?_
  rw [lift_chan]

/-! ## Four tiles of 256 rows are the 1024 rows -/

/-- A sum over the 1024 rows, regrouped by tile: rows r, 256 + r, 512 + r, 768 + r for r below 256. -/
theorem sum_rows_tiles {M : Type*} [AddCommMonoid M] (F : Fin 1024 → M) :
    ∑ y : Fin 1024, F y
      = ∑ r : Fin 256, F ⟨256 * 0 + r.val, by omega⟩ + ∑ r : Fin 256, F ⟨256 * 1 + r.val, by omega⟩
        + ∑ r : Fin 256, F ⟨256 * 2 + r.val, by omega⟩ + ∑ r : Fin 256, F ⟨256 * 3 + r.val, by omega⟩ := by
  have e := Equiv.sum_comp (finProdFinEquiv : Fin 4 × Fin 256 ≃ Fin (4 * 256)) (F : Fin (4 * 256) → M)
  have e' : ∑ y : Fin 1024, F y = ∑ p : Fin 4 × Fin 256, F (finProdFinEquiv p) := e.symm
  rw [e', Fintype.sum_prod_type, Fin.sum_univ_four]
  refine congrArg₂ (· + ·) (congrArg₂ (· + ·) (congrArg₂ (· + ·) ?_ ?_) ?_) ?_
  · exact Finset.sum_congr rfl fun r _ => congrArg F (Fin.ext (by
      rw [finProdFinEquiv_apply_val]; show r.val + 256 * 0 = 256 * 0 + r.val; omega))
  · exact Finset.sum_congr rfl fun r _ => congrArg F (Fin.ext (by
      rw [finProdFinEquiv_apply_val]; show r.val + 256 * 1 = 256 * 1 + r.val; omega))
  · exact Finset.sum_congr rfl fun r _ => congrArg F (Fin.ext (by
      rw [finProdFinEquiv_apply_val]; show r.val + 256 * 2 = 256 * 2 + r.val; omega))
  · exact Finset.sum_congr rfl fun r _ => congrArg F (Fin.ext (by
      rw [finProdFinEquiv_apply_val]; show r.val + 256 * 3 = 256 * 3 + r.val; omega))

/-- A quantity reset at the points divisible by 4 and stepped by an addend at the others is, three points after a
    reset, the sum of the four addends. -/
theorem chain4 {N : ℕ} (a τ : (n : ℕ) → n < N → EReal)
    (h0 : ∀ (n : ℕ) (h : n < N), n % 4 = 0 → a n h = 0 + τ n h)
    (hs : ∀ (n : ℕ) (h : n + 1 < N), ¬(n + 1) % 4 = 0 → a (n + 1) h = a n (Nat.lt_of_succ_lt h) + τ (n + 1) h)
    (n : ℕ) (h : n + 3 < N) (hn : n % 4 = 0) :
    a (n + 3) h = τ n (by omega) + τ (n + 1) (by omega) + τ (n + 2) (by omega) + τ (n + 3) h := by
  rw [hs (n + 2) h (by omega), hs (n + 1) (by omega) (by omega), hs n (by omega) (by omega), h0 n (by omega) hn, zero_add]

/-- A quantity indexed by a bounded point does not depend on how the point is written. -/
theorem dep_congr {N : ℕ} {α : Type*} (f : (n : ℕ) → n < N → α) {n n' : ℕ} (e : n = n') (h : n < N) (h' : n' < N) :
    f n h = f n' h' := by
  subst e
  rfl

/-- The sums over four tiles of 256 rows of one batch and channel, each tile read off the array, are the sum over the
    whole image of that batch and channel. -/
theorem rows4 (g : EReal → EReal) (A : S8x3x1024x1024.Idx → EReal) (X0 X1 X2 X3 : Vec Ideal S1x3x256x1024 .f32)
    (b : Fin 8) (ch : Fin 3)
    (h0 : ∀ (r : Fin 256) (l : Fin 1024), X0 (ix4 (0 : Fin 1) ch r l) = A (ix4 b ch ⟨256 * 0 + r.val, by omega⟩ l))
    (h1 : ∀ (r : Fin 256) (l : Fin 1024), X1 (ix4 (0 : Fin 1) ch r l) = A (ix4 b ch ⟨256 * 1 + r.val, by omega⟩ l))
    (h2 : ∀ (r : Fin 256) (l : Fin 1024), X2 (ix4 (0 : Fin 1) ch r l) = A (ix4 b ch ⟨256 * 2 + r.val, by omega⟩ l))
    (h3 : ∀ (r : Fin 256) (l : Fin 1024), X3 (ix4 (0 : Fin 1) ch r l) = A (ix4 b ch ⟨256 * 3 + r.val, by omega⟩ l)) :
    ∑ r : Fin 256, ∑ l : Fin 1024, g (X0 (ix4 (0 : Fin 1) ch r l)) + ∑ r : Fin 256, ∑ l : Fin 1024, g (X1 (ix4 (0 : Fin 1) ch r l))
        + ∑ r : Fin 256, ∑ l : Fin 1024, g (X2 (ix4 (0 : Fin 1) ch r l)) + ∑ r : Fin 256, ∑ l : Fin 1024, g (X3 (ix4 (0 : Fin 1) ch r l))
      = ∑ y : Fin 1024, ∑ x : Fin 1024, g (A (ix4 b ch y x)) := by
  rw [sum_rows_tiles (fun y => ∑ x : Fin 1024, g (A (ix4 b ch y x)))]
  refine congrArg₂ (· + ·) (congrArg₂ (· + ·) (congrArg₂ (· + ·) ?_ ?_) ?_) ?_
  · exact Finset.sum_congr rfl fun r _ => Finset.sum_congr rfl fun l _ => congrArg g (h0 r l)
  · exact Finset.sum_congr rfl fun r _ => Finset.sum_congr rfl fun l _ => congrArg g (h1 r l)
  · exact Finset.sum_congr rfl fun r _ => Finset.sum_congr rfl fun l _ => congrArg g (h2 r l)
  · exact Finset.sum_congr rfl fun r _ => Finset.sum_congr rfl fun l _ => congrArg g (h3 r l)

/-! ## What each grid point leaves, and the input tiles read off the arrays -/

variable (V : (c : Dev nD) → (b : Ref sig .tc) → Buf (Elt Ideal) ((c : Thread nD τ).loc b)) (c : Dev nD)

/-- The first channel-mean image's block after any point: the channel mean of that point's tile of the first input. -/
theorem gray2_at (t : Fin cfg0.N) : (outsAt0 (F := Ideal) V c t.val t.isLt).1 = k0_pay2 (F := Ideal) (iblk0 (F := Ideal) V c 0 t) := by
  by_cases h0 : t.val % 4 = 0
  · exact (comp1 (outsAt0_A (F := Ideal) V c t h0)).trans (Stats.caseA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))
  · exact (comp1 (outsAt0_B (F := Ideal) V c t h0)).trans (Stats.caseB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- The second channel-mean image's block after any point. -/
theorem gray3_at (t : Fin cfg0.N) : (outsAt0 (F := Ideal) V c t.val t.isLt).2.1 = k0_pay3 (F := Ideal) (iblk0 (F := Ideal) V c 1 t) := by
  by_cases h0 : t.val % 4 = 0
  · exact (comp2 (outsAt0_A (F := Ideal) V c t h0)).trans (Stats.caseA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))
  · exact (comp2 (outsAt0_B (F := Ideal) V c t h0)).trans (Stats.caseB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- The block indices of the two input windows and the two image windows at a point: batch t / 4, row tile t % 4. -/
theorem idx_facts : ∀ t : Fin cfg0.N,
    win0_0.index t (0 : Fin 4) = t.val / 4 ∧ win0_0.index t (1 : Fin 4) = 0 ∧ win0_0.index t (2 : Fin 4) = t.val % 4 ∧ win0_0.index t (3 : Fin 4) = 0
    ∧ win0_1.index t (0 : Fin 4) = t.val / 4 ∧ win0_1.index t (1 : Fin 4) = 0 ∧ win0_1.index t (2 : Fin 4) = t.val % 4 ∧ win0_1.index t (3 : Fin 4) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-- Input 0's tile at a point, read at (0, ch, r, l): the array at (t / 4, ch, 256 (t % 4) + r, l). -/
theorem iblk_0_apply (t : Fin cfg0.N) (ch : Fin 3) (r : Fin 256) (l : Fin 1024) (b : Fin 8) (y x : Fin 1024)
    (hb : b.val = t.val / 4) (hy : y.val = 256 * (t.val % 4) + r.val) (hx : x.val = l.val) :
    iblk0 (F := Ideal) V c 0 t (ix4 (0 : Fin 1) ch r l) = V c (Pipeline.arrRef spec0 0) (ix4 b ch y x) := by
  obtain ⟨e0, e1, e2, e3, -⟩ := idx_facts t
  unfold iblk0
  rw [View.read_apply]
  show V c (Pipeline.arrRef spec0 0) (((cfg0.win 0).blk t).view.emb (ix4 (0 : Fin 1) ch r l)) = _
  congr 1
  funext a
  apply Fin.ext
  match a with
  | ⟨0, _⟩ => show win0_0.index t (0 : Fin 4) * 1 + 1 * 0 = b.val; omega
  | ⟨1, _⟩ => show win0_0.index t (1 : Fin 4) * 3 + 1 * ch.val = ch.val; omega
  | ⟨2, _⟩ => show win0_0.index t (2 : Fin 4) * 256 + 1 * r.val = y.val; omega
  | ⟨3, _⟩ => show win0_0.index t (3 : Fin 4) * 1024 + 1 * l.val = x.val; omega

/-- Input 1's tile at a point, read at (0, ch, r, l): the array at (t / 4, ch, 256 (t % 4) + r, l). -/
theorem iblk_1_apply (t : Fin cfg0.N) (ch : Fin 3) (r : Fin 256) (l : Fin 1024) (b : Fin 8) (y x : Fin 1024)
    (hb : b.val = t.val / 4) (hy : y.val = 256 * (t.val % 4) + r.val) (hx : x.val = l.val) :
    iblk0 (F := Ideal) V c 1 t (ix4 (0 : Fin 1) ch r l) = V c (Pipeline.arrRef spec0 1) (ix4 b ch y x) := by
  obtain ⟨-, -, -, -, e0, e1, e2, e3, -⟩ := idx_facts t
  unfold iblk0
  rw [View.read_apply]
  show V c (Pipeline.arrRef spec0 1) (((cfg0.win 1).blk t).view.emb (ix4 (0 : Fin 1) ch r l)) = _
  congr 1
  funext a
  apply Fin.ext
  match a with
  | ⟨0, _⟩ => show win0_1.index t (0 : Fin 4) * 1 + 1 * 0 = b.val; omega
  | ⟨1, _⟩ => show win0_1.index t (1 : Fin 4) * 3 + 1 * ch.val = ch.val; omega
  | ⟨2, _⟩ => show win0_1.index t (2 : Fin 4) * 256 + 1 * r.val = y.val; omega
  | ⟨3, _⟩ => show win0_1.index t (3 : Fin 4) * 1024 + 1 * l.val = x.val; omega

/-! ## The two channel-mean images -/

/-- The channel-mean image of a batch of three-channel images. -/
def grayOf (A : S8x3x1024x1024.Idx → EReal) : S8x1024x1024.Idx → EReal := fun i =>
  Ideal.div (∑ ch : Fin 3, A (ix4 (⟨(i 0).val, (i 0).isLt⟩ : Fin 8) ch (⟨(i 1).val, (i 1).isLt⟩ : Fin 1024) (⟨(i 2).val, (i 2).isLt⟩ : Fin 1024)))
    (Ideal.ofBits .f32 0x40400000#32)

/-- What a point writes back to image 1 is its block of the channel mean of input 0. -/
theorem flushed2_eq (t : Fin cfg0.N) :
    (dat0 (F := Ideal) V c).flushed 2 t = ((cfg0.win 2).blk t).view.read (Elt Ideal) (grayOf (V c (Pipeline.arrRef spec0 0))) := by
  show (cfg0.win 2).cut (grid0.coords t) ((dat0 (F := Ideal) V c).after 2 t) = _
  rw [after0_2, gray2_at]
  refine funext fun (j : S1x256x1024.Idx) => ?_
  obtain ⟨u, r, l, rfl⟩ : ∃ (u : Fin 1) (r : Fin 256) (l : Fin 1024), j = ix3 u r l := ⟨j 0, j 1, j 2, eq_ix3 j⟩
  obtain rfl : u = 0 := Subsingleton.elim _ _
  obtain ⟨-, -, -, -, -, -, -, -, e0, e1, e2, -⟩ := idx_facts t
  show k0_pay2 (F := Ideal) (iblk0 (F := Ideal) V c 0 t) (ix3 (0 : Fin 1) r l)
    = grayOf (V c (Pipeline.arrRef spec0 0)) (((cfg0.win 2).blk t).view.emb (ix3 (0 : Fin 1) r l))
  refine (pay2_apply (iblk0 (F := Ideal) V c 0 t) r l).trans ?_
  unfold grayOf
  refine congrArg (fun s => Ideal.div s (Ideal.ofBits .f32 0x40400000#32)) (Finset.sum_congr rfl fun ch _ => ?_)
  refine iblk_0_apply V c t ch r l _ _ _ ?_ ?_ ?_
  · show win0_2.index t (0 : Fin 3) * 1 + 1 * 0 = t.val / 4; omega
  · show win0_2.index t (1 : Fin 3) * 256 + 1 * r.val = 256 * (t.val % 4) + r.val; omega
  · show win0_2.index t (2 : Fin 3) * 1024 + 1 * l.val = l.val; omega

theorem mem_blk2 (t : Fin cfg0.N) (i : S8x1024x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v0_0).slice (win0_2.rect t)).set ↔ _
  rw [View.set_slice_whole, Rect.mem_set_unit]
  exact Iff.rfl

/-- Every pixel of image 1 is in the block of the point of its batch and row tile. -/
theorem cover2 (i : S8x1024x1024.Idx) : ∃ t : Fin cfg0.N, (cfg0.win 2).flush t = true ∧ i ∈ ((cfg0.win 2).blk t).view.set := by
  have hN : cfg0.N = 32 := N_0
  have h0 : (i 0).val < 8 := (i 0).isLt
  have h1 : (i 1).val < 1024 := (i 1).isLt
  have h2 : (i 2).val < 1024 := (i 2).isLt
  obtain ⟨t, ht⟩ : ∃ t : Fin cfg0.N, t.val = 4 * (i 0).val + (i 1).val / 256 := ⟨⟨4 * (i 0).val + (i 1).val / 256, by omega⟩, rfl⟩
  obtain ⟨-, -, -, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- Image 1 after the whole grid is the channel mean of input 0. -/
theorem final2 : (dat0 (F := Ideal) V c).arrAt 2 cfg0.N = grayOf (V c (Pipeline.arrRef spec0 0)) :=
  (dat0 (F := Ideal) V c).arrAt_eq_of_cover 2 (grayOf (V c (Pipeline.arrRef spec0 0))) (fun t _ => flushed2_eq V c t) cover2

theorem grayP_apply (b : Fin 8) (y x : Fin 1024) :
    (dat0 (F := Ideal) V c).arrAt 2 cfg0.N (ix3 b y x)
      = Ideal.div (∑ ch : Fin 3, V c (Pipeline.arrRef spec0 0) (ix4 b ch y x)) (Ideal.ofBits .f32 0x40400000#32) := by
  rw [final2]
  rfl

/-- What a point writes back to image 2 is its block of the channel mean of input 1. -/
theorem flushed3_eq (t : Fin cfg0.N) :
    (dat0 (F := Ideal) V c).flushed 3 t = ((cfg0.win 3).blk t).view.read (Elt Ideal) (grayOf (V c (Pipeline.arrRef spec0 1))) := by
  show (cfg0.win 3).cut (grid0.coords t) ((dat0 (F := Ideal) V c).after 3 t) = _
  rw [after0_3, gray3_at]
  refine funext fun (j : S1x256x1024.Idx) => ?_
  obtain ⟨u, r, l, rfl⟩ : ∃ (u : Fin 1) (r : Fin 256) (l : Fin 1024), j = ix3 u r l := ⟨j 0, j 1, j 2, eq_ix3 j⟩
  obtain rfl : u = 0 := Subsingleton.elim _ _
  obtain ⟨-, -, -, -, -, -, -, -, -, -, -, e0, e1, e2⟩ := idx_facts t
  show k0_pay3 (F := Ideal) (iblk0 (F := Ideal) V c 1 t) (ix3 (0 : Fin 1) r l)
    = grayOf (V c (Pipeline.arrRef spec0 1)) (((cfg0.win 3).blk t).view.emb (ix3 (0 : Fin 1) r l))
  refine (pay3_apply (iblk0 (F := Ideal) V c 1 t) r l).trans ?_
  unfold grayOf
  refine congrArg (fun s => Ideal.div s (Ideal.ofBits .f32 0x40400000#32)) (Finset.sum_congr rfl fun ch _ => ?_)
  refine iblk_1_apply V c t ch r l _ _ _ ?_ ?_ ?_
  · show win0_3.index t (0 : Fin 3) * 1 + 1 * 0 = t.val / 4; omega
  · show win0_3.index t (1 : Fin 3) * 256 + 1 * r.val = 256 * (t.val % 4) + r.val; omega
  · show win0_3.index t (2 : Fin 3) * 1024 + 1 * l.val = l.val; omega

theorem mem_blk3 (t : Fin cfg0.N) (i : S8x1024x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0_1).slice (win0_3.rect t)).set ↔ _
  rw [View.set_slice_whole, Rect.mem_set_unit]
  exact Iff.rfl

/-- Every pixel of image 2 is in the block of the point of its batch and row tile. -/
theorem cover3 (i : S8x1024x1024.Idx) : ∃ t : Fin cfg0.N, (cfg0.win 3).flush t = true ∧ i ∈ ((cfg0.win 3).blk t).view.set := by
  have hN : cfg0.N = 32 := N_0
  have h0 : (i 0).val < 8 := (i 0).isLt
  have h1 : (i 1).val < 1024 := (i 1).isLt
  have h2 : (i 2).val < 1024 := (i 2).isLt
  obtain ⟨t, ht⟩ : ∃ t : Fin cfg0.N, t.val = 4 * (i 0).val + (i 1).val / 256 := ⟨⟨4 * (i 0).val + (i 1).val / 256, by omega⟩, rfl⟩
  obtain ⟨-, -, -, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- Image 2 after the whole grid is the channel mean of input 1. -/
theorem final3 : (dat0 (F := Ideal) V c).arrAt 3 cfg0.N = grayOf (V c (Pipeline.arrRef spec0 1)) :=
  (dat0 (F := Ideal) V c).arrAt_eq_of_cover 3 (grayOf (V c (Pipeline.arrRef spec0 1))) (fun t _ => flushed3_eq V c t) cover3

theorem grayT_apply (b : Fin 8) (y x : Fin 1024) :
    (dat0 (F := Ideal) V c).arrAt 3 cfg0.N (ix3 b y x)
      = Ideal.div (∑ ch : Fin 3, V c (Pipeline.arrRef spec0 1) (ix4 b ch y x)) (Ideal.ofBits .f32 0x40400000#32) := by
  rw [final3]
  rfl

/-- The two input arrays as the region finds them, as functions into the extended reals. -/
abbrev inI : S8x3x1024x1024.Idx → EReal := V c (Pipeline.arrRef spec0 0)
abbrev inD : S8x3x1024x1024.Idx → EReal := V c (Pipeline.arrRef spec0 1)

/-! ## The five running sums -/

/-- The whole-image sum, per batch and channel, of a function of the pixel values. -/
def chanSum (g : EReal → EReal) (A : S8x3x1024x1024.Idx → EReal) : S8x3x1x1.Idx → EReal := fun i =>
  ∑ y : Fin 1024, ∑ x : Fin 1024, g (A (ix4 (⟨(i 0).val, (i 0).isLt⟩ : Fin 8) (⟨(i 1).val, (i 1).isLt⟩ : Fin 3) y x))

/-- The whole-batch sum, over the three channels and the image, of the saturation penalty. -/
def satSum (A : S8x3x1024x1024.Idx → EReal) : S8x1x1x1.Idx → EReal := fun i =>
  ∑ ch : Fin 3, ∑ y : Fin 1024, ∑ x : Fin 1024, satf (A (ix4 (⟨(i 0).val, (i 0).isLt⟩ : Fin 8) ch y x))

/-- The block indices of the five running sums' windows at a point: the batch t / 4. -/
theorem idx_facts_acc : ∀ t : Fin cfg0.N,
    (win0_4.index t (0 : Fin 4) = t.val / 4 ∧ win0_4.index t (1 : Fin 4) = 0 ∧ win0_4.index t (2 : Fin 4) = 0 ∧ win0_4.index t (3 : Fin 4) = 0)
    ∧ (win0_5.index t (0 : Fin 4) = t.val / 4 ∧ win0_5.index t (1 : Fin 4) = 0 ∧ win0_5.index t (2 : Fin 4) = 0 ∧ win0_5.index t (3 : Fin 4) = 0)
    ∧ (win0_6.index t (0 : Fin 4) = t.val / 4 ∧ win0_6.index t (1 : Fin 4) = 0 ∧ win0_6.index t (2 : Fin 4) = 0 ∧ win0_6.index t (3 : Fin 4) = 0)
    ∧ (win0_7.index t (0 : Fin 4) = t.val / 4 ∧ win0_7.index t (1 : Fin 4) = 0 ∧ win0_7.index t (2 : Fin 4) = 0 ∧ win0_7.index t (3 : Fin 4) = 0)
    ∧ (win0_8.index t (0 : Fin 4) = t.val / 4 ∧ win0_8.index t (1 : Fin 4) = 0 ∧ win0_8.index t (2 : Fin 4) = 0 ∧ win0_8.index t (3 : Fin 4) = 0) :=
  (by decide +kernel : ∀ t : Fin grid0.N, _)

/-- A per-channel running sum that is reset at a batch's first tile and adds each tile's sum of g of the tile's values,
    read at the batch's last tile: the whole-image sum of g of the array's values for that batch and channel. -/
theorem acc_flush (g : EReal → EReal) (A : S8x3x1024x1024.Idx → EReal)
    (X : (n : ℕ) → n < cfg0.N → Vec Ideal S1x3x256x1024 .f32)
    (hX : ∀ (n : ℕ) (h : n < cfg0.N) (ch : Fin 3) (r : Fin 256) (l : Fin 1024) (b : Fin 8) (y : Fin 1024),
        b.val = n / 4 → y.val = 256 * (n % 4) + r.val → X n h (ix4 (0 : Fin 1) ch r l) = A (ix4 b ch y l))
    (f : (n : ℕ) → n < cfg0.N → Vec Ideal S1x3x1x1 .f32) (ch : Fin 3)
    (h0 : ∀ (n : ℕ) (h : n < cfg0.N), n % 4 = 0 →
        f n h (ix4 (0 : Fin 1) ch (0 : Fin 1) (0 : Fin 1)) = 0 + ∑ r : Fin 256, ∑ l : Fin 1024, g (X n h (ix4 (0 : Fin 1) ch r l)))
    (hs : ∀ (n : ℕ) (h : n + 1 < cfg0.N), ¬(n + 1) % 4 = 0 →
        f (n + 1) h (ix4 (0 : Fin 1) ch (0 : Fin 1) (0 : Fin 1))
          = f n (Nat.lt_of_succ_lt h) (ix4 (0 : Fin 1) ch (0 : Fin 1) (0 : Fin 1)) + ∑ r : Fin 256, ∑ l : Fin 1024, g (X (n + 1) h (ix4 (0 : Fin 1) ch r l)))
    (t : ℕ) (ht : t < cfg0.N) (h3 : t % 4 = 3) (b : Fin 8) (hb : b.val = t / 4) (ch' : Fin 3) (hc : ch'.val = ch.val) :
    f t ht (ix4 (0 : Fin 1) ch (0 : Fin 1) (0 : Fin 1)) = ∑ y : Fin 1024, ∑ x : Fin 1024, g (A (ix4 b ch' y x)) := by
  obtain rfl : ch = ch' := Fin.ext hc.symm
  have hn : t - 3 + 3 < cfg0.N := by omega
  have key : f (t - 3 + 3) hn (ix4 (0 : Fin 1) ch (0 : Fin 1) (0 : Fin 1))
      = ∑ r : Fin 256, ∑ l : Fin 1024, g (X (t - 3) (by omega) (ix4 (0 : Fin 1) ch r l))
        + ∑ r : Fin 256, ∑ l : Fin 1024, g (X (t - 3 + 1) (by omega) (ix4 (0 : Fin 1) ch r l))
        + ∑ r : Fin 256, ∑ l : Fin 1024, g (X (t - 3 + 2) (by omega) (ix4 (0 : Fin 1) ch r l))
        + ∑ r : Fin 256, ∑ l : Fin 1024, g (X (t - 3 + 3) hn (ix4 (0 : Fin 1) ch r l)) :=
    chain4 (fun n h => f n h (ix4 (0 : Fin 1) ch (0 : Fin 1) (0 : Fin 1)))
      (fun n h => ∑ r : Fin 256, ∑ l : Fin 1024, g (X n h (ix4 (0 : Fin 1) ch r l))) h0 hs (t - 3) hn (by omega)
  have e : f t ht (ix4 (0 : Fin 1) ch (0 : Fin 1) (0 : Fin 1)) = f (t - 3 + 3) hn (ix4 (0 : Fin 1) ch (0 : Fin 1) (0 : Fin 1)) :=
    dep_congr (fun n h => f n h (ix4 (0 : Fin 1) ch (0 : Fin 1) (0 : Fin 1))) (by omega : t = t - 3 + 3) ht hn
  refine (e.trans key).trans ?_
  exact rows4 g A (X (t - 3) (by omega)) (X (t - 3 + 1) (by omega)) (X (t - 3 + 2) (by omega)) (X (t - 3 + 3) hn) b ch
    (fun r l => hX _ _ ch r l b _ (by omega) (by show 256 * 0 + r.val = 256 * ((t - 3) % 4) + r.val; omega))
    (fun r l => hX _ _ ch r l b _ (by omega) (by show 256 * 1 + r.val = 256 * ((t - 3 + 1) % 4) + r.val; omega))
    (fun r l => hX _ _ ch r l b _ (by omega) (by show 256 * 2 + r.val = 256 * ((t - 3 + 2) % 4) + r.val; omega))
    (fun r l => hX _ _ ch r l b _ (by omega) (by show 256 * 3 + r.val = 256 * ((t - 3 + 3) % 4) + r.val; omega))

/-- Running sum 1 after a batch's first tile. -/
theorem acc4_reset (t : Fin cfg0.N) (h0 : t.val % 4 = 0) :
    (outsAt0 (F := Ideal) V c t.val t.isLt).2.2.1 = k0_pay9 (F := Ideal) (iblk0 (F := Ideal) V c 0 t) (k0_pay4 (F := Ideal)) :=
  (comp3 (outsAt0_A (F := Ideal) V c t h0)).trans (Stats.caseA_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))

/-- Running sum 1 after a later tile of a batch. -/
theorem acc4_step (t : Fin cfg0.N) (h0 : ¬t.val % 4 = 0) :
    (outsAt0 (F := Ideal) V c t.val t.isLt).2.2.1 = k0_pay9 (F := Ideal) (iblk0 (F := Ideal) V c 0 t) (outsAt0 (F := Ideal) V c (t.val - 1) (Nat.lt_of_le_of_lt (Nat.sub_le _ _) t.isLt)).2.2.1 :=
  (comp3 (outsAt0_B (F := Ideal) V c t h0)).trans (Stats.caseB_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- Running sum 1 at a batch's last tile, read at a channel. -/
theorem sum4_flush (t : Fin cfg0.N) (h3 : t.val % 4 = 3) (b : Fin 8) (hb : b.val = t.val / 4) (ch ch' : Fin 3) (hc : ch'.val = ch.val) :
    (outsAt0 (F := Ideal) V c t.val t.isLt).2.2.1 (ix4 (0 : Fin 1) ch (0 : Fin 1) (0 : Fin 1)) = ∑ y : Fin 1024, ∑ x : Fin 1024, (fun v : EReal => v) (V c (Pipeline.arrRef spec0 0) (ix4 b ch' y x)) :=
  acc_flush (fun v : EReal => v) (V c (Pipeline.arrRef spec0 0)) (fun n h => iblk0 (F := Ideal) V c 0 ⟨n, h⟩)
    (fun n h ch r l b y hb hy => iblk_0_apply V c ⟨n, h⟩ ch r l b y l hb hy rfl)
    (fun n h => (outsAt0 (F := Ideal) V c n h).2.2.1) ch
    (fun n h hn => by
      refine (congrFun (acc4_reset V c ⟨n, h⟩ hn) (ix4 (0 : Fin 1) ch (0 : Fin 1) (0 : Fin 1))).trans ((pay9_apply _ _ ch).trans ?_)
      rw [zero3_apply])
    (fun n h hn => (congrFun (acc4_step V c ⟨n + 1, h⟩ hn) (ix4 (0 : Fin 1) ch (0 : Fin 1) (0 : Fin 1))).trans (pay9_apply _ _ ch))
    t.val t.isLt h3 b hb ch' hc

/-- What a batch's last point writes back to running sum 1. -/
theorem flushed4_eq (t : Fin cfg0.N) (hf : (cfg0.win 4).flush t = true) :
    (dat0 (F := Ideal) V c).flushed 4 t
      = ((cfg0.win 4).blk t).view.read (Elt Ideal) (chanSum (fun v : EReal => v) (V c (Pipeline.arrRef spec0 0))) := by
  have h3 : t.val % 4 = 3 := (flush0_4 t).mp hf
  show (cfg0.win 4).cut (grid0.coords t) ((dat0 (F := Ideal) V c).after 4 t) = _
  rw [after0_4]
  refine funext fun (j : S1x3x1x1.Idx) => ?_
  obtain ⟨u, ch, v, w, rfl⟩ : ∃ (u : Fin 1) (ch : Fin 3) (v w : Fin 1), j = ix4 u ch v w := ⟨j 0, j 1, j 2, j 3, eq_ix4 j⟩
  obtain rfl : u = 0 := Subsingleton.elim _ _
  obtain rfl : v = 0 := Subsingleton.elim _ _
  obtain rfl : w = 0 := Subsingleton.elim _ _
  obtain ⟨e0, e1, e2, e3⟩ := (idx_facts_acc t).1
  show (outsAt0 (F := Ideal) V c t.val t.isLt).2.2.1 (ix4 (0 : Fin 1) ch (0 : Fin 1) (0 : Fin 1))
    = chanSum (fun v : EReal => v) (V c (Pipeline.arrRef spec0 0)) (((cfg0.win 4).blk t).view.emb (ix4 (0 : Fin 1) ch (0 : Fin 1) (0 : Fin 1)))
  unfold chanSum
  refine sum4_flush V c t h3 _ ?_ ch _ ?_
  · show win0_4.index t (0 : Fin 4) * 1 + 1 * 0 = t.val / 4; omega
  · show win0_4.index t (1 : Fin 4) * 3 + 1 * ch.val = ch.val; omega

theorem mem_blk4 (t : Fin cfg0.N) (i : S8x3x1x1.Idx) :
    i ∈ ((cfg0.win 4).blk t).view.set ↔ ∀ a : Fin 4, win0_4.index t a * S1x3x1x1.size a ≤ (i a).val ∧ (i a).val < win0_4.index t a * S1x3x1x1.size a + S1x3x1x1.size a := by
  show i ∈ ((View.whole main_v0_2).slice (win0_4.rect t)).set ↔ _
  rw [View.set_slice_whole, Rect.mem_set_unit]
  exact Iff.rfl

/-- Every entry of running sum 1 is in the block of its batch's last point. -/
theorem cover4 (i : S8x3x1x1.Idx) : ∃ t : Fin cfg0.N, (cfg0.win 4).flush t = true ∧ i ∈ ((cfg0.win 4).blk t).view.set := by
  have hN : cfg0.N = 32 := N_0
  have h0 : (i 0).val < 8 := (i 0).isLt
  have h1 : (i 1).val < 3 := (i 1).isLt
  have h2 : (i 2).val < 1 := (i 2).isLt
  have h3 : (i 3).val < 1 := (i 3).isLt
  obtain ⟨t, ht⟩ : ∃ t : Fin cfg0.N, t.val = 4 * (i 0).val + 3 := ⟨⟨4 * (i 0).val + 3, by omega⟩, rfl⟩
  obtain ⟨e0, e1, e2, e3⟩ := (idx_facts_acc t).1
  refine ⟨t, (flush0_4 t).mpr (by omega), ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 3 ≤ (i 1).val ∧ (i 1).val < win0_4.index t (1 : Fin 4) * 3 + 3; omega
  | ⟨2, _⟩ => show win0_4.index t (2 : Fin 4) * 1 ≤ (i 2).val ∧ (i 2).val < win0_4.index t (2 : Fin 4) * 1 + 1; omega
  | ⟨3, _⟩ => show win0_4.index t (3 : Fin 4) * 1 ≤ (i 3).val ∧ (i 3).val < win0_4.index t (3 : Fin 4) * 1 + 1; omega

/-- Running sum 1 after the whole grid. -/
theorem final4 : (dat0 (F := Ideal) V c).arrAt 4 cfg0.N = chanSum (fun v : EReal => v) (V c (Pipeline.arrRef spec0 0)) :=
  (dat0 (F := Ideal) V c).arrAt_eq_of_cover 4 (chanSum (fun v : EReal => v) (V c (Pipeline.arrRef spec0 0))) (fun t hf => flushed4_eq V c t hf) cover4

theorem sumI_apply (b : Fin 8) (ch : Fin 3) :
    (dat0 (F := Ideal) V c).arrAt 4 cfg0.N (ix4 b ch (0 : Fin 1) (0 : Fin 1))
      = ∑ y : Fin 1024, ∑ x : Fin 1024, inI V c (ix4 b ch y x) := by
  rw [final4]
  rfl

theorem zero5_apply (j : S1x3x1x1.Idx) : (k0_pay5 (F := Ideal) : FVec Ideal S1x3x1x1 .f32) j = 0 :=
  Ideal.ofBits_zero_f32
theorem zero6_apply (j : S1x3x1x1.Idx) : (k0_pay6 (F := Ideal) : FVec Ideal S1x3x1x1 .f32) j = 0 :=
  Ideal.ofBits_zero_f32
theorem zero7_apply (j : S1x3x1x1.Idx) : (k0_pay7 (F := Ideal) : FVec Ideal S1x3x1x1 .f32) j = 0 :=
  Ideal.ofBits_zero_f32

/-- Running sum 2 after a batch's first tile. -/
theorem acc5_reset (t : Fin cfg0.N) (h0 : t.val % 4 = 0) :
    (outsAt0 (F := Ideal) V c t.val t.isLt).2.2.2.1 = k0_pay10 (F := Ideal) (iblk0 (F := Ideal) V c 0 t) (k0_pay5 (F := Ideal)) :=
  (comp4 (outsAt0_A (F := Ideal) V c t h0)).trans (Stats.caseA_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))

/-- Running sum 2 after a later tile of a batch. -/
theorem acc5_step (t : Fin cfg0.N) (h0 : ¬t.val % 4 = 0) :
    (outsAt0 (F := Ideal) V c t.val t.isLt).2.2.2.1 = k0_pay10 (F := Ideal) (iblk0 (F := Ideal) V c 0 t) (outsAt0 (F := Ideal) V c (t.val - 1) (Nat.lt_of_le_of_lt (Nat.sub_le _ _) t.isLt)).2.2.2.1 :=
  (comp4 (outsAt0_B (F := Ideal) V c t h0)).trans (Stats.caseB_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- Running sum 2 at a batch's last tile, read at a channel. -/
theorem sum5_flush (t : Fin cfg0.N) (h3 : t.val % 4 = 3) (b : Fin 8) (hb : b.val = t.val / 4) (ch ch' : Fin 3) (hc : ch'.val = ch.val) :
    (outsAt0 (F := Ideal) V c t.val t.isLt).2.2.2.1 (ix4 (0 : Fin 1) ch (0 : Fin 1) (0 : Fin 1)) = ∑ y : Fin 1024, ∑ x : Fin 1024, (fun v : EReal => v * v) (V c (Pipeline.arrRef spec0 0) (ix4 b ch' y x)) :=
  acc_flush (fun v : EReal => v * v) (V c (Pipeline.arrRef spec0 0)) (fun n h => iblk0 (F := Ideal) V c 0 ⟨n, h⟩)
    (fun n h ch r l b y hb hy => iblk_0_apply V c ⟨n, h⟩ ch r l b y l hb hy rfl)
    (fun n h => (outsAt0 (F := Ideal) V c n h).2.2.2.1) ch
    (fun n h hn => by
      refine (congrFun (acc5_reset V c ⟨n, h⟩ hn) (ix4 (0 : Fin 1) ch (0 : Fin 1) (0 : Fin 1))).trans ((pay10_apply _ _ ch).trans ?_)
      rw [zero5_apply])
    (fun n h hn => (congrFun (acc5_step V c ⟨n + 1, h⟩ hn) (ix4 (0 : Fin 1) ch (0 : Fin 1) (0 : Fin 1))).trans (pay10_apply _ _ ch))
    t.val t.isLt h3 b hb ch' hc

/-- What a batch's last point writes back to running sum 2. -/
theorem flushed5_eq (t : Fin cfg0.N) (hf : (cfg0.win 5).flush t = true) :
    (dat0 (F := Ideal) V c).flushed 5 t
      = ((cfg0.win 5).blk t).view.read (Elt Ideal) (chanSum (fun v : EReal => v * v) (V c (Pipeline.arrRef spec0 0))) := by
  have h3 : t.val % 4 = 3 := (flush0_5 t).mp hf
  show (cfg0.win 5).cut (grid0.coords t) ((dat0 (F := Ideal) V c).after 5 t) = _
  rw [after0_5]
  refine funext fun (j : S1x3x1x1.Idx) => ?_
  obtain ⟨u, ch, v, w, rfl⟩ : ∃ (u : Fin 1) (ch : Fin 3) (v w : Fin 1), j = ix4 u ch v w := ⟨j 0, j 1, j 2, j 3, eq_ix4 j⟩
  obtain rfl : u = 0 := Subsingleton.elim _ _
  obtain rfl : v = 0 := Subsingleton.elim _ _
  obtain rfl : w = 0 := Subsingleton.elim _ _
  obtain ⟨e0, e1, e2, e3⟩ := (idx_facts_acc t).2.1
  show (outsAt0 (F := Ideal) V c t.val t.isLt).2.2.2.1 (ix4 (0 : Fin 1) ch (0 : Fin 1) (0 : Fin 1))
    = chanSum (fun v : EReal => v * v) (V c (Pipeline.arrRef spec0 0)) (((cfg0.win 5).blk t).view.emb (ix4 (0 : Fin 1) ch (0 : Fin 1) (0 : Fin 1)))
  unfold chanSum
  refine sum5_flush V c t h3 _ ?_ ch _ ?_
  · show win0_5.index t (0 : Fin 4) * 1 + 1 * 0 = t.val / 4; omega
  · show win0_5.index t (1 : Fin 4) * 3 + 1 * ch.val = ch.val; omega

theorem mem_blk5 (t : Fin cfg0.N) (i : S8x3x1x1.Idx) :
    i ∈ ((cfg0.win 5).blk t).view.set ↔ ∀ a : Fin 4, win0_5.index t a * S1x3x1x1.size a ≤ (i a).val ∧ (i a).val < win0_5.index t a * S1x3x1x1.size a + S1x3x1x1.size a := by
  show i ∈ ((View.whole main_v0_3).slice (win0_5.rect t)).set ↔ _
  rw [View.set_slice_whole, Rect.mem_set_unit]
  exact Iff.rfl

/-- Every entry of running sum 2 is in the block of its batch's last point. -/
theorem cover5 (i : S8x3x1x1.Idx) : ∃ t : Fin cfg0.N, (cfg0.win 5).flush t = true ∧ i ∈ ((cfg0.win 5).blk t).view.set := by
  have hN : cfg0.N = 32 := N_0
  have h0 : (i 0).val < 8 := (i 0).isLt
  have h1 : (i 1).val < 3 := (i 1).isLt
  have h2 : (i 2).val < 1 := (i 2).isLt
  have h3 : (i 3).val < 1 := (i 3).isLt
  obtain ⟨t, ht⟩ : ∃ t : Fin cfg0.N, t.val = 4 * (i 0).val + 3 := ⟨⟨4 * (i 0).val + 3, by omega⟩, rfl⟩
  obtain ⟨e0, e1, e2, e3⟩ := (idx_facts_acc t).2.1
  refine ⟨t, (flush0_5 t).mpr (by omega), ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 3 ≤ (i 1).val ∧ (i 1).val < win0_5.index t (1 : Fin 4) * 3 + 3; omega
  | ⟨2, _⟩ => show win0_5.index t (2 : Fin 4) * 1 ≤ (i 2).val ∧ (i 2).val < win0_5.index t (2 : Fin 4) * 1 + 1; omega
  | ⟨3, _⟩ => show win0_5.index t (3 : Fin 4) * 1 ≤ (i 3).val ∧ (i 3).val < win0_5.index t (3 : Fin 4) * 1 + 1; omega

/-- Running sum 2 after the whole grid. -/
theorem final5 : (dat0 (F := Ideal) V c).arrAt 5 cfg0.N = chanSum (fun v : EReal => v * v) (V c (Pipeline.arrRef spec0 0)) :=
  (dat0 (F := Ideal) V c).arrAt_eq_of_cover 5 (chanSum (fun v : EReal => v * v) (V c (Pipeline.arrRef spec0 0))) (fun t hf => flushed5_eq V c t hf) cover5

theorem sumsqI_apply (b : Fin 8) (ch : Fin 3) :
    (dat0 (F := Ideal) V c).arrAt 5 cfg0.N (ix4 b ch (0 : Fin 1) (0 : Fin 1))
      = ∑ y : Fin 1024, ∑ x : Fin 1024, inI V c (ix4 b ch y x) * inI V c (ix4 b ch y x) := by
  rw [final5]
  rfl

/-- Running sum 3 after a batch's first tile. -/
theorem acc6_reset (t : Fin cfg0.N) (h0 : t.val % 4 = 0) :
    (outsAt0 (F := Ideal) V c t.val t.isLt).2.2.2.2.1 = k0_pay11 (F := Ideal) (iblk0 (F := Ideal) V c 1 t) (k0_pay6 (F := Ideal)) :=
  (comp5 (outsAt0_A (F := Ideal) V c t h0)).trans (Stats.caseA_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))

/-- Running sum 3 after a later tile of a batch. -/
theorem acc6_step (t : Fin cfg0.N) (h0 : ¬t.val % 4 = 0) :
    (outsAt0 (F := Ideal) V c t.val t.isLt).2.2.2.2.1 = k0_pay11 (F := Ideal) (iblk0 (F := Ideal) V c 1 t) (outsAt0 (F := Ideal) V c (t.val - 1) (Nat.lt_of_le_of_lt (Nat.sub_le _ _) t.isLt)).2.2.2.2.1 :=
  (comp5 (outsAt0_B (F := Ideal) V c t h0)).trans (Stats.caseB_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- Running sum 3 at a batch's last tile, read at a channel. -/
theorem sum6_flush (t : Fin cfg0.N) (h3 : t.val % 4 = 3) (b : Fin 8) (hb : b.val = t.val / 4) (ch ch' : Fin 3) (hc : ch'.val = ch.val) :
    (outsAt0 (F := Ideal) V c t.val t.isLt).2.2.2.2.1 (ix4 (0 : Fin 1) ch (0 : Fin 1) (0 : Fin 1)) = ∑ y : Fin 1024, ∑ x : Fin 1024, (fun v : EReal => v) (V c (Pipeline.arrRef spec0 1) (ix4 b ch' y x)) :=
  acc_flush (fun v : EReal => v) (V c (Pipeline.arrRef spec0 1)) (fun n h => iblk0 (F := Ideal) V c 1 ⟨n, h⟩)
    (fun n h ch r l b y hb hy => iblk_1_apply V c ⟨n, h⟩ ch r l b y l hb hy rfl)
    (fun n h => (outsAt0 (F := Ideal) V c n h).2.2.2.2.1) ch
    (fun n h hn => by
      refine (congrFun (acc6_reset V c ⟨n, h⟩ hn) (ix4 (0 : Fin 1) ch (0 : Fin 1) (0 : Fin 1))).trans ((pay11_apply _ _ ch).trans ?_)
      rw [zero6_apply])
    (fun n h hn => (congrFun (acc6_step V c ⟨n + 1, h⟩ hn) (ix4 (0 : Fin 1) ch (0 : Fin 1) (0 : Fin 1))).trans (pay11_apply _ _ ch))
    t.val t.isLt h3 b hb ch' hc

/-- What a batch's last point writes back to running sum 3. -/
theorem flushed6_eq (t : Fin cfg0.N) (hf : (cfg0.win 6).flush t = true) :
    (dat0 (F := Ideal) V c).flushed 6 t
      = ((cfg0.win 6).blk t).view.read (Elt Ideal) (chanSum (fun v : EReal => v) (V c (Pipeline.arrRef spec0 1))) := by
  have h3 : t.val % 4 = 3 := (flush0_6 t).mp hf
  show (cfg0.win 6).cut (grid0.coords t) ((dat0 (F := Ideal) V c).after 6 t) = _
  rw [after0_6]
  refine funext fun (j : S1x3x1x1.Idx) => ?_
  obtain ⟨u, ch, v, w, rfl⟩ : ∃ (u : Fin 1) (ch : Fin 3) (v w : Fin 1), j = ix4 u ch v w := ⟨j 0, j 1, j 2, j 3, eq_ix4 j⟩
  obtain rfl : u = 0 := Subsingleton.elim _ _
  obtain rfl : v = 0 := Subsingleton.elim _ _
  obtain rfl : w = 0 := Subsingleton.elim _ _
  obtain ⟨e0, e1, e2, e3⟩ := (idx_facts_acc t).2.2.1
  show (outsAt0 (F := Ideal) V c t.val t.isLt).2.2.2.2.1 (ix4 (0 : Fin 1) ch (0 : Fin 1) (0 : Fin 1))
    = chanSum (fun v : EReal => v) (V c (Pipeline.arrRef spec0 1)) (((cfg0.win 6).blk t).view.emb (ix4 (0 : Fin 1) ch (0 : Fin 1) (0 : Fin 1)))
  unfold chanSum
  refine sum6_flush V c t h3 _ ?_ ch _ ?_
  · show win0_6.index t (0 : Fin 4) * 1 + 1 * 0 = t.val / 4; omega
  · show win0_6.index t (1 : Fin 4) * 3 + 1 * ch.val = ch.val; omega

theorem mem_blk6 (t : Fin cfg0.N) (i : S8x3x1x1.Idx) :
    i ∈ ((cfg0.win 6).blk t).view.set ↔ ∀ a : Fin 4, win0_6.index t a * S1x3x1x1.size a ≤ (i a).val ∧ (i a).val < win0_6.index t a * S1x3x1x1.size a + S1x3x1x1.size a := by
  show i ∈ ((View.whole main_v0_4).slice (win0_6.rect t)).set ↔ _
  rw [View.set_slice_whole, Rect.mem_set_unit]
  exact Iff.rfl

/-- Every entry of running sum 3 is in the block of its batch's last point. -/
theorem cover6 (i : S8x3x1x1.Idx) : ∃ t : Fin cfg0.N, (cfg0.win 6).flush t = true ∧ i ∈ ((cfg0.win 6).blk t).view.set := by
  have hN : cfg0.N = 32 := N_0
  have h0 : (i 0).val < 8 := (i 0).isLt
  have h1 : (i 1).val < 3 := (i 1).isLt
  have h2 : (i 2).val < 1 := (i 2).isLt
  have h3 : (i 3).val < 1 := (i 3).isLt
  obtain ⟨t, ht⟩ : ∃ t : Fin cfg0.N, t.val = 4 * (i 0).val + 3 := ⟨⟨4 * (i 0).val + 3, by omega⟩, rfl⟩
  obtain ⟨e0, e1, e2, e3⟩ := (idx_facts_acc t).2.2.1
  refine ⟨t, (flush0_6 t).mpr (by omega), ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 3 ≤ (i 1).val ∧ (i 1).val < win0_6.index t (1 : Fin 4) * 3 + 3; omega
  | ⟨2, _⟩ => show win0_6.index t (2 : Fin 4) * 1 ≤ (i 2).val ∧ (i 2).val < win0_6.index t (2 : Fin 4) * 1 + 1; omega
  | ⟨3, _⟩ => show win0_6.index t (3 : Fin 4) * 1 ≤ (i 3).val ∧ (i 3).val < win0_6.index t (3 : Fin 4) * 1 + 1; omega

/-- Running sum 3 after the whole grid. -/
theorem final6 : (dat0 (F := Ideal) V c).arrAt 6 cfg0.N = chanSum (fun v : EReal => v) (V c (Pipeline.arrRef spec0 1)) :=
  (dat0 (F := Ideal) V c).arrAt_eq_of_cover 6 (chanSum (fun v : EReal => v) (V c (Pipeline.arrRef spec0 1))) (fun t hf => flushed6_eq V c t hf) cover6

theorem sumD_apply (b : Fin 8) (ch : Fin 3) :
    (dat0 (F := Ideal) V c).arrAt 6 cfg0.N (ix4 b ch (0 : Fin 1) (0 : Fin 1))
      = ∑ y : Fin 1024, ∑ x : Fin 1024, inD V c (ix4 b ch y x) := by
  rw [final6]
  rfl

/-- Running sum 4 after a batch's first tile. -/
theorem acc7_reset (t : Fin cfg0.N) (h0 : t.val % 4 = 0) :
    (outsAt0 (F := Ideal) V c t.val t.isLt).2.2.2.2.2.1 = k0_pay12 (F := Ideal) (iblk0 (F := Ideal) V c 1 t) (k0_pay7 (F := Ideal)) :=
  (comp6 (outsAt0_A (F := Ideal) V c t h0)).trans (Stats.caseA_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))

/-- Running sum 4 after a later tile of a batch. -/
theorem acc7_step (t : Fin cfg0.N) (h0 : ¬t.val % 4 = 0) :
    (outsAt0 (F := Ideal) V c t.val t.isLt).2.2.2.2.2.1 = k0_pay12 (F := Ideal) (iblk0 (F := Ideal) V c 1 t) (outsAt0 (F := Ideal) V c (t.val - 1) (Nat.lt_of_le_of_lt (Nat.sub_le _ _) t.isLt)).2.2.2.2.2.1 :=
  (comp6 (outsAt0_B (F := Ideal) V c t h0)).trans (Stats.caseB_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- Running sum 4 at a batch's last tile, read at a channel. -/
theorem sum7_flush (t : Fin cfg0.N) (h3 : t.val % 4 = 3) (b : Fin 8) (hb : b.val = t.val / 4) (ch ch' : Fin 3) (hc : ch'.val = ch.val) :
    (outsAt0 (F := Ideal) V c t.val t.isLt).2.2.2.2.2.1 (ix4 (0 : Fin 1) ch (0 : Fin 1) (0 : Fin 1)) = ∑ y : Fin 1024, ∑ x : Fin 1024, (fun v : EReal => v * v) (V c (Pipeline.arrRef spec0 1) (ix4 b ch' y x)) :=
  acc_flush (fun v : EReal => v * v) (V c (Pipeline.arrRef spec0 1)) (fun n h => iblk0 (F := Ideal) V c 1 ⟨n, h⟩)
    (fun n h ch r l b y hb hy => iblk_1_apply V c ⟨n, h⟩ ch r l b y l hb hy rfl)
    (fun n h => (outsAt0 (F := Ideal) V c n h).2.2.2.2.2.1) ch
    (fun n h hn => by
      refine (congrFun (acc7_reset V c ⟨n, h⟩ hn) (ix4 (0 : Fin 1) ch (0 : Fin 1) (0 : Fin 1))).trans ((pay12_apply _ _ ch).trans ?_)
      rw [zero7_apply])
    (fun n h hn => (congrFun (acc7_step V c ⟨n + 1, h⟩ hn) (ix4 (0 : Fin 1) ch (0 : Fin 1) (0 : Fin 1))).trans (pay12_apply _ _ ch))
    t.val t.isLt h3 b hb ch' hc

/-- What a batch's last point writes back to running sum 4. -/
theorem flushed7_eq (t : Fin cfg0.N) (hf : (cfg0.win 7).flush t = true) :
    (dat0 (F := Ideal) V c).flushed 7 t
      = ((cfg0.win 7).blk t).view.read (Elt Ideal) (chanSum (fun v : EReal => v * v) (V c (Pipeline.arrRef spec0 1))) := by
  have h3 : t.val % 4 = 3 := (flush0_7 t).mp hf
  show (cfg0.win 7).cut (grid0.coords t) ((dat0 (F := Ideal) V c).after 7 t) = _
  rw [after0_7]
  refine funext fun (j : S1x3x1x1.Idx) => ?_
  obtain ⟨u, ch, v, w, rfl⟩ : ∃ (u : Fin 1) (ch : Fin 3) (v w : Fin 1), j = ix4 u ch v w := ⟨j 0, j 1, j 2, j 3, eq_ix4 j⟩
  obtain rfl : u = 0 := Subsingleton.elim _ _
  obtain rfl : v = 0 := Subsingleton.elim _ _
  obtain rfl : w = 0 := Subsingleton.elim _ _
  obtain ⟨e0, e1, e2, e3⟩ := (idx_facts_acc t).2.2.2.1
  show (outsAt0 (F := Ideal) V c t.val t.isLt).2.2.2.2.2.1 (ix4 (0 : Fin 1) ch (0 : Fin 1) (0 : Fin 1))
    = chanSum (fun v : EReal => v * v) (V c (Pipeline.arrRef spec0 1)) (((cfg0.win 7).blk t).view.emb (ix4 (0 : Fin 1) ch (0 : Fin 1) (0 : Fin 1)))
  unfold chanSum
  refine sum7_flush V c t h3 _ ?_ ch _ ?_
  · show win0_7.index t (0 : Fin 4) * 1 + 1 * 0 = t.val / 4; omega
  · show win0_7.index t (1 : Fin 4) * 3 + 1 * ch.val = ch.val; omega

theorem mem_blk7 (t : Fin cfg0.N) (i : S8x3x1x1.Idx) :
    i ∈ ((cfg0.win 7).blk t).view.set ↔ ∀ a : Fin 4, win0_7.index t a * S1x3x1x1.size a ≤ (i a).val ∧ (i a).val < win0_7.index t a * S1x3x1x1.size a + S1x3x1x1.size a := by
  show i ∈ ((View.whole main_v0_5).slice (win0_7.rect t)).set ↔ _
  rw [View.set_slice_whole, Rect.mem_set_unit]
  exact Iff.rfl

/-- Every entry of running sum 4 is in the block of its batch's last point. -/
theorem cover7 (i : S8x3x1x1.Idx) : ∃ t : Fin cfg0.N, (cfg0.win 7).flush t = true ∧ i ∈ ((cfg0.win 7).blk t).view.set := by
  have hN : cfg0.N = 32 := N_0
  have h0 : (i 0).val < 8 := (i 0).isLt
  have h1 : (i 1).val < 3 := (i 1).isLt
  have h2 : (i 2).val < 1 := (i 2).isLt
  have h3 : (i 3).val < 1 := (i 3).isLt
  obtain ⟨t, ht⟩ : ∃ t : Fin cfg0.N, t.val = 4 * (i 0).val + 3 := ⟨⟨4 * (i 0).val + 3, by omega⟩, rfl⟩
  obtain ⟨e0, e1, e2, e3⟩ := (idx_facts_acc t).2.2.2.1
  refine ⟨t, (flush0_7 t).mpr (by omega), ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 3 ≤ (i 1).val ∧ (i 1).val < win0_7.index t (1 : Fin 4) * 3 + 3; omega
  | ⟨2, _⟩ => show win0_7.index t (2 : Fin 4) * 1 ≤ (i 2).val ∧ (i 2).val < win0_7.index t (2 : Fin 4) * 1 + 1; omega
  | ⟨3, _⟩ => show win0_7.index t (3 : Fin 4) * 1 ≤ (i 3).val ∧ (i 3).val < win0_7.index t (3 : Fin 4) * 1 + 1; omega

/-- Running sum 4 after the whole grid. -/
theorem final7 : (dat0 (F := Ideal) V c).arrAt 7 cfg0.N = chanSum (fun v : EReal => v * v) (V c (Pipeline.arrRef spec0 1)) :=
  (dat0 (F := Ideal) V c).arrAt_eq_of_cover 7 (chanSum (fun v : EReal => v * v) (V c (Pipeline.arrRef spec0 1))) (fun t hf => flushed7_eq V c t hf) cover7

theorem sumsqD_apply (b : Fin 8) (ch : Fin 3) :
    (dat0 (F := Ideal) V c).arrAt 7 cfg0.N (ix4 b ch (0 : Fin 1) (0 : Fin 1))
      = ∑ y : Fin 1024, ∑ x : Fin 1024, inD V c (ix4 b ch y x) * inD V c (ix4 b ch y x) := by
  rw [final7]
  rfl

/-- The running saturation sum after a tile, read at its one entry. -/
theorem sat_pay_apply (x : Vec Ideal S1x3x256x1024 .f32) (acc : Vec Ideal S1x1x1x1 .f32) :
    k0_pay1 (F := Ideal) (k0_pay13 (F := Ideal) x) acc (ix4 (0 : Fin 1) (0 : Fin 1) (0 : Fin 1) (0 : Fin 1))
      = acc (ix4 (0 : Fin 1) (0 : Fin 1) (0 : Fin 1) (0 : Fin 1)) + ∑ ch : Fin 3, ∑ r : Fin 256, ∑ l : Fin 1024, satf (x (ix4 (0 : Fin 1) ch r l)) := by
  rw [pay1_apply]
  exact congrArg (acc (ix4 (0 : Fin 1) (0 : Fin 1) (0 : Fin 1) (0 : Fin 1)) + ·) (Finset.sum_congr rfl fun ch _ => pay13_apply x ch)

/-- The saturation sum, reset at a batch's first tile and adding each tile's three channel sums, read at the batch's
    last tile: the sum over the three channels and the whole image. -/
theorem sat_flush_core (A : S8x3x1024x1024.Idx → EReal)
    (X : (n : ℕ) → n < cfg0.N → Vec Ideal S1x3x256x1024 .f32)
    (hX : ∀ (n : ℕ) (h : n < cfg0.N) (ch : Fin 3) (r : Fin 256) (l : Fin 1024) (b : Fin 8) (y : Fin 1024),
        b.val = n / 4 → y.val = 256 * (n % 4) + r.val → X n h (ix4 (0 : Fin 1) ch r l) = A (ix4 b ch y l))
    (f : (n : ℕ) → n < cfg0.N → Vec Ideal S1x1x1x1 .f32)
    (h0 : ∀ (n : ℕ) (h : n < cfg0.N), n % 4 = 0 →
        f n h (ix4 (0 : Fin 1) (0 : Fin 1) (0 : Fin 1) (0 : Fin 1)) = 0 + ∑ ch : Fin 3, ∑ r : Fin 256, ∑ l : Fin 1024, satf (X n h (ix4 (0 : Fin 1) ch r l)))
    (hs : ∀ (n : ℕ) (h : n + 1 < cfg0.N), ¬(n + 1) % 4 = 0 →
        f (n + 1) h (ix4 (0 : Fin 1) (0 : Fin 1) (0 : Fin 1) (0 : Fin 1))
          = f n (Nat.lt_of_succ_lt h) (ix4 (0 : Fin 1) (0 : Fin 1) (0 : Fin 1) (0 : Fin 1)) + ∑ ch : Fin 3, ∑ r : Fin 256, ∑ l : Fin 1024, satf (X (n + 1) h (ix4 (0 : Fin 1) ch r l)))
    (t : ℕ) (ht : t < cfg0.N) (h3 : t % 4 = 3) (b : Fin 8) (hb : b.val = t / 4) :
    f t ht (ix4 (0 : Fin 1) (0 : Fin 1) (0 : Fin 1) (0 : Fin 1)) = ∑ ch : Fin 3, ∑ y : Fin 1024, ∑ x : Fin 1024, satf (A (ix4 b ch y x)) := by
  have hn : t - 3 + 3 < cfg0.N := by omega
  have key : f (t - 3 + 3) hn (ix4 (0 : Fin 1) (0 : Fin 1) (0 : Fin 1) (0 : Fin 1))
      = ∑ ch : Fin 3, ∑ r : Fin 256, ∑ l : Fin 1024, satf (X (t - 3) (by omega) (ix4 (0 : Fin 1) ch r l))
        + ∑ ch : Fin 3, ∑ r : Fin 256, ∑ l : Fin 1024, satf (X (t - 3 + 1) (by omega) (ix4 (0 : Fin 1) ch r l))
        + ∑ ch : Fin 3, ∑ r : Fin 256, ∑ l : Fin 1024, satf (X (t - 3 + 2) (by omega) (ix4 (0 : Fin 1) ch r l))
        + ∑ ch : Fin 3, ∑ r : Fin 256, ∑ l : Fin 1024, satf (X (t - 3 + 3) hn (ix4 (0 : Fin 1) ch r l)) :=
    chain4 (fun n h => f n h (ix4 (0 : Fin 1) (0 : Fin 1) (0 : Fin 1) (0 : Fin 1)))
      (fun n h => ∑ ch : Fin 3, ∑ r : Fin 256, ∑ l : Fin 1024, satf (X n h (ix4 (0 : Fin 1) ch r l))) h0 hs (t - 3) hn (by omega)
  have e : f t ht (ix4 (0 : Fin 1) (0 : Fin 1) (0 : Fin 1) (0 : Fin 1)) = f (t - 3 + 3) hn (ix4 (0 : Fin 1) (0 : Fin 1) (0 : Fin 1) (0 : Fin 1)) :=
    dep_congr (fun n h => f n h (ix4 (0 : Fin 1) (0 : Fin 1) (0 : Fin 1) (0 : Fin 1))) (by omega : t = t - 3 + 3) ht hn
  refine (e.trans key).trans ?_
  rw [← Finset.sum_add_distrib, ← Finset.sum_add_distrib, ← Finset.sum_add_distrib]
  exact Finset.sum_congr rfl fun ch _ =>
    rows4 satf A (X (t - 3) (by omega)) (X (t - 3 + 1) (by omega)) (X (t - 3 + 2) (by omega)) (X (t - 3 + 3) hn) b ch
      (fun r l => hX _ _ ch r l b _ (by omega) (by show 256 * 0 + r.val = 256 * ((t - 3) % 4) + r.val; omega))
      (fun r l => hX _ _ ch r l b _ (by omega) (by show 256 * 1 + r.val = 256 * ((t - 3 + 1) % 4) + r.val; omega))
      (fun r l => hX _ _ ch r l b _ (by omega) (by show 256 * 2 + r.val = 256 * ((t - 3 + 2) % 4) + r.val; omega))
      (fun r l => hX _ _ ch r l b _ (by omega) (by show 256 * 3 + r.val = 256 * ((t - 3 + 3) % 4) + r.val; omega))

/-- The saturation sum after a batch's first tile. -/
theorem acc8_reset (t : Fin cfg0.N) (h0 : t.val % 4 = 0) :
    (outsAt0 (F := Ideal) V c t.val t.isLt).2.2.2.2.2.2 = k0_pay1 (F := Ideal) (k0_pay13 (F := Ideal) (iblk0 (F := Ideal) V c 0 t)) (k0_pay8 (F := Ideal)) :=
  (comp7 (outsAt0_A (F := Ideal) V c t h0)).trans (Stats.caseA_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 (F := Ideal) V c 0 t) (iblk0 (F := Ideal) V c 1 t))

/-- The saturation sum after a later tile of a batch. -/
theorem acc8_step (t : Fin cfg0.N) (h0 : ¬t.val % 4 = 0) :
    (outsAt0 (F := Ideal) V c t.val t.isLt).2.2.2.2.2.2 = k0_pay1 (F := Ideal) (k0_pay13 (F := Ideal) (iblk0 (F := Ideal) V c 0 t)) (outsAt0 (F := Ideal) V c (t.val - 1) (Nat.lt_of_le_of_lt (Nat.sub_le _ _) t.isLt)).2.2.2.2.2.2 :=
  (comp7 (outsAt0_B (F := Ideal) V c t h0)).trans (Stats.caseB_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 (F := Ideal) V c 0 t) (iblk0 (F := Ideal) V c 1 t) (outsAt0 (F := Ideal) V c (t.val - 1) (Nat.lt_of_le_of_lt (Nat.sub_le _ _) t.isLt)).2.2.1 (outsAt0 (F := Ideal) V c (t.val - 1) (Nat.lt_of_le_of_lt (Nat.sub_le _ _) t.isLt)).2.2.2.1 (outsAt0 (F := Ideal) V c (t.val - 1) (Nat.lt_of_le_of_lt (Nat.sub_le _ _) t.isLt)).2.2.2.2.1 (outsAt0 (F := Ideal) V c (t.val - 1) (Nat.lt_of_le_of_lt (Nat.sub_le _ _) t.isLt)).2.2.2.2.2.1 (outsAt0 (F := Ideal) V c (t.val - 1) (Nat.lt_of_le_of_lt (Nat.sub_le _ _) t.isLt)).2.2.2.2.2.2)

/-- The saturation sum at a batch's last tile. -/
theorem sat_flush (t : Fin cfg0.N) (h3 : t.val % 4 = 3) (b : Fin 8) (hb : b.val = t.val / 4) :
    (outsAt0 (F := Ideal) V c t.val t.isLt).2.2.2.2.2.2 (ix4 (0 : Fin 1) (0 : Fin 1) (0 : Fin 1) (0 : Fin 1))
      = ∑ ch : Fin 3, ∑ y : Fin 1024, ∑ x : Fin 1024, satf (V c (Pipeline.arrRef spec0 0) (ix4 b ch y x)) :=
  sat_flush_core (V c (Pipeline.arrRef spec0 0)) (fun n h => iblk0 (F := Ideal) V c 0 ⟨n, h⟩)
    (fun n h ch r l b y hb hy => iblk_0_apply V c ⟨n, h⟩ ch r l b y l hb hy rfl)
    (fun n h => (outsAt0 (F := Ideal) V c n h).2.2.2.2.2.2)
    (fun n h hn => by
      refine (congrFun (acc8_reset V c ⟨n, h⟩ hn) (ix4 (0 : Fin 1) (0 : Fin 1) (0 : Fin 1) (0 : Fin 1))).trans ((sat_pay_apply _ _).trans ?_)
      rw [zero1_apply])
    (fun n h hn => (congrFun (acc8_step V c ⟨n + 1, h⟩ hn) (ix4 (0 : Fin 1) (0 : Fin 1) (0 : Fin 1) (0 : Fin 1))).trans (sat_pay_apply _ _))
    t.val t.isLt h3 b hb

/-- What a batch's last point writes back to the saturation sum. -/
theorem flushed8_eq (t : Fin cfg0.N) (hf : (cfg0.win 8).flush t = true) :
    (dat0 (F := Ideal) V c).flushed 8 t
      = ((cfg0.win 8).blk t).view.read (Elt Ideal) (satSum (V c (Pipeline.arrRef spec0 0))) := by
  have h3 : t.val % 4 = 3 := (flush0_8 t).mp hf
  show (cfg0.win 8).cut (grid0.coords t) ((dat0 (F := Ideal) V c).after 8 t) = _
  rw [after0_8]
  refine funext fun (j : S1x1x1x1.Idx) => ?_
  obtain ⟨u, u1, v, w, rfl⟩ : ∃ (u u1 v w : Fin 1), j = ix4 u u1 v w := ⟨j 0, j 1, j 2, j 3, eq_ix4 j⟩
  obtain rfl : u = 0 := Subsingleton.elim _ _
  obtain rfl : u1 = 0 := Subsingleton.elim _ _
  obtain rfl : v = 0 := Subsingleton.elim _ _
  obtain rfl : w = 0 := Subsingleton.elim _ _
  obtain ⟨e0, e1, e2, e3⟩ := (idx_facts_acc t).2.2.2.2
  show (outsAt0 (F := Ideal) V c t.val t.isLt).2.2.2.2.2.2 (ix4 (0 : Fin 1) (0 : Fin 1) (0 : Fin 1) (0 : Fin 1))
    = satSum (V c (Pipeline.arrRef spec0 0)) (((cfg0.win 8).blk t).view.emb (ix4 (0 : Fin 1) (0 : Fin 1) (0 : Fin 1) (0 : Fin 1)))
  unfold satSum
  refine sat_flush V c t h3 _ ?_
  show win0_8.index t (0 : Fin 4) * 1 + 1 * 0 = t.val / 4
  omega

theorem mem_blk8 (t : Fin cfg0.N) (i : S8x1x1x1.Idx) :
    i ∈ ((cfg0.win 8).blk t).view.set ↔ ∀ a : Fin 4, win0_8.index t a * S1x1x1x1.size a ≤ (i a).val ∧ (i a).val < win0_8.index t a * S1x1x1x1.size a + S1x1x1x1.size a := by
  show i ∈ ((View.whole main_v0_6).slice (win0_8.rect t)).set ↔ _
  rw [View.set_slice_whole, Rect.mem_set_unit]
  exact Iff.rfl

/-- Every entry of the saturation sum is in the block of its batch's last point. -/
theorem cover8 (i : S8x1x1x1.Idx) : ∃ t : Fin cfg0.N, (cfg0.win 8).flush t = true ∧ i ∈ ((cfg0.win 8).blk t).view.set := by
  have hN : cfg0.N = 32 := N_0
  have h0 : (i 0).val < 8 := (i 0).isLt
  have h1 : (i 1).val < 1 := (i 1).isLt
  have h2 : (i 2).val < 1 := (i 2).isLt
  have h3 : (i 3).val < 1 := (i 3).isLt
  obtain ⟨t, ht⟩ : ∃ t : Fin cfg0.N, t.val = 4 * (i 0).val + 3 := ⟨⟨4 * (i 0).val + 3, by omega⟩, rfl⟩
  obtain ⟨e0, e1, e2, e3⟩ := (idx_facts_acc t).2.2.2.2
  refine ⟨t, (flush0_8 t).mpr (by omega), ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 1 ≤ (i 2).val ∧ (i 2).val < win0_8.index t (2 : Fin 4) * 1 + 1; omega
  | ⟨3, _⟩ => show win0_8.index t (3 : Fin 4) * 1 ≤ (i 3).val ∧ (i 3).val < win0_8.index t (3 : Fin 4) * 1 + 1; omega

/-- The saturation sum after the whole grid. -/
theorem final8 : (dat0 (F := Ideal) V c).arrAt 8 cfg0.N = satSum (V c (Pipeline.arrRef spec0 0)) :=
  (dat0 (F := Ideal) V c).arrAt_eq_of_cover 8 (satSum (V c (Pipeline.arrRef spec0 0))) (fun t hf => flushed8_eq V c t hf) cover8

theorem sat_apply (b : Fin 8) :
    (dat0 (F := Ideal) V c).arrAt 8 cfg0.N (ix4 b (0 : Fin 1) (0 : Fin 1) (0 : Fin 1))
      = ∑ ch : Fin 3, ∑ y : Fin 1024, ∑ x : Fin 1024, satf (inI V c (ix4 b ch y x)) := by
  rw [final8]
  rfl

end Cert.KernelIdeal.StatsArrays

end
-- ==== Proof.KerStatTerms.lean ====
/- The kernel program's three statistics terms, read off the host operations that follow the three launches.

   From the first kernel's accumulated arrays — per (batch, channel) the sum and the sum of squares of each input, per
   batch the saturation sum — the host computes: the saturation term (the total of the saturation sums over the pixel
   count of a batch of images); the intensity term (the mean of (channel mean − 1/2)² over the 24 (batch, channel)
   pairs); and the spatial-variation term (the mean over the 24 pairs of the squared difference of the two inputs'
   deviations, each deviation sqrt (max ((sumsq − sum·sum/n) / (n − 1)) 0) from the two accumulated sums).

   Part 1 reads the three results as sums over the accumulators' entries. Part 2 puts in what the accumulators hold —
   the sums of the input images' pixels — and identifies the results with the loss's terms; for the deviation this
   uses that, for a finite image, the two-sum form floored at zero equals the centred form. -/
import proofs.«123598_j69123203661888_2_alg».proof.Proof.Gen.KernelIdeal.Frame
import proofs.«123598_j69123203661888_2_alg».proof.Proof.TermSpec
import proofs.«123598_j69123203661888_2_alg».proof.Proof.LibSumIdx
import proofs.«123598_j69123203661888_2_alg».proof.Proof.VarMath
import proofs.«123598_j69123203661888_2_alg».proof.Proof.Consts
import proofs.«123598_j69123203661888_2_alg».proof.Proof.KernelCarry2
import proofs.«123598_j69123203661888_2_alg».proof.Proof.StatsArrays
import Idealize.ShloMosaic.PureOps.Ideal.Laws
import Idealize.ShloMosaic.Lib.ValueIdx
import Idealize.ShloMosaic.Lib.ValueLayout

set_option maxRecDepth 16384

noncomputable section

namespace Cert.KernelIdeal.StatTerms

open Idealize.ShloMosaic Idealize.ShloMosaic.StableHlo Idealize.ShloMosaic.TcCoe Cert.KernelIdeal Cert.KernelIdeal.Gen
open scoped BigOperators

open Idealize.ShloMosaic.ValueIdx

/-! ## Small readings -/

/-- A host sum over every axis, started from the zero word, read at the one index of its rank-0 result, is the sum of
    all the entries. -/
theorem reduceAdd_all_zero {s : Shape} {axes : List (Fin s.rank)} (x : FVec Ideal s .f32)
    (h : s.ReducesTo axes ⟨0, ![]⟩) (hu : 0 < (⟨0, ![]⟩ : Shape).numel) (j : (⟨0, ![]⟩ : Shape).Idx) :
    Host.reduceAdd x (constant (F := Ideal) ⟨0, ![]⟩ .f32 0x00000000#32) h hu j = ∑ i : s.Idx, x i := by
  show Ideal.hostReduceAdd h x (Ideal.ofBits .f32 0x00000000#32) j = _
  rw [Ideal.hostReduceAdd_total h (fun b => b.elim0), Ideal.ofBits_zero_f32, zero_add]

/-- An `[a, b, 1, 1]` array cast to `[a, b]` reads, at `(i, j)`, the operand at `(i, j, 0, 0)`: the two trailing unit
    axes do not move the row-major position. -/
theorem shapeCast_ab11_ab_apply {α : Type} {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    omega)

/-- A channel's deviation from its two accumulated sums: `sqrt (max ((sq − s·s/n) / (n − 1)) 0)`. -/
def sd (sq s : EReal) : EReal :=
  Ideal.sqrt (max (Ideal.div (sq - Ideal.div (s * s) Cert.TermSpec.cN) Cert.TermSpec.cN1) (Ideal.ofBits .f32 0x00000000#32))

/-! ## The three tails over arrays of literal shapes -/

/-- The saturation tail: the total of an `[8, 1, 1, 1]` array, over a word. -/
theorem sat_point (A : FVec Ideal ⟨4, ![8, 1, 1, 1]⟩ .f32) (w : BitVec 32)
    (h : (⟨4, ![8, 1, 1, 1]⟩ : Shape).ReducesTo [0, 1, 2, 3] ⟨0, ![]⟩) (hu : 0 < (⟨0, ![]⟩ : Shape).numel) :
    Host.divf (Host.reduceAdd A (constant (F := Ideal) ⟨0, ![]⟩ .f32 0x00000000#32) h hu)
        (constant (F := Ideal) ⟨0, ![]⟩ .f32 w) ix0
      = Ideal.div (∑ b : Fin 8, A (ix4 b (0 : Fin 1) (0 : Fin 1) (0 : Fin 1))) (Ideal.ofBits .f32 w) := by
  show Ideal.div (Host.reduceAdd A (constant (F := Ideal) ⟨0, ![]⟩ .f32 0x00000000#32) h hu ix0) (Ideal.ofBits .f32 w) = _
  rw [reduceAdd_all_zero, sum_idx4]
  simp only [Fin.sum_univ_one]

/-- The intensity tail: over the `[8, 3]` reshape of a sum array `S`, the mean's squared distance from a half, totalled,
    over 24. -/
theorem int_point (S : FVec Ideal ⟨4, ![8, 3, 1, 1]⟩ .f32)
    (hc : (⟨4, ![8, 3, 1, 1]⟩ : Shape).ShapeCasts ⟨2, ![8, 3]⟩)
    (hb : (⟨0, ![]⟩ : Shape).BroadcastsInDim ⟨2, ![8, 3]⟩ (![] : Fin 0 → Fin 2))
    (h : (⟨2, ![8, 3]⟩ : Shape).ReducesTo [0, 1] ⟨0, ![]⟩) (hu : 0 < (⟨0, ![]⟩ : Shape).numel) :
    Host.divf (Host.reduceAdd
        (mulf
          (subf (Host.divf (fun i => shapeCast ⟨2, ![8, 3]⟩ S hc i)
              (broadcastInDim ⟨2, ![8, 3]⟩ ![] hb (constant (F := Ideal) ⟨0, ![]⟩ .f32 0x49800000#32)))
            (broadcastInDim ⟨2, ![8, 3]⟩ ![] hb (constant (F := Ideal) ⟨0, ![]⟩ .f32 0x3F000000#32)))
          (subf (Host.divf (fun i => shapeCast ⟨2, ![8, 3]⟩ S hc i)
              (broadcastInDim ⟨2, ![8, 3]⟩ ![] hb (constant (F := Ideal) ⟨0, ![]⟩ .f32 0x49800000#32)))
            (broadcastInDim ⟨2, ![8, 3]⟩ ![] hb (constant (F := Ideal) ⟨0, ![]⟩ .f32 0x3F000000#32))))
        (constant (F := Ideal) ⟨0, ![]⟩ .f32 0x00000000#32) h hu)
        (constant (F := Ideal) ⟨0, ![]⟩ .f32 0x41C00000#32) ix0
      = Ideal.div (∑ b : Fin 8, ∑ ch : Fin 3,
          (Ideal.div (S (ix4 b ch (0 : Fin 1) (0 : Fin 1))) Cert.TermSpec.cN - Cert.TermSpec.cHalf)
            * (Ideal.div (S (ix4 b ch (0 : Fin 1) (0 : Fin 1))) Cert.TermSpec.cN - Cert.TermSpec.cHalf)) Cert.TermSpec.c24 := by
  show Ideal.div (Host.reduceAdd _ (constant (F := Ideal) ⟨0, ![]⟩ .f32 0x00000000#32) h hu ix0) (Ideal.ofBits .f32 0x41C00000#32) = _
  rw [reduceAdd_all_zero, sum_idx2]
  refine congrArg (fun t => Ideal.div t _) (Finset.sum_congr rfl fun b _ => Finset.sum_congr rfl fun ch _ => ?_)
  show (Ideal.div (shapeCast ⟨2, ![8, 3]⟩ S hc (ix2 b ch)) (Ideal.ofBits .f32 0x49800000#32) - Ideal.ofBits .f32 0x3F000000#32)
      * (Ideal.div (shapeCast ⟨2, ![8, 3]⟩ S hc (ix2 b ch)) (Ideal.ofBits .f32 0x49800000#32) - Ideal.ofBits .f32 0x3F000000#32) = _
  rw [shapeCast_ab11_ab_apply] <;> rfl

/-- The deviation array the stretch computes from a sum array `S` and a sum-of-squares array `Q`. -/
def devArr (hc : (⟨4, ![8, 3, 1, 1]⟩ : Shape).ShapeCasts ⟨2, ![8, 3]⟩)
    (hb : (⟨0, ![]⟩ : Shape).BroadcastsInDim ⟨2, ![8, 3]⟩ (![] : Fin 0 → Fin 2))
    (S Q : FVec Ideal ⟨4, ![8, 3, 1, 1]⟩ .f32) : FVec Ideal ⟨2, ![8, 3]⟩ .f32 :=
  Host.sqrt (maximumf
    (Host.divf
      (subf (fun i => shapeCast ⟨2, ![8, 3]⟩ Q hc i)
        (Host.divf (mulf (fun i => shapeCast ⟨2, ![8, 3]⟩ S hc i) (fun i => shapeCast ⟨2, ![8, 3]⟩ S hc i))
          (broadcastInDim ⟨2, ![8, 3]⟩ ![] hb (constant (F := Ideal) ⟨0, ![]⟩ .f32 0x49800000#32))))
      (broadcastInDim ⟨2, ![8, 3]⟩ ![] hb (constant (F := Ideal) ⟨0, ![]⟩ .f32 0x497FFFF0#32)))
    (broadcastInDim ⟨2, ![8, 3]⟩ ![] hb (constant (F := Ideal) ⟨0, ![]⟩ .f32 0x00000000#32)))

theorem devArr_apply (hc : (⟨4, ![8, 3, 1, 1]⟩ : Shape).ShapeCasts ⟨2, ![8, 3]⟩)
    (hb : (⟨0, ![]⟩ : Shape).BroadcastsInDim ⟨2, ![8, 3]⟩ (![] : Fin 0 → Fin 2))
    (S Q : FVec Ideal ⟨4, ![8, 3, 1, 1]⟩ .f32) (b : Fin 8) (ch : Fin 3) :
    devArr hc hb S Q (ix2 b ch) = sd (Q (ix4 b ch (0 : Fin 1) (0 : Fin 1))) (S (ix4 b ch (0 : Fin 1) (0 : Fin 1))) := by
  show Ideal.sqrt (max (Ideal.div (shapeCast ⟨2, ![8, 3]⟩ Q hc (ix2 b ch)
        - Ideal.div (shapeCast ⟨2, ![8, 3]⟩ S hc (ix2 b ch) * shapeCast ⟨2, ![8, 3]⟩ S hc (ix2 b ch)) (Ideal.ofBits .f32 0x49800000#32))
      (Ideal.ofBits .f32 0x497FFFF0#32)) (Ideal.ofBits .f32 0x00000000#32)) = _
  rw [shapeCast_ab11_ab_apply, shapeCast_ab11_ab_apply] <;> rfl

/-- The spatial-variation tail: the squared difference of two deviation arrays, totalled, over 24. -/
theorem spat_point (S Q S' Q' : FVec Ideal ⟨4, ![8, 3, 1, 1]⟩ .f32)
    (hc : (⟨4, ![8, 3, 1, 1]⟩ : Shape).ShapeCasts ⟨2, ![8, 3]⟩)
    (hb : (⟨0, ![]⟩ : Shape).BroadcastsInDim ⟨2, ![8, 3]⟩ (![] : Fin 0 → Fin 2))
    (h : (⟨2, ![8, 3]⟩ : Shape).ReducesTo [0, 1] ⟨0, ![]⟩) (hu : 0 < (⟨0, ![]⟩ : Shape).numel) :
    Host.divf (Host.reduceAdd
        (mulf (subf (devArr hc hb S Q) (devArr hc hb S' Q')) (subf (devArr hc hb S Q) (devArr hc hb S' Q')))
        (constant (F := Ideal) ⟨0, ![]⟩ .f32 0x00000000#32) h hu)
        (constant (F := Ideal) ⟨0, ![]⟩ .f32 0x41C00000#32) ix0
      = Ideal.div (∑ b : Fin 8, ∑ ch : Fin 3,
          (sd (Q (ix4 b ch (0 : Fin 1) (0 : Fin 1))) (S (ix4 b ch (0 : Fin 1) (0 : Fin 1)))
              - sd (Q' (ix4 b ch (0 : Fin 1) (0 : Fin 1))) (S' (ix4 b ch (0 : Fin 1) (0 : Fin 1))))
            * (sd (Q (ix4 b ch (0 : Fin 1) (0 : Fin 1))) (S (ix4 b ch (0 : Fin 1) (0 : Fin 1)))
              - sd (Q' (ix4 b ch (0 : Fin 1) (0 : Fin 1))) (S' (ix4 b ch (0 : Fin 1) (0 : Fin 1))))) Cert.TermSpec.c24 := by
  show Ideal.div (Host.reduceAdd _ (constant (F := Ideal) ⟨0, ![]⟩ .f32 0x00000000#32) h hu ix0) (Ideal.ofBits .f32 0x41C00000#32) = _
  rw [reduceAdd_all_zero, sum_idx2]
  refine congrArg (fun t => Ideal.div t _) (Finset.sum_congr rfl fun b _ => Finset.sum_congr rfl fun ch _ => ?_)
  show (devArr hc hb S Q (ix2 b ch) - devArr hc hb S' Q' (ix2 b ch)) * (devArr hc hb S Q (ix2 b ch) - devArr hc hb S' Q' (ix2 b ch)) = _
  rw [devArr_apply, devArr_apply]

/-! ## Part 1: the three results over the accumulators' entries -/

/-- The saturation term: the total of the eight saturation sums, over the pixel count of a batch of images. -/
theorem sat_tail (V : Valuation τ sig (Elt Ideal)) (s6 : Fin 8 → EReal)
    (h6 : ∀ b, V (Proc.devRef .tc main_v0_6) (ValueIdx.ix4 b (0 : Fin 1) (0 : Fin 1) (0 : Fin 1)) = s6 b) :
    after (hostOps3_4 (F := Ideal)) V (Proc.devRef .tc main_v222) ValueIdx.ix0 = Ideal.div (∑ b, s6 b) Cert.TermSpec.cAll := by
  simp only [hostOps3_4]
  after_results_simp
  refine (sat_point (V (Proc.devRef .tc main_v0_6)) _ _ _).trans ?_
  simp only [h6]
  rfl

/-- The intensity term: the mean over the 24 (batch, channel) pairs of (sum / n − 1/2)². -/
theorem int_tail (V : Valuation τ sig (Elt Ideal)) (s2 : Fin 8 → Fin 3 → EReal)
    (h2 : ∀ b ch, V (Proc.devRef .tc main_v0_2) (ValueIdx.ix4 b ch (0 : Fin 1) (0 : Fin 1)) = s2 b ch) :
    after (hostOps3_4 (F := Ideal)) V (Proc.devRef .tc main_v216) ValueIdx.ix0
      = Ideal.div (∑ b, ∑ ch, (Ideal.div (s2 b ch) Cert.TermSpec.cN - Cert.TermSpec.cHalf) * (Ideal.div (s2 b ch) Cert.TermSpec.cN - Cert.TermSpec.cHalf)) Cert.TermSpec.c24 := by
  simp only [hostOps3_4]
  after_results_simp
  refine (int_point (V (Proc.devRef .tc main_v0_2)) _ _ _ _).trans ?_
  simp only [h2]

/-- The spatial-variation term: the mean over the 24 pairs of the squared difference of the two deviations. -/
theorem spat_tail (V : Valuation τ sig (Elt Ideal)) (s2 s3 s4 s5 : Fin 8 → Fin 3 → EReal)
    (h2 : ∀ b ch, V (Proc.devRef .tc main_v0_2) (ValueIdx.ix4 b ch (0 : Fin 1) (0 : Fin 1)) = s2 b ch)
    (h3 : ∀ b ch, V (Proc.devRef .tc main_v0_3) (ValueIdx.ix4 b ch (0 : Fin 1) (0 : Fin 1)) = s3 b ch)
    (h4 : ∀ b ch, V (Proc.devRef .tc main_v0_4) (ValueIdx.ix4 b ch (0 : Fin 1) (0 : Fin 1)) = s4 b ch)
    (h5 : ∀ b ch, V (Proc.devRef .tc main_v0_5) (ValueIdx.ix4 b ch (0 : Fin 1) (0 : Fin 1)) = s5 b ch) :
    after (hostOps3_4 (F := Ideal)) V (Proc.devRef .tc main_v220) ValueIdx.ix0
      = Ideal.div (∑ b, ∑ ch, (sd (s3 b ch) (s2 b ch) - sd (s5 b ch) (s4 b ch)) * (sd (s3 b ch) (s2 b ch) - sd (s5 b ch) (s4 b ch))) Cert.TermSpec.c24 := by
  simp only [hostOps3_4]
  after_results_simp
  refine (spat_point (V (Proc.devRef .tc main_v0_2)) (V (Proc.devRef .tc main_v0_3)) (V (Proc.devRef .tc main_v0_4))
    (V (Proc.devRef .tc main_v0_5)) _ _ _ _).trans ?_
  simp only [h2, h3, h4, h5]

/-! ## Part 2: the accumulators' contents put in -/

open Cert.TermSpec

/-- For a finite image the two forms of a channel's deviation agree: the one from the two accumulated sums, floored
    at zero, and the centred one. A channel has 1024 · 1024 = 1048576 ≥ 2 pixels. -/
theorem stdOfSums_eq_stdOf (A : Img) (hA : ∀ i, ∃ r : ℝ, A i = (r : EReal)) (b : Fin 8) (ch : Fin 3) :
    stdOfSums A b ch = stdOf A b ch := by
  have h := Cert.VarMath.std_forms (a := 1024) (b := 1024) (fun y x => A (ix4 b ch y x)) (fun y x => hA _)
    1048576 (by norm_num) (by norm_num)
  have e : ((1048576 - 1 : ℝ) : EReal) = ((1048575 : ℝ) : EReal) := by norm_num
  rw [e] at h
  unfold stdOfSums stdOf meanOf total totalSq cN cN1
  rw [Cert.Consts.ofBits_n, Cert.Consts.ofBits_n1, Ideal.ofBits_zero_f32]
  exact h

/-- The deviation of Part 1 at an image's two sums is the image's deviation from its sums. -/
theorem sd_eq_stdOfSums (A : Img) (b : Fin 8) (ch : Fin 3) : sd (totalSq A b ch) (total A b ch) = stdOfSums A b ch := rfl

/-- The saturation term, the saturation accumulator holding each batch's total of squared excursions. -/
theorem sat_of_acc (V : Valuation τ sig (Elt Ideal)) (X : Img)
    (h6 : ∀ b, V (Proc.devRef .tc main_v0_6) (ix4 b (0 : Fin 1) (0 : Fin 1) (0 : Fin 1))
      = ∑ ch : Fin 3, ∑ y : Fin 1024, ∑ x : Fin 1024, satf (X (ix4 b ch y x))) :
    after (hostOps3_4 (F := Ideal)) V (Proc.devRef .tc main_v222) ix0 = satTerm X :=
  sat_tail V _ h6

/-- The intensity term, the sum accumulator holding each channel's total. -/
theorem int_of_acc (V : Valuation τ sig (Elt Ideal)) (X : Img)
    (h2 : ∀ b ch, V (Proc.devRef .tc main_v0_2) (ix4 b ch (0 : Fin 1) (0 : Fin 1)) = total X b ch) :
    after (hostOps3_4 (F := Ideal)) V (Proc.devRef .tc main_v216) ix0 = intTerm X :=
  int_tail V _ h2

/-- The spatial-variation term, the four accumulators holding the two images' channel totals and totals of squares,
    for finite images. -/
theorem spat_of_acc (V : Valuation τ sig (Elt Ideal)) (D X : Img)
    (hD : ∀ i, ∃ r : ℝ, D i = (r : EReal)) (hX : ∀ i, ∃ r : ℝ, X i = (r : EReal))
    (h2 : ∀ b ch, V (Proc.devRef .tc main_v0_2) (ix4 b ch (0 : Fin 1) (0 : Fin 1)) = total X b ch)
    (h3 : ∀ b ch, V (Proc.devRef .tc main_v0_3) (ix4 b ch (0 : Fin 1) (0 : Fin 1)) = totalSq X b ch)
    (h4 : ∀ b ch, V (Proc.devRef .tc main_v0_4) (ix4 b ch (0 : Fin 1) (0 : Fin 1)) = total D b ch)
    (h5 : ∀ b ch, V (Proc.devRef .tc main_v0_5) (ix4 b ch (0 : Fin 1) (0 : Fin 1)) = totalSq D b ch) :
    after (hostOps3_4 (F := Ideal)) V (Proc.devRef .tc main_v220) ix0 = spatTerm D X := by
  rw [spat_tail V _ _ _ _ h2 h3 h4 h5]
  unfold spatTerm spatTermOf
  refine congrArg (fun t => Ideal.div t c24) (Finset.sum_congr rfl fun b _ => Finset.sum_congr rfl fun ch _ => ?_)
  rw [sd_eq_stdOfSums, sd_eq_stdOfSums, stdOfSums_eq_stdOf X hX, stdOfSums_eq_stdOf D hD]

/-! ## The kernel program's three terms

    The last host stretch runs from the contents `W17`; the five accumulators reach it unchanged from the first
    kernel's exit. The first kernel's window 0 is the program's second argument and its window 1 the first. -/

section Kernel

variable (m : (ℓ : Loc nD τ sig) → Buf (Elt Ideal) ℓ) (ρ : Dev nD → PrngReg) (c : Dev nD)

/-- The first kernel's window 0 reads the program's second argument … -/
theorem win0_eq : V0 m ρ c (Pipeline.arrRef spec0 0) = m ((c : Thread nD τ).loc main_arg1) := rfl
/-- … and its window 1 the first. -/
theorem win1_eq : V0 m ρ c (Pipeline.arrRef spec0 1) = m ((c : Thread nD τ).loc main_arg0) := rfl

/-- The saturation term, given what the first kernel leaves in its saturation accumulator. -/
theorem sat_ker_of
    (hs : ∀ b : Fin 8, (dat0 (F := Ideal) (V0 m ρ) c).arrAt 8 cfg0.N (ix4 b (0 : Fin 1) (0 : Fin 1) (0 : Fin 1))
      = ∑ ch : Fin 3, ∑ y : Fin 1024, ∑ x : Fin 1024, satf ((m ((c : Thread nD τ).loc main_arg1) : Img) (ix4 b ch y x))) :
    W18 m ρ c (Proc.devRef .tc main_v222) ix0 = satTerm (m ((c : Thread nD τ).loc main_arg1) : Img) :=
  sat_of_acc (W17 m ρ c) _ fun b => (congrFun (Cert.Bridge.KernelCarry.W17_v0_6 m ρ c) _).trans (hs b)

/-- The intensity term, given what the first kernel leaves in its first sum accumulator. -/
theorem int_ker_of
    (hs : ∀ (b : Fin 8) (ch : Fin 3), (dat0 (F := Ideal) (V0 m ρ) c).arrAt 4 cfg0.N (ix4 b ch (0 : Fin 1) (0 : Fin 1))
      = total (m ((c : Thread nD τ).loc main_arg1) : Img) b ch) :
    W18 m ρ c (Proc.devRef .tc main_v216) ix0 = intTerm (m ((c : Thread nD τ).loc main_arg1) : Img) :=
  int_of_acc (W17 m ρ c) _ fun b ch => (congrFun (Cert.Bridge.KernelCarry.W17_v0_2 m ρ c) _).trans (hs b ch)

/-- The spatial-variation term, given what the first kernel leaves in its four sum accumulators, for finite inputs. -/
theorem spat_ker_of
    (hD : ∀ i, ∃ r : ℝ, (m ((c : Thread nD τ).loc main_arg0) : Img) i = (r : EReal))
    (hX : ∀ i, ∃ r : ℝ, (m ((c : Thread nD τ).loc main_arg1) : Img) i = (r : EReal))
    (hs2 : ∀ (b : Fin 8) (ch : Fin 3), (dat0 (F := Ideal) (V0 m ρ) c).arrAt 4 cfg0.N (ix4 b ch (0 : Fin 1) (0 : Fin 1))
      = total (m ((c : Thread nD τ).loc main_arg1) : Img) b ch)
    (hs3 : ∀ (b : Fin 8) (ch : Fin 3), (dat0 (F := Ideal) (V0 m ρ) c).arrAt 5 cfg0.N (ix4 b ch (0 : Fin 1) (0 : Fin 1))
      = totalSq (m ((c : Thread nD τ).loc main_arg1) : Img) b ch)
    (hs4 : ∀ (b : Fin 8) (ch : Fin 3), (dat0 (F := Ideal) (V0 m ρ) c).arrAt 6 cfg0.N (ix4 b ch (0 : Fin 1) (0 : Fin 1))
      = total (m ((c : Thread nD τ).loc main_arg0) : Img) b ch)
    (hs5 : ∀ (b : Fin 8) (ch : Fin 3), (dat0 (F := Ideal) (V0 m ρ) c).arrAt 7 cfg0.N (ix4 b ch (0 : Fin 1) (0 : Fin 1))
      = totalSq (m ((c : Thread nD τ).loc main_arg0) : Img) b ch) :
    W18 m ρ c (Proc.devRef .tc main_v220) ix0
      = spatTerm (m ((c : Thread nD τ).loc main_arg0) : Img) (m ((c : Thread nD τ).loc main_arg1) : Img) :=
  spat_of_acc (W17 m ρ c) _ _ hD hX
    (fun b ch => (congrFun (Cert.Bridge.KernelCarry.W17_v0_2 m ρ c) _).trans (hs2 b ch))
    (fun b ch => (congrFun (Cert.Bridge.KernelCarry.W17_v0_3 m ρ c) _).trans (hs3 b ch))
    (fun b ch => (congrFun (Cert.Bridge.KernelCarry.W17_v0_4 m ρ c) _).trans (hs4 b ch))
    (fun b ch => (congrFun (Cert.Bridge.KernelCarry.W17_v0_5 m ρ c) _).trans (hs5 b ch))

end Kernel

/-! ## The three terms of the kernel program, from the launch memory

    What the first kernel leaves in its five accumulators — each channel's pixel total and total of squares for both
    inputs, each batch's total of squared excursions — put into the readings above. -/

section KernelTerms

variable (m : (ℓ : Loc nD τ sig) → Buf (Elt Ideal) ℓ) (ρ : Dev nD → PrngReg) (c : Dev nD)

/-- The kernel program's saturation term is the loss's, of the second argument. -/
theorem sat_ker :
    W18 m ρ c (Proc.devRef .tc main_v222) ix0 = satTerm (m ((c : Thread nD τ).loc main_arg1) : Img) :=
  sat_ker_of m ρ c fun b => Cert.KernelIdeal.StatsArrays.sat_apply (V0 m ρ) c b

/-- The kernel program's intensity term is the loss's, of the second argument. -/
theorem int_ker :
    W18 m ρ c (Proc.devRef .tc main_v216) ix0 = intTerm (m ((c : Thread nD τ).loc main_arg1) : Img) :=
  int_ker_of m ρ c fun b ch => Cert.KernelIdeal.StatsArrays.sumI_apply (V0 m ρ) c b ch

/-- The kernel program's spatial-variation term is the loss's, for finite arguments. -/
theorem spat_ker
    (hD : ∀ i, ∃ r : ℝ, (m ((c : Thread nD τ).loc main_arg0) : Img) i = (r : EReal))
    (hX : ∀ i, ∃ r : ℝ, (m ((c : Thread nD τ).loc main_arg1) : Img) i = (r : EReal)) :
    W18 m ρ c (Proc.devRef .tc main_v220) ix0
      = spatTerm (m ((c : Thread nD τ).loc main_arg0) : Img) (m ((c : Thread nD τ).loc main_arg1) : Img) :=
  spat_ker_of m ρ c hD hX
    (fun b ch => Cert.KernelIdeal.StatsArrays.sumI_apply (V0 m ρ) c b ch)
    (fun b ch => Cert.KernelIdeal.StatsArrays.sumsqI_apply (V0 m ρ) c b ch)
    (fun b ch => Cert.KernelIdeal.StatsArrays.sumD_apply (V0 m ρ) c b ch)
    (fun b ch => Cert.KernelIdeal.StatsArrays.sumsqD_apply (V0 m ρ) c b ch)

end KernelTerms

end Cert.KernelIdeal.StatTerms

end
-- ==== Proof.TermSobel.lean ====
/-
  The horizontal-difference term is the same number in both programs.

  Both programs take the first channel of the first image of each batch, pad its columns by reflection (the second
  column in front, the last-but-one column behind), form four times the left neighbour minus four times the right
  neighbour, subtract the two batches' results, take absolute values, sum over the whole matrix from zero and divide
  by the entry count.  They do it by the same host operations in the same order, so no arithmetic is needed: the
  computation is written once, over matrices of literal extents, and each program's buffers are read, one stretch of
  operations at a time, as that computation applied to the program's own argument arrays.  A buffer, once complete,
  is written by no later operation, so it keeps its contents through the remaining stretches and across the kernel
  regions that do not have it among their arrays.  The two programs' argument arrays hold the same contents, so the
  two terms are equal.  This holds at every float instance: nothing of the arithmetic is used.
-/
import proofs.«123598_j69123203661888_2_alg».proof.Proof.Gen.KernelIdeal.Frame
import proofs.«123598_j69123203661888_2_alg».proof.Proof.RefChainP
import proofs.«123598_j69123203661888_2_alg».proof.Proof.KernelCarry
import proofs.«123598_j69123203661888_2_alg».proof.Proof.Gen.ReferenceIdeal

set_option maxRecDepth 16384

noncomputable section

namespace Cert.Bridge.Sobel

open Idealize.ShloMosaic Idealize.ShloMosaic.TcCoe Idealize.SL.Sem Idealize.ShloMosaic.StableHlo

variable {F : FTy → Type} [FloatOps F]

/-! ## The shared computation, over literal shapes -/

/-- A column and a 1024 × 1024 matrix join along the columns into 1025 columns. -/
theorem cat_left : Shape.Concatenates [⟨2, ![1024, 1]⟩, ⟨2, ![1024, 1024]⟩] ⟨2, ![1024, 1025]⟩ 1 := by decide
/-- A 1024 × 1025 matrix and a column join along the columns into 1026 columns. -/
theorem cat_right : Shape.Concatenates [⟨2, ![1024, 1025]⟩, ⟨2, ![1024, 1]⟩] ⟨2, ![1024, 1026]⟩ 1 := by decide
/-- Summing a matrix over both axes leaves a scalar. -/
theorem red_all : (⟨2, ![1024, 1024]⟩ : Shape).ReducesTo [0, 1] ⟨0, ![]⟩ := by decide
/-- The scalar shape has an element. -/
theorem scalar_pos : 0 < (⟨0, ![]⟩ : Shape).numel := by decide

/-- The first channel of the first image of a batch, as a 1024 × 1024 matrix. -/
def first (A : FVec F ⟨4, ![8, 3, 1024, 1024]⟩ .f32) : FVec F ⟨2, ![1024, 1024]⟩ .f32 :=
  fun i => shapeCast ⟨2, ![1024, 1024]⟩
    (extractStridedSlice ⟨4, ![1, 1, 1024, 1024]⟩ ![0, 0, 0, 0] A (by decide)) (by decide) i

/-- A matrix with its second column put in front of it: the left half of the reflecting pad of the columns. -/
def padLeft (x : FVec F ⟨2, ![1024, 1024]⟩ .f32) : FVec F ⟨2, ![1024, 1025]⟩ .f32 :=
  concatenate ⟨2, ![1024, 1025]⟩ 1
    [⟨⟨2, ![1024, 1]⟩, Host.reverse [1] (extractStridedSlice ⟨2, ![1024, 1]⟩ ![0, 1] x (by decide))⟩,
     ⟨⟨2, ![1024, 1024]⟩, x⟩] cat_left

/-- The reflecting pad of the columns: the second column in front, the last-but-one column behind. -/
def padCols (x : FVec F ⟨2, ![1024, 1024]⟩ .f32) : FVec F ⟨2, ![1024, 1026]⟩ .f32 :=
  concatenate ⟨2, ![1024, 1026]⟩ 1
    [⟨⟨2, ![1024, 1025]⟩, padLeft x⟩,
     ⟨⟨2, ![1024, 1]⟩, Host.reverse [1] (extractStridedSlice ⟨2, ![1024, 1]⟩ ![0, 1023] (padLeft x) (by decide))⟩]
    cat_right

/-- Four times the left neighbour minus four times the right neighbour, on a padded matrix. -/
def diff4 (p : FVec F ⟨2, ![1024, 1026]⟩ .f32) : FVec F ⟨2, ![1024, 1024]⟩ .f32 :=
  subf
    (mulf (broadcastInDim ⟨2, ![1024, 1024]⟩ ![] (by decide) (constant (F := F) ⟨0, ![]⟩ .f32 0x40800000#32))
      (extractStridedSlice ⟨2, ![1024, 1024]⟩ ![0, 0] p (by decide)))
    (mulf (broadcastInDim ⟨2, ![1024, 1024]⟩ ![] (by decide) (constant (F := F) ⟨0, ![]⟩ .f32 0x40800000#32))
      (extractStridedSlice ⟨2, ![1024, 1024]⟩ ![0, 2] p (by decide)))

/-- The mean absolute difference of two matrices: subtract, take absolute values, sum everything from zero, divide
    by the entry count (as the float word for 2^20). -/
def meanAbs (a b : FVec F ⟨2, ![1024, 1024]⟩ .f32) : FVec F ⟨0, ![]⟩ .f32 :=
  Host.divf
    (Host.reduceAdd (Host.absf (subf a b)) (constant (F := F) ⟨0, ![]⟩ .f32 0x00000000#32) red_all scalar_pos)
    (constant (F := F) ⟨0, ![]⟩ .f32 0x49800000#32)

/-- The horizontal-difference term of two image batches. -/
def sobelTerm (X D : FVec F ⟨4, ![8, 3, 1024, 1024]⟩ .f32) : FVec F ⟨0, ![]⟩ .f32 :=
  meanAbs (diff4 (padCols (first X))) (diff4 (padCols (first D)))

/-! ## The reference's stages 5 to 9 read as the shared computation -/

section Ref

open Cert.ReferenceIdeal Cert.ReferenceIdeal.StagesP Cert.ReferenceIdeal.ChainP

theorem ref_v25 (U : Valuation τ sig (Elt F)) :
    after (StagesP.stage5 (F := F)) U (Proc.devRef .tc main_v25) = first (U (Proc.devRef .tc main_arg1)) := by
  simp only [StagesP.stage5]
  after_results_simp
  rfl

theorem ref_v27 (U : Valuation τ sig (Elt F)) :
    after (StagesP.stage5 (F := F)) U (Proc.devRef .tc main_v27) = first (U (Proc.devRef .tc main_arg0)) := by
  simp only [StagesP.stage5]
  after_results_simp
  rfl

theorem ref_v28 (U : Valuation τ sig (Elt F)) :
    after (StagesP.stage6 (F := F)) U (Proc.devRef .tc main_v28) = padCols (U (Proc.devRef .tc main_v25)) := by
  simp only [StagesP.stage6]
  after_results_simp
  rfl

theorem ref_v35 (U : Valuation τ sig (Elt F)) :
    after (StagesP.stage7 (F := F)) U (Proc.devRef .tc main_v35) = diff4 (U (Proc.devRef .tc main_v28)) := by
  simp only [StagesP.stage7]
  after_results_simp
  rfl

theorem ref_v36 (U : Valuation τ sig (Elt F)) :
    after (StagesP.stage8 (F := F)) U (Proc.devRef .tc main_v36) = padCols (U (Proc.devRef .tc main_v27)) := by
  simp only [StagesP.stage8]
  after_results_simp
  rfl

theorem ref_v47 (U : Valuation τ sig (Elt F)) :
    after (StagesP.stage9 (F := F)) U (Proc.devRef .tc main_v47)
      = meanAbs (U (Proc.devRef .tc main_v35)) (diff4 (U (Proc.devRef .tc main_v36))) := by
  simp only [StagesP.stage9]
  after_results_simp
  rfl

end Ref

section RefChain

open Cert.ReferenceIdeal Cert.ReferenceIdeal.StagesP Cert.ReferenceIdeal.ChainP

/-- Stage 8 does not write the first difference image. -/
theorem ref_keep35 (U : Valuation τ sig (Elt F)) :
    after (StagesP.stage8 (F := F)) U (Proc.devRef .tc main_v35) = U (Proc.devRef .tc main_v35) := by
  simp only [StagesP.stage8]
  after_results_simp

/-- Stages 6 and 7 do not write the second matrix. -/
theorem ref_keep27 (U : Valuation τ sig (Elt F)) :
    after (StagesP.stage7 (F := F)) (after (StagesP.stage6 (F := F)) U) (Proc.devRef .tc main_v27)
      = U (Proc.devRef .tc main_v27) := by
  simp only [StagesP.stage6, StagesP.stage7]
  after_results_simp

/-- Stages 0 to 4 do not write the first argument. -/
theorem ref_keep_arg0 (V : Valuation τ sig (Elt F)) :
    P5 V (Proc.devRef .tc main_arg0) = V (Proc.devRef .tc main_arg0) := by
  simp only [P5, P4, P3, P2, P1, StagesP.stage0, StagesP.stage1, StagesP.stage2, StagesP.stage3, StagesP.stage4]
  after_results_simp

/-- Stages 0 to 4 do not write the second argument. -/
theorem ref_keep_arg1 (V : Valuation τ sig (Elt F)) :
    P5 V (Proc.devRef .tc main_arg1) = V (Proc.devRef .tc main_arg1) := by
  simp only [P5, P4, P3, P2, P1, StagesP.stage0, StagesP.stage1, StagesP.stage2, StagesP.stage3, StagesP.stage4]
  after_results_simp

set_option maxHeartbeats 8000000 in
/-- No stage after the tenth writes the term's buffer. -/
theorem ref_carry47 (V : Valuation τ sig (Elt F)) :
    P28 V (Proc.devRef .tc main_v47) = P10 V (Proc.devRef .tc main_v47) := by
  simp only [P28, P27, P26, P25, P24, P23, P22, P21, P20, P19, P18, P17, P16, P15, P14, P13, P12, P11, StagesP.stage10, StagesP.stage11, StagesP.stage12, StagesP.stage13, StagesP.stage14, StagesP.stage15, StagesP.stage16, StagesP.stage17, StagesP.stage18, StagesP.stage19, StagesP.stage20, StagesP.stage21, StagesP.stage22, StagesP.stage23, StagesP.stage24, StagesP.stage25, StagesP.stage26, StagesP.stage27]
  after_results_simp

/-- The reference's term buffer after the first twenty-eight stages holds the shared computation on its arguments. -/
theorem ref_side (V' : Valuation τ sig (Elt F)) :
    P28 V' (Proc.devRef .tc main_v47)
      = sobelTerm (V' (Proc.devRef .tc main_arg1)) (V' (Proc.devRef .tc main_arg0)) := by
  have e25 : P6 V' (Proc.devRef .tc main_v25) = first (V' (Proc.devRef .tc main_arg1)) :=
    (ref_v25 (P5 V')).trans (congrArg first (ref_keep_arg1 V'))
  have e27 : P6 V' (Proc.devRef .tc main_v27) = first (V' (Proc.devRef .tc main_arg0)) :=
    (ref_v27 (P5 V')).trans (congrArg first (ref_keep_arg0 V'))
  have e35 : P9 V' (Proc.devRef .tc main_v35) = diff4 (padCols (first (V' (Proc.devRef .tc main_arg1)))) :=
    (ref_keep35 (P8 V')).trans ((ref_v35 (P7 V')).trans (congrArg diff4 ((ref_v28 (P6 V')).trans (congrArg padCols e25))))
  have e36 : P9 V' (Proc.devRef .tc main_v36) = padCols (first (V' (Proc.devRef .tc main_arg0))) :=
    (ref_v36 (P8 V')).trans (congrArg padCols ((ref_keep27 (P6 V')).trans e27))
  exact (ref_carry47 V').trans ((ref_v47 (P9 V')).trans (congrArg₂ meanAbs e35 (congrArg diff4 e36)))

end RefChain

/-! ## The kernel program's tail read as the shared computation -/

section Ker

open Cert.KernelIdeal Cert.KernelIdeal.Gen

theorem ker_in10 (V : Valuation τ sig (Elt F)) :
    after (hostOps2 (F := F)) V (Proc.devRef .tc main_v10) = first (V (Proc.devRef .tc main_arg1)) := by
  simp only [hostOps2]
  after_results_simp
  rfl

theorem ker_in12 (V : Valuation τ sig (Elt F)) :
    after (hostOps2 (F := F)) V (Proc.devRef .tc main_v12) = first (V (Proc.devRef .tc main_arg0)) := by
  simp only [hostOps2]
  after_results_simp
  rfl

theorem ker_v168 (V : Valuation τ sig (Elt F)) :
    after (hostOps3_1 (F := F)) V (Proc.devRef .tc main_v168) = padCols (V (Proc.devRef .tc main_v10)) := by
  simp only [hostOps3_1, StableHlo.TRef.nullary, StableHlo.TRef.unary, StableHlo.TRef.binary, StableHlo.TRef.ternary, StableHlo.TRef.toBuf, StableHlo.TRef.ofBuf, cast_eq]
  after_results
  rfl

theorem ker_v175 (V : Valuation τ sig (Elt F)) :
    after (hostOps3_2 (F := F)) V (Proc.devRef .tc main_v175) = diff4 (V (Proc.devRef .tc main_v168)) := by
  simp only [hostOps3_2]
  after_results_simp
  rfl

theorem ker_v176 (V : Valuation τ sig (Elt F)) :
    after (hostOps3_3 (F := F)) V (Proc.devRef .tc main_v176) = padCols (V (Proc.devRef .tc main_v12)) := by
  simp only [hostOps3_3, StableHlo.TRef.nullary, StableHlo.TRef.unary, StableHlo.TRef.binary, StableHlo.TRef.ternary, StableHlo.TRef.toBuf, StableHlo.TRef.ofBuf, cast_eq]
  after_results
  rfl

set_option maxHeartbeats 4000000 in
theorem ker_v187 (V : Valuation τ sig (Elt F)) :
    after (hostOps3_4 (F := F)) V (Proc.devRef .tc main_v187)
      = meanAbs (V (Proc.devRef .tc main_v175)) (diff4 (V (Proc.devRef .tc main_v176))) := by
  simp only [hostOps3_4]
  after_results_simp
  rfl

/-- The second pad does not write the first difference image. -/
theorem ker_keep175 (V : Valuation τ sig (Elt F)) :
    after (hostOps3_3 (F := F)) V (Proc.devRef .tc main_v175) = V (Proc.devRef .tc main_v175) := by
  simp only [hostOps3_3, StableHlo.TRef.nullary, StableHlo.TRef.unary, StableHlo.TRef.binary, StableHlo.TRef.ternary, StableHlo.TRef.toBuf, StableHlo.TRef.ofBuf, cast_eq]
  after_results_simp

/-- The first stretch of the tail does not write the first matrix. -/
theorem ker_keep10_a (V : Valuation τ sig (Elt F)) :
    after (hostOps3 (F := F)) V (Proc.devRef .tc main_v10) = V (Proc.devRef .tc main_v10) := by
  simp only [hostOps3]
  after_results_simp

/-- The first three stretches of the tail do not write the second matrix. -/
theorem ker_keep12_a (V : Valuation τ sig (Elt F)) :
    (after (hostOps3_2 (F := F)) (after (hostOps3_1 (F := F)) (after (hostOps3 (F := F)) V))) (Proc.devRef .tc main_v12)
      = V (Proc.devRef .tc main_v12) := by
  simp only [hostOps3, hostOps3_1, hostOps3_2, StableHlo.TRef.nullary, StableHlo.TRef.unary, StableHlo.TRef.binary, StableHlo.TRef.ternary, StableHlo.TRef.toBuf, StableHlo.TRef.ofBuf, cast_eq]
  after_results_simp

set_option maxHeartbeats 8000000 in
/-- The stretches between the second and the third kernel region do not write the first matrix. -/
theorem ker_keep10_b (V : Valuation τ sig (Elt F)) :
    (after (hostOps2_8 (F := F)) (after (hostOps2_7 (F := F)) (after (hostOps2_6 (F := F)) (after (hostOps2_5 (F := F)) (after (hostOps2_4 (F := F)) (after (hostOps2_3 (F := F)) (after (hostOps2_2 (F := F)) (after (hostOps2_1 (F := F)) V)))))))) (Proc.devRef .tc main_v10)
      = V (Proc.devRef .tc main_v10) := by
  simp only [hostOps2_1, hostOps2_2, hostOps2_3, hostOps2_4, hostOps2_5, hostOps2_6, hostOps2_7, hostOps2_8, StableHlo.TRef.nullary, StableHlo.TRef.unary, StableHlo.TRef.binary, StableHlo.TRef.ternary, StableHlo.TRef.toBuf, StableHlo.TRef.ofBuf, cast_eq]
  after_results_simp

set_option maxHeartbeats 8000000 in
/-- Nor the second matrix. -/
theorem ker_keep12_b (V : Valuation τ sig (Elt F)) :
    (after (hostOps2_8 (F := F)) (after (hostOps2_7 (F := F)) (after (hostOps2_6 (F := F)) (after (hostOps2_5 (F := F)) (after (hostOps2_4 (F := F)) (after (hostOps2_3 (F := F)) (after (hostOps2_2 (F := F)) (after (hostOps2_1 (F := F)) V)))))))) (Proc.devRef .tc main_v12)
      = V (Proc.devRef .tc main_v12) := by
  simp only [hostOps2_1, hostOps2_2, hostOps2_3, hostOps2_4, hostOps2_5, hostOps2_6, hostOps2_7, hostOps2_8, StableHlo.TRef.nullary, StableHlo.TRef.unary, StableHlo.TRef.binary, StableHlo.TRef.ternary, StableHlo.TRef.toBuf, StableHlo.TRef.ofBuf, cast_eq]
  after_results_simp

variable (m : (ℓ : Loc nD τ sig) → Buf (Elt F) ℓ) (ρ : Dev nD → PrngReg)

/-- The kernel program's term buffer holds the shared computation on the launch memory's two argument arrays. -/
theorem ker_side (c : Dev nD) :
    after (hostOps3_4 (F := F)) (W17 m ρ c) (Proc.devRef .tc main_v187)
      = sobelTerm (m ((c : Thread nD τ).loc main_arg1)) (m ((c : Thread nD τ).loc main_arg0)) := by
  have e10 : W14 m ρ c (Proc.devRef .tc main_v10) = first (m ((c : Thread nD τ).loc main_arg1)) :=
    (ker_keep10_a (W13 m ρ c)).trans ((W13_of_ne m ρ c main_v10 (by decide)).trans
      ((ker_keep10_b (W4 m ρ c)).trans ((ker_in10 (W3 m ρ c)).trans
        (congrArg first (Cert.Bridge.KernelCarry.W3_arg1 m ρ c)))))
  have e12 : W16 m ρ c (Proc.devRef .tc main_v12) = first (m ((c : Thread nD τ).loc main_arg0)) :=
    (ker_keep12_a (W13 m ρ c)).trans ((W13_of_ne m ρ c main_v12 (by decide)).trans
      ((ker_keep12_b (W4 m ρ c)).trans ((ker_in12 (W3 m ρ c)).trans
        (congrArg first (Cert.Bridge.KernelCarry.W3_arg0 m ρ c)))))
  have e175 : W17 m ρ c (Proc.devRef .tc main_v175) = diff4 (padCols (first (m ((c : Thread nD τ).loc main_arg1)))) :=
    (ker_keep175 (W16 m ρ c)).trans ((ker_v175 (W15 m ρ c)).trans
      (congrArg diff4 ((ker_v168 (W14 m ρ c)).trans (congrArg padCols e10))))
  have e176 : W17 m ρ c (Proc.devRef .tc main_v176) = padCols (first (m ((c : Thread nD τ).loc main_arg0))) :=
    (ker_v176 (W16 m ρ c)).trans (congrArg padCols e12)
  exact (ker_v187 (W17 m ρ c)).trans (congrArg₂ meanAbs e175 (congrArg diff4 e176))

end Ker

/-! ## The two programs' terms are one -/

/-- From launch contents that agree on the two argument arrays, the reference's horizontal-difference buffer after
    its first twenty-eight stages is the kernel program's after its tail: both are the shared computation. -/
theorem sobel_eq (m : (ℓ : Loc Cert.KernelIdeal.nD Cert.KernelIdeal.τ Cert.KernelIdeal.sig) → Buf (Elt F) ℓ)
    (ρ : Dev Cert.KernelIdeal.nD → PrngReg) (c : Dev Cert.KernelIdeal.nD)
    (V' : Valuation Cert.ReferenceIdeal.τ Cert.ReferenceIdeal.sig (Elt F))
    (h0 : V' (Proc.devRef .tc Cert.ReferenceIdeal.main_arg0)
        = m ((c : Thread Cert.KernelIdeal.nD Cert.KernelIdeal.τ).loc Cert.KernelIdeal.main_arg0))
    (h1 : V' (Proc.devRef .tc Cert.ReferenceIdeal.main_arg1)
        = m ((c : Thread Cert.KernelIdeal.nD Cert.KernelIdeal.τ).loc Cert.KernelIdeal.main_arg1)) :
    Cert.ReferenceIdeal.ChainP.P28 V' (Proc.devRef .tc Cert.ReferenceIdeal.main_v47)
      = after (Cert.KernelIdeal.Gen.hostOps3_4 (F := F)) (Cert.KernelIdeal.Gen.W17 m ρ c)
          (Proc.devRef .tc Cert.KernelIdeal.main_v187) :=
  (ref_side V').trans ((congrArg₂ sobelTerm h1 h0).trans (ker_side m ρ c).symm)

end Cert.Bridge.Sobel

end
-- ==== Proof.LibJoinRank3.lean ====
/-
  Rank-3 arrays read at an index given by its three coordinates.

  A block cut out of an array at any offsets reads the array at the offsets plus the block's coordinates.  Two arrays
  joined along the second axis, or along the third, read the piece whose span along that axis holds the coordinate, at
  that coordinate less the first piece's extent when it is the second piece.  A reversal along axes of extent one moves
  nothing.  Any extents, any element type.
-/
import Idealize.ShloMosaic.Lib.ValueIdx
import Idealize.ShloMosaic.Lib.Pipeline.Value

namespace Idealize.ShloMosaic.ValueIdx

open Idealize.ShloMosaic

variable {α : Type}

/-! ## A block at any offsets -/

/-- A block of a rank-3 array cut at offsets `(o0, o1, o2)` reads, at `(a, j, e)`, the array at
    `(k0, k1, k2) = (o0 + a, o1 + j, o2 + e)`. -/
theorem slice3_apply {n0 n1 n2 m0 m1 m2 : Nat} (o0 o1 o2 : Nat) (X : (⟨3, ![n0, n1, n2]⟩ : Shape).Idx → α)
    (h : (⟨3, ![n0, n1, n2]⟩ : Shape).Slices ![o0, o1, o2] ⟨3, ![m0, m1, m2]⟩)
    (a : Fin m0) (j : Fin m1) (e : Fin m2) (k0 : Fin n0) (k1 : Fin n1) (k2 : Fin n2)
    (hk0 : k0.val = o0 + a.val) (hk1 : k1.val = o1 + j.val) (hk2 : k2.val = o2 + e.val) :
    extractStridedSlice ⟨3, ![m0, m1, m2]⟩ ![o0, o1, o2] X h (ix3 a j e) = X (ix3 k0 k1 k2) :=
  extractStridedSlice_apply _ _ _ _ _ (fun ax => by
    match ax with
    | ⟨0, _⟩ => exact hk0
    | ⟨1, _⟩ => exact hk1
    | ⟨2, _⟩ => exact hk2)

/-! ## Two arrays joined along the second axis -/

/-- Two rank-3 arrays joined along the second axis, read at a coordinate `p` inside the FIRST piece: that piece at
    `i = p`. -/
theorem concat2_axis1_fst {n a0 a1 N m : Nat} (x0 : (⟨3, ![n, a0, m]⟩ : Shape).Idx → α)
    (x1 : (⟨3, ![n, a1, m]⟩ : Shape).Idx → α)
    (h : Shape.Concatenates [⟨3, ![n, a0, m]⟩, ⟨3, ![n, a1, m]⟩] ⟨3, ![n, N, m]⟩ 1)
    (b : Fin n) (p : Fin N) (q : Fin m) (i : Fin a0) (hi : i.val = p.val) :
    concatenate ⟨3, ![n, N, m]⟩ 1 [⟨⟨3, ![n, a0, m]⟩, x0⟩, ⟨⟨3, ![n, a1, m]⟩, x1⟩] h (ix3 b p q) = x0 (ix3 b i q) :=
  concatenate_pair_apply_left (t := ⟨3, ![n, N, m]⟩) 1 x0 x1 h (ix3 b p q) rfl (ix3 b i q) (fun c => by
    match c with
    | ⟨0, _⟩ => rfl
    | ⟨1, _⟩ => exact hi
    | ⟨2, _⟩ => rfl)

/-- Two rank-3 arrays joined along the second axis, read at a coordinate `p` inside the SECOND piece: that piece at
    `i`, `a0 + i = p`. -/
theorem concat2_axis1_snd {n a0 a1 N m : Nat} (x0 : (⟨3, ![n, a0, m]⟩ : Shape).Idx → α)
    (x1 : (⟨3, ![n, a1, m]⟩ : Shape).Idx → α)
    (h : Shape.Concatenates [⟨3, ![n, a0, m]⟩, ⟨3, ![n, a1, m]⟩] ⟨3, ![n, N, m]⟩ 1)
    (b : Fin n) (p : Fin N) (q : Fin m) (i : Fin a1) (hi : a0 + i.val = p.val) :
    concatenate ⟨3, ![n, N, m]⟩ 1 [⟨⟨3, ![n, a0, m]⟩, x0⟩, ⟨⟨3, ![n, a1, m]⟩, x1⟩] h (ix3 b p q) = x1 (ix3 b i q) :=
  concatenate_pair_apply_right (t := ⟨3, ![n, N, m]⟩) 1 x0 x1 h (ix3 b p q) rfl rfl (ix3 b i q) (fun c hc => by
    match c with
    | ⟨0, _⟩ => rfl
    | ⟨1, _⟩ => exact absurd rfl hc
    | ⟨2, _⟩ => rfl) (by show i.val + a0 = p.val; omega)

/-! ## Two arrays joined along the third axis -/

/-- Two rank-3 arrays joined along the third axis, read at a coordinate `q` inside the FIRST piece: that piece at
    `i = q`. -/
theorem concat2_axis2_fst {n m b0 b1 M : Nat} (x0 : (⟨3, ![n, m, b0]⟩ : Shape).Idx → α)
    (x1 : (⟨3, ![n, m, b1]⟩ : Shape).Idx → α)
    (h : Shape.Concatenates [⟨3, ![n, m, b0]⟩, ⟨3, ![n, m, b1]⟩] ⟨3, ![n, m, M]⟩ 2)
    (b : Fin n) (p : Fin m) (q : Fin M) (i : Fin b0) (hi : i.val = q.val) :
    concatenate ⟨3, ![n, m, M]⟩ 2 [⟨⟨3, ![n, m, b0]⟩, x0⟩, ⟨⟨3, ![n, m, b1]⟩, x1⟩] h (ix3 b p q) = x0 (ix3 b p i) :=
  concatenate_pair_apply_left (t := ⟨3, ![n, m, M]⟩) 2 x0 x1 h (ix3 b p q) rfl (ix3 b p i) (fun c => by
    match c with
    | ⟨0, _⟩ => rfl
    | ⟨1, _⟩ => rfl
    | ⟨2, _⟩ => exact hi)

/-- Two rank-3 arrays joined along the third axis, read at a coordinate `q` inside the SECOND piece: that piece at
    `i`, `b0 + i = q`. -/
theorem concat2_axis2_snd {n m b0 b1 M : Nat} (x0 : (⟨3, ![n, m, b0]⟩ : Shape).Idx → α)
    (x1 : (⟨3, ![n, m, b1]⟩ : Shape).Idx → α)
    (h : Shape.Concatenates [⟨3, ![n, m, b0]⟩, ⟨3, ![n, m, b1]⟩] ⟨3, ![n, m, M]⟩ 2)
    (b : Fin n) (p : Fin m) (q : Fin M) (i : Fin b1) (hi : b0 + i.val = q.val) :
    concatenate ⟨3, ![n, m, M]⟩ 2 [⟨⟨3, ![n, m, b0]⟩, x0⟩, ⟨⟨3, ![n, m, b1]⟩, x1⟩] h (ix3 b p q) = x1 (ix3 b p i) :=
  concatenate_pair_apply_right (t := ⟨3, ![n, m, M]⟩) 2 x0 x1 h (ix3 b p q) rfl rfl (ix3 b p i) (fun c hc => by
    match c with
    | ⟨0, _⟩ => rfl
    | ⟨1, _⟩ => rfl
    | ⟨2, _⟩ => exact absurd rfl hc) (by show i.val + b0 = q.val; omega)

/-! ## A reversal along axes of extent one -/

/-- A reversal along axes that all have extent one is the identity: the one coordinate there is its own mirror image. -/
theorem reverse_unit_axes {s : Shape} (axes : List (Fin s.rank)) (h : ∀ a ∈ axes, s.size a = 1) (x : s.Idx → α) :
    Host.reverse axes x = x := by
  funext j
  unfold Host.reverse
  congr 1
  funext a
  split
  · next ha =>
    apply Fin.ext
    have h1 := h a ha
    have hl : (j a).val < s.size a := (j a).isLt
    rw [Fin.val_rev]
    omega
  · rfl

end Idealize.ShloMosaic.ValueIdx
-- ==== Proof.RefBlur.lean ====
/-
  The reference's blur of eight images at once, as a function of the images.

  The reference pads each 1024×1024 image to 1026×1026 by joining slices — the image's second row above it, then the
  last-but-one row below; the second column of that to its left, then the last-but-one column to its right; each joined
  slice first reversed along the axis on which it has extent one, which moves nothing — and accumulates, from zero, the
  nine products of an entry of the 3×3 weight table with the 1024×1024 block of the padded images at offset (i, j).
  Read at one entry (b, y, x): the padded array at (b, p, q) is the array at (b, mirror p, mirror q), the block at offset
  (i, j) at (b, y, x) is the padded array at (b, y + i, x + j), the table's entry (i, j) is the blur's weight, and the
  accumulated sum is the stencil of image b in the order the stencil is written out.
-/
import proofs.«123598_j69123203661888_2_alg».proof.Proof.RefStages
import proofs.«123598_j69123203661888_2_alg».proof.Proof.RefStagesP
import proofs.«123598_j69123203661888_2_alg».proof.Proof.RefChainP
import proofs.«123598_j69123203661888_2_alg».proof.Proof.StencilSpec
import proofs.«123598_j69123203661888_2_alg».proof.Proof.LibJoinRank3
import proofs.«123598_j69123203661888_2_alg».proof.Proof.Gen.ReferenceIdeal
import proofs.«123598_j69123203661888_2_alg».proof.ReferenceIdeal
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.Tactic

noncomputable section

namespace Cert.ReferenceIdeal.RefBlur

open Idealize.ShloMosaic Idealize.ShloMosaic.StableHlo Idealize.ShloMosaic.ValueIdx
open Cert.ReferenceIdeal Cert.ReferenceIdeal.Stages Cert.StencilSpec

/-! ## The padded array as a function of the array -/

section Pad
variable {α : Type}

/-- Eight images with each one's second row joined above it. -/
def joinTop (g : S8x1024x1024.Idx → α) : S8x1025x1024.Idx → α :=
  concatenate S8x1025x1024 1
    [⟨S8x1x1024, Host.reverse [1] (extractStridedSlice S8x1x1024 ![0, 1, 0] g Gen.slices_S8x1024x1024_S8x1x1024_0_1_0)⟩,
      ⟨S8x1024x1024, g⟩] Gen.concatenates_S8x1x1024_S8x1024x1024_S8x1025x1024_d1

/-- Eight images, each with its second row joined above it and its last-but-one row below. -/
def padRows (g : S8x1024x1024.Idx → α) : S8x1026x1024.Idx → α :=
  concatenate S8x1026x1024 1
    [⟨S8x1025x1024, joinTop g⟩,
      ⟨S8x1x1024, Host.reverse [1]
        (extractStridedSlice S8x1x1024 ![0, 1023, 0] (joinTop g) Gen.slices_S8x1025x1024_S8x1x1024_0_1023_0)⟩]
    Gen.concatenates_S8x1025x1024_S8x1x1024_S8x1026x1024_d1

/-- Eight matrices of 1024 columns with each one's second column joined to its left. -/
def joinLeft (w : S8x1026x1024.Idx → α) : S8x1026x1025.Idx → α :=
  concatenate S8x1026x1025 2
    [⟨S8x1026x1, Host.reverse [2] (extractStridedSlice S8x1026x1 ![0, 0, 1] w Gen.slices_S8x1026x1024_S8x1026x1_0_0_1)⟩,
      ⟨S8x1026x1024, w⟩] Gen.concatenates_S8x1026x1_S8x1026x1024_S8x1026x1025_d2

/-- Eight matrices of 1024 columns, each with its second column joined to its left and its last-but-one to its right. -/
def padCols (w : S8x1026x1024.Idx → α) : S8x1026x1026.Idx → α :=
  concatenate S8x1026x1026 2
    [⟨S8x1026x1025, joinLeft w⟩,
      ⟨S8x1026x1, Host.reverse [2]
        (extractStridedSlice S8x1026x1 ![0, 0, 1023] (joinLeft w) Gen.slices_S8x1026x1025_S8x1026x1_0_0_1023)⟩]
    Gen.concatenates_S8x1026x1025_S8x1026x1_S8x1026x1026_d2

/-- A reversal along the second axis of an array whose second axis has extent one moves nothing. -/
theorem reverse1_unit {n m : Nat} (x : (⟨3, ![n, 1, m]⟩ : Shape).Idx → α) : Host.reverse [1] x = x :=
  reverse_unit_axes [1] (fun a ha => by rw [List.mem_singleton] at ha; subst ha; rfl) x

/-- A reversal along the third axis of an array whose third axis has extent one moves nothing. -/
theorem reverse2_unit {n m : Nat} (x : (⟨3, ![n, m, 1]⟩ : Shape).Idx → α) : Host.reverse [2] x = x :=
  reverse_unit_axes [2] (fun a ha => by rw [List.mem_singleton] at ha; subst ha; rfl) x

/-- Row `p` of the images with the second row joined above is row `mirror p` of the images. -/
theorem joinTop_apply (g : S8x1024x1024.Idx → α) (b : Fin 8) (p : Fin 1025) (q : Fin 1024) (k : Fin 1024)
    (hk : k.val = mirror p.val) : joinTop g (ix3 b p q) = g (ix3 b k q) := by
  have hp := p.isLt
  unfold joinTop
  by_cases h0 : p.val = 0
  · refine (concat2_axis1_fst _ _ _ b p q (0 : Fin 1) (by rw [h0]; rfl)).trans ?_
    rw [reverse1_unit]
    exact slice3_apply 0 1 0 g _ b 0 q b k q (Nat.zero_add _).symm
      (by rw [hk]; show mirror p.val = 1 + 0; unfold mirror; rw [if_pos h0]) (Nat.zero_add _).symm
  · exact concat2_axis1_snd _ _ _ b p q k (by
      rw [hk]; unfold mirror; rw [if_neg h0, if_neg (by omega)]; omega)

/-- Row `p` of the row-padded images is row `mirror p` of the images. -/
theorem padRows_apply (g : S8x1024x1024.Idx → α) (b : Fin 8) (p : Fin 1026) (q : Fin 1024) :
    padRows g (ix3 b p q) = g (ix3 b ⟨mirror p.val, mirror_lt p.isLt⟩ q) := by
  have hp := p.isLt
  unfold padRows
  by_cases h1 : p.val = 1025
  · refine (concat2_axis1_snd _ _ _ b p q (0 : Fin 1) (by rw [h1]; rfl)).trans ?_
    rw [reverse1_unit]
    refine (slice3_apply 0 1023 0 (joinTop g) _ b 0 q b (⟨1023, by omega⟩ : Fin 1025) q (Nat.zero_add _).symm rfl
      (Nat.zero_add _).symm).trans ?_
    exact joinTop_apply g b _ q _ (by show mirror p.val = mirror 1023; rw [h1]; rfl)
  · refine (concat2_axis1_fst _ _ _ b p q (⟨p.val, by omega⟩ : Fin 1025) rfl).trans ?_
    exact joinTop_apply g b _ q _ rfl

/-- Column `q` of the matrices with the second column joined to the left is column `mirror q` of the matrices. -/
theorem joinLeft_apply (w : S8x1026x1024.Idx → α) (b : Fin 8) (p : Fin 1026) (q : Fin 1025) (k : Fin 1024)
    (hk : k.val = mirror q.val) : joinLeft w (ix3 b p q) = w (ix3 b p k) := by
  have hq := q.isLt
  unfold joinLeft
  by_cases h0 : q.val = 0
  · refine (concat2_axis2_fst _ _ _ b p q (0 : Fin 1) (by rw [h0]; rfl)).trans ?_
    rw [reverse2_unit]
    exact slice3_apply 0 0 1 w _ b p 0 b p k (Nat.zero_add _).symm (Nat.zero_add _).symm
      (by rw [hk]; show mirror q.val = 1 + 0; unfold mirror; rw [if_pos h0])
  · exact concat2_axis2_snd _ _ _ b p q k (by
      rw [hk]; unfold mirror; rw [if_neg h0, if_neg (by omega)]; omega)

/-- Column `q` of the column-padded matrices is column `mirror q` of the matrices. -/
theorem padCols_apply (w : S8x1026x1024.Idx → α) (b : Fin 8) (p : Fin 1026) (q : Fin 1026) :
    padCols w (ix3 b p q) = w (ix3 b p ⟨mirror q.val, mirror_lt q.isLt⟩) := by
  have hq := q.isLt
  unfold padCols
  by_cases h1 : q.val = 1025
  · refine (concat2_axis2_snd _ _ _ b p q (0 : Fin 1) (by rw [h1]; rfl)).trans ?_
    rw [reverse2_unit]
    refine (slice3_apply 0 0 1023 (joinLeft w) _ b p 0 b p (⟨1023, by omega⟩ : Fin 1025) (Nat.zero_add _).symm
      (Nat.zero_add _).symm rfl).trans ?_
    exact joinLeft_apply w b p _ _ (by show mirror q.val = mirror 1023; rw [h1]; rfl)
  · refine (concat2_axis2_fst _ _ _ b p q (⟨q.val, by omega⟩ : Fin 1025) rfl).trans ?_
    exact joinLeft_apply w b p _ _ rfl

/-- The padded array at `(b, p, q)` is the array at `(b, mirror p, mirror q)`. -/
theorem pad_apply (g : S8x1024x1024.Idx → α) (b : Fin 8) (p q : Fin 1026) :
    padCols (padRows g) (ix3 b p q)
      = g (ix3 b ⟨mirror p.val, mirror_lt p.isLt⟩ ⟨mirror q.val, mirror_lt q.isLt⟩) :=
  (padCols_apply _ b p q).trans (padRows_apply g b p _)

end Pad

/-! ## The pad stage and the weight table -/

set_option maxHeartbeats 1000000 in
/-- What the pad stage leaves in the padded array's buffer: the padded array of the stage's input. -/
theorem stage11_v54 (U : Valuation τ sig (Elt Ideal)) :
    after (stage11 (F := Ideal)) U (Proc.devRef .tc main_v54)
      = padCols (padRows (U (Proc.devRef .tc main_v50))) := by
  rw [ChainP.stage11_eq]
  simp only [StagesP.stage11]
  after_results
  unfold padCols joinLeft padRows joinTop
  rfl

set_option maxHeartbeats 1000000 in
/-- The pad stage does not write the weight table. -/
theorem stage11_cst (U : Valuation τ sig (Elt Ideal)) :
    after (stage11 (F := Ideal)) U (Proc.devRef .tc main_cst) = U (Proc.devRef .tc main_cst) := by
  rw [ChainP.stage11_eq]
  simp only [StagesP.stage11]
  after_results_simp

/-! ## The nine taps as a function of the weight table and the padded array -/

/-- One tap: the table's entry `(i, j)`, as a scalar spread over the block, times the block of the padded array at offset
    `(0, i, j)`. -/
def tap (K : FVec Ideal S3x3 .f32) (P : FVec Ideal S8x1026x1026 .f32) (i j : Nat) (h1 : S3x3.Slices ![i, j] S1x1)
    (h3 : S8x1026x1026.Slices ![0, i, j] S8x1024x1024) : FVec Ideal S8x1024x1024 .f32 :=
  mulf
    (broadcastInDim S8x1024x1024 ![] Gen.bcast_S_S8x1024x1024
      (shapeCast S_ (extractStridedSlice S1x1 ![i, j] K h1) Gen.shapeCasts_S1x1_S_))
    (extractStridedSlice S8x1024x1024 ![0, i, j] P h3)

/-- The nine taps accumulated from zero, row by row and left to right. -/
def tapsSum (K : FVec Ideal S3x3 .f32) (P : FVec Ideal S8x1026x1026 .f32) : FVec Ideal S8x1024x1024 .f32 :=
  addf (addf (addf (addf (addf (addf (addf (addf (addf
    (broadcastInDim S8x1024x1024 ![] Gen.bcast_S_S8x1024x1024 (constant (F := Ideal) S_ .f32 0x00000000#32))
    (tap K P 0 0 Gen.slices_S3x3_S1x1_0_0 Gen.slices_S8x1026x1026_S8x1024x1024_0_0_0))
    (tap K P 0 1 Gen.slices_S3x3_S1x1_0_1 Gen.slices_S8x1026x1026_S8x1024x1024_0_0_1))
    (tap K P 0 2 Gen.slices_S3x3_S1x1_0_2 Gen.slices_S8x1026x1026_S8x1024x1024_0_0_2))
    (tap K P 1 0 Gen.slices_S3x3_S1x1_1_0 Gen.slices_S8x1026x1026_S8x1024x1024_0_1_0))
    (tap K P 1 1 Gen.slices_S3x3_S1x1_1_1 Gen.slices_S8x1026x1026_S8x1024x1024_0_1_1))
    (tap K P 1 2 Gen.slices_S3x3_S1x1_1_2 Gen.slices_S8x1026x1026_S8x1024x1024_0_1_2))
    (tap K P 2 0 Gen.slices_S3x3_S1x1_2_0 Gen.slices_S8x1026x1026_S8x1024x1024_0_2_0))
    (tap K P 2 1 Gen.slices_S3x3_S1x1_2_1 Gen.slices_S8x1026x1026_S8x1024x1024_0_2_1))
    (tap K P 2 2 Gen.slices_S3x3_S1x1_2_2 Gen.slices_S8x1026x1026_S8x1024x1024_0_2_2)

/-- One tap at an entry: the table's entry times the padded array's entry the tap reads. -/
theorem tap_apply (K : FVec Ideal S3x3 .f32) (P : FVec Ideal S8x1026x1026 .f32) (i j : Nat) (hi : i < 3) (hj : j < 3)
    (h1 : S3x3.Slices ![i, j] S1x1) (h3 : S8x1026x1026.Slices ![0, i, j] S8x1024x1024) (b : Fin 8) (y x : Fin 1024)
    (p q : Fin 1026) (hp : p.val = y.val + i) (hq : q.val = x.val + j) :
    tap K P i j h1 h3 (ix3 b y x) = K (ix2 (⟨i, hi⟩ : Fin 3) (⟨j, hj⟩ : Fin 3)) * P (ix3 b p q) := by
  have hK : broadcastInDim S8x1024x1024 ![] Gen.bcast_S_S8x1024x1024
      (shapeCast S_ (extractStridedSlice S1x1 ![i, j] K h1) Gen.shapeCasts_S1x1_S_) (ix3 b y x)
        = K (ix2 (⟨i, hi⟩ : Fin 3) (⟨j, hj⟩ : Fin 3)) := by
    refine (broadcastInDim_scalar_apply _ _ _).trans ?_
    refine (shapeCast_apply _ _ ix0 (ix2 (0 : Fin 1) (0 : Fin 1)) ?_).trans ?_
    · have e := Shape.rowMajorPi_zero (S_ : Shape).size ix0
      rw [Shape.rowMajor_val_two]
      show (0 : ℕ) * 1 + 0 = (Shape.rowMajorPi (S_ : Shape).size ix0).val
      omega
    · exact extractStridedSlice_apply _ K h1 (ix2 (0 : Fin 1) (0 : Fin 1)) (ix2 (⟨i, hi⟩ : Fin 3) (⟨j, hj⟩ : Fin 3))
        (fun ax => by
          match ax with
          | ⟨0, _⟩ => rfl
          | ⟨1, _⟩ => rfl)
  have hP : extractStridedSlice S8x1024x1024 ![0, i, j] P h3 (ix3 b y x) = P (ix3 b p q) :=
    slice3_apply 0 i j P h3 b y x b p q (Nat.zero_add _).symm (by omega) (by omega)
  unfold tap
  rw [mulf_apply, hK, hP]

/-- The accumulated taps at an entry. -/
theorem tapsSum_apply (K : FVec Ideal S3x3 .f32) (P : FVec Ideal S8x1026x1026 .f32) (b : Fin 8) (y x : Fin 1024)
    (p : Fin 3 → Fin 1026) (q : Fin 3 → Fin 1026) (hp : ∀ d, (p d).val = y.val + d.val)
    (hq : ∀ d, (q d).val = x.val + d.val) :
    tapsSum K P (ix3 b y x)
      = 0 + K (ix2 (0 : Fin 3) (0 : Fin 3)) * P (ix3 b (p 0) (q 0)) + K (ix2 (0 : Fin 3) (1 : Fin 3)) * P (ix3 b (p 0) (q 1))
          + K (ix2 (0 : Fin 3) (2 : Fin 3)) * P (ix3 b (p 0) (q 2))
          + K (ix2 (1 : Fin 3) (0 : Fin 3)) * P (ix3 b (p 1) (q 0)) + K (ix2 (1 : Fin 3) (1 : Fin 3)) * P (ix3 b (p 1) (q 1))
          + K (ix2 (1 : Fin 3) (2 : Fin 3)) * P (ix3 b (p 1) (q 2))
          + K (ix2 (2 : Fin 3) (0 : Fin 3)) * P (ix3 b (p 2) (q 0)) + K (ix2 (2 : Fin 3) (1 : Fin 3)) * P (ix3 b (p 2) (q 1))
          + K (ix2 (2 : Fin 3) (2 : Fin 3)) * P (ix3 b (p 2) (q 2)) := by
  have hzero : broadcastInDim S8x1024x1024 ![] Gen.bcast_S_S8x1024x1024
      (constant (F := Ideal) S_ .f32 0x00000000#32) (ix3 b y x) = (0 : EReal) :=
    (broadcastInDim_scalar_apply _ _ _).trans Ideal.ofBits_zero_f32
  unfold tapsSum
  simp only [addf_apply]
  rw [hzero,
    tap_apply K P 0 0 (by omega) (by omega) _ _ b y x (p 0) (q 0) (hp 0) (hq 0),
    tap_apply K P 0 1 (by omega) (by omega) _ _ b y x (p 0) (q 1) (hp 0) (hq 1),
    tap_apply K P 0 2 (by omega) (by omega) _ _ b y x (p 0) (q 2) (hp 0) (hq 2),
    tap_apply K P 1 0 (by omega) (by omega) _ _ b y x (p 1) (q 0) (hp 1) (hq 0),
    tap_apply K P 1 1 (by omega) (by omega) _ _ b y x (p 1) (q 1) (hp 1) (hq 1),
    tap_apply K P 1 2 (by omega) (by omega) _ _ b y x (p 1) (q 2) (hp 1) (hq 2),
    tap_apply K P 2 0 (by omega) (by omega) _ _ b y x (p 2) (q 0) (hp 2) (hq 0),
    tap_apply K P 2 1 (by omega) (by omega) _ _ b y x (p 2) (q 1) (hp 2) (hq 1),
    tap_apply K P 2 2 (by omega) (by omega) _ _ b y x (p 2) (q 2) (hp 2) (hq 2)]
  rfl

/-! ## The taps stage -/

set_option maxHeartbeats 4000000 in
/-- What the taps stage leaves in its result buffer: the accumulated taps of the weight table and the padded array. -/
theorem stage12_v109 (W : Valuation τ sig (Elt Ideal)) :
    after (stage12 (F := Ideal)) W (Proc.devRef .tc main_v109)
      = tapsSum (W (Proc.devRef .tc main_cst)) (W (Proc.devRef .tc main_v54)) := by
  rw [ChainP.stage12_eq]
  simp only [StagesP.stage12]
  after_results_simp
  unfold tapsSum tap
  rfl

/-- The weight table's entry `(i, j)` is the blur's weight `(i, j)`. -/
theorem weight_eq (i j : Fin 3) :
    FloatOps.ofBits (F := Ideal) .f32 (lit0 (S3x3.rowMajor (ix2 i j))) = gaussK i j := by
  fin_cases i <;> fin_cases j <;> rfl

/-- The accumulated taps of the blur's weight table and the padded array of `g`, at an entry, are the blur of image
    `b` of `g` there. -/
theorem tapsSum_pad (g : FVec Ideal S8x1024x1024 .f32) (b : Fin 8) (y x : Fin 1024) :
    tapsSum (fun i => FloatOps.ofBits (F := Ideal) .f32 (lit0 (S3x3.rowMajor i))) (padCols (padRows g)) (ix3 b y x)
      = blur (fun y' x' => g (ix3 b y' x')) y x := by
  have hy := y.isLt
  have hx := x.isLt
  refine (tapsSum_apply _ _ b y x (fun d => ⟨y.val + d.val, by have := d.isLt; omega⟩)
    (fun d => ⟨x.val + d.val, by have := d.isLt; omega⟩) (fun _ => rfl) (fun _ => rfl)).trans ?_
  simp only [pad_apply, weight_eq]
  unfold blur
  rw [stencil_unfold, zero_add]
  rfl

/-! ## The two blurs -/

/-- The predicted images' blur: the pad stage then the taps stage, from contents holding the weight table. -/
theorem blur_p (U : Valuation τ sig (Elt Ideal))
    (hk : U (Proc.devRef .tc main_cst) = fun i => FloatOps.ofBits (F := Ideal) .f32 (lit0 (S3x3.rowMajor i)))
    (b : Fin 8) (y x : Fin 1024) :
    after (stage12 (F := Ideal)) (after (stage11 (F := Ideal)) U) (Proc.devRef .tc main_v109) (ValueIdx.ix3 b y x)
      = Cert.StencilSpec.blur (fun y' x' => U (Proc.devRef .tc main_v50) (ValueIdx.ix3 b y' x')) y x := by
  refine (congrFun (stage12_v109 _) _).trans ?_
  rw [stage11_cst, hk, stage11_v54]
  exact tapsSum_pad _ b y x

set_option maxHeartbeats 2000000 in
/-- The second pad stage: the padded array of its input. -/
theorem stage14_v110 (U : Valuation τ sig (Elt Ideal)) :
    after (stage14 (F := Ideal)) U (Proc.devRef .tc main_v110)
      = padCols (padRows (U (Proc.devRef .tc main_v53))) := by
  rw [ChainP.stage14_eq]
  simp only [StagesP.stage14]
  after_results
  unfold padCols joinLeft padRows joinTop
  rfl

set_option maxHeartbeats 2000000 in
/-- The second pad stage does not write the weight table. -/
theorem stage14_cst (U : Valuation τ sig (Elt Ideal)) :
    after (stage14 (F := Ideal)) U (Proc.devRef .tc main_cst) = U (Proc.devRef .tc main_cst) := by
  rw [ChainP.stage14_eq]
  simp only [StagesP.stage14]
  after_results_simp

set_option maxHeartbeats 4000000 in
/-- The second taps stage: the accumulated taps of the weight table and the second padded array. -/
theorem stage15_v165 (W : Valuation τ sig (Elt Ideal)) :
    after (stage15 (F := Ideal)) W (Proc.devRef .tc main_v165)
      = tapsSum (W (Proc.devRef .tc main_cst)) (W (Proc.devRef .tc main_v110)) := by
  rw [ChainP.stage15_eq]
  simp only [StagesP.stage15]
  after_results_simp
  unfold tapsSum tap
  rfl

/-- The target images' blur: the second pad stage then the second taps stage, from contents holding the weight table. -/
theorem blur_t (U : Valuation τ sig (Elt Ideal))
    (hk : U (Proc.devRef .tc main_cst) = fun i => FloatOps.ofBits (F := Ideal) .f32 (lit0 (S3x3.rowMajor i)))
    (b : Fin 8) (y x : Fin 1024) :
    after (stage15 (F := Ideal)) (after (stage14 (F := Ideal)) U) (Proc.devRef .tc main_v165) (ValueIdx.ix3 b y x)
      = Cert.StencilSpec.blur (fun y' x' => U (Proc.devRef .tc main_v53) (ValueIdx.ix3 b y' x')) y x := by
  refine (congrFun (stage15_v165 _) _).trans ?_
  rw [stage14_cst, hk, stage14_v110]
  exact tapsSum_pad _ b y x

end Cert.ReferenceIdeal.RefBlur

end
-- ==== Proof.RefLog.lean ====
/-
  The reference's blur-times-second-image term as a function of the two image batches.

  The reference averages each image's three channels (a sum over the channel axis from zero, divided by three), blurs
  the eight channel-mean images of each batch, multiplies each blurred image entry by entry with a fixed second image
  (one 1024×1024 image spread over the eight), takes the absolute difference of the two products, sums it over all
  entries from zero and divides by the number of entries.  Each step is read at an entry; the buffers no later step
  writes are carried unchanged to where they are read.
-/
import proofs.«123598_j69123203661888_2_alg».proof.Proof.RefStagesP
import proofs.«123598_j69123203661888_2_alg».proof.Proof.RefChainP
import proofs.«123598_j69123203661888_2_alg».proof.Proof.TermSpec
import proofs.«123598_j69123203661888_2_alg».proof.Proof.RefBlur
import proofs.«123598_j69123203661888_2_alg».proof.Proof.LibSumIdx
import proofs.«123598_j69123203661888_2_alg».proof.Proof.Gen.ReferenceIdeal
import proofs.«123598_j69123203661888_2_alg».proof.ReferenceIdeal
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.Lib.Tactic

noncomputable section

namespace Cert.ReferenceIdeal.RefLog

open Idealize.ShloMosaic Idealize.ShloMosaic.StableHlo Idealize.ShloMosaic.ValueIdx
open Cert.ReferenceIdeal Cert.StencilSpec Cert.TermSpec

/-! ## The channel-mean images -/

/-- The channel-mean images of a batch: the sum over the channel axis from zero, divided by three. -/
def grayArr (A : FVec Ideal S8x3x1024x1024 .f32) : FVec Ideal S8x1024x1024 .f32 :=
  Host.divf
    (Host.reduceAdd A (constant (F := Ideal) S_ .f32 0x00000000#32) Gen.reducesTo_S8x3x1024x1024_S8x1024x1024_d1 Gen.h_S_)
    (broadcastInDim S8x1024x1024 ![] Gen.bcast_S_S8x1024x1024 (constant (F := Ideal) S_ .f32 0x40400000#32))

/-- The index of the batch with a channel inserted into an image index. -/
theorem lift_channel (h : S8x3x1024x1024.Reduces [1] S8x1024x1024) (b : Fin 8) (y x : Fin 1024)
    (k : Fin (S8x3x1024x1024.size 1)) : h.lift (ix3 b y x) k = ix4 b (k : Fin 3) y x := by
  funext a
  match a with
  | ⟨0, _⟩ => rfl
  | ⟨1, _⟩ => rfl
  | ⟨2, _⟩ => rfl
  | ⟨3, _⟩ => rfl

/-- The channel-mean images at an entry. -/
theorem grayArr_apply (A : FVec Ideal S8x3x1024x1024 .f32) (b : Fin 8) (y x : Fin 1024) :
    grayArr A (ix3 b y x) = gray A b y x := by
  have hR : S8x3x1024x1024.Reduces [1] S8x1024x1024 := by decide
  unfold grayArr gray
  rw [hostDivf_apply, hostReduceAdd_apply, broadcastInDim_scalar_apply,
    Ideal.hostReduceAdd_single Gen.reducesTo_S8x3x1024x1024_S8x1024x1024_d1 hR]
  rw [constant_apply, constant_apply, Ideal.ofBits_zero_f32, zero_add]
  have hs : (∑ k : Fin (S8x3x1024x1024.size 1), A (hR.lift (ix3 b y x) k)) = ∑ ch : Fin 3, A (ix4 b ch y x) :=
    Finset.sum_congr rfl fun k _ => congrArg A (lift_channel hR b y x k)
  rw [hs]
  rfl

/-! ## The last step: products with the second images, absolute difference, mean -/

/-- One 1024×1024 image spread over eight. -/
def spread (L : FVec Ideal S1024x1024 .f32) : FVec Ideal S8x1024x1024 .f32 :=
  broadcastInDim S8x1024x1024 ![0, 1, 2] Gen.bcast_S1x1024x1024_S8x1024x1024_0_1_2
    (broadcastInDim S1x1024x1024 ![1, 2] Gen.bcast_S1024x1024_S1x1024x1024_1_2 L)

/-- The spread image at an entry of any of the eight is the image's entry. -/
theorem spread_apply (L : FVec Ideal S1024x1024 .f32) (b : Fin 8) (y x : Fin 1024) :
    spread L (ix3 b y x) = L (ix2 y x) := by
  unfold spread
  refine (broadcastInDim_apply _ _ _ (ix3 b y x) (ix3 (0 : Fin 1) y x) (fun a => by
    match a with
    | ⟨0, _⟩ => rfl
    | ⟨1, _⟩ => rfl
    | ⟨2, _⟩ => rfl)).trans ?_
  exact broadcastInDim_apply _ _ _ (ix3 (0 : Fin 1) y x) (ix2 y x) (fun a => by
    match a with
    | ⟨0, _⟩ => rfl
    | ⟨1, _⟩ => rfl)

/-- The mean absolute difference of the two blurred batches, each times its second image. -/
def logArr (G1 G2 : FVec Ideal S8x1024x1024 .f32) (L1 L2 : FVec Ideal S1024x1024 .f32) : FVec Ideal S_ .f32 :=
  Host.divf
    (Host.reduceAdd (Host.absf (subf (mulf G1 (spread L1)) (mulf G2 (spread L2))))
      (constant (F := Ideal) S_ .f32 0x00000000#32) Gen.reducesTo_S8x1024x1024_S_d0_1_2 Gen.h_S_)
    (constant (F := Ideal) S_ .f32 0x4B000000#32)

/-- … read at its one index: the sum over all entries from zero, divided by the number of entries. -/
theorem logArr_apply (G1 G2 : FVec Ideal S8x1024x1024 .f32) (L1 L2 : FVec Ideal S1024x1024 .f32) :
    logArr G1 G2 L1 L2 ix0
      = Ideal.div (∑ b : Fin 8, ∑ y : Fin 1024, ∑ x : Fin 1024,
          absE (G1 (ix3 b y x) * L1 (ix2 y x) - G2 (ix3 b y x) * L2 (ix2 y x))) cPix := by
  have hpt : ∀ (b : Fin 8) (y x : Fin 1024),
      Host.absf (subf (mulf G1 (spread L1)) (mulf G2 (spread L2))) (ix3 b y x)
        = absE (G1 (ix3 b y x) * L1 (ix2 y x) - G2 (ix3 b y x) * L2 (ix2 y x)) := fun b y x => by
    have e : Host.absf (subf (mulf G1 (spread L1)) (mulf G2 (spread L2))) (ix3 b y x)
        = absE (G1 (ix3 b y x) * spread L1 (ix3 b y x) - G2 (ix3 b y x) * spread L2 (ix3 b y x)) := rfl
    rw [e, spread_apply, spread_apply]
  unfold logArr
  rw [hostDivf_apply, hostReduceAdd_apply,
    Ideal.hostReduceAdd_total Gen.reducesTo_S8x1024x1024_S_d0_1_2 (fun b => b.elim0),
    constant_apply, constant_apply, Ideal.ofBits_zero_f32, zero_add, sum_idx3]
  simp only [hpt]
  rfl

/-! ## The stages as functions of their inputs -/

set_option maxHeartbeats 1000000 in
/-- The channel-mean stage leaves the channel-mean images of the first batch argument … -/
theorem stage10_v50 (U : Valuation τ sig (Elt Ideal)) :
    after (StagesP.stage10 (F := Ideal)) U (Proc.devRef .tc main_v50) = grayArr (U (Proc.devRef .tc main_arg1)) := by
  simp only [StagesP.stage10]
  after_results_simp
  unfold grayArr
  rfl

set_option maxHeartbeats 1000000 in
/-- … and of the second. -/
theorem stage10_v53 (U : Valuation τ sig (Elt Ideal)) :
    after (StagesP.stage10 (F := Ideal)) U (Proc.devRef .tc main_v53) = grayArr (U (Proc.devRef .tc main_arg0)) := by
  simp only [StagesP.stage10]
  after_results_simp
  unfold grayArr
  rfl

set_option maxHeartbeats 1000000 in
/-- The last stage leaves the mean absolute difference of its four inputs. -/
theorem stage28_v403 (U : Valuation τ sig (Elt Ideal)) :
    after (StagesP.stage28 (F := Ideal)) U (Proc.devRef .tc main_v403)
      = logArr (U (Proc.devRef .tc main_v109)) (U (Proc.devRef .tc main_v165)) (U (Proc.devRef .tc main_v279))
          (U (Proc.devRef .tc main_v393)) := by
  simp only [StagesP.stage28]
  after_results_simp
  unfold logArr spread
  rfl

/-! ## Buffers carried unchanged through the stages that do not write them -/

set_option maxHeartbeats 4000000 in
/-- Stages 0 to 9 do not write the first batch argument. -/
theorem carry_arg1 (W : Valuation τ sig (Elt Ideal)) :
    after (StagesP.stage9 (F := Ideal)) (after (StagesP.stage8 (F := Ideal)) (after (StagesP.stage7 (F := Ideal)) (after (StagesP.stage6 (F := Ideal)) (after (StagesP.stage5 (F := Ideal)) (after (StagesP.stage4 (F := Ideal)) (after (StagesP.stage3 (F := Ideal)) (after (StagesP.stage2 (F := Ideal)) (after (StagesP.stage1 (F := Ideal)) (after (StagesP.stage0 (F := Ideal)) (W)))))))))) (Proc.devRef .tc main_arg1)
      = W (Proc.devRef .tc main_arg1) := by
  simp only [StagesP.stage0, StagesP.stage1, StagesP.stage2, StagesP.stage3, StagesP.stage4, StagesP.stage5, StagesP.stage6, StagesP.stage7, StagesP.stage8, StagesP.stage9]
  after_results_simp

set_option maxHeartbeats 4000000 in
/-- Stages 0 to 9 do not write the second batch argument. -/
theorem carry_arg0 (W : Valuation τ sig (Elt Ideal)) :
    after (StagesP.stage9 (F := Ideal)) (after (StagesP.stage8 (F := Ideal)) (after (StagesP.stage7 (F := Ideal)) (after (StagesP.stage6 (F := Ideal)) (after (StagesP.stage5 (F := Ideal)) (after (StagesP.stage4 (F := Ideal)) (after (StagesP.stage3 (F := Ideal)) (after (StagesP.stage2 (F := Ideal)) (after (StagesP.stage1 (F := Ideal)) (after (StagesP.stage0 (F := Ideal)) (W)))))))))) (Proc.devRef .tc main_arg0)
      = W (Proc.devRef .tc main_arg0) := by
  simp only [StagesP.stage0, StagesP.stage1, StagesP.stage2, StagesP.stage3, StagesP.stage4, StagesP.stage5, StagesP.stage6, StagesP.stage7, StagesP.stage8, StagesP.stage9]
  after_results_simp

set_option maxHeartbeats 4000000 in
/-- Stages 1 to 10 do not write the weight table. -/
theorem carry_cst_1_10 (W : Valuation τ sig (Elt Ideal)) :
    after (StagesP.stage10 (F := Ideal)) (after (StagesP.stage9 (F := Ideal)) (after (StagesP.stage8 (F := Ideal)) (after (StagesP.stage7 (F := Ideal)) (after (StagesP.stage6 (F := Ideal)) (after (StagesP.stage5 (F := Ideal)) (after (StagesP.stage4 (F := Ideal)) (after (StagesP.stage3 (F := Ideal)) (after (StagesP.stage2 (F := Ideal)) (after (StagesP.stage1 (F := Ideal)) (W)))))))))) (Proc.devRef .tc main_cst)
      = W (Proc.devRef .tc main_cst) := by
  simp only [StagesP.stage1, StagesP.stage2, StagesP.stage3, StagesP.stage4, StagesP.stage5, StagesP.stage6, StagesP.stage7, StagesP.stage8, StagesP.stage9, StagesP.stage10]
  after_results_simp

set_option maxHeartbeats 2000000 in
/-- Stages 11 to 13 do not write the weight table. -/
theorem carry_cst_11_13 (W : Valuation τ sig (Elt Ideal)) :
    after (StagesP.stage13 (F := Ideal)) (after (StagesP.stage12 (F := Ideal)) (after (StagesP.stage11 (F := Ideal)) (W))) (Proc.devRef .tc main_cst)
      = W (Proc.devRef .tc main_cst) := by
  simp only [StagesP.stage11, StagesP.stage12, StagesP.stage13]
  after_results_simp

set_option maxHeartbeats 2000000 in
/-- Stages 11 to 13 do not write the second batch's channel-mean images. -/
theorem carry_v53 (W : Valuation τ sig (Elt Ideal)) :
    after (StagesP.stage13 (F := Ideal)) (after (StagesP.stage12 (F := Ideal)) (after (StagesP.stage11 (F := Ideal)) (W))) (Proc.devRef .tc main_v53)
      = W (Proc.devRef .tc main_v53) := by
  simp only [StagesP.stage11, StagesP.stage12, StagesP.stage13]
  after_results_simp

set_option maxHeartbeats 8000000 in
/-- Stages 13 to 27 do not write the first blurred batch. -/
theorem carry_v109 (W : Valuation τ sig (Elt Ideal)) :
    after (StagesP.stage27 (F := Ideal)) (after (StagesP.stage26 (F := Ideal)) (after (StagesP.stage25 (F := Ideal)) (after (StagesP.stage24 (F := Ideal)) (after (StagesP.stage23 (F := Ideal)) (after (StagesP.stage22 (F := Ideal)) (after (StagesP.stage21 (F := Ideal)) (after (StagesP.stage20 (F := Ideal)) (after (StagesP.stage19 (F := Ideal)) (after (StagesP.stage18 (F := Ideal)) (after (StagesP.stage17 (F := Ideal)) (after (StagesP.stage16 (F := Ideal)) (after (StagesP.stage15 (F := Ideal)) (after (StagesP.stage14 (F := Ideal)) (after (StagesP.stage13 (F := Ideal)) (W))))))))))))))) (Proc.devRef .tc main_v109)
      = W (Proc.devRef .tc main_v109) := by
  simp only [StagesP.stage13, StagesP.stage14, StagesP.stage15, StagesP.stage16, StagesP.stage17, StagesP.stage18, StagesP.stage19, StagesP.stage20, StagesP.stage21, StagesP.stage22, StagesP.stage23, StagesP.stage24, StagesP.stage25, StagesP.stage26, StagesP.stage27]
  after_results_simp

set_option maxHeartbeats 8000000 in
/-- Stages 16 to 27 do not write the second blurred batch. -/
theorem carry_v165 (W : Valuation τ sig (Elt Ideal)) :
    after (StagesP.stage27 (F := Ideal)) (after (StagesP.stage26 (F := Ideal)) (after (StagesP.stage25 (F := Ideal)) (after (StagesP.stage24 (F := Ideal)) (after (StagesP.stage23 (F := Ideal)) (after (StagesP.stage22 (F := Ideal)) (after (StagesP.stage21 (F := Ideal)) (after (StagesP.stage20 (F := Ideal)) (after (StagesP.stage19 (F := Ideal)) (after (StagesP.stage18 (F := Ideal)) (after (StagesP.stage17 (F := Ideal)) (after (StagesP.stage16 (F := Ideal)) (W)))))))))))) (Proc.devRef .tc main_v165)
      = W (Proc.devRef .tc main_v165) := by
  simp only [StagesP.stage16, StagesP.stage17, StagesP.stage18, StagesP.stage19, StagesP.stage20, StagesP.stage21, StagesP.stage22, StagesP.stage23, StagesP.stage24, StagesP.stage25, StagesP.stage26, StagesP.stage27]
  after_results_simp

set_option maxHeartbeats 4000000 in
/-- Stages 22 to 27 do not write the first second image. -/
theorem carry_v279 (W : Valuation τ sig (Elt Ideal)) :
    after (StagesP.stage27 (F := Ideal)) (after (StagesP.stage26 (F := Ideal)) (after (StagesP.stage25 (F := Ideal)) (after (StagesP.stage24 (F := Ideal)) (after (StagesP.stage23 (F := Ideal)) (after (StagesP.stage22 (F := Ideal)) (W)))))) (Proc.devRef .tc main_v279)
      = W (Proc.devRef .tc main_v279) := by
  simp only [StagesP.stage22, StagesP.stage23, StagesP.stage24, StagesP.stage25, StagesP.stage26, StagesP.stage27]
  after_results_simp

set_option maxHeartbeats 1000000 in
/-- Stage 0 writes the weight table once, first, and leaves it. -/
theorem stage0_cst (V : Valuation τ sig (Elt Ideal)) :
    after (StagesP.stage0 (F := Ideal)) V (Proc.devRef .tc main_cst)
      = fun i => FloatOps.ofBits (F := Ideal) .f32 (lit0 (S3x3.rowMajor i)) := by
  simp only [StagesP.stage0]
  after_results_simp
  rfl

/-! ## The term -/

section Term
variable (V' : Valuation τ sig (Elt Ideal))

/-- The weight table is in place when the first pad stage starts … -/
theorem P11_cst : ChainP.P11 V' (Proc.devRef .tc main_cst)
    = fun i => FloatOps.ofBits (F := Ideal) .f32 (lit0 (S3x3.rowMajor i)) :=
  (carry_cst_1_10 (ChainP.P1 V')).trans (stage0_cst V')

/-- … and when the second does. -/
theorem P14_cst : ChainP.P14 V' (Proc.devRef .tc main_cst)
    = fun i => FloatOps.ofBits (F := Ideal) .f32 (lit0 (S3x3.rowMajor i)) :=
  (carry_cst_11_13 (ChainP.P11 V')).trans (P11_cst V')

/-- The first pad stage's input is the channel-mean images of the first batch argument. -/
theorem P11_v50 (b : Fin 8) (y x : Fin 1024) :
    ChainP.P11 V' (Proc.devRef .tc main_v50) (ix3 b y x) = gray (V' (Proc.devRef .tc main_arg1)) b y x := by
  have h : ChainP.P11 V' (Proc.devRef .tc main_v50) = grayArr (V' (Proc.devRef .tc main_arg1)) := by
    refine (stage10_v50 (ChainP.P10 V')).trans ?_
    rw [show ChainP.P10 V' (Proc.devRef .tc main_arg1) = V' (Proc.devRef .tc main_arg1) from carry_arg1 V']
  exact (congrFun h _).trans (grayArr_apply _ b y x)

/-- The second pad stage's input is the channel-mean images of the second batch argument. -/
theorem P14_v53 (b : Fin 8) (y x : Fin 1024) :
    ChainP.P14 V' (Proc.devRef .tc main_v53) (ix3 b y x) = gray (V' (Proc.devRef .tc main_arg0)) b y x := by
  have h : ChainP.P14 V' (Proc.devRef .tc main_v53) = grayArr (V' (Proc.devRef .tc main_arg0)) := by
    refine (carry_v53 (ChainP.P11 V')).trans ?_
    refine (stage10_v53 (ChainP.P10 V')).trans ?_
    rw [show ChainP.P10 V' (Proc.devRef .tc main_arg0) = V' (Proc.devRef .tc main_arg0) from carry_arg0 V']
  exact (congrFun h _).trans (grayArr_apply _ b y x)

/-- The first blurred batch, where the last stage reads it. -/
theorem P28_v109 (b : Fin 8) (y x : Fin 1024) :
    ChainP.P28 V' (Proc.devRef .tc main_v109) (ix3 b y x) = blur (gray (V' (Proc.devRef .tc main_arg1)) b) y x := by
  have h1 : ChainP.P28 V' (Proc.devRef .tc main_v109) = ChainP.P13 V' (Proc.devRef .tc main_v109) :=
    carry_v109 (ChainP.P13 V')
  have h2 := RefBlur.blur_p (ChainP.P11 V') (P11_cst V') b y x
  rw [ChainP.stage11_eq, ChainP.stage12_eq] at h2
  rw [h1]
  refine h2.trans ?_
  exact congrArg (fun g => blur g y x) (funext fun y' => funext fun x' => P11_v50 V' b y' x')

/-- The second blurred batch, where the last stage reads it. -/
theorem P28_v165 (b : Fin 8) (y x : Fin 1024) :
    ChainP.P28 V' (Proc.devRef .tc main_v165) (ix3 b y x) = blur (gray (V' (Proc.devRef .tc main_arg0)) b) y x := by
  have h1 : ChainP.P28 V' (Proc.devRef .tc main_v165) = ChainP.P16 V' (Proc.devRef .tc main_v165) :=
    carry_v165 (ChainP.P16 V')
  have h2 := RefBlur.blur_t (ChainP.P14 V') (P14_cst V') b y x
  rw [ChainP.stage14_eq, ChainP.stage15_eq] at h2
  rw [h1]
  refine h2.trans ?_
  exact congrArg (fun g => blur g y x) (funext fun y' => funext fun x' => P14_v53 V' b y' x')

/-- The reference's blur-times-second-image term. -/
theorem ref_log :
    after (StagesP.stage28 (F := Ideal)) (ChainP.P28 V') (Proc.devRef .tc main_v403) ValueIdx.ix0
      = Cert.TermSpec.logTerm (V' (Proc.devRef .tc main_arg0) : Cert.TermSpec.Img)
          (V' (Proc.devRef .tc main_arg1) : Cert.TermSpec.Img)
          (fun y x => ChainP.P22 V' (Proc.devRef .tc main_v279) (ValueIdx.ix2 y x))
          (fun y x => ChainP.P28 V' (Proc.devRef .tc main_v393) (ValueIdx.ix2 y x)) := by
  have h279 : ChainP.P28 V' (Proc.devRef .tc main_v279) = ChainP.P22 V' (Proc.devRef .tc main_v279) :=
    carry_v279 (ChainP.P22 V')
  refine (congrFun (stage28_v403 (ChainP.P28 V')) ix0).trans ?_
  rw [logArr_apply]
  unfold logTerm
  refine congrArg (fun s => Ideal.div s cPix) ?_
  refine Finset.sum_congr rfl fun b _ => Finset.sum_congr rfl fun y _ => Finset.sum_congr rfl fun x _ => ?_
  rw [P28_v109, P28_v165, h279]

end Term

end Cert.ReferenceIdeal.RefLog

end
-- ==== Proof.LibConcatThree.lean ====
/-
  A join of THREE matrices along one axis, read at an index given by its two coordinates.

  Three matrices of one width stacked along the rows (axis 0), or of one height set side by side along the columns
  (axis 1), form one matrix; an entry of the joined matrix is an entry of the piece whose span along the joined axis
  holds the coordinate, at that coordinate less the extents of the pieces before it.  The caller names the piece's
  coordinate and gives the one equation relating it to the joined matrix's coordinate.  Any extents, any element type.
-/
import Idealize.ShloMosaic.Lib.ValueIdx
import Idealize.ShloMosaic.Lib.Pipeline.Value

namespace Idealize.ShloMosaic.ValueIdx

open Idealize.ShloMosaic

variable {α : Type}

/-! ## Along the rows -/

/-- Three matrices stacked along the rows, read at a row `p` inside the FIRST piece: that piece at row `i = p`. -/
theorem concat3_rows_fst {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a0) (hi : i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x0 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 0 (Nat.zero_lt_succ _) ⟨2, ![a0, m]⟩ x0 rfl rfl 0 rfl (ix2 i q)
    (fun b hb => by
      match b with
      | ⟨0, _⟩ => exact absurd rfl hb
      | ⟨1, _⟩ => rfl)
    (by show 0 + i.val = p.val; omega)

/-- Three matrices stacked along the rows, read at a row `p` inside the SECOND piece: that piece at row `i`,
    `a0 + i = p`. -/
theorem concat3_rows_snd {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a1) (hi : a0 + i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x1 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 1 (Nat.succ_lt_succ (Nat.zero_lt_succ _)) ⟨2, ![a1, m]⟩ x1 rfl rfl a0 (by simp) (ix2 i q)
    (fun b hb => by
      match b with
      | ⟨0, _⟩ => exact absurd rfl hb
      | ⟨1, _⟩ => rfl)
    (by show a0 + i.val = p.val; exact hi)

/-- Three matrices stacked along the rows, read at a row `p` inside the THIRD piece: that piece at row `i`,
    `a0 + a1 + i = p`. -/
theorem concat3_rows_trd {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a2) (hi : a0 + a1 + i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x2 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 2 (Nat.succ_lt_succ (Nat.succ_lt_succ (Nat.zero_lt_succ _))) ⟨2, ![a2, m]⟩ x2 rfl rfl (a0 + a1) (by simp) (ix2 i q)
    (fun b hb => by
      match b with
      | ⟨0, _⟩ => exact absurd rfl hb
      | ⟨1, _⟩ => rfl)
    (by show a0 + a1 + i.val = p.val; exact hi)

/-! ## Along the columns -/

/-- Three matrices side by side along the columns, read at a column `q` inside the FIRST piece: that piece at
    column `i = q`. -/
theorem concat3_cols_fst {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b0) (hi : i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x0 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 0 (Nat.zero_lt_succ _) ⟨2, ![n, b0]⟩ x0 rfl rfl 0 rfl (ix2 p i)
    (fun b hb => by
      match b with
      | ⟨0, _⟩ => rfl
      | ⟨1, _⟩ => exact absurd rfl hb)
    (by show 0 + i.val = q.val; omega)

/-- Three matrices side by side along the columns, read at a column `q` inside the SECOND piece: that piece at
    column `i`, `b0 + i = q`. -/
theorem concat3_cols_snd {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b1) (hi : b0 + i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x1 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 1 (Nat.succ_lt_succ (Nat.zero_lt_succ _)) ⟨2, ![n, b1]⟩ x1 rfl rfl b0 (by simp) (ix2 p i)
    (fun b hb => by
      match b with
      | ⟨0, _⟩ => rfl
      | ⟨1, _⟩ => exact absurd rfl hb)
    (by show b0 + i.val = q.val; exact hi)

/-- Three matrices side by side along the columns, read at a column `q` inside the THIRD piece: that piece at
    column `i`, `b0 + b1 + i = q`. -/
theorem concat3_cols_trd {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b2) (hi : b0 + b1 + i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x2 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 2 (Nat.succ_lt_succ (Nat.succ_lt_succ (Nat.zero_lt_succ _))) ⟨2, ![n, b2]⟩ x2 rfl rfl (b0 + b1) (by simp) (ix2 p i)
    (fun b hb => by
      match b with
      | ⟨0, _⟩ => rfl
      | ⟨1, _⟩ => exact absurd rfl hb)
    (by show b0 + b1 + i.val = q.val; exact hi)

end Idealize.ShloMosaic.ValueIdx
-- ==== Proof.GaussBlock.lean ====
/-
  The blur kernel's output block as a function of its input block.

  The kernel body reads the whole 1024×1024 image, pads it to 1026×1026 by joining slices — the image's second row above
  it and its last-but-one row below, then the second column of that to its left and its last-but-one column to its right —
  and accumulates, from zero, the nine products of a weight with the 1024×1024 block of the padded image at offset (i, j),
  i, j ∈ {0, 1, 2}.  Read at one entry (y, x): the padded image at (p, q) is the image at (mirror p, mirror q), the block at
  offset (i, j) at (y, x) is the padded image at (y + i, x + j), and the accumulated sum is the stencil of the image with
  the blur's weights, in the order the stencil is written out.
-/
import proofs.«123598_j69123203661888_2_alg».proof.Proof.Gen.KernelIdeal.Frame
import proofs.«123598_j69123203661888_2_alg».proof.Proof.StencilSpec
import proofs.«123598_j69123203661888_2_alg».proof.Proof.LibConcatThree
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.GaussBlock

open Idealize.ShloMosaic Idealize.ShloMosaic.ValueIdx Cert.KernelIdeal Cert.KernelIdeal.Gen Cert.StencilSpec

/-! ## The layout operations at an entry -/

section Layout
variable {α : Type}

/-- A block of a matrix cut at offsets `(o0, o1)` reads, at `(j, e)`, the matrix at `(k0, k1) = (o0 + j, o1 + e)`. -/
theorem slice2_apply {n0 n1 m0 m1 : Nat} (o0 o1 : Nat) (X : (⟨2, ![n0, n1]⟩ : Shape).Idx → α)
    (h : (⟨2, ![n0, n1]⟩ : Shape).Slices ![o0, o1] ⟨2, ![m0, m1]⟩) (j : Fin m0) (e : Fin m1) (k0 : Fin n0) (k1 : Fin n1)
    (hk0 : k0.val = o0 + j.val) (hk1 : k1.val = o1 + e.val) :
    extractStridedSlice ⟨2, ![m0, m1]⟩ ![o0, o1] X h (ix2 j e) = X (ix2 k0 k1) :=
  extractStridedSlice_apply _ _ _ _ _ (fun ax => by
    match ax with
    | ⟨0, _⟩ => exact hk0
    | ⟨1, _⟩ => exact hk1)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- The image with its second row joined above it and its last-but-one row below: row `p` of the joined matrix is
    row `mirror p` of the image. -/
theorem mirrorRows_apply (v1 : (⟨2, ![1024, 1024]⟩ : Shape).Idx → α)
    (h2 : (⟨2, ![1024, 1024]⟩ : Shape).Slices ![1, 0] ⟨2, ![1, 1024]⟩)
    (h3 : (⟨2, ![1024, 1024]⟩ : Shape).Slices ![1022, 0] ⟨2, ![1, 1024]⟩)
    (hc : Shape.Concatenates [⟨2, ![1, 1024]⟩, ⟨2, ![1024, 1024]⟩, ⟨2, ![1, 1024]⟩] ⟨2, ![1026, 1024]⟩ 0)
    (p : Fin 1026) (q : Fin 1024) :
    concatenate ⟨2, ![1026, 1024]⟩ 0
        [⟨⟨2, ![1, 1024]⟩, extractStridedSlice ⟨2, ![1, 1024]⟩ ![1, 0] v1 h2⟩, ⟨⟨2, ![1024, 1024]⟩, v1⟩,
          ⟨⟨2, ![1, 1024]⟩, extractStridedSlice ⟨2, ![1, 1024]⟩ ![1022, 0] v1 h3⟩] hc (ix2 p q)
      = v1 (ix2 ⟨mirror p.val, mirror_lt p.isLt⟩ q) := by
  by_cases h0 : p.val = 0
  · refine (concat3_rows_fst _ _ _ hc p q (0 : Fin 1) (by rw [h0]; rfl)).trans ?_
    exact slice2_apply 1 0 v1 h2 0 q _ q (by show mirror p.val = 1 + 0; unfold mirror; rw [if_pos h0])
      (Nat.zero_add _).symm
  · by_cases h1 : p.val = 1025
    · refine (concat3_rows_trd _ _ _ hc p q (0 : Fin 1) (by rw [h1]; rfl)).trans ?_
      exact slice2_apply 1022 0 v1 h3 0 q _ q
        (by show mirror p.val = 1022 + 0; unfold mirror; rw [if_neg h0, if_pos h1]) (Nat.zero_add _).symm
    · exact concat3_rows_snd _ _ _ hc p q ⟨mirror p.val, mirror_lt p.isLt⟩ (by
        have := p.isLt
        show 1 + mirror p.val = p.val
        unfold mirror; rw [if_neg h0, if_neg h1]; omega)

/-- A matrix of 1024 columns with its second column joined to its left and its last-but-one column to its right: column
    `q` of the joined matrix is column `mirror q` of the matrix. -/
theorem mirrorCols_apply {n : Nat} (v4 : (⟨2, ![n, 1024]⟩ : Shape).Idx → α)
    (h5 : (⟨2, ![n, 1024]⟩ : Shape).Slices ![0, 1] ⟨2, ![n, 1]⟩)
    (h6 : (⟨2, ![n, 1024]⟩ : Shape).Slices ![0, 1022] ⟨2, ![n, 1]⟩)
    (hc : Shape.Concatenates [⟨2, ![n, 1]⟩, ⟨2, ![n, 1024]⟩, ⟨2, ![n, 1]⟩] ⟨2, ![n, 1026]⟩ 1)
    (p : Fin n) (q : Fin 1026) :
    concatenate ⟨2, ![n, 1026]⟩ 1
        [⟨⟨2, ![n, 1]⟩, extractStridedSlice ⟨2, ![n, 1]⟩ ![0, 1] v4 h5⟩, ⟨⟨2, ![n, 1024]⟩, v4⟩,
          ⟨⟨2, ![n, 1]⟩, extractStridedSlice ⟨2, ![n, 1]⟩ ![0, 1022] v4 h6⟩] hc (ix2 p q)
      = v4 (ix2 p ⟨mirror q.val, mirror_lt q.isLt⟩) := by
  by_cases h0 : q.val = 0
  · refine (concat3_cols_fst _ _ _ hc p q (0 : Fin 1) (by rw [h0]; rfl)).trans ?_
    exact slice2_apply 0 1 v4 h5 p 0 p _ (Nat.zero_add _).symm
      (by show mirror q.val = 1 + 0; unfold mirror; rw [if_pos h0])
  · by_cases h1 : q.val = 1025
    · refine (concat3_cols_trd _ _ _ hc p q (0 : Fin 1) (by rw [h1]; rfl)).trans ?_
      exact slice2_apply 0 1022 v4 h6 p 0 p _ (Nat.zero_add _).symm
        (by show mirror q.val = 1022 + 0; unfold mirror; rw [if_neg h0, if_pos h1])
    · exact concat3_cols_snd _ _ _ hc p q ⟨mirror q.val, mirror_lt q.isLt⟩ (by
        have := q.isLt
        show 1 + mirror q.val = q.val
        unfold mirror; rw [if_neg h0, if_neg h1]; omega)

end Layout

/-! ## The padded image and its nine blocks -/

/-- The padded image at `(p, q)` is the image at `(mirror p, mirror q)`. -/
theorem pay2_apply (v0 : Vec Ideal S1x1x1024x1024 .f32) (p q : Fin 1026) :
    k1_pay2 (F := Ideal) v0 (ix2 p q)
      = v0 (ix4 (0 : Fin 1) (0 : Fin 1) ⟨mirror p.val, mirror_lt p.isLt⟩ ⟨mirror q.val, mirror_lt q.isLt⟩) := by
  unfold k1_pay2
  refine (mirrorCols_apply _ _ _ _ p q).trans ?_
  refine (mirrorRows_apply _ _ _ _ _ _).trans ?_
  exact shapeCast_11ab_ab_apply v0 _ _ _

/-- The block of the padded image at offset `(i, j)`, read at `(y, x)`, is the image at the coordinates taps `i` and
    `j` read. -/
theorem tap_apply (v0 : Vec Ideal S1x1x1024x1024 .f32) (i j : Nat) (hi : i < 3) (hj : j < 3)
    (h : S1026x1026.Slices ![i, j] S1024x1024) (y x : Fin 1024) :
    extractStridedSlice S1024x1024 ![i, j] (k1_pay2 (F := Ideal) v0) h (ix2 y x)
      = v0 (ix4 (0 : Fin 1) (0 : Fin 1) (src y ⟨i, hi⟩) (src x ⟨j, hj⟩)) := by
  have hy := y.isLt
  have hx := x.isLt
  refine (slice2_apply i j _ h y x ⟨y.val + i, by omega⟩ ⟨x.val + j, by omega⟩ (Nat.add_comm _ _)
    (Nat.add_comm _ _)).trans ?_
  exact pay2_apply v0 _ _

/-! ## The accumulation -/

/-- The last product, the one the body adds outside the accumulated sum. -/
theorem pay4_apply (v0 : Vec Ideal S1x1x1024x1024 .f32) (y x : Fin 1024) :
    k1_pay4 (F := Ideal) v0 (ix2 y x)
      = gaussK 2 2 * v0 (ix4 (0 : Fin 1) (0 : Fin 1) (src y 2) (src x 2)) := by
  unfold k1_pay4
  simp only [mulf_apply, broadcast_apply]
  rw [tap_apply v0 2 2 (by omega) (by omega) _ y x]
  rfl

/-- The accumulated sum of the first eight products, from zero, row by row and left to right. -/
theorem pay3_apply (v0 : Vec Ideal S1x1x1024x1024 .f32) (y x : Fin 1024) :
    k1_pay3 (F := Ideal) v0 (ix2 y x)
      = 0 + gaussK 0 0 * v0 (ix4 (0 : Fin 1) (0 : Fin 1) (src y 0) (src x 0))
          + gaussK 0 1 * v0 (ix4 (0 : Fin 1) (0 : Fin 1) (src y 0) (src x 1))
          + gaussK 0 2 * v0 (ix4 (0 : Fin 1) (0 : Fin 1) (src y 0) (src x 2))
          + gaussK 1 0 * v0 (ix4 (0 : Fin 1) (0 : Fin 1) (src y 1) (src x 0))
          + gaussK 1 1 * v0 (ix4 (0 : Fin 1) (0 : Fin 1) (src y 1) (src x 1))
          + gaussK 1 2 * v0 (ix4 (0 : Fin 1) (0 : Fin 1) (src y 1) (src x 2))
          + gaussK 2 0 * v0 (ix4 (0 : Fin 1) (0 : Fin 1) (src y 2) (src x 0))
          + gaussK 2 1 * v0 (ix4 (0 : Fin 1) (0 : Fin 1) (src y 2) (src x 1)) := by
  have hzero : Scalar.ofBits (F := Ideal) .f32 0x00000000#32 = (0 : EReal) := Ideal.ofBits_zero_f32
  unfold k1_pay3
  simp only [addf_apply, mulf_apply, broadcast_apply]
  rw [tap_apply v0 0 0 (by omega) (by omega) _ y x, tap_apply v0 0 1 (by omega) (by omega) _ y x,
    tap_apply v0 0 2 (by omega) (by omega) _ y x, tap_apply v0 1 0 (by omega) (by omega) _ y x,
    tap_apply v0 1 1 (by omega) (by omega) _ y x, tap_apply v0 1 2 (by omega) (by omega) _ y x,
    tap_apply v0 2 0 (by omega) (by omega) _ y x, tap_apply v0 2 1 (by omega) (by omega) _ y x, hzero]
  rfl

/-! ## The block -/

/-- The body's output block, at an entry, is the blur of its input block there. -/
theorem out_apply (x0 : Vec Ideal S1x1x1024x1024 .f32) (y x : Fin 1024) :
    out1_1 (F := Ideal) x0 (ValueIdx.ix4 (0 : Fin 1) (0 : Fin 1) y x)
      = Cert.StencilSpec.blur (fun y' x' => x0 (ValueIdx.ix4 (0 : Fin 1) (0 : Fin 1) y' x')) y x := by
  have hz : (![0, 0, 0, 0] : Fin 4 → Nat) = fun _ => 0 := funext fun a => by fin_cases a <;> rfl
  unfold out1_1
  rw [View.canon_unit_zero hz, View.ld_unit_zero (S := S1x1x1024x1024) hz]
  unfold k1_pay1
  refine (shapeCast_ab_11ab_apply _ _ 0 0 y x).trans ?_
  rw [addf_apply, pay3_apply, pay4_apply]
  unfold blur
  rw [stencil_unfold, zero_add]

end Cert.KernelIdeal.GaussBlock

end
-- ==== Proof.RegionArrays.lean ====
/-
  Kernels 1 and 2 from blocks to arrays, and kernel 2's body at its one index.

  Kernel 2's body multiplies two pairs of 1024×1024 images entry by entry, takes the absolute value of the difference of
  the products, sums each row, and then sums the column of row sums: at its one output entry it leaves the double sum,
  over rows and then columns, of |gp · lp − gt · lt|.  The casts in between only add or drop axes of extent one.

  Both kernels write one block of their output array at every grid point, each block a function of the input blocks at
  the same point, and every input block is the input array read at the block's own place.  So an entry of the output
  array after the last point is the body's block function, at the entry's coordinates inside its block, of the input
  arrays read at that block: for kernel 1 the blur of image (s, b), for kernel 2 the double sum over image b.
-/
import proofs.«123598_j69123203661888_2_alg».proof.Proof.Gen.KernelIdeal.Frame
import proofs.«123598_j69123203661888_2_alg».proof.Proof.GaussBlock
import proofs.«123598_j69123203661888_2_alg».proof.Proof.StencilSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionArrays

open Idealize.ShloMosaic Idealize.ShloMosaic.TcCoe Idealize.ShloMosaic.ValueIdx Cert.KernelIdeal Cert.KernelIdeal.Gen

/-- The absolute value on the extended reals: the larger of a value and its negation. -/
def absE (a : EReal) : EReal := max a (-a)

/-- The sum over an image's entries of |gp · lp − gt · lt|, the four images given entry by entry. -/
def absDiffSum (gp gt lp lt : Fin 1024 → Fin 1024 → EReal) : EReal :=
  ∑ y : Fin 1024, ∑ x : Fin 1024, absE (gp y x * lp y x - gt y x * lt y x)

/-- The same sum written out. -/
theorem absDiffSum_def (gp gt lp lt : Fin 1024 → Fin 1024 → EReal) :
    absDiffSum gp gt lp lt = ∑ y : Fin 1024, ∑ x : Fin 1024, absE (gp y x * lp y x - gt y x * lt y x) := rfl

/-! ## The layout operation and the two reductions at an entry -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The index `r` of a matrix's row sums with column `k` put back is `(r, k)`. -/
theorem lift_row {n d : ℕ} (h : (⟨2, ![n, d]⟩ : Shape).Reduces [1] (⟨1, ![n]⟩ : Shape)) (r : Fin n) (k : Fin d) :
    h.lift (ix1 r) k = ix2 r k := by
  funext c; apply Fin.ext
  fin_cases c <;> rfl

/-- The index `t` of a matrix's column sums with row `k` put back is `(k, t)`. -/
theorem lift_col {n d : ℕ} (h : (⟨2, ![n, d]⟩ : Shape).Reduces [0] (⟨1, ![d]⟩ : Shape)) (t : Fin d) (k : Fin n) :
    h.lift (ix1 t) k = ix2 k t := by
  funext c; apply Fin.ext
  fin_cases c <;> rfl

/-- The sum of a matrix along its rows, read at row `r`: the sum over the columns of the row's entries. -/
theorem rowSum_apply {n d : ℕ} (src : FVec Ideal ⟨2, ![n, d]⟩ .f32) (acc : BitVec FTy.f32.bits)
    (h : (⟨2, ![n, d]⟩ : Shape).Reduces [1] (⟨1, ![n]⟩ : Shape)) (hφ : FKind.Formats .f32)
    (hacc : acc = FKind.add.neutral .f32 hφ) (r : Fin n) :
    multiReduction .add [1] ⟨1, ![n]⟩ src acc h hφ hacc (ix1 r) = ∑ k : Fin d, src (ix2 r k) :=
  (Ideal.multiReduction_add_single src acc h hφ hacc (ix1 r)).trans
    (Finset.sum_congr rfl fun k _ => congrArg src (lift_row h r k))

/-- The sum of a matrix down its columns, read at column `t`: the sum over the rows of the column's entries. -/
theorem colSum_apply {n d : ℕ} (src : FVec Ideal ⟨2, ![n, d]⟩ .f32) (acc : BitVec FTy.f32.bits)
    (h : (⟨2, ![n, d]⟩ : Shape).Reduces [0] (⟨1, ![d]⟩ : Shape)) (hφ : FKind.Formats .f32)
    (hacc : acc = FKind.add.neutral .f32 hφ) (t : Fin d) :
    multiReduction .add [0] ⟨1, ![d]⟩ src acc h hφ hacc (ix1 t) = ∑ k : Fin n, src (ix2 k t) :=
  (Ideal.multiReduction_add_single src acc h hφ hacc (ix1 t)).trans
    (Finset.sum_congr rfl fun k _ => congrArg src (lift_col h t k))

/-! ## Kernel 2's body at its one entry -/

/-- The stored value: the sum over the rows of the row sums of |v0 · v4 − v2 · v6|. -/
theorem pay_apply (v0 v2 : Vec Ideal S1x1024x1024 .f32) (v4 v6 : Vec Ideal S1024x1024 .f32) :
    k2_pay1 (F := Ideal) v0 v2 v4 v6 (ix3 (0 : Fin 1) (0 : Fin 1) (0 : Fin 1))
      = ∑ y : Fin 1024, ∑ x : Fin 1024,
          absE (v0 (ix3 (0 : Fin 1) y x) * v4 (ix2 y x) - v2 (ix3 (0 : Fin 1) y x) * v6 (ix2 y x)) := by
  unfold k2_pay1
  refine (shapeCast_ab_1ab_apply _ _ 0 0 0).trans ?_
  refine (shapeCast_a_1a_apply _ _ 0 0).trans ?_
  refine (colSum_apply _ _ _ _ _ 0).trans ?_
  refine Finset.sum_congr rfl fun y _ => ?_
  refine (shapeCast_a_a1_apply _ _ y 0).trans ?_
  refine (rowSum_apply _ _ _ _ _ y).trans ?_
  refine Finset.sum_congr rfl fun x _ => ?_
  show absE (shapeCast S1024x1024 v0 _ (ix2 y x) * shapeCast S1024x1024 v4 _ (ix2 y x)
      - shapeCast S1024x1024 v2 _ (ix2 y x) * shapeCast S1024x1024 v6 _ (ix2 y x)) = _
  rw [shapeCast_1ab_ab_apply v0 _ y x, shapeCast_1ab_ab_apply v2 _ y x, shapeCast_self v4, shapeCast_self v6]

/-- Kernel 2's output block, at its one entry, is the double sum of |x0 · x2 − x1 · x3| over the image. -/
theorem logBlock_apply (x0 x1 : Vec Ideal S1x1024x1024 .f32) (x2 x3 : Vec Ideal S1024x1024 .f32) :
    out2_4 (F := Ideal) x0 x1 x2 x3 (ValueIdx.ix3 (0 : Fin 1) (0 : Fin 1) (0 : Fin 1))
      = ∑ y : Fin 1024, ∑ x : Fin 1024,
          absE (x0 (ValueIdx.ix3 (0 : Fin 1) y x) * x2 (ValueIdx.ix2 y x)
            - x1 (ValueIdx.ix3 (0 : Fin 1) y x) * x3 (ValueIdx.ix2 y x)) := by
  have hz3 : (![0, 0, 0] : Fin 3 → Nat) = fun _ => 0 := funext fun a => by fin_cases a <;> rfl
  have hz2 : (![0, 0] : Fin 2 → Nat) = fun _ => 0 := funext fun a => by fin_cases a <;> rfl
  unfold out2_4
  rw [View.canon_unit_zero hz3, View.ld_unit_zero (S := S1x1024x1024) hz3 _ x0,
    View.ld_unit_zero (S := S1x1024x1024) hz3 _ x1, View.ld_unit_zero (S := S1024x1024) hz2 _ x2,
    View.ld_unit_zero (S := S1024x1024) hz2 _ x3]
  exact pay_apply x0 x1 x2 x3

/-! ## Kernel 1: from blocks to the array -/

section Arrays

variable (V : (c : Dev nD) → (b : Ref sig .tc) → Buf (Elt Ideal) ((c : Thread nD τ).loc b)) (c : Dev nD)

/-- The block indices of kernel 1's two windows, decided over the grid: the input block moves with the output block on
    the two image axes, and neither moves inside an image. -/
theorem idx_facts1 : ∀ t : Fin cfg1.N,
    win1_0.index t (0 : Fin 4) = win1_1.index t (0 : Fin 4) ∧ win1_0.index t (1 : Fin 4) = win1_1.index t (1 : Fin 4)
    ∧ win1_0.index t (2 : Fin 4) = 0 ∧ win1_0.index t (3 : Fin 4) = 0
    ∧ win1_1.index t (2 : Fin 4) = 0 ∧ win1_1.index t (3 : Fin 4) = 0 :=
  (by decide +kernel : ∀ t : Fin grid1.N, _)

/-- Every image `(s, b)` is some point's output block. -/
theorem idx_onto1 : ∀ (s : Fin 2) (b : Fin 8), ∃ t : Fin cfg1.N, win1_1.index t = ![s.val, b.val, 0, 0] :=
  (by decide +kernel : ∀ (s : Fin 2) (b : Fin 8), ∃ t : Fin grid1.N, win1_1.index t = ![s.val, b.val, 0, 0])

/-- What the point whose output block is image `(s, b)` writes back, at entry `(y, x)`: the blur of image `(s, b)` of
    the input array there. -/
theorem gauss_flushed (t : Fin cfg1.N) (s : Fin 2) (b : Fin 8)
    (h0 : win1_1.index t (0 : Fin 4) = s.val) (h1 : win1_1.index t (1 : Fin 4) = b.val) (y x : Fin 1024) :
    (dat1 (F := Ideal) V c).flushed 1 t (ix4 (0 : Fin 1) (0 : Fin 1) y x)
      = Cert.StencilSpec.blur (fun y' x' => V c (Pipeline.arrRef spec1 0) (ix4 s b y' x')) y x := by
  have e : (dat1 (F := Ideal) V c).flushed 1 t (ix4 (0 : Fin 1) (0 : Fin 1) y x)
      = out1_1 (F := Ideal) (iblk1 (F := Ideal) V c 0 t) (ix4 (0 : Fin 1) (0 : Fin 1) y x) :=
    congrFun (after1_1 V c t) _
  refine e.trans ((Cert.KernelIdeal.GaussBlock.out_apply (iblk1 (F := Ideal) V c 0 t) y x).trans ?_)
  refine congrArg (fun f => Cert.StencilSpec.blur f y x) (funext fun y' => funext fun x' => ?_)
  show V c (Pipeline.arrRef spec1 0) (((cfg1.win 0).blk t).view.emb (ix4 (0 : Fin 1) (0 : Fin 1) y' x')) = _
  obtain ⟨e0, e1, e2, e3, e4, e5⟩ := idx_facts1 t
  refine congrArg _ (funext fun a => Fin.ext ?_)
  match a with
  | ⟨0, _⟩ => show win1_0.index t (0 : Fin 4) * 1 + 1 * 0 = s.val; omega
  | ⟨1, _⟩ => show win1_0.index t (1 : Fin 4) * 1 + 1 * 0 = b.val; omega
  | ⟨2, _⟩ => show win1_0.index t (2 : Fin 4) * 1024 + 1 * y'.val = y'.val; omega
  | ⟨3, _⟩ => show win1_0.index t (3 : Fin 4) * 1024 + 1 * x'.val = x'.val; omega

end Arrays

section Arrays1

variable (V : (c : Dev nD) → (b : Ref sig .tc) → Buf (Elt Ideal) ((c : Thread nD τ).loc b)) (c : Dev nD)

/-- After kernel 1's last point, entry `(y, x)` of image `(s, b)` of its output array is the blur of image `(s, b)` of its
    input array there: whichever point wrote the entry last has image `(s, b)` as its output block, and wrote the blur. -/
theorem gauss_apply (s : Fin 2) (b : Fin 8) (y x : Fin 1024) :
    (dat1 (F := Ideal) V c).arrAt 1 cfg1.N (ValueIdx.ix4 s b y x)
      = Cert.StencilSpec.blur (fun y' x' => V c (Pipeline.arrRef spec1 0) (ValueIdx.ix4 s b y' x')) y x := by
  obtain ⟨t, ht⟩ := idx_onto1 s b
  have h0 : win1_1.index t (0 : Fin 4) = s.val := congrFun ht 0
  have h1 : win1_1.index t (1 : Fin 4) = b.val := congrFun ht 1
  have h2 : win1_1.index t (2 : Fin 4) = 0 := congrFun ht 2
  have h3 : win1_1.index t (3 : Fin 4) = 0 := congrFun ht 3
  refine (dat1 (F := Ideal) V c).arrAt_forall_of_flushed 1
    (fun i v => ∀ (y x : Fin 1024), i = ix4 s b y x
      → v = Cert.StencilSpec.blur (fun y' x' => V c (Pipeline.arrRef spec1 0) (ix4 s b y' x')) y x)
    ?_ cfg1.N t (ix4 s b y x) t.isLt (flush1_1 t) ?_ y x rfl
  · -- every point's write-back has the property
    intro t' _ j y x he
    obtain ⟨e0, e1, e2, e3, e4, e5⟩ := idx_facts1 t'
    have j0 : (j 0).val < 1 := (j 0).isLt
    have j1 : (j 1).val < 1 := (j 1).isLt
    have c0 : win1_1.index t' (0 : Fin 4) * 1 + 1 * (j 0).val = s.val := congrArg (fun i => (i 0).val) he
    have c1 : win1_1.index t' (1 : Fin 4) * 1 + 1 * (j 1).val = b.val := congrArg (fun i => (i 1).val) he
    have c2 : win1_1.index t' (2 : Fin 4) * 1024 + 1 * (j 2).val = y.val := congrArg (fun i => (i 2).val) he
    have c3 : win1_1.index t' (3 : Fin 4) * 1024 + 1 * (j 3).val = x.val := congrArg (fun i => (i 3).val) he
    have hj : j = ix4 (0 : Fin 1) (0 : Fin 1) y x := funext fun a => Fin.ext (by
      match a with
      | ⟨0, _⟩ => show (j 0).val = 0; omega
      | ⟨1, _⟩ => show (j 1).val = 0; omega
      | ⟨2, _⟩ => show (j 2).val = y.val; omega
      | ⟨3, _⟩ => show (j 3).val = x.val; omega)
    subst hj
    exact gauss_flushed V c t' s b (by omega) (by omega) y x
  · -- the entry is in the block of the point found
    show ix4 s b y x ∈ ((View.whole main_v4).slice (win1_1.rect t)).set
    rw [View.set_slice_whole, Rect.mem_set_unit]
    intro a
    have hy := y.isLt
    have hx := x.isLt
    match a with
    | ⟨0, _⟩ => show win1_1.index t (0 : Fin 4) * 1 ≤ s.val ∧ s.val < win1_1.index t (0 : Fin 4) * 1 + 1; omega
    | ⟨1, _⟩ => show win1_1.index t (1 : Fin 4) * 1 ≤ b.val ∧ b.val < win1_1.index t (1 : Fin 4) * 1 + 1; omega
    | ⟨2, _⟩ => show win1_1.index t (2 : Fin 4) * 1024 ≤ y.val ∧ y.val < win1_1.index t (2 : Fin 4) * 1024 + 1024; omega
    | ⟨3, _⟩ => show win1_1.index t (3 : Fin 4) * 1024 ≤ x.val ∧ x.val < win1_1.index t (3 : Fin 4) * 1024 + 1024; omega

end Arrays1

/-! ## Kernel 2: from blocks to the array -/

/-- Equal factors, equal absolute difference of the products. -/
theorem absE_congr {a a' b b' c c' d d' : EReal} (ha : a = a') (hb : b = b') (hc : c = c') (hd : d = d') :
    absE (a * b - c * d) = absE (a' * b' - c' * d') := by
  subst ha hb hc hd; rfl

section Arrays2

variable (V : (c : Dev nD) → (b : Ref sig .tc) → Buf (Elt Ideal) ((c : Thread nD τ).loc b)) (c : Dev nD)

/-- The block indices of kernel 2's five windows, decided over the grid: the two image stacks' blocks move with the output
    block along the stack and nowhere else, and the two whole images stay where they are. -/
theorem idx_facts2 : ∀ t : Fin cfg2.N,
    win2_0.index t (0 : Fin 3) = win2_4.index t (0 : Fin 3) ∧ win2_0.index t (1 : Fin 3) = 0 ∧ win2_0.index t (2 : Fin 3) = 0
    ∧ win2_1.index t (0 : Fin 3) = win2_4.index t (0 : Fin 3) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 3) = 0 ∧ win2_4.index t (2 : Fin 3) = 0 :=
  (by decide +kernel : ∀ t : Fin grid2.N, _)

/-- Every entry `b` of the output is some point's output block. -/
theorem idx_onto2 : ∀ b : Fin 8, ∃ t : Fin cfg2.N, win2_4.index t = ![b.val, 0, 0] :=
  (by decide +kernel : ∀ b : Fin 8, ∃ t : Fin grid2.N, win2_4.index t = ![b.val, 0, 0])

/-- What the point whose output block is entry `b` writes back: the double sum over image `b` of the two stacks, each
    against its whole image. -/
theorem logsum_flushed (t : Fin cfg2.N) (b : Fin 8) (h0 : win2_4.index t (0 : Fin 3) = b.val) :
    (dat2 (F := Ideal) V c).flushed 4 t (ix3 (0 : Fin 1) (0 : Fin 1) (0 : Fin 1))
      = absDiffSum (fun y x => V c (Pipeline.arrRef spec2 0) (ix3 b y x))
          (fun y x => V c (Pipeline.arrRef spec2 1) (ix3 b y x))
          (fun y x => V c (Pipeline.arrRef spec2 2) (ix2 y x))
          (fun y x => V c (Pipeline.arrRef spec2 3) (ix2 y x)) := by
  have e : (dat2 (F := Ideal) V c).flushed 4 t (ix3 (0 : Fin 1) (0 : Fin 1) (0 : Fin 1))
      = out2_4 (F := Ideal) (iblk2 (F := Ideal) V c 0 t) (iblk2 (F := Ideal) V c 1 t) (iblk2 (F := Ideal) V c 2 t)
          (iblk2 (F := Ideal) V c 3 t) (ix3 (0 : Fin 1) (0 : Fin 1) (0 : Fin 1)) :=
    congrFun (after2_4 V c t) _
  refine e.trans ((logBlock_apply (iblk2 (F := Ideal) V c 0 t) (iblk2 (F := Ideal) V c 1 t)
    (iblk2 (F := Ideal) V c 2 t) (iblk2 (F := Ideal) V c 3 t)).trans ?_)
  obtain ⟨e0, e1, e2, e3, e4, e5, e6, e7, e8, e9, e10, e11⟩ := idx_facts2 t
  unfold absDiffSum
  refine Finset.sum_congr rfl fun y _ => Finset.sum_congr rfl fun x _ => ?_
  have a0 : iblk2 (F := Ideal) V c 0 t (ix3 (0 : Fin 1) y x) = V c (Pipeline.arrRef spec2 0) (ix3 b y x) := by
    show V c (Pipeline.arrRef spec2 0) (((cfg2.win 0).blk t).view.emb (ix3 (0 : Fin 1) y x)) = _
    refine congrArg _ (funext fun a => Fin.ext ?_)
    match a with
    | ⟨0, _⟩ => show win2_0.index t (0 : Fin 3) * 1 + 1 * 0 = b.val; omega
    | ⟨1, _⟩ => show win2_0.index t (1 : Fin 3) * 1024 + 1 * y.val = y.val; omega
    | ⟨2, _⟩ => show win2_0.index t (2 : Fin 3) * 1024 + 1 * x.val = x.val; omega
  have a1 : iblk2 (F := Ideal) V c 1 t (ix3 (0 : Fin 1) y x) = V c (Pipeline.arrRef spec2 1) (ix3 b y x) := by
    show V c (Pipeline.arrRef spec2 1) (((cfg2.win 1).blk t).view.emb (ix3 (0 : Fin 1) y x)) = _
    refine congrArg _ (funext fun a => Fin.ext ?_)
    match a with
    | ⟨0, _⟩ => show win2_1.index t (0 : Fin 3) * 1 + 1 * 0 = b.val; omega
    | ⟨1, _⟩ => show win2_1.index t (1 : Fin 3) * 1024 + 1 * y.val = y.val; omega
    | ⟨2, _⟩ => show win2_1.index t (2 : Fin 3) * 1024 + 1 * x.val = x.val; omega
  have a2 : iblk2 (F := Ideal) V c 2 t (ix2 y x) = V c (Pipeline.arrRef spec2 2) (ix2 y x) := by
    show V c (Pipeline.arrRef spec2 2) (((cfg2.win 2).blk t).view.emb (ix2 y x)) = _
    refine congrArg _ (funext fun a => Fin.ext ?_)
    match a with
    | ⟨0, _⟩ => show win2_2.index t (0 : Fin 2) * 1024 + 1 * y.val = y.val; omega
    | ⟨1, _⟩ => show win2_2.index t (1 : Fin 2) * 1024 + 1 * x.val = x.val; omega
  have a3 : iblk2 (F := Ideal) V c 3 t (ix2 y x) = V c (Pipeline.arrRef spec2 3) (ix2 y x) := by
    show V c (Pipeline.arrRef spec2 3) (((cfg2.win 3).blk t).view.emb (ix2 y x)) = _
    refine congrArg _ (funext fun a => Fin.ext ?_)
    match a with
    | ⟨0, _⟩ => show win2_3.index t (0 : Fin 2) * 1024 + 1 * y.val = y.val; omega
    | ⟨1, _⟩ => show win2_3.index t (1 : Fin 2) * 1024 + 1 * x.val = x.val; omega
  exact absE_congr a0 a2 a1 a3

end Arrays2

section Arrays2b

variable (V : (c : Dev nD) → (b : Ref sig .tc) → Buf (Elt Ideal) ((c : Thread nD τ).loc b)) (c : Dev nD)

/-- After kernel 2's last point, entry `b` of its output array is the double sum over image `b` of the two stacks, each
    against its whole image: whichever point wrote the entry last has entry `b` as its output block, and wrote that sum. -/
theorem logsum_apply (b : Fin 8) :
    (dat2 (F := Ideal) V c).arrAt 4 cfg2.N (ValueIdx.ix3 b (0 : Fin 1) (0 : Fin 1))
      = absDiffSum (fun y x => V c (Pipeline.arrRef spec2 0) (ValueIdx.ix3 b y x))
          (fun y x => V c (Pipeline.arrRef spec2 1) (ValueIdx.ix3 b y x))
          (fun y x => V c (Pipeline.arrRef spec2 2) (ValueIdx.ix2 y x))
          (fun y x => V c (Pipeline.arrRef spec2 3) (ValueIdx.ix2 y x)) := by
  obtain ⟨t, ht⟩ := idx_onto2 b
  have h0 : win2_4.index t (0 : Fin 3) = b.val := congrFun ht 0
  have h1 : win2_4.index t (1 : Fin 3) = 0 := congrFun ht 1
  have h2 : win2_4.index t (2 : Fin 3) = 0 := congrFun ht 2
  refine (dat2 (F := Ideal) V c).arrAt_forall_of_flushed 4
    (fun i v => i = ix3 b (0 : Fin 1) (0 : Fin 1)
      → v = absDiffSum (fun y x => V c (Pipeline.arrRef spec2 0) (ix3 b y x))
          (fun y x => V c (Pipeline.arrRef spec2 1) (ix3 b y x))
          (fun y x => V c (Pipeline.arrRef spec2 2) (ix2 y x))
          (fun y x => V c (Pipeline.arrRef spec2 3) (ix2 y x)))
    ?_ cfg2.N t (ix3 b (0 : Fin 1) (0 : Fin 1)) t.isLt (flush2_4 t) ?_ rfl
  · -- every point's write-back has the property
    intro t' _ j he
    have j0 : (j 0).val < 1 := (j 0).isLt
    have j1 : (j 1).val < 1 := (j 1).isLt
    have j2 : (j 2).val < 1 := (j 2).isLt
    have c0 : win2_4.index t' (0 : Fin 3) * 1 + 1 * (j 0).val = b.val := congrArg (fun i => (i 0).val) he
    have hj : j = ix3 (0 : Fin 1) (0 : Fin 1) (0 : Fin 1) := funext fun a => Fin.ext (by
      match a with
      | ⟨0, _⟩ => show (j 0).val = 0; omega
      | ⟨1, _⟩ => show (j 1).val = 0; omega
      | ⟨2, _⟩ => show (j 2).val = 0; omega)
    subst hj
    exact logsum_flushed V c t' b (by omega)
  · -- the entry is in the block of the point found
    show ix3 b (0 : Fin 1) (0 : Fin 1) ∈ ((View.whole main_v165).slice (win2_4.rect t)).set
    rw [View.set_slice_whole, Rect.mem_set_unit]
    intro a
    match a with
    | ⟨0, _⟩ => show win2_4.index t (0 : Fin 3) * 1 ≤ b.val ∧ b.val < win2_4.index t (0 : Fin 3) * 1 + 1; omega
    | ⟨1, _⟩ => show win2_4.index t (1 : Fin 3) * 1 ≤ 0 ∧ 0 < win2_4.index t (1 : Fin 3) * 1 + 1; omega
    | ⟨2, _⟩ => show win2_4.index t (2 : Fin 3) * 1 ≤ 0 ∧ 0 < win2_4.index t (2 : Fin 3) * 1 + 1; omega

end Arrays2b

end Cert.KernelIdeal.RegionArrays

end
-- ==== Proof.KerLog.lean ====
/-
  The kernel program's blur-times-second-image term, read at its one index.

  The program computes the term in stages.  Kernel 0 leaves the two batches' channel-mean image stacks.  Host operations
  give each stack a leading axis of extent one and join the two along it, and kernel 1 blurs each of the sixteen images.
  Host operations split the blurred stack back into its two halves; kernel 2 multiplies each half, image by image,
  with a fixed second image of its own, takes the absolute difference of the two products and sums it over the image.
  Host operations add the eight sums from zero and divide by the pixel count.

  Read backwards from the result: the quotient's numerator is the sum over the batch of kernel 2's outputs; each of
  those is the sum over the image of |blur(first half) · second image − blur(second half) · other second image|; each
  half is kernel 1's output at leading coordinate 0 or 1; kernel 1's output is the blur of its input; its input at
  leading coordinate 0 or 1 is the first or the second channel-mean stack.  The stretches of host operations that lie
  between a value's definition and its use do not write it.
-/
import proofs.«123598_j69123203661888_2_alg».proof.Proof.Gen.KernelIdeal.Frame
import proofs.«123598_j69123203661888_2_alg».proof.Proof.RegionArrays
import proofs.«123598_j69123203661888_2_alg».proof.Proof.TermSpec
import proofs.«123598_j69123203661888_2_alg».proof.Proof.LibSumIdx
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout
import Idealize.ShloMosaic.Lib.Tactic

noncomputable section

namespace Cert.KernelIdeal.KerLog

open Idealize.ShloMosaic Idealize.ShloMosaic.StableHlo Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

/-- No operation of the stretch writes the buffer: each operation's written buffer is another one. -/
local macro "not_written" ops:ident : term =>
  `(List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## Layout operations on a leading axis, at an entry -/

section Layout
variable {α : Type}

/-- A slice of extent one on the leading axis of a rank-4 array, at offset `o` there and zero elsewhere, reads the array
    at leading coordinate `o`. -/
theorem slice4_lead_apply {n0 n1 n2 n3 : ℕ} (o : ℕ) (X : (⟨4, ![n0, n1, n2, n3]⟩ : Shape).Idx → α)
    (h : (⟨4, ![n0, n1, n2, n3]⟩ : Shape).Slices ![o, 0, 0, 0] ⟨4, ![1, n1, n2, n3]⟩) (s : Fin n0) (hs : s.val = o)
    (u : Fin 1) (b : Fin n1) (y : Fin n2) (x : Fin n3) :
    extractStridedSlice ⟨4, ![1, n1, n2, n3]⟩ ![o, 0, 0, 0] X h (ix4 u b y x) = X (ix4 s b y x) :=
  extractStridedSlice_apply _ _ _ _ _ (fun a => by
    have hu := u.isLt
    match a with
    | ⟨0, _⟩ => show s.val = o + u.val; omega
    | ⟨1, _⟩ => exact (Nat.zero_add _).symm
    | ⟨2, _⟩ => exact (Nat.zero_add _).symm
    | ⟨3, _⟩ => exact (Nat.zero_add _).symm)

/-- A rank-3 array broadcast along a new leading axis of extent one reads the array at the other three coordinates. -/
theorem bcast_lead_apply {n1 n2 n3 : ℕ} (X : (⟨3, ![n1, n2, n3]⟩ : Shape).Idx → α)
    (h : (⟨3, ![n1, n2, n3]⟩ : Shape).BroadcastsInDim ⟨4, ![1, n1, n2, n3]⟩ ![1, 2, 3])
    (u : Fin 1) (b : Fin n1) (y : Fin n2) (x : Fin n3) :
    broadcastInDim ⟨4, ![1, n1, n2, n3]⟩ ![1, 2, 3] h X (ix4 u b y x) = X (ix3 b y x) :=
  broadcastInDim_apply _ h X _ _ (fun a => by
    have hb := b.isLt
    have hy := y.isLt
    have hx := x.isLt
    match a with
    | ⟨0, _⟩ => show b.val = if n1 = 1 then 0 else b.val; split <;> omega
    | ⟨1, _⟩ => show y.val = if n2 = 1 then 0 else y.val; split <;> omega
    | ⟨2, _⟩ => show x.val = if n3 = 1 then 0 else x.val; split <;> omega)

/-- Two rank-4 arrays of leading extent one joined along the leading axis: at leading coordinate 0 the first. -/
theorem concat4_lead_fst {n1 n2 n3 : ℕ} (X0 X1 : (⟨4, ![1, n1, n2, n3]⟩ : Shape).Idx → α)
    (h : Shape.Concatenates [⟨4, ![1, n1, n2, n3]⟩, ⟨4, ![1, n1, n2, n3]⟩] ⟨4, ![2, n1, n2, n3]⟩ 0)
    (s : Fin 2) (hs : s.val = 0) (b : Fin n1) (y : Fin n2) (x : Fin n3) :
    concatenate ⟨4, ![2, n1, n2, n3]⟩ 0 [⟨⟨4, ![1, n1, n2, n3]⟩, X0⟩, ⟨⟨4, ![1, n1, n2, n3]⟩, X1⟩] h (ix4 s b y x)
      = X0 (ix4 (0 : Fin 1) b y x) :=
  concatenate_pair_apply_left 0 X0 X1 h _ rfl _ (fun a => by
    match a with
    | ⟨0, _⟩ => show 0 = s.val; omega
    | ⟨1, _⟩ => rfl
    | ⟨2, _⟩ => rfl
    | ⟨3, _⟩ => rfl)

/-- … and at leading coordinate 1 the second. -/
theorem concat4_lead_snd {n1 n2 n3 : ℕ} (X0 X1 : (⟨4, ![1, n1, n2, n3]⟩ : Shape).Idx → α)
    (h : Shape.Concatenates [⟨4, ![1, n1, n2, n3]⟩, ⟨4, ![1, n1, n2, n3]⟩] ⟨4, ![2, n1, n2, n3]⟩ 0)
    (s : Fin 2) (hs : s.val = 1) (b : Fin n1) (y : Fin n2) (x : Fin n3) :
    concatenate ⟨4, ![2, n1, n2, n3]⟩ 0 [⟨⟨4, ![1, n1, n2, n3]⟩, X0⟩, ⟨⟨4, ![1, n1, n2, n3]⟩, X1⟩] h (ix4 s b y x)
      = X1 (ix4 (0 : Fin 1) b y x) :=
  concatenate_pair_apply_right 0 X0 X1 h _ rfl rfl _ (fun a hne => by
    match a with
    | ⟨0, _⟩ => exact absurd rfl hne
    | ⟨1, _⟩ => rfl
    | ⟨2, _⟩ => rfl
    | ⟨3, _⟩ => rfl) (by show 0 + 1 = s.val; omega)

end Layout

/-! ## The tail: from the mean back to kernel 2's output -/

/-- The three stretches after the mean is taken do not write it. -/
theorem tail_carry : W17 (F := Ideal) m ρ c (Proc.devRef .tc main_v167) = W14 (F := Ideal) m ρ c (Proc.devRef .tc main_v167) :=
  calc W17 (F := Ideal) m ρ c (Proc.devRef .tc main_v167)
    _ = W16 (F := Ideal) m ρ c (Proc.devRef .tc main_v167) :=
        StableHlo.after_of_forall_not_mem (b := Proc.devRef .tc main_v167) _ _ (not_written hostOps3_3)
    _ = W15 (F := Ideal) m ρ c (Proc.devRef .tc main_v167) :=
        StableHlo.after_of_forall_not_mem (b := Proc.devRef .tc main_v167) _ _ (not_written hostOps3_2)
    _ = W14 (F := Ideal) m ρ c (Proc.devRef .tc main_v167) :=
        StableHlo.after_of_forall_not_mem (b := Proc.devRef .tc main_v167) _ _ (not_written hostOps3_1)

/-- The mean: the sum of kernel 2's eight outputs, from zero, over the pixel count. -/
theorem tail_eq (A : S8x1x1.Idx → EReal) (hA : W13 (F := Ideal) m ρ c (Proc.devRef .tc main_v165) = A) :
    W17 (F := Ideal) m ρ c (Proc.devRef .tc main_v167) ix0
      = Ideal.div (∑ b : Fin 8, A (ix3 b (0 : Fin 1) (0 : Fin 1))) Cert.TermSpec.cPix := by
  subst hA
  rw [tail_carry]
  show StableHlo.after hostOps3 (W13 (F := Ideal) m ρ c) (Proc.devRef .tc main_v167) ix0 = _
  simp only [hostOps3]
  after_results_simp
  show Ideal.div (Ideal.hostReduceAdd reducesTo_S8x1x1_S_d0_1_2 (W13 (F := Ideal) m ρ c (Proc.devRef .tc main_v165))
      (Ideal.ofBits .f32 0x00000000#32) ix0) (Ideal.ofBits .f32 0x4B000000#32) = _
  rw [Ideal.hostReduceAdd_total _ (fun b => b.elim0), Ideal.ofBits_zero_f32, zero_add, sum_idx3]
  simp only [Fin.sum_univ_one]
  rfl

/-! ## Between the kernels -/

/-- The eight stretches between the split of the blurred stack and kernel 2 do not write its first half, -/
theorem v6_carry : W12 (F := Ideal) m ρ c (Proc.devRef .tc main_v6) = W4 (F := Ideal) m ρ c (Proc.devRef .tc main_v6) :=
  calc W12 (F := Ideal) m ρ c (Proc.devRef .tc main_v6)
    _ = W11 (F := Ideal) m ρ c (Proc.devRef .tc main_v6) :=
        StableHlo.after_of_forall_not_mem (b := Proc.devRef .tc main_v6) _ _ (not_written hostOps2_8)
    _ = W10 (F := Ideal) m ρ c (Proc.devRef .tc main_v6) :=
        StableHlo.after_of_forall_not_mem (b := Proc.devRef .tc main_v6) _ _ (not_written hostOps2_7)
    _ = W9 (F := Ideal) m ρ c (Proc.devRef .tc main_v6) :=
        StableHlo.after_of_forall_not_mem (b := Proc.devRef .tc main_v6) _ _ (not_written hostOps2_6)
    _ = W8 (F := Ideal) m ρ c (Proc.devRef .tc main_v6) :=
        StableHlo.after_of_forall_not_mem (b := Proc.devRef .tc main_v6) _ _ (not_written hostOps2_5)
    _ = W7 (F := Ideal) m ρ c (Proc.devRef .tc main_v6) :=
        StableHlo.after_of_forall_not_mem (b := Proc.devRef .tc main_v6) _ _ (not_written hostOps2_4)
    _ = W6 (F := Ideal) m ρ c (Proc.devRef .tc main_v6) :=
        StableHlo.after_of_forall_not_mem (b := Proc.devRef .tc main_v6) _ _ (not_written hostOps2_3)
    _ = W5 (F := Ideal) m ρ c (Proc.devRef .tc main_v6) :=
        StableHlo.after_of_forall_not_mem (b := Proc.devRef .tc main_v6) _ _ (not_written hostOps2_2)
    _ = W4 (F := Ideal) m ρ c (Proc.devRef .tc main_v6) :=
        StableHlo.after_of_forall_not_mem (b := Proc.devRef .tc main_v6) _ _ (not_written hostOps2_1)

/-- nor its second half. -/
theorem v8_carry : W12 (F := Ideal) m ρ c (Proc.devRef .tc main_v8) = W4 (F := Ideal) m ρ c (Proc.devRef .tc main_v8) :=
  calc W12 (F := Ideal) m ρ c (Proc.devRef .tc main_v8)
    _ = W11 (F := Ideal) m ρ c (Proc.devRef .tc main_v8) :=
        StableHlo.after_of_forall_not_mem (b := Proc.devRef .tc main_v8) _ _ (not_written hostOps2_8)
    _ = W10 (F := Ideal) m ρ c (Proc.devRef .tc main_v8) :=
        StableHlo.after_of_forall_not_mem (b := Proc.devRef .tc main_v8) _ _ (not_written hostOps2_7)
    _ = W9 (F := Ideal) m ρ c (Proc.devRef .tc main_v8) :=
        StableHlo.after_of_forall_not_mem (b := Proc.devRef .tc main_v8) _ _ (not_written hostOps2_6)
    _ = W8 (F := Ideal) m ρ c (Proc.devRef .tc main_v8) :=
        StableHlo.after_of_forall_not_mem (b := Proc.devRef .tc main_v8) _ _ (not_written hostOps2_5)
    _ = W7 (F := Ideal) m ρ c (Proc.devRef .tc main_v8) :=
        StableHlo.after_of_forall_not_mem (b := Proc.devRef .tc main_v8) _ _ (not_written hostOps2_4)
    _ = W6 (F := Ideal) m ρ c (Proc.devRef .tc main_v8) :=
        StableHlo.after_of_forall_not_mem (b := Proc.devRef .tc main_v8) _ _ (not_written hostOps2_3)
    _ = W5 (F := Ideal) m ρ c (Proc.devRef .tc main_v8) :=
        StableHlo.after_of_forall_not_mem (b := Proc.devRef .tc main_v8) _ _ (not_written hostOps2_2)
    _ = W4 (F := Ideal) m ρ c (Proc.devRef .tc main_v8) :=
        StableHlo.after_of_forall_not_mem (b := Proc.devRef .tc main_v8) _ _ (not_written hostOps2_1)

/-- Kernel 2's first image stack is the first half of kernel 1's output, -/
theorem v6_read (B : S2x8x1024x1024.Idx → EReal) (hB : W3 (F := Ideal) m ρ c (Proc.devRef .tc main_v4) = B)
    (b : Fin 8) (y x : Fin 1024) :
    W12 (F := Ideal) m ρ c (Proc.devRef .tc main_v6) (ix3 b y x) = B (ix4 (0 : Fin 2) b y x) := by
  subst hB
  rw [v6_carry]
  show StableHlo.after hostOps2 (W3 (F := Ideal) m ρ c) (Proc.devRef .tc main_v6) (ix3 b y x) = _
  simp only [hostOps2]
  after_results_simp
  refine (shapeCast_1abc_abc_apply _ _ b y x).trans ?_
  exact slice4_lead_apply 0 _ _ (0 : Fin 2) rfl 0 b y x

/-- and its second stack the second half. -/
theorem v8_read (B : S2x8x1024x1024.Idx → EReal) (hB : W3 (F := Ideal) m ρ c (Proc.devRef .tc main_v4) = B)
    (b : Fin 8) (y x : Fin 1024) :
    W12 (F := Ideal) m ρ c (Proc.devRef .tc main_v8) (ix3 b y x) = B (ix4 (1 : Fin 2) b y x) := by
  subst hB
  rw [v8_carry]
  show StableHlo.after hostOps2 (W3 (F := Ideal) m ρ c) (Proc.devRef .tc main_v8) (ix3 b y x) = _
  simp only [hostOps2]
  after_results_simp
  refine (shapeCast_1abc_abc_apply _ _ b y x).trans ?_
  exact slice4_lead_apply 1 _ _ (1 : Fin 2) rfl 0 b y x

/-- Kernel 1's input is the two channel-mean stacks, one after the other. -/
theorem v3_read (G0 G1 : S8x1024x1024.Idx → EReal)
    (h0 : W1 (F := Ideal) m ρ c (Proc.devRef .tc main_v0_0) = G0) (h1 : W1 (F := Ideal) m ρ c (Proc.devRef .tc main_v0_1) = G1)
    (b : Fin 8) (y x : Fin 1024) :
    W2 (F := Ideal) m ρ c (Proc.devRef .tc main_v3) (ix4 (0 : Fin 2) b y x) = G0 (ix3 b y x)
      ∧ W2 (F := Ideal) m ρ c (Proc.devRef .tc main_v3) (ix4 (1 : Fin 2) b y x) = G1 (ix3 b y x) := by
  subst h0 h1
  constructor
  · show StableHlo.after hostOps1 (W1 (F := Ideal) m ρ c) (Proc.devRef .tc main_v3) (ix4 (0 : Fin 2) b y x) = _
    simp only [hostOps1]
    after_results_simp
    refine (concat4_lead_fst _ _ _ (0 : Fin 2) rfl b y x).trans ?_
    exact bcast_lead_apply _ _ 0 b y x
  · show StableHlo.after hostOps1 (W1 (F := Ideal) m ρ c) (Proc.devRef .tc main_v3) (ix4 (1 : Fin 2) b y x) = _
    simp only [hostOps1]
    after_results_simp
    refine (concat4_lead_snd _ _ _ (1 : Fin 2) rfl b y x).trans ?_
    exact bcast_lead_apply _ _ 0 b y x

/-! ## The two kernels' arrays -/

/-- Kernel 1's output array, at an entry, is the blur of the matching image of its input array. -/
theorem v4_read (A3 : S2x8x1024x1024.Idx → EReal) (h3 : W2 (F := Ideal) m ρ c (Proc.devRef .tc main_v3) = A3)
    (s : Fin 2) (b : Fin 8) (y x : Fin 1024) :
    W3 (F := Ideal) m ρ c (Proc.devRef .tc main_v4) (ix4 s b y x)
      = Cert.StencilSpec.blur (fun y' x' => A3 (ix4 s b y' x')) y x := by
  subst h3
  exact (congrFun (W3_arr (F := Ideal) m ρ c 1) _).trans
    (Cert.KernelIdeal.RegionArrays.gauss_apply (V2 (F := Ideal) m ρ) c s b y x)

/-- Kernel 2's output array, at entry `b`, is the sum over image `b` of its two stacks against its two whole images. -/
theorem v165_read (A0 A1 : S8x1024x1024.Idx → EReal) (L0 L1 : S1024x1024.Idx → EReal)
    (h0 : W12 (F := Ideal) m ρ c (Proc.devRef .tc main_v6) = A0) (h1 : W12 (F := Ideal) m ρ c (Proc.devRef .tc main_v8) = A1)
    (h2 : W12 (F := Ideal) m ρ c (Proc.devRef .tc main_v88) = L0) (h3 : W12 (F := Ideal) m ρ c (Proc.devRef .tc main_v164) = L1)
    (b : Fin 8) :
    W13 (F := Ideal) m ρ c (Proc.devRef .tc main_v165) (ix3 b (0 : Fin 1) (0 : Fin 1))
      = Cert.KernelIdeal.RegionArrays.absDiffSum (fun y x => A0 (ix3 b y x)) (fun y x => A1 (ix3 b y x))
          (fun y x => L0 (ix2 y x)) (fun y x => L1 (ix2 y x)) := by
  subst h0 h1 h2 h3
  exact (congrFun (W13_arr (F := Ideal) m ρ c 4) _).trans
    (Cert.KernelIdeal.RegionArrays.logsum_apply (V12 (F := Ideal) m ρ) c b)

/-! ## The whole term -/

/-- The kernel program's blur-times-second-image term, given that kernel 0 leaves the two channel-mean stacks. -/
theorem ker_log_of (D X : Cert.TermSpec.Img)
    (hP : ∀ (b : Fin 8) (y x : Fin 1024),
      (dat0 (F := Ideal) (V0 (F := Ideal) m ρ) c).arrAt 2 cfg0.N (ix3 b y x) = Cert.TermSpec.gray X b y x)
    (hT : ∀ (b : Fin 8) (y x : Fin 1024),
      (dat0 (F := Ideal) (V0 (F := Ideal) m ρ) c).arrAt 3 cfg0.N (ix3 b y x) = Cert.TermSpec.gray D b y x) :
    W17 (F := Ideal) m ρ c (Proc.devRef .tc main_v167) ix0
      = Cert.TermSpec.logTerm D X (fun y x => W12 (F := Ideal) m ρ c (Proc.devRef .tc main_v88) (ix2 y x))
          (fun y x => W12 (F := Ideal) m ρ c (Proc.devRef .tc main_v164) (ix2 y x)) := by
  have g0 : ∀ (b : Fin 8) (y x : Fin 1024),
      W1 (F := Ideal) m ρ c (Proc.devRef .tc main_v0_0) (ix3 b y x) = Cert.TermSpec.gray X b y x := fun b y x =>
    (congrFun (W1_arr (F := Ideal) m ρ c 2) _).trans (hP b y x)
  have g1 : ∀ (b : Fin 8) (y x : Fin 1024),
      W1 (F := Ideal) m ρ c (Proc.devRef .tc main_v0_1) (ix3 b y x) = Cert.TermSpec.gray D b y x := fun b y x =>
    (congrFun (W1_arr (F := Ideal) m ρ c 3) _).trans (hT b y x)
  rw [tail_eq m ρ c _ rfl]
  unfold Cert.TermSpec.logTerm
  refine congrArg (fun z => Ideal.div z Cert.TermSpec.cPix) (Finset.sum_congr rfl fun b _ => ?_)
  rw [v165_read m ρ c _ _ _ _ rfl rfl rfl rfl b, Cert.KernelIdeal.RegionArrays.absDiffSum_def]
  refine Finset.sum_congr rfl fun y _ => Finset.sum_congr rfl fun x _ => ?_
  have e6 : W12 (F := Ideal) m ρ c (Proc.devRef .tc main_v6) (ix3 b y x)
      = Cert.StencilSpec.blur (Cert.TermSpec.gray X b) y x := by
    rw [v6_read m ρ c _ rfl b y x, v4_read m ρ c _ rfl 0 b y x]
    refine congrArg (fun f => Cert.StencilSpec.blur f y x) (funext fun y' => funext fun x' => ?_)
    exact ((v3_read m ρ c _ _ rfl rfl b y' x').1).trans (g0 b y' x')
  have e8 : W12 (F := Ideal) m ρ c (Proc.devRef .tc main_v8) (ix3 b y x)
      = Cert.StencilSpec.blur (Cert.TermSpec.gray D b) y x := by
    rw [v8_read m ρ c _ rfl b y x, v4_read m ρ c _ rfl 1 b y x]
    refine congrArg (fun f => Cert.StencilSpec.blur f y x) (funext fun y' => funext fun x' => ?_)
    exact ((v3_read m ρ c _ _ rfl rfl b y' x').2).trans (g1 b y' x')
  exact Cert.KernelIdeal.RegionArrays.absE_congr e6 rfl e8 rfl

end Cert.KernelIdeal.KerLog

end
-- ==== Proof.LapDefs.lean ====
import proofs.«123598_j69123203661888_2_alg».proof.Proof.Gen.ReferenceIdeal
import Idealize.ShloMosaic.PureOps

noncomputable section

namespace Cert.Bridge.Lap

open Idealize.ShloMosaic Idealize.SL.Sem
open Cert.ReferenceIdeal (S_ S1x1 S3x3 S1x1024 S1024x1024 S1025x1024 S1026x1024 S1026x1 S1026x1025 S1026x1026
  S8x3x1024x1024 S1x1x1024x1024 lit0 lit1)
open Cert.ReferenceIdeal.Gen

variable {F : FTy → Type} [FloatOps F]

/-- Arrays of 32-bit floats of a given shape. -/
abbrev C (F : FTy → Type) (S : Shape) : Type := (⟨S, .f32⟩ : BufTy).Contents (Elt F)

/-! ## The first image of a batch of three-channel images -/

/-- Image `[0, 0]` of an `8 × 3 × 1024 × 1024` array: the leading `1 × 1 × 1024 × 1024` block, read as a matrix. -/
def img (A : C F S8x3x1024x1024) : C F S1024x1024 :=
  shapeCast S1024x1024
    (extractStridedSlice S1x1x1024x1024 ![0, 0, 0, 0] A slices_S8x3x1024x1024_S1x1x1024x1024_0_0_0_0)
    shapeCasts_S1x1x1024x1024_S1024x1024

/-! ## The mirrored border

A matrix grows by one row above (its second row), one row below (its last row but one), then one column to the left
(the second column of the result so far) and one to the right (the last column but one).  Each joined row or column
is first reversed along the axis on which it has extent one. -/

def padTop (x : C F S1024x1024) : C F S1025x1024 :=
  concatenate S1025x1024 0
    [⟨S1x1024, Host.reverse [0] (extractStridedSlice S1x1024 ![1, 0] x slices_S1024x1024_S1x1024_1_0)⟩,
     ⟨S1024x1024, x⟩] concatenates_S1x1024_S1024x1024_S1025x1024_d0

def padBottom (y : C F S1025x1024) : C F S1026x1024 :=
  concatenate S1026x1024 0
    [⟨S1025x1024, y⟩,
     ⟨S1x1024, Host.reverse [0] (extractStridedSlice S1x1024 ![1023, 0] y slices_S1025x1024_S1x1024_1023_0)⟩]
    concatenates_S1025x1024_S1x1024_S1026x1024_d0

def padLeft (z : C F S1026x1024) : C F S1026x1025 :=
  concatenate S1026x1025 1
    [⟨S1026x1, Host.reverse [1] (extractStridedSlice S1026x1 ![0, 1] z slices_S1026x1024_S1026x1_0_1)⟩,
     ⟨S1026x1024, z⟩] concatenates_S1026x1_S1026x1024_S1026x1025_d1

def padRight (w : C F S1026x1025) : C F S1026x1026 :=
  concatenate S1026x1026 1
    [⟨S1026x1025, w⟩,
     ⟨S1026x1, Host.reverse [1] (extractStridedSlice S1026x1 ![0, 1023] w slices_S1026x1025_S1026x1_0_1023)⟩]
    concatenates_S1026x1025_S1026x1_S1026x1026_d1

/-- The matrix with its mirrored border of width one. -/
def pad (x : C F S1024x1024) : C F S1026x1026 := padRight (padLeft (padBottom (padTop x)))

/-! ## A 3 × 3 stencil as nine accumulated products -/

/-- One more term: the running sum plus the weight, spread over the matrix, times the block of the bordered matrix
    at the given offset. -/
def tap (P : C F S1026x1026) (acc : C F S1024x1024) (w : C F S_) (off : Fin S1026x1026.rank → Nat)
    (h : S1026x1026.Slices off S1024x1024) : C F S1024x1024 :=
  addf acc (mulf (broadcastInDim S1024x1024 ![] bcast_S_S1024x1024 w) (extractStridedSlice S1024x1024 off P h))

/-- The nine terms in row-major order of the offsets, from a zero matrix. -/
def taps (w0 w1 w2 w3 w4 w5 w6 w7 w8 : C F S_) (P : C F S1026x1026) : C F S1024x1024 :=
  tap P (tap P (tap P (tap P (tap P (tap P (tap P (tap P (tap P
    (broadcastInDim S1024x1024 ![] bcast_S_S1024x1024 (constant S_ .f32 0x00000000#32))
    w0 ![0, 0] slices_S1026x1026_S1024x1024_0_0)
    w1 ![0, 1] slices_S1026x1026_S1024x1024_0_1)
    w2 ![0, 2] slices_S1026x1026_S1024x1024_0_2)
    w3 ![1, 0] slices_S1026x1026_S1024x1024_1_0)
    w4 ![1, 1] slices_S1026x1026_S1024x1024_1_1)
    w5 ![1, 2] slices_S1026x1026_S1024x1024_1_2)
    w6 ![2, 0] slices_S1026x1026_S1024x1024_2_0)
    w7 ![2, 1] slices_S1026x1026_S1024x1024_2_1)
    w8 ![2, 2] slices_S1026x1026_S1024x1024_2_2

/-- The blur: weights 1/16, 1/8, 1/16; 1/8, 1/4, 1/8; 1/16, 1/8, 1/16. -/
def tapsG (P : C F S1026x1026) : C F S1024x1024 :=
  taps (constant S_ .f32 0x3D800000#32) (constant S_ .f32 0x3E000000#32) (constant S_ .f32 0x3D800000#32)
       (constant S_ .f32 0x3E000000#32) (constant S_ .f32 0x3E800000#32) (constant S_ .f32 0x3E000000#32)
       (constant S_ .f32 0x3D800000#32) (constant S_ .f32 0x3E000000#32) (constant S_ .f32 0x3D800000#32) P

/-- The discrete Laplacian: weights 0, -1, 0; -1, 4, -1; 0, -1, 0. -/
def tapsL (P : C F S1026x1026) : C F S1024x1024 :=
  taps (constant S_ .f32 0x00000000#32) (constant S_ .f32 0xBF800000#32) (constant S_ .f32 0x00000000#32)
       (constant S_ .f32 0xBF800000#32) (constant S_ .f32 0x40800000#32) (constant S_ .f32 0xBF800000#32)
       (constant S_ .f32 0x00000000#32) (constant S_ .f32 0xBF800000#32) (constant S_ .f32 0x00000000#32) P

/-! ## The weights read out of a 3 × 3 table -/

/-- The table whose entry at a row-major position is the float of the listed word there. -/
def table (lit : Fin 9 → BitVec 32) : C F S3x3 := fun i => FloatOps.ofBits .f32 (lit (S3x3.rowMajor i))

/-- The entry of a table at an offset, as a scalar: the `1 × 1` block there, read at rank zero. -/
def wt (T : C F S3x3) (off : Fin S3x3.rank → Nat) (h : S3x3.Slices off S1x1) : C F S_ :=
  shapeCast S_ (extractStridedSlice S1x1 off T h) shapeCasts_S1x1_S_

/-- The stencil with its nine weights read out of a table. -/
def tapsT (T : C F S3x3) (P : C F S1026x1026) : C F S1024x1024 :=
  taps (wt T ![0, 0] slices_S3x3_S1x1_0_0) (wt T ![0, 1] slices_S3x3_S1x1_0_1) (wt T ![0, 2] slices_S3x3_S1x1_0_2)
       (wt T ![1, 0] slices_S3x3_S1x1_1_0) (wt T ![1, 1] slices_S3x3_S1x1_1_1) (wt T ![1, 2] slices_S3x3_S1x1_1_2)
       (wt T ![2, 0] slices_S3x3_S1x1_2_0) (wt T ![2, 1] slices_S3x3_S1x1_2_1) (wt T ![2, 2] slices_S3x3_S1x1_2_2) P

/-- The entry of a table at offset `(i, j)` is the float of the word listed at row-major position `3 i + j`: the
    `1 × 1` block's only index has both coordinates zero. -/
theorem wt_table (lit : Fin 9 → BitVec 32) (i j : Nat) (h : S3x3.Slices ![i, j] S1x1) (k : Fin 9)
    (hk : k.val = i * 3 + j) :
    wt (table (F := F) lit) ![i, j] h = constant S_ .f32 (lit k) := by
  funext t
  show FloatOps.ofBits .f32 (lit (S3x3.rowMajor _)) = FloatOps.ofBits .f32 (lit k)
  congr 2
  apply Fin.ext
  rw [hk]
  refine (Shape.rowMajor_val_two _).trans ?_
  generalize (Shape.reshapeEquiv shapeCasts_S1x1_S_) t = e
  have hs : ∀ a : Fin 2, (![1, 1] : Fin 2 → Nat) a = 1 := by decide
  have hz : ∀ a : Fin 2, (e a).val = 0 := fun a => Nat.lt_one_iff.mp (lt_of_lt_of_eq (e a).isLt (hs a))
  show (![i, j] 0 + (e _).val) * ![3, 3] 1 + (![i, j] 1 + (e _).val) = i * 3 + j
  rw [hz, hz]
  show (i + 0) * 3 + (j + 0) = i * 3 + j
  omega

/-! ### The two tables of the programs, entry by entry -/

theorem wtG00 : wt (table (F := F) lit0) ![0, 0] slices_S3x3_S1x1_0_0 = constant S_ .f32 0x3D800000#32 :=
  wt_table lit0 0 0 _ 0 rfl
theorem wtG01 : wt (table (F := F) lit0) ![0, 1] slices_S3x3_S1x1_0_1 = constant S_ .f32 0x3E000000#32 :=
  wt_table lit0 0 1 _ 1 rfl
theorem wtG02 : wt (table (F := F) lit0) ![0, 2] slices_S3x3_S1x1_0_2 = constant S_ .f32 0x3D800000#32 :=
  wt_table lit0 0 2 _ 2 rfl
theorem wtG10 : wt (table (F := F) lit0) ![1, 0] slices_S3x3_S1x1_1_0 = constant S_ .f32 0x3E000000#32 :=
  wt_table lit0 1 0 _ 3 rfl
theorem wtG11 : wt (table (F := F) lit0) ![1, 1] slices_S3x3_S1x1_1_1 = constant S_ .f32 0x3E800000#32 :=
  wt_table lit0 1 1 _ 4 rfl
theorem wtG12 : wt (table (F := F) lit0) ![1, 2] slices_S3x3_S1x1_1_2 = constant S_ .f32 0x3E000000#32 :=
  wt_table lit0 1 2 _ 5 rfl
theorem wtG20 : wt (table (F := F) lit0) ![2, 0] slices_S3x3_S1x1_2_0 = constant S_ .f32 0x3D800000#32 :=
  wt_table lit0 2 0 _ 6 rfl
theorem wtG21 : wt (table (F := F) lit0) ![2, 1] slices_S3x3_S1x1_2_1 = constant S_ .f32 0x3E000000#32 :=
  wt_table lit0 2 1 _ 7 rfl
theorem wtG22 : wt (table (F := F) lit0) ![2, 2] slices_S3x3_S1x1_2_2 = constant S_ .f32 0x3D800000#32 :=
  wt_table lit0 2 2 _ 8 rfl

theorem wtL00 : wt (table (F := F) lit1) ![0, 0] slices_S3x3_S1x1_0_0 = constant S_ .f32 0x00000000#32 :=
  wt_table lit1 0 0 _ 0 rfl
theorem wtL01 : wt (table (F := F) lit1) ![0, 1] slices_S3x3_S1x1_0_1 = constant S_ .f32 0xBF800000#32 :=
  wt_table lit1 0 1 _ 1 rfl
theorem wtL02 : wt (table (F := F) lit1) ![0, 2] slices_S3x3_S1x1_0_2 = constant S_ .f32 0x00000000#32 :=
  wt_table lit1 0 2 _ 2 rfl
theorem wtL10 : wt (table (F := F) lit1) ![1, 0] slices_S3x3_S1x1_1_0 = constant S_ .f32 0xBF800000#32 :=
  wt_table lit1 1 0 _ 3 rfl
theorem wtL11 : wt (table (F := F) lit1) ![1, 1] slices_S3x3_S1x1_1_1 = constant S_ .f32 0x40800000#32 :=
  wt_table lit1 1 1 _ 4 rfl
theorem wtL12 : wt (table (F := F) lit1) ![1, 2] slices_S3x3_S1x1_1_2 = constant S_ .f32 0xBF800000#32 :=
  wt_table lit1 1 2 _ 5 rfl
theorem wtL20 : wt (table (F := F) lit1) ![2, 0] slices_S3x3_S1x1_2_0 = constant S_ .f32 0x00000000#32 :=
  wt_table lit1 2 0 _ 6 rfl
theorem wtL21 : wt (table (F := F) lit1) ![2, 1] slices_S3x3_S1x1_2_1 = constant S_ .f32 0xBF800000#32 :=
  wt_table lit1 2 1 _ 7 rfl
theorem wtL22 : wt (table (F := F) lit1) ![2, 2] slices_S3x3_S1x1_2_2 = constant S_ .f32 0x00000000#32 :=
  wt_table lit1 2 2 _ 8 rfl

/-- With the blur's table the stencil's weights are the blur's nine constants. -/
theorem tapsT_gauss (P : C F S1026x1026) : tapsT (table (F := F) lit0) P = tapsG P := by
  unfold tapsT tapsG
  rw [wtG00, wtG01, wtG02, wtG10, wtG11, wtG12, wtG20, wtG21, wtG22]

/-- With the Laplacian's table the stencil's weights are the Laplacian's nine constants. -/
theorem tapsT_lapl (P : C F S1026x1026) : tapsT (table (F := F) lit1) P = tapsL P := by
  unfold tapsT tapsL
  rw [wtL00, wtL01, wtL02, wtL10, wtL11, wtL12, wtL20, wtL21, wtL22]

end Cert.Bridge.Lap

end
-- ==== Proof.LapPadK.lean ====
/-
  The kernel program's host operations that border a matrix, and those that take the first image out of a batch, read as
  functions of the contents they start from: each stretch leaves in its result buffer the bordered matrix (the first
  image) of what its input buffer held.
-/
import proofs.«123598_j69123203661888_2_alg».proof.Proof.Gen.KernelIdeal.Launch
import proofs.«123598_j69123203661888_2_alg».proof.Proof.LapDefs
import Idealize.ShloMosaic.Lib.StableHlo.Run

set_option maxRecDepth 16384

noncomputable section

namespace Cert.Bridge.Lap

open Idealize.ShloMosaic Idealize.ShloMosaic.TcCoe Idealize.SL.Sem Idealize.ShloMosaic.StableHlo
open Cert.KernelIdeal Cert.KernelIdeal.Gen

variable {F : FTy → Type} [FloatOps F]

/-- The first image of the second argument array. -/
theorem imgK10 (V : Valuation τ sig (Elt F)) :
    after hostOps2 V (Proc.devRef .tc main_v10) = img (V (Proc.devRef .tc main_arg1)) := by
  simp only [hostOps2]
  after_results_simp
  rfl

/-- The first image of the first argument array. -/
theorem imgK12 (V : Valuation τ sig (Elt F)) :
    after hostOps2 V (Proc.devRef .tc main_v12) = img (V (Proc.devRef .tc main_arg0)) := by
  simp only [hostOps2]
  after_results_simp
  rfl

set_option maxHeartbeats 2000000 in
/-- The stretch that borders `main_v10`: its result is the bordered matrix. -/
theorem padK2_1 (V : Valuation τ sig (Elt F)) :
    after hostOps2_1 V (Proc.devRef .tc main_v13) = pad (V (Proc.devRef .tc main_v10)) := by
  simp only [hostOps2_1, StableHlo.TRef.nullary, StableHlo.TRef.unary, StableHlo.TRef.binary,
    StableHlo.TRef.ternary, StableHlo.TRef.toBuf, StableHlo.TRef.ofBuf, cast_eq]
  after_results
  rfl

set_option maxHeartbeats 2000000 in
/-- The stretch that borders `main_v50`: its result is the bordered matrix. -/
theorem padK2_3 (V : Valuation τ sig (Elt F)) :
    after hostOps2_3 V (Proc.devRef .tc main_v51) = pad (V (Proc.devRef .tc main_v50)) := by
  simp only [hostOps2_3, StableHlo.TRef.nullary, StableHlo.TRef.unary, StableHlo.TRef.binary,
    StableHlo.TRef.ternary, StableHlo.TRef.toBuf, StableHlo.TRef.ofBuf, cast_eq]
  after_results
  rfl

set_option maxHeartbeats 2000000 in
/-- The stretch that borders `main_v12`: its result is the bordered matrix. -/
theorem padK2_5 (V : Valuation τ sig (Elt F)) :
    after hostOps2_5 V (Proc.devRef .tc main_v89) = pad (V (Proc.devRef .tc main_v12)) := by
  simp only [hostOps2_5, StableHlo.TRef.nullary, StableHlo.TRef.unary, StableHlo.TRef.binary,
    StableHlo.TRef.ternary, StableHlo.TRef.toBuf, StableHlo.TRef.ofBuf, cast_eq]
  after_results
  rfl

set_option maxHeartbeats 2000000 in
/-- The stretch that borders `main_v126`: its result is the bordered matrix. -/
theorem padK2_7 (V : Valuation τ sig (Elt F)) :
    after hostOps2_7 V (Proc.devRef .tc main_v127) = pad (V (Proc.devRef .tc main_v126)) := by
  simp only [hostOps2_7, StableHlo.TRef.nullary, StableHlo.TRef.unary, StableHlo.TRef.binary,
    StableHlo.TRef.ternary, StableHlo.TRef.toBuf, StableHlo.TRef.ofBuf, cast_eq]
  after_results
  rfl

end Cert.Bridge.Lap

end
-- ==== Proof.LapPadR.lean ====
/-
  The reference's stages that border a matrix, and those that take the first image out of a batch, read as functions of
  the contents they start from.
-/
import proofs.«123598_j69123203661888_2_alg».proof.Proof.RefStagesP
import proofs.«123598_j69123203661888_2_alg».proof.Proof.LapDefs
import Idealize.ShloMosaic.Lib.StableHlo.Run

set_option maxRecDepth 16384

noncomputable section

namespace Cert.Bridge.Lap

open Idealize.ShloMosaic Idealize.ShloMosaic.TcCoe Idealize.SL.Sem Idealize.ShloMosaic.StableHlo
open Cert.ReferenceIdeal

variable {F : FTy → Type} [FloatOps F] [Facts]

/-- The first image of the second argument array. -/
theorem imgR167 (U : Valuation τ sig (Elt F)) :
    after StagesP.stage16 U (Proc.devRef .tc main_v167) = img (U (Proc.devRef .tc main_arg1)) := by
  simp only [StagesP.stage16]
  after_results_simp
  rfl

/-- The first image of the first argument array. -/
theorem imgR281 (U : Valuation τ sig (Elt F)) :
    after StagesP.stage22 U (Proc.devRef .tc main_v281) = img (U (Proc.devRef .tc main_arg0)) := by
  simp only [StagesP.stage22]
  after_results_simp
  rfl

set_option maxHeartbeats 2000000 in
/-- The stage that borders `main_v167`: its result is the bordered matrix. -/
theorem padR17 (U : Valuation τ sig (Elt F)) :
    after StagesP.stage17 U (Proc.devRef .tc main_v168) = pad (U (Proc.devRef .tc main_v167)) := by
  simp only [StagesP.stage17]
  after_results
  rfl

set_option maxHeartbeats 2000000 in
/-- The stage that borders `main_v223`: its result is the bordered matrix. -/
theorem padR20 (U : Valuation τ sig (Elt F)) :
    after StagesP.stage20 U (Proc.devRef .tc main_v224) = pad (U (Proc.devRef .tc main_v223)) := by
  simp only [StagesP.stage20]
  after_results
  rfl

set_option maxHeartbeats 2000000 in
/-- The stage that borders `main_v281`: its result is the bordered matrix. -/
theorem padR23 (U : Valuation τ sig (Elt F)) :
    after StagesP.stage23 U (Proc.devRef .tc main_v282) = pad (U (Proc.devRef .tc main_v281)) := by
  simp only [StagesP.stage23]
  after_results
  rfl

set_option maxHeartbeats 2000000 in
/-- The stage that borders `main_v337`: its result is the bordered matrix. -/
theorem padR26 (U : Valuation τ sig (Elt F)) :
    after StagesP.stage26 U (Proc.devRef .tc main_v338) = pad (U (Proc.devRef .tc main_v337)) := by
  simp only [StagesP.stage26]
  after_results
  rfl

end Cert.Bridge.Lap

end
-- ==== Proof.LapTaps.lean ====
/-
  The nine-term stencils of the two programs, read as functions of the contents they start from.  The kernel program
  multiplies each block of the bordered matrix by a scalar constant spread over the matrix; the reference reads the
  scalar out of a 3 × 3 table.  Either way a stretch leaves in its result buffer the nine accumulated products.
-/
import proofs.«123598_j69123203661888_2_alg».proof.Proof.Gen.KernelIdeal.Launch
import proofs.«123598_j69123203661888_2_alg».proof.Proof.RefStagesP
import proofs.«123598_j69123203661888_2_alg».proof.Proof.LapDefs
import Idealize.ShloMosaic.Lib.StableHlo.Run

set_option maxRecDepth 16384

noncomputable section

namespace Cert.Bridge.Lap

open Idealize.ShloMosaic Idealize.ShloMosaic.TcCoe Idealize.SL.Sem Idealize.ShloMosaic.StableHlo
open Cert

variable {F : FTy → Type} [FloatOps F]

/-! ## The kernel program: scalar constants -/

set_option maxHeartbeats 1000000 in
/-- The blur of the bordered matrix in `main_v13`. -/
theorem tapsK2_2 (V : Valuation KernelIdeal.τ KernelIdeal.sig (Elt F)) :
    after KernelIdeal.Gen.hostOps2_2 V (Proc.devRef .tc KernelIdeal.main_v50)
      = tapsG (V (Proc.devRef .tc KernelIdeal.main_v13)) := by
  simp only [KernelIdeal.Gen.hostOps2_2]
  after_results_simp
  rfl

set_option maxHeartbeats 1000000 in
/-- The Laplacian of the bordered matrix in `main_v51`. -/
theorem tapsK2_4 (V : Valuation KernelIdeal.τ KernelIdeal.sig (Elt F)) :
    after KernelIdeal.Gen.hostOps2_4 V (Proc.devRef .tc KernelIdeal.main_v88)
      = tapsL (V (Proc.devRef .tc KernelIdeal.main_v51)) := by
  simp only [KernelIdeal.Gen.hostOps2_4]
  after_results_simp
  rfl

set_option maxHeartbeats 1000000 in
/-- The blur of the bordered matrix in `main_v89`. -/
theorem tapsK2_6 (V : Valuation KernelIdeal.τ KernelIdeal.sig (Elt F)) :
    after KernelIdeal.Gen.hostOps2_6 V (Proc.devRef .tc KernelIdeal.main_v126)
      = tapsG (V (Proc.devRef .tc KernelIdeal.main_v89)) := by
  simp only [KernelIdeal.Gen.hostOps2_6]
  after_results_simp
  rfl

set_option maxHeartbeats 1000000 in
/-- The Laplacian of the bordered matrix in `main_v127`. -/
theorem tapsK2_8 (V : Valuation KernelIdeal.τ KernelIdeal.sig (Elt F)) :
    after KernelIdeal.Gen.hostOps2_8 V (Proc.devRef .tc KernelIdeal.main_v164)
      = tapsL (V (Proc.devRef .tc KernelIdeal.main_v127)) := by
  simp only [KernelIdeal.Gen.hostOps2_8]
  after_results_simp
  rfl

/-! ## The reference: weights read out of a table -/

section Reference

variable [ReferenceIdeal.Facts]

set_option maxHeartbeats 1000000 in
/-- The stencil of the bordered matrix in `main_v168` with the weights of the table in `main_cst`. -/
theorem tapsR18 (U : Valuation ReferenceIdeal.τ ReferenceIdeal.sig (Elt F)) :
    after ReferenceIdeal.StagesP.stage18 U (Proc.devRef .tc ReferenceIdeal.main_v223)
      = tapsT (U (Proc.devRef .tc ReferenceIdeal.main_cst)) (U (Proc.devRef .tc ReferenceIdeal.main_v168)) := by
  simp only [ReferenceIdeal.StagesP.stage18]
  after_results_simp
  rfl

set_option maxHeartbeats 1000000 in
/-- The stencil of the bordered matrix in `main_v224` with the weights of the table in `main_cst_0`. -/
theorem tapsR21 (U : Valuation ReferenceIdeal.τ ReferenceIdeal.sig (Elt F)) :
    after ReferenceIdeal.StagesP.stage21 U (Proc.devRef .tc ReferenceIdeal.main_v279)
      = tapsT (U (Proc.devRef .tc ReferenceIdeal.main_cst_0)) (U (Proc.devRef .tc ReferenceIdeal.main_v224)) := by
  simp only [ReferenceIdeal.StagesP.stage21]
  after_results_simp
  rfl

set_option maxHeartbeats 1000000 in
/-- The stencil of the bordered matrix in `main_v282` with the weights of the table in `main_cst`. -/
theorem tapsR24 (U : Valuation ReferenceIdeal.τ ReferenceIdeal.sig (Elt F)) :
    after ReferenceIdeal.StagesP.stage24 U (Proc.devRef .tc ReferenceIdeal.main_v337)
      = tapsT (U (Proc.devRef .tc ReferenceIdeal.main_cst)) (U (Proc.devRef .tc ReferenceIdeal.main_v282)) := by
  simp only [ReferenceIdeal.StagesP.stage24]
  after_results_simp
  rfl

set_option maxHeartbeats 1000000 in
/-- The stencil of the bordered matrix in `main_v338` with the weights of the table in `main_cst_0`. -/
theorem tapsR27 (U : Valuation ReferenceIdeal.τ ReferenceIdeal.sig (Elt F)) :
    after ReferenceIdeal.StagesP.stage27 U (Proc.devRef .tc ReferenceIdeal.main_v393)
      = tapsT (U (Proc.devRef .tc ReferenceIdeal.main_cst_0)) (U (Proc.devRef .tc ReferenceIdeal.main_v338)) := by
  simp only [ReferenceIdeal.StagesP.stage27]
  after_results_simp
  rfl

end Reference

end Cert.Bridge.Lap

end
-- ==== Proof.LapCarry.lean ====
/- Buffers that cross a stretch of operations untouched.  Every operation of the two programs writes one buffer; a
  stretch writes the buffers its operations write, and leaves every other buffer as it was.  For each stretch the
  written buffers are listed once, and a buffer that is not in the list is carried across by deciding that.  Then the
  buffers the Laplacian chains need are carried along the reference's stages: the two argument arrays from the launch,
  and the two 3 × 3 weight tables from the first stage, which writes them.
-/
import proofs.«123598_j69123203661888_2_alg».proof.Proof.Gen.KernelIdeal.Launch
import proofs.«123598_j69123203661888_2_alg».proof.Proof.RefChainP
import proofs.«123598_j69123203661888_2_alg».proof.Proof.LapDefs
import Idealize.ShloMosaic.Lib.StableHlo.Run

set_option maxRecDepth 16384

noncomputable section

namespace Cert.Bridge.Lap

open Idealize.ShloMosaic Idealize.ShloMosaic.TcCoe Idealize.SL.Sem Idealize.ShloMosaic.StableHlo
open Cert

variable {F : FTy → Type} [FloatOps F]

/-- An operation whose only written buffer is listed writes inside the listed buffers. -/
theorem writes_sub {τ : Topo} {sig : RefSig} {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The kernel program's host stretches between its second and third kernels -/

/-- The buffers the kernel program's stretch 2.1 writes, in order. -/
abbrev k2_1W : List (Ref KernelIdeal.sig .tc) :=
  [
    KernelIdeal.main_call0_v0, KernelIdeal.main_call0_v1, KernelIdeal.main_call0_v2, KernelIdeal.main_call0_v3, KernelIdeal.main_call0_v4, KernelIdeal.main_call0_v5,
    KernelIdeal.main_call0_v6, KernelIdeal.main_call0_v7, KernelIdeal.main_call0_v8, KernelIdeal.main_call0_v9, KernelIdeal.main_call0_v10, KernelIdeal.main_call0_v11,
    KernelIdeal.main_call0_v12, KernelIdeal.main_call0_v13, KernelIdeal.main_call0_v14, KernelIdeal.main_v13 ]
theorem k2_1_writes : (KernelIdeal.Gen.hostOps2_1 : List (HloOp KernelIdeal.τ KernelIdeal.sig (Elt F))).Forall fun op =>
    op.writes ⊆ (k2_1W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.1 leaves every buffer it does not write as it was. -/
theorem k2_1_keep {r : Ref KernelIdeal.sig .tc} (hr : r ∉ k2_1W) (U : Valuation KernelIdeal.τ KernelIdeal.sig (Elt F)) :
    after KernelIdeal.Gen.hostOps2_1 U (Proc.devRef .tc r) = U (Proc.devRef .tc r) :=
  after_of_writes_sub _ U k2_1_writes hr

/-- The buffers the kernel program's stretch 2.2 writes, in order. -/
abbrev k2_2W : List (Ref KernelIdeal.sig .tc) :=
  [
    KernelIdeal.main_cst, KernelIdeal.main_v14, KernelIdeal.main_v15, KernelIdeal.main_cst_0, KernelIdeal.main_v16, KernelIdeal.main_v17,
    KernelIdeal.main_v18, KernelIdeal.main_v19, KernelIdeal.main_cst_1, KernelIdeal.main_v20, KernelIdeal.main_v21, KernelIdeal.main_v22,
    KernelIdeal.main_v23, KernelIdeal.main_cst_2, KernelIdeal.main_v24, KernelIdeal.main_v25, KernelIdeal.main_v26, KernelIdeal.main_v27,
    KernelIdeal.main_cst_3, KernelIdeal.main_v28, KernelIdeal.main_v29, KernelIdeal.main_v30, KernelIdeal.main_v31, KernelIdeal.main_cst_4,
    KernelIdeal.main_v32, KernelIdeal.main_v33, KernelIdeal.main_v34, KernelIdeal.main_v35, KernelIdeal.main_cst_5, KernelIdeal.main_v36,
    KernelIdeal.main_v37, KernelIdeal.main_v38, KernelIdeal.main_v39, KernelIdeal.main_cst_6, KernelIdeal.main_v40, KernelIdeal.main_v41,
    KernelIdeal.main_v42, KernelIdeal.main_v43, KernelIdeal.main_cst_7, KernelIdeal.main_v44, KernelIdeal.main_v45, KernelIdeal.main_v46,
    KernelIdeal.main_v47, KernelIdeal.main_cst_8, KernelIdeal.main_v48, KernelIdeal.main_v49, KernelIdeal.main_v50, KernelIdeal.main_c_9 ]
theorem k2_2_writes : (KernelIdeal.Gen.hostOps2_2 : List (HloOp KernelIdeal.τ KernelIdeal.sig (Elt F))).Forall fun op =>
    op.writes ⊆ (k2_2W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.2 leaves every buffer it does not write as it was. -/
theorem k2_2_keep {r : Ref KernelIdeal.sig .tc} (hr : r ∉ k2_2W) (U : Valuation KernelIdeal.τ KernelIdeal.sig (Elt F)) :
    after KernelIdeal.Gen.hostOps2_2 U (Proc.devRef .tc r) = U (Proc.devRef .tc r) :=
  after_of_writes_sub _ U k2_2_writes hr

/-- The buffers the kernel program's stretch 2.3 writes, in order. -/
abbrev k2_3W : List (Ref KernelIdeal.sig .tc) :=
  [
    KernelIdeal.main_call1_v0, KernelIdeal.main_call1_v1, KernelIdeal.main_call1_v2, KernelIdeal.main_call1_v3, KernelIdeal.main_call1_v4, KernelIdeal.main_call1_v5,
    KernelIdeal.main_call1_v6, KernelIdeal.main_call1_v7, KernelIdeal.main_call1_v8, KernelIdeal.main_call1_v9, KernelIdeal.main_call1_v10, KernelIdeal.main_call1_v11,
    KernelIdeal.main_call1_v12, KernelIdeal.main_call1_v13, KernelIdeal.main_call1_v14, KernelIdeal.main_v51 ]
theorem k2_3_writes : (KernelIdeal.Gen.hostOps2_3 : List (HloOp KernelIdeal.τ KernelIdeal.sig (Elt F))).Forall fun op =>
    op.writes ⊆ (k2_3W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.3 leaves every buffer it does not write as it was. -/
theorem k2_3_keep {r : Ref KernelIdeal.sig .tc} (hr : r ∉ k2_3W) (U : Valuation KernelIdeal.τ KernelIdeal.sig (Elt F)) :
    after KernelIdeal.Gen.hostOps2_3 U (Proc.devRef .tc r) = U (Proc.devRef .tc r) :=
  after_of_writes_sub _ U k2_3_writes hr

/-- The buffers the kernel program's stretch 2.4 writes, in order. -/
abbrev k2_4W : List (Ref KernelIdeal.sig .tc) :=
  [
    KernelIdeal.main_cst_10, KernelIdeal.main_v52, KernelIdeal.main_v53, KernelIdeal.main_cst_11, KernelIdeal.main_v54, KernelIdeal.main_v55,
    KernelIdeal.main_v56, KernelIdeal.main_v57, KernelIdeal.main_cst_12, KernelIdeal.main_v58, KernelIdeal.main_v59, KernelIdeal.main_v60,
    KernelIdeal.main_v61, KernelIdeal.main_cst_13, KernelIdeal.main_v62, KernelIdeal.main_v63, KernelIdeal.main_v64, KernelIdeal.main_v65,
    KernelIdeal.main_cst_14, KernelIdeal.main_v66, KernelIdeal.main_v67, KernelIdeal.main_v68, KernelIdeal.main_v69, KernelIdeal.main_cst_15,
    KernelIdeal.main_v70, KernelIdeal.main_v71, KernelIdeal.main_v72, KernelIdeal.main_v73, KernelIdeal.main_cst_16, KernelIdeal.main_v74,
    KernelIdeal.main_v75, KernelIdeal.main_v76, KernelIdeal.main_v77, KernelIdeal.main_cst_17, KernelIdeal.main_v78, KernelIdeal.main_v79,
    KernelIdeal.main_v80, KernelIdeal.main_v81, KernelIdeal.main_cst_18, KernelIdeal.main_v82, KernelIdeal.main_v83, KernelIdeal.main_v84,
    KernelIdeal.main_v85, KernelIdeal.main_cst_19, KernelIdeal.main_v86, KernelIdeal.main_v87, KernelIdeal.main_v88, KernelIdeal.main_c_20 ]
theorem k2_4_writes : (KernelIdeal.Gen.hostOps2_4 : List (HloOp KernelIdeal.τ KernelIdeal.sig (Elt F))).Forall fun op =>
    op.writes ⊆ (k2_4W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.4 leaves every buffer it does not write as it was. -/
theorem k2_4_keep {r : Ref KernelIdeal.sig .tc} (hr : r ∉ k2_4W) (U : Valuation KernelIdeal.τ KernelIdeal.sig (Elt F)) :
    after KernelIdeal.Gen.hostOps2_4 U (Proc.devRef .tc r) = U (Proc.devRef .tc r) :=
  after_of_writes_sub _ U k2_4_writes hr

/-- The buffers the kernel program's stretch 2.5 writes, in order. -/
abbrev k2_5W : List (Ref KernelIdeal.sig .tc) :=
  [
    KernelIdeal.main_call2_v0, KernelIdeal.main_call2_v1, KernelIdeal.main_call2_v2, KernelIdeal.main_call2_v3, KernelIdeal.main_call2_v4, KernelIdeal.main_call2_v5,
    KernelIdeal.main_call2_v6, KernelIdeal.main_call2_v7, KernelIdeal.main_call2_v8, KernelIdeal.main_call2_v9, KernelIdeal.main_call2_v10, KernelIdeal.main_call2_v11,
    KernelIdeal.main_call2_v12, KernelIdeal.main_call2_v13, KernelIdeal.main_call2_v14, KernelIdeal.main_v89 ]
theorem k2_5_writes : (KernelIdeal.Gen.hostOps2_5 : List (HloOp KernelIdeal.τ KernelIdeal.sig (Elt F))).Forall fun op =>
    op.writes ⊆ (k2_5W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.5 leaves every buffer it does not write as it was. -/
theorem k2_5_keep {r : Ref KernelIdeal.sig .tc} (hr : r ∉ k2_5W) (U : Valuation KernelIdeal.τ KernelIdeal.sig (Elt F)) :
    after KernelIdeal.Gen.hostOps2_5 U (Proc.devRef .tc r) = U (Proc.devRef .tc r) :=
  after_of_writes_sub _ U k2_5_writes hr

/-- The buffers the kernel program's stretch 2.6 writes, in order. -/
abbrev k2_6W : List (Ref KernelIdeal.sig .tc) :=
  [
    KernelIdeal.main_cst_21, KernelIdeal.main_v90, KernelIdeal.main_v91, KernelIdeal.main_cst_22, KernelIdeal.main_v92, KernelIdeal.main_v93,
    KernelIdeal.main_v94, KernelIdeal.main_v95, KernelIdeal.main_cst_23, KernelIdeal.main_v96, KernelIdeal.main_v97, KernelIdeal.main_v98,
    KernelIdeal.main_v99, KernelIdeal.main_cst_24, KernelIdeal.main_v100, KernelIdeal.main_v101, KernelIdeal.main_v102, KernelIdeal.main_v103,
    KernelIdeal.main_cst_25, KernelIdeal.main_v104, KernelIdeal.main_v105, KernelIdeal.main_v106, KernelIdeal.main_v107, KernelIdeal.main_cst_26,
    KernelIdeal.main_v108, KernelIdeal.main_v109, KernelIdeal.main_v110, KernelIdeal.main_v111, KernelIdeal.main_cst_27, KernelIdeal.main_v112,
    KernelIdeal.main_v113, KernelIdeal.main_v114, KernelIdeal.main_v115, KernelIdeal.main_cst_28, KernelIdeal.main_v116, KernelIdeal.main_v117,
    KernelIdeal.main_v118, KernelIdeal.main_v119, KernelIdeal.main_cst_29, KernelIdeal.main_v120, KernelIdeal.main_v121, KernelIdeal.main_v122,
    KernelIdeal.main_v123, KernelIdeal.main_cst_30, KernelIdeal.main_v124, KernelIdeal.main_v125, KernelIdeal.main_v126, KernelIdeal.main_c_31 ]
theorem k2_6_writes : (KernelIdeal.Gen.hostOps2_6 : List (HloOp KernelIdeal.τ KernelIdeal.sig (Elt F))).Forall fun op =>
    op.writes ⊆ (k2_6W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.6 leaves every buffer it does not write as it was. -/
theorem k2_6_keep {r : Ref KernelIdeal.sig .tc} (hr : r ∉ k2_6W) (U : Valuation KernelIdeal.τ KernelIdeal.sig (Elt F)) :
    after KernelIdeal.Gen.hostOps2_6 U (Proc.devRef .tc r) = U (Proc.devRef .tc r) :=
  after_of_writes_sub _ U k2_6_writes hr

/-- The buffers the kernel program's stretch 2.7 writes, in order. -/
abbrev k2_7W : List (Ref KernelIdeal.sig .tc) :=
  [
    KernelIdeal.main_call3_v0, KernelIdeal.main_call3_v1, KernelIdeal.main_call3_v2, KernelIdeal.main_call3_v3, KernelIdeal.main_call3_v4, KernelIdeal.main_call3_v5,
    KernelIdeal.main_call3_v6, KernelIdeal.main_call3_v7, KernelIdeal.main_call3_v8, KernelIdeal.main_call3_v9, KernelIdeal.main_call3_v10, KernelIdeal.main_call3_v11,
    KernelIdeal.main_call3_v12, KernelIdeal.main_call3_v13, KernelIdeal.main_call3_v14, KernelIdeal.main_v127 ]
theorem k2_7_writes : (KernelIdeal.Gen.hostOps2_7 : List (HloOp KernelIdeal.τ KernelIdeal.sig (Elt F))).Forall fun op =>
    op.writes ⊆ (k2_7W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The kernel program's stretch 2.7 leaves every buffer it does not write as it was. -/
theorem k2_7_keep {r : Ref KernelIdeal.sig .tc} (hr : r ∉ k2_7W) (U : Valuation KernelIdeal.τ KernelIdeal.sig (Elt F)) :
    after KernelIdeal.Gen.hostOps2_7 U (Proc.devRef .tc r) = U (Proc.devRef .tc r) :=
  after_of_writes_sub _ U k2_7_writes hr

/-- The buffers the kernel program's stretch 2.8 writes, in order. -/
abbrev k2_8W : List (Ref KernelIdeal.sig .tc) :=
  [
    KernelIdeal.main_cst_32, KernelIdeal.main_v128, KernelIdeal.main_v129, KernelIdeal.main_cst_33, KernelIdeal.main_v130, KernelIdeal.main_v131,
    KernelIdeal.main_v132, KernelIdeal.main_v133, KernelIdeal.main_cst_34, KernelIdeal.main_v134, KernelIdeal.main_v135, KernelIdeal.main_v136,
    KernelIdeal.main_v137, KernelIdeal.main_cst_35, KernelIdeal.main_v138, KernelIdeal.main_v139, KernelIdeal.main_v140, KernelIdeal.main_v141,
    KernelIdeal.main_cst_36, KernelIdeal.main_v142, KernelIdeal.main_v143, KernelIdeal.main_v144, KernelIdeal.main_v145, KernelIdeal.main_cst_37,
    KernelIdeal.main_v146, KernelIdeal.main_v147, KernelIdeal.main_v148, KernelIdeal.main_v149, KernelIdeal.main_cst_38, KernelIdeal.main_v150,
    KernelIdeal.main_v151, KernelIdeal.main_v152, KernelIdeal.main_v153, KernelIdeal.main_cst_39, KernelIdeal.main_v154, KernelIdeal.main_v155,
    KernelIdeal.main_v156, KernelIdeal.main_v157, KernelIdeal.main_cst_40, KernelIdeal.main_v158, KernelIdeal.main_v159, KernelIdeal.main_v160,
    KernelIdeal.main_v161, KernelIdeal.main_cst_41, KernelIdeal.main_v162, KernelIdeal.main_v163, KernelIdeal.main_v164 ]
theorem k2_8_writes : (KernelIdeal.Gen.hostOps2_8 : List (HloOp KernelIdeal.τ KernelIdeal.sig (Elt F))).Forall fun op =>
    op.writes ⊆ (k2_8W.map (Proc.devRef (τ := KernelIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide) ⟩
/-- The kernel program's stretch 2.8 leaves every buffer it does not write as it was. -/
theorem k2_8_keep {r : Ref KernelIdeal.sig .tc} (hr : r ∉ k2_8W) (U : Valuation KernelIdeal.τ KernelIdeal.sig (Elt F)) :
    after KernelIdeal.Gen.hostOps2_8 U (Proc.devRef .tc r) = U (Proc.devRef .tc r) :=
  after_of_writes_sub _ U k2_8_writes hr

/-! ## The reference's stages -/

section Reference

variable [ReferenceIdeal.Facts]

/-- The buffers the reference's stage 0 writes, in order. -/
abbrev s0W : List (Ref ReferenceIdeal.sig .tc) :=
  [
    ReferenceIdeal.main_cst, ReferenceIdeal.main_cst_0, ReferenceIdeal.main_v0, ReferenceIdeal.main_call0_cst, ReferenceIdeal.main_call0_v0, ReferenceIdeal.main_v1,
    ReferenceIdeal.main_cst_1, ReferenceIdeal.main_v2, ReferenceIdeal.main_v3, ReferenceIdeal.main_call1_cst, ReferenceIdeal.main_call1_v0, ReferenceIdeal.main_v4,
    ReferenceIdeal.main_v5, ReferenceIdeal.main_v6, ReferenceIdeal.main_cst_2, ReferenceIdeal.main_v7, ReferenceIdeal.main_cst_3, ReferenceIdeal.main_v8 ]
theorem s0_writes : (ReferenceIdeal.StagesP.stage0 : List (HloOp ReferenceIdeal.τ ReferenceIdeal.sig (Elt F))).Forall fun op =>
    op.writes ⊆ (s0W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide) ⟩
/-- The reference's stage 0 leaves every buffer it does not write as it was. -/
theorem s0_keep {r : Ref ReferenceIdeal.sig .tc} (hr : r ∉ s0W) (U : Valuation ReferenceIdeal.τ ReferenceIdeal.sig (Elt F)) :
    after ReferenceIdeal.StagesP.stage0 U (Proc.devRef .tc r) = U (Proc.devRef .tc r) :=
  after_of_writes_sub _ U s0_writes hr

/-- The buffers the reference's stage 1 writes, in order. -/
abbrev s1W : List (Ref ReferenceIdeal.sig .tc) :=
  [
    ReferenceIdeal.main_c, ReferenceIdeal.main_call2_call0_cst, ReferenceIdeal.main_call2_call0_v0, ReferenceIdeal.main_call2_call0_v1, ReferenceIdeal.main_call2_call0_cst_0, ReferenceIdeal.main_call2_call0_v2,
    ReferenceIdeal.main_call2_call0_v3, ReferenceIdeal.main_call2_call0_v4, ReferenceIdeal.main_call2_call0_v5, ReferenceIdeal.main_call2_call0_v6, ReferenceIdeal.main_call2_call0_v7, ReferenceIdeal.main_call2_call0_cst_1,
    ReferenceIdeal.main_call2_call0_v8, ReferenceIdeal.main_call2_call0_cst_2, ReferenceIdeal.main_call2_call0_v9, ReferenceIdeal.main_call2_call0_v10, ReferenceIdeal.main_call2_call0_v11, ReferenceIdeal.main_call2_call0_cst_3,
    ReferenceIdeal.main_call2_call0_v12, ReferenceIdeal.main_call2_call0_cst_4, ReferenceIdeal.main_call2_call0_call0_v0, ReferenceIdeal.main_call2_call0_call0_v1, ReferenceIdeal.main_call2_v0, ReferenceIdeal.main_v9 ]
theorem s1_writes : (ReferenceIdeal.StagesP.stage1 : List (HloOp ReferenceIdeal.τ ReferenceIdeal.sig (Elt F))).Forall fun op =>
    op.writes ⊆ (s1W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 1 leaves every buffer it does not write as it was. -/
theorem s1_keep {r : Ref ReferenceIdeal.sig .tc} (hr : r ∉ s1W) (U : Valuation ReferenceIdeal.τ ReferenceIdeal.sig (Elt F)) :
    after ReferenceIdeal.StagesP.stage1 U (Proc.devRef .tc r) = U (Proc.devRef .tc r) :=
  after_of_writes_sub _ U s1_writes hr

/-- The buffers the reference's stage 2 writes, in order. -/
abbrev s2W : List (Ref ReferenceIdeal.sig .tc) :=
  [
    ReferenceIdeal.main_cst_4, ReferenceIdeal.main_v10, ReferenceIdeal.main_v11, ReferenceIdeal.main_cst_5, ReferenceIdeal.main_v12, ReferenceIdeal.main_v13 ]
theorem s2_writes : (ReferenceIdeal.StagesP.stage2 : List (HloOp ReferenceIdeal.τ ReferenceIdeal.sig (Elt F))).Forall fun op =>
    op.writes ⊆ (s2W.map (Proc.devRef (τ := ReferenceIdeal.τ) .tc)).toFinset :=
  ⟨
    writes_sub (by decide), writes_sub (by decide), writes_sub (by decide), writes_sub (by decide),
    writes_sub (by decide), writes_sub (by decide) ⟩
/-- The reference's stage 2 leaves every buffer it does not write as it was. -/
theorem s2_keep {r : Ref ReferenceIdeal.sig .tc} (hr : r ∉ s2W) (U : Valuation ReferenceIdeal.τ ReferenceIdeal.sig (Elt F)) :
    after ReferenceIdeal.StagesP.stage2 U (Proc.devRef .tc r) = U (Proc.devRef .tc r) :=
  after_of_writes_sub _ U s2_writes hr

/-- The buffers the reference's stage 3 writes, in order. -/
abbrev s3W : List (Ref ReferenceIdeal.sig .tc) :=
  [
    ReferenceIdeal.main_c_6, ReferenceIdeal.main_call3_call0_cst, ReferenceIdeal.main_call3_call0_v0, ReferenceIdeal.main_call3_call0_v1, ReferenceIdeal.main_call3_call0_cst_0, ReferenceIdeal.main_call3_call0_v2,
    ReferenceIdeal.main_call3_call0_v3, ReferenceIdeal.main_call3_call0_v4, ReferenceIdeal.main_call3_call0_v5, ReferenceIdeal.main_call3_call0_v6, ReferenceIdeal.main_call3_call0_v7, ReferenceIdeal.main_call3_call0_cst_1,
    ReferenceIdeal.main_call3_call0_v8, ReferenceIdeal.main_call3_call0_cst_2, ReferenceIdeal.main_call3_call0_v9, ReferenceIdeal.main_call3_call0_v10, ReferenceIdeal.main_call3_call0_v11, ReferenceIdeal.main_call3_call0_cst_3,
    ReferenceIdeal.main_call3_call0_v12, ReferenceIdeal.main_call3_call0_cst_4, ReferenceIdeal.main_call3_call0_call0_v0, ReferenceIdeal.main_call3_call0_call0_v1, ReferenceIdeal.main_call3_v0, ReferenceIdeal.main_v14 ]
theorem s3_writes : (ReferenceIdeal.StagesP.stage3 : List (HloOp ReferenceIdeal.τ ReferenceIdeal.sig (Elt F))).Forall fun op =>
    op.writes ⊆ (s3W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 3 leaves every buffer it does not write as it was. -/
theorem s3_keep {r : Ref ReferenceIdeal.sig .tc} (hr : r ∉ s3W) (U : Valuation ReferenceIdeal.τ ReferenceIdeal.sig (Elt F)) :
    after ReferenceIdeal.StagesP.stage3 U (Proc.devRef .tc r) = U (Proc.devRef .tc r) :=
  after_of_writes_sub _ U s3_writes hr

/-- The buffers the reference's stage 4 writes, in order. -/
abbrev s4W : List (Ref ReferenceIdeal.sig .tc) :=
  [
    ReferenceIdeal.main_cst_7, ReferenceIdeal.main_v15, ReferenceIdeal.main_v16, ReferenceIdeal.main_v17, ReferenceIdeal.main_cst_8, ReferenceIdeal.main_v18,
    ReferenceIdeal.main_cst_9, ReferenceIdeal.main_v19, ReferenceIdeal.main_v20, ReferenceIdeal.main_v21, ReferenceIdeal.main_cst_10, ReferenceIdeal.main_v22,
    ReferenceIdeal.main_cst_11, ReferenceIdeal.main_v23 ]
theorem s4_writes : (ReferenceIdeal.StagesP.stage4 : List (HloOp ReferenceIdeal.τ ReferenceIdeal.sig (Elt F))).Forall fun op =>
    op.writes ⊆ (s4W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide) ⟩
/-- The reference's stage 4 leaves every buffer it does not write as it was. -/
theorem s4_keep {r : Ref ReferenceIdeal.sig .tc} (hr : r ∉ s4W) (U : Valuation ReferenceIdeal.τ ReferenceIdeal.sig (Elt F)) :
    after ReferenceIdeal.StagesP.stage4 U (Proc.devRef .tc r) = U (Proc.devRef .tc r) :=
  after_of_writes_sub _ U s4_writes hr

/-- The buffers the reference's stage 5 writes, in order. -/
abbrev s5W : List (Ref ReferenceIdeal.sig .tc) :=
  [
    ReferenceIdeal.main_v24, ReferenceIdeal.main_v25, ReferenceIdeal.main_v26, ReferenceIdeal.main_v27, ReferenceIdeal.main_c_12 ]
theorem s5_writes : (ReferenceIdeal.StagesP.stage5 : List (HloOp ReferenceIdeal.τ ReferenceIdeal.sig (Elt F))).Forall fun op =>
    op.writes ⊆ (s5W.map (Proc.devRef (τ := ReferenceIdeal.τ) .tc)).toFinset :=
  ⟨
    writes_sub (by decide), writes_sub (by decide), writes_sub (by decide), writes_sub (by decide),
    writes_sub (by decide) ⟩
/-- The reference's stage 5 leaves every buffer it does not write as it was. -/
theorem s5_keep {r : Ref ReferenceIdeal.sig .tc} (hr : r ∉ s5W) (U : Valuation ReferenceIdeal.τ ReferenceIdeal.sig (Elt F)) :
    after ReferenceIdeal.StagesP.stage5 U (Proc.devRef .tc r) = U (Proc.devRef .tc r) :=
  after_of_writes_sub _ U s5_writes hr

/-- The buffers the reference's stage 6 writes, in order. -/
abbrev s6W : List (Ref ReferenceIdeal.sig .tc) :=
  [
    ReferenceIdeal.main_call4_v0, ReferenceIdeal.main_call4_v1, ReferenceIdeal.main_call4_v2, ReferenceIdeal.main_call4_v3, ReferenceIdeal.main_call4_v4, ReferenceIdeal.main_call4_v5,
    ReferenceIdeal.main_call4_v6, ReferenceIdeal.main_v28 ]
theorem s6_writes : (ReferenceIdeal.StagesP.stage6 : List (HloOp ReferenceIdeal.τ ReferenceIdeal.sig (Elt F))).Forall fun op =>
    op.writes ⊆ (s6W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide) ⟩
/-- The reference's stage 6 leaves every buffer it does not write as it was. -/
theorem s6_keep {r : Ref ReferenceIdeal.sig .tc} (hr : r ∉ s6W) (U : Valuation ReferenceIdeal.τ ReferenceIdeal.sig (Elt F)) :
    after ReferenceIdeal.StagesP.stage6 U (Proc.devRef .tc r) = U (Proc.devRef .tc r) :=
  after_of_writes_sub _ U s6_writes hr

/-- The buffers the reference's stage 7 writes, in order. -/
abbrev s7W : List (Ref ReferenceIdeal.sig .tc) :=
  [
    ReferenceIdeal.main_v29, ReferenceIdeal.main_cst_13, ReferenceIdeal.main_v30, ReferenceIdeal.main_v31, ReferenceIdeal.main_v32, ReferenceIdeal.main_cst_14,
    ReferenceIdeal.main_v33, ReferenceIdeal.main_v34, ReferenceIdeal.main_v35, ReferenceIdeal.main_c_15 ]
theorem s7_writes : (ReferenceIdeal.StagesP.stage7 : List (HloOp ReferenceIdeal.τ ReferenceIdeal.sig (Elt F))).Forall fun op =>
    op.writes ⊆ (s7W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide) ⟩
/-- The reference's stage 7 leaves every buffer it does not write as it was. -/
theorem s7_keep {r : Ref ReferenceIdeal.sig .tc} (hr : r ∉ s7W) (U : Valuation ReferenceIdeal.τ ReferenceIdeal.sig (Elt F)) :
    after ReferenceIdeal.StagesP.stage7 U (Proc.devRef .tc r) = U (Proc.devRef .tc r) :=
  after_of_writes_sub _ U s7_writes hr

/-- The buffers the reference's stage 8 writes, in order. -/
abbrev s8W : List (Ref ReferenceIdeal.sig .tc) :=
  [
    ReferenceIdeal.main_call5_v0, ReferenceIdeal.main_call5_v1, ReferenceIdeal.main_call5_v2, ReferenceIdeal.main_call5_v3, ReferenceIdeal.main_call5_v4, ReferenceIdeal.main_call5_v5,
    ReferenceIdeal.main_call5_v6, ReferenceIdeal.main_v36 ]
theorem s8_writes : (ReferenceIdeal.StagesP.stage8 : List (HloOp ReferenceIdeal.τ ReferenceIdeal.sig (Elt F))).Forall fun op =>
    op.writes ⊆ (s8W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide) ⟩
/-- The reference's stage 8 leaves every buffer it does not write as it was. -/
theorem s8_keep {r : Ref ReferenceIdeal.sig .tc} (hr : r ∉ s8W) (U : Valuation ReferenceIdeal.τ ReferenceIdeal.sig (Elt F)) :
    after ReferenceIdeal.StagesP.stage8 U (Proc.devRef .tc r) = U (Proc.devRef .tc r) :=
  after_of_writes_sub _ U s8_writes hr

/-- The buffers the reference's stage 9 writes, in order. -/
abbrev s9W : List (Ref ReferenceIdeal.sig .tc) :=
  [
    ReferenceIdeal.main_v37, ReferenceIdeal.main_cst_16, ReferenceIdeal.main_v38, ReferenceIdeal.main_v39, ReferenceIdeal.main_v40, ReferenceIdeal.main_cst_17,
    ReferenceIdeal.main_v41, ReferenceIdeal.main_v42, ReferenceIdeal.main_v43, ReferenceIdeal.main_v44, ReferenceIdeal.main_v45, ReferenceIdeal.main_cst_18,
    ReferenceIdeal.main_v46, ReferenceIdeal.main_cst_19, ReferenceIdeal.main_v47 ]
theorem s9_writes : (ReferenceIdeal.StagesP.stage9 : List (HloOp ReferenceIdeal.τ ReferenceIdeal.sig (Elt F))).Forall fun op =>
    op.writes ⊆ (s9W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide) ⟩
/-- The reference's stage 9 leaves every buffer it does not write as it was. -/
theorem s9_keep {r : Ref ReferenceIdeal.sig .tc} (hr : r ∉ s9W) (U : Valuation ReferenceIdeal.τ ReferenceIdeal.sig (Elt F)) :
    after ReferenceIdeal.StagesP.stage9 U (Proc.devRef .tc r) = U (Proc.devRef .tc r) :=
  after_of_writes_sub _ U s9_writes hr

/-- The buffers the reference's stage 10 writes, in order. -/
abbrev s10W : List (Ref ReferenceIdeal.sig .tc) :=
  [
    ReferenceIdeal.main_cst_20, ReferenceIdeal.main_v48, ReferenceIdeal.main_cst_21, ReferenceIdeal.main_v49, ReferenceIdeal.main_v50, ReferenceIdeal.main_cst_22,
    ReferenceIdeal.main_v51, ReferenceIdeal.main_cst_23, ReferenceIdeal.main_v52, ReferenceIdeal.main_v53, ReferenceIdeal.main_c_24 ]
theorem s10_writes : (ReferenceIdeal.StagesP.stage10 : List (HloOp ReferenceIdeal.τ ReferenceIdeal.sig (Elt F))).Forall fun op =>
    op.writes ⊆ (s10W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide) ⟩
/-- The reference's stage 10 leaves every buffer it does not write as it was. -/
theorem s10_keep {r : Ref ReferenceIdeal.sig .tc} (hr : r ∉ s10W) (U : Valuation ReferenceIdeal.τ ReferenceIdeal.sig (Elt F)) :
    after ReferenceIdeal.StagesP.stage10 U (Proc.devRef .tc r) = U (Proc.devRef .tc r) :=
  after_of_writes_sub _ U s10_writes hr

/-- The buffers the reference's stage 11 writes, in order. -/
abbrev s11W : List (Ref ReferenceIdeal.sig .tc) :=
  [
    ReferenceIdeal.main_call6_v0, ReferenceIdeal.main_call6_v1, ReferenceIdeal.main_call6_v2, ReferenceIdeal.main_call6_v3, ReferenceIdeal.main_call6_v4, ReferenceIdeal.main_call6_v5,
    ReferenceIdeal.main_call6_v6, ReferenceIdeal.main_call6_v7, ReferenceIdeal.main_call6_v8, ReferenceIdeal.main_call6_v9, ReferenceIdeal.main_call6_v10, ReferenceIdeal.main_call6_v11,
    ReferenceIdeal.main_call6_v12, ReferenceIdeal.main_call6_v13, ReferenceIdeal.main_call6_v14, ReferenceIdeal.main_v54 ]
theorem s11_writes : (ReferenceIdeal.StagesP.stage11 : List (HloOp ReferenceIdeal.τ ReferenceIdeal.sig (Elt F))).Forall fun op =>
    op.writes ⊆ (s11W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 11 leaves every buffer it does not write as it was. -/
theorem s11_keep {r : Ref ReferenceIdeal.sig .tc} (hr : r ∉ s11W) (U : Valuation ReferenceIdeal.τ ReferenceIdeal.sig (Elt F)) :
    after ReferenceIdeal.StagesP.stage11 U (Proc.devRef .tc r) = U (Proc.devRef .tc r) :=
  after_of_writes_sub _ U s11_writes hr

/-- The buffers the reference's stage 12 writes, in order. -/
abbrev s12W : List (Ref ReferenceIdeal.sig .tc) :=
  [
    ReferenceIdeal.main_cst_25, ReferenceIdeal.main_v55, ReferenceIdeal.main_v56, ReferenceIdeal.main_v57, ReferenceIdeal.main_v58, ReferenceIdeal.main_v59,
    ReferenceIdeal.main_v60, ReferenceIdeal.main_v61, ReferenceIdeal.main_v62, ReferenceIdeal.main_v63, ReferenceIdeal.main_v64, ReferenceIdeal.main_v65,
    ReferenceIdeal.main_v66, ReferenceIdeal.main_v67, ReferenceIdeal.main_v68, ReferenceIdeal.main_v69, ReferenceIdeal.main_v70, ReferenceIdeal.main_v71,
    ReferenceIdeal.main_v72, ReferenceIdeal.main_v73, ReferenceIdeal.main_v74, ReferenceIdeal.main_v75, ReferenceIdeal.main_v76, ReferenceIdeal.main_v77,
    ReferenceIdeal.main_v78, ReferenceIdeal.main_v79, ReferenceIdeal.main_v80, ReferenceIdeal.main_v81, ReferenceIdeal.main_v82, ReferenceIdeal.main_v83,
    ReferenceIdeal.main_v84, ReferenceIdeal.main_v85, ReferenceIdeal.main_v86, ReferenceIdeal.main_v87, ReferenceIdeal.main_v88, ReferenceIdeal.main_v89,
    ReferenceIdeal.main_v90, ReferenceIdeal.main_v91, ReferenceIdeal.main_v92, ReferenceIdeal.main_v93, ReferenceIdeal.main_v94, ReferenceIdeal.main_v95,
    ReferenceIdeal.main_v96, ReferenceIdeal.main_v97, ReferenceIdeal.main_v98, ReferenceIdeal.main_v99, ReferenceIdeal.main_v100, ReferenceIdeal.main_v101,
    ReferenceIdeal.main_v102, ReferenceIdeal.main_v103, ReferenceIdeal.main_v104, ReferenceIdeal.main_v105, ReferenceIdeal.main_v106, ReferenceIdeal.main_v107,
    ReferenceIdeal.main_v108, ReferenceIdeal.main_v109 ]
theorem s12_writes : (ReferenceIdeal.StagesP.stage12 : List (HloOp ReferenceIdeal.τ ReferenceIdeal.sig (Elt F))).Forall fun op =>
    op.writes ⊆ (s12W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 12 leaves every buffer it does not write as it was. -/
theorem s12_keep {r : Ref ReferenceIdeal.sig .tc} (hr : r ∉ s12W) (U : Valuation ReferenceIdeal.τ ReferenceIdeal.sig (Elt F)) :
    after ReferenceIdeal.StagesP.stage12 U (Proc.devRef .tc r) = U (Proc.devRef .tc r) :=
  after_of_writes_sub _ U s12_writes hr

/-- The buffers the reference's stage 13 writes, in order. -/
abbrev s13W : List (Ref ReferenceIdeal.sig .tc) :=
  [
    ReferenceIdeal.main_c_26 ]
theorem s13_writes : (ReferenceIdeal.StagesP.stage13 : List (HloOp ReferenceIdeal.τ ReferenceIdeal.sig (Elt F))).Forall fun op =>
    op.writes ⊆ (s13W.map (Proc.devRef (τ := ReferenceIdeal.τ) .tc)).toFinset :=
  writes_sub (by decide)
/-- The reference's stage 13 leaves every buffer it does not write as it was. -/
theorem s13_keep {r : Ref ReferenceIdeal.sig .tc} (hr : r ∉ s13W) (U : Valuation ReferenceIdeal.τ ReferenceIdeal.sig (Elt F)) :
    after ReferenceIdeal.StagesP.stage13 U (Proc.devRef .tc r) = U (Proc.devRef .tc r) :=
  after_of_writes_sub _ U s13_writes hr

/-- The buffers the reference's stage 14 writes, in order. -/
abbrev s14W : List (Ref ReferenceIdeal.sig .tc) :=
  [
    ReferenceIdeal.main_call7_v0, ReferenceIdeal.main_call7_v1, ReferenceIdeal.main_call7_v2, ReferenceIdeal.main_call7_v3, ReferenceIdeal.main_call7_v4, ReferenceIdeal.main_call7_v5,
    ReferenceIdeal.main_call7_v6, ReferenceIdeal.main_call7_v7, ReferenceIdeal.main_call7_v8, ReferenceIdeal.main_call7_v9, ReferenceIdeal.main_call7_v10, ReferenceIdeal.main_call7_v11,
    ReferenceIdeal.main_call7_v12, ReferenceIdeal.main_call7_v13, ReferenceIdeal.main_call7_v14, ReferenceIdeal.main_v110 ]
theorem s14_writes : (ReferenceIdeal.StagesP.stage14 : List (HloOp ReferenceIdeal.τ ReferenceIdeal.sig (Elt F))).Forall fun op =>
    op.writes ⊆ (s14W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 14 leaves every buffer it does not write as it was. -/
theorem s14_keep {r : Ref ReferenceIdeal.sig .tc} (hr : r ∉ s14W) (U : Valuation ReferenceIdeal.τ ReferenceIdeal.sig (Elt F)) :
    after ReferenceIdeal.StagesP.stage14 U (Proc.devRef .tc r) = U (Proc.devRef .tc r) :=
  after_of_writes_sub _ U s14_writes hr

/-- The buffers the reference's stage 15 writes, in order. -/
abbrev s15W : List (Ref ReferenceIdeal.sig .tc) :=
  [
    ReferenceIdeal.main_cst_27, ReferenceIdeal.main_v111, ReferenceIdeal.main_v112, ReferenceIdeal.main_v113, ReferenceIdeal.main_v114, ReferenceIdeal.main_v115,
    ReferenceIdeal.main_v116, ReferenceIdeal.main_v117, ReferenceIdeal.main_v118, ReferenceIdeal.main_v119, ReferenceIdeal.main_v120, ReferenceIdeal.main_v121,
    ReferenceIdeal.main_v122, ReferenceIdeal.main_v123, ReferenceIdeal.main_v124, ReferenceIdeal.main_v125, ReferenceIdeal.main_v126, ReferenceIdeal.main_v127,
    ReferenceIdeal.main_v128, ReferenceIdeal.main_v129, ReferenceIdeal.main_v130, ReferenceIdeal.main_v131, ReferenceIdeal.main_v132, ReferenceIdeal.main_v133,
    ReferenceIdeal.main_v134, ReferenceIdeal.main_v135, ReferenceIdeal.main_v136, ReferenceIdeal.main_v137, ReferenceIdeal.main_v138, ReferenceIdeal.main_v139,
    ReferenceIdeal.main_v140, ReferenceIdeal.main_v141, ReferenceIdeal.main_v142, ReferenceIdeal.main_v143, ReferenceIdeal.main_v144, ReferenceIdeal.main_v145,
    ReferenceIdeal.main_v146, ReferenceIdeal.main_v147, ReferenceIdeal.main_v148, ReferenceIdeal.main_v149, ReferenceIdeal.main_v150, ReferenceIdeal.main_v151,
    ReferenceIdeal.main_v152, ReferenceIdeal.main_v153, ReferenceIdeal.main_v154, ReferenceIdeal.main_v155, ReferenceIdeal.main_v156, ReferenceIdeal.main_v157,
    ReferenceIdeal.main_v158, ReferenceIdeal.main_v159, ReferenceIdeal.main_v160, ReferenceIdeal.main_v161, ReferenceIdeal.main_v162, ReferenceIdeal.main_v163,
    ReferenceIdeal.main_v164, ReferenceIdeal.main_v165 ]
theorem s15_writes : (ReferenceIdeal.StagesP.stage15 : List (HloOp ReferenceIdeal.τ ReferenceIdeal.sig (Elt F))).Forall fun op =>
    op.writes ⊆ (s15W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 15 leaves every buffer it does not write as it was. -/
theorem s15_keep {r : Ref ReferenceIdeal.sig .tc} (hr : r ∉ s15W) (U : Valuation ReferenceIdeal.τ ReferenceIdeal.sig (Elt F)) :
    after ReferenceIdeal.StagesP.stage15 U (Proc.devRef .tc r) = U (Proc.devRef .tc r) :=
  after_of_writes_sub _ U s15_writes hr

/-- The buffers the reference's stage 16 writes, in order. -/
abbrev s16W : List (Ref ReferenceIdeal.sig .tc) :=
  [
    ReferenceIdeal.main_v166, ReferenceIdeal.main_v167, ReferenceIdeal.main_c_28 ]
theorem s16_writes : (ReferenceIdeal.StagesP.stage16 : List (HloOp ReferenceIdeal.τ ReferenceIdeal.sig (Elt F))).Forall fun op =>
    op.writes ⊆ (s16W.map (Proc.devRef (τ := ReferenceIdeal.τ) .tc)).toFinset :=
  ⟨
    writes_sub (by decide), writes_sub (by decide), writes_sub (by decide) ⟩
/-- The reference's stage 16 leaves every buffer it does not write as it was. -/
theorem s16_keep {r : Ref ReferenceIdeal.sig .tc} (hr : r ∉ s16W) (U : Valuation ReferenceIdeal.τ ReferenceIdeal.sig (Elt F)) :
    after ReferenceIdeal.StagesP.stage16 U (Proc.devRef .tc r) = U (Proc.devRef .tc r) :=
  after_of_writes_sub _ U s16_writes hr

/-- The buffers the reference's stage 17 writes, in order. -/
abbrev s17W : List (Ref ReferenceIdeal.sig .tc) :=
  [
    ReferenceIdeal.main_call8_v0, ReferenceIdeal.main_call8_v1, ReferenceIdeal.main_call8_v2, ReferenceIdeal.main_call8_v3, ReferenceIdeal.main_call8_v4, ReferenceIdeal.main_call8_v5,
    ReferenceIdeal.main_call8_v6, ReferenceIdeal.main_call8_v7, ReferenceIdeal.main_call8_v8, ReferenceIdeal.main_call8_v9, ReferenceIdeal.main_call8_v10, ReferenceIdeal.main_call8_v11,
    ReferenceIdeal.main_call8_v12, ReferenceIdeal.main_call8_v13, ReferenceIdeal.main_call8_v14, ReferenceIdeal.main_v168 ]
theorem s17_writes : (ReferenceIdeal.StagesP.stage17 : List (HloOp ReferenceIdeal.τ ReferenceIdeal.sig (Elt F))).Forall fun op =>
    op.writes ⊆ (s17W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 17 leaves every buffer it does not write as it was. -/
theorem s17_keep {r : Ref ReferenceIdeal.sig .tc} (hr : r ∉ s17W) (U : Valuation ReferenceIdeal.τ ReferenceIdeal.sig (Elt F)) :
    after ReferenceIdeal.StagesP.stage17 U (Proc.devRef .tc r) = U (Proc.devRef .tc r) :=
  after_of_writes_sub _ U s17_writes hr

/-- The buffers the reference's stage 18 writes, in order. -/
abbrev s18W : List (Ref ReferenceIdeal.sig .tc) :=
  [
    ReferenceIdeal.main_cst_29, ReferenceIdeal.main_v169, ReferenceIdeal.main_v170, ReferenceIdeal.main_v171, ReferenceIdeal.main_v172, ReferenceIdeal.main_v173,
    ReferenceIdeal.main_v174, ReferenceIdeal.main_v175, ReferenceIdeal.main_v176, ReferenceIdeal.main_v177, ReferenceIdeal.main_v178, ReferenceIdeal.main_v179,
    ReferenceIdeal.main_v180, ReferenceIdeal.main_v181, ReferenceIdeal.main_v182, ReferenceIdeal.main_v183, ReferenceIdeal.main_v184, ReferenceIdeal.main_v185,
    ReferenceIdeal.main_v186, ReferenceIdeal.main_v187, ReferenceIdeal.main_v188, ReferenceIdeal.main_v189, ReferenceIdeal.main_v190, ReferenceIdeal.main_v191,
    ReferenceIdeal.main_v192, ReferenceIdeal.main_v193, ReferenceIdeal.main_v194, ReferenceIdeal.main_v195, ReferenceIdeal.main_v196, ReferenceIdeal.main_v197,
    ReferenceIdeal.main_v198, ReferenceIdeal.main_v199, ReferenceIdeal.main_v200, ReferenceIdeal.main_v201, ReferenceIdeal.main_v202, ReferenceIdeal.main_v203,
    ReferenceIdeal.main_v204, ReferenceIdeal.main_v205, ReferenceIdeal.main_v206, ReferenceIdeal.main_v207, ReferenceIdeal.main_v208, ReferenceIdeal.main_v209,
    ReferenceIdeal.main_v210, ReferenceIdeal.main_v211, ReferenceIdeal.main_v212, ReferenceIdeal.main_v213, ReferenceIdeal.main_v214, ReferenceIdeal.main_v215,
    ReferenceIdeal.main_v216, ReferenceIdeal.main_v217, ReferenceIdeal.main_v218, ReferenceIdeal.main_v219, ReferenceIdeal.main_v220, ReferenceIdeal.main_v221,
    ReferenceIdeal.main_v222, ReferenceIdeal.main_v223 ]
theorem s18_writes : (ReferenceIdeal.StagesP.stage18 : List (HloOp ReferenceIdeal.τ ReferenceIdeal.sig (Elt F))).Forall fun op =>
    op.writes ⊆ (s18W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 18 leaves every buffer it does not write as it was. -/
theorem s18_keep {r : Ref ReferenceIdeal.sig .tc} (hr : r ∉ s18W) (U : Valuation ReferenceIdeal.τ ReferenceIdeal.sig (Elt F)) :
    after ReferenceIdeal.StagesP.stage18 U (Proc.devRef .tc r) = U (Proc.devRef .tc r) :=
  after_of_writes_sub _ U s18_writes hr

/-- The buffers the reference's stage 19 writes, in order. -/
abbrev s19W : List (Ref ReferenceIdeal.sig .tc) :=
  [
    ReferenceIdeal.main_c_30 ]
theorem s19_writes : (ReferenceIdeal.StagesP.stage19 : List (HloOp ReferenceIdeal.τ ReferenceIdeal.sig (Elt F))).Forall fun op =>
    op.writes ⊆ (s19W.map (Proc.devRef (τ := ReferenceIdeal.τ) .tc)).toFinset :=
  writes_sub (by decide)
/-- The reference's stage 19 leaves every buffer it does not write as it was. -/
theorem s19_keep {r : Ref ReferenceIdeal.sig .tc} (hr : r ∉ s19W) (U : Valuation ReferenceIdeal.τ ReferenceIdeal.sig (Elt F)) :
    after ReferenceIdeal.StagesP.stage19 U (Proc.devRef .tc r) = U (Proc.devRef .tc r) :=
  after_of_writes_sub _ U s19_writes hr

/-- The buffers the reference's stage 20 writes, in order. -/
abbrev s20W : List (Ref ReferenceIdeal.sig .tc) :=
  [
    ReferenceIdeal.main_call9_v0, ReferenceIdeal.main_call9_v1, ReferenceIdeal.main_call9_v2, ReferenceIdeal.main_call9_v3, ReferenceIdeal.main_call9_v4, ReferenceIdeal.main_call9_v5,
    ReferenceIdeal.main_call9_v6, ReferenceIdeal.main_call9_v7, ReferenceIdeal.main_call9_v8, ReferenceIdeal.main_call9_v9, ReferenceIdeal.main_call9_v10, ReferenceIdeal.main_call9_v11,
    ReferenceIdeal.main_call9_v12, ReferenceIdeal.main_call9_v13, ReferenceIdeal.main_call9_v14, ReferenceIdeal.main_v224 ]
theorem s20_writes : (ReferenceIdeal.StagesP.stage20 : List (HloOp ReferenceIdeal.τ ReferenceIdeal.sig (Elt F))).Forall fun op =>
    op.writes ⊆ (s20W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 20 leaves every buffer it does not write as it was. -/
theorem s20_keep {r : Ref ReferenceIdeal.sig .tc} (hr : r ∉ s20W) (U : Valuation ReferenceIdeal.τ ReferenceIdeal.sig (Elt F)) :
    after ReferenceIdeal.StagesP.stage20 U (Proc.devRef .tc r) = U (Proc.devRef .tc r) :=
  after_of_writes_sub _ U s20_writes hr

/-- The buffers the reference's stage 21 writes, in order. -/
abbrev s21W : List (Ref ReferenceIdeal.sig .tc) :=
  [
    ReferenceIdeal.main_cst_31, ReferenceIdeal.main_v225, ReferenceIdeal.main_v226, ReferenceIdeal.main_v227, ReferenceIdeal.main_v228, ReferenceIdeal.main_v229,
    ReferenceIdeal.main_v230, ReferenceIdeal.main_v231, ReferenceIdeal.main_v232, ReferenceIdeal.main_v233, ReferenceIdeal.main_v234, ReferenceIdeal.main_v235,
    ReferenceIdeal.main_v236, ReferenceIdeal.main_v237, ReferenceIdeal.main_v238, ReferenceIdeal.main_v239, ReferenceIdeal.main_v240, ReferenceIdeal.main_v241,
    ReferenceIdeal.main_v242, ReferenceIdeal.main_v243, ReferenceIdeal.main_v244, ReferenceIdeal.main_v245, ReferenceIdeal.main_v246, ReferenceIdeal.main_v247,
    ReferenceIdeal.main_v248, ReferenceIdeal.main_v249, ReferenceIdeal.main_v250, ReferenceIdeal.main_v251, ReferenceIdeal.main_v252, ReferenceIdeal.main_v253,
    ReferenceIdeal.main_v254, ReferenceIdeal.main_v255, ReferenceIdeal.main_v256, ReferenceIdeal.main_v257, ReferenceIdeal.main_v258, ReferenceIdeal.main_v259,
    ReferenceIdeal.main_v260, ReferenceIdeal.main_v261, ReferenceIdeal.main_v262, ReferenceIdeal.main_v263, ReferenceIdeal.main_v264, ReferenceIdeal.main_v265,
    ReferenceIdeal.main_v266, ReferenceIdeal.main_v267, ReferenceIdeal.main_v268, ReferenceIdeal.main_v269, ReferenceIdeal.main_v270, ReferenceIdeal.main_v271,
    ReferenceIdeal.main_v272, ReferenceIdeal.main_v273, ReferenceIdeal.main_v274, ReferenceIdeal.main_v275, ReferenceIdeal.main_v276, ReferenceIdeal.main_v277,
    ReferenceIdeal.main_v278, ReferenceIdeal.main_v279 ]
theorem s21_writes : (ReferenceIdeal.StagesP.stage21 : List (HloOp ReferenceIdeal.τ ReferenceIdeal.sig (Elt F))).Forall fun op =>
    op.writes ⊆ (s21W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 21 leaves every buffer it does not write as it was. -/
theorem s21_keep {r : Ref ReferenceIdeal.sig .tc} (hr : r ∉ s21W) (U : Valuation ReferenceIdeal.τ ReferenceIdeal.sig (Elt F)) :
    after ReferenceIdeal.StagesP.stage21 U (Proc.devRef .tc r) = U (Proc.devRef .tc r) :=
  after_of_writes_sub _ U s21_writes hr

/-- The buffers the reference's stage 22 writes, in order. -/
abbrev s22W : List (Ref ReferenceIdeal.sig .tc) :=
  [
    ReferenceIdeal.main_v280, ReferenceIdeal.main_v281, ReferenceIdeal.main_c_32 ]
theorem s22_writes : (ReferenceIdeal.StagesP.stage22 : List (HloOp ReferenceIdeal.τ ReferenceIdeal.sig (Elt F))).Forall fun op =>
    op.writes ⊆ (s22W.map (Proc.devRef (τ := ReferenceIdeal.τ) .tc)).toFinset :=
  ⟨
    writes_sub (by decide), writes_sub (by decide), writes_sub (by decide) ⟩
/-- The reference's stage 22 leaves every buffer it does not write as it was. -/
theorem s22_keep {r : Ref ReferenceIdeal.sig .tc} (hr : r ∉ s22W) (U : Valuation ReferenceIdeal.τ ReferenceIdeal.sig (Elt F)) :
    after ReferenceIdeal.StagesP.stage22 U (Proc.devRef .tc r) = U (Proc.devRef .tc r) :=
  after_of_writes_sub _ U s22_writes hr

/-- The buffers the reference's stage 23 writes, in order. -/
abbrev s23W : List (Ref ReferenceIdeal.sig .tc) :=
  [
    ReferenceIdeal.main_call10_v0, ReferenceIdeal.main_call10_v1, ReferenceIdeal.main_call10_v2, ReferenceIdeal.main_call10_v3, ReferenceIdeal.main_call10_v4, ReferenceIdeal.main_call10_v5,
    ReferenceIdeal.main_call10_v6, ReferenceIdeal.main_call10_v7, ReferenceIdeal.main_call10_v8, ReferenceIdeal.main_call10_v9, ReferenceIdeal.main_call10_v10, ReferenceIdeal.main_call10_v11,
    ReferenceIdeal.main_call10_v12, ReferenceIdeal.main_call10_v13, ReferenceIdeal.main_call10_v14, ReferenceIdeal.main_v282 ]
theorem s23_writes : (ReferenceIdeal.StagesP.stage23 : List (HloOp ReferenceIdeal.τ ReferenceIdeal.sig (Elt F))).Forall fun op =>
    op.writes ⊆ (s23W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 23 leaves every buffer it does not write as it was. -/
theorem s23_keep {r : Ref ReferenceIdeal.sig .tc} (hr : r ∉ s23W) (U : Valuation ReferenceIdeal.τ ReferenceIdeal.sig (Elt F)) :
    after ReferenceIdeal.StagesP.stage23 U (Proc.devRef .tc r) = U (Proc.devRef .tc r) :=
  after_of_writes_sub _ U s23_writes hr

/-- The buffers the reference's stage 24 writes, in order. -/
abbrev s24W : List (Ref ReferenceIdeal.sig .tc) :=
  [
    ReferenceIdeal.main_cst_33, ReferenceIdeal.main_v283, ReferenceIdeal.main_v284, ReferenceIdeal.main_v285, ReferenceIdeal.main_v286, ReferenceIdeal.main_v287,
    ReferenceIdeal.main_v288, ReferenceIdeal.main_v289, ReferenceIdeal.main_v290, ReferenceIdeal.main_v291, ReferenceIdeal.main_v292, ReferenceIdeal.main_v293,
    ReferenceIdeal.main_v294, ReferenceIdeal.main_v295, ReferenceIdeal.main_v296, ReferenceIdeal.main_v297, ReferenceIdeal.main_v298, ReferenceIdeal.main_v299,
    ReferenceIdeal.main_v300, ReferenceIdeal.main_v301, ReferenceIdeal.main_v302, ReferenceIdeal.main_v303, ReferenceIdeal.main_v304, ReferenceIdeal.main_v305,
    ReferenceIdeal.main_v306, ReferenceIdeal.main_v307, ReferenceIdeal.main_v308, ReferenceIdeal.main_v309, ReferenceIdeal.main_v310, ReferenceIdeal.main_v311,
    ReferenceIdeal.main_v312, ReferenceIdeal.main_v313, ReferenceIdeal.main_v314, ReferenceIdeal.main_v315, ReferenceIdeal.main_v316, ReferenceIdeal.main_v317,
    ReferenceIdeal.main_v318, ReferenceIdeal.main_v319, ReferenceIdeal.main_v320, ReferenceIdeal.main_v321, ReferenceIdeal.main_v322, ReferenceIdeal.main_v323,
    ReferenceIdeal.main_v324, ReferenceIdeal.main_v325, ReferenceIdeal.main_v326, ReferenceIdeal.main_v327, ReferenceIdeal.main_v328, ReferenceIdeal.main_v329,
    ReferenceIdeal.main_v330, ReferenceIdeal.main_v331, ReferenceIdeal.main_v332, ReferenceIdeal.main_v333, ReferenceIdeal.main_v334, ReferenceIdeal.main_v335,
    ReferenceIdeal.main_v336, ReferenceIdeal.main_v337 ]
theorem s24_writes : (ReferenceIdeal.StagesP.stage24 : List (HloOp ReferenceIdeal.τ ReferenceIdeal.sig (Elt F))).Forall fun op =>
    op.writes ⊆ (s24W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 24 leaves every buffer it does not write as it was. -/
theorem s24_keep {r : Ref ReferenceIdeal.sig .tc} (hr : r ∉ s24W) (U : Valuation ReferenceIdeal.τ ReferenceIdeal.sig (Elt F)) :
    after ReferenceIdeal.StagesP.stage24 U (Proc.devRef .tc r) = U (Proc.devRef .tc r) :=
  after_of_writes_sub _ U s24_writes hr

/-- The buffers the reference's stage 25 writes, in order. -/
abbrev s25W : List (Ref ReferenceIdeal.sig .tc) :=
  [
    ReferenceIdeal.main_c_34 ]
theorem s25_writes : (ReferenceIdeal.StagesP.stage25 : List (HloOp ReferenceIdeal.τ ReferenceIdeal.sig (Elt F))).Forall fun op =>
    op.writes ⊆ (s25W.map (Proc.devRef (τ := ReferenceIdeal.τ) .tc)).toFinset :=
  writes_sub (by decide)
/-- The reference's stage 25 leaves every buffer it does not write as it was. -/
theorem s25_keep {r : Ref ReferenceIdeal.sig .tc} (hr : r ∉ s25W) (U : Valuation ReferenceIdeal.τ ReferenceIdeal.sig (Elt F)) :
    after ReferenceIdeal.StagesP.stage25 U (Proc.devRef .tc r) = U (Proc.devRef .tc r) :=
  after_of_writes_sub _ U s25_writes hr

/-- The buffers the reference's stage 26 writes, in order. -/
abbrev s26W : List (Ref ReferenceIdeal.sig .tc) :=
  [
    ReferenceIdeal.main_call11_v0, ReferenceIdeal.main_call11_v1, ReferenceIdeal.main_call11_v2, ReferenceIdeal.main_call11_v3, ReferenceIdeal.main_call11_v4, ReferenceIdeal.main_call11_v5,
    ReferenceIdeal.main_call11_v6, ReferenceIdeal.main_call11_v7, ReferenceIdeal.main_call11_v8, ReferenceIdeal.main_call11_v9, ReferenceIdeal.main_call11_v10, ReferenceIdeal.main_call11_v11,
    ReferenceIdeal.main_call11_v12, ReferenceIdeal.main_call11_v13, ReferenceIdeal.main_call11_v14, ReferenceIdeal.main_v338 ]
theorem s26_writes : (ReferenceIdeal.StagesP.stage26 : List (HloOp ReferenceIdeal.τ ReferenceIdeal.sig (Elt F))).Forall fun op =>
    op.writes ⊆ (s26W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 26 leaves every buffer it does not write as it was. -/
theorem s26_keep {r : Ref ReferenceIdeal.sig .tc} (hr : r ∉ s26W) (U : Valuation ReferenceIdeal.τ ReferenceIdeal.sig (Elt F)) :
    after ReferenceIdeal.StagesP.stage26 U (Proc.devRef .tc r) = U (Proc.devRef .tc r) :=
  after_of_writes_sub _ U s26_writes hr

/-- The buffers the reference's stage 27 writes, in order. -/
abbrev s27W : List (Ref ReferenceIdeal.sig .tc) :=
  [
    ReferenceIdeal.main_cst_35, ReferenceIdeal.main_v339, ReferenceIdeal.main_v340, ReferenceIdeal.main_v341, ReferenceIdeal.main_v342, ReferenceIdeal.main_v343,
    ReferenceIdeal.main_v344, ReferenceIdeal.main_v345, ReferenceIdeal.main_v346, ReferenceIdeal.main_v347, ReferenceIdeal.main_v348, ReferenceIdeal.main_v349,
    ReferenceIdeal.main_v350, ReferenceIdeal.main_v351, ReferenceIdeal.main_v352, ReferenceIdeal.main_v353, ReferenceIdeal.main_v354, ReferenceIdeal.main_v355,
    ReferenceIdeal.main_v356, ReferenceIdeal.main_v357, ReferenceIdeal.main_v358, ReferenceIdeal.main_v359, ReferenceIdeal.main_v360, ReferenceIdeal.main_v361,
    ReferenceIdeal.main_v362, ReferenceIdeal.main_v363, ReferenceIdeal.main_v364, ReferenceIdeal.main_v365, ReferenceIdeal.main_v366, ReferenceIdeal.main_v367,
    ReferenceIdeal.main_v368, ReferenceIdeal.main_v369, ReferenceIdeal.main_v370, ReferenceIdeal.main_v371, ReferenceIdeal.main_v372, ReferenceIdeal.main_v373,
    ReferenceIdeal.main_v374, ReferenceIdeal.main_v375, ReferenceIdeal.main_v376, ReferenceIdeal.main_v377, ReferenceIdeal.main_v378, ReferenceIdeal.main_v379,
    ReferenceIdeal.main_v380, ReferenceIdeal.main_v381, ReferenceIdeal.main_v382, ReferenceIdeal.main_v383, ReferenceIdeal.main_v384, ReferenceIdeal.main_v385,
    ReferenceIdeal.main_v386, ReferenceIdeal.main_v387, ReferenceIdeal.main_v388, ReferenceIdeal.main_v389, ReferenceIdeal.main_v390, ReferenceIdeal.main_v391,
    ReferenceIdeal.main_v392, ReferenceIdeal.main_v393 ]
theorem s27_writes : (ReferenceIdeal.StagesP.stage27 : List (HloOp ReferenceIdeal.τ ReferenceIdeal.sig (Elt F))).Forall fun op =>
    op.writes ⊆ (s27W.map (Proc.devRef (τ := ReferenceIdeal.τ) .tc)).toFinset :=
  ⟨
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide),
    writes_sub (by decide), writes_sub (by decide), writes_sub (by decide), writes_sub (by decide) ⟩
/-- The reference's stage 27 leaves every buffer it does not write as it was. -/
theorem s27_keep {r : Ref ReferenceIdeal.sig .tc} (hr : r ∉ s27W) (U : Valuation ReferenceIdeal.τ ReferenceIdeal.sig (Elt F)) :
    after ReferenceIdeal.StagesP.stage27 U (Proc.devRef .tc r) = U (Proc.devRef .tc r) :=
  after_of_writes_sub _ U s27_writes hr

/-! ### Along the chain -/

/-- The second argument array reaches the stage that takes its first image as it was launched. -/
theorem arg1_P16 (V : Valuation ReferenceIdeal.τ ReferenceIdeal.sig (Elt F)) :
    ReferenceIdeal.ChainP.P16 V (Proc.devRef .tc ReferenceIdeal.main_arg1) = V (Proc.devRef .tc ReferenceIdeal.main_arg1) :=
  (s15_keep (r := ReferenceIdeal.main_arg1) (by decide) (ReferenceIdeal.ChainP.P15 V)).trans
    ((s14_keep (r := ReferenceIdeal.main_arg1) (by decide) (ReferenceIdeal.ChainP.P14 V)).trans
    ((s13_keep (r := ReferenceIdeal.main_arg1) (by decide) (ReferenceIdeal.ChainP.P13 V)).trans
    ((s12_keep (r := ReferenceIdeal.main_arg1) (by decide) (ReferenceIdeal.ChainP.P12 V)).trans
    ((s11_keep (r := ReferenceIdeal.main_arg1) (by decide) (ReferenceIdeal.ChainP.P11 V)).trans
    ((s10_keep (r := ReferenceIdeal.main_arg1) (by decide) (ReferenceIdeal.ChainP.P10 V)).trans
    ((s9_keep (r := ReferenceIdeal.main_arg1) (by decide) (ReferenceIdeal.ChainP.P9 V)).trans
    ((s8_keep (r := ReferenceIdeal.main_arg1) (by decide) (ReferenceIdeal.ChainP.P8 V)).trans
    ((s7_keep (r := ReferenceIdeal.main_arg1) (by decide) (ReferenceIdeal.ChainP.P7 V)).trans
    ((s6_keep (r := ReferenceIdeal.main_arg1) (by decide) (ReferenceIdeal.ChainP.P6 V)).trans
    ((s5_keep (r := ReferenceIdeal.main_arg1) (by decide) (ReferenceIdeal.ChainP.P5 V)).trans
    ((s4_keep (r := ReferenceIdeal.main_arg1) (by decide) (ReferenceIdeal.ChainP.P4 V)).trans
    ((s3_keep (r := ReferenceIdeal.main_arg1) (by decide) (ReferenceIdeal.ChainP.P3 V)).trans
    ((s2_keep (r := ReferenceIdeal.main_arg1) (by decide) (ReferenceIdeal.ChainP.P2 V)).trans
    ((s1_keep (r := ReferenceIdeal.main_arg1) (by decide) (ReferenceIdeal.ChainP.P1 V)).trans
    ((s0_keep (r := ReferenceIdeal.main_arg1) (by decide) (V)))))))))))))))))

/-- The first argument array reaches the stage that takes its first image as it was launched. -/
theorem arg0_P22 (V : Valuation ReferenceIdeal.τ ReferenceIdeal.sig (Elt F)) :
    ReferenceIdeal.ChainP.P22 V (Proc.devRef .tc ReferenceIdeal.main_arg0) = V (Proc.devRef .tc ReferenceIdeal.main_arg0) :=
  (s21_keep (r := ReferenceIdeal.main_arg0) (by decide) (ReferenceIdeal.ChainP.P21 V)).trans
    ((s20_keep (r := ReferenceIdeal.main_arg0) (by decide) (ReferenceIdeal.ChainP.P20 V)).trans
    ((s19_keep (r := ReferenceIdeal.main_arg0) (by decide) (ReferenceIdeal.ChainP.P19 V)).trans
    ((s18_keep (r := ReferenceIdeal.main_arg0) (by decide) (ReferenceIdeal.ChainP.P18 V)).trans
    ((s17_keep (r := ReferenceIdeal.main_arg0) (by decide) (ReferenceIdeal.ChainP.P17 V)).trans
    ((s16_keep (r := ReferenceIdeal.main_arg0) (by decide) (ReferenceIdeal.ChainP.P16 V)).trans
    ((s15_keep (r := ReferenceIdeal.main_arg0) (by decide) (ReferenceIdeal.ChainP.P15 V)).trans
    ((s14_keep (r := ReferenceIdeal.main_arg0) (by decide) (ReferenceIdeal.ChainP.P14 V)).trans
    ((s13_keep (r := ReferenceIdeal.main_arg0) (by decide) (ReferenceIdeal.ChainP.P13 V)).trans
    ((s12_keep (r := ReferenceIdeal.main_arg0) (by decide) (ReferenceIdeal.ChainP.P12 V)).trans
    ((s11_keep (r := ReferenceIdeal.main_arg0) (by decide) (ReferenceIdeal.ChainP.P11 V)).trans
    ((s10_keep (r := ReferenceIdeal.main_arg0) (by decide) (ReferenceIdeal.ChainP.P10 V)).trans
    ((s9_keep (r := ReferenceIdeal.main_arg0) (by decide) (ReferenceIdeal.ChainP.P9 V)).trans
    ((s8_keep (r := ReferenceIdeal.main_arg0) (by decide) (ReferenceIdeal.ChainP.P8 V)).trans
    ((s7_keep (r := ReferenceIdeal.main_arg0) (by decide) (ReferenceIdeal.ChainP.P7 V)).trans
    ((s6_keep (r := ReferenceIdeal.main_arg0) (by decide) (ReferenceIdeal.ChainP.P6 V)).trans
    ((s5_keep (r := ReferenceIdeal.main_arg0) (by decide) (ReferenceIdeal.ChainP.P5 V)).trans
    ((s4_keep (r := ReferenceIdeal.main_arg0) (by decide) (ReferenceIdeal.ChainP.P4 V)).trans
    ((s3_keep (r := ReferenceIdeal.main_arg0) (by decide) (ReferenceIdeal.ChainP.P3 V)).trans
    ((s2_keep (r := ReferenceIdeal.main_arg0) (by decide) (ReferenceIdeal.ChainP.P2 V)).trans
    ((s1_keep (r := ReferenceIdeal.main_arg0) (by decide) (ReferenceIdeal.ChainP.P1 V)).trans
    ((s0_keep (r := ReferenceIdeal.main_arg0) (by decide) (V)))))))))))))))))))))))

/-- The first stage writes the blur's table. -/
theorem cst_P1 (V : Valuation ReferenceIdeal.τ ReferenceIdeal.sig (Elt F)) :
    ReferenceIdeal.ChainP.P1 V (Proc.devRef .tc ReferenceIdeal.main_cst) = table ReferenceIdeal.lit0 := by
  simp only [ReferenceIdeal.ChainP.P1, ReferenceIdeal.StagesP.stage0]
  after_results_simp
  rfl

/-- The first stage writes the Laplacian's table. -/
theorem cst0_P1 (V : Valuation ReferenceIdeal.τ ReferenceIdeal.sig (Elt F)) :
    ReferenceIdeal.ChainP.P1 V (Proc.devRef .tc ReferenceIdeal.main_cst_0) = table ReferenceIdeal.lit1 := by
  simp only [ReferenceIdeal.ChainP.P1, ReferenceIdeal.StagesP.stage0]
  after_results_simp
  rfl

/-- The blur's table as stage 18 finds it. -/
theorem cst_P18 (V : Valuation ReferenceIdeal.τ ReferenceIdeal.sig (Elt F)) :
    ReferenceIdeal.ChainP.P18 V (Proc.devRef .tc ReferenceIdeal.main_cst) = table ReferenceIdeal.lit0 :=
  (s17_keep (r := ReferenceIdeal.main_cst) (by decide) (ReferenceIdeal.ChainP.P17 V)).trans
    ((s16_keep (r := ReferenceIdeal.main_cst) (by decide) (ReferenceIdeal.ChainP.P16 V)).trans
    ((s15_keep (r := ReferenceIdeal.main_cst) (by decide) (ReferenceIdeal.ChainP.P15 V)).trans
    ((s14_keep (r := ReferenceIdeal.main_cst) (by decide) (ReferenceIdeal.ChainP.P14 V)).trans
    ((s13_keep (r := ReferenceIdeal.main_cst) (by decide) (ReferenceIdeal.ChainP.P13 V)).trans
    ((s12_keep (r := ReferenceIdeal.main_cst) (by decide) (ReferenceIdeal.ChainP.P12 V)).trans
    ((s11_keep (r := ReferenceIdeal.main_cst) (by decide) (ReferenceIdeal.ChainP.P11 V)).trans
    ((s10_keep (r := ReferenceIdeal.main_cst) (by decide) (ReferenceIdeal.ChainP.P10 V)).trans
    ((s9_keep (r := ReferenceIdeal.main_cst) (by decide) (ReferenceIdeal.ChainP.P9 V)).trans
    ((s8_keep (r := ReferenceIdeal.main_cst) (by decide) (ReferenceIdeal.ChainP.P8 V)).trans
    ((s7_keep (r := ReferenceIdeal.main_cst) (by decide) (ReferenceIdeal.ChainP.P7 V)).trans
    ((s6_keep (r := ReferenceIdeal.main_cst) (by decide) (ReferenceIdeal.ChainP.P6 V)).trans
    ((s5_keep (r := ReferenceIdeal.main_cst) (by decide) (ReferenceIdeal.ChainP.P5 V)).trans
    ((s4_keep (r := ReferenceIdeal.main_cst) (by decide) (ReferenceIdeal.ChainP.P4 V)).trans
    ((s3_keep (r := ReferenceIdeal.main_cst) (by decide) (ReferenceIdeal.ChainP.P3 V)).trans
    ((s2_keep (r := ReferenceIdeal.main_cst) (by decide) (ReferenceIdeal.ChainP.P2 V)).trans
    ((s1_keep (r := ReferenceIdeal.main_cst) (by decide) (ReferenceIdeal.ChainP.P1 V)).trans
    (cst_P1 V)))))))))))))))))

/-- The blur's table as stage 24 finds it. -/
theorem cst_P24 (V : Valuation ReferenceIdeal.τ ReferenceIdeal.sig (Elt F)) :
    ReferenceIdeal.ChainP.P24 V (Proc.devRef .tc ReferenceIdeal.main_cst) = table ReferenceIdeal.lit0 :=
  (s23_keep (r := ReferenceIdeal.main_cst) (by decide) (ReferenceIdeal.ChainP.P23 V)).trans
    ((s22_keep (r := ReferenceIdeal.main_cst) (by decide) (ReferenceIdeal.ChainP.P22 V)).trans
    ((s21_keep (r := ReferenceIdeal.main_cst) (by decide) (ReferenceIdeal.ChainP.P21 V)).trans
    ((s20_keep (r := ReferenceIdeal.main_cst) (by decide) (ReferenceIdeal.ChainP.P20 V)).trans
    ((s19_keep (r := ReferenceIdeal.main_cst) (by decide) (ReferenceIdeal.ChainP.P19 V)).trans
    ((s18_keep (r := ReferenceIdeal.main_cst) (by decide) (ReferenceIdeal.ChainP.P18 V)).trans
    ((s17_keep (r := ReferenceIdeal.main_cst) (by decide) (ReferenceIdeal.ChainP.P17 V)).trans
    ((s16_keep (r := ReferenceIdeal.main_cst) (by decide) (ReferenceIdeal.ChainP.P16 V)).trans
    ((s15_keep (r := ReferenceIdeal.main_cst) (by decide) (ReferenceIdeal.ChainP.P15 V)).trans
    ((s14_keep (r := ReferenceIdeal.main_cst) (by decide) (ReferenceIdeal.ChainP.P14 V)).trans
    ((s13_keep (r := ReferenceIdeal.main_cst) (by decide) (ReferenceIdeal.ChainP.P13 V)).trans
    ((s12_keep (r := ReferenceIdeal.main_cst) (by decide) (ReferenceIdeal.ChainP.P12 V)).trans
    ((s11_keep (r := ReferenceIdeal.main_cst) (by decide) (ReferenceIdeal.ChainP.P11 V)).trans
    ((s10_keep (r := ReferenceIdeal.main_cst) (by decide) (ReferenceIdeal.ChainP.P10 V)).trans
    ((s9_keep (r := ReferenceIdeal.main_cst) (by decide) (ReferenceIdeal.ChainP.P9 V)).trans
    ((s8_keep (r := ReferenceIdeal.main_cst) (by decide) (ReferenceIdeal.ChainP.P8 V)).trans
    ((s7_keep (r := ReferenceIdeal.main_cst) (by decide) (ReferenceIdeal.ChainP.P7 V)).trans
    ((s6_keep (r := ReferenceIdeal.main_cst) (by decide) (ReferenceIdeal.ChainP.P6 V)).trans
    ((s5_keep (r := ReferenceIdeal.main_cst) (by decide) (ReferenceIdeal.ChainP.P5 V)).trans
    ((s4_keep (r := ReferenceIdeal.main_cst) (by decide) (ReferenceIdeal.ChainP.P4 V)).trans
    ((s3_keep (r := ReferenceIdeal.main_cst) (by decide) (ReferenceIdeal.ChainP.P3 V)).trans
    ((s2_keep (r := ReferenceIdeal.main_cst) (by decide) (ReferenceIdeal.ChainP.P2 V)).trans
    ((s1_keep (r := ReferenceIdeal.main_cst) (by decide) (ReferenceIdeal.ChainP.P1 V)).trans
    (cst_P1 V)))))))))))))))))))))))

/-- The Laplacian's table as stage 21 finds it. -/
theorem cst0_P21 (V : Valuation ReferenceIdeal.τ ReferenceIdeal.sig (Elt F)) :
    ReferenceIdeal.ChainP.P21 V (Proc.devRef .tc ReferenceIdeal.main_cst_0) = table ReferenceIdeal.lit1 :=
  (s20_keep (r := ReferenceIdeal.main_cst_0) (by decide) (ReferenceIdeal.ChainP.P20 V)).trans
    ((s19_keep (r := ReferenceIdeal.main_cst_0) (by decide) (ReferenceIdeal.ChainP.P19 V)).trans
    ((s18_keep (r := ReferenceIdeal.main_cst_0) (by decide) (ReferenceIdeal.ChainP.P18 V)).trans
    ((s17_keep (r := ReferenceIdeal.main_cst_0) (by decide) (ReferenceIdeal.ChainP.P17 V)).trans
    ((s16_keep (r := ReferenceIdeal.main_cst_0) (by decide) (ReferenceIdeal.ChainP.P16 V)).trans
    ((s15_keep (r := ReferenceIdeal.main_cst_0) (by decide) (ReferenceIdeal.ChainP.P15 V)).trans
    ((s14_keep (r := ReferenceIdeal.main_cst_0) (by decide) (ReferenceIdeal.ChainP.P14 V)).trans
    ((s13_keep (r := ReferenceIdeal.main_cst_0) (by decide) (ReferenceIdeal.ChainP.P13 V)).trans
    ((s12_keep (r := ReferenceIdeal.main_cst_0) (by decide) (ReferenceIdeal.ChainP.P12 V)).trans
    ((s11_keep (r := ReferenceIdeal.main_cst_0) (by decide) (ReferenceIdeal.ChainP.P11 V)).trans
    ((s10_keep (r := ReferenceIdeal.main_cst_0) (by decide) (ReferenceIdeal.ChainP.P10 V)).trans
    ((s9_keep (r := ReferenceIdeal.main_cst_0) (by decide) (ReferenceIdeal.ChainP.P9 V)).trans
    ((s8_keep (r := ReferenceIdeal.main_cst_0) (by decide) (ReferenceIdeal.ChainP.P8 V)).trans
    ((s7_keep (r := ReferenceIdeal.main_cst_0) (by decide) (ReferenceIdeal.ChainP.P7 V)).trans
    ((s6_keep (r := ReferenceIdeal.main_cst_0) (by decide) (ReferenceIdeal.ChainP.P6 V)).trans
    ((s5_keep (r := ReferenceIdeal.main_cst_0) (by decide) (ReferenceIdeal.ChainP.P5 V)).trans
    ((s4_keep (r := ReferenceIdeal.main_cst_0) (by decide) (ReferenceIdeal.ChainP.P4 V)).trans
    ((s3_keep (r := ReferenceIdeal.main_cst_0) (by decide) (ReferenceIdeal.ChainP.P3 V)).trans
    ((s2_keep (r := ReferenceIdeal.main_cst_0) (by decide) (ReferenceIdeal.ChainP.P2 V)).trans
    ((s1_keep (r := ReferenceIdeal.main_cst_0) (by decide) (ReferenceIdeal.ChainP.P1 V)).trans
    (cst0_P1 V))))))))))))))))))))

/-- The Laplacian's table as stage 27 finds it. -/
theorem cst0_P27 (V : Valuation ReferenceIdeal.τ ReferenceIdeal.sig (Elt F)) :
    ReferenceIdeal.ChainP.P27 V (Proc.devRef .tc ReferenceIdeal.main_cst_0) = table ReferenceIdeal.lit1 :=
  (s26_keep (r := ReferenceIdeal.main_cst_0) (by decide) (ReferenceIdeal.ChainP.P26 V)).trans
    ((s25_keep (r := ReferenceIdeal.main_cst_0) (by decide) (ReferenceIdeal.ChainP.P25 V)).trans
    ((s24_keep (r := ReferenceIdeal.main_cst_0) (by decide) (ReferenceIdeal.ChainP.P24 V)).trans
    ((s23_keep (r := ReferenceIdeal.main_cst_0) (by decide) (ReferenceIdeal.ChainP.P23 V)).trans
    ((s22_keep (r := ReferenceIdeal.main_cst_0) (by decide) (ReferenceIdeal.ChainP.P22 V)).trans
    ((s21_keep (r := ReferenceIdeal.main_cst_0) (by decide) (ReferenceIdeal.ChainP.P21 V)).trans
    ((s20_keep (r := ReferenceIdeal.main_cst_0) (by decide) (ReferenceIdeal.ChainP.P20 V)).trans
    ((s19_keep (r := ReferenceIdeal.main_cst_0) (by decide) (ReferenceIdeal.ChainP.P19 V)).trans
    ((s18_keep (r := ReferenceIdeal.main_cst_0) (by decide) (ReferenceIdeal.ChainP.P18 V)).trans
    ((s17_keep (r := ReferenceIdeal.main_cst_0) (by decide) (ReferenceIdeal.ChainP.P17 V)).trans
    ((s16_keep (r := ReferenceIdeal.main_cst_0) (by decide) (ReferenceIdeal.ChainP.P16 V)).trans
    ((s15_keep (r := ReferenceIdeal.main_cst_0) (by decide) (ReferenceIdeal.ChainP.P15 V)).trans
    ((s14_keep (r := ReferenceIdeal.main_cst_0) (by decide) (ReferenceIdeal.ChainP.P14 V)).trans
    ((s13_keep (r := ReferenceIdeal.main_cst_0) (by decide) (ReferenceIdeal.ChainP.P13 V)).trans
    ((s12_keep (r := ReferenceIdeal.main_cst_0) (by decide) (ReferenceIdeal.ChainP.P12 V)).trans
    ((s11_keep (r := ReferenceIdeal.main_cst_0) (by decide) (ReferenceIdeal.ChainP.P11 V)).trans
    ((s10_keep (r := ReferenceIdeal.main_cst_0) (by decide) (ReferenceIdeal.ChainP.P10 V)).trans
    ((s9_keep (r := ReferenceIdeal.main_cst_0) (by decide) (ReferenceIdeal.ChainP.P9 V)).trans
    ((s8_keep (r := ReferenceIdeal.main_cst_0) (by decide) (ReferenceIdeal.ChainP.P8 V)).trans
    ((s7_keep (r := ReferenceIdeal.main_cst_0) (by decide) (ReferenceIdeal.ChainP.P7 V)).trans
    ((s6_keep (r := ReferenceIdeal.main_cst_0) (by decide) (ReferenceIdeal.ChainP.P6 V)).trans
    ((s5_keep (r := ReferenceIdeal.main_cst_0) (by decide) (ReferenceIdeal.ChainP.P5 V)).trans
    ((s4_keep (r := ReferenceIdeal.main_cst_0) (by decide) (ReferenceIdeal.ChainP.P4 V)).trans
    ((s3_keep (r := ReferenceIdeal.main_cst_0) (by decide) (ReferenceIdeal.ChainP.P3 V)).trans
    ((s2_keep (r := ReferenceIdeal.main_cst_0) (by decide) (ReferenceIdeal.ChainP.P2 V)).trans
    ((s1_keep (r := ReferenceIdeal.main_cst_0) (by decide) (ReferenceIdeal.ChainP.P1 V)).trans
    (cst0_P1 V))))))))))))))))))))))))))

end Reference

end Cert.Bridge.Lap

end
-- ==== Proof.LapBridge.lean ====
/-
  The two Laplacian-of-blur images are the same arrays in the two programs.

  Both programs take the first image of an argument array, border it by mirroring, blur it with a 3 × 3 stencil,
  border the result and apply the 3 × 3 discrete Laplacian.  The kernel program writes each stencil weight as a scalar
  constant; the reference reads it out of a 3 × 3 table whose entries are the same floats.  Read as functions of the
  argument array both chains are  Laplacian ∘ border ∘ blur ∘ border ∘ first image,  so equal argument arrays give equal
  results.  Nothing is said about the values themselves: the operations are the same, applied in the same order.
-/
import proofs.«123598_j69123203661888_2_alg».proof.Proof.Gen.KernelIdeal.Frame
import proofs.«123598_j69123203661888_2_alg».proof.Proof.KernelCarry
import proofs.«123598_j69123203661888_2_alg».proof.Proof.RefChainP
import proofs.«123598_j69123203661888_2_alg».proof.Proof.Gen.ReferenceIdeal
import proofs.«123598_j69123203661888_2_alg».proof.Proof.LapDefs
import proofs.«123598_j69123203661888_2_alg».proof.Proof.LapPadK
import proofs.«123598_j69123203661888_2_alg».proof.Proof.LapPadR
import proofs.«123598_j69123203661888_2_alg».proof.Proof.LapTaps
import proofs.«123598_j69123203661888_2_alg».proof.Proof.LapCarry
import Idealize.ShloMosaic.Lib.StableHlo.Run

set_option maxRecDepth 16384

noncomputable section

namespace Cert.Bridge.Lap

open Idealize.ShloMosaic Idealize.ShloMosaic.TcCoe Idealize.SL.Sem Idealize.ShloMosaic.StableHlo
open Cert

variable {F : FTy → Type} [FloatOps F] [ReferenceIdeal.Facts]
variable (m : (ℓ : Loc KernelIdeal.nD KernelIdeal.τ KernelIdeal.sig) → Buf (Elt F) ℓ)
  (ρ : Dev KernelIdeal.nD → PrngReg) (c : Dev KernelIdeal.nD)

/-- The whole chain as one function of the argument array. -/
def lapOf (A : C F ReferenceIdeal.S8x3x1024x1024) : C F ReferenceIdeal.S1024x1024 :=
  tapsL (pad (tapsG (pad (img A))))

/-! ## The kernel program -/

/-- The Laplacian image of the second argument array, as the third kernel finds it. -/
theorem lapK_P :
    KernelIdeal.Gen.W12 m ρ c (Proc.devRef .tc KernelIdeal.main_v88)
      = lapOf (m ((c : Thread KernelIdeal.nD KernelIdeal.τ).loc KernelIdeal.main_arg1)) := by
  have e4 := (imgK10 (KernelIdeal.Gen.W3 m ρ c)).trans (congrArg img (KernelCarry.W3_arg1 m ρ c))
  have e5 := (padK2_1 (KernelIdeal.Gen.W4 m ρ c)).trans (congrArg pad e4)
  have e6 := (tapsK2_2 (KernelIdeal.Gen.W5 m ρ c)).trans (congrArg tapsG e5)
  have e7 := (padK2_3 (KernelIdeal.Gen.W6 m ρ c)).trans (congrArg pad e6)
  have e8 := (tapsK2_4 (KernelIdeal.Gen.W7 m ρ c)).trans (congrArg tapsL e7)
  exact ((k2_8_keep (r := KernelIdeal.main_v88) (by decide) (KernelIdeal.Gen.W11 m ρ c)).trans
    ((k2_7_keep (r := KernelIdeal.main_v88) (by decide) (KernelIdeal.Gen.W10 m ρ c)).trans
    ((k2_6_keep (r := KernelIdeal.main_v88) (by decide) (KernelIdeal.Gen.W9 m ρ c)).trans
    (k2_5_keep (r := KernelIdeal.main_v88) (by decide) (KernelIdeal.Gen.W8 m ρ c))))).trans e8

/-- The Laplacian image of the first argument array, as the third kernel finds it. -/
theorem lapK_T :
    KernelIdeal.Gen.W12 m ρ c (Proc.devRef .tc KernelIdeal.main_v164)
      = lapOf (m ((c : Thread KernelIdeal.nD KernelIdeal.τ).loc KernelIdeal.main_arg0)) := by
  have e4 := (imgK12 (KernelIdeal.Gen.W3 m ρ c)).trans (congrArg img (KernelCarry.W3_arg0 m ρ c))
  have e8 := ((k2_4_keep (r := KernelIdeal.main_v12) (by decide) (KernelIdeal.Gen.W7 m ρ c)).trans
    ((k2_3_keep (r := KernelIdeal.main_v12) (by decide) (KernelIdeal.Gen.W6 m ρ c)).trans
    ((k2_2_keep (r := KernelIdeal.main_v12) (by decide) (KernelIdeal.Gen.W5 m ρ c)).trans
    (k2_1_keep (r := KernelIdeal.main_v12) (by decide) (KernelIdeal.Gen.W4 m ρ c))))).trans e4
  have e9 := (padK2_5 (KernelIdeal.Gen.W8 m ρ c)).trans (congrArg pad e8)
  have e10 := (tapsK2_6 (KernelIdeal.Gen.W9 m ρ c)).trans (congrArg tapsG e9)
  have e11 := (padK2_7 (KernelIdeal.Gen.W10 m ρ c)).trans (congrArg pad e10)
  exact (tapsK2_8 (KernelIdeal.Gen.W11 m ρ c)).trans (congrArg tapsL e11)

/-! ## The reference -/

/-- The Laplacian image of the second argument array after the reference's stage 21. -/
theorem lapR_P (V : Valuation ReferenceIdeal.τ ReferenceIdeal.sig (Elt F)) :
    ReferenceIdeal.ChainP.P22 V (Proc.devRef .tc ReferenceIdeal.main_v279)
      = lapOf (V (Proc.devRef .tc ReferenceIdeal.main_arg1)) := by
  have e17 := (imgR167 (ReferenceIdeal.ChainP.P16 V)).trans (congrArg img (arg1_P16 V))
  have e18 := (padR17 (ReferenceIdeal.ChainP.P17 V)).trans (congrArg pad e17)
  have e19 := (tapsR18 (ReferenceIdeal.ChainP.P18 V)).trans
    ((congrArg₂ tapsT (cst_P18 V) e18).trans (tapsT_gauss _))
  have e20 := (s19_keep (r := ReferenceIdeal.main_v223) (by decide) (ReferenceIdeal.ChainP.P19 V)).trans e19
  have e21 := (padR20 (ReferenceIdeal.ChainP.P20 V)).trans (congrArg pad e20)
  exact (tapsR21 (ReferenceIdeal.ChainP.P21 V)).trans
    ((congrArg₂ tapsT (cst0_P21 V) e21).trans (tapsT_lapl _))

/-- The Laplacian image of the first argument array after the reference's stage 27. -/
theorem lapR_T (V : Valuation ReferenceIdeal.τ ReferenceIdeal.sig (Elt F)) :
    ReferenceIdeal.ChainP.P28 V (Proc.devRef .tc ReferenceIdeal.main_v393)
      = lapOf (V (Proc.devRef .tc ReferenceIdeal.main_arg0)) := by
  have e23 := (imgR281 (ReferenceIdeal.ChainP.P22 V)).trans (congrArg img (arg0_P22 V))
  have e24 := (padR23 (ReferenceIdeal.ChainP.P23 V)).trans (congrArg pad e23)
  have e25 := (tapsR24 (ReferenceIdeal.ChainP.P24 V)).trans
    ((congrArg₂ tapsT (cst_P24 V) e24).trans (tapsT_gauss _))
  have e26 := (s25_keep (r := ReferenceIdeal.main_v337) (by decide) (ReferenceIdeal.ChainP.P25 V)).trans e25
  have e27 := (padR26 (ReferenceIdeal.ChainP.P26 V)).trans (congrArg pad e26)
  exact (tapsR27 (ReferenceIdeal.ChainP.P27 V)).trans
    ((congrArg₂ tapsT (cst0_P27 V) e27).trans (tapsT_lapl _))

/-! ## The two programs -/

/-- The Laplacian image of the second argument array is the same array in the two programs. -/
theorem lapP_eq (V' : Valuation ReferenceIdeal.τ ReferenceIdeal.sig (Elt F))
    (h0 : V' (Proc.devRef .tc ReferenceIdeal.main_arg0)
      = m ((c : Thread KernelIdeal.nD KernelIdeal.τ).loc KernelIdeal.main_arg0))
    (h1 : V' (Proc.devRef .tc ReferenceIdeal.main_arg1)
      = m ((c : Thread KernelIdeal.nD KernelIdeal.τ).loc KernelIdeal.main_arg1)) :
    ReferenceIdeal.ChainP.P22 V' (Proc.devRef .tc ReferenceIdeal.main_v279)
      = KernelIdeal.Gen.W12 m ρ c (Proc.devRef .tc KernelIdeal.main_v88) :=
  (lapR_P V').trans ((congrArg lapOf h1).trans (lapK_P m ρ c).symm)

/-- The Laplacian image of the first argument array is the same array in the two programs. -/
theorem lapT_eq (V' : Valuation ReferenceIdeal.τ ReferenceIdeal.sig (Elt F))
    (h0 : V' (Proc.devRef .tc ReferenceIdeal.main_arg0)
      = m ((c : Thread KernelIdeal.nD KernelIdeal.τ).loc KernelIdeal.main_arg0))
    (h1 : V' (Proc.devRef .tc ReferenceIdeal.main_arg1)
      = m ((c : Thread KernelIdeal.nD KernelIdeal.τ).loc KernelIdeal.main_arg1)) :
    ReferenceIdeal.ChainP.P28 V' (Proc.devRef .tc ReferenceIdeal.main_v393)
      = KernelIdeal.Gen.W12 m ρ c (Proc.devRef .tc KernelIdeal.main_v164) :=
  (lapR_T V').trans ((congrArg lapOf h0).trans (lapK_T m ρ c).symm)

end Cert.Bridge.Lap

end
-- ==== Proof.TermLog.lean ====
/-
  The blur-times-Laplacian term.  Read at its one index, each program's term is the mean over (batch, pixel) of
  |blur(channel mean of I) · lapP − blur(channel mean of I_D) · lapT|, the blurs one stencil with a mirrored border,
  lapP and lapT the second images each program computes on the host; those are the same host operations in both
  programs, so from arguments that agree the two terms are one extended real.
-/
import proofs.«123598_j69123203661888_2_alg».proof.Proof.RefLog
import proofs.«123598_j69123203661888_2_alg».proof.Proof.KerLog
import proofs.«123598_j69123203661888_2_alg».proof.Proof.StatsArrays
import proofs.«123598_j69123203661888_2_alg».proof.Proof.LapBridge

noncomputable section

namespace Cert.Bridge.Log

open Idealize.ShloMosaic Idealize.ShloMosaic.TcCoe Idealize.SL.Sem Idealize.ShloMosaic.StableHlo

open Cert.KernelIdeal Cert.KernelIdeal.Gen in
/-- The kernel program's term at its one index: the first kernel's two channel-mean images are the grey images of the
    two argument batches. -/
theorem ker_log (m : (ℓ : Loc nD τ sig) → Buf (Elt Ideal) ℓ) (ρ : Dev nD → PrngReg) (c : Dev nD) :
    W17 (F := Ideal) m ρ c (Proc.devRef .tc main_v167) ValueIdx.ix0
      = Cert.TermSpec.logTerm (m ((c : Thread nD τ).loc main_arg0) : Cert.TermSpec.Img) (m ((c : Thread nD τ).loc main_arg1) : Cert.TermSpec.Img)
          (fun y x => W12 (F := Ideal) m ρ c (Proc.devRef .tc main_v88) (ValueIdx.ix2 y x))
          (fun y x => W12 (F := Ideal) m ρ c (Proc.devRef .tc main_v164) (ValueIdx.ix2 y x)) :=
  Cert.KernelIdeal.KerLog.ker_log_of m ρ c _ _
    (fun b y x => Cert.KernelIdeal.StatsArrays.grayP_apply (V0 (F := Ideal) m ρ) c b y x)
    (fun b y x => Cert.KernelIdeal.StatsArrays.grayT_apply (V0 (F := Ideal) m ρ) c b y x)

theorem log_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V' : Valuation Cert.ReferenceIdeal.τ Cert.ReferenceIdeal.sig (Elt Ideal))
    (h0 : V' (Proc.devRef .tc Cert.ReferenceIdeal.main_arg0)
        = m ((c : Thread Cert.KernelIdeal.nD Cert.KernelIdeal.τ).loc Cert.KernelIdeal.main_arg0))
    (h1 : V' (Proc.devRef .tc Cert.ReferenceIdeal.main_arg1)
        = m ((c : Thread Cert.KernelIdeal.nD Cert.KernelIdeal.τ).loc Cert.KernelIdeal.main_arg1)) :
    after (Cert.ReferenceIdeal.StagesP.stage28 (F := Ideal)) (Cert.ReferenceIdeal.ChainP.P28 V')
        (Proc.devRef .tc Cert.ReferenceIdeal.main_v403)
      = Cert.KernelIdeal.Gen.W17 m ρ c (Proc.devRef .tc Cert.KernelIdeal.main_v167) := by
  funext i
  rw [ValueIdx.eq_ix0 i]
  refine (Cert.ReferenceIdeal.RefLog.ref_log V').trans ?_
  refine Eq.trans ?_ (ker_log m ρ c).symm
  have eP : (fun y x => Cert.ReferenceIdeal.ChainP.P22 V' (Proc.devRef .tc Cert.ReferenceIdeal.main_v279) (ValueIdx.ix2 y x))
      = fun y x => Cert.KernelIdeal.Gen.W12 m ρ c (Proc.devRef .tc Cert.KernelIdeal.main_v88) (ValueIdx.ix2 y x) :=
    funext fun y => funext fun x => congrFun (Cert.Bridge.Lap.lapP_eq m ρ c V' h0 h1) (ValueIdx.ix2 y x)
  have eT : (fun y x => Cert.ReferenceIdeal.ChainP.P28 V' (Proc.devRef .tc Cert.ReferenceIdeal.main_v393) (ValueIdx.ix2 y x))
      = fun y x => Cert.KernelIdeal.Gen.W12 m ρ c (Proc.devRef .tc Cert.KernelIdeal.main_v164) (ValueIdx.ix2 y x) :=
    funext fun y => funext fun x => congrFun (Cert.Bridge.Lap.lapT_eq m ρ c V' h0 h1) (ValueIdx.ix2 y x)
  rw [eP, eT, h0, h1]

end Cert.Bridge.Log

end
-- ==== Proof.Bridge.lean ====
/-
  The two results are one number.  The idealized kernel's result is the last fold of its run at the result buffer;
  the idealized reference's is the fold of its 600 operations at its result buffer.  Each is the sum, in the same
  order, of five terms; from memories that agree on the two argument arrays, and with every input finite, the terms
  are equal one by one: three are read on both sides as the same extended real (the saturation, intensity and
  spatial-variation terms — the last is where finiteness is used, for Σ(x − μ)² = Σx² − (Σx)²/n), one is the same host
  operations on both sides (the horizontal-difference term), and one is the same mean of |blur · lap − blur · lap| once
  the two blurs are read as one stencil and the two second images are seen to be the same host operations.
-/
import proofs.«123598_j69123203661888_2_alg».proof.Defs
import proofs.«123598_j69123203661888_2_alg».proof.Proof.KernelRun
import proofs.«123598_j69123203661888_2_alg».proof.Proof.RefChainP
import proofs.«123598_j69123203661888_2_alg».proof.Proof.Tops0
import proofs.«123598_j69123203661888_2_alg».proof.Proof.FiniteInputs
import proofs.«123598_j69123203661888_2_alg».proof.Proof.RefStatTerms
import proofs.«123598_j69123203661888_2_alg».proof.Proof.KerStatTerms
import proofs.«123598_j69123203661888_2_alg».proof.Proof.TermSobel
import proofs.«123598_j69123203661888_2_alg».proof.Proof.TermLog
import proofs.«123598_j69123203661888_2_alg».proof.Proof.Gen.ReferenceIdeal
import proofs.«123598_j69123203661888_2_alg».proof.Proof.Gen.Pre_finite_inputs

noncomputable section

namespace Cert.Bridge

open Idealize.ShloMosaic Idealize.ShloMosaic.TcCoe Idealize.SL.Sem Idealize.ShloMosaic.StableHlo

/-- The reference's result buffer after its fold is the kernel's result buffer after its last fold. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)) :
    after (Cert.ReferenceIdeal.HandRun.ops (F := Ideal)) (launchContents m' c) (Proc.devRef .tc Cert.ReferenceIdeal.main_v407)
      = Cert.KernelIdeal.Gen.W18 (F := Ideal) m ρ c (Proc.devRef .tc Cert.KernelIdeal.main_v226) := by
  obtain ⟨hfin0, hfin1⟩ := Cert.FiniteInputs.finite_args m hpre c
  rw [Cert.ReferenceIdeal.ChainP.after_ops]
  funext i
  rw [ValueIdx.eq_ix0 i]
  show Cert.Bridge.Tops0.at0 (after (Cert.ReferenceIdeal.StagesP.stage28 (F := Ideal)) (Cert.ReferenceIdeal.ChainP.P28 (launchContents m' c)) (Proc.devRef .tc Cert.ReferenceIdeal.main_v407))
    = Cert.Bridge.Tops0.at0 (after (Cert.KernelIdeal.Gen.hostOps3_4 (F := Ideal)) (Cert.KernelIdeal.Gen.W17 m ρ c) (Proc.devRef .tc Cert.KernelIdeal.main_v226))
  rw [Cert.Bridge.Tops0.top_ref0, Cert.Bridge.Tops0.top_ker0]
  have e1 : Cert.Bridge.Tops0.at0 (Cert.ReferenceIdeal.ChainP.P28 (launchContents m' c) (Proc.devRef .tc Cert.ReferenceIdeal.main_v8))
      = Cert.Bridge.Tops0.at0 (after (Cert.KernelIdeal.Gen.hostOps3_4 (F := Ideal)) (Cert.KernelIdeal.Gen.W17 m ρ c) (Proc.devRef .tc Cert.KernelIdeal.main_v222)) :=
    (Cert.ReferenceIdeal.StatTerms.sat_chain (launchContents m' c)).trans ((congrArg Cert.TermSpec.satTerm h1).trans (Cert.KernelIdeal.StatTerms.sat_ker m ρ c).symm)
  have e2 : Cert.Bridge.Tops0.at0 (Cert.ReferenceIdeal.ChainP.P28 (launchContents m' c) (Proc.devRef .tc Cert.ReferenceIdeal.main_v23))
      = Cert.Bridge.Tops0.at0 (after (Cert.KernelIdeal.Gen.hostOps3_4 (F := Ideal)) (Cert.KernelIdeal.Gen.W17 m ρ c) (Proc.devRef .tc Cert.KernelIdeal.main_v220)) :=
    (Cert.ReferenceIdeal.StatTerms.spat_chain (launchContents m' c)).trans ((congrArg₂ Cert.TermSpec.spatTerm h0 h1).trans (Cert.KernelIdeal.StatTerms.spat_ker m ρ c hfin0 hfin1).symm)
  have e3 : Cert.Bridge.Tops0.at0 (Cert.ReferenceIdeal.ChainP.P28 (launchContents m' c) (Proc.devRef .tc Cert.ReferenceIdeal.main_v47))
      = Cert.Bridge.Tops0.at0 (after (Cert.KernelIdeal.Gen.hostOps3_4 (F := Ideal)) (Cert.KernelIdeal.Gen.W17 m ρ c) (Proc.devRef .tc Cert.KernelIdeal.main_v187)) :=
    congrFun (Cert.Bridge.Sobel.sobel_eq m ρ c (launchContents m' c) h0 h1) ValueIdx.ix0
  have e4 : Cert.Bridge.Tops0.at0 (Cert.ReferenceIdeal.ChainP.P28 (launchContents m' c) (Proc.devRef .tc Cert.ReferenceIdeal.main_v19))
      = Cert.Bridge.Tops0.at0 (after (Cert.KernelIdeal.Gen.hostOps3_4 (F := Ideal)) (Cert.KernelIdeal.Gen.W17 m ρ c) (Proc.devRef .tc Cert.KernelIdeal.main_v216)) :=
    (Cert.ReferenceIdeal.StatTerms.int_chain (launchContents m' c)).trans ((congrArg Cert.TermSpec.intTerm h1).trans (Cert.KernelIdeal.StatTerms.int_ker m ρ c).symm)
  have e5 : Cert.Bridge.Tops0.at0 (after (Cert.ReferenceIdeal.StagesP.stage28 (F := Ideal)) (Cert.ReferenceIdeal.ChainP.P28 (launchContents m' c)) (Proc.devRef .tc Cert.ReferenceIdeal.main_v403))
      = Cert.Bridge.Tops0.at0 (Cert.KernelIdeal.Gen.W17 m ρ c (Proc.devRef .tc Cert.KernelIdeal.main_v167)) :=
    congrFun (Cert.Bridge.Log.log_eq m ρ c (launchContents m' c) h0 h1) ValueIdx.ix0
  rw [e1, e2, e3, e4, e5]

end Cert.Bridge

end
-- ==== Proof.lean ====
/-
  Two programs compute one image-restoration loss of two image batches I_D, I (eight batches, three channels,
  1024 × 1024): the mean squared excursion of I outside [0, 1]; the mean squared difference, per batch and channel, of
  the unbiased standard deviations of I and I_D; the mean absolute difference of a horizontal difference filter on the
  first channel of the first batch; the mean squared distance of I's channel means from 1/2; and the mean absolute
  difference of (blurred channel-mean image) × (Laplacian of the blurred first image) between the two batches.

  The kernel program runs three kernels — per-tile sums, sums of squares and channel means accumulated over row tiles;
  a 3 × 3 blur with a mirrored border; a per-batch absolute-difference sum — among host operations; the reference is
  host operations only.  Both runs terminate, nothing faulting, with the argument arrays unchanged (the frames); the
  idealized kernel is the kernel's own text (no rewrite: `preserves` is trivial); and at the ideal instance, where a
  float is an extended real and every operation exact, the two results are equal (`Cert.Bridge.result_eq`): the sums
  differ only in grouping, the standard deviations by the identity Σ(x − μ)² = Σx² − (Σx)²/n on finite inputs, and the
  two blurs build the same mirrored border.
-/
import proofs.«123598_j69123203661888_2_alg».proof.Defs
import proofs.«123598_j69123203661888_2_alg».proof.Proof.Gen.Kernel
import proofs.«123598_j69123203661888_2_alg».proof.Proof.Gen.Kernel.Frame
import proofs.«123598_j69123203661888_2_alg».proof.Proof.Gen.KernelIdeal
import proofs.«123598_j69123203661888_2_alg».proof.Proof.Gen.KernelIdeal.Frame
import proofs.«123598_j69123203661888_2_alg».proof.Proof.Gen.ReferenceIdeal
import proofs.«123598_j69123203661888_2_alg».proof.Proof.Gen.Pre_finite_inputs
import proofs.«123598_j69123203661888_2_alg».proof.Proof.KernelRun
import proofs.«123598_j69123203661888_2_alg».proof.Proof.RefRun
import proofs.«123598_j69123203661888_2_alg».proof.Proof.RefArgs
import proofs.«123598_j69123203661888_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's frame: its run with everything but the two argument arrays forgotten. -/
theorem frame_ri : Cert.frame_ReferenceIdeal := fun m ρ _ =>
  (θ_run Cert.ReferenceIdeal.defs _ _).mono
    (fun _ h c => ⟨(h c Cert.ReferenceIdeal.main_arg0).trans (Cert.ReferenceIdeal.Args.kept_arg0 _), (h c Cert.ReferenceIdeal.main_arg1).trans (Cert.ReferenceIdeal.Args.kept_arg1 _)⟩)
    (Cert.ReferenceIdeal.HandRun.run_main (F := Ideal) m ρ)

/-- Both idealized programs run, and end with one result: the kernel's at its last fold, the reference's at its fold
    of operations, equal by `Cert.Bridge.result_eq`. -/
theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v226),
    Cert.KernelIdeal.ValueRun.run_value (F := Ideal) m ρ, ?_⟩
  refine (θ_run Cert.ReferenceIdeal.defs _ _).mono (fun _ h c => ⟨?_, ?_, ?_⟩)
    (Cert.ReferenceIdeal.HandRun.run_main (F := Ideal) m' ρ')
  · exact (h c Cert.ReferenceIdeal.main_v407).trans (Cert.Bridge.result_eq m ρ m' hpre c (hagree c).1 (hagree c).2)
  · exact (h c Cert.ReferenceIdeal.main_arg0).trans (Cert.ReferenceIdeal.Args.kept_arg0 _)
  · exact (h c Cert.ReferenceIdeal.main_arg1).trans (Cert.ReferenceIdeal.Args.kept_arg1 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
